-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v314) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x26 : Shape := ⟨2, ![16384, 26]⟩
abbrev S128x128 : Shape := ⟨2, ![128, 128]⟩
abbrev S_ : Shape := ⟨0, ![]⟩

class Facts : Prop where
  bcast_S_S128x128 : S_.BroadcastsInDim S128x128 (![] : Fin 0 → Fin S128x128.rank)
  reducesTo_S128x128_S_d0_1 : S128x128.ReducesTo [0, 1] S_
  h_S_ : 0 < S_.numel
  bcast_S_S16384x26 : S_.BroadcastsInDim S16384x26 (![] : Fin 0 → Fin S16384x26.rank)
  reducesTo_S16384x26_S_d0_1 : S16384x26.ReducesTo [0, 1] S_

variable [Facts]

def fn_part7 {F : FTy → Type} [FloatOps F] (main_arg0 : IVec S16384x26 32) (main_arg26 : FVec F S128x128 .f32) (main_v118 : IVec S_ 1) (main_v119 : FVec F S128x128 .f32) : IVec S_ 1 :=
  let main_cst_46 : FVec F S_ .f32 := constant S_ .f32 0x7F800000#32
  let main_v120 : FVec F S128x128 .f32 := broadcastInDim S128x128 ![] bcast_S_S128x128 main_cst_46
  let main_v121 : IVec S128x128 1 := cmpf .olt main_v119 main_v120
  let main_c_47 : IVec S_ 1 := constantI S_ 1 1#1
  let main_v122 : IVec S_ 1 := (fun x v => Host.reduce IntOp.andi x v reducesTo_S128x128_S_d0_1 h_S_) main_v121 main_c_47
  let main_v123 : IVec S_ 1 := andi main_v118 main_v122
  let main_v124 : FVec F S128x128 .f32 := Host.absf main_arg26
  let main_cst_48 : FVec F S_ .f32 := constant S_ .f32 0x7F800000#32
  let main_v125 : FVec F S128x128 .f32 := broadcastInDim S128x128 ![] bcast_S_S128x128 main_cst_48
  let main_v126 : IVec S128x128 1 := cmpf .olt main_v124 main_v125
  let main_c_49 : IVec S_ 1 := constantI S_ 1 1#1
  let main_v127 : IVec S_ 1 := (fun x v => Host.reduce IntOp.andi x v reducesTo_S128x128_S_d0_1 h_S_) main_v126 main_c_49
  let main_v128 : IVec S_ 1 := andi main_v123 main_v127
  let main_c_50 : IVec S_ 32 := constantI S_ 32 0#32
  let main_v129 : IVec S16384x26 32 := broadcastInDim S16384x26 ![] bcast_S_S16384x26 main_c_50
  let main_v130 : IVec S16384x26 1 := cmpi .sge main_arg0 main_v129
  let main_c_51 : IVec S_ 32 := constantI S_ 32 127#32
  let main_v131 : IVec S16384x26 32 := broadcastInDim S16384x26 ![] bcast_S_S16384x26 main_c_51
  let main_v132 : IVec S16384x26 1 := cmpi .sle main_arg0 main_v131
  let main_v133 : IVec S16384x26 1 := andi main_v130 main_v132
  let main_c_52 : IVec S_ 1 := constantI S_ 1 1#1
  let main_v134 : IVec S_ 1 := (fun x v => Host.reduce IntOp.andi x v reducesTo_S16384x26_S_d0_1 h_S_) main_v133 main_c_52
  let main_v135 : IVec S_ 1 := andi main_v128 main_v134
  main_v135

def fn_part6 {F : FTy → Type} [FloatOps F] (main_arg0 : IVec S16384x26 32) (main_arg22 : FVec F S128x128 .f32) (main_arg23 : FVec F S128x128 .f32) (main_arg24 : FVec F S128x128 .f32) (main_arg25 : FVec F S128x128 .f32) (main_arg26 : FVec F S128x128 .f32) (main_v98 : IVec S_ 1) (main_v101 : IVec S128x128 1) (main_c_39 : IVec S_ 1) : IVec S_ 1 :=
  let main_v102 : IVec S_ 1 := (fun x v => Host.reduce IntOp.andi x v reducesTo_S128x128_S_d0_1 h_S_) main_v101 main_c_39
  let main_v103 : IVec S_ 1 := andi main_v98 main_v102
  let main_v104 : FVec F S128x128 .f32 := Host.absf main_arg22
  let main_cst_40 : FVec F S_ .f32 := constant S_ .f32 0x7F800000#32
  let main_v105 : FVec F S128x128 .f32 := broadcastInDim S128x128 ![] bcast_S_S128x128 main_cst_40
  let main_v106 : IVec S128x128 1 := cmpf .olt main_v104 main_v105
  let main_c_41 : IVec S_ 1 := constantI S_ 1 1#1
  let main_v107 : IVec S_ 1 := (fun x v => Host.reduce IntOp.andi x v reducesTo_S128x128_S_d0_1 h_S_) main_v106 main_c_41
  let main_v108 : IVec S_ 1 := andi main_v103 main_v107
  let main_v109 : FVec F S128x128 .f32 := Host.absf main_arg23
  let main_cst_42 : FVec F S_ .f32 := constant S_ .f32 0x7F800000#32
  let main_v110 : FVec F S128x128 .f32 := broadcastInDim S128x128 ![] bcast_S_S128x128 main_cst_42
  let main_v111 : IVec S128x128 1 := cmpf .olt main_v109 main_v110
  let main_c_43 : IVec S_ 1 := constantI S_ 1 1#1
  let main_v112 : IVec S_ 1 := (fun x v => Host.reduce IntOp.andi x v reducesTo_S128x128_S_d0_1 h_S_) main_v111 main_c_43
  let main_v113 : IVec S_ 1 := andi main_v108 main_v112
  let main_v114 : FVec F S128x128 .f32 := Host.absf main_arg24
  let main_cst_44 : FVec F S_ .f32 := constant S_ .f32 0x7F800000#32
  let main_v115 : FVec F S128x128 .f32 := broadcastInDim S128x128 ![] bcast_S_S128x128 main_cst_44
  let main_v116 : IVec S128x128 1 := cmpf .olt main_v114 main_v115
  let main_c_45 : IVec S_ 1 := constantI S_ 1 1#1
  let main_v117 : IVec S_ 1 := (fun x v => Host.reduce IntOp.andi x v reducesTo_S128x128_S_d0_1 h_S_) main_v116 main_c_45
  let main_v118 : IVec S_ 1 := andi main_v113 main_v117
  let main_v119 : FVec F S128x128 .f32 := Host.absf main_arg25
  fn_part7 (F := F) main_arg0 main_arg26 main_v118 main_v119

def fn_part5 {F : FTy → Type} [FloatOps F] (main_arg0 : IVec S16384x26 32) (main_arg19 : FVec F S128x128 .f32) (main_arg20 : FVec F S128x128 .f32) (main_arg21 : FVec F S128x128 .f32) (main_arg22 : FVec F S128x128 .f32) (main_arg23 : FVec F S128x128 .f32) (main_arg24 : FVec F S128x128 .f32) (main_arg25 : FVec F S128x128 .f32) (main_arg26 : FVec F S128x128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128x128 .f32 := Host.absf main_arg19
  let main_cst_34 : FVec F S_ .f32 := constant S_ .f32 0x7F800000#32
  let main_v90 : FVec F S128x128 .f32 := broadcastInDim S128x128 ![] bcast_S_S128x128 main_cst_34
  let main_v91 : IVec S128x128 1 := cmpf .olt main_v89 main_v90
  let main_c_35 : IVec S_ 1 := constantI S_ 1 1#1
  let main_v92 : IVec S_ 1 := (fun x v => Host.reduce IntOp.andi x v reducesTo_S128x128_S_d0_1 h_S_) main_v91 main_c_35
  let main_v93 : IVec S_ 1 := andi main_v88 main_v92
  let main_v94 : FVec F S128x128 .f32 := Host.absf main_arg20
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128x128 .f32 := Host.absf main_arg21
  let main_cst_38 : FVec F S_ .f32 := constant S_ .f32 0x7F800000#32
  let main_v100 : FVec F S128x128 .f32 := broadcastInDim S128x128 ![] bcast_S_S128x128 main_cst_38
  let main_v101 : IVec S128x128 1 := cmpf .olt main_v99 main_v100
  let main_c_39 : IVec S_ 1 := constantI S_ 1 1#1
  fn_part6 (F := F) main_arg0 main_arg22 main_arg23 main_arg24 main_arg25 main_arg26 main_v98 main_v101 main_c_39

def fn_part4 {F : FTy → Type} [FloatOps F] (main_arg0 : IVec S16384x26 32) (main_arg15 : FVec F S128x128 .f32) (main_arg16 : FVec F S128x128 .f32) (main_arg17 : FVec F S128x128 .f32) (main_arg18 : FVec F S128x128 .f32) (main_arg19 : FVec F S128x128 .f32) (main_arg20 : FVec F S128x128 .f32) (main_arg21 : FVec F S128x128 .f32) (main_arg22 : FVec F S128x128 .f32) (main_arg23 : FVec F S128x128 .f32) (main_arg24 : FVec F S128x128 .f32) (main_arg25 : FVec F S128x128 .f32) (main_arg26 : FVec F S128x128 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128x128 .f32 := Host.absf main_arg16
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128x128 .f32 := Host.absf main_arg17
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128x128 .f32 := Host.absf main_arg18
  let main_cst_32 : FVec F S_ .f32 := constant S_ .f32 0x7F800000#32
  fn_part5 (F := F) main_arg0 main_arg19 main_arg20 main_arg21 main_arg22 main_arg23 main_arg24 main_arg25 main_arg26 main_v83 main_v84 main_cst_32

def fn_part3 {F : FTy → Type} [FloatOps F] (main_arg0 : IVec S16384x26 32) (main_arg12 : FVec F S128x128 .f32) (main_arg13 : FVec F S128x128 .f32) (main_arg14 : FVec F S128x128 .f32) (main_arg15 : FVec F S128x128 .f32) (main_arg16 : FVec F S128x128 .f32) (main_arg17 : FVec F S128x128 .f32) (main_arg18 : FVec F S128x128 .f32) (main_arg19 : FVec F S128x128 .f32) (main_arg20 : FVec F S128x128 .f32) (main_arg21 : FVec F S128x128 .f32) (main_arg22 : FVec F S128x128 .f32) (main_arg23 : FVec F S128x128 .f32) (main_arg24 : FVec F S128x128 .f32) (main_arg25 : FVec F S128x128 .f32) (main_arg26 : FVec F S128x128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128x128 .f32 := Host.absf main_arg13
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128x128 .f32 := Host.absf main_arg14
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg0 main_arg15 main_arg16 main_arg17 main_arg18 main_arg19 main_arg20 main_arg21 main_arg22 main_arg23 main_arg24 main_arg25 main_arg26 main_v63 main_v67

def fn_part2 {F : FTy → Type} [FloatOps F] (main_arg0 : IVec S16384x26 32) (main_arg8 : FVec F S128x128 .f32) (main_arg9 : FVec F S128x128 .f32) (main_arg10 : FVec F S128x128 .f32) (main_arg11 : FVec F S128x128 .f32) (main_arg12 : FVec F S128x128 .f32) (main_arg13 : FVec F S128x128 .f32) (main_arg14 : FVec F S128x128 .f32) (main_arg15 : FVec F S128x128 .f32) (main_arg16 : FVec F S128x128 .f32) (main_arg17 : FVec F S128x128 .f32) (main_arg18 : FVec F S128x128 .f32) (main_arg19 : FVec F S128x128 .f32) (main_arg20 : FVec F S128x128 .f32) (main_arg21 : FVec F S128x128 .f32) (main_arg22 : FVec F S128x128 .f32) (main_arg23 : FVec F S128x128 .f32) (main_arg24 : FVec F S128x128 .f32) (main_arg25 : FVec F S128x128 .f32) (main_arg26 : FVec F S128x128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg0 main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg0 : IVec S16384x26 32) (main_arg5 : FVec F S128x128 .f32) (main_arg6 : FVec F S128x128 .f32) (main_arg7 : FVec F S128x128 .f32) (main_arg8 : FVec F S128x128 .f32) (main_arg9 : FVec F S128x128 .f32) (main_arg10 : FVec F S128x128 .f32) (main_arg11 : FVec F S128x128 .f32) (main_arg12 : FVec F S128x128 .f32) (main_arg13 : FVec F S128x128 .f32) (main_arg14 : FVec F S128x128 .f32) (main_arg15 : FVec F S128x128 .f32) (main_arg16 : FVec F S128x128 .f32) (main_arg17 : FVec F S128x128 .f32) (main_arg18 : FVec F S128x128 .f32) (main_arg19 : FVec F S128x128 .f32) (main_arg20 : FVec F S128x128 .f32) (main_arg21 : FVec F S128x128 .f32) (main_arg22 : FVec F S128x128 .f32) (main_arg23 : FVec F S128x128 .f32) (main_arg24 : FVec F S128x128 .f32) (main_arg25 : FVec F S128x128 .f32) (main_arg26 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg0 main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : IVec S16384x26 32) (main_arg1 : FVec F S128x128 .f32) (main_arg2 : FVec F S128x128 .f32) (main_arg3 : FVec F S128x128 .f32) (main_arg4 : FVec F S128x128 .f32) (main_arg5 : FVec F S128x128 .f32) (main_arg6 : FVec F S128x128 .f32) (main_arg7 : FVec F S128x128 .f32) (main_arg8 : FVec F S128x128 .f32) (main_arg9 : FVec F S128x128 .f32) (main_arg10 : FVec F S128x128 .f32) (main_arg11 : FVec F S128x128 .f32) (main_arg12 : FVec F S128x128 .f32) (main_arg13 : FVec F S128x128 .f32) (main_arg14 : FVec F S128x128 .f32) (main_arg15 : FVec F S128x128 .f32) (main_arg16 : FVec F S128x128 .f32) (main_arg17 : FVec F S128x128 .f32) (main_arg18 : FVec F S128x128 .f32) (main_arg19 : FVec F S128x128 .f32) (main_arg20 : FVec F S128x128 .f32) (main_arg21 : FVec F S128x128 .f32) (main_arg22 : FVec F S128x128 .f32) (main_arg23 : FVec F S128x128 .f32) (main_arg24 : FVec F S128x128 .f32) (main_arg25 : FVec F S128x128 .f32) (main_arg26 : FVec F S128x128 .f32) : IVec S_ 1 :=
  let main_v0 : FVec F S128x128 .f32 := Host.absf main_arg1
  let main_cst : FVec F S_ .f32 := constant S_ .f32 0x7F800000#32
  let main_v1 : FVec F S128x128 .f32 := broadcastInDim S128x128 ![] bcast_S_S128x128 main_cst
  let main_v2 : IVec S128x128 1 := cmpf .olt main_v0 main_v1
  let main_c : IVec S_ 1 := constantI S_ 1 1#1
  let main_v3 : IVec S_ 1 := (fun x v => Host.reduce IntOp.andi x v reducesTo_S128x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg0 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S16384x26 : Shape := ⟨2, ![16384, 26]⟩
abbrev S128x128 : Shape := ⟨2, ![128, 128]⟩
abbrev S3328x128 : Shape := ⟨2, ![3328, 128]⟩
abbrev S128 : Shape := ⟨1, ![128]⟩
abbrev S128x1 : Shape := ⟨2, ![128, 1]⟩
abbrev S425984 : Shape := ⟨1, ![425984]⟩
abbrev S16384x3328 : Shape := ⟨2, ![16384, 3328]⟩
abbrev S13312 : Shape := ⟨1, ![13312]⟩
abbrev S104x128 : Shape := ⟨2, ![104, 128]⟩
abbrev S_ : Shape := ⟨0, ![]⟩
abbrev S16 : Shape := ⟨1, ![16]⟩
abbrev S104 : Shape := ⟨1, ![104]⟩
abbrev S4x3328 : Shape := ⟨2, ![4, 3328]⟩

abbrev nBuf : Table → Nat
  | .hbm => 30
  | .local .tc .vmem => 27
  | .local .scVector .vmem => 9
  | _ => 0

abbrev bufTy : (tb : Table) → Fin (nBuf tb) → BufTy
  | .hbm, ⟨0, _⟩ => ⟨S16384x26, .i32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S128x128, .f32⟩
  | .hbm, ⟨13, _⟩ => ⟨S128x128, .f32⟩
  | .hbm, ⟨14, _⟩ => ⟨S128x128, .f32⟩
  | .hbm, ⟨15, _⟩ => ⟨S128x128, .f32⟩
  | .hbm, ⟨16, _⟩ => ⟨S128x128, .f32⟩
  | .hbm, ⟨17, _⟩ => ⟨S128x128, .f32⟩
  | .hbm, ⟨18, _⟩ => ⟨S128x128, .f32⟩
  | .hbm, ⟨19, _⟩ => ⟨S128x128, .f32⟩
  | .hbm, ⟨20, _⟩ => ⟨S128x128, .f32⟩
  | .hbm, ⟨21, _⟩ => ⟨S128x128, .f32⟩
  | .hbm, ⟨22, _⟩ => ⟨S128x128, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S128x128, .f32⟩
  | .hbm, ⟨27, _⟩ => ⟨S3328x128, .f32⟩
  | .hbm, ⟨28, _⟩ => ⟨S425984, .i32⟩
  | .hbm, ⟨29, _⟩ => ⟨S16384x3328, .f32⟩
  | .local .tc .vmem, ⟨0, _⟩ => ⟨S128x128, .f32⟩
  | .local .tc .vmem, ⟨1, _⟩ => ⟨S128x128, .f32⟩
  | .local .tc .vmem, ⟨2, _⟩ => ⟨S128x128, .f32⟩
  | .local .tc .vmem, ⟨3, _⟩ => ⟨S128x128, .f32⟩
  | .local .tc .vmem, ⟨4, _⟩ => ⟨S128x128, .f32⟩
  | .local .tc .vmem, ⟨5, _⟩ => ⟨S128x128, .f32⟩
  | .local .tc .vmem, ⟨6, _⟩ => ⟨S128x128, .f32⟩
  | .local .tc .vmem, ⟨7, _⟩ => ⟨S128x128, .f32⟩
  | .local .tc .vmem, ⟨8, _⟩ => ⟨S128x128, .f32⟩
  | .local .tc .vmem, ⟨9, _⟩ => ⟨S128x128, .f32⟩
  | .local .tc .vmem, ⟨10, _⟩ => ⟨S128x128, .f32⟩
  | .local .tc .vmem, ⟨11, _⟩ => ⟨S128x128, .f32⟩
  | .local .tc .vmem, ⟨12, _⟩ => ⟨S128x128, .f32⟩
  | .local .tc .vmem, ⟨13, _⟩ => ⟨S128x128, .f32⟩
  | .local .tc .vmem, ⟨14, _⟩ => ⟨S128x128, .f32⟩
  | .local .tc .vmem, ⟨15, _⟩ => ⟨S128x128, .f32⟩
  | .local .tc .vmem, ⟨16, _⟩ => ⟨S128x128, .f32⟩
  | .local .tc .vmem, ⟨17, _⟩ => ⟨S128x128, .f32⟩
  | .local .tc .vmem, ⟨18, _⟩ => ⟨S128x128, .f32⟩
  | .local .tc .vmem, ⟨19, _⟩ => ⟨S128x128, .f32⟩
  | .local .tc .vmem, ⟨20, _⟩ => ⟨S128x128, .f32⟩
  | .local .tc .vmem, ⟨21, _⟩ => ⟨S128x128, .f32⟩
  | .local .tc .vmem, ⟨22, _⟩ => ⟨S128x128, .f32⟩
  | .local .tc .vmem, ⟨23, _⟩ => ⟨S128x128, .f32⟩
  | .local .tc .vmem, ⟨24, _⟩ => ⟨S128x128, .f32⟩
  | .local .tc .vmem, ⟨25, _⟩ => ⟨S128x128, .f32⟩
  | .local .tc .vmem, ⟨26, _⟩ => ⟨S3328x128, .f32⟩
  | .local .scVector .vmem, ⟨0, _⟩ => ⟨S13312, .i32⟩
  | .local .scVector .vmem, ⟨1, _⟩ => ⟨S104x128, .f32⟩
  | .local .scVector .vmem, ⟨2, _⟩ => ⟨S104x128, .f32⟩
  | .local .scVector .vmem, ⟨3, _⟩ => ⟨S104x128, .f32⟩
  | .local .scVector .vmem, ⟨4, _⟩ => ⟨S104x128, .f32⟩
  | .local .scVector .vmem, ⟨5, _⟩ => ⟨S104x128, .f32⟩
  | .local .scVector .vmem, ⟨6, _⟩ => ⟨S104x128, .f32⟩
  | .local .scVector .vmem, ⟨7, _⟩ => ⟨S104x128, .f32⟩
  | .local .scVector .vmem, ⟨8, _⟩ => ⟨S104x128, .f32⟩
  | _, _ => ⟨S16384x26, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | _ => false

abbrev sig : RefSig :=
  ofTables nBuf rfl bufTy 4 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_v2 : Ref sig .tc := ⟨.hbm, 29, rfl⟩
abbrev main_v1_scv : Ref sig .scVector := ⟨.hbm, 28, rfl⟩
abbrev main_v0_scv : Ref sig .scVector := ⟨.hbm, 27, rfl⟩
abbrev main_v2_scv : Ref sig .scVector := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc1_scratch6 : Ref sig .scVector := ⟨.vmem, 6, rfl⟩
abbrev cc1_scratch7 : Ref sig .scVector := ⟨.vmem, 7, rfl⟩
abbrev cc1_scratch8 : Ref sig .scVector := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S128x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S128x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S128x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S128x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S128x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S128x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S3328x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c13312_i32 : BitVec 32 := 13312#32
  let v2 : BitVec 32 := Scalar.muli v1 c13312_i32
  ![v2.toNat]
@[reducible] def k1_t1_loop : Scf.Loop 32 :=
  let c0_i32_0 : BitVec 32 := 0#32
  let c52_i32 : BitVec 32 := 52#32
  let v5 : BitVec 32 := Scalar.addi c0_i32_0 c52_i32
  let c1_i32 : BitVec 32 := 1#32
  ⟨c0_i32_0, v5, c1_i32⟩
def k1_off2 (k1_t1 : Fin k1_t1_loop.trips) : Fin 1 → Nat :=
  let c0_i32_0 : BitVec 32 := 0#32
  let c1_i32 : BitVec 32 := 1#32
  let arg30 : BitVec 32 := Scf.iv c0_i32_0 c1_i32 k1_t1
  let c16_i32_84 : BitVec 32 := 16#32
  let v112 : BitVec 32 := Scalar.muli arg30 c16_i32_84
  let v120 : Index := Scalar.indexCast v112
  ![v120.toNat]
@[reducible] def k1_t2_loop : Scf.Loop 32 :=
  let c52_i32_20 : BitVec 32 := 52#32
  let c780_i32 : BitVec 32 := 780#32
  let v22 : BitVec 32 := Scalar.addi c52_i32_20 c780_i32
  let c1_i32_21 : BitVec 32 := 1#32
  ⟨c52_i32_20, v22, c1_i32_21⟩
def k1_off3 (k1_t2 : Fin k1_t2_loop.trips) : Fin 1 → Nat :=
  let c52_i32_20 : BitVec 32 := 52#32
  let c1_i32_21 : BitVec 32 := 1#32
  let arg30 : BitVec 32 := Scf.iv c52_i32_20 c1_i32_21 k1_t2
  let c16_i32_84 : BitVec 32 := 16#32
  let v112 : BitVec 32 := Scalar.muli arg30 c16_i32_84
  let v120 : Index := Scalar.indexCast v112
  ![v120.toNat]
def k1_off4 (i : grid1.Coords) (c0_i32_26 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let v25 : BitVec 32 := Scalar.addi v3 c0_i32_26
  let c0_i32_27 : BitVec 32 := 0#32
  ![v25.toNat, 0]
@[reducible] def k1_t3_loop : Scf.Loop 32 :=
  let c1_i32_65 : BitVec 32 := 1#32
  let c15_i32 : BitVec 32 := 15#32
  let v79 : BitVec 32 := Scalar.addi c1_i32_65 c15_i32
  let c1_i32_66 : BitVec 32 := 1#32
  ⟨c1_i32_65, v79, c1_i32_66⟩
def k1_off5 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let c0_i32_84 : BitVec 32 := 0#32
  ![v3.toNat, 0]
def k1_off6 (k1_t3 : Fin k1_t3_loop.trips) (c0_i32_87 : BitVec 32) : Fin 1 → Nat :=
  let c1_i32_65 : BitVec 32 := 1#32
  let c1_i32_66 : BitVec 32 := 1#32
  let arg30 : BitVec 32 := Scf.iv c1_i32_65 c1_i32_66 k1_t3
  let c8_i32_86 : BitVec 32 := 8#32
  let v116 : BitVec 32 := Scalar.muli arg30 c8_i32_86
  let v117 : BitVec 32 := Scalar.addi v116 c0_i32_87
  let c104_i32_88 : BitVec 32 := 104#32
  let v118 : BitVec 32 := Scalar.muli v117 c104_i32_88
  ![v118.toNat]
def k1_off7 (i : grid1.Coords) (k1_t3 : Fin k1_t3_loop.trips) (c0_i32_139 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let c1_i32_65 : BitVec 32 := 1#32
  let c1_i32_66 : BitVec 32 := 1#32
  let arg30 : BitVec 32 := Scf.iv c1_i32_65 c1_i32_66 k1_t3
  let c8_i32_138 : BitVec 32 := 8#32
  let v186 : BitVec 32 := Scalar.muli arg30 c8_i32_138
  let v187 : BitVec 32 := Scalar.addi v186 c0_i32_139
  let c4_i32_140 : BitVec 32 := 4#32
  let v188 : BitVec 32 := Scalar.muli v187 c4_i32_140
  let v189 : BitVec 32 := Scalar.addi v3 v188
  let c0_i32_141 : BitVec 32 := 0#32
  ![v189.toNat, 0]
def k1_off8 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v3 : BitVec 32 := Scalar.muli v1 c512_i32
  let c0_i32_68 : BitVec 32 := 0#32
  ![v3.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  inb_S128x128_S128x128_0_0 : ∀ a, (![0, 0] : Fin 2 → Nat) a + S128x128.size a ≤ S128x128.size a
  h_S128x128 : 0 < S128x128.numel
  reduces_S128x128_S128 : S128x128.Reduces [1] S128
  shapeCasts_S128_S128x1 : S128.ShapeCasts S128x1
  broadcasts_S128x1_S128x128 : S128x1.Broadcasts S128x128
  inb_S3328x128_S128x128_0_0 : ∀ a, (![0, 0] : Fin 2 → Nat) a + S128x128.size a ≤ S3328x128.size a
  inb_S3328x128_S128x128_128_0 : ∀ a, (![128, 0] : Fin 2 → Nat) a + S128x128.size a ≤ S3328x128.size a
  inb_S3328x128_S128x128_256_0 : ∀ a, (![256, 0] : Fin 2 → Nat) a + S128x128.size a ≤ S3328x128.size a
  inb_S3328x128_S128x128_384_0 : ∀ a, (![384, 0] : Fin 2 → Nat) a + S128x128.size a ≤ S3328x128.size a
  inb_S3328x128_S128x128_512_0 : ∀ a, (![512, 0] : Fin 2 → Nat) a + S128x128.size a ≤ S3328x128.size a
  inb_S3328x128_S128x128_640_0 : ∀ a, (![640, 0] : Fin 2 → Nat) a + S128x128.size a ≤ S3328x128.size a
  inb_S3328x128_S128x128_768_0 : ∀ a, (![768, 0] : Fin 2 → Nat) a + S128x128.size a ≤ S3328x128.size a
  inb_S3328x128_S128x128_896_0 : ∀ a, (![896, 0] : Fin 2 → Nat) a + S128x128.size a ≤ S3328x128.size a
  inb_S3328x128_S128x128_1024_0 : ∀ a, (![1024, 0] : Fin 2 → Nat) a + S128x128.size a ≤ S3328x128.size a
  inb_S3328x128_S128x128_1152_0 : ∀ a, (![1152, 0] : Fin 2 → Nat) a + S128x128.size a ≤ S3328x128.size a
  inb_S3328x128_S128x128_1280_0 : ∀ a, (![1280, 0] : Fin 2 → Nat) a + S128x128.size a ≤ S3328x128.size a
  inb_S3328x128_S128x128_1408_0 : ∀ a, (![1408, 0] : Fin 2 → Nat) a + S128x128.size a ≤ S3328x128.size a
  inb_S3328x128_S128x128_1536_0 : ∀ a, (![1536, 0] : Fin 2 → Nat) a + S128x128.size a ≤ S3328x128.size a
  inb_S3328x128_S128x128_1664_0 : ∀ a, (![1664, 0] : Fin 2 → Nat) a + S128x128.size a ≤ S3328x128.size a
  inb_S3328x128_S128x128_1792_0 : ∀ a, (![1792, 0] : Fin 2 → Nat) a + S128x128.size a ≤ S3328x128.size a
  inb_S3328x128_S128x128_1920_0 : ∀ a, (![1920, 0] : Fin 2 → Nat) a + S128x128.size a ≤ S3328x128.size a
  inb_S3328x128_S128x128_2048_0 : ∀ a, (![2048, 0] : Fin 2 → Nat) a + S128x128.size a ≤ S3328x128.size a
  inb_S3328x128_S128x128_2176_0 : ∀ a, (![2176, 0] : Fin 2 → Nat) a + S128x128.size a ≤ S3328x128.size a
  inb_S3328x128_S128x128_2304_0 : ∀ a, (![2304, 0] : Fin 2 → Nat) a + S128x128.size a ≤ S3328x128.size a
  inb_S3328x128_S128x128_2432_0 : ∀ a, (![2432, 0] : Fin 2 → Nat) a + S128x128.size a ≤ S3328x128.size a
  inb_S3328x128_S128x128_2560_0 : ∀ a, (![2560, 0] : Fin 2 → Nat) a + S128x128.size a ≤ S3328x128.size a
  inb_S3328x128_S128x128_2688_0 : ∀ a, (![2688, 0] : Fin 2 → Nat) a + S128x128.size a ≤ S3328x128.size a
  inb_S3328x128_S128x128_2816_0 : ∀ a, (![2816, 0] : Fin 2 → Nat) a + S128x128.size a ≤ S3328x128.size a
  inb_S3328x128_S128x128_2944_0 : ∀ a, (![2944, 0] : Fin 2 → Nat) a + S128x128.size a ≤ S3328x128.size a
  inb_S3328x128_S128x128_3072_0 : ∀ a, (![3072, 0] : Fin 2 → Nat) a + S128x128.size a ≤ S3328x128.size a
  inb_S3328x128_S128x128_3200_0 : ∀ a, (![3200, 0] : Fin 2 → Nat) a + S128x128.size a ≤ S3328x128.size a
  shapeCasts_S16384x26_S425984 : S16384x26.ShapeCasts S425984
  iota_S16_d0_w32_scVector : S16.Iotas .scVector 32 [0]
  h_S16 : 0 < S16.numel
  shapeCasts_S16_S16 : S16.ShapeCasts S16
  inb_S13312_S104_0 : ∀ a, (![0] : Fin 1 → Nat) a + S104.size a ≤ S13312.size a
  inb_S3328x128_S3328x128_0_0 : ∀ a, (![0, 0] : Fin 2 → Nat) a + S3328x128.size a ≤ S3328x128.size a
  gathers_S3328x128_S104x128 : S3328x128.Gathers 0 S104x128
  inb_S13312_S104_104 : ∀ a, (![104] : Fin 1 → Nat) a + S104.size a ≤ S13312.size a
  inb_S13312_S104_208 : ∀ a, (![208] : Fin 1 → Nat) a + S104.size a ≤ S13312.size a
  inb_S13312_S104_312 : ∀ a, (![312] : Fin 1 → Nat) a + S104.size a ≤ S13312.size a
  inb_S13312_S104_416 : ∀ a, (![416] : Fin 1 → Nat) a + S104.size a ≤ S13312.size a
  inb_S13312_S104_520 : ∀ a, (![520] : Fin 1 → Nat) a + S104.size a ≤ S13312.size a
  inb_S13312_S104_624 : ∀ a, (![624] : Fin 1 → Nat) a + S104.size a ≤ S13312.size a
  inb_S13312_S104_728 : ∀ a, (![728] : Fin 1 → Nat) a + S104.size a ≤ S13312.size a
  reshapes_S104x128_S4x3328 : S4x3328.numel = S104x128.numel ∧ (2 ≤ S104x128.rank ∧ 2 ≤ S4x3328.rank)
  hcc1_scratch9 : 27 + S_.numel ≤ 44
  hcc1_scratch10 : 28 + S_.numel ≤ 44
  hcc1_scratch11 : 29 + S_.numel ≤ 44
  hcc1_scratch12 : 30 + S_.numel ≤ 44
  hcc1_scratch13 : 31 + S_.numel ≤ 44
  hcc1_scratch14 : 32 + S_.numel ≤ 44
  hcc1_scratch15 : 33 + S_.numel ≤ 44
  hcc1_scratch16 : 34 + S_.numel ≤ 44
  hcc1_scratch17 : 35 + S_.numel ≤ 44
  hcc1_scratch18 : 36 + S_.numel ≤ 44
  hcc1_scratch19 : 37 + S_.numel ≤ 44
  hcc1_scratch20 : 38 + S_.numel ≤ 44
  hcc1_scratch21 : 39 + S_.numel ≤ 44
  hcc1_scratch22 : 40 + S_.numel ≤ 44
  hcc1_scratch23 : 41 + S_.numel ≤ 44
  hcc1_scratch24 : 42 + S_.numel ≤ 44
  hcc1_scoped0 : 43 + S_.numel ≤ 44
  hscKind : ∀ q, scKind q ≠ .tc
  hscCore : ∀ q, scNCore q ≤ τ.nSC
  hscSub : ∀ q, scNSub q ≤ τ.nSub
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hstage0_10 : ∀ j, (stage0_10 j).IsWhole
  hstage0_11 : ∀ j, (stage0_11 j).IsWhole
  hstage0_12 : ∀ j, (stage0_12 j).IsWhole
  hstage0_13 : ∀ j, (stage0_13 j).IsWhole
  hstage0_14 : ∀ j, (stage0_14 j).IsWhole
  hstage0_15 : ∀ j, (stage0_15 j).IsWhole
  hstage0_16 : ∀ j, (stage0_16 j).IsWhole
  hstage0_17 : ∀ j, (stage0_17 j).IsWhole
  hstage0_18 : ∀ j, (stage0_18 j).IsWhole
  hstage0_19 : ∀ j, (stage0_19 j).IsWhole
  hstage0_20 : ∀ j, (stage0_20 j).IsWhole
  hstage0_21 : ∀ j, (stage0_21 j).IsWhole
  hstage0_22 : ∀ j, (stage0_22 j).IsWhole
  hstage0_23 : ∀ j, (stage0_23 j).IsWhole
  hstage0_24 : ∀ j, (stage0_24 j).IsWhole
  hstage0_25 : ∀ j, (stage0_25 j).IsWhole
  hstage0_26 : ∀ j, (stage0_26 j).IsWhole
  hcore1 : grid1.bound 0 ≤ τ.nSC
  hsub1 : grid1.bound 1 ≤ τ.nSub
  k1_off1_inb : ∀ i : grid1.Coords, ∀ a, (k1_off1 i) a + S13312.size a ≤ S425984.size a
  k1_t1_ok : k1_t1_loop.OK
  k1_off2_inb : ∀ k1_t1 : Fin k1_t1_loop.trips, ∀ a, (k1_off2 k1_t1) a + S16.size a ≤ S13312.size a
  k1_t2_ok : k1_t2_loop.OK
  k1_off3_inb : ∀ k1_t2 : Fin k1_t2_loop.trips, ∀ a, (k1_off3 k1_t2) a + S16.size a ≤ S13312.size a
  k1_off4_inb : ∀ i : grid1.Coords, ∀ (r : Fin 8), ∀ a, (k1_off4 i (BitVec.ofNat 32 (4 * r.val))) a + S4x3328.size a ≤ S16384x3328.size a
  k1_t3_ok : k1_t3_loop.OK
  k1_off5_inb : ∀ i : grid1.Coords, ∀ a, (k1_off5 i) a + S4x3328.size a ≤ S16384x3328.size a
  k1_off6_inb : ∀ k1_t3 : Fin k1_t3_loop.trips, ∀ (r : Fin 8), ∀ a, (k1_off6 k1_t3 (BitVec.ofNat 32 r.val)) a + S104.size a ≤ S13312.size a
  k1_off7_inb : ∀ (i : grid1.Coords) (k1_t3 : Fin k1_t3_loop.trips), ∀ (r : Fin 8), ∀ a, (k1_off7 i k1_t3 (BitVec.ofNat 32 r.val)) a + S4x3328.size a ≤ S16384x3328.size a
  k1_off8_inb : ∀ i : grid1.Coords, ∀ a, (k1_off8 i) a + S4x3328.size a ≤ S16384x3328.size a

variable [Facts₀]

abbrev cc1_scratch9 : DmaSems sig S_ := SemArray.consecutive 27 S_ hcc1_scratch9
abbrev cc1_scratch10 : DmaSems sig S_ := SemArray.consecutive 28 S_ hcc1_scratch10
abbrev cc1_scratch11 : DmaSems sig S_ := SemArray.consecutive 29 S_ hcc1_scratch11
abbrev cc1_scratch12 : DmaSems sig S_ := SemArray.consecutive 30 S_ hcc1_scratch12
abbrev cc1_scratch13 : DmaSems sig S_ := SemArray.consecutive 31 S_ hcc1_scratch13
abbrev cc1_scratch14 : DmaSems sig S_ := SemArray.consecutive 32 S_ hcc1_scratch14
abbrev cc1_scratch15 : DmaSems sig S_ := SemArray.consecutive 33 S_ hcc1_scratch15
abbrev cc1_scratch16 : DmaSems sig S_ := SemArray.consecutive 34 S_ hcc1_scratch16
abbrev cc1_scratch17 : DmaSems sig S_ := SemArray.consecutive 35 S_ hcc1_scratch17
abbrev cc1_scratch18 : DmaSems sig S_ := SemArray.consecutive 36 S_ hcc1_scratch18
abbrev cc1_scratch19 : DmaSems sig S_ := SemArray.consecutive 37 S_ hcc1_scratch19
abbrev cc1_scratch20 : DmaSems sig S_ := SemArray.consecutive 38 S_ hcc1_scratch20
abbrev cc1_scratch21 : DmaSems sig S_ := SemArray.consecutive 39 S_ hcc1_scratch21
abbrev cc1_scratch22 : DmaSems sig S_ := SemArray.consecutive 40 S_ hcc1_scratch22
abbrev cc1_scratch23 : DmaSems sig S_ := SemArray.consecutive 41 S_ hcc1_scratch23
abbrev cc1_scratch24 : DmaSems sig S_ := SemArray.consecutive 42 S_ hcc1_scratch24
abbrev cc1_scoped0 : DmaSems sig S_ := SemArray.consecutive 43 S_ hcc1_scoped0

abbrev win0_0 : Pipeline.Window sig grid0 :=
  Pipeline.Window.whole (Memref.whole main_arg1) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_arg3) false false (stage0_2 0) (sem0_2 0) (Memref.isWhole_whole _) (hstage0_2 0)

abbrev win0_3 : Pipeline.Window sig grid0 :=
  Pipeline.Window.whole (Memref.whole main_arg4) false false (stage0_3 0) (sem0_3 0) (Memref.isWhole_whole _) (hstage0_3 0)

abbrev win0_4 : Pipeline.Window sig grid0 :=
  Pipeline.Window.whole (Memref.whole main_arg5) false false (stage0_4 0) (sem0_4 0) (Memref.isWhole_whole _) (hstage0_4 0)

abbrev win0_5 : Pipeline.Window sig grid0 :=
  Pipeline.Window.whole (Memref.whole main_arg6) false false (stage0_5 0) (sem0_5 0) (Memref.isWhole_whole _) (hstage0_5 0)

abbrev win0_6 : Pipeline.Window sig grid0 :=
  Pipeline.Window.whole (Memref.whole main_arg7) false false (stage0_6 0) (sem0_6 0) (Memref.isWhole_whole _) (hstage0_6 0)

abbrev win0_7 : Pipeline.Window sig grid0 :=
  Pipeline.Window.whole (Memref.whole main_arg8) false false (stage0_7 0) (sem0_7 0) (Memref.isWhole_whole _) (hstage0_7 0)

abbrev win0_8 : Pipeline.Window sig grid0 :=
  Pipeline.Window.whole (Memref.whole main_arg9) false false (stage0_8 0) (sem0_8 0) (Memref.isWhole_whole _) (hstage0_8 0)

abbrev win0_9 : Pipeline.Window sig grid0 :=
  Pipeline.Window.whole (Memref.whole main_arg10) false false (stage0_9 0) (sem0_9 0) (Memref.isWhole_whole _) (hstage0_9 0)

abbrev win0_10 : Pipeline.Window sig grid0 :=
  Pipeline.Window.whole (Memref.whole main_arg11) false false (stage0_10 0) (sem0_10 0) (Memref.isWhole_whole _) (hstage0_10 0)

abbrev win0_11 : Pipeline.Window sig grid0 :=
  Pipeline.Window.whole (Memref.whole main_arg12) false false (stage0_11 0) (sem0_11 0) (Memref.isWhole_whole _) (hstage0_11 0)

abbrev win0_12 : Pipeline.Window sig grid0 :=
  Pipeline.Window.whole (Memref.whole main_arg13) false false (stage0_12 0) (sem0_12 0) (Memref.isWhole_whole _) (hstage0_12 0)

abbrev win0_13 : Pipeline.Window sig grid0 :=
  Pipeline.Window.whole (Memref.whole main_arg14) false false (stage0_13 0) (sem0_13 0) (Memref.isWhole_whole _) (hstage0_13 0)

abbrev win0_14 : Pipeline.Window sig grid0 :=
  Pipeline.Window.whole (Memref.whole main_arg15) false false (stage0_14 0) (sem0_14 0) (Memref.isWhole_whole _) (hstage0_14 0)

abbrev win0_15 : Pipeline.Window sig grid0 :=
  Pipeline.Window.whole (Memref.whole main_arg16) false false (stage0_15 0) (sem0_15 0) (Memref.isWhole_whole _) (hstage0_15 0)

abbrev win0_16 : Pipeline.Window sig grid0 :=
  Pipeline.Window.whole (Memref.whole main_arg17) false false (stage0_16 0) (sem0_16 0) (Memref.isWhole_whole _) (hstage0_16 0)

abbrev win0_17 : Pipeline.Window sig grid0 :=
  Pipeline.Window.whole (Memref.whole main_arg18) false false (stage0_17 0) (sem0_17 0) (Memref.isWhole_whole _) (hstage0_17 0)

abbrev win0_18 : Pipeline.Window sig grid0 :=
  Pipeline.Window.whole (Memref.whole main_arg19) false false (stage0_18 0) (sem0_18 0) (Memref.isWhole_whole _) (hstage0_18 0)

abbrev win0_19 : Pipeline.Window sig grid0 :=
  Pipeline.Window.whole (Memref.whole main_arg20) false false (stage0_19 0) (sem0_19 0) (Memref.isWhole_whole _) (hstage0_19 0)

abbrev win0_20 : Pipeline.Window sig grid0 :=
  Pipeline.Window.whole (Memref.whole main_arg21) false false (stage0_20 0) (sem0_20 0) (Memref.isWhole_whole _) (hstage0_20 0)

abbrev win0_21 : Pipeline.Window sig grid0 :=
  Pipeline.Window.whole (Memref.whole main_arg22) false false (stage0_21 0) (sem0_21 0) (Memref.isWhole_whole _) (hstage0_21 0)

abbrev win0_22 : Pipeline.Window sig grid0 :=
  Pipeline.Window.whole (Memref.whole main_arg23) false false (stage0_22 0) (sem0_22 0) (Memref.isWhole_whole _) (hstage0_22 0)

abbrev win0_23 : Pipeline.Window sig grid0 :=
  Pipeline.Window.whole (Memref.whole main_arg24) false false (stage0_23 0) (sem0_23 0) (Memref.isWhole_whole _) (hstage0_23 0)

abbrev win0_24 : Pipeline.Window sig grid0 :=
  Pipeline.Window.whole (Memref.whole main_arg25) false false (stage0_24 0) (sem0_24 0) (Memref.isWhole_whole _) (hstage0_24 0)

abbrev win0_25 : Pipeline.Window sig grid0 :=
  Pipeline.Window.whole (Memref.whole main_arg26) false false (stage0_25 0) (sem0_25 0) (Memref.isWhole_whole _) (hstage0_25 0)

abbrev win0_26 : Pipeline.Window sig grid0 :=
  Pipeline.Window.whole (Memref.whole main_v0) true false (stage0_26 0) (sem0_26 0) (Memref.isWhole_whole _) (hstage0_26 0)

abbrev win0 : Fin 27 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | ⟨_ + 27, h⟩ => absurd h (Nat.not_lt.2 (Nat.le_add_left _ _))
abbrev spec0 : Fin 27 → Pipeline.WinSpec sig grid0.rank := fun w => (win0 w).toWinSpec

class Facts : Prop extends Facts₀ where

variable [Facts]
-- ==== ReferenceIdeal.lean ====
abbrev S16384x26 : Shape := ⟨2, ![16384, 26]⟩
abbrev S128x128 : Shape := ⟨2, ![128, 128]⟩
abbrev S16384x1 : Shape := ⟨2, ![16384, 1]⟩
abbrev S16384 : Shape := ⟨1, ![16384]⟩
abbrev S_ : Shape := ⟨0, ![]⟩
abbrev S1 : Shape := ⟨1, ![1]⟩
abbrev S1x1 : Shape := ⟨2, ![1, 1]⟩
abbrev S16384x128 : Shape := ⟨2, ![16384, 128]⟩
abbrev S16384x2048 : Shape := ⟨2, ![16384, 2048]⟩
abbrev S16384x1280 : Shape := ⟨2, ![16384, 1280]⟩
abbrev S16384x3328 : Shape := ⟨2, ![16384, 3328]⟩

abbrev nBuf : Space → Nat
  | .hbm => 1096
  | .vmem => 0
  | .smem => 0
  | _ => 0

abbrev hbmTy0_0 (i : Nat) : BufTy := match i % 128 with
  | 0 => ⟨S16384x26, .i32⟩
  | 1 => ⟨S128x128, .f32⟩
  | 2 => ⟨S128x128, .f32⟩
  | 3 => ⟨S128x128, .f32⟩
  | 4 => ⟨S128x128, .f32⟩
  | 5 => ⟨S128x128, .f32⟩
  | 6 => ⟨S128x128, .f32⟩
  | 7 => ⟨S128x128, .f32⟩
  | 8 => ⟨S128x128, .f32⟩
  | 9 => ⟨S128x128, .f32⟩
  | 10 => ⟨S128x128, .f32⟩
  | 11 => ⟨S128x128, .f32⟩
  | 12 => ⟨S128x128, .f32⟩
  | 13 => ⟨S128x128, .f32⟩
  | 14 => ⟨S128x128, .f32⟩
  | 15 => ⟨S128x128, .f32⟩
  | 16 => ⟨S128x128, .f32⟩
  | 17 => ⟨S128x128, .f32⟩
  | 18 => ⟨S128x128, .f32⟩
  | 19 => ⟨S128x128, .f32⟩
  | 20 => ⟨S128x128, .f32⟩
  | 21 => ⟨S128x128, .f32⟩
  | 22 => ⟨S128x128, .f32⟩
  | 23 => ⟨S128x128, .f32⟩
  | 24 => ⟨S128x128, .f32⟩
  | 25 => ⟨S128x128, .f32⟩
  | 26 => ⟨S128x128, .f32⟩
  | 27 => ⟨S16384x1, .i32⟩
  | 28 => ⟨S16384, .i32⟩
  | 29 => ⟨S_, .i32⟩
  | 30 => ⟨S16384, .i32⟩
  | 31 => ⟨S16384, .i1⟩
  | 32 => ⟨S_, .i32⟩
  | 33 => ⟨S16384, .i32⟩
  | 34 => ⟨S16384, .i32⟩
  | 35 => ⟨S16384, .i32⟩
  | 36 => ⟨S16384x1, .i32⟩
  | 37 => ⟨S1, .i32⟩
  | 38 => ⟨S_, .i32⟩
  | 39 => ⟨S16384x1, .i32⟩
  | 40 => ⟨S16384x1, .i1⟩
  | 41 => ⟨S1x1, .i32⟩
  | 42 => ⟨S16384x1, .i32⟩
  | 43 => ⟨S16384x1, .i1⟩
  | 44 => ⟨S16384x1, .i1⟩
  | 45 => ⟨S_, .i1⟩
  | 46 => ⟨S16384, .i1⟩
  | 47 => ⟨S16384x128, .f32⟩
  | 48 => ⟨S16384x128, .i1⟩
  | 49 => ⟨S_, .f32⟩
  | 50 => ⟨S16384x128, .f32⟩
  | 51 => ⟨S16384x128, .f32⟩
  | 52 => ⟨S16384x128, .f32⟩
  | 53 => ⟨S_, .f32⟩
  | 54 => ⟨S16384, .f32⟩
  | 55 => ⟨S16384x1, .f32⟩
  | 56 => ⟨S16384x1, .f32⟩
  | 57 => ⟨S_, .f32⟩
  | 58 => ⟨S16384x1, .f32⟩
  | 59 => ⟨S16384x1, .f32⟩
  | 60 => ⟨S_, .f32⟩
  | 61 => ⟨S16384x1, .f32⟩
  | 62 => ⟨S16384x1, .f32⟩
  | 63 => ⟨S_, .f32⟩
  | 64 => ⟨S16384x1, .f32⟩
  | 65 => ⟨S16384x1, .f32⟩
  | 66 => ⟨S16384x128, .f32⟩
  | 67 => ⟨S16384x128, .f32⟩
  | 68 => ⟨S16384x1, .i32⟩
  | 69 => ⟨S16384, .i32⟩
  | 70 => ⟨S_, .i32⟩
  | 71 => ⟨S16384, .i32⟩
  | 72 => ⟨S16384, .i1⟩
  | 73 => ⟨S_, .i32⟩
  | 74 => ⟨S16384, .i32⟩
  | 75 => ⟨S16384, .i32⟩
  | 76 => ⟨S16384, .i32⟩
  | 77 => ⟨S16384x1, .i32⟩
  | 78 => ⟨S1, .i32⟩
  | 79 => ⟨S_, .i32⟩
  | 80 => ⟨S16384x1, .i32⟩
  | 81 => ⟨S16384x1, .i1⟩
  | 82 => ⟨S1x1, .i32⟩
  | 83 => ⟨S16384x1, .i32⟩
  | 84 => ⟨S16384x1, .i1⟩
  | 85 => ⟨S16384x1, .i1⟩
  | 86 => ⟨S_, .i1⟩
  | 87 => ⟨S16384, .i1⟩
  | 88 => ⟨S16384x128, .f32⟩
  | 89 => ⟨S16384x128, .i1⟩
  | 90 => ⟨S_, .f32⟩
  | 91 => ⟨S16384x128, .f32⟩
  | 92 => ⟨S16384x128, .f32⟩
  | 93 => ⟨S16384x128, .f32⟩
  | 94 => ⟨S_, .f32⟩
  | 95 => ⟨S16384, .f32⟩
  | 96 => ⟨S16384x1, .f32⟩
  | 97 => ⟨S16384x1, .f32⟩
  | 98 => ⟨S_, .f32⟩
  | 99 => ⟨S16384x1, .f32⟩
  | 100 => ⟨S16384x1, .f32⟩
  | 101 => ⟨S_, .f32⟩
  | 102 => ⟨S16384x1, .f32⟩
  | 103 => ⟨S16384x1, .f32⟩
  | 104 => ⟨S_, .f32⟩
  | 105 => ⟨S16384x1, .f32⟩
  | 106 => ⟨S16384x1, .f32⟩
  | 107 => ⟨S16384x128, .f32⟩
  | 108 => ⟨S16384x128, .f32⟩
  | 109 => ⟨S16384x1, .i32⟩
  | 110 => ⟨S16384, .i32⟩
  | 111 => ⟨S_, .i32⟩
  | 112 => ⟨S16384, .i32⟩
  | 113 => ⟨S16384, .i1⟩
  | 114 => ⟨S_, .i32⟩
  | 115 => ⟨S16384, .i32⟩
  | 116 => ⟨S16384, .i32⟩
  | 117 => ⟨S16384, .i32⟩
  | 118 => ⟨S16384x1, .i32⟩
  | 119 => ⟨S1, .i32⟩
  | 120 => ⟨S_, .i32⟩
  | 121 => ⟨S16384x1, .i32⟩
  | 122 => ⟨S16384x1, .i1⟩
  | 123 => ⟨S1x1, .i32⟩
  | 124 => ⟨S16384x1, .i32⟩
  | 125 => ⟨S16384x1, .i1⟩
  | 126 => ⟨S16384x1, .i1⟩
  | 127 => ⟨S_, .i1⟩
  | _ => ⟨S16384x26, .i32⟩

abbrev hbmTy0_1 (i : Nat) : BufTy := match i % 128 with
  | 0 => ⟨S16384, .i1⟩
  | 1 => ⟨S16384x128, .f32⟩
  | 2 => ⟨S16384x128, .i1⟩
  | 3 => ⟨S_, .f32⟩
  | 4 => ⟨S16384x128, .f32⟩
  | 5 => ⟨S16384x128, .f32⟩
  | 6 => ⟨S16384x128, .f32⟩
  | 7 => ⟨S_, .f32⟩
  | 8 => ⟨S16384, .f32⟩
  | 9 => ⟨S16384x1, .f32⟩
  | 10 => ⟨S16384x1, .f32⟩
  | 11 => ⟨S_, .f32⟩
  | 12 => ⟨S16384x1, .f32⟩
  | 13 => ⟨S16384x1, .f32⟩
  | 14 => ⟨S_, .f32⟩
  | 15 => ⟨S16384x1, .f32⟩
  | 16 => ⟨S16384x1, .f32⟩
  | 17 => ⟨S_, .f32⟩
  | 18 => ⟨S16384x1, .f32⟩
  | 19 => ⟨S16384x1, .f32⟩
  | 20 => ⟨S16384x128, .f32⟩
  | 21 => ⟨S16384x128, .f32⟩
  | 22 => ⟨S16384x1, .i32⟩
  | 23 => ⟨S16384, .i32⟩
  | 24 => ⟨S_, .i32⟩
  | 25 => ⟨S16384, .i32⟩
  | 26 => ⟨S16384, .i1⟩
  | 27 => ⟨S_, .i32⟩
  | 28 => ⟨S16384, .i32⟩
  | 29 => ⟨S16384, .i32⟩
  | 30 => ⟨S16384, .i32⟩
  | 31 => ⟨S16384x1, .i32⟩
  | 32 => ⟨S1, .i32⟩
  | 33 => ⟨S_, .i32⟩
  | 34 => ⟨S16384x1, .i32⟩
  | 35 => ⟨S16384x1, .i1⟩
  | 36 => ⟨S1x1, .i32⟩
  | 37 => ⟨S16384x1, .i32⟩
  | 38 => ⟨S16384x1, .i1⟩
  | 39 => ⟨S16384x1, .i1⟩
  | 40 => ⟨S_, .i1⟩
  | 41 => ⟨S16384, .i1⟩
  | 42 => ⟨S16384x128, .f32⟩
  | 43 => ⟨S16384x128, .i1⟩
  | 44 => ⟨S_, .f32⟩
  | 45 => ⟨S16384x128, .f32⟩
  | 46 => ⟨S16384x128, .f32⟩
  | 47 => ⟨S16384x128, .f32⟩
  | 48 => ⟨S_, .f32⟩
  | 49 => ⟨S16384, .f32⟩
  | 50 => ⟨S16384x1, .f32⟩
  | 51 => ⟨S16384x1, .f32⟩
  | 52 => ⟨S_, .f32⟩
  | 53 => ⟨S16384x1, .f32⟩
  | 54 => ⟨S16384x1, .f32⟩
  | 55 => ⟨S_, .f32⟩
  | 56 => ⟨S16384x1, .f32⟩
  | 57 => ⟨S16384x1, .f32⟩
  | 58 => ⟨S_, .f32⟩
  | 59 => ⟨S16384x1, .f32⟩
  | 60 => ⟨S16384x1, .f32⟩
  | 61 => ⟨S16384x128, .f32⟩
  | 62 => ⟨S16384x128, .f32⟩
  | 63 => ⟨S16384x1, .i32⟩
  | 64 => ⟨S16384, .i32⟩
  | 65 => ⟨S_, .i32⟩
  | 66 => ⟨S16384, .i32⟩
  | 67 => ⟨S16384, .i1⟩
  | 68 => ⟨S_, .i32⟩
  | 69 => ⟨S16384, .i32⟩
  | 70 => ⟨S16384, .i32⟩
  | 71 => ⟨S16384, .i32⟩
  | 72 => ⟨S16384x1, .i32⟩
  | 73 => ⟨S1, .i32⟩
  | 74 => ⟨S_, .i32⟩
  | 75 => ⟨S16384x1, .i32⟩
  | 76 => ⟨S16384x1, .i1⟩
  | 77 => ⟨S1x1, .i32⟩
  | 78 => ⟨S16384x1, .i32⟩
  | 79 => ⟨S16384x1, .i1⟩
  | 80 => ⟨S16384x1, .i1⟩
  | 81 => ⟨S_, .i1⟩
  | 82 => ⟨S16384, .i1⟩
  | 83 => ⟨S16384x128, .f32⟩
  | 84 => ⟨S16384x128, .i1⟩
  | 85 => ⟨S_, .f32⟩
  | 86 => ⟨S16384x128, .f32⟩
  | 87 => ⟨S16384x128, .f32⟩
  | 88 => ⟨S16384x128, .f32⟩
  | 89 => ⟨S_, .f32⟩
  | 90 => ⟨S16384, .f32⟩
  | 91 => ⟨S16384x1, .f32⟩
  | 92 => ⟨S16384x1, .f32⟩
  | 93 => ⟨S_, .f32⟩
  | 94 => ⟨S16384x1, .f32⟩
  | 95 => ⟨S16384x1, .f32⟩
  | 96 => ⟨S_, .f32⟩
  | 97 => ⟨S16384x1, .f32⟩
  | 98 => ⟨S16384x1, .f32⟩
  | 99 => ⟨S_, .f32⟩
  | 100 => ⟨S16384x1, .f32⟩
  | 101 => ⟨S16384x1, .f32⟩
  | 102 => ⟨S16384x128, .f32⟩
  | 103 => ⟨S16384x128, .f32⟩
  | 104 => ⟨S16384x1, .i32⟩
  | 105 => ⟨S16384, .i32⟩
  | 106 => ⟨S_, .i32⟩
  | 107 => ⟨S16384, .i32⟩
  | 108 => ⟨S16384, .i1⟩
  | 109 => ⟨S_, .i32⟩
  | 110 => ⟨S16384, .i32⟩
  | 111 => ⟨S16384, .i32⟩
  | 112 => ⟨S16384, .i32⟩
  | 113 => ⟨S16384x1, .i32⟩
  | 114 => ⟨S1, .i32⟩
  | 115 => ⟨S_, .i32⟩
  | 116 => ⟨S16384x1, .i32⟩
  | 117 => ⟨S16384x1, .i1⟩
  | 118 => ⟨S1x1, .i32⟩
  | 119 => ⟨S16384x1, .i32⟩
  | 120 => ⟨S16384x1, .i1⟩
  | 121 => ⟨S16384x1, .i1⟩
  | 122 => ⟨S_, .i1⟩
  | 123 => ⟨S16384, .i1⟩
  | 124 => ⟨S16384x128, .f32⟩
  | 125 => ⟨S16384x128, .i1⟩
  | 126 => ⟨S_, .f32⟩
  | 127 => ⟨S16384x128, .f32⟩
  | _ => ⟨S16384x26, .i32⟩

abbrev hbmTy0_2 (i : Nat) : BufTy := match i % 128 with
  | 0 => ⟨S16384x128, .f32⟩
  | 1 => ⟨S16384x128, .f32⟩
  | 2 => ⟨S_, .f32⟩
  | 3 => ⟨S16384, .f32⟩
  | 4 => ⟨S16384x1, .f32⟩
  | 5 => ⟨S16384x1, .f32⟩
  | 6 => ⟨S_, .f32⟩
  | 7 => ⟨S16384x1, .f32⟩
  | 8 => ⟨S16384x1, .f32⟩
  | 9 => ⟨S_, .f32⟩
  | 10 => ⟨S16384x1, .f32⟩
  | 11 => ⟨S16384x1, .f32⟩
  | 12 => ⟨S_, .f32⟩
  | 13 => ⟨S16384x1, .f32⟩
  | 14 => ⟨S16384x1, .f32⟩
  | 15 => ⟨S16384x128, .f32⟩
  | 16 => ⟨S16384x128, .f32⟩
  | 17 => ⟨S16384x1, .i32⟩
  | 18 => ⟨S16384, .i32⟩
  | 19 => ⟨S_, .i32⟩
  | 20 => ⟨S16384, .i32⟩
  | 21 => ⟨S16384, .i1⟩
  | 22 => ⟨S_, .i32⟩
  | 23 => ⟨S16384, .i32⟩
  | 24 => ⟨S16384, .i32⟩
  | 25 => ⟨S16384, .i32⟩
  | 26 => ⟨S16384x1, .i32⟩
  | 27 => ⟨S1, .i32⟩
  | 28 => ⟨S_, .i32⟩
  | 29 => ⟨S16384x1, .i32⟩
  | 30 => ⟨S16384x1, .i1⟩
  | 31 => ⟨S1x1, .i32⟩
  | 32 => ⟨S16384x1, .i32⟩
  | 33 => ⟨S16384x1, .i1⟩
  | 34 => ⟨S16384x1, .i1⟩
  | 35 => ⟨S_, .i1⟩
  | 36 => ⟨S16384, .i1⟩
  | 37 => ⟨S16384x128, .f32⟩
  | 38 => ⟨S16384x128, .i1⟩
  | 39 => ⟨S_, .f32⟩
  | 40 => ⟨S16384x128, .f32⟩
  | 41 => ⟨S16384x128, .f32⟩
  | 42 => ⟨S16384x128, .f32⟩
  | 43 => ⟨S_, .f32⟩
  | 44 => ⟨S16384, .f32⟩
  | 45 => ⟨S16384x1, .f32⟩
  | 46 => ⟨S16384x1, .f32⟩
  | 47 => ⟨S_, .f32⟩
  | 48 => ⟨S16384x1, .f32⟩
  | 49 => ⟨S16384x1, .f32⟩
  | 50 => ⟨S_, .f32⟩
  | 51 => ⟨S16384x1, .f32⟩
  | 52 => ⟨S16384x1, .f32⟩
  | 53 => ⟨S_, .f32⟩
  | 54 => ⟨S16384x1, .f32⟩
  | 55 => ⟨S16384x1, .f32⟩
  | 56 => ⟨S16384x128, .f32⟩
  | 57 => ⟨S16384x128, .f32⟩
  | 58 => ⟨S16384x1, .i32⟩
  | 59 => ⟨S16384, .i32⟩
  | 60 => ⟨S_, .i32⟩
  | 61 => ⟨S16384, .i32⟩
  | 62 => ⟨S16384, .i1⟩
  | 63 => ⟨S_, .i32⟩
  | 64 => ⟨S16384, .i32⟩
  | 65 => ⟨S16384, .i32⟩
  | 66 => ⟨S16384, .i32⟩
  | 67 => ⟨S16384x1, .i32⟩
  | 68 => ⟨S1, .i32⟩
  | 69 => ⟨S_, .i32⟩
  | 70 => ⟨S16384x1, .i32⟩
  | 71 => ⟨S16384x1, .i1⟩
  | 72 => ⟨S1x1, .i32⟩
  | 73 => ⟨S16384x1, .i32⟩
  | 74 => ⟨S16384x1, .i1⟩
  | 75 => ⟨S16384x1, .i1⟩
  | 76 => ⟨S_, .i1⟩
  | 77 => ⟨S16384, .i1⟩
  | 78 => ⟨S16384x128, .f32⟩
  | 79 => ⟨S16384x128, .i1⟩
  | 80 => ⟨S_, .f32⟩
  | 81 => ⟨S16384x128, .f32⟩
  | 82 => ⟨S16384x128, .f32⟩
  | 83 => ⟨S16384x128, .f32⟩
  | 84 => ⟨S_, .f32⟩
  | 85 => ⟨S16384, .f32⟩
  | 86 => ⟨S16384x1, .f32⟩
  | 87 => ⟨S16384x1, .f32⟩
  | 88 => ⟨S_, .f32⟩
  | 89 => ⟨S16384x1, .f32⟩
  | 90 => ⟨S16384x1, .f32⟩
  | 91 => ⟨S_, .f32⟩
  | 92 => ⟨S16384x1, .f32⟩
  | 93 => ⟨S16384x1, .f32⟩
  | 94 => ⟨S_, .f32⟩
  | 95 => ⟨S16384x1, .f32⟩
  | 96 => ⟨S16384x1, .f32⟩
  | 97 => ⟨S16384x128, .f32⟩
  | 98 => ⟨S16384x128, .f32⟩
  | 99 => ⟨S16384x1, .i32⟩
  | 100 => ⟨S16384, .i32⟩
  | 101 => ⟨S_, .i32⟩
  | 102 => ⟨S16384, .i32⟩
  | 103 => ⟨S16384, .i1⟩
  | 104 => ⟨S_, .i32⟩
  | 105 => ⟨S16384, .i32⟩
  | 106 => ⟨S16384, .i32⟩
  | 107 => ⟨S16384, .i32⟩
  | 108 => ⟨S16384x1, .i32⟩
  | 109 => ⟨S1, .i32⟩
  | 110 => ⟨S_, .i32⟩
  | 111 => ⟨S16384x1, .i32⟩
  | 112 => ⟨S16384x1, .i1⟩
  | 113 => ⟨S1x1, .i32⟩
  | 114 => ⟨S16384x1, .i32⟩
  | 115 => ⟨S16384x1, .i1⟩
  | 116 => ⟨S16384x1, .i1⟩
  | 117 => ⟨S_, .i1⟩
  | 118 => ⟨S16384, .i1⟩
  | 119 => ⟨S16384x128, .f32⟩
  | 120 => ⟨S16384x128, .i1⟩
  | 121 => ⟨S_, .f32⟩
  | 122 => ⟨S16384x128, .f32⟩
  | 123 => ⟨S16384x128, .f32⟩
  | 124 => ⟨S16384x128, .f32⟩
  | 125 => ⟨S_, .f32⟩
  | 126 => ⟨S16384, .f32⟩
  | 127 => ⟨S16384x1, .f32⟩
  | _ => ⟨S16384x26, .i32⟩

abbrev hbmTy0_3 (i : Nat) : BufTy := match i % 128 with
  | 0 => ⟨S16384x1, .f32⟩
  | 1 => ⟨S_, .f32⟩
  | 2 => ⟨S16384x1, .f32⟩
  | 3 => ⟨S16384x1, .f32⟩
  | 4 => ⟨S_, .f32⟩
  | 5 => ⟨S16384x1, .f32⟩
  | 6 => ⟨S16384x1, .f32⟩
  | 7 => ⟨S_, .f32⟩
  | 8 => ⟨S16384x1, .f32⟩
  | 9 => ⟨S16384x1, .f32⟩
  | 10 => ⟨S16384x128, .f32⟩
  | 11 => ⟨S16384x128, .f32⟩
  | 12 => ⟨S16384x1, .i32⟩
  | 13 => ⟨S16384, .i32⟩
  | 14 => ⟨S_, .i32⟩
  | 15 => ⟨S16384, .i32⟩
  | 16 => ⟨S16384, .i1⟩
  | 17 => ⟨S_, .i32⟩
  | 18 => ⟨S16384, .i32⟩
  | 19 => ⟨S16384, .i32⟩
  | 20 => ⟨S16384, .i32⟩
  | 21 => ⟨S16384x1, .i32⟩
  | 22 => ⟨S1, .i32⟩
  | 23 => ⟨S_, .i32⟩
  | 24 => ⟨S16384x1, .i32⟩
  | 25 => ⟨S16384x1, .i1⟩
  | 26 => ⟨S1x1, .i32⟩
  | 27 => ⟨S16384x1, .i32⟩
  | 28 => ⟨S16384x1, .i1⟩
  | 29 => ⟨S16384x1, .i1⟩
  | 30 => ⟨S_, .i1⟩
  | 31 => ⟨S16384, .i1⟩
  | 32 => ⟨S16384x128, .f32⟩
  | 33 => ⟨S16384x128, .i1⟩
  | 34 => ⟨S_, .f32⟩
  | 35 => ⟨S16384x128, .f32⟩
  | 36 => ⟨S16384x128, .f32⟩
  | 37 => ⟨S16384x128, .f32⟩
  | 38 => ⟨S_, .f32⟩
  | 39 => ⟨S16384, .f32⟩
  | 40 => ⟨S16384x1, .f32⟩
  | 41 => ⟨S16384x1, .f32⟩
  | 42 => ⟨S_, .f32⟩
  | 43 => ⟨S16384x1, .f32⟩
  | 44 => ⟨S16384x1, .f32⟩
  | 45 => ⟨S_, .f32⟩
  | 46 => ⟨S16384x1, .f32⟩
  | 47 => ⟨S16384x1, .f32⟩
  | 48 => ⟨S_, .f32⟩
  | 49 => ⟨S16384x1, .f32⟩
  | 50 => ⟨S16384x1, .f32⟩
  | 51 => ⟨S16384x128, .f32⟩
  | 52 => ⟨S16384x128, .f32⟩
  | 53 => ⟨S16384x1, .i32⟩
  | 54 => ⟨S16384, .i32⟩
  | 55 => ⟨S_, .i32⟩
  | 56 => ⟨S16384, .i32⟩
  | 57 => ⟨S16384, .i1⟩
  | 58 => ⟨S_, .i32⟩
  | 59 => ⟨S16384, .i32⟩
  | 60 => ⟨S16384, .i32⟩
  | 61 => ⟨S16384, .i32⟩
  | 62 => ⟨S16384x1, .i32⟩
  | 63 => ⟨S1, .i32⟩
  | 64 => ⟨S_, .i32⟩
  | 65 => ⟨S16384x1, .i32⟩
  | 66 => ⟨S16384x1, .i1⟩
  | 67 => ⟨S1x1, .i32⟩
  | 68 => ⟨S16384x1, .i32⟩
  | 69 => ⟨S16384x1, .i1⟩
  | 70 => ⟨S16384x1, .i1⟩
  | 71 => ⟨S_, .i1⟩
  | 72 => ⟨S16384, .i1⟩
  | 73 => ⟨S16384x128, .f32⟩
  | 74 => ⟨S16384x128, .i1⟩
  | 75 => ⟨S_, .f32⟩
  | 76 => ⟨S16384x128, .f32⟩
  | 77 => ⟨S16384x128, .f32⟩
  | 78 => ⟨S16384x128, .f32⟩
  | 79 => ⟨S_, .f32⟩
  | 80 => ⟨S16384, .f32⟩
  | 81 => ⟨S16384x1, .f32⟩
  | 82 => ⟨S16384x1, .f32⟩
  | 83 => ⟨S_, .f32⟩
  | 84 => ⟨S16384x1, .f32⟩
  | 85 => ⟨S16384x1, .f32⟩
  | 86 => ⟨S_, .f32⟩
  | 87 => ⟨S16384x1, .f32⟩
  | 88 => ⟨S16384x1, .f32⟩
  | 89 => ⟨S_, .f32⟩
  | 90 => ⟨S16384x1, .f32⟩
  | 91 => ⟨S16384x1, .f32⟩
  | 92 => ⟨S16384x128, .f32⟩
  | 93 => ⟨S16384x128, .f32⟩
  | 94 => ⟨S16384x1, .i32⟩
  | 95 => ⟨S16384, .i32⟩
  | 96 => ⟨S_, .i32⟩
  | 97 => ⟨S16384, .i32⟩
  | 98 => ⟨S16384, .i1⟩
  | 99 => ⟨S_, .i32⟩
  | 100 => ⟨S16384, .i32⟩
  | 101 => ⟨S16384, .i32⟩
  | 102 => ⟨S16384, .i32⟩
  | 103 => ⟨S16384x1, .i32⟩
  | 104 => ⟨S1, .i32⟩
  | 105 => ⟨S_, .i32⟩
  | 106 => ⟨S16384x1, .i32⟩
  | 107 => ⟨S16384x1, .i1⟩
  | 108 => ⟨S1x1, .i32⟩
  | 109 => ⟨S16384x1, .i32⟩
  | 110 => ⟨S16384x1, .i1⟩
  | 111 => ⟨S16384x1, .i1⟩
  | 112 => ⟨S_, .i1⟩
  | 113 => ⟨S16384, .i1⟩
  | 114 => ⟨S16384x128, .f32⟩
  | 115 => ⟨S16384x128, .i1⟩
  | 116 => ⟨S_, .f32⟩
  | 117 => ⟨S16384x128, .f32⟩
  | 118 => ⟨S16384x128, .f32⟩
  | 119 => ⟨S16384x128, .f32⟩
  | 120 => ⟨S_, .f32⟩
  | 121 => ⟨S16384, .f32⟩
  | 122 => ⟨S16384x1, .f32⟩
  | 123 => ⟨S16384x1, .f32⟩
  | 124 => ⟨S_, .f32⟩
  | 125 => ⟨S16384x1, .f32⟩
  | 126 => ⟨S16384x1, .f32⟩
  | 127 => ⟨S_, .f32⟩
  | _ => ⟨S16384x26, .i32⟩

abbrev hbmTy0_4 (i : Nat) : BufTy := match i % 128 with
  | 0 => ⟨S16384x1, .f32⟩
  | 1 => ⟨S16384x1, .f32⟩
  | 2 => ⟨S_, .f32⟩
  | 3 => ⟨S16384x1, .f32⟩
  | 4 => ⟨S16384x1, .f32⟩
  | 5 => ⟨S16384x128, .f32⟩
  | 6 => ⟨S16384x128, .f32⟩
  | 7 => ⟨S16384x1, .i32⟩
  | 8 => ⟨S16384, .i32⟩
  | 9 => ⟨S_, .i32⟩
  | 10 => ⟨S16384, .i32⟩
  | 11 => ⟨S16384, .i1⟩
  | 12 => ⟨S_, .i32⟩
  | 13 => ⟨S16384, .i32⟩
  | 14 => ⟨S16384, .i32⟩
  | 15 => ⟨S16384, .i32⟩
  | 16 => ⟨S16384x1, .i32⟩
  | 17 => ⟨S1, .i32⟩
  | 18 => ⟨S_, .i32⟩
  | 19 => ⟨S16384x1, .i32⟩
  | 20 => ⟨S16384x1, .i1⟩
  | 21 => ⟨S1x1, .i32⟩
  | 22 => ⟨S16384x1, .i32⟩
  | 23 => ⟨S16384x1, .i1⟩
  | 24 => ⟨S16384x1, .i1⟩
  | 25 => ⟨S_, .i1⟩
  | 26 => ⟨S16384, .i1⟩
  | 27 => ⟨S16384x128, .f32⟩
  | 28 => ⟨S16384x128, .i1⟩
  | 29 => ⟨S_, .f32⟩
  | 30 => ⟨S16384x128, .f32⟩
  | 31 => ⟨S16384x128, .f32⟩
  | 32 => ⟨S16384x128, .f32⟩
  | 33 => ⟨S_, .f32⟩
  | 34 => ⟨S16384, .f32⟩
  | 35 => ⟨S16384x1, .f32⟩
  | 36 => ⟨S16384x1, .f32⟩
  | 37 => ⟨S_, .f32⟩
  | 38 => ⟨S16384x1, .f32⟩
  | 39 => ⟨S16384x1, .f32⟩
  | 40 => ⟨S_, .f32⟩
  | 41 => ⟨S16384x1, .f32⟩
  | 42 => ⟨S16384x1, .f32⟩
  | 43 => ⟨S_, .f32⟩
  | 44 => ⟨S16384x1, .f32⟩
  | 45 => ⟨S16384x1, .f32⟩
  | 46 => ⟨S16384x128, .f32⟩
  | 47 => ⟨S16384x128, .f32⟩
  | 48 => ⟨S16384x1, .i32⟩
  | 49 => ⟨S16384, .i32⟩
  | 50 => ⟨S_, .i32⟩
  | 51 => ⟨S16384, .i32⟩
  | 52 => ⟨S16384, .i1⟩
  | 53 => ⟨S_, .i32⟩
  | 54 => ⟨S16384, .i32⟩
  | 55 => ⟨S16384, .i32⟩
  | 56 => ⟨S16384, .i32⟩
  | 57 => ⟨S16384x1, .i32⟩
  | 58 => ⟨S1, .i32⟩
  | 59 => ⟨S_, .i32⟩
  | 60 => ⟨S16384x1, .i32⟩
  | 61 => ⟨S16384x1, .i1⟩
  | 62 => ⟨S1x1, .i32⟩
  | 63 => ⟨S16384x1, .i32⟩
  | 64 => ⟨S16384x1, .i1⟩
  | 65 => ⟨S16384x1, .i1⟩
  | 66 => ⟨S_, .i1⟩
  | 67 => ⟨S16384, .i1⟩
  | 68 => ⟨S16384x128, .f32⟩
  | 69 => ⟨S16384x128, .i1⟩
  | 70 => ⟨S_, .f32⟩
  | 71 => ⟨S16384x128, .f32⟩
  | 72 => ⟨S16384x128, .f32⟩
  | 73 => ⟨S16384x128, .f32⟩
  | 74 => ⟨S_, .f32⟩
  | 75 => ⟨S16384, .f32⟩
  | 76 => ⟨S16384x1, .f32⟩
  | 77 => ⟨S16384x1, .f32⟩
  | 78 => ⟨S_, .f32⟩
  | 79 => ⟨S16384x1, .f32⟩
  | 80 => ⟨S16384x1, .f32⟩
  | 81 => ⟨S_, .f32⟩
  | 82 => ⟨S16384x1, .f32⟩
  | 83 => ⟨S16384x1, .f32⟩
  | 84 => ⟨S_, .f32⟩
  | 85 => ⟨S16384x1, .f32⟩
  | 86 => ⟨S16384x1, .f32⟩
  | 87 => ⟨S16384x128, .f32⟩
  | 88 => ⟨S16384x128, .f32⟩
  | 89 => ⟨S16384x1, .i32⟩
  | 90 => ⟨S16384, .i32⟩
  | 91 => ⟨S_, .i32⟩
  | 92 => ⟨S16384, .i32⟩
  | 93 => ⟨S16384, .i1⟩
  | 94 => ⟨S_, .i32⟩
  | 95 => ⟨S16384, .i32⟩
  | 96 => ⟨S16384, .i32⟩
  | 97 => ⟨S16384, .i32⟩
  | 98 => ⟨S16384x1, .i32⟩
  | 99 => ⟨S1, .i32⟩
  | 100 => ⟨S_, .i32⟩
  | 101 => ⟨S16384x1, .i32⟩
  | 102 => ⟨S16384x1, .i1⟩
  | 103 => ⟨S1x1, .i32⟩
  | 104 => ⟨S16384x1, .i32⟩
  | 105 => ⟨S16384x1, .i1⟩
  | 106 => ⟨S16384x1, .i1⟩
  | 107 => ⟨S_, .i1⟩
  | 108 => ⟨S16384, .i1⟩
  | 109 => ⟨S16384x128, .f32⟩
  | 110 => ⟨S16384x128, .i1⟩
  | 111 => ⟨S_, .f32⟩
  | 112 => ⟨S16384x128, .f32⟩
  | 113 => ⟨S16384x128, .f32⟩
  | 114 => ⟨S16384x128, .f32⟩
  | 115 => ⟨S_, .f32⟩
  | 116 => ⟨S16384, .f32⟩
  | 117 => ⟨S16384x1, .f32⟩
  | 118 => ⟨S16384x1, .f32⟩
  | 119 => ⟨S_, .f32⟩
  | 120 => ⟨S16384x1, .f32⟩
  | 121 => ⟨S16384x1, .f32⟩
  | 122 => ⟨S_, .f32⟩
  | 123 => ⟨S16384x1, .f32⟩
  | 124 => ⟨S16384x1, .f32⟩
  | 125 => ⟨S_, .f32⟩
  | 126 => ⟨S16384x1, .f32⟩
  | 127 => ⟨S16384x1, .f32⟩
  | _ => ⟨S16384x26, .i32⟩

abbrev hbmTy0_5 (i : Nat) : BufTy := match i % 128 with
  | 0 => ⟨S16384x128, .f32⟩
  | 1 => ⟨S16384x128, .f32⟩
  | 2 => ⟨S16384x1, .i32⟩
  | 3 => ⟨S16384, .i32⟩
  | 4 => ⟨S_, .i32⟩
  | 5 => ⟨S16384, .i32⟩
  | 6 => ⟨S16384, .i1⟩
  | 7 => ⟨S_, .i32⟩
  | 8 => ⟨S16384, .i32⟩
  | 9 => ⟨S16384, .i32⟩
  | 10 => ⟨S16384, .i32⟩
  | 11 => ⟨S16384x1, .i32⟩
  | 12 => ⟨S1, .i32⟩
  | 13 => ⟨S_, .i32⟩
  | 14 => ⟨S16384x1, .i32⟩
  | 15 => ⟨S16384x1, .i1⟩
  | 16 => ⟨S1x1, .i32⟩
  | 17 => ⟨S16384x1, .i32⟩
  | 18 => ⟨S16384x1, .i1⟩
  | 19 => ⟨S16384x1, .i1⟩
  | 20 => ⟨S_, .i1⟩
  | 21 => ⟨S16384, .i1⟩
  | 22 => ⟨S16384x128, .f32⟩
  | 23 => ⟨S16384x128, .i1⟩
  | 24 => ⟨S_, .f32⟩
  | 25 => ⟨S16384x128, .f32⟩
  | 26 => ⟨S16384x128, .f32⟩
  | 27 => ⟨S16384x128, .f32⟩
  | 28 => ⟨S_, .f32⟩
  | 29 => ⟨S16384, .f32⟩
  | 30 => ⟨S16384x1, .f32⟩
  | 31 => ⟨S16384x1, .f32⟩
  | 32 => ⟨S_, .f32⟩
  | 33 => ⟨S16384x1, .f32⟩
  | 34 => ⟨S16384x1, .f32⟩
  | 35 => ⟨S_, .f32⟩
  | 36 => ⟨S16384x1, .f32⟩
  | 37 => ⟨S16384x1, .f32⟩
  | 38 => ⟨S_, .f32⟩
  | 39 => ⟨S16384x1, .f32⟩
  | 40 => ⟨S16384x1, .f32⟩
  | 41 => ⟨S16384x128, .f32⟩
  | 42 => ⟨S16384x128, .f32⟩
  | 43 => ⟨S16384x1, .i32⟩
  | 44 => ⟨S16384, .i32⟩
  | 45 => ⟨S_, .i32⟩
  | 46 => ⟨S16384, .i32⟩
  | 47 => ⟨S16384, .i1⟩
  | 48 => ⟨S_, .i32⟩
  | 49 => ⟨S16384, .i32⟩
  | 50 => ⟨S16384, .i32⟩
  | 51 => ⟨S16384, .i32⟩
  | 52 => ⟨S16384x1, .i32⟩
  | 53 => ⟨S1, .i32⟩
  | 54 => ⟨S_, .i32⟩
  | 55 => ⟨S16384x1, .i32⟩
  | 56 => ⟨S16384x1, .i1⟩
  | 57 => ⟨S1x1, .i32⟩
  | 58 => ⟨S16384x1, .i32⟩
  | 59 => ⟨S16384x1, .i1⟩
  | 60 => ⟨S16384x1, .i1⟩
  | 61 => ⟨S_, .i1⟩
  | 62 => ⟨S16384, .i1⟩
  | 63 => ⟨S16384x128, .f32⟩
  | 64 => ⟨S16384x128, .i1⟩
  | 65 => ⟨S_, .f32⟩
  | 66 => ⟨S16384x128, .f32⟩
  | 67 => ⟨S16384x128, .f32⟩
  | 68 => ⟨S16384x128, .f32⟩
  | 69 => ⟨S_, .f32⟩
  | 70 => ⟨S16384, .f32⟩
  | 71 => ⟨S16384x1, .f32⟩
  | 72 => ⟨S16384x1, .f32⟩
  | 73 => ⟨S_, .f32⟩
  | 74 => ⟨S16384x1, .f32⟩
  | 75 => ⟨S16384x1, .f32⟩
  | 76 => ⟨S_, .f32⟩
  | 77 => ⟨S16384x1, .f32⟩
  | 78 => ⟨S16384x1, .f32⟩
  | 79 => ⟨S_, .f32⟩
  | 80 => ⟨S16384x1, .f32⟩
  | 81 => ⟨S16384x1, .f32⟩
  | 82 => ⟨S16384x128, .f32⟩
  | 83 => ⟨S16384x128, .f32⟩
  | 84 => ⟨S16384x1, .i32⟩
  | 85 => ⟨S16384, .i32⟩
  | 86 => ⟨S_, .i32⟩
  | 87 => ⟨S16384, .i32⟩
  | 88 => ⟨S16384, .i1⟩
  | 89 => ⟨S_, .i32⟩
  | 90 => ⟨S16384, .i32⟩
  | 91 => ⟨S16384, .i32⟩
  | 92 => ⟨S16384, .i32⟩
  | 93 => ⟨S16384x1, .i32⟩
  | 94 => ⟨S1, .i32⟩
  | 95 => ⟨S_, .i32⟩
  | 96 => ⟨S16384x1, .i32⟩
  | 97 => ⟨S16384x1, .i1⟩
  | 98 => ⟨S1x1, .i32⟩
  | 99 => ⟨S16384x1, .i32⟩
  | 100 => ⟨S16384x1, .i1⟩
  | 101 => ⟨S16384x1, .i1⟩
  | 102 => ⟨S_, .i1⟩
  | 103 => ⟨S16384, .i1⟩
  | 104 => ⟨S16384x128, .f32⟩
  | 105 => ⟨S16384x128, .i1⟩
  | 106 => ⟨S_, .f32⟩
  | 107 => ⟨S16384x128, .f32⟩
  | 108 => ⟨S16384x128, .f32⟩
  | 109 => ⟨S16384x128, .f32⟩
  | 110 => ⟨S_, .f32⟩
  | 111 => ⟨S16384, .f32⟩
  | 112 => ⟨S16384x1, .f32⟩
  | 113 => ⟨S16384x1, .f32⟩
  | 114 => ⟨S_, .f32⟩
  | 115 => ⟨S16384x1, .f32⟩
  | 116 => ⟨S16384x1, .f32⟩
  | 117 => ⟨S_, .f32⟩
  | 118 => ⟨S16384x1, .f32⟩
  | 119 => ⟨S16384x1, .f32⟩
  | 120 => ⟨S_, .f32⟩
  | 121 => ⟨S16384x1, .f32⟩
  | 122 => ⟨S16384x1, .f32⟩
  | 123 => ⟨S16384x128, .f32⟩
  | 124 => ⟨S16384x128, .f32⟩
  | 125 => ⟨S16384x1, .i32⟩
  | 126 => ⟨S16384, .i32⟩
  | 127 => ⟨S_, .i32⟩
  | _ => ⟨S16384x26, .i32⟩

abbrev hbmTy0_6 (i : Nat) : BufTy := match i % 128 with
  | 0 => ⟨S16384, .i32⟩
  | 1 => ⟨S16384, .i1⟩
  | 2 => ⟨S_, .i32⟩
  | 3 => ⟨S16384, .i32⟩
  | 4 => ⟨S16384, .i32⟩
  | 5 => ⟨S16384, .i32⟩
  | 6 => ⟨S16384x1, .i32⟩
  | 7 => ⟨S1, .i32⟩
  | 8 => ⟨S_, .i32⟩
  | 9 => ⟨S16384x1, .i32⟩
  | 10 => ⟨S16384x1, .i1⟩
  | 11 => ⟨S1x1, .i32⟩
  | 12 => ⟨S16384x1, .i32⟩
  | 13 => ⟨S16384x1, .i1⟩
  | 14 => ⟨S16384x1, .i1⟩
  | 15 => ⟨S_, .i1⟩
  | 16 => ⟨S16384, .i1⟩
  | 17 => ⟨S16384x128, .f32⟩
  | 18 => ⟨S16384x128, .i1⟩
  | 19 => ⟨S_, .f32⟩
  | 20 => ⟨S16384x128, .f32⟩
  | 21 => ⟨S16384x128, .f32⟩
  | 22 => ⟨S16384x128, .f32⟩
  | 23 => ⟨S_, .f32⟩
  | 24 => ⟨S16384, .f32⟩
  | 25 => ⟨S16384x1, .f32⟩
  | 26 => ⟨S16384x1, .f32⟩
  | 27 => ⟨S_, .f32⟩
  | 28 => ⟨S16384x1, .f32⟩
  | 29 => ⟨S16384x1, .f32⟩
  | 30 => ⟨S_, .f32⟩
  | 31 => ⟨S16384x1, .f32⟩
  | 32 => ⟨S16384x1, .f32⟩
  | 33 => ⟨S_, .f32⟩
  | 34 => ⟨S16384x1, .f32⟩
  | 35 => ⟨S16384x1, .f32⟩
  | 36 => ⟨S16384x128, .f32⟩
  | 37 => ⟨S16384x128, .f32⟩
  | 38 => ⟨S16384x1, .i32⟩
  | 39 => ⟨S16384, .i32⟩
  | 40 => ⟨S_, .i32⟩
  | 41 => ⟨S16384, .i32⟩
  | 42 => ⟨S16384, .i1⟩
  | 43 => ⟨S_, .i32⟩
  | 44 => ⟨S16384, .i32⟩
  | 45 => ⟨S16384, .i32⟩
  | 46 => ⟨S16384, .i32⟩
  | 47 => ⟨S16384x1, .i32⟩
  | 48 => ⟨S1, .i32⟩
  | 49 => ⟨S_, .i32⟩
  | 50 => ⟨S16384x1, .i32⟩
  | 51 => ⟨S16384x1, .i1⟩
  | 52 => ⟨S1x1, .i32⟩
  | 53 => ⟨S16384x1, .i32⟩
  | 54 => ⟨S16384x1, .i1⟩
  | 55 => ⟨S16384x1, .i1⟩
  | 56 => ⟨S_, .i1⟩
  | 57 => ⟨S16384, .i1⟩
  | 58 => ⟨S16384x128, .f32⟩
  | 59 => ⟨S16384x128, .i1⟩
  | 60 => ⟨S_, .f32⟩
  | 61 => ⟨S16384x128, .f32⟩
  | 62 => ⟨S16384x128, .f32⟩
  | 63 => ⟨S16384x128, .f32⟩
  | 64 => ⟨S_, .f32⟩
  | 65 => ⟨S16384, .f32⟩
  | 66 => ⟨S16384x1, .f32⟩
  | 67 => ⟨S16384x1, .f32⟩
  | 68 => ⟨S_, .f32⟩
  | 69 => ⟨S16384x1, .f32⟩
  | 70 => ⟨S16384x1, .f32⟩
  | 71 => ⟨S_, .f32⟩
  | 72 => ⟨S16384x1, .f32⟩
  | 73 => ⟨S16384x1, .f32⟩
  | 74 => ⟨S_, .f32⟩
  | 75 => ⟨S16384x1, .f32⟩
  | 76 => ⟨S16384x1, .f32⟩
  | 77 => ⟨S16384x128, .f32⟩
  | 78 => ⟨S16384x128, .f32⟩
  | 79 => ⟨S16384x1, .i32⟩
  | 80 => ⟨S16384, .i32⟩
  | 81 => ⟨S_, .i32⟩
  | 82 => ⟨S16384, .i32⟩
  | 83 => ⟨S16384, .i1⟩
  | 84 => ⟨S_, .i32⟩
  | 85 => ⟨S16384, .i32⟩
  | 86 => ⟨S16384, .i32⟩
  | 87 => ⟨S16384, .i32⟩
  | 88 => ⟨S16384x1, .i32⟩
  | 89 => ⟨S1, .i32⟩
  | 90 => ⟨S_, .i32⟩
  | 91 => ⟨S16384x1, .i32⟩
  | 92 => ⟨S16384x1, .i1⟩
  | 93 => ⟨S1x1, .i32⟩
  | 94 => ⟨S16384x1, .i32⟩
  | 95 => ⟨S16384x1, .i1⟩
  | 96 => ⟨S16384x1, .i1⟩
  | 97 => ⟨S_, .i1⟩
  | 98 => ⟨S16384, .i1⟩
  | 99 => ⟨S16384x128, .f32⟩
  | 100 => ⟨S16384x128, .i1⟩
  | 101 => ⟨S_, .f32⟩
  | 102 => ⟨S16384x128, .f32⟩
  | 103 => ⟨S16384x128, .f32⟩
  | 104 => ⟨S16384x128, .f32⟩
  | 105 => ⟨S_, .f32⟩
  | 106 => ⟨S16384, .f32⟩
  | 107 => ⟨S16384x1, .f32⟩
  | 108 => ⟨S16384x1, .f32⟩
  | 109 => ⟨S_, .f32⟩
  | 110 => ⟨S16384x1, .f32⟩
  | 111 => ⟨S16384x1, .f32⟩
  | 112 => ⟨S_, .f32⟩
  | 113 => ⟨S16384x1, .f32⟩
  | 114 => ⟨S16384x1, .f32⟩
  | 115 => ⟨S_, .f32⟩
  | 116 => ⟨S16384x1, .f32⟩
  | 117 => ⟨S16384x1, .f32⟩
  | 118 => ⟨S16384x128, .f32⟩
  | 119 => ⟨S16384x128, .f32⟩
  | 120 => ⟨S16384x1, .i32⟩
  | 121 => ⟨S16384, .i32⟩
  | 122 => ⟨S_, .i32⟩
  | 123 => ⟨S16384, .i32⟩
  | 124 => ⟨S16384, .i1⟩
  | 125 => ⟨S_, .i32⟩
  | 126 => ⟨S16384, .i32⟩
  | 127 => ⟨S16384, .i32⟩
  | _ => ⟨S16384x26, .i32⟩

abbrev hbmTy0_7 (i : Nat) : BufTy := match i % 128 with
  | 0 => ⟨S16384, .i32⟩
  | 1 => ⟨S16384x1, .i32⟩
  | 2 => ⟨S1, .i32⟩
  | 3 => ⟨S_, .i32⟩
  | 4 => ⟨S16384x1, .i32⟩
  | 5 => ⟨S16384x1, .i1⟩
  | 6 => ⟨S1x1, .i32⟩
  | 7 => ⟨S16384x1, .i32⟩
  | 8 => ⟨S16384x1, .i1⟩
  | 9 => ⟨S16384x1, .i1⟩
  | 10 => ⟨S_, .i1⟩
  | 11 => ⟨S16384, .i1⟩
  | 12 => ⟨S16384x128, .f32⟩
  | 13 => ⟨S16384x128, .i1⟩
  | 14 => ⟨S_, .f32⟩
  | 15 => ⟨S16384x128, .f32⟩
  | 16 => ⟨S16384x128, .f32⟩
  | 17 => ⟨S16384x128, .f32⟩
  | 18 => ⟨S_, .f32⟩
  | 19 => ⟨S16384, .f32⟩
  | 20 => ⟨S16384x1, .f32⟩
  | 21 => ⟨S16384x1, .f32⟩
  | 22 => ⟨S_, .f32⟩
  | 23 => ⟨S16384x1, .f32⟩
  | 24 => ⟨S16384x1, .f32⟩
  | 25 => ⟨S_, .f32⟩
  | 26 => ⟨S16384x1, .f32⟩
  | 27 => ⟨S16384x1, .f32⟩
  | 28 => ⟨S_, .f32⟩
  | 29 => ⟨S16384x1, .f32⟩
  | 30 => ⟨S16384x1, .f32⟩
  | 31 => ⟨S16384x128, .f32⟩
  | 32 => ⟨S16384x128, .f32⟩
  | 33 => ⟨S16384x1, .i32⟩
  | 34 => ⟨S16384, .i32⟩
  | 35 => ⟨S_, .i32⟩
  | 36 => ⟨S16384, .i32⟩
  | 37 => ⟨S16384, .i1⟩
  | 38 => ⟨S_, .i32⟩
  | 39 => ⟨S16384, .i32⟩
  | 40 => ⟨S16384, .i32⟩
  | 41 => ⟨S16384, .i32⟩
  | 42 => ⟨S16384x1, .i32⟩
  | 43 => ⟨S1, .i32⟩
  | 44 => ⟨S_, .i32⟩
  | 45 => ⟨S16384x1, .i32⟩
  | 46 => ⟨S16384x1, .i1⟩
  | 47 => ⟨S1x1, .i32⟩
  | 48 => ⟨S16384x1, .i32⟩
  | 49 => ⟨S16384x1, .i1⟩
  | 50 => ⟨S16384x1, .i1⟩
  | 51 => ⟨S_, .i1⟩
  | 52 => ⟨S16384, .i1⟩
  | 53 => ⟨S16384x128, .f32⟩
  | 54 => ⟨S16384x128, .i1⟩
  | 55 => ⟨S_, .f32⟩
  | 56 => ⟨S16384x128, .f32⟩
  | 57 => ⟨S16384x128, .f32⟩
  | 58 => ⟨S16384x128, .f32⟩
  | 59 => ⟨S_, .f32⟩
  | 60 => ⟨S16384, .f32⟩
  | 61 => ⟨S16384x1, .f32⟩
  | 62 => ⟨S16384x1, .f32⟩
  | 63 => ⟨S_, .f32⟩
  | 64 => ⟨S16384x1, .f32⟩
  | 65 => ⟨S16384x1, .f32⟩
  | 66 => ⟨S_, .f32⟩
  | 67 => ⟨S16384x1, .f32⟩
  | 68 => ⟨S16384x1, .f32⟩
  | 69 => ⟨S_, .f32⟩
  | 70 => ⟨S16384x1, .f32⟩
  | 71 => ⟨S16384x1, .f32⟩
  | 72 => ⟨S16384x128, .f32⟩
  | 73 => ⟨S16384x128, .f32⟩
  | 74 => ⟨S16384x1, .i32⟩
  | 75 => ⟨S16384, .i32⟩
  | 76 => ⟨S_, .i32⟩
  | 77 => ⟨S16384, .i32⟩
  | 78 => ⟨S16384, .i1⟩
  | 79 => ⟨S_, .i32⟩
  | 80 => ⟨S16384, .i32⟩
  | 81 => ⟨S16384, .i32⟩
  | 82 => ⟨S16384, .i32⟩
  | 83 => ⟨S16384x1, .i32⟩
  | 84 => ⟨S1, .i32⟩
  | 85 => ⟨S_, .i32⟩
  | 86 => ⟨S16384x1, .i32⟩
  | 87 => ⟨S16384x1, .i1⟩
  | 88 => ⟨S1x1, .i32⟩
  | 89 => ⟨S16384x1, .i32⟩
  | 90 => ⟨S16384x1, .i1⟩
  | 91 => ⟨S16384x1, .i1⟩
  | 92 => ⟨S_, .i1⟩
  | 93 => ⟨S16384, .i1⟩
  | 94 => ⟨S16384x128, .f32⟩
  | 95 => ⟨S16384x128, .i1⟩
  | 96 => ⟨S_, .f32⟩
  | 97 => ⟨S16384x128, .f32⟩
  | 98 => ⟨S16384x128, .f32⟩
  | 99 => ⟨S16384x128, .f32⟩
  | 100 => ⟨S_, .f32⟩
  | 101 => ⟨S16384, .f32⟩
  | 102 => ⟨S16384x1, .f32⟩
  | 103 => ⟨S16384x1, .f32⟩
  | 104 => ⟨S_, .f32⟩
  | 105 => ⟨S16384x1, .f32⟩
  | 106 => ⟨S16384x1, .f32⟩
  | 107 => ⟨S_, .f32⟩
  | 108 => ⟨S16384x1, .f32⟩
  | 109 => ⟨S16384x1, .f32⟩
  | 110 => ⟨S_, .f32⟩
  | 111 => ⟨S16384x1, .f32⟩
  | 112 => ⟨S16384x1, .f32⟩
  | 113 => ⟨S16384x128, .f32⟩
  | 114 => ⟨S16384x128, .f32⟩
  | 115 => ⟨S16384x1, .i32⟩
  | 116 => ⟨S16384, .i32⟩
  | 117 => ⟨S_, .i32⟩
  | 118 => ⟨S16384, .i32⟩
  | 119 => ⟨S16384, .i1⟩
  | 120 => ⟨S_, .i32⟩
  | 121 => ⟨S16384, .i32⟩
  | 122 => ⟨S16384, .i32⟩
  | 123 => ⟨S16384, .i32⟩
  | 124 => ⟨S16384x1, .i32⟩
  | 125 => ⟨S1, .i32⟩
  | 126 => ⟨S_, .i32⟩
  | 127 => ⟨S16384x1, .i32⟩
  | _ => ⟨S16384x26, .i32⟩

abbrev hbmTy0_8 (i : Nat) : BufTy := match i % 128 with
  | 0 => ⟨S16384x1, .i1⟩
  | 1 => ⟨S1x1, .i32⟩
  | 2 => ⟨S16384x1, .i32⟩
  | 3 => ⟨S16384x1, .i1⟩
  | 4 => ⟨S16384x1, .i1⟩
  | 5 => ⟨S_, .i1⟩
  | 6 => ⟨S16384, .i1⟩
  | 7 => ⟨S16384x128, .f32⟩
  | 8 => ⟨S16384x128, .i1⟩
  | 9 => ⟨S_, .f32⟩
  | 10 => ⟨S16384x128, .f32⟩
  | 11 => ⟨S16384x128, .f32⟩
  | 12 => ⟨S16384x128, .f32⟩
  | 13 => ⟨S_, .f32⟩
  | 14 => ⟨S16384, .f32⟩
  | 15 => ⟨S16384x1, .f32⟩
  | 16 => ⟨S16384x1, .f32⟩
  | 17 => ⟨S_, .f32⟩
  | 18 => ⟨S16384x1, .f32⟩
  | 19 => ⟨S16384x1, .f32⟩
  | 20 => ⟨S_, .f32⟩
  | 21 => ⟨S16384x1, .f32⟩
  | 22 => ⟨S16384x1, .f32⟩
  | 23 => ⟨S_, .f32⟩
  | 24 => ⟨S16384x1, .f32⟩
  | 25 => ⟨S16384x1, .f32⟩
  | 26 => ⟨S16384x128, .f32⟩
  | 27 => ⟨S16384x128, .f32⟩
  | 28 => ⟨S16384x1, .i32⟩
  | 29 => ⟨S16384, .i32⟩
  | 30 => ⟨S_, .i32⟩
  | 31 => ⟨S16384, .i32⟩
  | 32 => ⟨S16384, .i1⟩
  | 33 => ⟨S_, .i32⟩
  | 34 => ⟨S16384, .i32⟩
  | 35 => ⟨S16384, .i32⟩
  | 36 => ⟨S16384, .i32⟩
  | 37 => ⟨S16384x1, .i32⟩
  | 38 => ⟨S1, .i32⟩
  | 39 => ⟨S_, .i32⟩
  | 40 => ⟨S16384x1, .i32⟩
  | 41 => ⟨S16384x1, .i1⟩
  | 42 => ⟨S1x1, .i32⟩
  | 43 => ⟨S16384x1, .i32⟩
  | 44 => ⟨S16384x1, .i1⟩
  | 45 => ⟨S16384x1, .i1⟩
  | 46 => ⟨S_, .i1⟩
  | 47 => ⟨S16384, .i1⟩
  | 48 => ⟨S16384x128, .f32⟩
  | 49 => ⟨S16384x128, .i1⟩
  | 50 => ⟨S_, .f32⟩
  | 51 => ⟨S16384x128, .f32⟩
  | 52 => ⟨S16384x128, .f32⟩
  | 53 => ⟨S16384x128, .f32⟩
  | 54 => ⟨S_, .f32⟩
  | 55 => ⟨S16384, .f32⟩
  | 56 => ⟨S16384x1, .f32⟩
  | 57 => ⟨S16384x1, .f32⟩
  | 58 => ⟨S_, .f32⟩
  | 59 => ⟨S16384x1, .f32⟩
  | 60 => ⟨S16384x1, .f32⟩
  | 61 => ⟨S_, .f32⟩
  | 62 => ⟨S16384x1, .f32⟩
  | 63 => ⟨S16384x1, .f32⟩
  | 64 => ⟨S_, .f32⟩
  | 65 => ⟨S16384x1, .f32⟩
  | 66 => ⟨S16384x1, .f32⟩
  | 67 => ⟨S16384x128, .f32⟩
  | 68 => ⟨S16384x128, .f32⟩
  | 69 => ⟨S16384x2048, .f32⟩
  | 70 => ⟨S16384x1280, .f32⟩
  | 71 => ⟨S16384x3328, .f32⟩
  | _ => ⟨S16384x26, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S16384x26, .i32⟩

abbrev bufTy : (tb : Table) → Fin (tcTables nBuf tb) → BufTy
  | .hbm, ⟨i, _⟩ => hbmTy i
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_v1 : Ref sig .tc := ⟨.hbm, 28, rfl⟩
abbrev main_call0_c : Ref sig .tc := ⟨.hbm, 29, rfl⟩
abbrev main_call0_v0 : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_v5 : Ref sig .tc := ⟨.hbm, 36, rfl⟩
abbrev main_call0_c_1 : Ref sig .tc := ⟨.hbm, 37, rfl⟩
abbrev main_call0_c_2 : Ref sig .tc := ⟨.hbm, 38, rfl⟩
abbrev main_call0_v6 : Ref sig .tc := ⟨.hbm, 39, rfl⟩
abbrev main_call0_v7 : Ref sig .tc := ⟨.hbm, 40, rfl⟩
abbrev main_call0_v8 : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_3 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_call0_cst : Ref sig .tc := ⟨.hbm, 49, rfl⟩
abbrev main_call0_v15 : Ref sig .tc := ⟨.hbm, 50, rfl⟩
abbrev main_v2 : Ref sig .tc := ⟨.hbm, 51, rfl⟩
abbrev main_call1_v0 : Ref sig .tc := ⟨.hbm, 52, rfl⟩
abbrev main_call1_cst : Ref sig .tc := ⟨.hbm, 53, rfl⟩
abbrev main_call1_v1 : Ref sig .tc := ⟨.hbm, 54, rfl⟩
abbrev main_call1_v2 : Ref sig .tc := ⟨.hbm, 55, rfl⟩
abbrev main_v3 : Ref sig .tc := ⟨.hbm, 56, rfl⟩
abbrev main_cst : Ref sig .tc := ⟨.hbm, 57, rfl⟩
abbrev main_v4 : Ref sig .tc := ⟨.hbm, 58, rfl⟩
abbrev main_v5 : Ref sig .tc := ⟨.hbm, 59, rfl⟩
abbrev main_cst_0 : Ref sig .tc := ⟨.hbm, 60, rfl⟩
abbrev main_v6 : Ref sig .tc := ⟨.hbm, 61, rfl⟩
abbrev main_v7 : Ref sig .tc := ⟨.hbm, 62, rfl⟩
abbrev main_cst_1 : Ref sig .tc := ⟨.hbm, 63, rfl⟩
abbrev main_v8 : Ref sig .tc := ⟨.hbm, 64, rfl⟩
abbrev main_v9 : Ref sig .tc := ⟨.hbm, 65, rfl⟩
abbrev main_v10 : Ref sig .tc := ⟨.hbm, 66, rfl⟩
abbrev main_v11 : Ref sig .tc := ⟨.hbm, 67, rfl⟩
abbrev main_v12 : Ref sig .tc := ⟨.hbm, 68, rfl⟩
abbrev main_v13 : Ref sig .tc := ⟨.hbm, 69, rfl⟩
abbrev main_call2_c : Ref sig .tc := ⟨.hbm, 70, rfl⟩
abbrev main_call2_v0 : Ref sig .tc := ⟨.hbm, 71, rfl⟩
abbrev main_call2_v1 : Ref sig .tc := ⟨.hbm, 72, rfl⟩
abbrev main_call2_c_0 : Ref sig .tc := ⟨.hbm, 73, rfl⟩
abbrev main_call2_v2 : Ref sig .tc := ⟨.hbm, 74, rfl⟩
abbrev main_call2_v3 : Ref sig .tc := ⟨.hbm, 75, rfl⟩
abbrev main_call2_v4 : Ref sig .tc := ⟨.hbm, 76, rfl⟩
abbrev main_call2_v5 : Ref sig .tc := ⟨.hbm, 77, rfl⟩
abbrev main_call2_c_1 : Ref sig .tc := ⟨.hbm, 78, rfl⟩
abbrev main_call2_c_2 : Ref sig .tc := ⟨.hbm, 79, rfl⟩
abbrev main_call2_v6 : Ref sig .tc := ⟨.hbm, 80, rfl⟩
abbrev main_call2_v7 : Ref sig .tc := ⟨.hbm, 81, rfl⟩
abbrev main_call2_v8 : Ref sig .tc := ⟨.hbm, 82, rfl⟩
abbrev main_call2_v9 : Ref sig .tc := ⟨.hbm, 83, rfl⟩
abbrev main_call2_v10 : Ref sig .tc := ⟨.hbm, 84, rfl⟩
abbrev main_call2_v11 : Ref sig .tc := ⟨.hbm, 85, rfl⟩
abbrev main_call2_c_3 : Ref sig .tc := ⟨.hbm, 86, rfl⟩
abbrev main_call2_v12 : Ref sig .tc := ⟨.hbm, 87, rfl⟩
abbrev main_call2_v13 : Ref sig .tc := ⟨.hbm, 88, rfl⟩
abbrev main_call2_v14 : Ref sig .tc := ⟨.hbm, 89, rfl⟩
abbrev main_call2_cst : Ref sig .tc := ⟨.hbm, 90, rfl⟩
abbrev main_call2_v15 : Ref sig .tc := ⟨.hbm, 91, rfl⟩
abbrev main_v14 : Ref sig .tc := ⟨.hbm, 92, rfl⟩
abbrev main_call3_v0 : Ref sig .tc := ⟨.hbm, 93, rfl⟩
abbrev main_call3_cst : Ref sig .tc := ⟨.hbm, 94, rfl⟩
abbrev main_call3_v1 : Ref sig .tc := ⟨.hbm, 95, rfl⟩
abbrev main_call3_v2 : Ref sig .tc := ⟨.hbm, 96, rfl⟩
abbrev main_v15 : Ref sig .tc := ⟨.hbm, 97, rfl⟩
abbrev main_cst_2 : Ref sig .tc := ⟨.hbm, 98, rfl⟩
abbrev main_v16 : Ref sig .tc := ⟨.hbm, 99, rfl⟩
abbrev main_v17 : Ref sig .tc := ⟨.hbm, 100, rfl⟩
abbrev main_cst_3 : Ref sig .tc := ⟨.hbm, 101, rfl⟩
abbrev main_v18 : Ref sig .tc := ⟨.hbm, 102, rfl⟩
abbrev main_v19 : Ref sig .tc := ⟨.hbm, 103, rfl⟩
abbrev main_cst_4 : Ref sig .tc := ⟨.hbm, 104, rfl⟩
abbrev main_v20 : Ref sig .tc := ⟨.hbm, 105, rfl⟩
abbrev main_v21 : Ref sig .tc := ⟨.hbm, 106, rfl⟩
abbrev main_v22 : Ref sig .tc := ⟨.hbm, 107, rfl⟩
abbrev main_v23 : Ref sig .tc := ⟨.hbm, 108, rfl⟩
abbrev main_v24 : Ref sig .tc := ⟨.hbm, 109, rfl⟩
abbrev main_v25 : Ref sig .tc := ⟨.hbm, 110, rfl⟩
abbrev main_call4_c : Ref sig .tc := ⟨.hbm, 111, rfl⟩
abbrev main_call4_v0 : Ref sig .tc := ⟨.hbm, 112, rfl⟩
abbrev main_call4_v1 : Ref sig .tc := ⟨.hbm, 113, rfl⟩
abbrev main_call4_c_0 : Ref sig .tc := ⟨.hbm, 114, rfl⟩
abbrev main_call4_v2 : Ref sig .tc := ⟨.hbm, 115, rfl⟩
abbrev main_call4_v3 : Ref sig .tc := ⟨.hbm, 116, rfl⟩
abbrev main_call4_v4 : Ref sig .tc := ⟨.hbm, 117, rfl⟩
abbrev main_call4_v5 : Ref sig .tc := ⟨.hbm, 118, rfl⟩
abbrev main_call4_c_1 : Ref sig .tc := ⟨.hbm, 119, rfl⟩
abbrev main_call4_c_2 : Ref sig .tc := ⟨.hbm, 120, rfl⟩
abbrev main_call4_v6 : Ref sig .tc := ⟨.hbm, 121, rfl⟩
abbrev main_call4_v7 : Ref sig .tc := ⟨.hbm, 122, rfl⟩
abbrev main_call4_v8 : Ref sig .tc := ⟨.hbm, 123, rfl⟩
abbrev main_call4_v9 : Ref sig .tc := ⟨.hbm, 124, rfl⟩
abbrev main_call4_v10 : Ref sig .tc := ⟨.hbm, 125, rfl⟩
abbrev main_call4_v11 : Ref sig .tc := ⟨.hbm, 126, rfl⟩
abbrev main_call4_c_3 : Ref sig .tc := ⟨.hbm, 127, rfl⟩
abbrev main_call4_v12 : Ref sig .tc := ⟨.hbm, 128, rfl⟩
abbrev main_call4_v13 : Ref sig .tc := ⟨.hbm, 129, rfl⟩
abbrev main_call4_v14 : Ref sig .tc := ⟨.hbm, 130, rfl⟩
abbrev main_call4_cst : Ref sig .tc := ⟨.hbm, 131, rfl⟩
abbrev main_call4_v15 : Ref sig .tc := ⟨.hbm, 132, rfl⟩
abbrev main_v26 : Ref sig .tc := ⟨.hbm, 133, rfl⟩
abbrev main_call5_v0 : Ref sig .tc := ⟨.hbm, 134, rfl⟩
abbrev main_call5_cst : Ref sig .tc := ⟨.hbm, 135, rfl⟩
abbrev main_call5_v1 : Ref sig .tc := ⟨.hbm, 136, rfl⟩
abbrev main_call5_v2 : Ref sig .tc := ⟨.hbm, 137, rfl⟩
abbrev main_v27 : Ref sig .tc := ⟨.hbm, 138, rfl⟩
abbrev main_cst_5 : Ref sig .tc := ⟨.hbm, 139, rfl⟩
abbrev main_v28 : Ref sig .tc := ⟨.hbm, 140, rfl⟩
abbrev main_v29 : Ref sig .tc := ⟨.hbm, 141, rfl⟩
abbrev main_cst_6 : Ref sig .tc := ⟨.hbm, 142, rfl⟩
abbrev main_v30 : Ref sig .tc := ⟨.hbm, 143, rfl⟩
abbrev main_v31 : Ref sig .tc := ⟨.hbm, 144, rfl⟩
abbrev main_cst_7 : Ref sig .tc := ⟨.hbm, 145, rfl⟩
abbrev main_v32 : Ref sig .tc := ⟨.hbm, 146, rfl⟩
abbrev main_v33 : Ref sig .tc := ⟨.hbm, 147, rfl⟩
abbrev main_v34 : Ref sig .tc := ⟨.hbm, 148, rfl⟩
abbrev main_v35 : Ref sig .tc := ⟨.hbm, 149, rfl⟩
abbrev main_v36 : Ref sig .tc := ⟨.hbm, 150, rfl⟩
abbrev main_v37 : Ref sig .tc := ⟨.hbm, 151, rfl⟩
abbrev main_call6_c : Ref sig .tc := ⟨.hbm, 152, rfl⟩
abbrev main_call6_v0 : Ref sig .tc := ⟨.hbm, 153, rfl⟩
abbrev main_call6_v1 : Ref sig .tc := ⟨.hbm, 154, rfl⟩
abbrev main_call6_c_0 : Ref sig .tc := ⟨.hbm, 155, rfl⟩
abbrev main_call6_v2 : Ref sig .tc := ⟨.hbm, 156, rfl⟩
abbrev main_call6_v3 : Ref sig .tc := ⟨.hbm, 157, rfl⟩
abbrev main_call6_v4 : Ref sig .tc := ⟨.hbm, 158, rfl⟩
abbrev main_call6_v5 : Ref sig .tc := ⟨.hbm, 159, rfl⟩
abbrev main_call6_c_1 : Ref sig .tc := ⟨.hbm, 160, rfl⟩
abbrev main_call6_c_2 : Ref sig .tc := ⟨.hbm, 161, rfl⟩
abbrev main_call6_v6 : Ref sig .tc := ⟨.hbm, 162, rfl⟩
abbrev main_call6_v7 : Ref sig .tc := ⟨.hbm, 163, rfl⟩
abbrev main_call6_v8 : Ref sig .tc := ⟨.hbm, 164, rfl⟩
abbrev main_call6_v9 : Ref sig .tc := ⟨.hbm, 165, rfl⟩
abbrev main_call6_v10 : Ref sig .tc := ⟨.hbm, 166, rfl⟩
abbrev main_call6_v11 : Ref sig .tc := ⟨.hbm, 167, rfl⟩
abbrev main_call6_c_3 : Ref sig .tc := ⟨.hbm, 168, rfl⟩
abbrev main_call6_v12 : Ref sig .tc := ⟨.hbm, 169, rfl⟩
abbrev main_call6_v13 : Ref sig .tc := ⟨.hbm, 170, rfl⟩
abbrev main_call6_v14 : Ref sig .tc := ⟨.hbm, 171, rfl⟩
abbrev main_call6_cst : Ref sig .tc := ⟨.hbm, 172, rfl⟩
abbrev main_call6_v15 : Ref sig .tc := ⟨.hbm, 173, rfl⟩
abbrev main_v38 : Ref sig .tc := ⟨.hbm, 174, rfl⟩
abbrev main_call7_v0 : Ref sig .tc := ⟨.hbm, 175, rfl⟩
abbrev main_call7_cst : Ref sig .tc := ⟨.hbm, 176, rfl⟩
abbrev main_call7_v1 : Ref sig .tc := ⟨.hbm, 177, rfl⟩
abbrev main_call7_v2 : Ref sig .tc := ⟨.hbm, 178, rfl⟩
abbrev main_v39 : Ref sig .tc := ⟨.hbm, 179, rfl⟩
abbrev main_cst_8 : Ref sig .tc := ⟨.hbm, 180, rfl⟩
abbrev main_v40 : Ref sig .tc := ⟨.hbm, 181, rfl⟩
abbrev main_v41 : Ref sig .tc := ⟨.hbm, 182, rfl⟩
abbrev main_cst_9 : Ref sig .tc := ⟨.hbm, 183, rfl⟩
abbrev main_v42 : Ref sig .tc := ⟨.hbm, 184, rfl⟩
abbrev main_v43 : Ref sig .tc := ⟨.hbm, 185, rfl⟩
abbrev main_cst_10 : Ref sig .tc := ⟨.hbm, 186, rfl⟩
abbrev main_v44 : Ref sig .tc := ⟨.hbm, 187, rfl⟩
abbrev main_v45 : Ref sig .tc := ⟨.hbm, 188, rfl⟩
abbrev main_v46 : Ref sig .tc := ⟨.hbm, 189, rfl⟩
abbrev main_v47 : Ref sig .tc := ⟨.hbm, 190, rfl⟩
abbrev main_v48 : Ref sig .tc := ⟨.hbm, 191, rfl⟩
abbrev main_v49 : Ref sig .tc := ⟨.hbm, 192, rfl⟩
abbrev main_call8_c : Ref sig .tc := ⟨.hbm, 193, rfl⟩
abbrev main_call8_v0 : Ref sig .tc := ⟨.hbm, 194, rfl⟩
abbrev main_call8_v1 : Ref sig .tc := ⟨.hbm, 195, rfl⟩
abbrev main_call8_c_0 : Ref sig .tc := ⟨.hbm, 196, rfl⟩
abbrev main_call8_v2 : Ref sig .tc := ⟨.hbm, 197, rfl⟩
abbrev main_call8_v3 : Ref sig .tc := ⟨.hbm, 198, rfl⟩
abbrev main_call8_v4 : Ref sig .tc := ⟨.hbm, 199, rfl⟩
abbrev main_call8_v5 : Ref sig .tc := ⟨.hbm, 200, rfl⟩
abbrev main_call8_c_1 : Ref sig .tc := ⟨.hbm, 201, rfl⟩
abbrev main_call8_c_2 : Ref sig .tc := ⟨.hbm, 202, rfl⟩
abbrev main_call8_v6 : Ref sig .tc := ⟨.hbm, 203, rfl⟩
abbrev main_call8_v7 : Ref sig .tc := ⟨.hbm, 204, rfl⟩
abbrev main_call8_v8 : Ref sig .tc := ⟨.hbm, 205, rfl⟩
abbrev main_call8_v9 : Ref sig .tc := ⟨.hbm, 206, rfl⟩
abbrev main_call8_v10 : Ref sig .tc := ⟨.hbm, 207, rfl⟩
abbrev main_call8_v11 : Ref sig .tc := ⟨.hbm, 208, rfl⟩
abbrev main_call8_c_3 : Ref sig .tc := ⟨.hbm, 209, rfl⟩
abbrev main_call8_v12 : Ref sig .tc := ⟨.hbm, 210, rfl⟩
abbrev main_call8_v13 : Ref sig .tc := ⟨.hbm, 211, rfl⟩
abbrev main_call8_v14 : Ref sig .tc := ⟨.hbm, 212, rfl⟩
abbrev main_call8_cst : Ref sig .tc := ⟨.hbm, 213, rfl⟩
abbrev main_call8_v15 : Ref sig .tc := ⟨.hbm, 214, rfl⟩
abbrev main_v50 : Ref sig .tc := ⟨.hbm, 215, rfl⟩
abbrev main_call9_v0 : Ref sig .tc := ⟨.hbm, 216, rfl⟩
abbrev main_call9_cst : Ref sig .tc := ⟨.hbm, 217, rfl⟩
abbrev main_call9_v1 : Ref sig .tc := ⟨.hbm, 218, rfl⟩
abbrev main_call9_v2 : Ref sig .tc := ⟨.hbm, 219, rfl⟩
abbrev main_v51 : Ref sig .tc := ⟨.hbm, 220, rfl⟩
abbrev main_cst_11 : Ref sig .tc := ⟨.hbm, 221, rfl⟩
abbrev main_v52 : Ref sig .tc := ⟨.hbm, 222, rfl⟩
abbrev main_v53 : Ref sig .tc := ⟨.hbm, 223, rfl⟩
abbrev main_cst_12 : Ref sig .tc := ⟨.hbm, 224, rfl⟩
abbrev main_v54 : Ref sig .tc := ⟨.hbm, 225, rfl⟩
abbrev main_v55 : Ref sig .tc := ⟨.hbm, 226, rfl⟩
abbrev main_cst_13 : Ref sig .tc := ⟨.hbm, 227, rfl⟩
abbrev main_v56 : Ref sig .tc := ⟨.hbm, 228, rfl⟩
abbrev main_v57 : Ref sig .tc := ⟨.hbm, 229, rfl⟩
abbrev main_v58 : Ref sig .tc := ⟨.hbm, 230, rfl⟩
abbrev main_v59 : Ref sig .tc := ⟨.hbm, 231, rfl⟩
abbrev main_v60 : Ref sig .tc := ⟨.hbm, 232, rfl⟩
abbrev main_v61 : Ref sig .tc := ⟨.hbm, 233, rfl⟩
abbrev main_call10_c : Ref sig .tc := ⟨.hbm, 234, rfl⟩
abbrev main_call10_v0 : Ref sig .tc := ⟨.hbm, 235, rfl⟩
abbrev main_call10_v1 : Ref sig .tc := ⟨.hbm, 236, rfl⟩
abbrev main_call10_c_0 : Ref sig .tc := ⟨.hbm, 237, rfl⟩
abbrev main_call10_v2 : Ref sig .tc := ⟨.hbm, 238, rfl⟩
abbrev main_call10_v3 : Ref sig .tc := ⟨.hbm, 239, rfl⟩
abbrev main_call10_v4 : Ref sig .tc := ⟨.hbm, 240, rfl⟩
abbrev main_call10_v5 : Ref sig .tc := ⟨.hbm, 241, rfl⟩
abbrev main_call10_c_1 : Ref sig .tc := ⟨.hbm, 242, rfl⟩
abbrev main_call10_c_2 : Ref sig .tc := ⟨.hbm, 243, rfl⟩
abbrev main_call10_v6 : Ref sig .tc := ⟨.hbm, 244, rfl⟩
abbrev main_call10_v7 : Ref sig .tc := ⟨.hbm, 245, rfl⟩
abbrev main_call10_v8 : Ref sig .tc := ⟨.hbm, 246, rfl⟩
abbrev main_call10_v9 : Ref sig .tc := ⟨.hbm, 247, rfl⟩
abbrev main_call10_v10 : Ref sig .tc := ⟨.hbm, 248, rfl⟩
abbrev main_call10_v11 : Ref sig .tc := ⟨.hbm, 249, rfl⟩
abbrev main_call10_c_3 : Ref sig .tc := ⟨.hbm, 250, rfl⟩
abbrev main_call10_v12 : Ref sig .tc := ⟨.hbm, 251, rfl⟩
abbrev main_call10_v13 : Ref sig .tc := ⟨.hbm, 252, rfl⟩
abbrev main_call10_v14 : Ref sig .tc := ⟨.hbm, 253, rfl⟩
abbrev main_call10_cst : Ref sig .tc := ⟨.hbm, 254, rfl⟩
abbrev main_call10_v15 : Ref sig .tc := ⟨.hbm, 255, rfl⟩
abbrev main_v62 : Ref sig .tc := ⟨.hbm, 256, rfl⟩
abbrev main_call11_v0 : Ref sig .tc := ⟨.hbm, 257, rfl⟩
abbrev main_call11_cst : Ref sig .tc := ⟨.hbm, 258, rfl⟩
abbrev main_call11_v1 : Ref sig .tc := ⟨.hbm, 259, rfl⟩
abbrev main_call11_v2 : Ref sig .tc := ⟨.hbm, 260, rfl⟩
abbrev main_v63 : Ref sig .tc := ⟨.hbm, 261, rfl⟩
abbrev main_cst_14 : Ref sig .tc := ⟨.hbm, 262, rfl⟩
abbrev main_v64 : Ref sig .tc := ⟨.hbm, 263, rfl⟩
abbrev main_v65 : Ref sig .tc := ⟨.hbm, 264, rfl⟩
abbrev main_cst_15 : Ref sig .tc := ⟨.hbm, 265, rfl⟩
abbrev main_v66 : Ref sig .tc := ⟨.hbm, 266, rfl⟩
abbrev main_v67 : Ref sig .tc := ⟨.hbm, 267, rfl⟩
abbrev main_cst_16 : Ref sig .tc := ⟨.hbm, 268, rfl⟩
abbrev main_v68 : Ref sig .tc := ⟨.hbm, 269, rfl⟩
abbrev main_v69 : Ref sig .tc := ⟨.hbm, 270, rfl⟩
abbrev main_v70 : Ref sig .tc := ⟨.hbm, 271, rfl⟩
abbrev main_v71 : Ref sig .tc := ⟨.hbm, 272, rfl⟩
abbrev main_v72 : Ref sig .tc := ⟨.hbm, 273, rfl⟩
abbrev main_v73 : Ref sig .tc := ⟨.hbm, 274, rfl⟩
abbrev main_call12_c : Ref sig .tc := ⟨.hbm, 275, rfl⟩
abbrev main_call12_v0 : Ref sig .tc := ⟨.hbm, 276, rfl⟩
abbrev main_call12_v1 : Ref sig .tc := ⟨.hbm, 277, rfl⟩
abbrev main_call12_c_0 : Ref sig .tc := ⟨.hbm, 278, rfl⟩
abbrev main_call12_v2 : Ref sig .tc := ⟨.hbm, 279, rfl⟩
abbrev main_call12_v3 : Ref sig .tc := ⟨.hbm, 280, rfl⟩
abbrev main_call12_v4 : Ref sig .tc := ⟨.hbm, 281, rfl⟩
abbrev main_call12_v5 : Ref sig .tc := ⟨.hbm, 282, rfl⟩
abbrev main_call12_c_1 : Ref sig .tc := ⟨.hbm, 283, rfl⟩
abbrev main_call12_c_2 : Ref sig .tc := ⟨.hbm, 284, rfl⟩
abbrev main_call12_v6 : Ref sig .tc := ⟨.hbm, 285, rfl⟩
abbrev main_call12_v7 : Ref sig .tc := ⟨.hbm, 286, rfl⟩
abbrev main_call12_v8 : Ref sig .tc := ⟨.hbm, 287, rfl⟩
abbrev main_call12_v9 : Ref sig .tc := ⟨.hbm, 288, rfl⟩
abbrev main_call12_v10 : Ref sig .tc := ⟨.hbm, 289, rfl⟩
abbrev main_call12_v11 : Ref sig .tc := ⟨.hbm, 290, rfl⟩
abbrev main_call12_c_3 : Ref sig .tc := ⟨.hbm, 291, rfl⟩
abbrev main_call12_v12 : Ref sig .tc := ⟨.hbm, 292, rfl⟩
abbrev main_call12_v13 : Ref sig .tc := ⟨.hbm, 293, rfl⟩
abbrev main_call12_v14 : Ref sig .tc := ⟨.hbm, 294, rfl⟩
abbrev main_call12_cst : Ref sig .tc := ⟨.hbm, 295, rfl⟩
abbrev main_call12_v15 : Ref sig .tc := ⟨.hbm, 296, rfl⟩
abbrev main_v74 : Ref sig .tc := ⟨.hbm, 297, rfl⟩
abbrev main_call13_v0 : Ref sig .tc := ⟨.hbm, 298, rfl⟩
abbrev main_call13_cst : Ref sig .tc := ⟨.hbm, 299, rfl⟩
abbrev main_call13_v1 : Ref sig .tc := ⟨.hbm, 300, rfl⟩
abbrev main_call13_v2 : Ref sig .tc := ⟨.hbm, 301, rfl⟩
abbrev main_v75 : Ref sig .tc := ⟨.hbm, 302, rfl⟩
abbrev main_cst_17 : Ref sig .tc := ⟨.hbm, 303, rfl⟩
abbrev main_v76 : Ref sig .tc := ⟨.hbm, 304, rfl⟩
abbrev main_v77 : Ref sig .tc := ⟨.hbm, 305, rfl⟩
abbrev main_cst_18 : Ref sig .tc := ⟨.hbm, 306, rfl⟩
abbrev main_v78 : Ref sig .tc := ⟨.hbm, 307, rfl⟩
abbrev main_v79 : Ref sig .tc := ⟨.hbm, 308, rfl⟩
abbrev main_cst_19 : Ref sig .tc := ⟨.hbm, 309, rfl⟩
abbrev main_v80 : Ref sig .tc := ⟨.hbm, 310, rfl⟩
abbrev main_v81 : Ref sig .tc := ⟨.hbm, 311, rfl⟩
abbrev main_v82 : Ref sig .tc := ⟨.hbm, 312, rfl⟩
abbrev main_v83 : Ref sig .tc := ⟨.hbm, 313, rfl⟩
abbrev main_v84 : Ref sig .tc := ⟨.hbm, 314, rfl⟩
abbrev main_v85 : Ref sig .tc := ⟨.hbm, 315, rfl⟩
abbrev main_call14_c : Ref sig .tc := ⟨.hbm, 316, rfl⟩
abbrev main_call14_v0 : Ref sig .tc := ⟨.hbm, 317, rfl⟩
abbrev main_call14_v1 : Ref sig .tc := ⟨.hbm, 318, rfl⟩
abbrev main_call14_c_0 : Ref sig .tc := ⟨.hbm, 319, rfl⟩
abbrev main_call14_v2 : Ref sig .tc := ⟨.hbm, 320, rfl⟩
abbrev main_call14_v3 : Ref sig .tc := ⟨.hbm, 321, rfl⟩
abbrev main_call14_v4 : Ref sig .tc := ⟨.hbm, 322, rfl⟩
abbrev main_call14_v5 : Ref sig .tc := ⟨.hbm, 323, rfl⟩
abbrev main_call14_c_1 : Ref sig .tc := ⟨.hbm, 324, rfl⟩
abbrev main_call14_c_2 : Ref sig .tc := ⟨.hbm, 325, rfl⟩
abbrev main_call14_v6 : Ref sig .tc := ⟨.hbm, 326, rfl⟩
abbrev main_call14_v7 : Ref sig .tc := ⟨.hbm, 327, rfl⟩
abbrev main_call14_v8 : Ref sig .tc := ⟨.hbm, 328, rfl⟩
abbrev main_call14_v9 : Ref sig .tc := ⟨.hbm, 329, rfl⟩
abbrev main_call14_v10 : Ref sig .tc := ⟨.hbm, 330, rfl⟩
abbrev main_call14_v11 : Ref sig .tc := ⟨.hbm, 331, rfl⟩
abbrev main_call14_c_3 : Ref sig .tc := ⟨.hbm, 332, rfl⟩
abbrev main_call14_v12 : Ref sig .tc := ⟨.hbm, 333, rfl⟩
abbrev main_call14_v13 : Ref sig .tc := ⟨.hbm, 334, rfl⟩
abbrev main_call14_v14 : Ref sig .tc := ⟨.hbm, 335, rfl⟩
abbrev main_call14_cst : Ref sig .tc := ⟨.hbm, 336, rfl⟩
abbrev main_call14_v15 : Ref sig .tc := ⟨.hbm, 337, rfl⟩
abbrev main_v86 : Ref sig .tc := ⟨.hbm, 338, rfl⟩
abbrev main_call15_v0 : Ref sig .tc := ⟨.hbm, 339, rfl⟩
abbrev main_call15_cst : Ref sig .tc := ⟨.hbm, 340, rfl⟩
abbrev main_call15_v1 : Ref sig .tc := ⟨.hbm, 341, rfl⟩
abbrev main_call15_v2 : Ref sig .tc := ⟨.hbm, 342, rfl⟩
abbrev main_v87 : Ref sig .tc := ⟨.hbm, 343, rfl⟩
abbrev main_cst_20 : Ref sig .tc := ⟨.hbm, 344, rfl⟩
abbrev main_v88 : Ref sig .tc := ⟨.hbm, 345, rfl⟩
abbrev main_v89 : Ref sig .tc := ⟨.hbm, 346, rfl⟩
abbrev main_cst_21 : Ref sig .tc := ⟨.hbm, 347, rfl⟩
abbrev main_v90 : Ref sig .tc := ⟨.hbm, 348, rfl⟩
abbrev main_v91 : Ref sig .tc := ⟨.hbm, 349, rfl⟩
abbrev main_cst_22 : Ref sig .tc := ⟨.hbm, 350, rfl⟩
abbrev main_v92 : Ref sig .tc := ⟨.hbm, 351, rfl⟩
abbrev main_v93 : Ref sig .tc := ⟨.hbm, 352, rfl⟩
abbrev main_v94 : Ref sig .tc := ⟨.hbm, 353, rfl⟩
abbrev main_v95 : Ref sig .tc := ⟨.hbm, 354, rfl⟩
abbrev main_v96 : Ref sig .tc := ⟨.hbm, 355, rfl⟩
abbrev main_v97 : Ref sig .tc := ⟨.hbm, 356, rfl⟩
abbrev main_call16_c : Ref sig .tc := ⟨.hbm, 357, rfl⟩
abbrev main_call16_v0 : Ref sig .tc := ⟨.hbm, 358, rfl⟩
abbrev main_call16_v1 : Ref sig .tc := ⟨.hbm, 359, rfl⟩
abbrev main_call16_c_0 : Ref sig .tc := ⟨.hbm, 360, rfl⟩
abbrev main_call16_v2 : Ref sig .tc := ⟨.hbm, 361, rfl⟩
abbrev main_call16_v3 : Ref sig .tc := ⟨.hbm, 362, rfl⟩
abbrev main_call16_v4 : Ref sig .tc := ⟨.hbm, 363, rfl⟩
abbrev main_call16_v5 : Ref sig .tc := ⟨.hbm, 364, rfl⟩
abbrev main_call16_c_1 : Ref sig .tc := ⟨.hbm, 365, rfl⟩
abbrev main_call16_c_2 : Ref sig .tc := ⟨.hbm, 366, rfl⟩
abbrev main_call16_v6 : Ref sig .tc := ⟨.hbm, 367, rfl⟩
abbrev main_call16_v7 : Ref sig .tc := ⟨.hbm, 368, rfl⟩
abbrev main_call16_v8 : Ref sig .tc := ⟨.hbm, 369, rfl⟩
abbrev main_call16_v9 : Ref sig .tc := ⟨.hbm, 370, rfl⟩
abbrev main_call16_v10 : Ref sig .tc := ⟨.hbm, 371, rfl⟩
abbrev main_call16_v11 : Ref sig .tc := ⟨.hbm, 372, rfl⟩
abbrev main_call16_c_3 : Ref sig .tc := ⟨.hbm, 373, rfl⟩
abbrev main_call16_v12 : Ref sig .tc := ⟨.hbm, 374, rfl⟩
abbrev main_call16_v13 : Ref sig .tc := ⟨.hbm, 375, rfl⟩
abbrev main_call16_v14 : Ref sig .tc := ⟨.hbm, 376, rfl⟩
abbrev main_call16_cst : Ref sig .tc := ⟨.hbm, 377, rfl⟩
abbrev main_call16_v15 : Ref sig .tc := ⟨.hbm, 378, rfl⟩
abbrev main_v98 : Ref sig .tc := ⟨.hbm, 379, rfl⟩
abbrev main_call17_v0 : Ref sig .tc := ⟨.hbm, 380, rfl⟩
abbrev main_call17_cst : Ref sig .tc := ⟨.hbm, 381, rfl⟩
abbrev main_call17_v1 : Ref sig .tc := ⟨.hbm, 382, rfl⟩
abbrev main_call17_v2 : Ref sig .tc := ⟨.hbm, 383, rfl⟩
abbrev main_v99 : Ref sig .tc := ⟨.hbm, 384, rfl⟩
abbrev main_cst_23 : Ref sig .tc := ⟨.hbm, 385, rfl⟩
abbrev main_v100 : Ref sig .tc := ⟨.hbm, 386, rfl⟩
abbrev main_v101 : Ref sig .tc := ⟨.hbm, 387, rfl⟩
abbrev main_cst_24 : Ref sig .tc := ⟨.hbm, 388, rfl⟩
abbrev main_v102 : Ref sig .tc := ⟨.hbm, 389, rfl⟩
abbrev main_v103 : Ref sig .tc := ⟨.hbm, 390, rfl⟩
abbrev main_cst_25 : Ref sig .tc := ⟨.hbm, 391, rfl⟩
abbrev main_v104 : Ref sig .tc := ⟨.hbm, 392, rfl⟩
abbrev main_v105 : Ref sig .tc := ⟨.hbm, 393, rfl⟩
abbrev main_v106 : Ref sig .tc := ⟨.hbm, 394, rfl⟩
abbrev main_v107 : Ref sig .tc := ⟨.hbm, 395, rfl⟩
abbrev main_v108 : Ref sig .tc := ⟨.hbm, 396, rfl⟩
abbrev main_v109 : Ref sig .tc := ⟨.hbm, 397, rfl⟩
abbrev main_call18_c : Ref sig .tc := ⟨.hbm, 398, rfl⟩
abbrev main_call18_v0 : Ref sig .tc := ⟨.hbm, 399, rfl⟩
abbrev main_call18_v1 : Ref sig .tc := ⟨.hbm, 400, rfl⟩
abbrev main_call18_c_0 : Ref sig .tc := ⟨.hbm, 401, rfl⟩
abbrev main_call18_v2 : Ref sig .tc := ⟨.hbm, 402, rfl⟩
abbrev main_call18_v3 : Ref sig .tc := ⟨.hbm, 403, rfl⟩
abbrev main_call18_v4 : Ref sig .tc := ⟨.hbm, 404, rfl⟩
abbrev main_call18_v5 : Ref sig .tc := ⟨.hbm, 405, rfl⟩
abbrev main_call18_c_1 : Ref sig .tc := ⟨.hbm, 406, rfl⟩
abbrev main_call18_c_2 : Ref sig .tc := ⟨.hbm, 407, rfl⟩
abbrev main_call18_v6 : Ref sig .tc := ⟨.hbm, 408, rfl⟩
abbrev main_call18_v7 : Ref sig .tc := ⟨.hbm, 409, rfl⟩
abbrev main_call18_v8 : Ref sig .tc := ⟨.hbm, 410, rfl⟩
abbrev main_call18_v9 : Ref sig .tc := ⟨.hbm, 411, rfl⟩
abbrev main_call18_v10 : Ref sig .tc := ⟨.hbm, 412, rfl⟩
abbrev main_call18_v11 : Ref sig .tc := ⟨.hbm, 413, rfl⟩
abbrev main_call18_c_3 : Ref sig .tc := ⟨.hbm, 414, rfl⟩
abbrev main_call18_v12 : Ref sig .tc := ⟨.hbm, 415, rfl⟩
abbrev main_call18_v13 : Ref sig .tc := ⟨.hbm, 416, rfl⟩
abbrev main_call18_v14 : Ref sig .tc := ⟨.hbm, 417, rfl⟩
abbrev main_call18_cst : Ref sig .tc := ⟨.hbm, 418, rfl⟩
abbrev main_call18_v15 : Ref sig .tc := ⟨.hbm, 419, rfl⟩
abbrev main_v110 : Ref sig .tc := ⟨.hbm, 420, rfl⟩
abbrev main_call19_v0 : Ref sig .tc := ⟨.hbm, 421, rfl⟩
abbrev main_call19_cst : Ref sig .tc := ⟨.hbm, 422, rfl⟩
abbrev main_call19_v1 : Ref sig .tc := ⟨.hbm, 423, rfl⟩
abbrev main_call19_v2 : Ref sig .tc := ⟨.hbm, 424, rfl⟩
abbrev main_v111 : Ref sig .tc := ⟨.hbm, 425, rfl⟩
abbrev main_cst_26 : Ref sig .tc := ⟨.hbm, 426, rfl⟩
abbrev main_v112 : Ref sig .tc := ⟨.hbm, 427, rfl⟩
abbrev main_v113 : Ref sig .tc := ⟨.hbm, 428, rfl⟩
abbrev main_cst_27 : Ref sig .tc := ⟨.hbm, 429, rfl⟩
abbrev main_v114 : Ref sig .tc := ⟨.hbm, 430, rfl⟩
abbrev main_v115 : Ref sig .tc := ⟨.hbm, 431, rfl⟩
abbrev main_cst_28 : Ref sig .tc := ⟨.hbm, 432, rfl⟩
abbrev main_v116 : Ref sig .tc := ⟨.hbm, 433, rfl⟩
abbrev main_v117 : Ref sig .tc := ⟨.hbm, 434, rfl⟩
abbrev main_v118 : Ref sig .tc := ⟨.hbm, 435, rfl⟩
abbrev main_v119 : Ref sig .tc := ⟨.hbm, 436, rfl⟩
abbrev main_v120 : Ref sig .tc := ⟨.hbm, 437, rfl⟩
abbrev main_v121 : Ref sig .tc := ⟨.hbm, 438, rfl⟩
abbrev main_call20_c : Ref sig .tc := ⟨.hbm, 439, rfl⟩
abbrev main_call20_v0 : Ref sig .tc := ⟨.hbm, 440, rfl⟩
abbrev main_call20_v1 : Ref sig .tc := ⟨.hbm, 441, rfl⟩
abbrev main_call20_c_0 : Ref sig .tc := ⟨.hbm, 442, rfl⟩
abbrev main_call20_v2 : Ref sig .tc := ⟨.hbm, 443, rfl⟩
abbrev main_call20_v3 : Ref sig .tc := ⟨.hbm, 444, rfl⟩
abbrev main_call20_v4 : Ref sig .tc := ⟨.hbm, 445, rfl⟩
abbrev main_call20_v5 : Ref sig .tc := ⟨.hbm, 446, rfl⟩
abbrev main_call20_c_1 : Ref sig .tc := ⟨.hbm, 447, rfl⟩
abbrev main_call20_c_2 : Ref sig .tc := ⟨.hbm, 448, rfl⟩
abbrev main_call20_v6 : Ref sig .tc := ⟨.hbm, 449, rfl⟩
abbrev main_call20_v7 : Ref sig .tc := ⟨.hbm, 450, rfl⟩
abbrev main_call20_v8 : Ref sig .tc := ⟨.hbm, 451, rfl⟩
abbrev main_call20_v9 : Ref sig .tc := ⟨.hbm, 452, rfl⟩
abbrev main_call20_v10 : Ref sig .tc := ⟨.hbm, 453, rfl⟩
abbrev main_call20_v11 : Ref sig .tc := ⟨.hbm, 454, rfl⟩
abbrev main_call20_c_3 : Ref sig .tc := ⟨.hbm, 455, rfl⟩
abbrev main_call20_v12 : Ref sig .tc := ⟨.hbm, 456, rfl⟩
abbrev main_call20_v13 : Ref sig .tc := ⟨.hbm, 457, rfl⟩
abbrev main_call20_v14 : Ref sig .tc := ⟨.hbm, 458, rfl⟩
abbrev main_call20_cst : Ref sig .tc := ⟨.hbm, 459, rfl⟩
abbrev main_call20_v15 : Ref sig .tc := ⟨.hbm, 460, rfl⟩
abbrev main_v122 : Ref sig .tc := ⟨.hbm, 461, rfl⟩
abbrev main_call21_v0 : Ref sig .tc := ⟨.hbm, 462, rfl⟩
abbrev main_call21_cst : Ref sig .tc := ⟨.hbm, 463, rfl⟩
abbrev main_call21_v1 : Ref sig .tc := ⟨.hbm, 464, rfl⟩
abbrev main_call21_v2 : Ref sig .tc := ⟨.hbm, 465, rfl⟩
abbrev main_v123 : Ref sig .tc := ⟨.hbm, 466, rfl⟩
abbrev main_cst_29 : Ref sig .tc := ⟨.hbm, 467, rfl⟩
abbrev main_v124 : Ref sig .tc := ⟨.hbm, 468, rfl⟩
abbrev main_v125 : Ref sig .tc := ⟨.hbm, 469, rfl⟩
abbrev main_cst_30 : Ref sig .tc := ⟨.hbm, 470, rfl⟩
abbrev main_v126 : Ref sig .tc := ⟨.hbm, 471, rfl⟩
abbrev main_v127 : Ref sig .tc := ⟨.hbm, 472, rfl⟩
abbrev main_cst_31 : Ref sig .tc := ⟨.hbm, 473, rfl⟩
abbrev main_v128 : Ref sig .tc := ⟨.hbm, 474, rfl⟩
abbrev main_v129 : Ref sig .tc := ⟨.hbm, 475, rfl⟩
abbrev main_v130 : Ref sig .tc := ⟨.hbm, 476, rfl⟩
abbrev main_v131 : Ref sig .tc := ⟨.hbm, 477, rfl⟩
abbrev main_v132 : Ref sig .tc := ⟨.hbm, 478, rfl⟩
abbrev main_v133 : Ref sig .tc := ⟨.hbm, 479, rfl⟩
abbrev main_call22_c : Ref sig .tc := ⟨.hbm, 480, rfl⟩
abbrev main_call22_v0 : Ref sig .tc := ⟨.hbm, 481, rfl⟩
abbrev main_call22_v1 : Ref sig .tc := ⟨.hbm, 482, rfl⟩
abbrev main_call22_c_0 : Ref sig .tc := ⟨.hbm, 483, rfl⟩
abbrev main_call22_v2 : Ref sig .tc := ⟨.hbm, 484, rfl⟩
abbrev main_call22_v3 : Ref sig .tc := ⟨.hbm, 485, rfl⟩
abbrev main_call22_v4 : Ref sig .tc := ⟨.hbm, 486, rfl⟩
abbrev main_call22_v5 : Ref sig .tc := ⟨.hbm, 487, rfl⟩
abbrev main_call22_c_1 : Ref sig .tc := ⟨.hbm, 488, rfl⟩
abbrev main_call22_c_2 : Ref sig .tc := ⟨.hbm, 489, rfl⟩
abbrev main_call22_v6 : Ref sig .tc := ⟨.hbm, 490, rfl⟩
abbrev main_call22_v7 : Ref sig .tc := ⟨.hbm, 491, rfl⟩
abbrev main_call22_v8 : Ref sig .tc := ⟨.hbm, 492, rfl⟩
abbrev main_call22_v9 : Ref sig .tc := ⟨.hbm, 493, rfl⟩
abbrev main_call22_v10 : Ref sig .tc := ⟨.hbm, 494, rfl⟩
abbrev main_call22_v11 : Ref sig .tc := ⟨.hbm, 495, rfl⟩
abbrev main_call22_c_3 : Ref sig .tc := ⟨.hbm, 496, rfl⟩
abbrev main_call22_v12 : Ref sig .tc := ⟨.hbm, 497, rfl⟩
abbrev main_call22_v13 : Ref sig .tc := ⟨.hbm, 498, rfl⟩
abbrev main_call22_v14 : Ref sig .tc := ⟨.hbm, 499, rfl⟩
abbrev main_call22_cst : Ref sig .tc := ⟨.hbm, 500, rfl⟩
abbrev main_call22_v15 : Ref sig .tc := ⟨.hbm, 501, rfl⟩
abbrev main_v134 : Ref sig .tc := ⟨.hbm, 502, rfl⟩
abbrev main_call23_v0 : Ref sig .tc := ⟨.hbm, 503, rfl⟩
abbrev main_call23_cst : Ref sig .tc := ⟨.hbm, 504, rfl⟩
abbrev main_call23_v1 : Ref sig .tc := ⟨.hbm, 505, rfl⟩
abbrev main_call23_v2 : Ref sig .tc := ⟨.hbm, 506, rfl⟩
abbrev main_v135 : Ref sig .tc := ⟨.hbm, 507, rfl⟩
abbrev main_cst_32 : Ref sig .tc := ⟨.hbm, 508, rfl⟩
abbrev main_v136 : Ref sig .tc := ⟨.hbm, 509, rfl⟩
abbrev main_v137 : Ref sig .tc := ⟨.hbm, 510, rfl⟩
abbrev main_cst_33 : Ref sig .tc := ⟨.hbm, 511, rfl⟩
abbrev main_v138 : Ref sig .tc := ⟨.hbm, 512, rfl⟩
abbrev main_v139 : Ref sig .tc := ⟨.hbm, 513, rfl⟩
abbrev main_cst_34 : Ref sig .tc := ⟨.hbm, 514, rfl⟩
abbrev main_v140 : Ref sig .tc := ⟨.hbm, 515, rfl⟩
abbrev main_v141 : Ref sig .tc := ⟨.hbm, 516, rfl⟩
abbrev main_v142 : Ref sig .tc := ⟨.hbm, 517, rfl⟩
abbrev main_v143 : Ref sig .tc := ⟨.hbm, 518, rfl⟩
abbrev main_v144 : Ref sig .tc := ⟨.hbm, 519, rfl⟩
abbrev main_v145 : Ref sig .tc := ⟨.hbm, 520, rfl⟩
abbrev main_call24_c : Ref sig .tc := ⟨.hbm, 521, rfl⟩
abbrev main_call24_v0 : Ref sig .tc := ⟨.hbm, 522, rfl⟩
abbrev main_call24_v1 : Ref sig .tc := ⟨.hbm, 523, rfl⟩
abbrev main_call24_c_0 : Ref sig .tc := ⟨.hbm, 524, rfl⟩
abbrev main_call24_v2 : Ref sig .tc := ⟨.hbm, 525, rfl⟩
abbrev main_call24_v3 : Ref sig .tc := ⟨.hbm, 526, rfl⟩
abbrev main_call24_v4 : Ref sig .tc := ⟨.hbm, 527, rfl⟩
abbrev main_call24_v5 : Ref sig .tc := ⟨.hbm, 528, rfl⟩
abbrev main_call24_c_1 : Ref sig .tc := ⟨.hbm, 529, rfl⟩
abbrev main_call24_c_2 : Ref sig .tc := ⟨.hbm, 530, rfl⟩
abbrev main_call24_v6 : Ref sig .tc := ⟨.hbm, 531, rfl⟩
abbrev main_call24_v7 : Ref sig .tc := ⟨.hbm, 532, rfl⟩
abbrev main_call24_v8 : Ref sig .tc := ⟨.hbm, 533, rfl⟩
abbrev main_call24_v9 : Ref sig .tc := ⟨.hbm, 534, rfl⟩
abbrev main_call24_v10 : Ref sig .tc := ⟨.hbm, 535, rfl⟩
abbrev main_call24_v11 : Ref sig .tc := ⟨.hbm, 536, rfl⟩
abbrev main_call24_c_3 : Ref sig .tc := ⟨.hbm, 537, rfl⟩
abbrev main_call24_v12 : Ref sig .tc := ⟨.hbm, 538, rfl⟩
abbrev main_call24_v13 : Ref sig .tc := ⟨.hbm, 539, rfl⟩
abbrev main_call24_v14 : Ref sig .tc := ⟨.hbm, 540, rfl⟩
abbrev main_call24_cst : Ref sig .tc := ⟨.hbm, 541, rfl⟩
abbrev main_call24_v15 : Ref sig .tc := ⟨.hbm, 542, rfl⟩
abbrev main_v146 : Ref sig .tc := ⟨.hbm, 543, rfl⟩
abbrev main_call25_v0 : Ref sig .tc := ⟨.hbm, 544, rfl⟩
abbrev main_call25_cst : Ref sig .tc := ⟨.hbm, 545, rfl⟩
abbrev main_call25_v1 : Ref sig .tc := ⟨.hbm, 546, rfl⟩
abbrev main_call25_v2 : Ref sig .tc := ⟨.hbm, 547, rfl⟩
abbrev main_v147 : Ref sig .tc := ⟨.hbm, 548, rfl⟩
abbrev main_cst_35 : Ref sig .tc := ⟨.hbm, 549, rfl⟩
abbrev main_v148 : Ref sig .tc := ⟨.hbm, 550, rfl⟩
abbrev main_v149 : Ref sig .tc := ⟨.hbm, 551, rfl⟩
abbrev main_cst_36 : Ref sig .tc := ⟨.hbm, 552, rfl⟩
abbrev main_v150 : Ref sig .tc := ⟨.hbm, 553, rfl⟩
abbrev main_v151 : Ref sig .tc := ⟨.hbm, 554, rfl⟩
abbrev main_cst_37 : Ref sig .tc := ⟨.hbm, 555, rfl⟩
abbrev main_v152 : Ref sig .tc := ⟨.hbm, 556, rfl⟩
abbrev main_v153 : Ref sig .tc := ⟨.hbm, 557, rfl⟩
abbrev main_v154 : Ref sig .tc := ⟨.hbm, 558, rfl⟩
abbrev main_v155 : Ref sig .tc := ⟨.hbm, 559, rfl⟩
abbrev main_v156 : Ref sig .tc := ⟨.hbm, 560, rfl⟩
abbrev main_v157 : Ref sig .tc := ⟨.hbm, 561, rfl⟩
abbrev main_call26_c : Ref sig .tc := ⟨.hbm, 562, rfl⟩
abbrev main_call26_v0 : Ref sig .tc := ⟨.hbm, 563, rfl⟩
abbrev main_call26_v1 : Ref sig .tc := ⟨.hbm, 564, rfl⟩
abbrev main_call26_c_0 : Ref sig .tc := ⟨.hbm, 565, rfl⟩
abbrev main_call26_v2 : Ref sig .tc := ⟨.hbm, 566, rfl⟩
abbrev main_call26_v3 : Ref sig .tc := ⟨.hbm, 567, rfl⟩
abbrev main_call26_v4 : Ref sig .tc := ⟨.hbm, 568, rfl⟩
abbrev main_call26_v5 : Ref sig .tc := ⟨.hbm, 569, rfl⟩
abbrev main_call26_c_1 : Ref sig .tc := ⟨.hbm, 570, rfl⟩
abbrev main_call26_c_2 : Ref sig .tc := ⟨.hbm, 571, rfl⟩
abbrev main_call26_v6 : Ref sig .tc := ⟨.hbm, 572, rfl⟩
abbrev main_call26_v7 : Ref sig .tc := ⟨.hbm, 573, rfl⟩
abbrev main_call26_v8 : Ref sig .tc := ⟨.hbm, 574, rfl⟩
abbrev main_call26_v9 : Ref sig .tc := ⟨.hbm, 575, rfl⟩
abbrev main_call26_v10 : Ref sig .tc := ⟨.hbm, 576, rfl⟩
abbrev main_call26_v11 : Ref sig .tc := ⟨.hbm, 577, rfl⟩
abbrev main_call26_c_3 : Ref sig .tc := ⟨.hbm, 578, rfl⟩
abbrev main_call26_v12 : Ref sig .tc := ⟨.hbm, 579, rfl⟩
abbrev main_call26_v13 : Ref sig .tc := ⟨.hbm, 580, rfl⟩
abbrev main_call26_v14 : Ref sig .tc := ⟨.hbm, 581, rfl⟩
abbrev main_call26_cst : Ref sig .tc := ⟨.hbm, 582, rfl⟩
abbrev main_call26_v15 : Ref sig .tc := ⟨.hbm, 583, rfl⟩
abbrev main_v158 : Ref sig .tc := ⟨.hbm, 584, rfl⟩
abbrev main_call27_v0 : Ref sig .tc := ⟨.hbm, 585, rfl⟩
abbrev main_call27_cst : Ref sig .tc := ⟨.hbm, 586, rfl⟩
abbrev main_call27_v1 : Ref sig .tc := ⟨.hbm, 587, rfl⟩
abbrev main_call27_v2 : Ref sig .tc := ⟨.hbm, 588, rfl⟩
abbrev main_v159 : Ref sig .tc := ⟨.hbm, 589, rfl⟩
abbrev main_cst_38 : Ref sig .tc := ⟨.hbm, 590, rfl⟩
abbrev main_v160 : Ref sig .tc := ⟨.hbm, 591, rfl⟩
abbrev main_v161 : Ref sig .tc := ⟨.hbm, 592, rfl⟩
abbrev main_cst_39 : Ref sig .tc := ⟨.hbm, 593, rfl⟩
abbrev main_v162 : Ref sig .tc := ⟨.hbm, 594, rfl⟩
abbrev main_v163 : Ref sig .tc := ⟨.hbm, 595, rfl⟩
abbrev main_cst_40 : Ref sig .tc := ⟨.hbm, 596, rfl⟩
abbrev main_v164 : Ref sig .tc := ⟨.hbm, 597, rfl⟩
abbrev main_v165 : Ref sig .tc := ⟨.hbm, 598, rfl⟩
abbrev main_v166 : Ref sig .tc := ⟨.hbm, 599, rfl⟩
abbrev main_v167 : Ref sig .tc := ⟨.hbm, 600, rfl⟩
abbrev main_v168 : Ref sig .tc := ⟨.hbm, 601, rfl⟩
abbrev main_v169 : Ref sig .tc := ⟨.hbm, 602, rfl⟩
abbrev main_call28_c : Ref sig .tc := ⟨.hbm, 603, rfl⟩
abbrev main_call28_v0 : Ref sig .tc := ⟨.hbm, 604, rfl⟩
abbrev main_call28_v1 : Ref sig .tc := ⟨.hbm, 605, rfl⟩
abbrev main_call28_c_0 : Ref sig .tc := ⟨.hbm, 606, rfl⟩
abbrev main_call28_v2 : Ref sig .tc := ⟨.hbm, 607, rfl⟩
abbrev main_call28_v3 : Ref sig .tc := ⟨.hbm, 608, rfl⟩
abbrev main_call28_v4 : Ref sig .tc := ⟨.hbm, 609, rfl⟩
abbrev main_call28_v5 : Ref sig .tc := ⟨.hbm, 610, rfl⟩
abbrev main_call28_c_1 : Ref sig .tc := ⟨.hbm, 611, rfl⟩
abbrev main_call28_c_2 : Ref sig .tc := ⟨.hbm, 612, rfl⟩
abbrev main_call28_v6 : Ref sig .tc := ⟨.hbm, 613, rfl⟩
abbrev main_call28_v7 : Ref sig .tc := ⟨.hbm, 614, rfl⟩
abbrev main_call28_v8 : Ref sig .tc := ⟨.hbm, 615, rfl⟩
abbrev main_call28_v9 : Ref sig .tc := ⟨.hbm, 616, rfl⟩
abbrev main_call28_v10 : Ref sig .tc := ⟨.hbm, 617, rfl⟩
abbrev main_call28_v11 : Ref sig .tc := ⟨.hbm, 618, rfl⟩
abbrev main_call28_c_3 : Ref sig .tc := ⟨.hbm, 619, rfl⟩
abbrev main_call28_v12 : Ref sig .tc := ⟨.hbm, 620, rfl⟩
abbrev main_call28_v13 : Ref sig .tc := ⟨.hbm, 621, rfl⟩
abbrev main_call28_v14 : Ref sig .tc := ⟨.hbm, 622, rfl⟩
abbrev main_call28_cst : Ref sig .tc := ⟨.hbm, 623, rfl⟩
abbrev main_call28_v15 : Ref sig .tc := ⟨.hbm, 624, rfl⟩
abbrev main_v170 : Ref sig .tc := ⟨.hbm, 625, rfl⟩
abbrev main_call29_v0 : Ref sig .tc := ⟨.hbm, 626, rfl⟩
abbrev main_call29_cst : Ref sig .tc := ⟨.hbm, 627, rfl⟩
abbrev main_call29_v1 : Ref sig .tc := ⟨.hbm, 628, rfl⟩
abbrev main_call29_v2 : Ref sig .tc := ⟨.hbm, 629, rfl⟩
abbrev main_v171 : Ref sig .tc := ⟨.hbm, 630, rfl⟩
abbrev main_cst_41 : Ref sig .tc := ⟨.hbm, 631, rfl⟩
abbrev main_v172 : Ref sig .tc := ⟨.hbm, 632, rfl⟩
abbrev main_v173 : Ref sig .tc := ⟨.hbm, 633, rfl⟩
abbrev main_cst_42 : Ref sig .tc := ⟨.hbm, 634, rfl⟩
abbrev main_v174 : Ref sig .tc := ⟨.hbm, 635, rfl⟩
abbrev main_v175 : Ref sig .tc := ⟨.hbm, 636, rfl⟩
abbrev main_cst_43 : Ref sig .tc := ⟨.hbm, 637, rfl⟩
abbrev main_v176 : Ref sig .tc := ⟨.hbm, 638, rfl⟩
abbrev main_v177 : Ref sig .tc := ⟨.hbm, 639, rfl⟩
abbrev main_v178 : Ref sig .tc := ⟨.hbm, 640, rfl⟩
abbrev main_v179 : Ref sig .tc := ⟨.hbm, 641, rfl⟩
abbrev main_v180 : Ref sig .tc := ⟨.hbm, 642, rfl⟩
abbrev main_v181 : Ref sig .tc := ⟨.hbm, 643, rfl⟩
abbrev main_call30_c : Ref sig .tc := ⟨.hbm, 644, rfl⟩
abbrev main_call30_v0 : Ref sig .tc := ⟨.hbm, 645, rfl⟩
abbrev main_call30_v1 : Ref sig .tc := ⟨.hbm, 646, rfl⟩
abbrev main_call30_c_0 : Ref sig .tc := ⟨.hbm, 647, rfl⟩
abbrev main_call30_v2 : Ref sig .tc := ⟨.hbm, 648, rfl⟩
abbrev main_call30_v3 : Ref sig .tc := ⟨.hbm, 649, rfl⟩
abbrev main_call30_v4 : Ref sig .tc := ⟨.hbm, 650, rfl⟩
abbrev main_call30_v5 : Ref sig .tc := ⟨.hbm, 651, rfl⟩
abbrev main_call30_c_1 : Ref sig .tc := ⟨.hbm, 652, rfl⟩
abbrev main_call30_c_2 : Ref sig .tc := ⟨.hbm, 653, rfl⟩
abbrev main_call30_v6 : Ref sig .tc := ⟨.hbm, 654, rfl⟩
abbrev main_call30_v7 : Ref sig .tc := ⟨.hbm, 655, rfl⟩
abbrev main_call30_v8 : Ref sig .tc := ⟨.hbm, 656, rfl⟩
abbrev main_call30_v9 : Ref sig .tc := ⟨.hbm, 657, rfl⟩
abbrev main_call30_v10 : Ref sig .tc := ⟨.hbm, 658, rfl⟩
abbrev main_call30_v11 : Ref sig .tc := ⟨.hbm, 659, rfl⟩
abbrev main_call30_c_3 : Ref sig .tc := ⟨.hbm, 660, rfl⟩
abbrev main_call30_v12 : Ref sig .tc := ⟨.hbm, 661, rfl⟩
abbrev main_call30_v13 : Ref sig .tc := ⟨.hbm, 662, rfl⟩
abbrev main_call30_v14 : Ref sig .tc := ⟨.hbm, 663, rfl⟩
abbrev main_call30_cst : Ref sig .tc := ⟨.hbm, 664, rfl⟩
abbrev main_call30_v15 : Ref sig .tc := ⟨.hbm, 665, rfl⟩
abbrev main_v182 : Ref sig .tc := ⟨.hbm, 666, rfl⟩
abbrev main_call31_v0 : Ref sig .tc := ⟨.hbm, 667, rfl⟩
abbrev main_call31_cst : Ref sig .tc := ⟨.hbm, 668, rfl⟩
abbrev main_call31_v1 : Ref sig .tc := ⟨.hbm, 669, rfl⟩
abbrev main_call31_v2 : Ref sig .tc := ⟨.hbm, 670, rfl⟩
abbrev main_v183 : Ref sig .tc := ⟨.hbm, 671, rfl⟩
abbrev main_cst_44 : Ref sig .tc := ⟨.hbm, 672, rfl⟩
abbrev main_v184 : Ref sig .tc := ⟨.hbm, 673, rfl⟩
abbrev main_v185 : Ref sig .tc := ⟨.hbm, 674, rfl⟩
abbrev main_cst_45 : Ref sig .tc := ⟨.hbm, 675, rfl⟩
abbrev main_v186 : Ref sig .tc := ⟨.hbm, 676, rfl⟩
abbrev main_v187 : Ref sig .tc := ⟨.hbm, 677, rfl⟩
abbrev main_cst_46 : Ref sig .tc := ⟨.hbm, 678, rfl⟩
abbrev main_v188 : Ref sig .tc := ⟨.hbm, 679, rfl⟩
abbrev main_v189 : Ref sig .tc := ⟨.hbm, 680, rfl⟩
abbrev main_v190 : Ref sig .tc := ⟨.hbm, 681, rfl⟩
abbrev main_v191 : Ref sig .tc := ⟨.hbm, 682, rfl⟩
abbrev main_v192 : Ref sig .tc := ⟨.hbm, 683, rfl⟩
abbrev main_v193 : Ref sig .tc := ⟨.hbm, 684, rfl⟩
abbrev main_call32_c : Ref sig .tc := ⟨.hbm, 685, rfl⟩
abbrev main_call32_v0 : Ref sig .tc := ⟨.hbm, 686, rfl⟩
abbrev main_call32_v1 : Ref sig .tc := ⟨.hbm, 687, rfl⟩
abbrev main_call32_c_0 : Ref sig .tc := ⟨.hbm, 688, rfl⟩
abbrev main_call32_v2 : Ref sig .tc := ⟨.hbm, 689, rfl⟩
abbrev main_call32_v3 : Ref sig .tc := ⟨.hbm, 690, rfl⟩
abbrev main_call32_v4 : Ref sig .tc := ⟨.hbm, 691, rfl⟩
abbrev main_call32_v5 : Ref sig .tc := ⟨.hbm, 692, rfl⟩
abbrev main_call32_c_1 : Ref sig .tc := ⟨.hbm, 693, rfl⟩
abbrev main_call32_c_2 : Ref sig .tc := ⟨.hbm, 694, rfl⟩
abbrev main_call32_v6 : Ref sig .tc := ⟨.hbm, 695, rfl⟩
abbrev main_call32_v7 : Ref sig .tc := ⟨.hbm, 696, rfl⟩
abbrev main_call32_v8 : Ref sig .tc := ⟨.hbm, 697, rfl⟩
abbrev main_call32_v9 : Ref sig .tc := ⟨.hbm, 698, rfl⟩
abbrev main_call32_v10 : Ref sig .tc := ⟨.hbm, 699, rfl⟩
abbrev main_call32_v11 : Ref sig .tc := ⟨.hbm, 700, rfl⟩
abbrev main_call32_c_3 : Ref sig .tc := ⟨.hbm, 701, rfl⟩
abbrev main_call32_v12 : Ref sig .tc := ⟨.hbm, 702, rfl⟩
abbrev main_call32_v13 : Ref sig .tc := ⟨.hbm, 703, rfl⟩
abbrev main_call32_v14 : Ref sig .tc := ⟨.hbm, 704, rfl⟩
abbrev main_call32_cst : Ref sig .tc := ⟨.hbm, 705, rfl⟩
abbrev main_call32_v15 : Ref sig .tc := ⟨.hbm, 706, rfl⟩
abbrev main_v194 : Ref sig .tc := ⟨.hbm, 707, rfl⟩
abbrev main_call33_v0 : Ref sig .tc := ⟨.hbm, 708, rfl⟩
abbrev main_call33_cst : Ref sig .tc := ⟨.hbm, 709, rfl⟩
abbrev main_call33_v1 : Ref sig .tc := ⟨.hbm, 710, rfl⟩
abbrev main_call33_v2 : Ref sig .tc := ⟨.hbm, 711, rfl⟩
abbrev main_v195 : Ref sig .tc := ⟨.hbm, 712, rfl⟩
abbrev main_cst_47 : Ref sig .tc := ⟨.hbm, 713, rfl⟩
abbrev main_v196 : Ref sig .tc := ⟨.hbm, 714, rfl⟩
abbrev main_v197 : Ref sig .tc := ⟨.hbm, 715, rfl⟩
abbrev main_cst_48 : Ref sig .tc := ⟨.hbm, 716, rfl⟩
abbrev main_v198 : Ref sig .tc := ⟨.hbm, 717, rfl⟩
abbrev main_v199 : Ref sig .tc := ⟨.hbm, 718, rfl⟩
abbrev main_cst_49 : Ref sig .tc := ⟨.hbm, 719, rfl⟩
abbrev main_v200 : Ref sig .tc := ⟨.hbm, 720, rfl⟩
abbrev main_v201 : Ref sig .tc := ⟨.hbm, 721, rfl⟩
abbrev main_v202 : Ref sig .tc := ⟨.hbm, 722, rfl⟩
abbrev main_v203 : Ref sig .tc := ⟨.hbm, 723, rfl⟩
abbrev main_v204 : Ref sig .tc := ⟨.hbm, 724, rfl⟩
abbrev main_v205 : Ref sig .tc := ⟨.hbm, 725, rfl⟩
abbrev main_call34_c : Ref sig .tc := ⟨.hbm, 726, rfl⟩
abbrev main_call34_v0 : Ref sig .tc := ⟨.hbm, 727, rfl⟩
abbrev main_call34_v1 : Ref sig .tc := ⟨.hbm, 728, rfl⟩
abbrev main_call34_c_0 : Ref sig .tc := ⟨.hbm, 729, rfl⟩
abbrev main_call34_v2 : Ref sig .tc := ⟨.hbm, 730, rfl⟩
abbrev main_call34_v3 : Ref sig .tc := ⟨.hbm, 731, rfl⟩
abbrev main_call34_v4 : Ref sig .tc := ⟨.hbm, 732, rfl⟩
abbrev main_call34_v5 : Ref sig .tc := ⟨.hbm, 733, rfl⟩
abbrev main_call34_c_1 : Ref sig .tc := ⟨.hbm, 734, rfl⟩
abbrev main_call34_c_2 : Ref sig .tc := ⟨.hbm, 735, rfl⟩
abbrev main_call34_v6 : Ref sig .tc := ⟨.hbm, 736, rfl⟩
abbrev main_call34_v7 : Ref sig .tc := ⟨.hbm, 737, rfl⟩
abbrev main_call34_v8 : Ref sig .tc := ⟨.hbm, 738, rfl⟩
abbrev main_call34_v9 : Ref sig .tc := ⟨.hbm, 739, rfl⟩
abbrev main_call34_v10 : Ref sig .tc := ⟨.hbm, 740, rfl⟩
abbrev main_call34_v11 : Ref sig .tc := ⟨.hbm, 741, rfl⟩
abbrev main_call34_c_3 : Ref sig .tc := ⟨.hbm, 742, rfl⟩
abbrev main_call34_v12 : Ref sig .tc := ⟨.hbm, 743, rfl⟩
abbrev main_call34_v13 : Ref sig .tc := ⟨.hbm, 744, rfl⟩
abbrev main_call34_v14 : Ref sig .tc := ⟨.hbm, 745, rfl⟩
abbrev main_call34_cst : Ref sig .tc := ⟨.hbm, 746, rfl⟩
abbrev main_call34_v15 : Ref sig .tc := ⟨.hbm, 747, rfl⟩
abbrev main_v206 : Ref sig .tc := ⟨.hbm, 748, rfl⟩
abbrev main_call35_v0 : Ref sig .tc := ⟨.hbm, 749, rfl⟩
abbrev main_call35_cst : Ref sig .tc := ⟨.hbm, 750, rfl⟩
abbrev main_call35_v1 : Ref sig .tc := ⟨.hbm, 751, rfl⟩
abbrev main_call35_v2 : Ref sig .tc := ⟨.hbm, 752, rfl⟩
abbrev main_v207 : Ref sig .tc := ⟨.hbm, 753, rfl⟩
abbrev main_cst_50 : Ref sig .tc := ⟨.hbm, 754, rfl⟩
abbrev main_v208 : Ref sig .tc := ⟨.hbm, 755, rfl⟩
abbrev main_v209 : Ref sig .tc := ⟨.hbm, 756, rfl⟩
abbrev main_cst_51 : Ref sig .tc := ⟨.hbm, 757, rfl⟩
abbrev main_v210 : Ref sig .tc := ⟨.hbm, 758, rfl⟩
abbrev main_v211 : Ref sig .tc := ⟨.hbm, 759, rfl⟩
abbrev main_cst_52 : Ref sig .tc := ⟨.hbm, 760, rfl⟩
abbrev main_v212 : Ref sig .tc := ⟨.hbm, 761, rfl⟩
abbrev main_v213 : Ref sig .tc := ⟨.hbm, 762, rfl⟩
abbrev main_v214 : Ref sig .tc := ⟨.hbm, 763, rfl⟩
abbrev main_v215 : Ref sig .tc := ⟨.hbm, 764, rfl⟩
abbrev main_v216 : Ref sig .tc := ⟨.hbm, 765, rfl⟩
abbrev main_v217 : Ref sig .tc := ⟨.hbm, 766, rfl⟩
abbrev main_call36_c : Ref sig .tc := ⟨.hbm, 767, rfl⟩
abbrev main_call36_v0 : Ref sig .tc := ⟨.hbm, 768, rfl⟩
abbrev main_call36_v1 : Ref sig .tc := ⟨.hbm, 769, rfl⟩
abbrev main_call36_c_0 : Ref sig .tc := ⟨.hbm, 770, rfl⟩
abbrev main_call36_v2 : Ref sig .tc := ⟨.hbm, 771, rfl⟩
abbrev main_call36_v3 : Ref sig .tc := ⟨.hbm, 772, rfl⟩
abbrev main_call36_v4 : Ref sig .tc := ⟨.hbm, 773, rfl⟩
abbrev main_call36_v5 : Ref sig .tc := ⟨.hbm, 774, rfl⟩
abbrev main_call36_c_1 : Ref sig .tc := ⟨.hbm, 775, rfl⟩
abbrev main_call36_c_2 : Ref sig .tc := ⟨.hbm, 776, rfl⟩
abbrev main_call36_v6 : Ref sig .tc := ⟨.hbm, 777, rfl⟩
abbrev main_call36_v7 : Ref sig .tc := ⟨.hbm, 778, rfl⟩
abbrev main_call36_v8 : Ref sig .tc := ⟨.hbm, 779, rfl⟩
abbrev main_call36_v9 : Ref sig .tc := ⟨.hbm, 780, rfl⟩
abbrev main_call36_v10 : Ref sig .tc := ⟨.hbm, 781, rfl⟩
abbrev main_call36_v11 : Ref sig .tc := ⟨.hbm, 782, rfl⟩
abbrev main_call36_c_3 : Ref sig .tc := ⟨.hbm, 783, rfl⟩
abbrev main_call36_v12 : Ref sig .tc := ⟨.hbm, 784, rfl⟩
abbrev main_call36_v13 : Ref sig .tc := ⟨.hbm, 785, rfl⟩
abbrev main_call36_v14 : Ref sig .tc := ⟨.hbm, 786, rfl⟩
abbrev main_call36_cst : Ref sig .tc := ⟨.hbm, 787, rfl⟩
abbrev main_call36_v15 : Ref sig .tc := ⟨.hbm, 788, rfl⟩
abbrev main_v218 : Ref sig .tc := ⟨.hbm, 789, rfl⟩
abbrev main_call37_v0 : Ref sig .tc := ⟨.hbm, 790, rfl⟩
abbrev main_call37_cst : Ref sig .tc := ⟨.hbm, 791, rfl⟩
abbrev main_call37_v1 : Ref sig .tc := ⟨.hbm, 792, rfl⟩
abbrev main_call37_v2 : Ref sig .tc := ⟨.hbm, 793, rfl⟩
abbrev main_v219 : Ref sig .tc := ⟨.hbm, 794, rfl⟩
abbrev main_cst_53 : Ref sig .tc := ⟨.hbm, 795, rfl⟩
abbrev main_v220 : Ref sig .tc := ⟨.hbm, 796, rfl⟩
abbrev main_v221 : Ref sig .tc := ⟨.hbm, 797, rfl⟩
abbrev main_cst_54 : Ref sig .tc := ⟨.hbm, 798, rfl⟩
abbrev main_v222 : Ref sig .tc := ⟨.hbm, 799, rfl⟩
abbrev main_v223 : Ref sig .tc := ⟨.hbm, 800, rfl⟩
abbrev main_cst_55 : Ref sig .tc := ⟨.hbm, 801, rfl⟩
abbrev main_v224 : Ref sig .tc := ⟨.hbm, 802, rfl⟩
abbrev main_v225 : Ref sig .tc := ⟨.hbm, 803, rfl⟩
abbrev main_v226 : Ref sig .tc := ⟨.hbm, 804, rfl⟩
abbrev main_v227 : Ref sig .tc := ⟨.hbm, 805, rfl⟩
abbrev main_v228 : Ref sig .tc := ⟨.hbm, 806, rfl⟩
abbrev main_v229 : Ref sig .tc := ⟨.hbm, 807, rfl⟩
abbrev main_call38_c : Ref sig .tc := ⟨.hbm, 808, rfl⟩
abbrev main_call38_v0 : Ref sig .tc := ⟨.hbm, 809, rfl⟩
abbrev main_call38_v1 : Ref sig .tc := ⟨.hbm, 810, rfl⟩
abbrev main_call38_c_0 : Ref sig .tc := ⟨.hbm, 811, rfl⟩
abbrev main_call38_v2 : Ref sig .tc := ⟨.hbm, 812, rfl⟩
abbrev main_call38_v3 : Ref sig .tc := ⟨.hbm, 813, rfl⟩
abbrev main_call38_v4 : Ref sig .tc := ⟨.hbm, 814, rfl⟩
abbrev main_call38_v5 : Ref sig .tc := ⟨.hbm, 815, rfl⟩
abbrev main_call38_c_1 : Ref sig .tc := ⟨.hbm, 816, rfl⟩
abbrev main_call38_c_2 : Ref sig .tc := ⟨.hbm, 817, rfl⟩
abbrev main_call38_v6 : Ref sig .tc := ⟨.hbm, 818, rfl⟩
abbrev main_call38_v7 : Ref sig .tc := ⟨.hbm, 819, rfl⟩
abbrev main_call38_v8 : Ref sig .tc := ⟨.hbm, 820, rfl⟩
abbrev main_call38_v9 : Ref sig .tc := ⟨.hbm, 821, rfl⟩
abbrev main_call38_v10 : Ref sig .tc := ⟨.hbm, 822, rfl⟩
abbrev main_call38_v11 : Ref sig .tc := ⟨.hbm, 823, rfl⟩
abbrev main_call38_c_3 : Ref sig .tc := ⟨.hbm, 824, rfl⟩
abbrev main_call38_v12 : Ref sig .tc := ⟨.hbm, 825, rfl⟩
abbrev main_call38_v13 : Ref sig .tc := ⟨.hbm, 826, rfl⟩
abbrev main_call38_v14 : Ref sig .tc := ⟨.hbm, 827, rfl⟩
abbrev main_call38_cst : Ref sig .tc := ⟨.hbm, 828, rfl⟩
abbrev main_call38_v15 : Ref sig .tc := ⟨.hbm, 829, rfl⟩
abbrev main_v230 : Ref sig .tc := ⟨.hbm, 830, rfl⟩
abbrev main_call39_v0 : Ref sig .tc := ⟨.hbm, 831, rfl⟩
abbrev main_call39_cst : Ref sig .tc := ⟨.hbm, 832, rfl⟩
abbrev main_call39_v1 : Ref sig .tc := ⟨.hbm, 833, rfl⟩
abbrev main_call39_v2 : Ref sig .tc := ⟨.hbm, 834, rfl⟩
abbrev main_v231 : Ref sig .tc := ⟨.hbm, 835, rfl⟩
abbrev main_cst_56 : Ref sig .tc := ⟨.hbm, 836, rfl⟩
abbrev main_v232 : Ref sig .tc := ⟨.hbm, 837, rfl⟩
abbrev main_v233 : Ref sig .tc := ⟨.hbm, 838, rfl⟩
abbrev main_cst_57 : Ref sig .tc := ⟨.hbm, 839, rfl⟩
abbrev main_v234 : Ref sig .tc := ⟨.hbm, 840, rfl⟩
abbrev main_v235 : Ref sig .tc := ⟨.hbm, 841, rfl⟩
abbrev main_cst_58 : Ref sig .tc := ⟨.hbm, 842, rfl⟩
abbrev main_v236 : Ref sig .tc := ⟨.hbm, 843, rfl⟩
abbrev main_v237 : Ref sig .tc := ⟨.hbm, 844, rfl⟩
abbrev main_v238 : Ref sig .tc := ⟨.hbm, 845, rfl⟩
abbrev main_v239 : Ref sig .tc := ⟨.hbm, 846, rfl⟩
abbrev main_v240 : Ref sig .tc := ⟨.hbm, 847, rfl⟩
abbrev main_v241 : Ref sig .tc := ⟨.hbm, 848, rfl⟩
abbrev main_call40_c : Ref sig .tc := ⟨.hbm, 849, rfl⟩
abbrev main_call40_v0 : Ref sig .tc := ⟨.hbm, 850, rfl⟩
abbrev main_call40_v1 : Ref sig .tc := ⟨.hbm, 851, rfl⟩
abbrev main_call40_c_0 : Ref sig .tc := ⟨.hbm, 852, rfl⟩
abbrev main_call40_v2 : Ref sig .tc := ⟨.hbm, 853, rfl⟩
abbrev main_call40_v3 : Ref sig .tc := ⟨.hbm, 854, rfl⟩
abbrev main_call40_v4 : Ref sig .tc := ⟨.hbm, 855, rfl⟩
abbrev main_call40_v5 : Ref sig .tc := ⟨.hbm, 856, rfl⟩
abbrev main_call40_c_1 : Ref sig .tc := ⟨.hbm, 857, rfl⟩
abbrev main_call40_c_2 : Ref sig .tc := ⟨.hbm, 858, rfl⟩
abbrev main_call40_v6 : Ref sig .tc := ⟨.hbm, 859, rfl⟩
abbrev main_call40_v7 : Ref sig .tc := ⟨.hbm, 860, rfl⟩
abbrev main_call40_v8 : Ref sig .tc := ⟨.hbm, 861, rfl⟩
abbrev main_call40_v9 : Ref sig .tc := ⟨.hbm, 862, rfl⟩
abbrev main_call40_v10 : Ref sig .tc := ⟨.hbm, 863, rfl⟩
abbrev main_call40_v11 : Ref sig .tc := ⟨.hbm, 864, rfl⟩
abbrev main_call40_c_3 : Ref sig .tc := ⟨.hbm, 865, rfl⟩
abbrev main_call40_v12 : Ref sig .tc := ⟨.hbm, 866, rfl⟩
abbrev main_call40_v13 : Ref sig .tc := ⟨.hbm, 867, rfl⟩
abbrev main_call40_v14 : Ref sig .tc := ⟨.hbm, 868, rfl⟩
abbrev main_call40_cst : Ref sig .tc := ⟨.hbm, 869, rfl⟩
abbrev main_call40_v15 : Ref sig .tc := ⟨.hbm, 870, rfl⟩
abbrev main_v242 : Ref sig .tc := ⟨.hbm, 871, rfl⟩
abbrev main_call41_v0 : Ref sig .tc := ⟨.hbm, 872, rfl⟩
abbrev main_call41_cst : Ref sig .tc := ⟨.hbm, 873, rfl⟩
abbrev main_call41_v1 : Ref sig .tc := ⟨.hbm, 874, rfl⟩
abbrev main_call41_v2 : Ref sig .tc := ⟨.hbm, 875, rfl⟩
abbrev main_v243 : Ref sig .tc := ⟨.hbm, 876, rfl⟩
abbrev main_cst_59 : Ref sig .tc := ⟨.hbm, 877, rfl⟩
abbrev main_v244 : Ref sig .tc := ⟨.hbm, 878, rfl⟩
abbrev main_v245 : Ref sig .tc := ⟨.hbm, 879, rfl⟩
abbrev main_cst_60 : Ref sig .tc := ⟨.hbm, 880, rfl⟩
abbrev main_v246 : Ref sig .tc := ⟨.hbm, 881, rfl⟩
abbrev main_v247 : Ref sig .tc := ⟨.hbm, 882, rfl⟩
abbrev main_cst_61 : Ref sig .tc := ⟨.hbm, 883, rfl⟩
abbrev main_v248 : Ref sig .tc := ⟨.hbm, 884, rfl⟩
abbrev main_v249 : Ref sig .tc := ⟨.hbm, 885, rfl⟩
abbrev main_v250 : Ref sig .tc := ⟨.hbm, 886, rfl⟩
abbrev main_v251 : Ref sig .tc := ⟨.hbm, 887, rfl⟩
abbrev main_v252 : Ref sig .tc := ⟨.hbm, 888, rfl⟩
abbrev main_v253 : Ref sig .tc := ⟨.hbm, 889, rfl⟩
abbrev main_call42_c : Ref sig .tc := ⟨.hbm, 890, rfl⟩
abbrev main_call42_v0 : Ref sig .tc := ⟨.hbm, 891, rfl⟩
abbrev main_call42_v1 : Ref sig .tc := ⟨.hbm, 892, rfl⟩
abbrev main_call42_c_0 : Ref sig .tc := ⟨.hbm, 893, rfl⟩
abbrev main_call42_v2 : Ref sig .tc := ⟨.hbm, 894, rfl⟩
abbrev main_call42_v3 : Ref sig .tc := ⟨.hbm, 895, rfl⟩
abbrev main_call42_v4 : Ref sig .tc := ⟨.hbm, 896, rfl⟩
abbrev main_call42_v5 : Ref sig .tc := ⟨.hbm, 897, rfl⟩
abbrev main_call42_c_1 : Ref sig .tc := ⟨.hbm, 898, rfl⟩
abbrev main_call42_c_2 : Ref sig .tc := ⟨.hbm, 899, rfl⟩
abbrev main_call42_v6 : Ref sig .tc := ⟨.hbm, 900, rfl⟩
abbrev main_call42_v7 : Ref sig .tc := ⟨.hbm, 901, rfl⟩
abbrev main_call42_v8 : Ref sig .tc := ⟨.hbm, 902, rfl⟩
abbrev main_call42_v9 : Ref sig .tc := ⟨.hbm, 903, rfl⟩
abbrev main_call42_v10 : Ref sig .tc := ⟨.hbm, 904, rfl⟩
abbrev main_call42_v11 : Ref sig .tc := ⟨.hbm, 905, rfl⟩
abbrev main_call42_c_3 : Ref sig .tc := ⟨.hbm, 906, rfl⟩
abbrev main_call42_v12 : Ref sig .tc := ⟨.hbm, 907, rfl⟩
abbrev main_call42_v13 : Ref sig .tc := ⟨.hbm, 908, rfl⟩
abbrev main_call42_v14 : Ref sig .tc := ⟨.hbm, 909, rfl⟩
abbrev main_call42_cst : Ref sig .tc := ⟨.hbm, 910, rfl⟩
abbrev main_call42_v15 : Ref sig .tc := ⟨.hbm, 911, rfl⟩
abbrev main_v254 : Ref sig .tc := ⟨.hbm, 912, rfl⟩
abbrev main_call43_v0 : Ref sig .tc := ⟨.hbm, 913, rfl⟩
abbrev main_call43_cst : Ref sig .tc := ⟨.hbm, 914, rfl⟩
abbrev main_call43_v1 : Ref sig .tc := ⟨.hbm, 915, rfl⟩
abbrev main_call43_v2 : Ref sig .tc := ⟨.hbm, 916, rfl⟩
abbrev main_v255 : Ref sig .tc := ⟨.hbm, 917, rfl⟩
abbrev main_cst_62 : Ref sig .tc := ⟨.hbm, 918, rfl⟩
abbrev main_v256 : Ref sig .tc := ⟨.hbm, 919, rfl⟩
abbrev main_v257 : Ref sig .tc := ⟨.hbm, 920, rfl⟩
abbrev main_cst_63 : Ref sig .tc := ⟨.hbm, 921, rfl⟩
abbrev main_v258 : Ref sig .tc := ⟨.hbm, 922, rfl⟩
abbrev main_v259 : Ref sig .tc := ⟨.hbm, 923, rfl⟩
abbrev main_cst_64 : Ref sig .tc := ⟨.hbm, 924, rfl⟩
abbrev main_v260 : Ref sig .tc := ⟨.hbm, 925, rfl⟩
abbrev main_v261 : Ref sig .tc := ⟨.hbm, 926, rfl⟩
abbrev main_v262 : Ref sig .tc := ⟨.hbm, 927, rfl⟩
abbrev main_v263 : Ref sig .tc := ⟨.hbm, 928, rfl⟩
abbrev main_v264 : Ref sig .tc := ⟨.hbm, 929, rfl⟩
abbrev main_v265 : Ref sig .tc := ⟨.hbm, 930, rfl⟩
abbrev main_call44_c : Ref sig .tc := ⟨.hbm, 931, rfl⟩
abbrev main_call44_v0 : Ref sig .tc := ⟨.hbm, 932, rfl⟩
abbrev main_call44_v1 : Ref sig .tc := ⟨.hbm, 933, rfl⟩
abbrev main_call44_c_0 : Ref sig .tc := ⟨.hbm, 934, rfl⟩
abbrev main_call44_v2 : Ref sig .tc := ⟨.hbm, 935, rfl⟩
abbrev main_call44_v3 : Ref sig .tc := ⟨.hbm, 936, rfl⟩
abbrev main_call44_v4 : Ref sig .tc := ⟨.hbm, 937, rfl⟩
abbrev main_call44_v5 : Ref sig .tc := ⟨.hbm, 938, rfl⟩
abbrev main_call44_c_1 : Ref sig .tc := ⟨.hbm, 939, rfl⟩
abbrev main_call44_c_2 : Ref sig .tc := ⟨.hbm, 940, rfl⟩
abbrev main_call44_v6 : Ref sig .tc := ⟨.hbm, 941, rfl⟩
abbrev main_call44_v7 : Ref sig .tc := ⟨.hbm, 942, rfl⟩
abbrev main_call44_v8 : Ref sig .tc := ⟨.hbm, 943, rfl⟩
abbrev main_call44_v9 : Ref sig .tc := ⟨.hbm, 944, rfl⟩
abbrev main_call44_v10 : Ref sig .tc := ⟨.hbm, 945, rfl⟩
abbrev main_call44_v11 : Ref sig .tc := ⟨.hbm, 946, rfl⟩
abbrev main_call44_c_3 : Ref sig .tc := ⟨.hbm, 947, rfl⟩
abbrev main_call44_v12 : Ref sig .tc := ⟨.hbm, 948, rfl⟩
abbrev main_call44_v13 : Ref sig .tc := ⟨.hbm, 949, rfl⟩
abbrev main_call44_v14 : Ref sig .tc := ⟨.hbm, 950, rfl⟩
abbrev main_call44_cst : Ref sig .tc := ⟨.hbm, 951, rfl⟩
abbrev main_call44_v15 : Ref sig .tc := ⟨.hbm, 952, rfl⟩
abbrev main_v266 : Ref sig .tc := ⟨.hbm, 953, rfl⟩
abbrev main_call45_v0 : Ref sig .tc := ⟨.hbm, 954, rfl⟩
abbrev main_call45_cst : Ref sig .tc := ⟨.hbm, 955, rfl⟩
abbrev main_call45_v1 : Ref sig .tc := ⟨.hbm, 956, rfl⟩
abbrev main_call45_v2 : Ref sig .tc := ⟨.hbm, 957, rfl⟩
abbrev main_v267 : Ref sig .tc := ⟨.hbm, 958, rfl⟩
abbrev main_cst_65 : Ref sig .tc := ⟨.hbm, 959, rfl⟩
abbrev main_v268 : Ref sig .tc := ⟨.hbm, 960, rfl⟩
abbrev main_v269 : Ref sig .tc := ⟨.hbm, 961, rfl⟩
abbrev main_cst_66 : Ref sig .tc := ⟨.hbm, 962, rfl⟩
abbrev main_v270 : Ref sig .tc := ⟨.hbm, 963, rfl⟩
abbrev main_v271 : Ref sig .tc := ⟨.hbm, 964, rfl⟩
abbrev main_cst_67 : Ref sig .tc := ⟨.hbm, 965, rfl⟩
abbrev main_v272 : Ref sig .tc := ⟨.hbm, 966, rfl⟩
abbrev main_v273 : Ref sig .tc := ⟨.hbm, 967, rfl⟩
abbrev main_v274 : Ref sig .tc := ⟨.hbm, 968, rfl⟩
abbrev main_v275 : Ref sig .tc := ⟨.hbm, 969, rfl⟩
abbrev main_v276 : Ref sig .tc := ⟨.hbm, 970, rfl⟩
abbrev main_v277 : Ref sig .tc := ⟨.hbm, 971, rfl⟩
abbrev main_call46_c : Ref sig .tc := ⟨.hbm, 972, rfl⟩
abbrev main_call46_v0 : Ref sig .tc := ⟨.hbm, 973, rfl⟩
abbrev main_call46_v1 : Ref sig .tc := ⟨.hbm, 974, rfl⟩
abbrev main_call46_c_0 : Ref sig .tc := ⟨.hbm, 975, rfl⟩
abbrev main_call46_v2 : Ref sig .tc := ⟨.hbm, 976, rfl⟩
abbrev main_call46_v3 : Ref sig .tc := ⟨.hbm, 977, rfl⟩
abbrev main_call46_v4 : Ref sig .tc := ⟨.hbm, 978, rfl⟩
abbrev main_call46_v5 : Ref sig .tc := ⟨.hbm, 979, rfl⟩
abbrev main_call46_c_1 : Ref sig .tc := ⟨.hbm, 980, rfl⟩
abbrev main_call46_c_2 : Ref sig .tc := ⟨.hbm, 981, rfl⟩
abbrev main_call46_v6 : Ref sig .tc := ⟨.hbm, 982, rfl⟩
abbrev main_call46_v7 : Ref sig .tc := ⟨.hbm, 983, rfl⟩
abbrev main_call46_v8 : Ref sig .tc := ⟨.hbm, 984, rfl⟩
abbrev main_call46_v9 : Ref sig .tc := ⟨.hbm, 985, rfl⟩
abbrev main_call46_v10 : Ref sig .tc := ⟨.hbm, 986, rfl⟩
abbrev main_call46_v11 : Ref sig .tc := ⟨.hbm, 987, rfl⟩
abbrev main_call46_c_3 : Ref sig .tc := ⟨.hbm, 988, rfl⟩
abbrev main_call46_v12 : Ref sig .tc := ⟨.hbm, 989, rfl⟩
abbrev main_call46_v13 : Ref sig .tc := ⟨.hbm, 990, rfl⟩
abbrev main_call46_v14 : Ref sig .tc := ⟨.hbm, 991, rfl⟩
abbrev main_call46_cst : Ref sig .tc := ⟨.hbm, 992, rfl⟩
abbrev main_call46_v15 : Ref sig .tc := ⟨.hbm, 993, rfl⟩
abbrev main_v278 : Ref sig .tc := ⟨.hbm, 994, rfl⟩
abbrev main_call47_v0 : Ref sig .tc := ⟨.hbm, 995, rfl⟩
abbrev main_call47_cst : Ref sig .tc := ⟨.hbm, 996, rfl⟩
abbrev main_call47_v1 : Ref sig .tc := ⟨.hbm, 997, rfl⟩
abbrev main_call47_v2 : Ref sig .tc := ⟨.hbm, 998, rfl⟩
abbrev main_v279 : Ref sig .tc := ⟨.hbm, 999, rfl⟩
abbrev main_cst_68 : Ref sig .tc := ⟨.hbm, 1000, rfl⟩
abbrev main_v280 : Ref sig .tc := ⟨.hbm, 1001, rfl⟩
abbrev main_v281 : Ref sig .tc := ⟨.hbm, 1002, rfl⟩
abbrev main_cst_69 : Ref sig .tc := ⟨.hbm, 1003, rfl⟩
abbrev main_v282 : Ref sig .tc := ⟨.hbm, 1004, rfl⟩
abbrev main_v283 : Ref sig .tc := ⟨.hbm, 1005, rfl⟩
abbrev main_cst_70 : Ref sig .tc := ⟨.hbm, 1006, rfl⟩
abbrev main_v284 : Ref sig .tc := ⟨.hbm, 1007, rfl⟩
abbrev main_v285 : Ref sig .tc := ⟨.hbm, 1008, rfl⟩
abbrev main_v286 : Ref sig .tc := ⟨.hbm, 1009, rfl⟩
abbrev main_v287 : Ref sig .tc := ⟨.hbm, 1010, rfl⟩
abbrev main_v288 : Ref sig .tc := ⟨.hbm, 1011, rfl⟩
abbrev main_v289 : Ref sig .tc := ⟨.hbm, 1012, rfl⟩
abbrev main_call48_c : Ref sig .tc := ⟨.hbm, 1013, rfl⟩
abbrev main_call48_v0 : Ref sig .tc := ⟨.hbm, 1014, rfl⟩
abbrev main_call48_v1 : Ref sig .tc := ⟨.hbm, 1015, rfl⟩
abbrev main_call48_c_0 : Ref sig .tc := ⟨.hbm, 1016, rfl⟩
abbrev main_call48_v2 : Ref sig .tc := ⟨.hbm, 1017, rfl⟩
abbrev main_call48_v3 : Ref sig .tc := ⟨.hbm, 1018, rfl⟩
abbrev main_call48_v4 : Ref sig .tc := ⟨.hbm, 1019, rfl⟩
abbrev main_call48_v5 : Ref sig .tc := ⟨.hbm, 1020, rfl⟩
abbrev main_call48_c_1 : Ref sig .tc := ⟨.hbm, 1021, rfl⟩
abbrev main_call48_c_2 : Ref sig .tc := ⟨.hbm, 1022, rfl⟩
abbrev main_call48_v6 : Ref sig .tc := ⟨.hbm, 1023, rfl⟩
abbrev main_call48_v7 : Ref sig .tc := ⟨.hbm, 1024, rfl⟩
abbrev main_call48_v8 : Ref sig .tc := ⟨.hbm, 1025, rfl⟩
abbrev main_call48_v9 : Ref sig .tc := ⟨.hbm, 1026, rfl⟩
abbrev main_call48_v10 : Ref sig .tc := ⟨.hbm, 1027, rfl⟩
abbrev main_call48_v11 : Ref sig .tc := ⟨.hbm, 1028, rfl⟩
abbrev main_call48_c_3 : Ref sig .tc := ⟨.hbm, 1029, rfl⟩
abbrev main_call48_v12 : Ref sig .tc := ⟨.hbm, 1030, rfl⟩
abbrev main_call48_v13 : Ref sig .tc := ⟨.hbm, 1031, rfl⟩
abbrev main_call48_v14 : Ref sig .tc := ⟨.hbm, 1032, rfl⟩
abbrev main_call48_cst : Ref sig .tc := ⟨.hbm, 1033, rfl⟩
abbrev main_call48_v15 : Ref sig .tc := ⟨.hbm, 1034, rfl⟩
abbrev main_v290 : Ref sig .tc := ⟨.hbm, 1035, rfl⟩
abbrev main_call49_v0 : Ref sig .tc := ⟨.hbm, 1036, rfl⟩
abbrev main_call49_cst : Ref sig .tc := ⟨.hbm, 1037, rfl⟩
abbrev main_call49_v1 : Ref sig .tc := ⟨.hbm, 1038, rfl⟩
abbrev main_call49_v2 : Ref sig .tc := ⟨.hbm, 1039, rfl⟩
abbrev main_v291 : Ref sig .tc := ⟨.hbm, 1040, rfl⟩
abbrev main_cst_71 : Ref sig .tc := ⟨.hbm, 1041, rfl⟩
abbrev main_v292 : Ref sig .tc := ⟨.hbm, 1042, rfl⟩
abbrev main_v293 : Ref sig .tc := ⟨.hbm, 1043, rfl⟩
abbrev main_cst_72 : Ref sig .tc := ⟨.hbm, 1044, rfl⟩
abbrev main_v294 : Ref sig .tc := ⟨.hbm, 1045, rfl⟩
abbrev main_v295 : Ref sig .tc := ⟨.hbm, 1046, rfl⟩
abbrev main_cst_73 : Ref sig .tc := ⟨.hbm, 1047, rfl⟩
abbrev main_v296 : Ref sig .tc := ⟨.hbm, 1048, rfl⟩
abbrev main_v297 : Ref sig .tc := ⟨.hbm, 1049, rfl⟩
abbrev main_v298 : Ref sig .tc := ⟨.hbm, 1050, rfl⟩
abbrev main_v299 : Ref sig .tc := ⟨.hbm, 1051, rfl⟩
abbrev main_v300 : Ref sig .tc := ⟨.hbm, 1052, rfl⟩
abbrev main_v301 : Ref sig .tc := ⟨.hbm, 1053, rfl⟩
abbrev main_call50_c : Ref sig .tc := ⟨.hbm, 1054, rfl⟩
abbrev main_call50_v0 : Ref sig .tc := ⟨.hbm, 1055, rfl⟩
abbrev main_call50_v1 : Ref sig .tc := ⟨.hbm, 1056, rfl⟩
abbrev main_call50_c_0 : Ref sig .tc := ⟨.hbm, 1057, rfl⟩
abbrev main_call50_v2 : Ref sig .tc := ⟨.hbm, 1058, rfl⟩
abbrev main_call50_v3 : Ref sig .tc := ⟨.hbm, 1059, rfl⟩
abbrev main_call50_v4 : Ref sig .tc := ⟨.hbm, 1060, rfl⟩
abbrev main_call50_v5 : Ref sig .tc := ⟨.hbm, 1061, rfl⟩
abbrev main_call50_c_1 : Ref sig .tc := ⟨.hbm, 1062, rfl⟩
abbrev main_call50_c_2 : Ref sig .tc := ⟨.hbm, 1063, rfl⟩
abbrev main_call50_v6 : Ref sig .tc := ⟨.hbm, 1064, rfl⟩
abbrev main_call50_v7 : Ref sig .tc := ⟨.hbm, 1065, rfl⟩
abbrev main_call50_v8 : Ref sig .tc := ⟨.hbm, 1066, rfl⟩
abbrev main_call50_v9 : Ref sig .tc := ⟨.hbm, 1067, rfl⟩
abbrev main_call50_v10 : Ref sig .tc := ⟨.hbm, 1068, rfl⟩
abbrev main_call50_v11 : Ref sig .tc := ⟨.hbm, 1069, rfl⟩
abbrev main_call50_c_3 : Ref sig .tc := ⟨.hbm, 1070, rfl⟩
abbrev main_call50_v12 : Ref sig .tc := ⟨.hbm, 1071, rfl⟩
abbrev main_call50_v13 : Ref sig .tc := ⟨.hbm, 1072, rfl⟩
abbrev main_call50_v14 : Ref sig .tc := ⟨.hbm, 1073, rfl⟩
abbrev main_call50_cst : Ref sig .tc := ⟨.hbm, 1074, rfl⟩
abbrev main_call50_v15 : Ref sig .tc := ⟨.hbm, 1075, rfl⟩
abbrev main_v302 : Ref sig .tc := ⟨.hbm, 1076, rfl⟩
abbrev main_call51_v0 : Ref sig .tc := ⟨.hbm, 1077, rfl⟩
abbrev main_call51_cst : Ref sig .tc := ⟨.hbm, 1078, rfl⟩
abbrev main_call51_v1 : Ref sig .tc := ⟨.hbm, 1079, rfl⟩
abbrev main_call51_v2 : Ref sig .tc := ⟨.hbm, 1080, rfl⟩
abbrev main_v303 : Ref sig .tc := ⟨.hbm, 1081, rfl⟩
abbrev main_cst_74 : Ref sig .tc := ⟨.hbm, 1082, rfl⟩
abbrev main_v304 : Ref sig .tc := ⟨.hbm, 1083, rfl⟩
abbrev main_v305 : Ref sig .tc := ⟨.hbm, 1084, rfl⟩
abbrev main_cst_75 : Ref sig .tc := ⟨.hbm, 1085, rfl⟩
abbrev main_v306 : Ref sig .tc := ⟨.hbm, 1086, rfl⟩
abbrev main_v307 : Ref sig .tc := ⟨.hbm, 1087, rfl⟩
abbrev main_cst_76 : Ref sig .tc := ⟨.hbm, 1088, rfl⟩
abbrev main_v308 : Ref sig .tc := ⟨.hbm, 1089, rfl⟩
abbrev main_v309 : Ref sig .tc := ⟨.hbm, 1090, rfl⟩
abbrev main_v310 : Ref sig .tc := ⟨.hbm, 1091, rfl⟩
abbrev main_v311 : Ref sig .tc := ⟨.hbm, 1092, rfl⟩
abbrev main_v312 : Ref sig .tc := ⟨.hbm, 1093, rfl⟩
abbrev main_v313 : Ref sig .tc := ⟨.hbm, 1094, rfl⟩
abbrev main_v314 : Ref sig .tc := ⟨.hbm, 1095, rfl⟩

abbrev nD : Nat := 1
abbrev τ : Topo := Topo.v7x

variable {F : FTy → Type} [FloatOps F]

class Facts₀ : Prop where
  slices_S16384x26_S16384x1_0_0 : S16384x26.Slices ![0, 0] S16384x1
  shapeCasts_S16384x1_S16384 : S16384x1.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  reducesTo_S16384x128_S16384_d1 : S16384x128.ReducesTo [1] S16384
  bcast_S16384x1_S16384x128_0_1 : S16384x1.BroadcastsInDim S16384x128 (![0, 1] : Fin 2 → Fin S16384x128.rank)
  slices_S16384x26_S16384x1_0_1 : S16384x26.Slices ![0, 1] S16384x1
  slices_S16384x26_S16384x1_0_2 : S16384x26.Slices ![0, 2] S16384x1
  slices_S16384x26_S16384x1_0_3 : S16384x26.Slices ![0, 3] S16384x1
  slices_S16384x26_S16384x1_0_4 : S16384x26.Slices ![0, 4] S16384x1
  slices_S16384x26_S16384x1_0_5 : S16384x26.Slices ![0, 5] S16384x1
  slices_S16384x26_S16384x1_0_6 : S16384x26.Slices ![0, 6] S16384x1
  slices_S16384x26_S16384x1_0_7 : S16384x26.Slices ![0, 7] S16384x1
  slices_S16384x26_S16384x1_0_8 : S16384x26.Slices ![0, 8] S16384x1
  slices_S16384x26_S16384x1_0_9 : S16384x26.Slices ![0, 9] S16384x1
  slices_S16384x26_S16384x1_0_10 : S16384x26.Slices ![0, 10] S16384x1
  slices_S16384x26_S16384x1_0_11 : S16384x26.Slices ![0, 11] S16384x1
  slices_S16384x26_S16384x1_0_12 : S16384x26.Slices ![0, 12] S16384x1
  slices_S16384x26_S16384x1_0_13 : S16384x26.Slices ![0, 13] S16384x1
  slices_S16384x26_S16384x1_0_14 : S16384x26.Slices ![0, 14] S16384x1
  slices_S16384x26_S16384x1_0_15 : S16384x26.Slices ![0, 15] S16384x1
  slices_S16384x26_S16384x1_0_16 : S16384x26.Slices ![0, 16] S16384x1
  slices_S16384x26_S16384x1_0_17 : S16384x26.Slices ![0, 17] S16384x1
  slices_S16384x26_S16384x1_0_18 : S16384x26.Slices ![0, 18] S16384x1
  slices_S16384x26_S16384x1_0_19 : S16384x26.Slices ![0, 19] S16384x1
  slices_S16384x26_S16384x1_0_20 : S16384x26.Slices ![0, 20] S16384x1
  slices_S16384x26_S16384x1_0_21 : S16384x26.Slices ![0, 21] S16384x1
  slices_S16384x26_S16384x1_0_22 : S16384x26.Slices ![0, 22] S16384x1
  slices_S16384x26_S16384x1_0_23 : S16384x26.Slices ![0, 23] S16384x1
  slices_S16384x26_S16384x1_0_24 : S16384x26.Slices ![0, 24] S16384x1
  slices_S16384x26_S16384x1_0_25 : S16384x26.Slices ![0, 25] S16384x1
  concatenates_S16384x128_S16384x128_S16384x128_S16384x128_S16384x128_S16384x128_S16384x128_S16384x128_S16384x128_S16384x128_S16384x128_S16384x128_S16384x128_S16384x128_S16384x128_S16384x128_S16384x2048_d1 : Shape.Concatenates [S16384x128, S16384x128, S16384x128, S16384x128, S16384x128, S16384x128, S16384x128, S16384x128, S16384x128, S16384x128, S16384x128, S16384x128, S16384x128, S16384x128, S16384x128, S16384x128] S16384x2048 1
  concatenates_S16384x128_S16384x128_S16384x128_S16384x128_S16384x128_S16384x128_S16384x128_S16384x128_S16384x128_S16384x128_S16384x1280_d1 : Shape.Concatenates [S16384x128, S16384x128, S16384x128, S16384x128, S16384x128, S16384x128, S16384x128, S16384x128, S16384x128, S16384x128] S16384x1280 1
  concatenates_S16384x2048_S16384x1280_S16384x3328_d1 : Shape.Concatenates [S16384x2048, S16384x1280] S16384x3328 1
  gather_S128x128_S16384x1_S16384x128_1_0_n_n_0_1_1128_wf : GatherDims.WF S128x128 S16384x1 S16384x128 [1] [0] [] [0] [] 1 ![1, 128]

variable [Facts₀]

def gather_S128x128_S16384x1_S16384x128_1_0_n_n_0_1_1128 : GatherDims S128x128 S16384x1 S16384x128 where
  offsetDims := [1]
  collapsedSliceDims := [0]
  operandBatchingDims := []
  startIndicesBatchingDims := []
  startIndexMap := [0]
  indexVectorDim := 1
  sliceSizes := ![1, 128]
  wf := gather_S128x128_S16384x1_S16384x128_1_0_n_n_0_1_1128_wf

class Facts : Prop extends Facts₀ where

variable [Facts]
-- ==== Proof.Spec.lean ====
/-
  The function both programs compute, stated once over the extended reals.

  The input is a table of 16384 x 26 row numbers and 26 square tables of 128 rows of 128 numbers.  For batch row
  `b`, field `f` and lane `v` the result at `(b, 128 f + v)` is lane `v` of row `x[b, f]` of table `f`, rescaled
  so that a row of Euclidean norm above one is brought back to norm one:
      w v * min 1 (1 / max (sqrt (sum_k (w k)^2)) eps),      w = row x[b, f] of table f.
  The row number is read as a natural number modulo 128: under the precondition it already lies in [0, 127].
-/
import Idealize.ShloMosaic.PureOps.Ideal
import Idealize.ShloMosaic.Lib.ValueIdx

noncomputable section

namespace Cert.Proof.Spec

open Idealize.ShloMosaic Idealize.ShloMosaic.ValueIdx
open scoped BigOperators

/-- The shapes of the row numbers, of one table and of the result. -/
abbrev SX : Shape := ⟨2, ![16384, 26]⟩
abbrev SW : Shape := ⟨2, ![128, 128]⟩
abbrev SO : Shape := ⟨2, ![16384, 3328]⟩

/-- The two float literals of both programs, as the extended reals their words denote. -/
def one : EReal := Ideal.ofBits .f32 0x3F800000#32
def eps : EReal := Ideal.ofBits .f32 0x33D6BF95#32

/-- The factor a row `w` is rescaled by. -/
def rowFactor (w : Fin 128 → EReal) : EReal :=
  min one (Ideal.div one (max (Ideal.sqrt (∑ k, w k * w k)) eps))

/-- Lane `v` of the rescaled row. -/
def scaleRow (w : Fin 128 → EReal) (v : Fin 128) : EReal := w v * rowFactor w

/-- The row of table `f` that batch row `b` selects. -/
def rowOf (x : SX.Idx → BitVec 32) (b : Fin 16384) (f : Fin 26) : Fin 128 :=
  ⟨(x (ix2 b f)).toNat % 128, Nat.mod_lt _ (by norm_num)⟩

/-- The field and the lane of a result column. -/
def fieldOf (q : Fin 3328) : Fin 26 := ⟨q.val / 128, by have := q.isLt; omega⟩
def laneOf (q : Fin 3328) : Fin 128 := ⟨q.val % 128, Nat.mod_lt _ (by norm_num)⟩

/-- The result, index by index. -/
def G (x : SX.Idx → BitVec 32) (W : Fin 26 → SW.Idx → EReal) : SO.Idx → EReal := fun j =>
  scaleRow (fun k => W (fieldOf (j 1)) (ix2 (rowOf x (j 0) (fieldOf (j 1))) k)) (laneOf (j 1))

theorem G_apply (x : SX.Idx → BitVec 32) (W : Fin 26 → SW.Idx → EReal) (b : Fin 16384) (q : Fin 3328) :
    G x W (ix2 b q) = scaleRow (fun k => W (fieldOf q) (ix2 (rowOf x b (fieldOf q)) k)) (laneOf q) := rfl

end Cert.Proof.Spec

end
-- ==== Proof.SetupI.lean ====
/-
  The idealized kernel as the SparseCore launch theorem sees it, and who holds what.

  The flat row numbers (`main_v1`, 425984 words) and the result (`main_v2`, 16384 x 3328) are cut into 32 contiguous
  pieces, one per vector subcore: worker `w = 2 s + c` (subcore `s` of SparseCore `c`) owns words
  `[13312 w, 13312 (w+1))` and result rows `[512 w, 512 (w+1))`.  The rescaled table (`main_v0`, 3328 x 128) is
  read by every worker, so each holds a read share of all of it.  A worker's task turns its piece of the result into
  the gathered rows: result element `(r, q)` is element `q mod 128` of table row `X[26 r + q / 128] + 128 (q / 128)`.
-/
import proofs.«207321_g10943576670982_fold_wed_m_632_36_alg».proof.Defs
import proofs.«207321_g10943576670982_fold_wed_m_632_36_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«207321_g10943576670982_fold_wed_m_632_36_alg».proof.Proof.Gen.KernelIdeal
import proofs.«207321_g10943576670982_fold_wed_m_632_36_alg».proof.Proof.Gen.KernelIdeal.Skeleton
import proofs.«207321_g10943576670982_fold_wed_m_632_36_alg».proof.Proof.Gen.Pre_input_domain

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The machine's algebra, over any user algebra that holds the transfers' counters -/

variable {U : Type} [URA U]

local notation "𝕄" => MT nD τ sig (HIx 1) (Elt F) ℕ U ℕ

/-! ## The three arrays of the SparseCore call -/

abbrev xLoc (d : Dev nD) : Loc nD τ sig := (SparseCore.T d).loc main_v1
abbrev tLoc (d : Dev nD) : Loc nD τ sig := (SparseCore.T d).loc main_v0
abbrev oLoc (d : Dev nD) : Loc nD τ sig := (SparseCore.T d).loc main_v2

/-- Worker number of a place of the grid: `2 s + c`. -/
def wid (L : grid1.Coords) : ℕ := 2 * (L 1).val + (L 0).val
theorem wid_lt (L : grid1.Coords) : wid L < 32 := by
  have h0 : (L 0).val < 2 := (L 0).isLt
  have h1 : (L 1).val < 16 := (L 1).isLt
  unfold wid; omega

/-- The grid place of SparseCore `c`, subcore `s`. -/
def coordsV (c : Fin 2) (s : Fin 16) : grid1.Coords :=
  fun | 0 => (c : Fin (grid1.bound 0)) | 1 => (s : Fin (grid1.bound 1)) | ⟨_ + 2, h⟩ => absurd h (Nat.not_lt.2 (Nat.le_add_left _ _))

/-- The SparseCore and the subcore of a grid place, as the machine numbers them. -/
abbrev cV (L : grid1.Coords) : Fin τ.nSC := (L 0).castLE hcore1
abbrev jV (L : grid1.Coords) : Fin τ.nSub := (L 1).castLE hsub1

/-- The words of the flat row numbers, and the rows of the result, that worker `L` owns. -/
def xSet (L : grid1.Coords) : Finset S425984.Idx := Finset.univ.filter fun j => (j 0).val / 13312 = wid L
def oSet (L : grid1.Coords) : Finset S16384x3328.Idx := Finset.univ.filter fun j => (j 0).val / 512 = wid L

/-- The share of the table that SparseCore `c` holds, and the one its subcore `s` holds. -/
abbrev coreShare (c : Fin 2) : PosShare TreeShare := Transfers.shareTok fullShare 2 c
abbrev tileShare (L : grid1.Coords) : PosShare TreeShare := Transfers.shareTok (coreShare (L 0)) 16 (L 1)

/-- The result a worker leaves: element `(r, q)` is element `q mod 128` of the table's row
    `X[26 r + q / 128] + 128 (q / 128)` (read modulo the table's 3328 rows, which it is below when the word is below 128). -/
def gatherOut (X : S425984.Idx → Elt F .i32) (Tb : S3328x128.Idx → Elt F .f32) : S16384x3328.Idx → Elt F .f32 := fun j =>
  Tb (ix2 (⟨((X (ix1 ⟨(26 * (j 0).val + (j 1).val / 128) % 425984, Nat.mod_lt _ (by norm_num)⟩) : BitVec 32).toNat + 128 * ((j 1).val / 128)) % 3328,
      Nat.mod_lt _ (by norm_num)⟩ : Fin 3328) (⟨(j 1).val % 128, Nat.mod_lt _ (by norm_num)⟩ : Fin 128))

/-- What a worker is handed: its words of the row numbers, its share of the table, its rows of the result. -/
def tileGo (d : Dev nD) (L : grid1.Coords) (X : Buf (Elt F) (xLoc d)) (Tb : Buf (Elt F) (tLoc d)) (O0 : Buf (Elt F) (oLoc d)) : sProp 𝕄 :=
  iprop((xLoc d ↦[xSet L]{fullShare} X) ∗ (tLoc d ↦{tileShare L} Tb) ∗ (oLoc d ↦[oSet L]{fullShare} O0))

/-- What it hands back: its rows of the result, holding the gathered rows. -/
def tileTd (d : Dev nD) (L : grid1.Coords) (X : Buf (Elt F) (xLoc d)) (Tb : Buf (Elt F) (tLoc d)) : sProp 𝕄 :=
  oLoc d ↦[oSet L]{fullShare} (gatherOut (F := F) X Tb : Buf (Elt F) (oLoc d))

/-! ## What the handshakes carry -/

/-- The words and the rows that SparseCore `c`'s sixteen workers own together. -/
def xCoreSet (c : Fin 2) : Finset S425984.Idx := Finset.univ.filter fun j => ((j 0).val / 13312) % 2 = c.val
def oCoreSet (c : Fin 2) : Finset S16384x3328.Idx := Finset.univ.filter fun j => ((j 0).val / 512) % 2 = c.val

/-- A SparseCore of the call takes its words of the row numbers, its share of the table and its rows of the result; a
    worker takes its part of them (`tileGo`) and brings its rows of the result back filled (`tileTd`). -/
def P (X : (d : Dev nD) → Buf (Elt F) (xLoc d)) (Tb : (d : Dev nD) → Buf (Elt F) (tLoc d)) (O0 : (d : Dev nD) → Buf (Elt F) (oLoc d)) :
    (K (F := F)).Pay (nD := nD) (Val := Elt F) (Name := ℕ) (U := U) where
  st := fun q d c => match q with
    | 0 => iprop((xLoc d ↦[xCoreSet (Fin.cast nCore_zero c)]{fullShare} X d) ∗ (tLoc d ↦{coreShare (Fin.cast nCore_zero c)} Tb d)
        ∗ (oLoc d ↦[oCoreSet (Fin.cast nCore_zero c)]{fullShare} O0 d))
  dn := fun q d c => match q with
    | 0 => oLoc d ↦[oCoreSet (Fin.cast nCore_zero c)]{fullShare} (gatherOut (F := F) (X d) (Tb d) : Buf (Elt F) (oLoc d))
  go := fun q d c i => match q with
    | 0 => tileGo d (coordsV (Fin.cast nCore_zero c) (Fin.cast nSub_zero i)) (X d) (Tb d) (O0 d)
  td := fun q d c i => match q with
    | 0 => tileTd d (coordsV (Fin.cast nCore_zero c) (Fin.cast nSub_zero i)) (X d) (Tb d)
  x := fun _ _ => iprop(emp)

instance P_storable (X : (d : Dev nD) → Buf (Elt F) (xLoc d)) (Tb : (d : Dev nD) → Buf (Elt F) (tLoc d)) (O0 : (d : Dev nD) → Buf (Elt F) (oLoc d)) :
    (P (U := U) X Tb O0).IsStorable where
  st q d c := match q with
    | 0 => (inferInstance : BI.Storable (upEmb : UEmb _ 𝕄) iprop((xLoc d ↦[xCoreSet (Fin.cast nCore_zero c)]{fullShare} X d) ∗ (tLoc d ↦{coreShare (Fin.cast nCore_zero c)} Tb d)
        ∗ (oLoc d ↦[oCoreSet (Fin.cast nCore_zero c)]{fullShare} O0 d)))
  dn q d c := match q with
    | 0 => (inferInstance : BI.Storable (upEmb : UEmb _ 𝕄) (oLoc d ↦[oCoreSet (Fin.cast nCore_zero c)]{fullShare} (gatherOut (F := F) (X d) (Tb d) : Buf (Elt F) (oLoc d))))
  go q d c i := match q with
    | 0 => (inferInstance : BI.Storable (upEmb : UEmb _ 𝕄) iprop((xLoc d ↦[xSet (coordsV (Fin.cast nCore_zero c) (Fin.cast nSub_zero i))]{fullShare} X d)
        ∗ (tLoc d ↦{tileShare (coordsV (Fin.cast nCore_zero c) (Fin.cast nSub_zero i))} Tb d) ∗ (oLoc d ↦[oSet (coordsV (Fin.cast nCore_zero c) (Fin.cast nSub_zero i))]{fullShare} O0 d)))
  td q d c i := match q with
    | 0 => (inferInstance : BI.Storable (upEmb : UEmb _ 𝕄) (oLoc d ↦[oSet (coordsV (Fin.cast nCore_zero c) (Fin.cast nSub_zero i))]{fullShare} (gatherOut (F := F) (X d) (Tb d) : Buf (Elt F) (oLoc d))))

end Cert.Proof.KI

end
-- ==== Proof.MainIa.lean ====
/-
  The certificate's ghost state.

  Three components side by side: the rounds of the launch handshakes between the TensorCore, the sequencers and the
  vector subcores; the rounds of the staging cells of the one TensorCore region (one cell per window: 26 tables in,
  the rescaled table out); and the counters of the transfers the vector subcores make.  The launch element gives the
  handshakes their initial rounds and funds the region's cells and their duty tokens, which the TensorCore of each
  device receives for its region.
-/
import proofs.«207321_g10943576670982_fold_wed_m_632_36_alg».proof.Proof.SetupI
import proofs.«207321_g10943576670982_fold_wed_m_632_36_alg».proof.Proof.Gen.KernelIdeal.Launch
import proofs.«207321_g10943576670982_fold_wed_m_632_36_alg».proof.Proof.Gen.KernelIdeal.Points

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The algebra and the embeddings -/

abbrev UH : Type := URounds (GSem nD τ sig) ℕ
abbrev UP : Type := URounds (GSem nD τ sig) Unit
abbrev UU : Type := UH × (UP × Counters)

instance : CountersIn UU := inferInstance

local notation "𝕄" => MT nD τ sig (HIx 1) (Elt F) ℕ UU ℕ

/-- The handshakes' rounds: the left component. -/
abbrev EH : Emb UH (MT nD τ sig (HIx 1) (Elt F) ℕ UU ℕ) := embL
/-- The region's rounds: the left of the right component. -/
abbrev EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by unfold EP; infer_instance

/-! ## The region's tables: none is prefetched -/

abbrev aA : (p : Fin 1) → (pcfgs (F := F) p).Adm := fun q => (cfgs q).toPCfg_adm
abbrev pinned : Fin 1 → Pipeline.Cfg sig Λ₀ := Pipeline.pin (pcfgs (F := F)) aA

theorem hinj : Function.Injective (Pipeline.cellOf (nD := nD) (τ := τ) (pinned (F := F))) := cellOf_inj

/-! ## The launch element -/

def u₀ : UU :=
  (initOf (K (F := F)).hsCells (K (F := F)).hsToks,
    (initOf (Pipeline.cells (pinned (F := F)) hinj) (Pipeline.launchToks (pinned (F := F)) hinj), 1))

/-- What the TensorCore of a device starts @main with beyond the launch's deal: the ghost state of its region's cells
    and the tokens of their duties. -/
def G (d : Dev nD) : sProp 𝕄 :=
  iprop(Pipeline.cellsGhost (pinned (F := F)) EP 0 d ∗ Pipeline.toksInit (pinned (F := F)) EP 0 d)

theorem bigSep_emp' {I : Type} (s : Finset I) : (bigSep s fun _ => iprop(emp)) = (iprop(emp) : sProp 𝕄) := bigSep_emp_const s

theorem hu₀ (X : (d : Dev nD) → Buf (Elt F) (xLoc d)) (Tb : (d : Dev nD) → Buf (Elt F) (tLoc d)) (O0 : (d : Dev nD) → Buf (Elt F) (oLoc d)) :
    (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (U := UU) X Tb O0).x q thr) := by
  unfold u₀
  iintro Hu
  ihave H := (ownU_pair _ _) $$ Hu
  icases H with ⟨HH, HR⟩
  ihave H2 := (own_pair_emb embR _ _) $$ HR
  icases H2 with ⟨HP, -⟩
  imod (Pipeline.fund_ghost (pinned (F := F)) EP hinj) $$ HP with ⟨Hg, Ht⟩
  imodintro
  isplitl [HH]; · iexact HH
  isplitl [Hg Ht]
  · unfold G
    rw [bigSep_sep']
    isplitl [Hg]
    · rw [show (bigSep Finset.univ fun d : Dev nD => Pipeline.cellsGhost (pinned (F := F)) EP 0 d)
          = bigSep Finset.univ fun c : Dev nD => bigSep Finset.univ fun p : Fin 1 => Pipeline.cellsGhost (pinned (F := F)) (EP (F := F)) p c from
        bigSep_congr fun c _ => (bigSep_univ_of_subsingleton (0 : Fin 1) (Φ := fun p : Fin 1 => Pipeline.cellsGhost (pinned (F := F)) (EP (F := F)) p c)).symm]
      iexact Hg
    · rw [show (bigSep Finset.univ fun d : Dev nD => (Pipeline.toksInit (pinned (F := F)) EP 0 d : sProp 𝕄))
          = bigSep Finset.univ fun c : Dev nD => bigSep Finset.univ fun p : Fin 1 => (Pipeline.toksInit (pinned (F := F)) (EP (F := F)) p c : sProp 𝕄) from
        bigSep_congr fun c _ => (bigSep_univ_of_subsingleton (0 : Fin 1) (Φ := fun p : Fin 1 => (Pipeline.toksInit (pinned (F := F)) (EP (F := F)) p c : sProp 𝕄))).symm]
      iexact Ht
  rw [show (bigSep Finset.univ fun thr : Thread nD τ => bigSep Finset.univ fun q : Fin 1 => (P (U := UU) X Tb O0).x q thr) = bigSep Finset.univ fun _ => iprop(emp) from
    bigSep_congr fun _ _ => bigSep_univ_of_subsingleton (0 : Fin 1), bigSep_emp']
  iempintro

end Cert.Proof.KI

end
-- ==== Proof.TableI.lean ====
/-
  The rescaled table as one function of the 26 tables.

  The TensorCore kernel stores, for table `t`, one 128 x 128 block into rows `[128 t, 128 t + 128)` of the 3328 x 128
  result.  Each stored block is the same arithmetic of its table — every row times min(1, 1 / max(norm, eps)) — but
  the program is given in parts of sixty statements, so for eight of the tables the block's term takes a value
  computed in the part before (the row norms, the squares, the quotient) as an argument: `blk t` composes the pieces
  back into one function of the table.
-/
import proofs.«207321_g10943576670982_fold_wed_m_632_36_alg».proof.Proof.SetupI

noncomputable section

namespace Cert.Proof.KI

open Cert.KernelIdeal Cert.KernelIdeal.Gen
open Idealize.ShloMosaic Idealize.ShloMosaic.ValueIdx

variable {F : FTy → Type} [FloatOps F]

/-- The block stored for table `t`, as a function of that table. -/
def blk (t : Fin 26) (w : Vec F S128x128 .f32) : FVec F S128x128 .f32 :=
  match t with
  | ⟨0, _⟩ => k0_pay2 w
  | ⟨1, _⟩ => k0_pay3 w
  | ⟨2, _⟩ => k0_pay5 w (k0_pay4 w)
  | ⟨3, _⟩ => k0_pay6 w
  | ⟨4, _⟩ => k0_pay7 w
  | ⟨5, _⟩ => k0_pay9 w (k0_pay8 w)
  | ⟨6, _⟩ => k0_pay10 w
  | ⟨7, _⟩ => k0_pay11 w
  | ⟨8, _⟩ => k0_pay12 w
  | ⟨9, _⟩ => k0_pay13 w
  | ⟨10, _⟩ => k0_pay16 w (k0_pay14 w) k0_pay15
  | ⟨11, _⟩ => k0_pay17 w
  | ⟨12, _⟩ => k0_pay18 w
  | ⟨13, _⟩ => k0_pay19 w
  | ⟨14, _⟩ => k0_pay20 w
  | ⟨15, _⟩ => k0_pay22 w (k0_pay21 w) (Scalar.ofBits .f32 0x3F800000#32)
  | ⟨16, _⟩ => k0_pay23 w
  | ⟨17, _⟩ => k0_pay24 w
  | ⟨18, _⟩ => k0_pay26 w (k0_pay25 w)
  | ⟨19, _⟩ => k0_pay27 w
  | ⟨20, _⟩ => k0_pay28 w
  | ⟨21, _⟩ => k0_pay29 w
  | ⟨22, _⟩ => k0_pay30 w
  | ⟨23, _⟩ => k0_pay32 w (k0_pay31 w)
  | ⟨24, _⟩ => k0_pay33 w
  | ⟨25, _⟩ => k0_pay1 w (k0_pay34 w) k0_pay35
  | ⟨_ + 26, h⟩ => absurd h (by omega)

/-- The whole rescaled table: row `r` lies in block `r / 128`, at row `r mod 128` of it. -/
def tableOf (W : Fin 26 → Vec F S128x128 .f32) : S3328x128.Idx → F .f32 := fun j =>
  blk (⟨(j 0).val / 128, by have h : (j 0).val < 3328 := (j 0).isLt; omega⟩ : Fin 26) (W ⟨(j 0).val / 128, by have h : (j 0).val < 3328 := (j 0).isLt; omega⟩)
    (ix2 (⟨(j 0).val % 128, Nat.mod_lt _ (by norm_num)⟩ : Fin 128) (j 1))

/-- The table at a row written as `128 f + r` is row `r` of block `f`. -/
theorem tableOf_apply (W : Fin 26 → Vec F S128x128 .f32) (j : S3328x128.Idx) (f : Fin 26) (r : Fin 128)
    (h : (j 0).val = 128 * f.val + r.val) : tableOf W j = blk f (W f) (ix2 r (j 1)) := by
  unfold tableOf
  have hf : (⟨(j 0).val / 128, by have h : (j 0).val < 3328 := (j 0).isLt; omega⟩ : Fin 26) = f := Fin.ext (by simp only; omega)
  have hr : (⟨(j 0).val % 128, Nat.mod_lt _ (by norm_num)⟩ : Fin 128) = r := Fin.ext (by simp only; omega)
  rw [hf, hr]

/-- The row numbers laid out flat, row-major: word `26 b + f` is `x[b, f]`. -/
def flatOf (x : S16384x26.Idx → BitVec 32) : S425984.Idx → BitVec 32 := shapeCast S425984 x shapeCasts_S16384x26_S425984

end Cert.Proof.KI

end
-- ==== Proof.BodyI.lean ====
/-
  The TensorCore kernel's body as one triple.

  The body reads each of the 26 staged tables whole and stores, for table `t`, one 128 x 128 block into rows
  `[128 t, 128 t + 128)` of the staged result: the block is `blk t` of the table (TableI).  The 26 blocks tile the
  result, so after the body the staged result is the pieces' canonical reading, and the staged tables are as they were.
-/
import proofs.«207321_g10943576670982_fold_wed_m_632_36_alg».proof.Proof.TableI
import Idealize.ShloMosaic.Lib.Pipeline.FrameBody
import Idealize.ShloMosaic.Lib.Ring

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {U : Type} [URA U]

local notation "𝕄" => MT nD τ sig (HIx 1) (Elt F) ℕ U ℕ

/-- A staged table whole, and block `t` of the staged result. -/
abbrev rIn : Rect S128x128 := Rect.unit (s := S128x128) ![0, 0] S128x128.size inb_S128x128_S128x128_0_0
def rOut : ℕ → Rect S3328x128
  | 0 => Rect.unit (s := S3328x128) ![0, 0] S128x128.size inb_S3328x128_S128x128_0_0
  | 1 => Rect.unit (s := S3328x128) ![128, 0] S128x128.size inb_S3328x128_S128x128_128_0
  | 2 => Rect.unit (s := S3328x128) ![256, 0] S128x128.size inb_S3328x128_S128x128_256_0
  | 3 => Rect.unit (s := S3328x128) ![384, 0] S128x128.size inb_S3328x128_S128x128_384_0
  | 4 => Rect.unit (s := S3328x128) ![512, 0] S128x128.size inb_S3328x128_S128x128_512_0
  | 5 => Rect.unit (s := S3328x128) ![640, 0] S128x128.size inb_S3328x128_S128x128_640_0
  | 6 => Rect.unit (s := S3328x128) ![768, 0] S128x128.size inb_S3328x128_S128x128_768_0
  | 7 => Rect.unit (s := S3328x128) ![896, 0] S128x128.size inb_S3328x128_S128x128_896_0
  | 8 => Rect.unit (s := S3328x128) ![1024, 0] S128x128.size inb_S3328x128_S128x128_1024_0
  | 9 => Rect.unit (s := S3328x128) ![1152, 0] S128x128.size inb_S3328x128_S128x128_1152_0
  | 10 => Rect.unit (s := S3328x128) ![1280, 0] S128x128.size inb_S3328x128_S128x128_1280_0
  | 11 => Rect.unit (s := S3328x128) ![1408, 0] S128x128.size inb_S3328x128_S128x128_1408_0
  | 12 => Rect.unit (s := S3328x128) ![1536, 0] S128x128.size inb_S3328x128_S128x128_1536_0
  | 13 => Rect.unit (s := S3328x128) ![1664, 0] S128x128.size inb_S3328x128_S128x128_1664_0
  | 14 => Rect.unit (s := S3328x128) ![1792, 0] S128x128.size inb_S3328x128_S128x128_1792_0
  | 15 => Rect.unit (s := S3328x128) ![1920, 0] S128x128.size inb_S3328x128_S128x128_1920_0
  | 16 => Rect.unit (s := S3328x128) ![2048, 0] S128x128.size inb_S3328x128_S128x128_2048_0
  | 17 => Rect.unit (s := S3328x128) ![2176, 0] S128x128.size inb_S3328x128_S128x128_2176_0
  | 18 => Rect.unit (s := S3328x128) ![2304, 0] S128x128.size inb_S3328x128_S128x128_2304_0
  | 19 => Rect.unit (s := S3328x128) ![2432, 0] S128x128.size inb_S3328x128_S128x128_2432_0
  | 20 => Rect.unit (s := S3328x128) ![2560, 0] S128x128.size inb_S3328x128_S128x128_2560_0
  | 21 => Rect.unit (s := S3328x128) ![2688, 0] S128x128.size inb_S3328x128_S128x128_2688_0
  | 22 => Rect.unit (s := S3328x128) ![2816, 0] S128x128.size inb_S3328x128_S128x128_2816_0
  | 23 => Rect.unit (s := S3328x128) ![2944, 0] S128x128.size inb_S3328x128_S128x128_2944_0
  | 24 => Rect.unit (s := S3328x128) ![3072, 0] S128x128.size inb_S3328x128_S128x128_3072_0
  | 25 => Rect.unit (s := S3328x128) ![3200, 0] S128x128.size inb_S3328x128_S128x128_3200_0
  | _ => Rect.unit (s := S3328x128) ![0, 0] S128x128.size inb_S3328x128_S128x128_0_0

/-- The staged result after the body, from the staged tables: its 26 stores as pieces, last first. -/
def outStage (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (x17 : Vec F S128x128 .f32) (x18 : Vec F S128x128 .f32) (x19 : Vec F S128x128 .f32) (x20 : Vec F S128x128 .f32) (x21 : Vec F S128x128 .f32) (x22 : Vec F S128x128 .f32) (x23 : Vec F S128x128 .f32) (x24 : Vec F S128x128 .f32) (x25 : Vec F S128x128 .f32) : Vec F S3328x128 .f32 :=
  View.canon [⟨rOut 25, blk ⟨25, by decide⟩ (View.ld x25 rIn)⟩,
    ⟨rOut 24, blk ⟨24, by decide⟩ (View.ld x24 rIn)⟩,
    ⟨rOut 23, blk ⟨23, by decide⟩ (View.ld x23 rIn)⟩,
    ⟨rOut 22, blk ⟨22, by decide⟩ (View.ld x22 rIn)⟩,
    ⟨rOut 21, blk ⟨21, by decide⟩ (View.ld x21 rIn)⟩,
    ⟨rOut 20, blk ⟨20, by decide⟩ (View.ld x20 rIn)⟩,
    ⟨rOut 19, blk ⟨19, by decide⟩ (View.ld x19 rIn)⟩,
    ⟨rOut 18, blk ⟨18, by decide⟩ (View.ld x18 rIn)⟩,
    ⟨rOut 17, blk ⟨17, by decide⟩ (View.ld x17 rIn)⟩,
    ⟨rOut 16, blk ⟨16, by decide⟩ (View.ld x16 rIn)⟩,
    ⟨rOut 15, blk ⟨15, by decide⟩ (View.ld x15 rIn)⟩,
    ⟨rOut 14, blk ⟨14, by decide⟩ (View.ld x14 rIn)⟩,
    ⟨rOut 13, blk ⟨13, by decide⟩ (View.ld x13 rIn)⟩,
    ⟨rOut 12, blk ⟨12, by decide⟩ (View.ld x12 rIn)⟩,
    ⟨rOut 11, blk ⟨11, by decide⟩ (View.ld x11 rIn)⟩,
    ⟨rOut 10, blk ⟨10, by decide⟩ (View.ld x10 rIn)⟩,
    ⟨rOut 9, blk ⟨9, by decide⟩ (View.ld x9 rIn)⟩,
    ⟨rOut 8, blk ⟨8, by decide⟩ (View.ld x8 rIn)⟩,
    ⟨rOut 7, blk ⟨7, by decide⟩ (View.ld x7 rIn)⟩,
    ⟨rOut 6, blk ⟨6, by decide⟩ (View.ld x6 rIn)⟩,
    ⟨rOut 5, blk ⟨5, by decide⟩ (View.ld x5 rIn)⟩,
    ⟨rOut 4, blk ⟨4, by decide⟩ (View.ld x4 rIn)⟩,
    ⟨rOut 3, blk ⟨3, by decide⟩ (View.ld x3 rIn)⟩,
    ⟨rOut 2, blk ⟨2, by decide⟩ (View.ld x2 rIn)⟩,
    ⟨rOut 1, blk ⟨1, by decide⟩ (View.ld x1 rIn)⟩,
    ⟨rOut 0, blk ⟨0, by decide⟩ (View.ld x0 rIn)⟩]

/-- The stores tile the staged result. -/
theorem cover_outStage (p0 : Vec F S128x128 .f32) (p1 : Vec F S128x128 .f32) (p2 : Vec F S128x128 .f32) (p3 : Vec F S128x128 .f32) (p4 : Vec F S128x128 .f32) (p5 : Vec F S128x128 .f32) (p6 : Vec F S128x128 .f32) (p7 : Vec F S128x128 .f32) (p8 : Vec F S128x128 .f32) (p9 : Vec F S128x128 .f32) (p10 : Vec F S128x128 .f32) (p11 : Vec F S128x128 .f32) (p12 : Vec F S128x128 .f32) (p13 : Vec F S128x128 .f32) (p14 : Vec F S128x128 .f32) (p15 : Vec F S128x128 .f32) (p16 : Vec F S128x128 .f32) (p17 : Vec F S128x128 .f32) (p18 : Vec F S128x128 .f32) (p19 : Vec F S128x128 .f32) (p20 : Vec F S128x128 .f32) (p21 : Vec F S128x128 .f32) (p22 : Vec F S128x128 .f32) (p23 : Vec F S128x128 .f32) (p24 : Vec F S128x128 .f32) (p25 : Vec F S128x128 .f32) (y : S3328x128.Idx) :
    ∃ pc ∈ ([⟨rOut 25, p25⟩, ⟨rOut 24, p24⟩, ⟨rOut 23, p23⟩, ⟨rOut 22, p22⟩, ⟨rOut 21, p21⟩, ⟨rOut 20, p20⟩, ⟨rOut 19, p19⟩, ⟨rOut 18, p18⟩, ⟨rOut 17, p17⟩, ⟨rOut 16, p16⟩, ⟨rOut 15, p15⟩, ⟨rOut 14, p14⟩, ⟨rOut 13, p13⟩, ⟨rOut 12, p12⟩, ⟨rOut 11, p11⟩, ⟨rOut 10, p10⟩, ⟨rOut 9, p9⟩, ⟨rOut 8, p8⟩, ⟨rOut 7, p7⟩, ⟨rOut 6, p6⟩, ⟨rOut 5, p5⟩, ⟨rOut 4, p4⟩, ⟨rOut 3, p3⟩, ⟨rOut 2, p2⟩, ⟨rOut 1, p1⟩, ⟨rOut 0, p0⟩] : List (View.Piece (Elt F) S3328x128 .f32)), y ∈ pc.1.set :=
  View.cover_of_tiled [⟨rOut 25, p25⟩, ⟨rOut 24, p24⟩, ⟨rOut 23, p23⟩, ⟨rOut 22, p22⟩, ⟨rOut 21, p21⟩, ⟨rOut 20, p20⟩, ⟨rOut 19, p19⟩, ⟨rOut 18, p18⟩, ⟨rOut 17, p17⟩, ⟨rOut 16, p16⟩, ⟨rOut 15, p15⟩, ⟨rOut 14, p14⟩, ⟨rOut 13, p13⟩, ⟨rOut 12, p12⟩, ⟨rOut 11, p11⟩, ⟨rOut 10, p10⟩, ⟨rOut 9, p9⟩, ⟨rOut 8, p8⟩, ⟨rOut 7, p7⟩, ⟨rOut 6, p6⟩, ⟨rOut 5, p5⟩, ⟨rOut 4, p4⟩, ⟨rOut 3, p3⟩, ⟨rOut 2, p2⟩, ⟨rOut 1, p1⟩, ⟨rOut 0, p0⟩] S128x128.size (by rfl) y

set_option maxHeartbeats 8000000 in
/-- The body on whole staging memrefs: the tables' at their contents, the result's at anything, to the tables' as they
    were and the result's at `outStage` of them. -/
theorem sound_kernel (d : Dev nD) (E : Set ℕ) (arg0 : Memref sig .tc .vmem S128x128 .f32) (harg0 : arg0.IsWhole) (arg1 : Memref sig .tc .vmem S128x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S3328x128 .f32) (harg26 : arg26.IsWhole)
    (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (x17 : Vec F S128x128 .f32) (x18 : Vec F S128x128 .f32) (x19 : Vec F S128x128 .f32) (x20 : Vec F S128x128 .f32) (x21 : Vec F S128x128 .f32) (x22 : Vec F S128x128 .f32) (x23 : Vec F S128x128 .f32) (x24 : Vec F S128x128 .f32) (x25 : Vec F S128x128 .f32) (Kc : PUnit → sProp 𝕄) :
    iprop(owns (SparseCore.T d) arg0 fullShare x0 ∗ owns (SparseCore.T d) arg1 fullShare x1 ∗ owns (SparseCore.T d) arg2 fullShare x2 ∗ owns (SparseCore.T d) arg3 fullShare x3 ∗ owns (SparseCore.T d) arg4 fullShare x4 ∗ owns (SparseCore.T d) arg5 fullShare x5 ∗ owns (SparseCore.T d) arg6 fullShare x6 ∗ owns (SparseCore.T d) arg7 fullShare x7 ∗ owns (SparseCore.T d) arg8 fullShare x8 ∗ owns (SparseCore.T d) arg9 fullShare x9 ∗ owns (SparseCore.T d) arg10 fullShare x10 ∗ owns (SparseCore.T d) arg11 fullShare x11 ∗ owns (SparseCore.T d) arg12 fullShare x12 ∗ owns (SparseCore.T d) arg13 fullShare x13 ∗ owns (SparseCore.T d) arg14 fullShare x14 ∗ owns (SparseCore.T d) arg15 fullShare x15 ∗ owns (SparseCore.T d) arg16 fullShare x16 ∗ owns (SparseCore.T d) arg17 fullShare x17 ∗ owns (SparseCore.T d) arg18 fullShare x18 ∗ owns (SparseCore.T d) arg19 fullShare x19 ∗ owns (SparseCore.T d) arg20 fullShare x20 ∗ owns (SparseCore.T d) arg21 fullShare x21 ∗ owns (SparseCore.T d) arg22 fullShare x22 ∗ owns (SparseCore.T d) arg23 fullShare x23 ∗ owns (SparseCore.T d) arg24 fullShare x24 ∗ owns (SparseCore.T d) arg25 fullShare x25 ∗ (∃ dd, owns (SparseCore.T d) arg26 fullShare dd)
        ∗ (iprop(owns (SparseCore.T d) arg0 fullShare x0 ∗ owns (SparseCore.T d) arg1 fullShare x1 ∗ owns (SparseCore.T d) arg2 fullShare x2 ∗ owns (SparseCore.T d) arg3 fullShare x3 ∗ owns (SparseCore.T d) arg4 fullShare x4 ∗ owns (SparseCore.T d) arg5 fullShare x5 ∗ owns (SparseCore.T d) arg6 fullShare x6 ∗ owns (SparseCore.T d) arg7 fullShare x7 ∗ owns (SparseCore.T d) arg8 fullShare x8 ∗ owns (SparseCore.T d) arg9 fullShare x9 ∗ owns (SparseCore.T d) arg10 fullShare x10 ∗ owns (SparseCore.T d) arg11 fullShare x11 ∗ owns (SparseCore.T d) arg12 fullShare x12 ∗ owns (SparseCore.T d) arg13 fullShare x13 ∗ owns (SparseCore.T d) arg14 fullShare x14 ∗ owns (SparseCore.T d) arg15 fullShare x15 ∗ owns (SparseCore.T d) arg16 fullShare x16 ∗ owns (SparseCore.T d) arg17 fullShare x17 ∗ owns (SparseCore.T d) arg18 fullShare x18 ∗ owns (SparseCore.T d) arg19 fullShare x19 ∗ owns (SparseCore.T d) arg20 fullShare x20 ∗ owns (SparseCore.T d) arg21 fullShare x21 ∗ owns (SparseCore.T d) arg22 fullShare x22 ∗ owns (SparseCore.T d) arg23 fullShare x23 ∗ owns (SparseCore.T d) arg24 fullShare x24 ∗ owns (SparseCore.T d) arg25 fullShare x25 ∗ owns (SparseCore.T d) arg26 fullShare (outStage x0 x1 x2 x3 x4 x5 x6 x7 x8 x9 x10 x11 x12 x13 x14 x15 x16 x17 x18 x19 x20 x21 x22 x23 x24 x25)) -∗ Kc ⟨⟩))
      ⊢ wp frame (wpE (defs₀ (F := F)) Variants.none (SparseCore.T d) none) E (cc0__scale_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) Kc := by
  simp only [cc0__scale_body_eq_skeleton]; unfold cc0__scale_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, Hk⟩
  subst hf0 hf1 hf2 hf3 hf4 hf5 hf6 hf7 hf8 hf9 hf10 hf11 hf12 hf13 hf14 hf15 hf16 hf17 hf18 hf19 hf20 hf21 hf22 hf23 hf24 hf25
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  iexists _; isplitr
  swap; · iexact H26
  ipureintro
  exact View.read_writes_eq_canon _ _ _ (cover_outStage _ _ _ _ _ _ _ _ _ _ _ _ _ _ _ _ _ _ _ _ _ _ _ _ _ _)

end Cert.Proof.KI

end
-- ==== Proof.StageI.lean ====
/-
  The staged result after the TensorCore body is the rescaled table.

  The body's 26 stores tile the staged result, and the block stored for table `t` is, at local row `r`, the table
  function's row `128 t + r`; so the stores' canonical reading is the one function `tableOf` of the 26 tables.
-/
import proofs.«207321_g10943576670982_fold_wed_m_632_36_alg».proof.Proof.BodyI
import Idealize.ShloMosaic.Lib.Pipeline.Value

set_option maxRecDepth 16384

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [∀ e, Nonempty (Elt F e)]

/-- The 26 tables as a family. -/
def tabs (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (x17 : Vec F S128x128 .f32) (x18 : Vec F S128x128 .f32) (x19 : Vec F S128x128 .f32) (x20 : Vec F S128x128 .f32) (x21 : Vec F S128x128 .f32) (x22 : Vec F S128x128 .f32) (x23 : Vec F S128x128 .f32) (x24 : Vec F S128x128 .f32) (x25 : Vec F S128x128 .f32) : Fin 26 → Vec F S128x128 .f32 := fun t =>
  match t with
  | ⟨0, _⟩ => x0
  | ⟨1, _⟩ => x1
  | ⟨2, _⟩ => x2
  | ⟨3, _⟩ => x3
  | ⟨4, _⟩ => x4
  | ⟨5, _⟩ => x5
  | ⟨6, _⟩ => x6
  | ⟨7, _⟩ => x7
  | ⟨8, _⟩ => x8
  | ⟨9, _⟩ => x9
  | ⟨10, _⟩ => x10
  | ⟨11, _⟩ => x11
  | ⟨12, _⟩ => x12
  | ⟨13, _⟩ => x13
  | ⟨14, _⟩ => x14
  | ⟨15, _⟩ => x15
  | ⟨16, _⟩ => x16
  | ⟨17, _⟩ => x17
  | ⟨18, _⟩ => x18
  | ⟨19, _⟩ => x19
  | ⟨20, _⟩ => x20
  | ⟨21, _⟩ => x21
  | ⟨22, _⟩ => x22
  | ⟨23, _⟩ => x23
  | ⟨24, _⟩ => x24
  | ⟨25, _⟩ => x25
  | ⟨_ + 26, h⟩ => absurd h (by omega)

theorem zero_off : (![0, 0] : Fin 2 → ℕ) = fun _ => 0 := by
  funext a; match a with | ⟨0, _⟩ => rfl | ⟨1, _⟩ => rfl

/-- A staged table read whole is the table. -/
theorem ld_rIn (x : Vec F S128x128 .f32) : View.ld x rIn = x := View.ld_unit_zero (S := S128x128) zero_off _ x

/-- The block of table `f`, placed at rows from `128 f`, is the table function there. -/
theorem piece_at (W : Fin 26 → Vec F S128x128 .f32) (f : Fin 26) (off0 : ℕ) (hoff : off0 = 128 * f.val)
    (inb : ∀ a, (![off0, 0] : Fin 2 → ℕ) a + S128x128.size a ≤ S3328x128.size a) (x : S128x128.Idx) :
    blk f (W f) x = tableOf W ((Rect.unit (s := S3328x128) ![off0, 0] S128x128.size inb).emb x) := by
  have h0 : (((Rect.unit (s := S3328x128) ![off0, 0] S128x128.size inb).emb x) 0).val = 128 * f.val + (x 0).val := by
    rw [Rect.emb_apply]; simp [hoff]
  have h1 : ((Rect.unit (s := S3328x128) ![off0, 0] S128x128.size inb).emb x) 1 = x 1 := by
    apply Fin.ext; rw [Rect.emb_apply]; simp
  rw [tableOf_apply W _ f (x 0) h0, h1]
  exact congrArg (blk f (W f)) (eq_ix2 x)

theorem outStage_eq_tableOf (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (x17 : Vec F S128x128 .f32) (x18 : Vec F S128x128 .f32) (x19 : Vec F S128x128 .f32) (x20 : Vec F S128x128 .f32) (x21 : Vec F S128x128 .f32) (x22 : Vec F S128x128 .f32) (x23 : Vec F S128x128 .f32) (x24 : Vec F S128x128 .f32) (x25 : Vec F S128x128 .f32) :
    outStage x0 x1 x2 x3 x4 x5 x6 x7 x8 x9 x10 x11 x12 x13 x14 x15 x16 x17 x18 x19 x20 x21 x22 x23 x24 x25 = tableOf (tabs x0 x1 x2 x3 x4 x5 x6 x7 x8 x9 x10 x11 x12 x13 x14 x15 x16 x17 x18 x19 x20 x21 x22 x23 x24 x25) := by
  funext y
  unfold outStage
  simp only [ld_rIn]
  refine View.canon_apply_of_pieces (tableOf (tabs x0 x1 x2 x3 x4 x5 x6 x7 x8 x9 x10 x11 x12 x13 x14 x15 x16 x17 x18 x19 x20 x21 x22 x23 x24 x25)) _ ?_ y (cover_outStage _ _ _ _ _ _ _ _ _ _ _ _ _ _ _ _ _ _ _ _ _ _ _ _ _ _ y)
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl
  · exact piece_at (tabs x0 x1 x2 x3 x4 x5 x6 x7 x8 x9 x10 x11 x12 x13 x14 x15 x16 x17 x18 x19 x20 x21 x22 x23 x24 x25) ⟨25, by decide⟩ 3200 rfl inb_S3328x128_S128x128_3200_0 x
  · exact piece_at (tabs x0 x1 x2 x3 x4 x5 x6 x7 x8 x9 x10 x11 x12 x13 x14 x15 x16 x17 x18 x19 x20 x21 x22 x23 x24 x25) ⟨24, by decide⟩ 3072 rfl inb_S3328x128_S128x128_3072_0 x
  · exact piece_at (tabs x0 x1 x2 x3 x4 x5 x6 x7 x8 x9 x10 x11 x12 x13 x14 x15 x16 x17 x18 x19 x20 x21 x22 x23 x24 x25) ⟨23, by decide⟩ 2944 rfl inb_S3328x128_S128x128_2944_0 x
  · exact piece_at (tabs x0 x1 x2 x3 x4 x5 x6 x7 x8 x9 x10 x11 x12 x13 x14 x15 x16 x17 x18 x19 x20 x21 x22 x23 x24 x25) ⟨22, by decide⟩ 2816 rfl inb_S3328x128_S128x128_2816_0 x
  · exact piece_at (tabs x0 x1 x2 x3 x4 x5 x6 x7 x8 x9 x10 x11 x12 x13 x14 x15 x16 x17 x18 x19 x20 x21 x22 x23 x24 x25) ⟨21, by decide⟩ 2688 rfl inb_S3328x128_S128x128_2688_0 x
  · exact piece_at (tabs x0 x1 x2 x3 x4 x5 x6 x7 x8 x9 x10 x11 x12 x13 x14 x15 x16 x17 x18 x19 x20 x21 x22 x23 x24 x25) ⟨20, by decide⟩ 2560 rfl inb_S3328x128_S128x128_2560_0 x
  · exact piece_at (tabs x0 x1 x2 x3 x4 x5 x6 x7 x8 x9 x10 x11 x12 x13 x14 x15 x16 x17 x18 x19 x20 x21 x22 x23 x24 x25) ⟨19, by decide⟩ 2432 rfl inb_S3328x128_S128x128_2432_0 x
  · exact piece_at (tabs x0 x1 x2 x3 x4 x5 x6 x7 x8 x9 x10 x11 x12 x13 x14 x15 x16 x17 x18 x19 x20 x21 x22 x23 x24 x25) ⟨18, by decide⟩ 2304 rfl inb_S3328x128_S128x128_2304_0 x
  · exact piece_at (tabs x0 x1 x2 x3 x4 x5 x6 x7 x8 x9 x10 x11 x12 x13 x14 x15 x16 x17 x18 x19 x20 x21 x22 x23 x24 x25) ⟨17, by decide⟩ 2176 rfl inb_S3328x128_S128x128_2176_0 x
  · exact piece_at (tabs x0 x1 x2 x3 x4 x5 x6 x7 x8 x9 x10 x11 x12 x13 x14 x15 x16 x17 x18 x19 x20 x21 x22 x23 x24 x25) ⟨16, by decide⟩ 2048 rfl inb_S3328x128_S128x128_2048_0 x
  · exact piece_at (tabs x0 x1 x2 x3 x4 x5 x6 x7 x8 x9 x10 x11 x12 x13 x14 x15 x16 x17 x18 x19 x20 x21 x22 x23 x24 x25) ⟨15, by decide⟩ 1920 rfl inb_S3328x128_S128x128_1920_0 x
  · exact piece_at (tabs x0 x1 x2 x3 x4 x5 x6 x7 x8 x9 x10 x11 x12 x13 x14 x15 x16 x17 x18 x19 x20 x21 x22 x23 x24 x25) ⟨14, by decide⟩ 1792 rfl inb_S3328x128_S128x128_1792_0 x
  · exact piece_at (tabs x0 x1 x2 x3 x4 x5 x6 x7 x8 x9 x10 x11 x12 x13 x14 x15 x16 x17 x18 x19 x20 x21 x22 x23 x24 x25) ⟨13, by decide⟩ 1664 rfl inb_S3328x128_S128x128_1664_0 x
  · exact piece_at (tabs x0 x1 x2 x3 x4 x5 x6 x7 x8 x9 x10 x11 x12 x13 x14 x15 x16 x17 x18 x19 x20 x21 x22 x23 x24 x25) ⟨12, by decide⟩ 1536 rfl inb_S3328x128_S128x128_1536_0 x
  · exact piece_at (tabs x0 x1 x2 x3 x4 x5 x6 x7 x8 x9 x10 x11 x12 x13 x14 x15 x16 x17 x18 x19 x20 x21 x22 x23 x24 x25) ⟨11, by decide⟩ 1408 rfl inb_S3328x128_S128x128_1408_0 x
  · exact piece_at (tabs x0 x1 x2 x3 x4 x5 x6 x7 x8 x9 x10 x11 x12 x13 x14 x15 x16 x17 x18 x19 x20 x21 x22 x23 x24 x25) ⟨10, by decide⟩ 1280 rfl inb_S3328x128_S128x128_1280_0 x
  · exact piece_at (tabs x0 x1 x2 x3 x4 x5 x6 x7 x8 x9 x10 x11 x12 x13 x14 x15 x16 x17 x18 x19 x20 x21 x22 x23 x24 x25) ⟨9, by decide⟩ 1152 rfl inb_S3328x128_S128x128_1152_0 x
  · exact piece_at (tabs x0 x1 x2 x3 x4 x5 x6 x7 x8 x9 x10 x11 x12 x13 x14 x15 x16 x17 x18 x19 x20 x21 x22 x23 x24 x25) ⟨8, by decide⟩ 1024 rfl inb_S3328x128_S128x128_1024_0 x
  · exact piece_at (tabs x0 x1 x2 x3 x4 x5 x6 x7 x8 x9 x10 x11 x12 x13 x14 x15 x16 x17 x18 x19 x20 x21 x22 x23 x24 x25) ⟨7, by decide⟩ 896 rfl inb_S3328x128_S128x128_896_0 x
  · exact piece_at (tabs x0 x1 x2 x3 x4 x5 x6 x7 x8 x9 x10 x11 x12 x13 x14 x15 x16 x17 x18 x19 x20 x21 x22 x23 x24 x25) ⟨6, by decide⟩ 768 rfl inb_S3328x128_S128x128_768_0 x
  · exact piece_at (tabs x0 x1 x2 x3 x4 x5 x6 x7 x8 x9 x10 x11 x12 x13 x14 x15 x16 x17 x18 x19 x20 x21 x22 x23 x24 x25) ⟨5, by decide⟩ 640 rfl inb_S3328x128_S128x128_640_0 x
  · exact piece_at (tabs x0 x1 x2 x3 x4 x5 x6 x7 x8 x9 x10 x11 x12 x13 x14 x15 x16 x17 x18 x19 x20 x21 x22 x23 x24 x25) ⟨4, by decide⟩ 512 rfl inb_S3328x128_S128x128_512_0 x
  · exact piece_at (tabs x0 x1 x2 x3 x4 x5 x6 x7 x8 x9 x10 x11 x12 x13 x14 x15 x16 x17 x18 x19 x20 x21 x22 x23 x24 x25) ⟨3, by decide⟩ 384 rfl inb_S3328x128_S128x128_384_0 x
  · exact piece_at (tabs x0 x1 x2 x3 x4 x5 x6 x7 x8 x9 x10 x11 x12 x13 x14 x15 x16 x17 x18 x19 x20 x21 x22 x23 x24 x25) ⟨2, by decide⟩ 256 rfl inb_S3328x128_S128x128_256_0 x
  · exact piece_at (tabs x0 x1 x2 x3 x4 x5 x6 x7 x8 x9 x10 x11 x12 x13 x14 x15 x16 x17 x18 x19 x20 x21 x22 x23 x24 x25) ⟨1, by decide⟩ 128 rfl inb_S3328x128_S128x128_128_0 x
  · exact piece_at (tabs x0 x1 x2 x3 x4 x5 x6 x7 x8 x9 x10 x11 x12 x13 x14 x15 x16 x17 x18 x19 x20 x21 x22 x23 x24 x25) ⟨0, by decide⟩ 0 rfl inb_S3328x128_S128x128_0_0 x

end Cert.Proof.KI

end
-- ==== Proof.MainIb.lean ====
/-
  The TensorCore region of @main: the 26 tables are rescaled into one table of 3328 rows.

  The region's kernel has no grid: every window is its whole array, fetched once (the 26 tables) or written back once
  (the result).  The body loads each table whole, and stores its rescaled block into rows [128 t, 128 t + 128) of the
  result's staging buffer; the 26 stores tile that buffer, so what is written back is the table `Tb`: block t is
  `blk t` of table t.  The TensorCore owes the SparseCores' start signals throughout: the region's own waits sit
  at the lowest level, below all of them.
-/
import proofs.«207321_g10943576670982_fold_wed_m_632_36_alg».proof.Proof.SetupI
import proofs.«207321_g10943576670982_fold_wed_m_632_36_alg».proof.Proof.MainIa
import proofs.«207321_g10943576670982_fold_wed_m_632_36_alg».proof.Proof.TableI
import proofs.«207321_g10943576670982_fold_wed_m_632_36_alg».proof.Proof.StageI
import Idealize.ShloMosaic.Lib.Pipeline.FrameBody
import Idealize.ShloMosaic.Lib.Ring

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

variable [FloatOps F]

local notation "𝕄" => MT nD τ sig (HIx 1) (Elt F) ℕ UU ℕ

variable (m : (ℓ : Loc nD τ sig) → Buf (Elt F) ℓ)

/-! ## What @main's arrays hold -/

/-- The TensorCore's buffers as launched. -/
abbrev V0 (d : Dev nD) (b : Ref sig .tc) : Buf (Elt F) ((d.tc : Thread nD τ).loc b) := m ((d.tc : Thread nD τ).loc b)

/-- The flat row numbers: what the reshape leaves. -/
def Xf (d : Dev nD) : Buf (Elt F) (xLoc d) := flatOf (m ((SparseCore.T d).loc main_arg0))

/-- The 26 tables of device `d`, by number. -/
def tabOf (d : Dev nD) (t : Fin 26) : Vec F S128x128 .f32 :=
  match t with
    | ⟨0, _⟩ => m ((SparseCore.T d).loc main_arg1)
    | ⟨1, _⟩ => m ((SparseCore.T d).loc main_arg2)
    | ⟨2, _⟩ => m ((SparseCore.T d).loc main_arg3)
    | ⟨3, _⟩ => m ((SparseCore.T d).loc main_arg4)
    | ⟨4, _⟩ => m ((SparseCore.T d).loc main_arg5)
    | ⟨5, _⟩ => m ((SparseCore.T d).loc main_arg6)
    | ⟨6, _⟩ => m ((SparseCore.T d).loc main_arg7)
    | ⟨7, _⟩ => m ((SparseCore.T d).loc main_arg8)
    | ⟨8, _⟩ => m ((SparseCore.T d).loc main_arg9)
    | ⟨9, _⟩ => m ((SparseCore.T d).loc main_arg10)
    | ⟨10, _⟩ => m ((SparseCore.T d).loc main_arg11)
    | ⟨11, _⟩ => m ((SparseCore.T d).loc main_arg12)
    | ⟨12, _⟩ => m ((SparseCore.T d).loc main_arg13)
    | ⟨13, _⟩ => m ((SparseCore.T d).loc main_arg14)
    | ⟨14, _⟩ => m ((SparseCore.T d).loc main_arg15)
    | ⟨15, _⟩ => m ((SparseCore.T d).loc main_arg16)
    | ⟨16, _⟩ => m ((SparseCore.T d).loc main_arg17)
    | ⟨17, _⟩ => m ((SparseCore.T d).loc main_arg18)
    | ⟨18, _⟩ => m ((SparseCore.T d).loc main_arg19)
    | ⟨19, _⟩ => m ((SparseCore.T d).loc main_arg20)
    | ⟨20, _⟩ => m ((SparseCore.T d).loc main_arg21)
    | ⟨21, _⟩ => m ((SparseCore.T d).loc main_arg22)
    | ⟨22, _⟩ => m ((SparseCore.T d).loc main_arg23)
    | ⟨23, _⟩ => m ((SparseCore.T d).loc main_arg24)
    | ⟨24, _⟩ => m ((SparseCore.T d).loc main_arg25)
    | ⟨25, _⟩ => m ((SparseCore.T d).loc main_arg26)
    | ⟨_ + 26, h⟩ => absurd h (by omega)

/-- The rescaled table: what the region leaves. -/
def Tb (d : Dev nD) : Buf (Elt F) (tLoc d) := tableOf (tabOf m d)

/-- The 26 tables as launched and the rescaled table's array at contents `f`. -/
def arrs (d : Dev nD) (f : Buf (Elt F) (tLoc d)) : sProp 𝕄 :=
  iprop(((SparseCore.T d).loc main_arg1 ↦{fullShare} m ((SparseCore.T d).loc main_arg1)) ∗ ((SparseCore.T d).loc main_arg2 ↦{fullShare} m ((SparseCore.T d).loc main_arg2)) ∗ ((SparseCore.T d).loc main_arg3 ↦{fullShare} m ((SparseCore.T d).loc main_arg3)) ∗ ((SparseCore.T d).loc main_arg4 ↦{fullShare} m ((SparseCore.T d).loc main_arg4)) ∗ ((SparseCore.T d).loc main_arg5 ↦{fullShare} m ((SparseCore.T d).loc main_arg5)) ∗ ((SparseCore.T d).loc main_arg6 ↦{fullShare} m ((SparseCore.T d).loc main_arg6)) ∗ ((SparseCore.T d).loc main_arg7 ↦{fullShare} m ((SparseCore.T d).loc main_arg7)) ∗ ((SparseCore.T d).loc main_arg8 ↦{fullShare} m ((SparseCore.T d).loc main_arg8)) ∗ ((SparseCore.T d).loc main_arg9 ↦{fullShare} m ((SparseCore.T d).loc main_arg9)) ∗ ((SparseCore.T d).loc main_arg10 ↦{fullShare} m ((SparseCore.T d).loc main_arg10)) ∗ ((SparseCore.T d).loc main_arg11 ↦{fullShare} m ((SparseCore.T d).loc main_arg11)) ∗ ((SparseCore.T d).loc main_arg12 ↦{fullShare} m ((SparseCore.T d).loc main_arg12)) ∗ ((SparseCore.T d).loc main_arg13 ↦{fullShare} m ((SparseCore.T d).loc main_arg13)) ∗ ((SparseCore.T d).loc main_arg14 ↦{fullShare} m ((SparseCore.T d).loc main_arg14)) ∗ ((SparseCore.T d).loc main_arg15 ↦{fullShare} m ((SparseCore.T d).loc main_arg15)) ∗ ((SparseCore.T d).loc main_arg16 ↦{fullShare} m ((SparseCore.T d).loc main_arg16)) ∗ ((SparseCore.T d).loc main_arg17 ↦{fullShare} m ((SparseCore.T d).loc main_arg17)) ∗ ((SparseCore.T d).loc main_arg18 ↦{fullShare} m ((SparseCore.T d).loc main_arg18)) ∗ ((SparseCore.T d).loc main_arg19 ↦{fullShare} m ((SparseCore.T d).loc main_arg19)) ∗ ((SparseCore.T d).loc main_arg20 ↦{fullShare} m ((SparseCore.T d).loc main_arg20)) ∗ ((SparseCore.T d).loc main_arg21 ↦{fullShare} m ((SparseCore.T d).loc main_arg21)) ∗ ((SparseCore.T d).loc main_arg22 ↦{fullShare} m ((SparseCore.T d).loc main_arg22)) ∗ ((SparseCore.T d).loc main_arg23 ↦{fullShare} m ((SparseCore.T d).loc main_arg23)) ∗ ((SparseCore.T d).loc main_arg24 ↦{fullShare} m ((SparseCore.T d).loc main_arg24)) ∗ ((SparseCore.T d).loc main_arg25 ↦{fullShare} m ((SparseCore.T d).loc main_arg25)) ∗ ((SparseCore.T d).loc main_arg26 ↦{fullShare} m ((SparseCore.T d).loc main_arg26)) ∗ (tLoc d ↦{fullShare} f))

variable [∀ e, Nonempty (Elt F e)]

variable (O : CellTallies nD τ sig (HIx 1))

/-! ## The windows' blocks -/

/-- Window `w`'s block at the region's one point, read off its array as the region finds it. -/
def iblk (d : Dev nD) (w : Fin cfg0.W) (t : Fin cfg0.N) : ((cfg0.win w).xblock (cfg0.grid.coords t)).Idx → Elt F (cfg0.win w).elt :=
  ((cfg0.win w).blk t).view.read (Elt F) (V0 m d (Pipeline.arrRef spec0 w))

theorem before_0_of {d : Dev nD} (dat : Pipeline.Dat τ (Elt F) (HIx 1) ℕ UU ℕ cfg0 d) (hA : dat.A 0 = V0 m d (Pipeline.arrRef spec0 0))
    (hafter : ∀ t, dat.after 0 t = iblk m d 0 t) (t : Fin cfg0.N) (dd) : dat.before 0 t dd = iblk m d 0 t :=
  (dat.before_in_eq_fetched 0 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_1_of {d : Dev nD} (dat : Pipeline.Dat τ (Elt F) (HIx 1) ℕ UU ℕ cfg0 d) (hA : dat.A 1 = V0 m d (Pipeline.arrRef spec0 1))
    (hafter : ∀ t, dat.after 1 t = iblk m d 1 t) (t : Fin cfg0.N) (dd) : dat.before 1 t dd = iblk m d 1 t :=
  (dat.before_in_eq_fetched 1 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_2_of {d : Dev nD} (dat : Pipeline.Dat τ (Elt F) (HIx 1) ℕ UU ℕ cfg0 d) (hA : dat.A 2 = V0 m d (Pipeline.arrRef spec0 2))
    (hafter : ∀ t, dat.after 2 t = iblk m d 2 t) (t : Fin cfg0.N) (dd) : dat.before 2 t dd = iblk m d 2 t :=
  (dat.before_in_eq_fetched 2 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_3_of {d : Dev nD} (dat : Pipeline.Dat τ (Elt F) (HIx 1) ℕ UU ℕ cfg0 d) (hA : dat.A 3 = V0 m d (Pipeline.arrRef spec0 3))
    (hafter : ∀ t, dat.after 3 t = iblk m d 3 t) (t : Fin cfg0.N) (dd) : dat.before 3 t dd = iblk m d 3 t :=
  (dat.before_in_eq_fetched 3 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_4_of {d : Dev nD} (dat : Pipeline.Dat τ (Elt F) (HIx 1) ℕ UU ℕ cfg0 d) (hA : dat.A 4 = V0 m d (Pipeline.arrRef spec0 4))
    (hafter : ∀ t, dat.after 4 t = iblk m d 4 t) (t : Fin cfg0.N) (dd) : dat.before 4 t dd = iblk m d 4 t :=
  (dat.before_in_eq_fetched 4 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_5_of {d : Dev nD} (dat : Pipeline.Dat τ (Elt F) (HIx 1) ℕ UU ℕ cfg0 d) (hA : dat.A 5 = V0 m d (Pipeline.arrRef spec0 5))
    (hafter : ∀ t, dat.after 5 t = iblk m d 5 t) (t : Fin cfg0.N) (dd) : dat.before 5 t dd = iblk m d 5 t :=
  (dat.before_in_eq_fetched 5 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_6_of {d : Dev nD} (dat : Pipeline.Dat τ (Elt F) (HIx 1) ℕ UU ℕ cfg0 d) (hA : dat.A 6 = V0 m d (Pipeline.arrRef spec0 6))
    (hafter : ∀ t, dat.after 6 t = iblk m d 6 t) (t : Fin cfg0.N) (dd) : dat.before 6 t dd = iblk m d 6 t :=
  (dat.before_in_eq_fetched 6 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_7_of {d : Dev nD} (dat : Pipeline.Dat τ (Elt F) (HIx 1) ℕ UU ℕ cfg0 d) (hA : dat.A 7 = V0 m d (Pipeline.arrRef spec0 7))
    (hafter : ∀ t, dat.after 7 t = iblk m d 7 t) (t : Fin cfg0.N) (dd) : dat.before 7 t dd = iblk m d 7 t :=
  (dat.before_in_eq_fetched 7 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_8_of {d : Dev nD} (dat : Pipeline.Dat τ (Elt F) (HIx 1) ℕ UU ℕ cfg0 d) (hA : dat.A 8 = V0 m d (Pipeline.arrRef spec0 8))
    (hafter : ∀ t, dat.after 8 t = iblk m d 8 t) (t : Fin cfg0.N) (dd) : dat.before 8 t dd = iblk m d 8 t :=
  (dat.before_in_eq_fetched 8 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_9_of {d : Dev nD} (dat : Pipeline.Dat τ (Elt F) (HIx 1) ℕ UU ℕ cfg0 d) (hA : dat.A 9 = V0 m d (Pipeline.arrRef spec0 9))
    (hafter : ∀ t, dat.after 9 t = iblk m d 9 t) (t : Fin cfg0.N) (dd) : dat.before 9 t dd = iblk m d 9 t :=
  (dat.before_in_eq_fetched 9 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_10_of {d : Dev nD} (dat : Pipeline.Dat τ (Elt F) (HIx 1) ℕ UU ℕ cfg0 d) (hA : dat.A 10 = V0 m d (Pipeline.arrRef spec0 10))
    (hafter : ∀ t, dat.after 10 t = iblk m d 10 t) (t : Fin cfg0.N) (dd) : dat.before 10 t dd = iblk m d 10 t :=
  (dat.before_in_eq_fetched 10 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_11_of {d : Dev nD} (dat : Pipeline.Dat τ (Elt F) (HIx 1) ℕ UU ℕ cfg0 d) (hA : dat.A 11 = V0 m d (Pipeline.arrRef spec0 11))
    (hafter : ∀ t, dat.after 11 t = iblk m d 11 t) (t : Fin cfg0.N) (dd) : dat.before 11 t dd = iblk m d 11 t :=
  (dat.before_in_eq_fetched 11 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_12_of {d : Dev nD} (dat : Pipeline.Dat τ (Elt F) (HIx 1) ℕ UU ℕ cfg0 d) (hA : dat.A 12 = V0 m d (Pipeline.arrRef spec0 12))
    (hafter : ∀ t, dat.after 12 t = iblk m d 12 t) (t : Fin cfg0.N) (dd) : dat.before 12 t dd = iblk m d 12 t :=
  (dat.before_in_eq_fetched 12 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_13_of {d : Dev nD} (dat : Pipeline.Dat τ (Elt F) (HIx 1) ℕ UU ℕ cfg0 d) (hA : dat.A 13 = V0 m d (Pipeline.arrRef spec0 13))
    (hafter : ∀ t, dat.after 13 t = iblk m d 13 t) (t : Fin cfg0.N) (dd) : dat.before 13 t dd = iblk m d 13 t :=
  (dat.before_in_eq_fetched 13 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_14_of {d : Dev nD} (dat : Pipeline.Dat τ (Elt F) (HIx 1) ℕ UU ℕ cfg0 d) (hA : dat.A 14 = V0 m d (Pipeline.arrRef spec0 14))
    (hafter : ∀ t, dat.after 14 t = iblk m d 14 t) (t : Fin cfg0.N) (dd) : dat.before 14 t dd = iblk m d 14 t :=
  (dat.before_in_eq_fetched 14 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_15_of {d : Dev nD} (dat : Pipeline.Dat τ (Elt F) (HIx 1) ℕ UU ℕ cfg0 d) (hA : dat.A 15 = V0 m d (Pipeline.arrRef spec0 15))
    (hafter : ∀ t, dat.after 15 t = iblk m d 15 t) (t : Fin cfg0.N) (dd) : dat.before 15 t dd = iblk m d 15 t :=
  (dat.before_in_eq_fetched 15 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_16_of {d : Dev nD} (dat : Pipeline.Dat τ (Elt F) (HIx 1) ℕ UU ℕ cfg0 d) (hA : dat.A 16 = V0 m d (Pipeline.arrRef spec0 16))
    (hafter : ∀ t, dat.after 16 t = iblk m d 16 t) (t : Fin cfg0.N) (dd) : dat.before 16 t dd = iblk m d 16 t :=
  (dat.before_in_eq_fetched 16 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_17_of {d : Dev nD} (dat : Pipeline.Dat τ (Elt F) (HIx 1) ℕ UU ℕ cfg0 d) (hA : dat.A 17 = V0 m d (Pipeline.arrRef spec0 17))
    (hafter : ∀ t, dat.after 17 t = iblk m d 17 t) (t : Fin cfg0.N) (dd) : dat.before 17 t dd = iblk m d 17 t :=
  (dat.before_in_eq_fetched 17 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_18_of {d : Dev nD} (dat : Pipeline.Dat τ (Elt F) (HIx 1) ℕ UU ℕ cfg0 d) (hA : dat.A 18 = V0 m d (Pipeline.arrRef spec0 18))
    (hafter : ∀ t, dat.after 18 t = iblk m d 18 t) (t : Fin cfg0.N) (dd) : dat.before 18 t dd = iblk m d 18 t :=
  (dat.before_in_eq_fetched 18 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_19_of {d : Dev nD} (dat : Pipeline.Dat τ (Elt F) (HIx 1) ℕ UU ℕ cfg0 d) (hA : dat.A 19 = V0 m d (Pipeline.arrRef spec0 19))
    (hafter : ∀ t, dat.after 19 t = iblk m d 19 t) (t : Fin cfg0.N) (dd) : dat.before 19 t dd = iblk m d 19 t :=
  (dat.before_in_eq_fetched 19 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_20_of {d : Dev nD} (dat : Pipeline.Dat τ (Elt F) (HIx 1) ℕ UU ℕ cfg0 d) (hA : dat.A 20 = V0 m d (Pipeline.arrRef spec0 20))
    (hafter : ∀ t, dat.after 20 t = iblk m d 20 t) (t : Fin cfg0.N) (dd) : dat.before 20 t dd = iblk m d 20 t :=
  (dat.before_in_eq_fetched 20 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_21_of {d : Dev nD} (dat : Pipeline.Dat τ (Elt F) (HIx 1) ℕ UU ℕ cfg0 d) (hA : dat.A 21 = V0 m d (Pipeline.arrRef spec0 21))
    (hafter : ∀ t, dat.after 21 t = iblk m d 21 t) (t : Fin cfg0.N) (dd) : dat.before 21 t dd = iblk m d 21 t :=
  (dat.before_in_eq_fetched 21 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_22_of {d : Dev nD} (dat : Pipeline.Dat τ (Elt F) (HIx 1) ℕ UU ℕ cfg0 d) (hA : dat.A 22 = V0 m d (Pipeline.arrRef spec0 22))
    (hafter : ∀ t, dat.after 22 t = iblk m d 22 t) (t : Fin cfg0.N) (dd) : dat.before 22 t dd = iblk m d 22 t :=
  (dat.before_in_eq_fetched 22 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_23_of {d : Dev nD} (dat : Pipeline.Dat τ (Elt F) (HIx 1) ℕ UU ℕ cfg0 d) (hA : dat.A 23 = V0 m d (Pipeline.arrRef spec0 23))
    (hafter : ∀ t, dat.after 23 t = iblk m d 23 t) (t : Fin cfg0.N) (dd) : dat.before 23 t dd = iblk m d 23 t :=
  (dat.before_in_eq_fetched 23 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_24_of {d : Dev nD} (dat : Pipeline.Dat τ (Elt F) (HIx 1) ℕ UU ℕ cfg0 d) (hA : dat.A 24 = V0 m d (Pipeline.arrRef spec0 24))
    (hafter : ∀ t, dat.after 24 t = iblk m d 24 t) (t : Fin cfg0.N) (dd) : dat.before 24 t dd = iblk m d 24 t :=
  (dat.before_in_eq_fetched 24 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_25_of {d : Dev nD} (dat : Pipeline.Dat τ (Elt F) (HIx 1) ℕ UU ℕ cfg0 d) (hA : dat.A 25 = V0 m d (Pipeline.arrRef spec0 25))
    (hafter : ∀ t, dat.after 25 t = iblk m d 25 t) (t : Fin cfg0.N) (dd) : dat.before 25 t dd = iblk m d 25 t :=
  (dat.before_in_eq_fetched 25 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)

/-! ## The region's proof data -/

/-- The arrays as the region finds them; after the body each table's buffer holds the table and the result's buffer the 26
    rescaled blocks; the invariant is the scoped buffers no window stages; the TensorCore owes `O` throughout, and every
    pair its waits have recorded sits at the lowest level. -/
def dats (_ : Fin 1) (d : Dev nD) : Pipeline.Dat τ (Elt F) (HIx 1) ℕ UU ℕ cfg0 d where
  A w := V0 m d (Pipeline.arrRef spec0 w)
  after w t := match w with
    | ⟨0, _⟩ => iblk m d 0 t
    | ⟨1, _⟩ => iblk m d 1 t
    | ⟨2, _⟩ => iblk m d 2 t
    | ⟨3, _⟩ => iblk m d 3 t
    | ⟨4, _⟩ => iblk m d 4 t
    | ⟨5, _⟩ => iblk m d 5 t
    | ⟨6, _⟩ => iblk m d 6 t
    | ⟨7, _⟩ => iblk m d 7 t
    | ⟨8, _⟩ => iblk m d 8 t
    | ⟨9, _⟩ => iblk m d 9 t
    | ⟨10, _⟩ => iblk m d 10 t
    | ⟨11, _⟩ => iblk m d 11 t
    | ⟨12, _⟩ => iblk m d 12 t
    | ⟨13, _⟩ => iblk m d 13 t
    | ⟨14, _⟩ => iblk m d 14 t
    | ⟨15, _⟩ => iblk m d 15 t
    | ⟨16, _⟩ => iblk m d 16 t
    | ⟨17, _⟩ => iblk m d 17 t
    | ⟨18, _⟩ => iblk m d 18 t
    | ⟨19, _⟩ => iblk m d 19 t
    | ⟨20, _⟩ => iblk m d 20 t
    | ⟨21, _⟩ => iblk m d 21 t
    | ⟨22, _⟩ => iblk m d 22 t
    | ⟨23, _⟩ => iblk m d 23 t
    | ⟨24, _⟩ => iblk m d 24 t
    | ⟨25, _⟩ => iblk m d 25 t
    | ⟨26, _⟩ => outStage (iblk m d 0 t) (iblk m d 1 t) (iblk m d 2 t) (iblk m d 3 t) (iblk m d 4 t) (iblk m d 5 t) (iblk m d 6 t) (iblk m d 7 t) (iblk m d 8 t) (iblk m d 9 t) (iblk m d 10 t) (iblk m d 11 t) (iblk m d 12 t) (iblk m d 13 t) (iblk m d 14 t) (iblk m d 15 t) (iblk m d 16 t) (iblk m d 17 t) (iblk m d 18 t) (iblk m d 19 t) (iblk m d 20 t) (iblk m d 21 t) (iblk m d 22 t) (iblk m d 23 t) (iblk m d 24 t) (iblk m d 25 t)
    | ⟨_ + 27, h⟩ => absurd h (Nat.not_lt.2 (Nat.le_add_left _ _))
  Φ _ := Pipeline.scopedRest (pinned (F := F) 0).spec d
  q _ := fullShare
  owed _ := O
  recorded _ := {p | (K (F := F)).lev (SparseCore.T d, p.1) p.2 ≤ 0}

theorem A_eq (d : Dev nD) (w : Fin cfg0.W) : (dats m O 0 d).A w = V0 m d (Pipeline.arrRef spec0 w) := by
  dsimp only [dats]

theorem after_0 (d : Dev nD) (t : Fin cfg0.N) : (dats m O 0 d).after 0 t = iblk m d 0 t := by dsimp only [dats]
theorem after_1 (d : Dev nD) (t : Fin cfg0.N) : (dats m O 0 d).after 1 t = iblk m d 1 t := by dsimp only [dats]
theorem after_2 (d : Dev nD) (t : Fin cfg0.N) : (dats m O 0 d).after 2 t = iblk m d 2 t := by dsimp only [dats]
theorem after_3 (d : Dev nD) (t : Fin cfg0.N) : (dats m O 0 d).after 3 t = iblk m d 3 t := by dsimp only [dats]
theorem after_4 (d : Dev nD) (t : Fin cfg0.N) : (dats m O 0 d).after 4 t = iblk m d 4 t := by dsimp only [dats]
theorem after_5 (d : Dev nD) (t : Fin cfg0.N) : (dats m O 0 d).after 5 t = iblk m d 5 t := by dsimp only [dats]
theorem after_6 (d : Dev nD) (t : Fin cfg0.N) : (dats m O 0 d).after 6 t = iblk m d 6 t := by dsimp only [dats]
theorem after_7 (d : Dev nD) (t : Fin cfg0.N) : (dats m O 0 d).after 7 t = iblk m d 7 t := by dsimp only [dats]
theorem after_8 (d : Dev nD) (t : Fin cfg0.N) : (dats m O 0 d).after 8 t = iblk m d 8 t := by dsimp only [dats]
theorem after_9 (d : Dev nD) (t : Fin cfg0.N) : (dats m O 0 d).after 9 t = iblk m d 9 t := by dsimp only [dats]
theorem after_10 (d : Dev nD) (t : Fin cfg0.N) : (dats m O 0 d).after 10 t = iblk m d 10 t := by dsimp only [dats]
theorem after_11 (d : Dev nD) (t : Fin cfg0.N) : (dats m O 0 d).after 11 t = iblk m d 11 t := by dsimp only [dats]
theorem after_12 (d : Dev nD) (t : Fin cfg0.N) : (dats m O 0 d).after 12 t = iblk m d 12 t := by dsimp only [dats]
theorem after_13 (d : Dev nD) (t : Fin cfg0.N) : (dats m O 0 d).after 13 t = iblk m d 13 t := by dsimp only [dats]
theorem after_14 (d : Dev nD) (t : Fin cfg0.N) : (dats m O 0 d).after 14 t = iblk m d 14 t := by dsimp only [dats]
theorem after_15 (d : Dev nD) (t : Fin cfg0.N) : (dats m O 0 d).after 15 t = iblk m d 15 t := by dsimp only [dats]
theorem after_16 (d : Dev nD) (t : Fin cfg0.N) : (dats m O 0 d).after 16 t = iblk m d 16 t := by dsimp only [dats]
theorem after_17 (d : Dev nD) (t : Fin cfg0.N) : (dats m O 0 d).after 17 t = iblk m d 17 t := by dsimp only [dats]
theorem after_18 (d : Dev nD) (t : Fin cfg0.N) : (dats m O 0 d).after 18 t = iblk m d 18 t := by dsimp only [dats]
theorem after_19 (d : Dev nD) (t : Fin cfg0.N) : (dats m O 0 d).after 19 t = iblk m d 19 t := by dsimp only [dats]
theorem after_20 (d : Dev nD) (t : Fin cfg0.N) : (dats m O 0 d).after 20 t = iblk m d 20 t := by dsimp only [dats]
theorem after_21 (d : Dev nD) (t : Fin cfg0.N) : (dats m O 0 d).after 21 t = iblk m d 21 t := by dsimp only [dats]
theorem after_22 (d : Dev nD) (t : Fin cfg0.N) : (dats m O 0 d).after 22 t = iblk m d 22 t := by dsimp only [dats]
theorem after_23 (d : Dev nD) (t : Fin cfg0.N) : (dats m O 0 d).after 23 t = iblk m d 23 t := by dsimp only [dats]
theorem after_24 (d : Dev nD) (t : Fin cfg0.N) : (dats m O 0 d).after 24 t = iblk m d 24 t := by dsimp only [dats]
theorem after_25 (d : Dev nD) (t : Fin cfg0.N) : (dats m O 0 d).after 25 t = iblk m d 25 t := by dsimp only [dats]
theorem after_26 (d : Dev nD) (t : Fin cfg0.N) : (dats m O 0 d).after 26 t = outStage (iblk m d 0 t) (iblk m d 1 t) (iblk m d 2 t) (iblk m d 3 t) (iblk m d 4 t) (iblk m d 5 t) (iblk m d 6 t) (iblk m d 7 t) (iblk m d 8 t) (iblk m d 9 t) (iblk m d 10 t) (iblk m d 11 t) (iblk m d 12 t) (iblk m d 13 t) (iblk m d 14 t) (iblk m d 15 t) (iblk m d 16 t) (iblk m d 17 t) (iblk m d 18 t) (iblk m d 19 t) (iblk m d 20 t) (iblk m d 21 t) (iblk m d 22 t) (iblk m d 23 t) (iblk m d 24 t) (iblk m d 25 t) := by dsimp only [dats]

theorem before_0 (d : Dev nD) (t : Fin cfg0.N) (dd) : (dats m O 0 d).before 0 t dd = iblk m d 0 t :=
  before_0_of m (dats m O 0 d) (A_eq m O d 0) (after_0 m O d) t dd
theorem before_1 (d : Dev nD) (t : Fin cfg0.N) (dd) : (dats m O 0 d).before 1 t dd = iblk m d 1 t :=
  before_1_of m (dats m O 0 d) (A_eq m O d 1) (after_1 m O d) t dd
theorem before_2 (d : Dev nD) (t : Fin cfg0.N) (dd) : (dats m O 0 d).before 2 t dd = iblk m d 2 t :=
  before_2_of m (dats m O 0 d) (A_eq m O d 2) (after_2 m O d) t dd
theorem before_3 (d : Dev nD) (t : Fin cfg0.N) (dd) : (dats m O 0 d).before 3 t dd = iblk m d 3 t :=
  before_3_of m (dats m O 0 d) (A_eq m O d 3) (after_3 m O d) t dd
theorem before_4 (d : Dev nD) (t : Fin cfg0.N) (dd) : (dats m O 0 d).before 4 t dd = iblk m d 4 t :=
  before_4_of m (dats m O 0 d) (A_eq m O d 4) (after_4 m O d) t dd
theorem before_5 (d : Dev nD) (t : Fin cfg0.N) (dd) : (dats m O 0 d).before 5 t dd = iblk m d 5 t :=
  before_5_of m (dats m O 0 d) (A_eq m O d 5) (after_5 m O d) t dd
theorem before_6 (d : Dev nD) (t : Fin cfg0.N) (dd) : (dats m O 0 d).before 6 t dd = iblk m d 6 t :=
  before_6_of m (dats m O 0 d) (A_eq m O d 6) (after_6 m O d) t dd
theorem before_7 (d : Dev nD) (t : Fin cfg0.N) (dd) : (dats m O 0 d).before 7 t dd = iblk m d 7 t :=
  before_7_of m (dats m O 0 d) (A_eq m O d 7) (after_7 m O d) t dd
theorem before_8 (d : Dev nD) (t : Fin cfg0.N) (dd) : (dats m O 0 d).before 8 t dd = iblk m d 8 t :=
  before_8_of m (dats m O 0 d) (A_eq m O d 8) (after_8 m O d) t dd
theorem before_9 (d : Dev nD) (t : Fin cfg0.N) (dd) : (dats m O 0 d).before 9 t dd = iblk m d 9 t :=
  before_9_of m (dats m O 0 d) (A_eq m O d 9) (after_9 m O d) t dd
theorem before_10 (d : Dev nD) (t : Fin cfg0.N) (dd) : (dats m O 0 d).before 10 t dd = iblk m d 10 t :=
  before_10_of m (dats m O 0 d) (A_eq m O d 10) (after_10 m O d) t dd
theorem before_11 (d : Dev nD) (t : Fin cfg0.N) (dd) : (dats m O 0 d).before 11 t dd = iblk m d 11 t :=
  before_11_of m (dats m O 0 d) (A_eq m O d 11) (after_11 m O d) t dd
theorem before_12 (d : Dev nD) (t : Fin cfg0.N) (dd) : (dats m O 0 d).before 12 t dd = iblk m d 12 t :=
  before_12_of m (dats m O 0 d) (A_eq m O d 12) (after_12 m O d) t dd
theorem before_13 (d : Dev nD) (t : Fin cfg0.N) (dd) : (dats m O 0 d).before 13 t dd = iblk m d 13 t :=
  before_13_of m (dats m O 0 d) (A_eq m O d 13) (after_13 m O d) t dd
theorem before_14 (d : Dev nD) (t : Fin cfg0.N) (dd) : (dats m O 0 d).before 14 t dd = iblk m d 14 t :=
  before_14_of m (dats m O 0 d) (A_eq m O d 14) (after_14 m O d) t dd
theorem before_15 (d : Dev nD) (t : Fin cfg0.N) (dd) : (dats m O 0 d).before 15 t dd = iblk m d 15 t :=
  before_15_of m (dats m O 0 d) (A_eq m O d 15) (after_15 m O d) t dd
theorem before_16 (d : Dev nD) (t : Fin cfg0.N) (dd) : (dats m O 0 d).before 16 t dd = iblk m d 16 t :=
  before_16_of m (dats m O 0 d) (A_eq m O d 16) (after_16 m O d) t dd
theorem before_17 (d : Dev nD) (t : Fin cfg0.N) (dd) : (dats m O 0 d).before 17 t dd = iblk m d 17 t :=
  before_17_of m (dats m O 0 d) (A_eq m O d 17) (after_17 m O d) t dd
theorem before_18 (d : Dev nD) (t : Fin cfg0.N) (dd) : (dats m O 0 d).before 18 t dd = iblk m d 18 t :=
  before_18_of m (dats m O 0 d) (A_eq m O d 18) (after_18 m O d) t dd
theorem before_19 (d : Dev nD) (t : Fin cfg0.N) (dd) : (dats m O 0 d).before 19 t dd = iblk m d 19 t :=
  before_19_of m (dats m O 0 d) (A_eq m O d 19) (after_19 m O d) t dd
theorem before_20 (d : Dev nD) (t : Fin cfg0.N) (dd) : (dats m O 0 d).before 20 t dd = iblk m d 20 t :=
  before_20_of m (dats m O 0 d) (A_eq m O d 20) (after_20 m O d) t dd
theorem before_21 (d : Dev nD) (t : Fin cfg0.N) (dd) : (dats m O 0 d).before 21 t dd = iblk m d 21 t :=
  before_21_of m (dats m O 0 d) (A_eq m O d 21) (after_21 m O d) t dd
theorem before_22 (d : Dev nD) (t : Fin cfg0.N) (dd) : (dats m O 0 d).before 22 t dd = iblk m d 22 t :=
  before_22_of m (dats m O 0 d) (A_eq m O d 22) (after_22 m O d) t dd
theorem before_23 (d : Dev nD) (t : Fin cfg0.N) (dd) : (dats m O 0 d).before 23 t dd = iblk m d 23 t :=
  before_23_of m (dats m O 0 d) (A_eq m O d 23) (after_23 m O d) t dd
theorem before_24 (d : Dev nD) (t : Fin cfg0.N) (dd) : (dats m O 0 d).before 24 t dd = iblk m d 24 t :=
  before_24_of m (dats m O 0 d) (A_eq m O d 24) (after_24 m O d) t dd
theorem before_25 (d : Dev nD) (t : Fin cfg0.N) (dd) : (dats m O 0 d).before 25 t dd = iblk m d 25 t :=
  before_25_of m (dats m O 0 d) (A_eq m O d 25) (after_25 m O d) t dd

/-! ## The body obligation -/

def bodyPre (d : Dev nD) (t : Fin cfg0.N) : sProp 𝕄 :=
  iprop((dats m O 0 d).Φ t.castSucc ∗ (dats m O 0 d).owesAt none t.castSucc
    ∗ (∃ dd, owns (SparseCore.T d) (st0_0 t) fullShare ((dats m O 0 d).before 0 t dd))
    ∗ (∃ dd, owns (SparseCore.T d) (st0_1 t) fullShare ((dats m O 0 d).before 1 t dd))
    ∗ (∃ dd, owns (SparseCore.T d) (st0_2 t) fullShare ((dats m O 0 d).before 2 t dd))
    ∗ (∃ dd, owns (SparseCore.T d) (st0_3 t) fullShare ((dats m O 0 d).before 3 t dd))
    ∗ (∃ dd, owns (SparseCore.T d) (st0_4 t) fullShare ((dats m O 0 d).before 4 t dd))
    ∗ (∃ dd, owns (SparseCore.T d) (st0_5 t) fullShare ((dats m O 0 d).before 5 t dd))
    ∗ (∃ dd, owns (SparseCore.T d) (st0_6 t) fullShare ((dats m O 0 d).before 6 t dd))
    ∗ (∃ dd, owns (SparseCore.T d) (st0_7 t) fullShare ((dats m O 0 d).before 7 t dd))
    ∗ (∃ dd, owns (SparseCore.T d) (st0_8 t) fullShare ((dats m O 0 d).before 8 t dd))
    ∗ (∃ dd, owns (SparseCore.T d) (st0_9 t) fullShare ((dats m O 0 d).before 9 t dd))
    ∗ (∃ dd, owns (SparseCore.T d) (st0_10 t) fullShare ((dats m O 0 d).before 10 t dd))
    ∗ (∃ dd, owns (SparseCore.T d) (st0_11 t) fullShare ((dats m O 0 d).before 11 t dd))
    ∗ (∃ dd, owns (SparseCore.T d) (st0_12 t) fullShare ((dats m O 0 d).before 12 t dd))
    ∗ (∃ dd, owns (SparseCore.T d) (st0_13 t) fullShare ((dats m O 0 d).before 13 t dd))
    ∗ (∃ dd, owns (SparseCore.T d) (st0_14 t) fullShare ((dats m O 0 d).before 14 t dd))
    ∗ (∃ dd, owns (SparseCore.T d) (st0_15 t) fullShare ((dats m O 0 d).before 15 t dd))
    ∗ (∃ dd, owns (SparseCore.T d) (st0_16 t) fullShare ((dats m O 0 d).before 16 t dd))
    ∗ (∃ dd, owns (SparseCore.T d) (st0_17 t) fullShare ((dats m O 0 d).before 17 t dd))
    ∗ (∃ dd, owns (SparseCore.T d) (st0_18 t) fullShare ((dats m O 0 d).before 18 t dd))
    ∗ (∃ dd, owns (SparseCore.T d) (st0_19 t) fullShare ((dats m O 0 d).before 19 t dd))
    ∗ (∃ dd, owns (SparseCore.T d) (st0_20 t) fullShare ((dats m O 0 d).before 20 t dd))
    ∗ (∃ dd, owns (SparseCore.T d) (st0_21 t) fullShare ((dats m O 0 d).before 21 t dd))
    ∗ (∃ dd, owns (SparseCore.T d) (st0_22 t) fullShare ((dats m O 0 d).before 22 t dd))
    ∗ (∃ dd, owns (SparseCore.T d) (st0_23 t) fullShare ((dats m O 0 d).before 23 t dd))
    ∗ (∃ dd, owns (SparseCore.T d) (st0_24 t) fullShare ((dats m O 0 d).before 24 t dd))
    ∗ (∃ dd, owns (SparseCore.T d) (st0_25 t) fullShare ((dats m O 0 d).before 25 t dd))
    ∗ (∃ dd, owns (SparseCore.T d) (st0_26 t) fullShare ((dats m O 0 d).before 26 t dd)))

def bodyPost (d : Dev nD) (t : Fin cfg0.N) : sProp 𝕄 :=
  iprop((dats m O 0 d).Φ t.succ ∗ (dats m O 0 d).owesAt none t.succ
    ∗ owns (SparseCore.T d) (st0_0 t) fullShare ((dats m O 0 d).after 0 t)
    ∗ owns (SparseCore.T d) (st0_1 t) fullShare ((dats m O 0 d).after 1 t)
    ∗ owns (SparseCore.T d) (st0_2 t) fullShare ((dats m O 0 d).after 2 t)
    ∗ owns (SparseCore.T d) (st0_3 t) fullShare ((dats m O 0 d).after 3 t)
    ∗ owns (SparseCore.T d) (st0_4 t) fullShare ((dats m O 0 d).after 4 t)
    ∗ owns (SparseCore.T d) (st0_5 t) fullShare ((dats m O 0 d).after 5 t)
    ∗ owns (SparseCore.T d) (st0_6 t) fullShare ((dats m O 0 d).after 6 t)
    ∗ owns (SparseCore.T d) (st0_7 t) fullShare ((dats m O 0 d).after 7 t)
    ∗ owns (SparseCore.T d) (st0_8 t) fullShare ((dats m O 0 d).after 8 t)
    ∗ owns (SparseCore.T d) (st0_9 t) fullShare ((dats m O 0 d).after 9 t)
    ∗ owns (SparseCore.T d) (st0_10 t) fullShare ((dats m O 0 d).after 10 t)
    ∗ owns (SparseCore.T d) (st0_11 t) fullShare ((dats m O 0 d).after 11 t)
    ∗ owns (SparseCore.T d) (st0_12 t) fullShare ((dats m O 0 d).after 12 t)
    ∗ owns (SparseCore.T d) (st0_13 t) fullShare ((dats m O 0 d).after 13 t)
    ∗ owns (SparseCore.T d) (st0_14 t) fullShare ((dats m O 0 d).after 14 t)
    ∗ owns (SparseCore.T d) (st0_15 t) fullShare ((dats m O 0 d).after 15 t)
    ∗ owns (SparseCore.T d) (st0_16 t) fullShare ((dats m O 0 d).after 16 t)
    ∗ owns (SparseCore.T d) (st0_17 t) fullShare ((dats m O 0 d).after 17 t)
    ∗ owns (SparseCore.T d) (st0_18 t) fullShare ((dats m O 0 d).after 18 t)
    ∗ owns (SparseCore.T d) (st0_19 t) fullShare ((dats m O 0 d).after 19 t)
    ∗ owns (SparseCore.T d) (st0_20 t) fullShare ((dats m O 0 d).after 20 t)
    ∗ owns (SparseCore.T d) (st0_21 t) fullShare ((dats m O 0 d).after 21 t)
    ∗ owns (SparseCore.T d) (st0_22 t) fullShare ((dats m O 0 d).after 22 t)
    ∗ owns (SparseCore.T d) (st0_23 t) fullShare ((dats m O 0 d).after 23 t)
    ∗ owns (SparseCore.T d) (st0_24 t) fullShare ((dats m O 0 d).after 24 t)
    ∗ owns (SparseCore.T d) (st0_25 t) fullShare ((dats m O 0 d).after 25 t)
    ∗ owns (SparseCore.T d) (st0_26 t) fullShare ((dats m O 0 d).after 26 t))

set_option maxHeartbeats 4000000 in
theorem sound_body (d : Dev nD) (t : Fin cfg0.N) :
    bodyPre m O d t ⊢ wp frame (wpE (defs₀ (F := F)) Variants.none (SparseCore.T d) none) Set.univ (bodyAt0 t) (fun _ => bodyPost m O d t) := by
  unfold bodyPre bodyPost bodyAt0
  simp only [before_0, before_1, before_2, before_3, before_4, before_5, before_6, before_7, before_8, before_9, before_10, before_11, before_12, before_13, before_14, before_15, before_16, before_17, before_18, before_19, before_20, before_21, before_22, before_23, before_24, before_25]
  rw [show (dats m O 0 d).Φ t.succ = (dats m O 0 d).Φ t.castSucc from rfl,
    show (dats m O 0 d).owesAt none t.succ = (dats m O 0 d).owesAt none t.castSucc from rfl,
    after_0, after_1, after_2, after_3, after_4, after_5, after_6, after_7, after_8, after_9, after_10, after_11, after_12, after_13, after_14, after_15, after_16, after_17, after_18, after_19, after_20, after_21, after_22, after_23, after_24, after_25, after_26]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (sound_kernel d Set.univ _ _ _ _ _ _ _ _ _ _ _ _ _ _ _ _ _ _ _ _ _ _ _ _ _ _ _ _ _ _ _ _ _ _ _ _ _ _ _ _ _ _ _ _ _ _ _ _ _ _ _ _ _ _ (iblk m d 0 t) (iblk m d 1 t) (iblk m d 2 t) (iblk m d 3 t) (iblk m d 4 t) (iblk m d 5 t) (iblk m d 6 t) (iblk m d 7 t) (iblk m d 8 t) (iblk m d 9 t) (iblk m d 10 t) (iblk m d 11 t) (iblk m d 12 t) (iblk m d 13 t) (iblk m d 14 t) (iblk m d 15 t) (iblk m d 16 t) (iblk m d 17 t) (iblk m d 18 t) (iblk m d 19 t) (iblk m d 20 t) (iblk m d 21 t) (iblk m d 22 t) (iblk m d 23 t) (iblk m d 24 t) (iblk m d 25 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexists _; iexact H26
  iintro ⟨H0, H1, H2, H3, H4, H5, H6, H7, H8, H9, H10, H11, H12, H13, H14, H15, H16, H17, H18, H19, H20, H21, H22, H23, H24, H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

theorem body_obligation (d : Dev nD) : Pipeline.BodyObligation (dats (F := F) m O 0 d) (defs₀ (F := F)) Variants.none none Set.univ := fun t => by
  rw [bigSep_W0, bigSep_W0]
  exact sound_body m O d t

/-- The invariant, opened without unfolding anything else of the proof data. -/
theorem Φ_eq (d : Dev nD) (t : Fin (cfg0.N + 1)) : (dats m O 0 d).Φ t = Pipeline.scopedRest (pinned (F := F) 0).spec d := by
  dsimp only [dats]

end Cert.Proof.KI

end
-- ==== Proof.MainId.lean ====
/-
  The TensorCore region of @main, entered and left.

  What the arrays hold when the region ends (each table as launched; the result the rescaled table, its one block
  being all of it), the region as the library's record (no semaphore of the kernel's own, no prefetched table, the
  TensorCore's debt to the SparseCores carried through), and the region's rule: from the 26 tables and the result's
  array at anything to the same with the result's array at the rescaled table.
-/
import proofs.«207321_g10943576670982_fold_wed_m_632_36_alg».proof.Proof.SetupI
import proofs.«207321_g10943576670982_fold_wed_m_632_36_alg».proof.Proof.MainIb

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

variable [FloatOps F] [∀ e, Nonempty (Elt F e)]

local notation "𝕄" => MT nD τ sig (HIx 1) (Elt F) ℕ UU ℕ

variable (m : (ℓ : Loc nD τ sig) → Buf (Elt F) ℓ) (O : CellTallies nD τ sig (HIx 1))

/-! ## What the arrays hold when the region ends -/

/-- A window that is its whole array, read at the one point, is the array. -/
theorem iblk_0 (d : Dev nD) (t : Fin cfg0.N) : iblk m d 0 t = (m ((SparseCore.T d).loc main_arg1) : Vec F S128x128 .f32) := by
  funext j
  show m ((SparseCore.T d).loc main_arg1) (((cfg0.win 0).blk t).view.emb j) = m ((SparseCore.T d).loc main_arg1) j
  congr 1
  funext a; apply Fin.ext
  match a with
  | ⟨0, _⟩ => show 0 * 128 + 1 * (j 0).val = (j 0).val; omega
  | ⟨1, _⟩ => show 0 * 128 + 1 * (j 1).val = (j 1).val; omega
theorem iblk_1 (d : Dev nD) (t : Fin cfg0.N) : iblk m d 1 t = (m ((SparseCore.T d).loc main_arg2) : Vec F S128x128 .f32) := by
  funext j
  show m ((SparseCore.T d).loc main_arg2) (((cfg0.win 1).blk t).view.emb j) = m ((SparseCore.T d).loc main_arg2) j
  congr 1
  funext a; apply Fin.ext
  match a with
  | ⟨0, _⟩ => show 0 * 128 + 1 * (j 0).val = (j 0).val; omega
  | ⟨1, _⟩ => show 0 * 128 + 1 * (j 1).val = (j 1).val; omega
theorem iblk_2 (d : Dev nD) (t : Fin cfg0.N) : iblk m d 2 t = (m ((SparseCore.T d).loc main_arg3) : Vec F S128x128 .f32) := by
  funext j
  show m ((SparseCore.T d).loc main_arg3) (((cfg0.win 2).blk t).view.emb j) = m ((SparseCore.T d).loc main_arg3) j
  congr 1
  funext a; apply Fin.ext
  match a with
  | ⟨0, _⟩ => show 0 * 128 + 1 * (j 0).val = (j 0).val; omega
  | ⟨1, _⟩ => show 0 * 128 + 1 * (j 1).val = (j 1).val; omega
theorem iblk_3 (d : Dev nD) (t : Fin cfg0.N) : iblk m d 3 t = (m ((SparseCore.T d).loc main_arg4) : Vec F S128x128 .f32) := by
  funext j
  show m ((SparseCore.T d).loc main_arg4) (((cfg0.win 3).blk t).view.emb j) = m ((SparseCore.T d).loc main_arg4) j
  congr 1
  funext a; apply Fin.ext
  match a with
  | ⟨0, _⟩ => show 0 * 128 + 1 * (j 0).val = (j 0).val; omega
  | ⟨1, _⟩ => show 0 * 128 + 1 * (j 1).val = (j 1).val; omega
theorem iblk_4 (d : Dev nD) (t : Fin cfg0.N) : iblk m d 4 t = (m ((SparseCore.T d).loc main_arg5) : Vec F S128x128 .f32) := by
  funext j
  show m ((SparseCore.T d).loc main_arg5) (((cfg0.win 4).blk t).view.emb j) = m ((SparseCore.T d).loc main_arg5) j
  congr 1
  funext a; apply Fin.ext
  match a with
  | ⟨0, _⟩ => show 0 * 128 + 1 * (j 0).val = (j 0).val; omega
  | ⟨1, _⟩ => show 0 * 128 + 1 * (j 1).val = (j 1).val; omega
theorem iblk_5 (d : Dev nD) (t : Fin cfg0.N) : iblk m d 5 t = (m ((SparseCore.T d).loc main_arg6) : Vec F S128x128 .f32) := by
  funext j
  show m ((SparseCore.T d).loc main_arg6) (((cfg0.win 5).blk t).view.emb j) = m ((SparseCore.T d).loc main_arg6) j
  congr 1
  funext a; apply Fin.ext
  match a with
  | ⟨0, _⟩ => show 0 * 128 + 1 * (j 0).val = (j 0).val; omega
  | ⟨1, _⟩ => show 0 * 128 + 1 * (j 1).val = (j 1).val; omega
theorem iblk_6 (d : Dev nD) (t : Fin cfg0.N) : iblk m d 6 t = (m ((SparseCore.T d).loc main_arg7) : Vec F S128x128 .f32) := by
  funext j
  show m ((SparseCore.T d).loc main_arg7) (((cfg0.win 6).blk t).view.emb j) = m ((SparseCore.T d).loc main_arg7) j
  congr 1
  funext a; apply Fin.ext
  match a with
  | ⟨0, _⟩ => show 0 * 128 + 1 * (j 0).val = (j 0).val; omega
  | ⟨1, _⟩ => show 0 * 128 + 1 * (j 1).val = (j 1).val; omega
theorem iblk_7 (d : Dev nD) (t : Fin cfg0.N) : iblk m d 7 t = (m ((SparseCore.T d).loc main_arg8) : Vec F S128x128 .f32) := by
  funext j
  show m ((SparseCore.T d).loc main_arg8) (((cfg0.win 7).blk t).view.emb j) = m ((SparseCore.T d).loc main_arg8) j
  congr 1
  funext a; apply Fin.ext
  match a with
  | ⟨0, _⟩ => show 0 * 128 + 1 * (j 0).val = (j 0).val; omega
  | ⟨1, _⟩ => show 0 * 128 + 1 * (j 1).val = (j 1).val; omega
theorem iblk_8 (d : Dev nD) (t : Fin cfg0.N) : iblk m d 8 t = (m ((SparseCore.T d).loc main_arg9) : Vec F S128x128 .f32) := by
  funext j
  show m ((SparseCore.T d).loc main_arg9) (((cfg0.win 8).blk t).view.emb j) = m ((SparseCore.T d).loc main_arg9) j
  congr 1
  funext a; apply Fin.ext
  match a with
  | ⟨0, _⟩ => show 0 * 128 + 1 * (j 0).val = (j 0).val; omega
  | ⟨1, _⟩ => show 0 * 128 + 1 * (j 1).val = (j 1).val; omega
theorem iblk_9 (d : Dev nD) (t : Fin cfg0.N) : iblk m d 9 t = (m ((SparseCore.T d).loc main_arg10) : Vec F S128x128 .f32) := by
  funext j
  show m ((SparseCore.T d).loc main_arg10) (((cfg0.win 9).blk t).view.emb j) = m ((SparseCore.T d).loc main_arg10) j
  congr 1
  funext a; apply Fin.ext
  match a with
  | ⟨0, _⟩ => show 0 * 128 + 1 * (j 0).val = (j 0).val; omega
  | ⟨1, _⟩ => show 0 * 128 + 1 * (j 1).val = (j 1).val; omega
theorem iblk_10 (d : Dev nD) (t : Fin cfg0.N) : iblk m d 10 t = (m ((SparseCore.T d).loc main_arg11) : Vec F S128x128 .f32) := by
  funext j
  show m ((SparseCore.T d).loc main_arg11) (((cfg0.win 10).blk t).view.emb j) = m ((SparseCore.T d).loc main_arg11) j
  congr 1
  funext a; apply Fin.ext
  match a with
  | ⟨0, _⟩ => show 0 * 128 + 1 * (j 0).val = (j 0).val; omega
  | ⟨1, _⟩ => show 0 * 128 + 1 * (j 1).val = (j 1).val; omega
theorem iblk_11 (d : Dev nD) (t : Fin cfg0.N) : iblk m d 11 t = (m ((SparseCore.T d).loc main_arg12) : Vec F S128x128 .f32) := by
  funext j
  show m ((SparseCore.T d).loc main_arg12) (((cfg0.win 11).blk t).view.emb j) = m ((SparseCore.T d).loc main_arg12) j
  congr 1
  funext a; apply Fin.ext
  match a with
  | ⟨0, _⟩ => show 0 * 128 + 1 * (j 0).val = (j 0).val; omega
  | ⟨1, _⟩ => show 0 * 128 + 1 * (j 1).val = (j 1).val; omega
theorem iblk_12 (d : Dev nD) (t : Fin cfg0.N) : iblk m d 12 t = (m ((SparseCore.T d).loc main_arg13) : Vec F S128x128 .f32) := by
  funext j
  show m ((SparseCore.T d).loc main_arg13) (((cfg0.win 12).blk t).view.emb j) = m ((SparseCore.T d).loc main_arg13) j
  congr 1
  funext a; apply Fin.ext
  match a with
  | ⟨0, _⟩ => show 0 * 128 + 1 * (j 0).val = (j 0).val; omega
  | ⟨1, _⟩ => show 0 * 128 + 1 * (j 1).val = (j 1).val; omega
theorem iblk_13 (d : Dev nD) (t : Fin cfg0.N) : iblk m d 13 t = (m ((SparseCore.T d).loc main_arg14) : Vec F S128x128 .f32) := by
  funext j
  show m ((SparseCore.T d).loc main_arg14) (((cfg0.win 13).blk t).view.emb j) = m ((SparseCore.T d).loc main_arg14) j
  congr 1
  funext a; apply Fin.ext
  match a with
  | ⟨0, _⟩ => show 0 * 128 + 1 * (j 0).val = (j 0).val; omega
  | ⟨1, _⟩ => show 0 * 128 + 1 * (j 1).val = (j 1).val; omega
theorem iblk_14 (d : Dev nD) (t : Fin cfg0.N) : iblk m d 14 t = (m ((SparseCore.T d).loc main_arg15) : Vec F S128x128 .f32) := by
  funext j
  show m ((SparseCore.T d).loc main_arg15) (((cfg0.win 14).blk t).view.emb j) = m ((SparseCore.T d).loc main_arg15) j
  congr 1
  funext a; apply Fin.ext
  match a with
  | ⟨0, _⟩ => show 0 * 128 + 1 * (j 0).val = (j 0).val; omega
  | ⟨1, _⟩ => show 0 * 128 + 1 * (j 1).val = (j 1).val; omega
theorem iblk_15 (d : Dev nD) (t : Fin cfg0.N) : iblk m d 15 t = (m ((SparseCore.T d).loc main_arg16) : Vec F S128x128 .f32) := by
  funext j
  show m ((SparseCore.T d).loc main_arg16) (((cfg0.win 15).blk t).view.emb j) = m ((SparseCore.T d).loc main_arg16) j
  congr 1
  funext a; apply Fin.ext
  match a with
  | ⟨0, _⟩ => show 0 * 128 + 1 * (j 0).val = (j 0).val; omega
  | ⟨1, _⟩ => show 0 * 128 + 1 * (j 1).val = (j 1).val; omega
theorem iblk_16 (d : Dev nD) (t : Fin cfg0.N) : iblk m d 16 t = (m ((SparseCore.T d).loc main_arg17) : Vec F S128x128 .f32) := by
  funext j
  show m ((SparseCore.T d).loc main_arg17) (((cfg0.win 16).blk t).view.emb j) = m ((SparseCore.T d).loc main_arg17) j
  congr 1
  funext a; apply Fin.ext
  match a with
  | ⟨0, _⟩ => show 0 * 128 + 1 * (j 0).val = (j 0).val; omega
  | ⟨1, _⟩ => show 0 * 128 + 1 * (j 1).val = (j 1).val; omega
theorem iblk_17 (d : Dev nD) (t : Fin cfg0.N) : iblk m d 17 t = (m ((SparseCore.T d).loc main_arg18) : Vec F S128x128 .f32) := by
  funext j
  show m ((SparseCore.T d).loc main_arg18) (((cfg0.win 17).blk t).view.emb j) = m ((SparseCore.T d).loc main_arg18) j
  congr 1
  funext a; apply Fin.ext
  match a with
  | ⟨0, _⟩ => show 0 * 128 + 1 * (j 0).val = (j 0).val; omega
  | ⟨1, _⟩ => show 0 * 128 + 1 * (j 1).val = (j 1).val; omega
theorem iblk_18 (d : Dev nD) (t : Fin cfg0.N) : iblk m d 18 t = (m ((SparseCore.T d).loc main_arg19) : Vec F S128x128 .f32) := by
  funext j
  show m ((SparseCore.T d).loc main_arg19) (((cfg0.win 18).blk t).view.emb j) = m ((SparseCore.T d).loc main_arg19) j
  congr 1
  funext a; apply Fin.ext
  match a with
  | ⟨0, _⟩ => show 0 * 128 + 1 * (j 0).val = (j 0).val; omega
  | ⟨1, _⟩ => show 0 * 128 + 1 * (j 1).val = (j 1).val; omega
theorem iblk_19 (d : Dev nD) (t : Fin cfg0.N) : iblk m d 19 t = (m ((SparseCore.T d).loc main_arg20) : Vec F S128x128 .f32) := by
  funext j
  show m ((SparseCore.T d).loc main_arg20) (((cfg0.win 19).blk t).view.emb j) = m ((SparseCore.T d).loc main_arg20) j
  congr 1
  funext a; apply Fin.ext
  match a with
  | ⟨0, _⟩ => show 0 * 128 + 1 * (j 0).val = (j 0).val; omega
  | ⟨1, _⟩ => show 0 * 128 + 1 * (j 1).val = (j 1).val; omega
theorem iblk_20 (d : Dev nD) (t : Fin cfg0.N) : iblk m d 20 t = (m ((SparseCore.T d).loc main_arg21) : Vec F S128x128 .f32) := by
  funext j
  show m ((SparseCore.T d).loc main_arg21) (((cfg0.win 20).blk t).view.emb j) = m ((SparseCore.T d).loc main_arg21) j
  congr 1
  funext a; apply Fin.ext
  match a with
  | ⟨0, _⟩ => show 0 * 128 + 1 * (j 0).val = (j 0).val; omega
  | ⟨1, _⟩ => show 0 * 128 + 1 * (j 1).val = (j 1).val; omega
theorem iblk_21 (d : Dev nD) (t : Fin cfg0.N) : iblk m d 21 t = (m ((SparseCore.T d).loc main_arg22) : Vec F S128x128 .f32) := by
  funext j
  show m ((SparseCore.T d).loc main_arg22) (((cfg0.win 21).blk t).view.emb j) = m ((SparseCore.T d).loc main_arg22) j
  congr 1
  funext a; apply Fin.ext
  match a with
  | ⟨0, _⟩ => show 0 * 128 + 1 * (j 0).val = (j 0).val; omega
  | ⟨1, _⟩ => show 0 * 128 + 1 * (j 1).val = (j 1).val; omega
theorem iblk_22 (d : Dev nD) (t : Fin cfg0.N) : iblk m d 22 t = (m ((SparseCore.T d).loc main_arg23) : Vec F S128x128 .f32) := by
  funext j
  show m ((SparseCore.T d).loc main_arg23) (((cfg0.win 22).blk t).view.emb j) = m ((SparseCore.T d).loc main_arg23) j
  congr 1
  funext a; apply Fin.ext
  match a with
  | ⟨0, _⟩ => show 0 * 128 + 1 * (j 0).val = (j 0).val; omega
  | ⟨1, _⟩ => show 0 * 128 + 1 * (j 1).val = (j 1).val; omega
theorem iblk_23 (d : Dev nD) (t : Fin cfg0.N) : iblk m d 23 t = (m ((SparseCore.T d).loc main_arg24) : Vec F S128x128 .f32) := by
  funext j
  show m ((SparseCore.T d).loc main_arg24) (((cfg0.win 23).blk t).view.emb j) = m ((SparseCore.T d).loc main_arg24) j
  congr 1
  funext a; apply Fin.ext
  match a with
  | ⟨0, _⟩ => show 0 * 128 + 1 * (j 0).val = (j 0).val; omega
  | ⟨1, _⟩ => show 0 * 128 + 1 * (j 1).val = (j 1).val; omega
theorem iblk_24 (d : Dev nD) (t : Fin cfg0.N) : iblk m d 24 t = (m ((SparseCore.T d).loc main_arg25) : Vec F S128x128 .f32) := by
  funext j
  show m ((SparseCore.T d).loc main_arg25) (((cfg0.win 24).blk t).view.emb j) = m ((SparseCore.T d).loc main_arg25) j
  congr 1
  funext a; apply Fin.ext
  match a with
  | ⟨0, _⟩ => show 0 * 128 + 1 * (j 0).val = (j 0).val; omega
  | ⟨1, _⟩ => show 0 * 128 + 1 * (j 1).val = (j 1).val; omega
theorem iblk_25 (d : Dev nD) (t : Fin cfg0.N) : iblk m d 25 t = (m ((SparseCore.T d).loc main_arg26) : Vec F S128x128 .f32) := by
  funext j
  show m ((SparseCore.T d).loc main_arg26) (((cfg0.win 25).blk t).view.emb j) = m ((SparseCore.T d).loc main_arg26) j
  congr 1
  funext a; apply Fin.ext
  match a with
  | ⟨0, _⟩ => show 0 * 128 + 1 * (j 0).val = (j 0).val; omega
  | ⟨1, _⟩ => show 0 * 128 + 1 * (j 1).val = (j 1).val; omega

theorem final_0 (d : Dev nD) : ((dats m O 0 d).arrAt 0 cfg0.N : Buf (Elt F) ((SparseCore.T d).loc main_arg1)) = m ((SparseCore.T d).loc main_arg1) :=
  (dats m O 0 d).arrAt_in 0 rfl _
theorem final_1 (d : Dev nD) : ((dats m O 0 d).arrAt 1 cfg0.N : Buf (Elt F) ((SparseCore.T d).loc main_arg2)) = m ((SparseCore.T d).loc main_arg2) :=
  (dats m O 0 d).arrAt_in 1 rfl _
theorem final_2 (d : Dev nD) : ((dats m O 0 d).arrAt 2 cfg0.N : Buf (Elt F) ((SparseCore.T d).loc main_arg3)) = m ((SparseCore.T d).loc main_arg3) :=
  (dats m O 0 d).arrAt_in 2 rfl _
theorem final_3 (d : Dev nD) : ((dats m O 0 d).arrAt 3 cfg0.N : Buf (Elt F) ((SparseCore.T d).loc main_arg4)) = m ((SparseCore.T d).loc main_arg4) :=
  (dats m O 0 d).arrAt_in 3 rfl _
theorem final_4 (d : Dev nD) : ((dats m O 0 d).arrAt 4 cfg0.N : Buf (Elt F) ((SparseCore.T d).loc main_arg5)) = m ((SparseCore.T d).loc main_arg5) :=
  (dats m O 0 d).arrAt_in 4 rfl _
theorem final_5 (d : Dev nD) : ((dats m O 0 d).arrAt 5 cfg0.N : Buf (Elt F) ((SparseCore.T d).loc main_arg6)) = m ((SparseCore.T d).loc main_arg6) :=
  (dats m O 0 d).arrAt_in 5 rfl _
theorem final_6 (d : Dev nD) : ((dats m O 0 d).arrAt 6 cfg0.N : Buf (Elt F) ((SparseCore.T d).loc main_arg7)) = m ((SparseCore.T d).loc main_arg7) :=
  (dats m O 0 d).arrAt_in 6 rfl _
theorem final_7 (d : Dev nD) : ((dats m O 0 d).arrAt 7 cfg0.N : Buf (Elt F) ((SparseCore.T d).loc main_arg8)) = m ((SparseCore.T d).loc main_arg8) :=
  (dats m O 0 d).arrAt_in 7 rfl _
theorem final_8 (d : Dev nD) : ((dats m O 0 d).arrAt 8 cfg0.N : Buf (Elt F) ((SparseCore.T d).loc main_arg9)) = m ((SparseCore.T d).loc main_arg9) :=
  (dats m O 0 d).arrAt_in 8 rfl _
theorem final_9 (d : Dev nD) : ((dats m O 0 d).arrAt 9 cfg0.N : Buf (Elt F) ((SparseCore.T d).loc main_arg10)) = m ((SparseCore.T d).loc main_arg10) :=
  (dats m O 0 d).arrAt_in 9 rfl _
theorem final_10 (d : Dev nD) : ((dats m O 0 d).arrAt 10 cfg0.N : Buf (Elt F) ((SparseCore.T d).loc main_arg11)) = m ((SparseCore.T d).loc main_arg11) :=
  (dats m O 0 d).arrAt_in 10 rfl _
theorem final_11 (d : Dev nD) : ((dats m O 0 d).arrAt 11 cfg0.N : Buf (Elt F) ((SparseCore.T d).loc main_arg12)) = m ((SparseCore.T d).loc main_arg12) :=
  (dats m O 0 d).arrAt_in 11 rfl _
theorem final_12 (d : Dev nD) : ((dats m O 0 d).arrAt 12 cfg0.N : Buf (Elt F) ((SparseCore.T d).loc main_arg13)) = m ((SparseCore.T d).loc main_arg13) :=
  (dats m O 0 d).arrAt_in 12 rfl _
theorem final_13 (d : Dev nD) : ((dats m O 0 d).arrAt 13 cfg0.N : Buf (Elt F) ((SparseCore.T d).loc main_arg14)) = m ((SparseCore.T d).loc main_arg14) :=
  (dats m O 0 d).arrAt_in 13 rfl _
theorem final_14 (d : Dev nD) : ((dats m O 0 d).arrAt 14 cfg0.N : Buf (Elt F) ((SparseCore.T d).loc main_arg15)) = m ((SparseCore.T d).loc main_arg15) :=
  (dats m O 0 d).arrAt_in 14 rfl _
theorem final_15 (d : Dev nD) : ((dats m O 0 d).arrAt 15 cfg0.N : Buf (Elt F) ((SparseCore.T d).loc main_arg16)) = m ((SparseCore.T d).loc main_arg16) :=
  (dats m O 0 d).arrAt_in 15 rfl _
theorem final_16 (d : Dev nD) : ((dats m O 0 d).arrAt 16 cfg0.N : Buf (Elt F) ((SparseCore.T d).loc main_arg17)) = m ((SparseCore.T d).loc main_arg17) :=
  (dats m O 0 d).arrAt_in 16 rfl _
theorem final_17 (d : Dev nD) : ((dats m O 0 d).arrAt 17 cfg0.N : Buf (Elt F) ((SparseCore.T d).loc main_arg18)) = m ((SparseCore.T d).loc main_arg18) :=
  (dats m O 0 d).arrAt_in 17 rfl _
theorem final_18 (d : Dev nD) : ((dats m O 0 d).arrAt 18 cfg0.N : Buf (Elt F) ((SparseCore.T d).loc main_arg19)) = m ((SparseCore.T d).loc main_arg19) :=
  (dats m O 0 d).arrAt_in 18 rfl _
theorem final_19 (d : Dev nD) : ((dats m O 0 d).arrAt 19 cfg0.N : Buf (Elt F) ((SparseCore.T d).loc main_arg20)) = m ((SparseCore.T d).loc main_arg20) :=
  (dats m O 0 d).arrAt_in 19 rfl _
theorem final_20 (d : Dev nD) : ((dats m O 0 d).arrAt 20 cfg0.N : Buf (Elt F) ((SparseCore.T d).loc main_arg21)) = m ((SparseCore.T d).loc main_arg21) :=
  (dats m O 0 d).arrAt_in 20 rfl _
theorem final_21 (d : Dev nD) : ((dats m O 0 d).arrAt 21 cfg0.N : Buf (Elt F) ((SparseCore.T d).loc main_arg22)) = m ((SparseCore.T d).loc main_arg22) :=
  (dats m O 0 d).arrAt_in 21 rfl _
theorem final_22 (d : Dev nD) : ((dats m O 0 d).arrAt 22 cfg0.N : Buf (Elt F) ((SparseCore.T d).loc main_arg23)) = m ((SparseCore.T d).loc main_arg23) :=
  (dats m O 0 d).arrAt_in 22 rfl _
theorem final_23 (d : Dev nD) : ((dats m O 0 d).arrAt 23 cfg0.N : Buf (Elt F) ((SparseCore.T d).loc main_arg24)) = m ((SparseCore.T d).loc main_arg24) :=
  (dats m O 0 d).arrAt_in 23 rfl _
theorem final_24 (d : Dev nD) : ((dats m O 0 d).arrAt 24 cfg0.N : Buf (Elt F) ((SparseCore.T d).loc main_arg25)) = m ((SparseCore.T d).loc main_arg25) :=
  (dats m O 0 d).arrAt_in 24 rfl _
theorem final_25 (d : Dev nD) : ((dats m O 0 d).arrAt 25 cfg0.N : Buf (Elt F) ((SparseCore.T d).loc main_arg26)) = m ((SparseCore.T d).loc main_arg26) :=
  (dats m O 0 d).arrAt_in 25 rfl _

theorem tabs_eq (d : Dev nD) : tabs (m ((SparseCore.T d).loc main_arg1)) (m ((SparseCore.T d).loc main_arg2)) (m ((SparseCore.T d).loc main_arg3)) (m ((SparseCore.T d).loc main_arg4)) (m ((SparseCore.T d).loc main_arg5)) (m ((SparseCore.T d).loc main_arg6)) (m ((SparseCore.T d).loc main_arg7)) (m ((SparseCore.T d).loc main_arg8)) (m ((SparseCore.T d).loc main_arg9)) (m ((SparseCore.T d).loc main_arg10)) (m ((SparseCore.T d).loc main_arg11)) (m ((SparseCore.T d).loc main_arg12)) (m ((SparseCore.T d).loc main_arg13)) (m ((SparseCore.T d).loc main_arg14)) (m ((SparseCore.T d).loc main_arg15)) (m ((SparseCore.T d).loc main_arg16)) (m ((SparseCore.T d).loc main_arg17)) (m ((SparseCore.T d).loc main_arg18)) (m ((SparseCore.T d).loc main_arg19)) (m ((SparseCore.T d).loc main_arg20)) (m ((SparseCore.T d).loc main_arg21)) (m ((SparseCore.T d).loc main_arg22)) (m ((SparseCore.T d).loc main_arg23)) (m ((SparseCore.T d).loc main_arg24)) (m ((SparseCore.T d).loc main_arg25)) (m ((SparseCore.T d).loc main_arg26)) = tabOf m d := by
  funext t
  match t with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨16, _⟩ => rfl
  | ⟨17, _⟩ => rfl
  | ⟨18, _⟩ => rfl
  | ⟨19, _⟩ => rfl
  | ⟨20, _⟩ => rfl
  | ⟨21, _⟩ => rfl
  | ⟨22, _⟩ => rfl
  | ⟨23, _⟩ => rfl
  | ⟨24, _⟩ => rfl
  | ⟨25, _⟩ => rfl
  | ⟨_ + 26, h⟩ => exact absurd h (by omega)

/-- What the one point writes back is the rescaled table, read through the window. -/
theorem flushed_26 (d : Dev nD) (t : Fin cfg0.N) :
    (dats m O 0 d).flushed 26 t = ((cfg0.win 26).blk t).view.read (Elt F) (Tb m d) := by
  show (cfg0.win 26).cut (grid0.coords t) ((dats m O 0 d).after 26 t) = _
  rw [after_26, outStage_eq_tableOf]
  simp only [iblk_0, iblk_1, iblk_2, iblk_3, iblk_4, iblk_5, iblk_6, iblk_7, iblk_8, iblk_9, iblk_10, iblk_11, iblk_12, iblk_13, iblk_14, iblk_15, iblk_16, iblk_17, iblk_18, iblk_19, iblk_20, iblk_21, iblk_22, iblk_23, iblk_24, iblk_25]
  rw [tabs_eq m d]
  funext j
  show tableOf (tabOf m d) j = Tb m d (((cfg0.win 26).blk t).view.emb j)
  unfold Tb
  congr 1
  funext a; apply Fin.ext
  match a with
  | ⟨0, _⟩ => show (j 0).val = 0 * 3328 + 1 * (j 0).val; omega
  | ⟨1, _⟩ => show (j 1).val = 0 * 128 + 1 * (j 1).val; omega

/-- The window's one block is all of its array. -/
theorem cover_26 (i : S3328x128.Idx) : i ∈ ((cfg0.win 26).blk t0_0).view.set := by
  show i ∈ ((View.whole main_v0).slice (win0_26.rect t0_0)).set
  rw [View.set_slice_whole, Rect.mem_set_unit]
  intro a
  match a with
  | ⟨0, _⟩ => show 0 * 3328 ≤ (i 0).val ∧ (i 0).val < 0 * 3328 + 3328; have h : (i 0).val < 3328 := (i 0).isLt; omega
  | ⟨1, _⟩ => show 0 * 128 ≤ (i 1).val ∧ (i 1).val < 0 * 128 + 128; have h : (i 1).val < 128 := (i 1).isLt; omega

theorem final_26 (d : Dev nD) : ((dats m O 0 d).arrAt 26 cfg0.N : Buf (Elt F) (tLoc d)) = Tb m d :=
  (dats m O 0 d).arrAt_eq_of_cover 26 (Tb m d) (fun t _ => flushed_26 m O d t) (fun i => ⟨t0_0, flush0_26 t0_0, cover_26 i⟩)

/-! ## The region's record -/

theorem share_full (d : Dev nD) (w : Fin cfg0.W) : (dats m O 0 d).share w = fullShare :=
  (dats m O 0 d).share_full (fun _ => rfl) w

theorem pts_congr {ℓ : Loc nD τ sig} {f g : Buf (Elt F) ℓ} (h : f = g) : (ℓ ↦{fullShare} f : sProp 𝕄) ⊢ ℓ ↦{fullShare} g := by
  subst h; exact .rfl

/-- No table is prefetched, and the kernel names no semaphore of its own. -/
theorem prefHeld_intro (d : Dev nD) :
    (iprop(emp) : sProp 𝕄) ⊢ Pipeline.prefHeld (pcfgs (F := F) 0).pre d (fun _ => fullShare) (aA (F := F) 0).1 := by
  unfold Pipeline.prefHeld
  rw [Finset.univ_eq_empty, bigSep_empty]
  exact .rfl

theorem ownSems0_intro (d : Dev nD) :
    (iprop(emp) : sProp 𝕄) ⊢ Pipeline.ownSems0 (fun k : Fin 0 => (k.elim0 : SemLoc sig)) d := by
  unfold Pipeline.ownSems0
  rw [Finset.univ_eq_empty, bigSep_empty]
  exact .rfl

set_option maxHeartbeats 4000000 in
/-- The region of @main: entered from the windows' arrays and what the TensorCore owes, left with the arrays at their
    final contents and the same owed; its waits are the staging cells' own, at the lowest level. -/
def seg (hO : ∀ g, O g none = 0) :
    Pipeline.RegionSeg (pcfgs (F := F)) aA (dats m O) (none : HIx 1) (defs₀ (F := F)) 𝒱₀ (K (F := F)).L (K (F := F)).lev (0 : Fin 1) where
  win := winFacts0.to₀
  block_pos := block_pos0
  stage_whole := stage_whole0
  K := Fin 0
  osem := fun k => k.elim0
  ho := ⟨fun k => k.elim0, fun k => k.elim0, fun k => k.elim0⟩
  hbody c := (body_obligation m O c).loose
  hwaits c := Pipeline.cellsWaits_intro (pinned (F := F)) (dats m O) none 0 c fun w s t => (K (F := F)).mayWait_none _ hO
  pre c := iprop((dats m O 0 c).arrays (fun w => (dats m O 0 c).arrAt w 0) ∗ (dats m O 0 c).owesAt none 0)
  post c := iprop((dats m O 0 c).arrays (fun w => (dats m O 0 c).arrAt w cfg0.N) ∗ (dats m O 0 c).owesAt none (Fin.last cfg0.N))
  X _ := iprop(emp)
  Y _ := iprop(emp)
  Z _ := iprop(emp)
  hentry c := by
    iintro ⟨⟨Ha, Ho⟩, -, -⟩
    imodintro
    isplitl [Ha]; · iexact Ha
    isplitr; · iapply (prefHeld_intro (F := F) c); iempintro
    isplitl [Ho]; · iexact Ho
    isplitr <;> iempintro
  hin c := by
    rw [Φ_eq]
    iintro ⟨-, -, H⟩
    iexact H
  hout c := by
    rw [Φ_eq]
    iintro H
    isplitr; · iempintro
    isplitr; · iapply (ownSems0_intro (F := F) c); iempintro
    iexact H
  hexit c := by
    iintro ⟨Ha, Ho, -, -⟩
    imodintro
    isplitl [Ha]; · iexact Ha
    iexact Ho

/-! ## The arrays into the region and out of it -/

theorem arrays_in (d : Dev nD) : arrs m d (m (tLoc d)) ⊢ (dats m O 0 d).arrays (fun w => (dats m O 0 d).arrAt w 0) := by
  rw [Pipeline.arrays_eq cfgs (dats m O) 0 d arr_whole0 (share_full m O d), bigSep_W0]
  exact .rfl

set_option maxHeartbeats 4000000 in
theorem arrays_out (d : Dev nD) : (dats m O 0 d).arrays (fun w => (dats m O 0 d).arrAt w cfg0.N) ⊢ arrs m d (Tb m d) := by
  rw [Pipeline.arrays_eq cfgs (dats m O) 0 d arr_whole0 (share_full m O d), bigSep_W0]
  unfold arrs
  iintro ⟨H0, H1, H2, H3, H4, H5, H6, H7, H8, H9, H10, H11, H12, H13, H14, H15, H16, H17, H18, H19, H20, H21, H22, H23, H24, H25, H26⟩
  isplitl [H0]; · iapply (pts_congr (final_0 m O d)); iexact H0
  isplitl [H1]; · iapply (pts_congr (final_1 m O d)); iexact H1
  isplitl [H2]; · iapply (pts_congr (final_2 m O d)); iexact H2
  isplitl [H3]; · iapply (pts_congr (final_3 m O d)); iexact H3
  isplitl [H4]; · iapply (pts_congr (final_4 m O d)); iexact H4
  isplitl [H5]; · iapply (pts_congr (final_5 m O d)); iexact H5
  isplitl [H6]; · iapply (pts_congr (final_6 m O d)); iexact H6
  isplitl [H7]; · iapply (pts_congr (final_7 m O d)); iexact H7
  isplitl [H8]; · iapply (pts_congr (final_8 m O d)); iexact H8
  isplitl [H9]; · iapply (pts_congr (final_9 m O d)); iexact H9
  isplitl [H10]; · iapply (pts_congr (final_10 m O d)); iexact H10
  isplitl [H11]; · iapply (pts_congr (final_11 m O d)); iexact H11
  isplitl [H12]; · iapply (pts_congr (final_12 m O d)); iexact H12
  isplitl [H13]; · iapply (pts_congr (final_13 m O d)); iexact H13
  isplitl [H14]; · iapply (pts_congr (final_14 m O d)); iexact H14
  isplitl [H15]; · iapply (pts_congr (final_15 m O d)); iexact H15
  isplitl [H16]; · iapply (pts_congr (final_16 m O d)); iexact H16
  isplitl [H17]; · iapply (pts_congr (final_17 m O d)); iexact H17
  isplitl [H18]; · iapply (pts_congr (final_18 m O d)); iexact H18
  isplitl [H19]; · iapply (pts_congr (final_19 m O d)); iexact H19
  isplitl [H20]; · iapply (pts_congr (final_20 m O d)); iexact H20
  isplitl [H21]; · iapply (pts_congr (final_21 m O d)); iexact H21
  isplitl [H22]; · iapply (pts_congr (final_22 m O d)); iexact H22
  isplitl [H23]; · iapply (pts_congr (final_23 m O d)); iexact H23
  isplitl [H24]; · iapply (pts_congr (final_24 m O d)); iexact H24
  isplitl [H25]; · iapply (pts_congr (final_25 m O d)); iexact H25
  iapply (pts_congr (final_26 m O d)); iexact H26

/-! ## The region -/

set_option backward.isDefEq.respectTransparency.types false in
/-- The region: from the tables and the result's array at anything to the same with the result's array at `Tb`. -/
theorem region_scale (d : Dev nD) (hO : ∀ g, O g none = 0)
    {α : Type} (k : PUnit → Prog (TpuEff nD τ sig (Elt F) (ΛP (F := F)) .tc) α) (Q : α → sProp 𝕄) :
    iprop(levAts (K (F := F)).L (K (F := F)).lev ∗ boundary (SparseCore.T d) ∗ G (F := F) d
        ∗ (∃ W, ⌜(K (F := F)).WBelow (SparseCore.T d) W 0⌝ ∗ owes (SparseCore.T d) O W)
        ∗ arrs m d (m (tLoc d))
        ∗ ((boundary (SparseCore.T d) ∗ (∃ W, ⌜(K (F := F)).WBelow (SparseCore.T d) W 0⌝ ∗ owes (SparseCore.T d) O W) ∗ arrs m d (Tb m d))
            -∗ wp frame (wpE (D (F := F)) 𝒱 (SparseCore.T d) none) Set.univ (k ⟨⟩) Q))
      ⊢ wp frame (wpE (D (F := F)) 𝒱 (SparseCore.T d) none) Set.univ (.op (.customCall (Pipeline.entry 0) ()) k) Q := by
  iintro ⟨#Hlev, Hb, HG, ⟨%W, %hW, Howes⟩, Harrs, Hk⟩
  ihave HG' := (Entails.of_eq (show G (F := F) d = iprop(Pipeline.cellsGhost (pinned (F := F)) EP 0 d ∗ Pipeline.toksInit (pinned (F := F)) EP 0 d) from rfl)) $$ HG
  icases HG' with ⟨Hg, Ht⟩
  iapply (Pipeline.RegionSeg.wp (pcfgs (F := F)) aA (dats m O) (none : HIx 1) hinj EP (defs₀ (F := F)) 𝒱₀ (K (F := F)).L (K (F := F)).lev
    (seg m O hO) d none (fun u hu => nomatch hu) k Q)
  isplitl [Hk]
  · iintro ⟨Hb, Hpost⟩
    ihave Hp := (Entails.of_eq (show (seg m O hO).post d = iprop((dats m O 0 d).arrays (fun w => (dats m O 0 d).arrAt w cfg0.N) ∗ (dats m O 0 d).owesAt none (Fin.last cfg0.N)) from rfl)) $$ Hpost
    icases Hp with ⟨Ha, ⟨%W', %hW', Howes⟩⟩
    iapply Hk
    isplitl [Hb]; · iexact Hb
    isplitl [Howes]
    · iexists W'; isplitr
      · ipureintro
        intro p hp
        rcases hW' (Finset.mem_coe.2 hp) with h | ⟨w, s, rfl⟩
        · exact h
        · exact le_of_eq ((K (F := F)).lev_none _)
      · iexact Howes
    iapply (arrays_out m O d); iexact Ha
  isplitl [Hb]; · iexact Hb
  isplitl [Howes Harrs]
  · iapply (Entails.of_eq (show (seg m O hO).pre d = iprop((dats m O 0 d).arrays (fun w => (dats m O 0 d).arrAt w 0) ∗ (dats m O 0 d).owesAt none 0) from rfl).symm)
    isplitl [Harrs]; · iapply (arrays_in m O d); iexact Harrs
    iexists W; isplitr
    · ipureintro; intro p hp; exact Or.inl (hW p (Finset.mem_coe.1 hp))
    · iexact Howes
  isplitr; · iexact Hlev
  isplitl [Hg]; · iexact Hg
  iexact Ht

end Cert.Proof.KI

end
-- ==== Proof.SplitI.lean ====
/-
  How the flat row numbers and the result are cut among the two SparseCores and their sixteen workers each.

  Worker `w = 2 s + c` owns the words whose position divided by 13312 is `w` and the result rows whose number divided by
  512 is `w`; SparseCore `c` owns those with `w` of parity `c`.  Both families are partitions: the pieces are the
  fibres of a function, and every worker number below 32 is `2 s + c` for exactly one pair.
-/
import proofs.«207321_g10943576670982_fold_wed_m_632_36_alg».proof.Proof.SetupI

noncomputable section

namespace Cert.Proof.KI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} {U : Type} [URA U]

local notation "𝕄" => MT nD τ sig (HIx 1) (Elt F) ℕ U ℕ

/-! ## The pieces are fibres -/

theorem wid_coordsV (c : Fin 2) (s : Fin 16) : wid (coordsV c s) = 2 * s.val + c.val := rfl

theorem mem_xSet {L : grid1.Coords} {j : S425984.Idx} : j ∈ xSet L ↔ (j 0).val / 13312 = wid L := by
  simp [xSet]
theorem mem_oSet {L : grid1.Coords} {j : S16384x3328.Idx} : j ∈ oSet L ↔ (j 0).val / 512 = wid L := by
  simp [oSet]
theorem mem_xCoreSet {c : Fin 2} {j : S425984.Idx} : j ∈ xCoreSet c ↔ ((j 0).val / 13312) % 2 = c.val := by
  simp [xCoreSet]
theorem mem_oCoreSet {c : Fin 2} {j : S16384x3328.Idx} : j ∈ oCoreSet c ↔ ((j 0).val / 512) % 2 = c.val := by
  simp [oCoreSet]

theorem xCore_disjoint : ∀ i ∈ (Finset.univ : Finset (Fin 2)), ∀ j ∈ (Finset.univ : Finset (Fin 2)), i ≠ j → Disjoint (xCoreSet i) (xCoreSet j) :=
  fun i _ j _ h => Finset.disjoint_left.mpr fun a hi hj => h (Fin.ext ((mem_xCoreSet.mp hi).symm.trans (mem_xCoreSet.mp hj)))
theorem oCore_disjoint : ∀ i ∈ (Finset.univ : Finset (Fin 2)), ∀ j ∈ (Finset.univ : Finset (Fin 2)), i ≠ j → Disjoint (oCoreSet i) (oCoreSet j) :=
  fun i _ j _ h => Finset.disjoint_left.mpr fun a hi hj => h (Fin.ext ((mem_oCoreSet.mp hi).symm.trans (mem_oCoreSet.mp hj)))
theorem xCore_cover : (Finset.univ : Finset (Fin 2)).biUnion xCoreSet = Finset.univ := by
  ext j; simp only [Finset.mem_biUnion, Finset.mem_univ, true_and, iff_true]
  exact ⟨⟨((j 0).val / 13312) % 2, Nat.mod_lt _ (by norm_num)⟩, mem_xCoreSet.mpr rfl⟩
theorem oCore_cover : (Finset.univ : Finset (Fin 2)).biUnion oCoreSet = Finset.univ := by
  ext j; simp only [Finset.mem_biUnion, Finset.mem_univ, true_and, iff_true]
  exact ⟨⟨((j 0).val / 512) % 2, Nat.mod_lt _ (by norm_num)⟩, mem_oCoreSet.mpr rfl⟩

theorem xTile_disjoint (c : Fin 2) : ∀ i ∈ (Finset.univ : Finset (Fin 16)), ∀ j ∈ (Finset.univ : Finset (Fin 16)), i ≠ j →
    Disjoint (xSet (coordsV c i)) (xSet (coordsV c j)) :=
  fun i _ j _ h => Finset.disjoint_left.mpr fun a hi hj => h (Fin.ext (by
    have e := (mem_xSet.mp hi).symm.trans (mem_xSet.mp hj); rw [wid_coordsV, wid_coordsV] at e; omega))
theorem oTile_disjoint (c : Fin 2) : ∀ i ∈ (Finset.univ : Finset (Fin 16)), ∀ j ∈ (Finset.univ : Finset (Fin 16)), i ≠ j →
    Disjoint (oSet (coordsV c i)) (oSet (coordsV c j)) :=
  fun i _ j _ h => Finset.disjoint_left.mpr fun a hi hj => h (Fin.ext (by
    have e := (mem_oSet.mp hi).symm.trans (mem_oSet.mp hj); rw [wid_coordsV, wid_coordsV] at e; omega))
theorem xTile_cover (c : Fin 2) : (Finset.univ : Finset (Fin 16)).biUnion (fun s => xSet (coordsV c s)) = xCoreSet c := by
  ext j; simp only [Finset.mem_biUnion, Finset.mem_univ, true_and, mem_xSet, mem_xCoreSet, wid_coordsV]
  have hj : (j 0).val < 425984 := (j 0).isLt
  constructor
  · rintro ⟨s, hs⟩; omega
  · intro h; exact ⟨⟨(j 0).val / 13312 / 2, by omega⟩, by simp only; omega⟩
theorem oTile_cover (c : Fin 2) : (Finset.univ : Finset (Fin 16)).biUnion (fun s => oSet (coordsV c s)) = oCoreSet c := by
  ext j; simp only [Finset.mem_biUnion, Finset.mem_univ, true_and, mem_oSet, mem_oCoreSet, wid_coordsV]
  have hj : (j 0).val < 16384 := (j 0).isLt
  constructor
  · rintro ⟨s, hs⟩; omega
  · intro h; exact ⟨⟨(j 0).val / 512 / 2, by omega⟩, by simp only; omega⟩

/-! ## The arrays as their pieces -/

theorem x_cores (d : Dev nD) (f : Buf (Elt F) (xLoc d)) :
    (xLoc d ↦{fullShare} f : sProp 𝕄) = bigSep Finset.univ fun c : Fin 2 => xLoc d ↦[xCoreSet c]{fullShare} f := by
  rw [← pointsTo_biUnion Finset.univ (ℓ := xLoc d) xCoreSet xCore_disjoint, xCore_cover]; try rfl
theorem o_cores (d : Dev nD) (f : Buf (Elt F) (oLoc d)) :
    (oLoc d ↦{fullShare} f : sProp 𝕄) = bigSep Finset.univ fun c : Fin 2 => oLoc d ↦[oCoreSet c]{fullShare} f := by
  rw [← pointsTo_biUnion Finset.univ (ℓ := oLoc d) oCoreSet oCore_disjoint, oCore_cover]; try rfl
theorem x_tiles (d : Dev nD) (c : Fin 2) (f : Buf (Elt F) (xLoc d)) :
    (xLoc d ↦[xCoreSet c]{fullShare} f : sProp 𝕄) = bigSep Finset.univ fun s : Fin 16 => xLoc d ↦[xSet (coordsV c s)]{fullShare} f := by
  rw [← pointsTo_biUnion Finset.univ (ℓ := xLoc d) (fun s => xSet (coordsV c s)) (xTile_disjoint c), xTile_cover]
theorem o_tiles (d : Dev nD) (c : Fin 2) (f : Buf (Elt F) (oLoc d)) :
    (oLoc d ↦[oCoreSet c]{fullShare} f : sProp 𝕄) = bigSep Finset.univ fun s : Fin 16 => oLoc d ↦[oSet (coordsV c s)]{fullShare} f := by
  rw [← pointsTo_biUnion Finset.univ (ℓ := oLoc d) (fun s => oSet (coordsV c s)) (oTile_disjoint c), oTile_cover]

/-! ## A SparseCore's part among its workers -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit (X : (d : Dev nD) → Buf (Elt F) (xLoc d)) (Tb : (d : Dev nD) → Buf (Elt F) (tLoc d)) (O0 : (d : Dev nD) → Buf (Elt F) (oLoc d)) :
    (K (F := F)).VecSplit' (P (U := U) X Tb O0) 0 := by
  intro d c
  show iprop((xLoc d ↦[xCoreSet (Fin.cast nCore_zero c)]{fullShare} X d) ∗ (tLoc d ↦{coreShare (Fin.cast nCore_zero c)} Tb d)
        ∗ (oLoc d ↦[oCoreSet (Fin.cast nCore_zero c)]{fullShare} O0 d))
    ⊢ |={Set.univ}=> iprop((bigSep Finset.univ fun i : Fin ((K (F := F)).nSub 0) =>
          tileGo (U := U) d (coordsV (Fin.cast nCore_zero c) (Fin.cast nSub_zero i)) (X d) (Tb d) (O0 d))
        ∗ ((bigSep Finset.univ fun i : Fin ((K (F := F)).nSub 0) => tileTd (U := U) d (coordsV (Fin.cast nCore_zero c) (Fin.cast nSub_zero i)) (X d) (Tb d))
          -∗ (oLoc d ↦[oCoreSet (Fin.cast nCore_zero c)]{fullShare} (gatherOut (F := F) (X d) (Tb d) : Buf (Elt F) (oLoc d)))))
  generalize Fin.cast nCore_zero c = c'
  rw [bigSep_tasks (F := F) (U := U) (fun i => tileGo (U := U) d (coordsV c' i) (X d) (Tb d) (O0 d)),
    bigSep_tasks (F := F) (U := U) (fun i => tileTd (U := U) d (coordsV c' i) (X d) (Tb d))]
  unfold tileGo tileTd
  rw [bigSep_sep', bigSep_sep', ← x_tiles, ← o_tiles, ← o_tiles]
  iintro ⟨Hx, Ht, Ho⟩
  ihave Ht' := (Transfers.pointsTo_toks_split (coreShare c') 16) $$ Ht
  icases Ht' with ⟨-, Ht'⟩
  imodintro
  isplitl [Hx Ht' Ho]
  · isplitl [Hx]; · iexact Hx
    isplitl [Ht']; · iexact Ht'
    iexact Ho
  iintro H; iexact H

end Cert.Proof.KI

end
-- ==== Proof.MainIc.lean ====
/-
  @main on a device's TensorCore, for the SparseCore launch theorem.

  Three statements: the TensorCore region that rescales the 26 tables into one (entered through the lifting of the
  program's own body table into the launch's), the host reshape of the row numbers to a flat vector, and the
  SparseCore call.  The call takes the flat row numbers and the result cut between the two SparseCores, and a read
  share of the rescaled table each; it brings the result back gathered.  The 27 arguments are as launched at the end.
-/
import proofs.«207321_g10943576670982_fold_wed_m_632_36_alg».proof.Proof.SetupI
import proofs.«207321_g10943576670982_fold_wed_m_632_36_alg».proof.Proof.MainId
import proofs.«207321_g10943576670982_fold_wed_m_632_36_alg».proof.Proof.SplitI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

open Idealize.ShloMosaic.StableHlo (held wp_hlo_within)

variable [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-! ## The reshape -/

abbrev a0' : DevRef τ sig := Proc.devRef .tc (main_arg0 : Ref sig .tc)
abbrev v1' : DevRef τ sig := Proc.devRef .tc (main_v1 : Ref sig .tc)
abbrev opR : HloOp τ sig (Elt F) := StableHlo.reshape main_arg0 main_v1 rfl shapeCasts_S16384x26_S425984

/-- The launch valuation of device `d`. -/
def Vv (d : Dev nD) : Valuation τ sig (Elt F) := fun b => m (d, b)

omit [FloatOps F] in
theorem held_R (d : Dev nD) (W : Valuation τ sig (Elt F)) :
    (held (SparseCore.T d) (opR (F := F)).bufs W : sProp 𝕄) = iprop(((SparseCore.T d).loc main_arg0 ↦{fullShare} W a0') ∗ (xLoc d ↦{fullShare} W v1')) := by
  unfold held
  rw [show (opR (F := F)).bufs = {a0', v1'} from rfl, SparseCore.bigSep_insert' (by decide), bigSep_singleton]

omit [FloatOps F] in
theorem R_a0 (d : Dev nD) : (opR (F := F)).result (Vv m d) a0' = m ((SparseCore.T d).loc main_arg0) :=
  (opR (F := F)).result_of_not_mem (Vv m d) (b := a0') (show a0' ∉ ({v1'} : Finset (DevRef τ sig)) by decide)

omit [FloatOps F] in
theorem R_v1 (d : Dev nD) : (opR (F := F)).result (Vv m d) v1' = Xf m d :=
  StableHlo.reshape_result main_arg0 main_v1 rfl shapeCasts_S16384x26_S425984 _ _ (Vv m d)

omit [FloatOps F] in
theorem held_R_after (d : Dev nD) :
    (held (SparseCore.T d) (opR (F := F)).bufs ((opR (F := F)).result (Vv m d)) : sProp 𝕄)
      = iprop(((SparseCore.T d).loc main_arg0 ↦{fullShare} m ((SparseCore.T d).loc main_arg0)) ∗ (xLoc d ↦{fullShare} Xf m d)) := by
  rw [held_R, R_a0, R_v1]

/-! ## @main's arrays -/

theorem unscoped_split (d : Dev nD) :
    (unscopedBufs d (fun b => m ((SparseCore.T d).loc b)) : sProp 𝕄)
      = iprop(arrs m d (m (tLoc d)) ∗ ((SparseCore.T d).loc main_arg0 ↦{fullShare} m ((SparseCore.T d).loc main_arg0)) ∗ (xLoc d ↦{fullShare} m (xLoc d))
          ∗ (oLoc d ↦{fullShare} m (oLoc d))) := by
  rw [Pipeline.unscopedBufs_split cfgs 0 winFacts0.arr_unscoped winFacts0.arr_inj d, unscopedRest0_eq, bigSep_W0]
  rfl

theorem arrs_eq (d : Dev nD) (f : Buf (Elt F) (tLoc d)) :
    (arrs m d f : sProp 𝕄) = iprop(((SparseCore.T d).loc main_arg1 ↦{fullShare} m ((SparseCore.T d).loc main_arg1)) ∗ ((SparseCore.T d).loc main_arg2 ↦{fullShare} m ((SparseCore.T d).loc main_arg2)) ∗ ((SparseCore.T d).loc main_arg3 ↦{fullShare} m ((SparseCore.T d).loc main_arg3)) ∗ ((SparseCore.T d).loc main_arg4 ↦{fullShare} m ((SparseCore.T d).loc main_arg4)) ∗ ((SparseCore.T d).loc main_arg5 ↦{fullShare} m ((SparseCore.T d).loc main_arg5)) ∗ ((SparseCore.T d).loc main_arg6 ↦{fullShare} m ((SparseCore.T d).loc main_arg6)) ∗ ((SparseCore.T d).loc main_arg7 ↦{fullShare} m ((SparseCore.T d).loc main_arg7)) ∗ ((SparseCore.T d).loc main_arg8 ↦{fullShare} m ((SparseCore.T d).loc main_arg8)) ∗ ((SparseCore.T d).loc main_arg9 ↦{fullShare} m ((SparseCore.T d).loc main_arg9)) ∗ ((SparseCore.T d).loc main_arg10 ↦{fullShare} m ((SparseCore.T d).loc main_arg10)) ∗ ((SparseCore.T d).loc main_arg11 ↦{fullShare} m ((SparseCore.T d).loc main_arg11)) ∗ ((SparseCore.T d).loc main_arg12 ↦{fullShare} m ((SparseCore.T d).loc main_arg12)) ∗ ((SparseCore.T d).loc main_arg13 ↦{fullShare} m ((SparseCore.T d).loc main_arg13)) ∗ ((SparseCore.T d).loc main_arg14 ↦{fullShare} m ((SparseCore.T d).loc main_arg14)) ∗ ((SparseCore.T d).loc main_arg15 ↦{fullShare} m ((SparseCore.T d).loc main_arg15)) ∗ ((SparseCore.T d).loc main_arg16 ↦{fullShare} m ((SparseCore.T d).loc main_arg16)) ∗ ((SparseCore.T d).loc main_arg17 ↦{fullShare} m ((SparseCore.T d).loc main_arg17)) ∗ ((SparseCore.T d).loc main_arg18 ↦{fullShare} m ((SparseCore.T d).loc main_arg18)) ∗ ((SparseCore.T d).loc main_arg19 ↦{fullShare} m ((SparseCore.T d).loc main_arg19)) ∗ ((SparseCore.T d).loc main_arg20 ↦{fullShare} m ((SparseCore.T d).loc main_arg20)) ∗ ((SparseCore.T d).loc main_arg21 ↦{fullShare} m ((SparseCore.T d).loc main_arg21)) ∗ ((SparseCore.T d).loc main_arg22 ↦{fullShare} m ((SparseCore.T d).loc main_arg22)) ∗ ((SparseCore.T d).loc main_arg23 ↦{fullShare} m ((SparseCore.T d).loc main_arg23)) ∗ ((SparseCore.T d).loc main_arg24 ↦{fullShare} m ((SparseCore.T d).loc main_arg24)) ∗ ((SparseCore.T d).loc main_arg25 ↦{fullShare} m ((SparseCore.T d).loc main_arg25)) ∗ ((SparseCore.T d).loc main_arg26 ↦{fullShare} m ((SparseCore.T d).loc main_arg26)) ∗ (tLoc d ↦{fullShare} f)) := by
  unfold arrs; rfl

/-! ## What the call takes for the two SparseCores, and what it hands back -/

theorem st0_eq (d : Dev nD) (X : (d : Dev nD) → Buf (Elt F) (xLoc d)) (Tt : (d : Dev nD) → Buf (Elt F) (tLoc d)) (O0 : (d : Dev nD) → Buf (Elt F) (oLoc d)) :
    (bigSep Finset.univ fun c : Fin ((K (F := F)).nCore 0) => (P (U := UU) X Tt O0).st 0 d c)
      = iprop((bigSep Finset.univ fun c : Fin 2 => xLoc d ↦[xCoreSet c]{fullShare} X d)
          ∗ (bigSep Finset.univ fun c : Fin 2 => (tLoc d ↦{coreShare c} Tt d : sProp 𝕄))
          ∗ (bigSep Finset.univ fun c : Fin 2 => oLoc d ↦[oCoreSet c]{fullShare} O0 d)) := by
  show (bigSep (Finset.univ : Finset (Fin 2)) fun c => iprop((xLoc d ↦[xCoreSet c]{fullShare} X d) ∗ (tLoc d ↦{coreShare c} Tt d) ∗ (oLoc d ↦[oCoreSet c]{fullShare} O0 d))) = _
  rw [bigSep_sep', bigSep_sep']

theorem dn0_eq (d : Dev nD) (X : (d : Dev nD) → Buf (Elt F) (xLoc d)) (Tt : (d : Dev nD) → Buf (Elt F) (tLoc d)) (O0 : (d : Dev nD) → Buf (Elt F) (oLoc d)) :
    (bigSep Finset.univ fun c : Fin ((K (F := F)).nCore 0) => (P (U := UU) X Tt O0).dn 0 d c)
      = (oLoc d ↦{fullShare} (gatherOut (F := F) (X d) (Tt d) : Buf (Elt F) (oLoc d)) : sProp 𝕄) := by
  rw [o_cores]; rfl

/-! ## The TensorCore's state before the call, opened -/

/-- Its handshake state but for what it owes. -/
def tcRest (d : Dev nD) : sProp 𝕄 :=
  iprop(atPos (EH (F := F)) ((K (F := F)).doneCell d) 0 ∅ 0 ∗ reached (EH (F := F)) ((K (F := F)).doneCell d) 0
    ∗ (bigSep Finset.univ fun c : Fin τ.nSC => reached (EH (F := F)) ((K (F := F)).startCell d c) ((K (F := F)).sRank c 0))
    ∗ bigSep (SparseCore.Cfg.callsFrom 0) fun q : Fin 1 => bigSep Finset.univ fun c : Fin ((K (F := F)).nCore q) =>
        iprop(dutyTok (EH (F := F)) ((K (F := F)).startCell d ((K (F := F)).core q c)) ((K (F := F)).sRank ((K (F := F)).core q c) q.val) 0
          ∗ cred (tallyAt ((K (F := F)).doneCell d) (some q) 1)))

omit [FloatOps F] in
theorem tcSt_eq (d : Dev nD) :
    ((K (F := F)).tcSt EH d 0 : sProp 𝕄)
      = iprop((∃ W, ⌜(K (F := F)).WBelow (SparseCore.T d) W 0⌝ ∗ owes (SparseCore.T d) ((K (F := F)).Otc d 0) W) ∗ tcRest (F := F) d) := rfl

/-! ## @main -/

/-- What @main leaves the claim: the 27 arguments as launched, the result gathered. -/
def FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1)) ∗ ((SparseCore.T d).loc main_arg2 ↦{fullShare} m ((SparseCore.T d).loc main_arg2)) ∗ ((SparseCore.T d).loc main_arg3 ↦{fullShare} m ((SparseCore.T d).loc main_arg3)) ∗ ((SparseCore.T d).loc main_arg4 ↦{fullShare} m ((SparseCore.T d).loc main_arg4)) ∗ ((SparseCore.T d).loc main_arg5 ↦{fullShare} m ((SparseCore.T d).loc main_arg5)) ∗ ((SparseCore.T d).loc main_arg6 ↦{fullShare} m ((SparseCore.T d).loc main_arg6)) ∗ ((SparseCore.T d).loc main_arg7 ↦{fullShare} m ((SparseCore.T d).loc main_arg7)) ∗ ((SparseCore.T d).loc main_arg8 ↦{fullShare} m ((SparseCore.T d).loc main_arg8)) ∗ ((SparseCore.T d).loc main_arg9 ↦{fullShare} m ((SparseCore.T d).loc main_arg9)) ∗ ((SparseCore.T d).loc main_arg10 ↦{fullShare} m ((SparseCore.T d).loc main_arg10)) ∗ ((SparseCore.T d).loc main_arg11 ↦{fullShare} m ((SparseCore.T d).loc main_arg11)) ∗ ((SparseCore.T d).loc main_arg12 ↦{fullShare} m ((SparseCore.T d).loc main_arg12)) ∗ ((SparseCore.T d).loc main_arg13 ↦{fullShare} m ((SparseCore.T d).loc main_arg13)) ∗ ((SparseCore.T d).loc main_arg14 ↦{fullShare} m ((SparseCore.T d).loc main_arg14)) ∗ ((SparseCore.T d).loc main_arg15 ↦{fullShare} m ((SparseCore.T d).loc main_arg15)) ∗ ((SparseCore.T d).loc main_arg16 ↦{fullShare} m ((SparseCore.T d).loc main_arg16)) ∗ ((SparseCore.T d).loc main_arg17 ↦{fullShare} m ((SparseCore.T d).loc main_arg17)) ∗ ((SparseCore.T d).loc main_arg18 ↦{fullShare} m ((SparseCore.T d).loc main_arg18)) ∗ ((SparseCore.T d).loc main_arg19 ↦{fullShare} m ((SparseCore.T d).loc main_arg19)) ∗ ((SparseCore.T d).loc main_arg20 ↦{fullShare} m ((SparseCore.T d).loc main_arg20)) ∗ ((SparseCore.T d).loc main_arg21 ↦{fullShare} m ((SparseCore.T d).loc main_arg21)) ∗ ((SparseCore.T d).loc main_arg22 ↦{fullShare} m ((SparseCore.T d).loc main_arg22)) ∗ ((SparseCore.T d).loc main_arg23 ↦{fullShare} m ((SparseCore.T d).loc main_arg23)) ∗ ((SparseCore.T d).loc main_arg24 ↦{fullShare} m ((SparseCore.T d).loc main_arg24)) ∗ ((SparseCore.T d).loc main_arg25 ↦{fullShare} m ((SparseCore.T d).loc main_arg25)) ∗ ((SparseCore.T d).loc main_arg26 ↦{fullShare} m ((SparseCore.T d).loc main_arg26))
    ∗ (oLoc d ↦{fullShare} (gatherOut (F := F) (Xf m d) (Tb m d) : Buf (Elt F) (oLoc d))))

omit [FloatOps F] in
/-- A unit owed at a call's index is no unit at the kernels' own index. -/
theorem tallyAt_some_none (g' g : GSem nD τ sig) (q : Fin 1) (k : ℕ) :
    (tallyAt g' (some q) k : CellTallies nD τ sig (HIx 1)) g none = 0 := by
  unfold tallyAt tallyOn
  by_cases h : g = g'
  · subst h; rw [Pi.single_eq_same]; simp [Finsupp.single_apply]
  · rw [Pi.single_eq_of_ne h]; rfl

omit [FloatOps F] in
/-- What the TensorCore owes the SparseCores is owed at the calls' indices only. -/
theorem Otc_none (d : Dev nD) (n : ℕ) (g : GSem nD τ sig) : (K (F := F)).Otc d n g none = 0 := by
  unfold SparseCore.Cfg.Otc
  rw [Finset.sum_apply, Finsupp.finset_sum_apply]
  refine Finset.sum_eq_zero fun q _ => ?_
  split_ifs
  · rw [Finset.sum_apply, Finsupp.finset_sum_apply]
    exact Finset.sum_eq_zero fun c _ => tallyAt_some_none _ g q 1
  · rfl

set_option backward.isDefEq.respectTransparency.types false in
theorem hmain (κ : GSem nD τ sig → ℕ) (d : Dev nD) :
    iprop((K (F := F)).ctx EH (P (U := UU) (Xf m) (Tb m) (fun d => m (oLoc d))) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_split]
  simp only [main, wp_bind, wp_pure]
  iintro ⟨#Hctx, Hst, ⟨Hb, ⟨Harrs, Ha0, Hx, Ho⟩, -, -⟩, HG⟩
  ihave Hlev := ((K (F := F)).ctx_levAts κ) $$ Hctx
  -- the region
  ihave Hst' := (Entails.of_eq (tcSt_eq (F := F) d)) $$ Hst
  icases Hst' with ⟨Howes, Hrest⟩
  iapply ((K (F := F)).wp_liftProg (D (F := F)) 𝒱 (SparseCore.T d) Set.univ none (p := Prog.op (.customCall (Pipeline.entry 0) ()) Prog.ret))
  iapply (region_scale m ((K (F := F)).Otc d 0) d (Otc_none d 0) Prog.ret _)
  isplitl [Hlev]; · iexact Hlev
  isplitl [Hb]; · iexact Hb
  isplitl [HG]; · iexact HG
  isplitl [Howes]; · iexact Howes
  isplitl [Harrs]; · iexact Harrs
  iintro ⟨Hb, Howes, Harrs⟩
  rw [wp_ret]; imodintro
  -- the reshape
  iapply (wp_hlo_within 𝒱 (SparseCore.T d) none Set.univ (op := opR) (S := (opR (F := F)).bufs) (Finset.Subset.refl _) (V := Vv m d)) $$ [Hb Ha0 Hx]
  · isplitl [Hb]; · iexact Hb
    rw [held_R]
    isplitl [Ha0]; · iexact Ha0
    iexact Hx
  iintro ⟨Hb, Hheld⟩
  ihave Hh := (Entails.of_eq (held_R_after (F := F) m d)) $$ Hheld
  icases Hh with ⟨Ha0, Hx⟩
  rw [wp_ret]; imodintro
  -- the call
  ihave Harrs' := (Entails.of_eq (arrs_eq (F := F) m d (Tb m d))) $$ Harrs
  icases Harrs' with ⟨H1, H2, H3, H4, H5, H6, H7, H8, H9, H10, H11, H12, H13, H14, H15, H16, H17, H18, H19, H20, H21, H22, H23, H24, H25, H26, Ht⟩
  ihave Htt := (Transfers.pointsTo_toks_split fullShare 2) $$ Ht
  icases Htt with ⟨-, Ht⟩
  iapply ((K (F := F)).wp_run (D (F := F)) 𝒱 (EH := EH) (P := P (U := UU) (Xf m) (Tb m) (fun d => m (oLoc d))) κ d 0) $$ [Howes Hrest Hx Ht Ho Hb Ha0 H1 H2 H3 H4 H5 H6 H7 H8 H9 H10 H11 H12 H13 H14 H15 H16 H17 H18 H19 H20 H21 H22 H23 H24 H25 H26]
  isplitr; · iexact Hctx
  isplitl [Howes Hrest]
  · iapply (Entails.of_eq (tcSt_eq (F := F) d).symm)
    isplitl [Howes]; · iexact Howes
    iexact Hrest
  isplitl [Hx Ht Ho]
  · rw [st0_eq]
    isplitl [Hx]; · rw [← x_cores]; iexact Hx
    isplitl [Ht]; · iexact Ht
    rw [← o_cores]; iexact Ho
  iintro ⟨Hst, Hdn⟩
  ihave Hdn' := (Entails.of_eq (dn0_eq (F := F) d (Xf m) (Tb m) (fun d => m (oLoc d)))) $$ Hdn
  imodintro
  isplitl [Hst]; · iexact Hst
  unfold FIN
  isplitl [Ha0]; · iexact Ha0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact Hdn'

end Cert.Proof.KI

end
-- ==== Proof.OblI.lean ====
/-
  A worker's task as the launch theorem asks for it, from the task's proof at a grid place.
-/
import proofs.«207321_g10943576670982_fold_wed_m_632_36_alg».proof.Proof.SetupI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} {U : Type} [URA U]

local notation "𝕄" => MT nD τ sig (HIx 1) (Elt F) ℕ U ℕ

variable [FloatOps F]

/-- The statement of a worker's task at a grid place. -/
def TileBody (U : Type) [URA U] : Prop :=
  ∀ (hF : (K (F := F)).Facts) (d : Dev nD) (L : grid1.Coords)
    (X : Buf (Elt F) (xLoc d)) (Tb : Buf (Elt F) (tLoc d)) (O0 : Buf (Elt F) (oLoc d)) (hX : ∀ j, (X j : BitVec 32).toNat < 128)
    (O : CellTallies nD τ sig (HIx 1)) (W : Waits sig (HIx 1)) (hO : ∀ g, O g none = 0),
    iprop(levAts (K (F := F)).L (K (F := F)).lev ∗ emp ∗ tileGo (U := U) d L X Tb O0
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather_body L (Memref.whole main_v1_scv) (Memref.isWhole_whole _) (Memref.whole main_v0_scv) (Memref.isWhole_whole _) (Memref.whole main_v2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) cc1_scratch9 cc1_scratch10 cc1_scratch11 cc1_scratch12 cc1_scratch13 cc1_scratch14 cc1_scratch15 cc1_scratch16 cc1_scratch17 cc1_scratch18 cc1_scratch19 cc1_scratch20 cc1_scratch21 cc1_scratch22 cc1_scratch23 cc1_scratch24 cc1_scoped0)
          fun _ => iprop(tileTd (U := U) d L X Tb ∗ scopedBufs (V d (cV L) (jV L)) ∗ scopedSems0 (V d (cV L) (jV L))
            ∗ ∃ W', ⌜∀ p ∈ W', p ∈ W ∨ p.2 = none⌝ ∗ owes (V d (cV L) (jV L)) O W')

theorem defs₀_vector (c : Fin τ.nSC) (s : Fin τ.nSub) :
    defs₀ (F := F) (.scVector c s) 1 ()
      = SparseCore.onTile hcore1 hsub1 (fun c s => cc1__sc_gather_body (fun | 0 => c | 1 => s | ⟨_ + 2, h⟩ => absurd h (Nat.not_lt.2 (Nat.le_add_left _ _)))
          (Memref.whole main_v1_scv) (Memref.isWhole_whole _) (Memref.whole main_v0_scv) (Memref.isWhole_whole _) (Memref.whole main_v2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) cc1_scratch9 cc1_scratch10 cc1_scratch11 cc1_scratch12 cc1_scratch13 cc1_scratch14 cc1_scratch15 cc1_scratch16 cc1_scratch17 cc1_scratch18 cc1_scratch19 cc1_scratch20 cc1_scratch21 cc1_scratch22 cc1_scratch23 cc1_scratch24 cc1_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hbody : TileBody (F := F) U) (hF : (K (F := F)).Facts)
    (X : (d : Dev nD) → Buf (Elt F) (xLoc d)) (Tb : (d : Dev nD) → Buf (Elt F) (tLoc d)) (O0 : (d : Dev nD) → Buf (Elt F) (oLoc d))
    (hX : ∀ d j, (X d j : BitVec 32).toNat < 128) :
    (K (F := F)).TileObl (D (F := F)) 𝒱 (P (U := U) X Tb O0) v₀ 0 := by
  intro d c i O W hO _ _
  simp only [show (P (U := U) X Tb O0).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (hbody hF d (coordsV (Fin.cast nCore_zero c) (Fin.cast nSub_zero i)) (X d) (Tb d) (O0 d) (hX d) O W hO).trans (wp_mono frame _ _ fun _ => obl_post)

end Cert.Proof.KI

end
-- ==== Proof.RunI.lean ====
/-
  The run of the whole program: every weakly fair execution of the TensorCore's @main beside the SparseCores' threads
  ends, nothing faulting, with the 27 arguments as launched and the result holding the gathered rows of the rescaled
  table — the launch theorem applied to @main's proof, the workers' task and the split of a SparseCore's part.
-/
import proofs.«207321_g10943576670982_fold_wed_m_632_36_alg».proof.Proof.MainIc
import proofs.«207321_g10943576670982_fold_wed_m_632_36_alg».proof.Proof.OblI
import proofs.«207321_g10943576670982_fold_wed_m_632_36_alg».proof.Proof.SplitI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (m : (ℓ : Loc nD τ sig) → Buf (Elt F) ℓ) (ρ : Dev nD → PrngReg)

/-- What the final memory holds on device `d`: the result gathered, the arguments as launched. -/
def fqM (d : Dev nD) (M : MemSt nD τ sig (Elt F)) : Prop :=
  M.mem (oLoc d) = (gatherOut (F := F) (Xf m d) (Tb m d) : Buf (Elt F) (oLoc d))
  ∧ M.mem ((SparseCore.T d).loc main_arg0) = m ((SparseCore.T d).loc main_arg0)
  ∧ M.mem ((SparseCore.T d).loc main_arg1) = m ((SparseCore.T d).loc main_arg1)
  ∧ M.mem ((SparseCore.T d).loc main_arg2) = m ((SparseCore.T d).loc main_arg2)
  ∧ M.mem ((SparseCore.T d).loc main_arg3) = m ((SparseCore.T d).loc main_arg3)
  ∧ M.mem ((SparseCore.T d).loc main_arg4) = m ((SparseCore.T d).loc main_arg4)
  ∧ M.mem ((SparseCore.T d).loc main_arg5) = m ((SparseCore.T d).loc main_arg5)
  ∧ M.mem ((SparseCore.T d).loc main_arg6) = m ((SparseCore.T d).loc main_arg6)
  ∧ M.mem ((SparseCore.T d).loc main_arg7) = m ((SparseCore.T d).loc main_arg7)
  ∧ M.mem ((SparseCore.T d).loc main_arg8) = m ((SparseCore.T d).loc main_arg8)
  ∧ M.mem ((SparseCore.T d).loc main_arg9) = m ((SparseCore.T d).loc main_arg9)
  ∧ M.mem ((SparseCore.T d).loc main_arg10) = m ((SparseCore.T d).loc main_arg10)
  ∧ M.mem ((SparseCore.T d).loc main_arg11) = m ((SparseCore.T d).loc main_arg11)
  ∧ M.mem ((SparseCore.T d).loc main_arg12) = m ((SparseCore.T d).loc main_arg12)
  ∧ M.mem ((SparseCore.T d).loc main_arg13) = m ((SparseCore.T d).loc main_arg13)
  ∧ M.mem ((SparseCore.T d).loc main_arg14) = m ((SparseCore.T d).loc main_arg14)
  ∧ M.mem ((SparseCore.T d).loc main_arg15) = m ((SparseCore.T d).loc main_arg15)
  ∧ M.mem ((SparseCore.T d).loc main_arg16) = m ((SparseCore.T d).loc main_arg16)
  ∧ M.mem ((SparseCore.T d).loc main_arg17) = m ((SparseCore.T d).loc main_arg17)
  ∧ M.mem ((SparseCore.T d).loc main_arg18) = m ((SparseCore.T d).loc main_arg18)
  ∧ M.mem ((SparseCore.T d).loc main_arg19) = m ((SparseCore.T d).loc main_arg19)
  ∧ M.mem ((SparseCore.T d).loc main_arg20) = m ((SparseCore.T d).loc main_arg20)
  ∧ M.mem ((SparseCore.T d).loc main_arg21) = m ((SparseCore.T d).loc main_arg21)
  ∧ M.mem ((SparseCore.T d).loc main_arg22) = m ((SparseCore.T d).loc main_arg22)
  ∧ M.mem ((SparseCore.T d).loc main_arg23) = m ((SparseCore.T d).loc main_arg23)
  ∧ M.mem ((SparseCore.T d).loc main_arg24) = m ((SparseCore.T d).loc main_arg24)
  ∧ M.mem ((SparseCore.T d).loc main_arg25) = m ((SparseCore.T d).loc main_arg25)
  ∧ M.mem ((SparseCore.T d).loc main_arg26) = m ((SparseCore.T d).loc main_arg26)

def fq (d : Dev nD) (s' : Phys nD τ sig (Elt F)) : Prop := fqM m d s'.mem

set_option maxRecDepth 16384 in
set_option maxHeartbeats 4000000 in
theorem hfin (d : Dev nD) (s' : Phys nD τ sig (Elt F)) : iprop(FIN m d ∗ SI s') ⊢ (⌜fq m d s'⌝ : sProp 𝕄) := by
  unfold FIN
  iintro ⟨⟨H0, H1, H2, H3, H4, H5, H6, H7, H8, H9, H10, H11, H12, H13, H14, H15, H16, H17, H18, H19, H20, H21, H22, H23, H24, H25, H26, Ho⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare) (f := m ((SparseCore.T d).loc main_arg2)))) $$ [HSI H2]
  · isplitl [HSI] <;> iassumption
  icases H with ⟨%h2, HSI, -⟩
  ihave H := (persistent_entails_right (SI_pointsTo_agree (st := s') (ℓ := (SparseCore.T d).loc main_arg3) (I := Finset.univ) (q := fullShare) (f := m ((SparseCore.T d).loc main_arg3)))) $$ [HSI H3]
  · isplitl [HSI] <;> iassumption
  icases H with ⟨%h3, HSI, -⟩
  ihave H := (persistent_entails_right (SI_pointsTo_agree (st := s') (ℓ := (SparseCore.T d).loc main_arg4) (I := Finset.univ) (q := fullShare) (f := m ((SparseCore.T d).loc main_arg4)))) $$ [HSI H4]
  · isplitl [HSI] <;> iassumption
  icases H with ⟨%h4, HSI, -⟩
  ihave H := (persistent_entails_right (SI_pointsTo_agree (st := s') (ℓ := (SparseCore.T d).loc main_arg5) (I := Finset.univ) (q := fullShare) (f := m ((SparseCore.T d).loc main_arg5)))) $$ [HSI H5]
  · isplitl [HSI] <;> iassumption
  icases H with ⟨%h5, HSI, -⟩
  ihave H := (persistent_entails_right (SI_pointsTo_agree (st := s') (ℓ := (SparseCore.T d).loc main_arg6) (I := Finset.univ) (q := fullShare) (f := m ((SparseCore.T d).loc main_arg6)))) $$ [HSI H6]
  · isplitl [HSI] <;> iassumption
  icases H with ⟨%h6, HSI, -⟩
  ihave H := (persistent_entails_right (SI_pointsTo_agree (st := s') (ℓ := (SparseCore.T d).loc main_arg7) (I := Finset.univ) (q := fullShare) (f := m ((SparseCore.T d).loc main_arg7)))) $$ [HSI H7]
  · isplitl [HSI] <;> iassumption
  icases H with ⟨%h7, HSI, -⟩
  ihave H := (persistent_entails_right (SI_pointsTo_agree (st := s') (ℓ := (SparseCore.T d).loc main_arg8) (I := Finset.univ) (q := fullShare) (f := m ((SparseCore.T d).loc main_arg8)))) $$ [HSI H8]
  · isplitl [HSI] <;> iassumption
  icases H with ⟨%h8, HSI, -⟩
  ihave H := (persistent_entails_right (SI_pointsTo_agree (st := s') (ℓ := (SparseCore.T d).loc main_arg9) (I := Finset.univ) (q := fullShare) (f := m ((SparseCore.T d).loc main_arg9)))) $$ [HSI H9]
  · isplitl [HSI] <;> iassumption
  icases H with ⟨%h9, HSI, -⟩
  ihave H := (persistent_entails_right (SI_pointsTo_agree (st := s') (ℓ := (SparseCore.T d).loc main_arg10) (I := Finset.univ) (q := fullShare) (f := m ((SparseCore.T d).loc main_arg10)))) $$ [HSI H10]
  · isplitl [HSI] <;> iassumption
  icases H with ⟨%h10, HSI, -⟩
  ihave H := (persistent_entails_right (SI_pointsTo_agree (st := s') (ℓ := (SparseCore.T d).loc main_arg11) (I := Finset.univ) (q := fullShare) (f := m ((SparseCore.T d).loc main_arg11)))) $$ [HSI H11]
  · isplitl [HSI] <;> iassumption
  icases H with ⟨%h11, HSI, -⟩
  ihave H := (persistent_entails_right (SI_pointsTo_agree (st := s') (ℓ := (SparseCore.T d).loc main_arg12) (I := Finset.univ) (q := fullShare) (f := m ((SparseCore.T d).loc main_arg12)))) $$ [HSI H12]
  · isplitl [HSI] <;> iassumption
  icases H with ⟨%h12, HSI, -⟩
  ihave H := (persistent_entails_right (SI_pointsTo_agree (st := s') (ℓ := (SparseCore.T d).loc main_arg13) (I := Finset.univ) (q := fullShare) (f := m ((SparseCore.T d).loc main_arg13)))) $$ [HSI H13]
  · isplitl [HSI] <;> iassumption
  icases H with ⟨%h13, HSI, -⟩
  ihave H := (persistent_entails_right (SI_pointsTo_agree (st := s') (ℓ := (SparseCore.T d).loc main_arg14) (I := Finset.univ) (q := fullShare) (f := m ((SparseCore.T d).loc main_arg14)))) $$ [HSI H14]
  · isplitl [HSI] <;> iassumption
  icases H with ⟨%h14, HSI, -⟩
  ihave H := (persistent_entails_right (SI_pointsTo_agree (st := s') (ℓ := (SparseCore.T d).loc main_arg15) (I := Finset.univ) (q := fullShare) (f := m ((SparseCore.T d).loc main_arg15)))) $$ [HSI H15]
  · isplitl [HSI] <;> iassumption
  icases H with ⟨%h15, HSI, -⟩
  ihave H := (persistent_entails_right (SI_pointsTo_agree (st := s') (ℓ := (SparseCore.T d).loc main_arg16) (I := Finset.univ) (q := fullShare) (f := m ((SparseCore.T d).loc main_arg16)))) $$ [HSI H16]
  · isplitl [HSI] <;> iassumption
  icases H with ⟨%h16, HSI, -⟩
  ihave H := (persistent_entails_right (SI_pointsTo_agree (st := s') (ℓ := (SparseCore.T d).loc main_arg17) (I := Finset.univ) (q := fullShare) (f := m ((SparseCore.T d).loc main_arg17)))) $$ [HSI H17]
  · isplitl [HSI] <;> iassumption
  icases H with ⟨%h17, HSI, -⟩
  ihave H := (persistent_entails_right (SI_pointsTo_agree (st := s') (ℓ := (SparseCore.T d).loc main_arg18) (I := Finset.univ) (q := fullShare) (f := m ((SparseCore.T d).loc main_arg18)))) $$ [HSI H18]
  · isplitl [HSI] <;> iassumption
  icases H with ⟨%h18, HSI, -⟩
  ihave H := (persistent_entails_right (SI_pointsTo_agree (st := s') (ℓ := (SparseCore.T d).loc main_arg19) (I := Finset.univ) (q := fullShare) (f := m ((SparseCore.T d).loc main_arg19)))) $$ [HSI H19]
  · isplitl [HSI] <;> iassumption
  icases H with ⟨%h19, HSI, -⟩
  ihave H := (persistent_entails_right (SI_pointsTo_agree (st := s') (ℓ := (SparseCore.T d).loc main_arg20) (I := Finset.univ) (q := fullShare) (f := m ((SparseCore.T d).loc main_arg20)))) $$ [HSI H20]
  · isplitl [HSI] <;> iassumption
  icases H with ⟨%h20, HSI, -⟩
  ihave H := (persistent_entails_right (SI_pointsTo_agree (st := s') (ℓ := (SparseCore.T d).loc main_arg21) (I := Finset.univ) (q := fullShare) (f := m ((SparseCore.T d).loc main_arg21)))) $$ [HSI H21]
  · isplitl [HSI] <;> iassumption
  icases H with ⟨%h21, HSI, -⟩
  ihave H := (persistent_entails_right (SI_pointsTo_agree (st := s') (ℓ := (SparseCore.T d).loc main_arg22) (I := Finset.univ) (q := fullShare) (f := m ((SparseCore.T d).loc main_arg22)))) $$ [HSI H22]
  · isplitl [HSI] <;> iassumption
  icases H with ⟨%h22, HSI, -⟩
  ihave H := (persistent_entails_right (SI_pointsTo_agree (st := s') (ℓ := (SparseCore.T d).loc main_arg23) (I := Finset.univ) (q := fullShare) (f := m ((SparseCore.T d).loc main_arg23)))) $$ [HSI H23]
  · isplitl [HSI] <;> iassumption
  icases H with ⟨%h23, HSI, -⟩
  ihave H := (persistent_entails_right (SI_pointsTo_agree (st := s') (ℓ := (SparseCore.T d).loc main_arg24) (I := Finset.univ) (q := fullShare) (f := m ((SparseCore.T d).loc main_arg24)))) $$ [HSI H24]
  · isplitl [HSI] <;> iassumption
  icases H with ⟨%h24, HSI, -⟩
  ihave H := (persistent_entails_right (SI_pointsTo_agree (st := s') (ℓ := (SparseCore.T d).loc main_arg25) (I := Finset.univ) (q := fullShare) (f := m ((SparseCore.T d).loc main_arg25)))) $$ [HSI H25]
  · isplitl [HSI] <;> iassumption
  icases H with ⟨%h25, HSI, -⟩
  ihave H := (persistent_entails_right (SI_pointsTo_agree (st := s') (ℓ := (SparseCore.T d).loc main_arg26) (I := Finset.univ) (q := fullShare) (f := m ((SparseCore.T d).loc main_arg26)))) $$ [HSI H26]
  · isplitl [HSI] <;> iassumption
  icases H with ⟨%h26, HSI, -⟩
  ihave H := (SI_pointsTo_agree (st := s') (ℓ := oLoc d) (I := Finset.univ) (q := fullShare) (f := (gatherOut (F := F) (Xf m d) (Tb m d) : Buf (Elt F) (oLoc d)))) $$ [HSI Ho]
  · isplitl [HSI] <;> iassumption
  icases H with %ho
  ipureintro
  show fqM m d s'.mem
  exact ⟨funext fun i => ho i (Finset.mem_univ i), funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i), funext fun i => h6 i (Finset.mem_univ i), funext fun i => h7 i (Finset.mem_univ i), funext fun i => h8 i (Finset.mem_univ i), funext fun i => h9 i (Finset.mem_univ i), funext fun i => h10 i (Finset.mem_univ i), funext fun i => h11 i (Finset.mem_univ i), funext fun i => h12 i (Finset.mem_univ i), funext fun i => h13 i (Finset.mem_univ i), funext fun i => h14 i (Finset.mem_univ i), funext fun i => h15 i (Finset.mem_univ i), funext fun i => h16 i (Finset.mem_univ i), funext fun i => h17 i (Finset.mem_univ i), funext fun i => h18 i (Finset.mem_univ i), funext fun i => h19 i (Finset.mem_univ i), funext fun i => h20 i (Finset.mem_univ i), funext fun i => h21 i (Finset.mem_univ i), funext fun i => h22 i (Finset.mem_univ i), funext fun i => h23 i (Finset.mem_univ i), funext fun i => h24 i (Finset.mem_univ i), funext fun i => h25 i (Finset.mem_univ i), funext fun i => h26 i (Finset.mem_univ i)⟩

/-- The claim's reading of the final memory. -/
def QC : PUnit × MemSt nD τ sig (Elt F) → Prop := fun r => ∀ c : Dev nD, fqM m c r.2

/-- The flat row numbers are below 128 when the row numbers are. -/
theorem Xf_lt (hx : ∀ (d : Dev nD) (j : S16384x26.Idx), (m ((SparseCore.T d).loc main_arg0) j : BitVec 32).toNat < 128) (d : Dev nD) (j : S425984.Idx) :
    (Xf m d j : BitVec 32).toNat < 128 := by
  unfold Xf flatOf shapeCast; exact hx d _

theorem run_main [∀ e, Nonempty (Elt F e)] (hbody : TileBody (F := F) UU)
    (hx : ∀ (d : Dev nD) (j : S16384x26.Idx), (m ((SparseCore.T d).loc main_arg0) j : BitVec 32).toNat < 128) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P (U := UU) (Xf m) (Tb m) (fun d => m (oLoc d))) facts v₀
    (fun q hq => match q with | 0 => nomatch hq)
    (fun q _ => match q with | 0 => tileObl hbody facts (Xf m) (Tb m) (fun d => m (oLoc d)) (Xf_lt m hx))
    (fun q _ => match q with | 0 => SparseCore.Cfg.VecSplit.of_plain (vecSplit (Xf m) (Tb m) (fun d => m (oLoc d))))
    m ρ main (fun d => G (F := F) d) (FIN m) (u₀ (F := F)) (sep_elim_left.trans (hu₀ (Xf m) (Tb m) (fun d => m (oLoc d)))) (hmain m ρ) (fq m) (hfin m) (QC m) (fun _ h => h)

end Cert.Proof.KI

end
-- ==== Proof.SetupB.lean ====
/-
  The kernel as the SparseCore launch theorem sees it, and who holds what.

  The flat row numbers (`main_v1`, 425984 words) and the result (`main_v2`, 16384 x 3328) are cut into 32 contiguous
  pieces, one per vector subcore: worker `w = 2 s + c` (subcore `s` of SparseCore `c`) owns words
  `[13312 w, 13312 (w+1))` and result rows `[512 w, 512 (w+1))`.  The rescaled table (`main_v0`, 3328 x 128) is
  read by every worker, so each holds a read share of all of it.  A worker's task turns its piece of the result into
  the gathered rows: result element `(r, q)` is element `q mod 128` of table row `X[26 r + q / 128] + 128 (q / 128)`.
-/
import proofs.«207321_g10943576670982_fold_wed_m_632_36_alg».proof.Defs
import proofs.«207321_g10943576670982_fold_wed_m_632_36_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«207321_g10943576670982_fold_wed_m_632_36_alg».proof.Proof.Gen.Kernel
import proofs.«207321_g10943576670982_fold_wed_m_632_36_alg».proof.Proof.Gen.Kernel.Skeleton
import proofs.«207321_g10943576670982_fold_wed_m_632_36_alg».proof.Proof.Gen.Pre_input_domain

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The machine's algebra, over any user algebra that holds the transfers' counters -/

variable {U : Type} [URA U]

local notation "𝕄" => MT nD τ sig (HIx 1) (Elt F) ℕ U ℕ

/-! ## The three arrays of the SparseCore call -/

abbrev xLoc (d : Dev nD) : Loc nD τ sig := (SparseCore.T d).loc main_v1
abbrev tLoc (d : Dev nD) : Loc nD τ sig := (SparseCore.T d).loc main_v0
abbrev oLoc (d : Dev nD) : Loc nD τ sig := (SparseCore.T d).loc main_v2

/-- Worker number of a place of the grid: `2 s + c`. -/
def wid (L : grid1.Coords) : ℕ := 2 * (L 1).val + (L 0).val
theorem wid_lt (L : grid1.Coords) : wid L < 32 := by
  have h0 : (L 0).val < 2 := (L 0).isLt
  have h1 : (L 1).val < 16 := (L 1).isLt
  unfold wid; omega

/-- The grid place of SparseCore `c`, subcore `s`. -/
def coordsV (c : Fin 2) (s : Fin 16) : grid1.Coords :=
  fun | 0 => (c : Fin (grid1.bound 0)) | 1 => (s : Fin (grid1.bound 1)) | ⟨_ + 2, h⟩ => absurd h (Nat.not_lt.2 (Nat.le_add_left _ _))

/-- The SparseCore and the subcore of a grid place, as the machine numbers them. -/
abbrev cV (L : grid1.Coords) : Fin τ.nSC := (L 0).castLE hcore1
abbrev jV (L : grid1.Coords) : Fin τ.nSub := (L 1).castLE hsub1

/-- The words of the flat row numbers, and the rows of the result, that worker `L` owns. -/
def xSet (L : grid1.Coords) : Finset S425984.Idx := Finset.univ.filter fun j => (j 0).val / 13312 = wid L
def oSet (L : grid1.Coords) : Finset S16384x3328.Idx := Finset.univ.filter fun j => (j 0).val / 512 = wid L

/-- The share of the table that SparseCore `c` holds, and the one its subcore `s` holds. -/
abbrev coreShare (c : Fin 2) : PosShare TreeShare := Transfers.shareTok fullShare 2 c
abbrev tileShare (L : grid1.Coords) : PosShare TreeShare := Transfers.shareTok (coreShare (L 0)) 16 (L 1)

/-- The result a worker leaves: element `(r, q)` is element `q mod 128` of the table's row
    `X[26 r + q / 128] + 128 (q / 128)` (read modulo the table's 3328 rows, which it is below when the word is below 128). -/
def gatherOut (X : S425984.Idx → Elt F .i32) (Tb : S3328x128.Idx → Elt F .f32) : S16384x3328.Idx → Elt F .f32 := fun j =>
  Tb (ix2 (⟨((X (ix1 ⟨(26 * (j 0).val + (j 1).val / 128) % 425984, Nat.mod_lt _ (by norm_num)⟩) : BitVec 32).toNat + 128 * ((j 1).val / 128)) % 3328,
      Nat.mod_lt _ (by norm_num)⟩ : Fin 3328) (⟨(j 1).val % 128, Nat.mod_lt _ (by norm_num)⟩ : Fin 128))

/-- What a worker is handed: its words of the row numbers, its share of the table, its rows of the result. -/
def tileGo (d : Dev nD) (L : grid1.Coords) (X : Buf (Elt F) (xLoc d)) (Tb : Buf (Elt F) (tLoc d)) (O0 : Buf (Elt F) (oLoc d)) : sProp 𝕄 :=
  iprop((xLoc d ↦[xSet L]{fullShare} X) ∗ (tLoc d ↦{tileShare L} Tb) ∗ (oLoc d ↦[oSet L]{fullShare} O0))

/-- What it hands back: its rows of the result, holding the gathered rows. -/
def tileTd (d : Dev nD) (L : grid1.Coords) (X : Buf (Elt F) (xLoc d)) (Tb : Buf (Elt F) (tLoc d)) : sProp 𝕄 :=
  oLoc d ↦[oSet L]{fullShare} (gatherOut (F := F) X Tb : Buf (Elt F) (oLoc d))

/-! ## What the handshakes carry -/

/-- The words and the rows that SparseCore `c`'s sixteen workers own together. -/
def xCoreSet (c : Fin 2) : Finset S425984.Idx := Finset.univ.filter fun j => ((j 0).val / 13312) % 2 = c.val
def oCoreSet (c : Fin 2) : Finset S16384x3328.Idx := Finset.univ.filter fun j => ((j 0).val / 512) % 2 = c.val

/-- A SparseCore of the call takes its words of the row numbers, its share of the table and its rows of the result; a
    worker takes its part of them (`tileGo`) and brings its rows of the result back filled (`tileTd`). -/
def P (X : (d : Dev nD) → Buf (Elt F) (xLoc d)) (Tb : (d : Dev nD) → Buf (Elt F) (tLoc d)) (O0 : (d : Dev nD) → Buf (Elt F) (oLoc d)) :
    (K (F := F)).Pay (nD := nD) (Val := Elt F) (Name := ℕ) (U := U) where
  st := fun q d c => match q with
    | 0 => iprop((xLoc d ↦[xCoreSet (Fin.cast nCore_zero c)]{fullShare} X d) ∗ (tLoc d ↦{coreShare (Fin.cast nCore_zero c)} Tb d)
        ∗ (oLoc d ↦[oCoreSet (Fin.cast nCore_zero c)]{fullShare} O0 d))
  dn := fun q d c => match q with
    | 0 => oLoc d ↦[oCoreSet (Fin.cast nCore_zero c)]{fullShare} (gatherOut (F := F) (X d) (Tb d) : Buf (Elt F) (oLoc d))
  go := fun q d c i => match q with
    | 0 => tileGo d (coordsV (Fin.cast nCore_zero c) (Fin.cast nSub_zero i)) (X d) (Tb d) (O0 d)
  td := fun q d c i => match q with
    | 0 => tileTd d (coordsV (Fin.cast nCore_zero c) (Fin.cast nSub_zero i)) (X d) (Tb d)
  x := fun _ _ => iprop(emp)

instance P_storable (X : (d : Dev nD) → Buf (Elt F) (xLoc d)) (Tb : (d : Dev nD) → Buf (Elt F) (tLoc d)) (O0 : (d : Dev nD) → Buf (Elt F) (oLoc d)) :
    (P (U := U) X Tb O0).IsStorable where
  st q d c := match q with
    | 0 => (inferInstance : BI.Storable (upEmb : UEmb _ 𝕄) iprop((xLoc d ↦[xCoreSet (Fin.cast nCore_zero c)]{fullShare} X d) ∗ (tLoc d ↦{coreShare (Fin.cast nCore_zero c)} Tb d)
        ∗ (oLoc d ↦[oCoreSet (Fin.cast nCore_zero c)]{fullShare} O0 d)))
  dn q d c := match q with
    | 0 => (inferInstance : BI.Storable (upEmb : UEmb _ 𝕄) (oLoc d ↦[oCoreSet (Fin.cast nCore_zero c)]{fullShare} (gatherOut (F := F) (X d) (Tb d) : Buf (Elt F) (oLoc d))))
  go q d c i := match q with
    | 0 => (inferInstance : BI.Storable (upEmb : UEmb _ 𝕄) iprop((xLoc d ↦[xSet (coordsV (Fin.cast nCore_zero c) (Fin.cast nSub_zero i))]{fullShare} X d)
        ∗ (tLoc d ↦{tileShare (coordsV (Fin.cast nCore_zero c) (Fin.cast nSub_zero i))} Tb d) ∗ (oLoc d ↦[oSet (coordsV (Fin.cast nCore_zero c) (Fin.cast nSub_zero i))]{fullShare} O0 d)))
  td q d c i := match q with
    | 0 => (inferInstance : BI.Storable (upEmb : UEmb _ 𝕄) (oLoc d ↦[oSet (coordsV (Fin.cast nCore_zero c) (Fin.cast nSub_zero i))]{fullShare} (gatherOut (F := F) (X d) (Tb d) : Buf (Elt F) (oLoc d))))

end Cert.Proof.KB

end
-- ==== Proof.MainBa.lean ====
/-
  The certificate's ghost state.

  Three components side by side: the rounds of the launch handshakes between the TensorCore, the sequencers and the
  vector subcores; the rounds of the staging cells of the one TensorCore region (one cell per window: 26 tables in,
  the rescaled table out); and the counters of the transfers the vector subcores make.  The launch element gives the
  handshakes their initial rounds and funds the region's cells and their duty tokens, which the TensorCore of each
  device receives for its region.
-/
import proofs.«207321_g10943576670982_fold_wed_m_632_36_alg».proof.Proof.SetupB
import proofs.«207321_g10943576670982_fold_wed_m_632_36_alg».proof.Proof.Gen.Kernel.Launch
import proofs.«207321_g10943576670982_fold_wed_m_632_36_alg».proof.Proof.Gen.Kernel.Points

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

/-! ## The algebra and the embeddings -/

abbrev UH : Type := URounds (GSem nD τ sig) ℕ
abbrev UP : Type := URounds (GSem nD τ sig) Unit
abbrev UU : Type := UH × (UP × Counters)

instance : CountersIn UU := inferInstance

local notation "𝕄" => MT nD τ sig (HIx 1) (Elt F) ℕ UU ℕ

/-- The handshakes' rounds: the left component. -/
abbrev EH : Emb UH (MT nD τ sig (HIx 1) (Elt F) ℕ UU ℕ) := embL
/-- The region's rounds: the left of the right component. -/
abbrev EP : Emb UP (MT nD τ sig (HIx 1) (Elt F) ℕ UU ℕ) := (Emb.inl : Emb UP (UP × Counters)).trans embR

instance EP_landsIn : (EP (F := F)).LandsIn (upEmb : UEmb _ (MT nD τ sig (HIx 1) (Elt F) ℕ UU ℕ)) := by unfold EP; infer_instance

/-! ## The region's tables: none is prefetched -/

abbrev aA : (p : Fin 1) → (pcfgs (F := F) p).Adm := fun q => (cfgs q).toPCfg_adm
abbrev pinned : Fin 1 → Pipeline.Cfg sig Λ₀ := Pipeline.pin (pcfgs (F := F)) aA

theorem hinj : Function.Injective (Pipeline.cellOf (nD := nD) (τ := τ) (pinned (F := F))) := cellOf_inj

/-! ## The launch element -/

def u₀ : UU :=
  (initOf (K (F := F)).hsCells (K (F := F)).hsToks,
    (initOf (Pipeline.cells (pinned (F := F)) hinj) (Pipeline.launchToks (pinned (F := F)) hinj), 1))

/-- What the TensorCore of a device starts @main with beyond the launch's deal: the ghost state of its region's cells
    and the tokens of their duties. -/
def G (d : Dev nD) : sProp 𝕄 :=
  iprop(Pipeline.cellsGhost (pinned (F := F)) EP 0 d ∗ Pipeline.toksInit (pinned (F := F)) EP 0 d)

theorem bigSep_emp' {I : Type} (s : Finset I) : (bigSep s fun _ => iprop(emp)) = (iprop(emp) : sProp 𝕄) := bigSep_emp_const s

theorem hu₀ (X : (d : Dev nD) → Buf (Elt F) (xLoc d)) (Tb : (d : Dev nD) → Buf (Elt F) (tLoc d)) (O0 : (d : Dev nD) → Buf (Elt F) (oLoc d)) :
    (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (U := UU) X Tb O0).x q thr) := by
  unfold u₀
  iintro Hu
  ihave H := (ownU_pair _ _) $$ Hu
  icases H with ⟨HH, HR⟩
  ihave H2 := (own_pair_emb embR _ _) $$ HR
  icases H2 with ⟨HP, -⟩
  imod (Pipeline.fund_ghost (pinned (F := F)) EP hinj) $$ HP with ⟨Hg, Ht⟩
  imodintro
  isplitl [HH]; · iexact HH
  isplitl [Hg Ht]
  · unfold G
    rw [bigSep_sep']
    isplitl [Hg]
    · rw [show (bigSep Finset.univ fun d : Dev nD => Pipeline.cellsGhost (pinned (F := F)) EP 0 d)
          = bigSep Finset.univ fun c : Dev nD => bigSep Finset.univ fun p : Fin 1 => Pipeline.cellsGhost (pinned (F := F)) (EP (F := F)) p c from
        bigSep_congr fun c _ => (bigSep_univ_of_subsingleton (0 : Fin 1) (Φ := fun p : Fin 1 => Pipeline.cellsGhost (pinned (F := F)) (EP (F := F)) p c)).symm]
      iexact Hg
    · rw [show (bigSep Finset.univ fun d : Dev nD => (Pipeline.toksInit (pinned (F := F)) EP 0 d : sProp 𝕄))
          = bigSep Finset.univ fun c : Dev nD => bigSep Finset.univ fun p : Fin 1 => (Pipeline.toksInit (pinned (F := F)) (EP (F := F)) p c : sProp 𝕄) from
        bigSep_congr fun c _ => (bigSep_univ_of_subsingleton (0 : Fin 1) (Φ := fun p : Fin 1 => (Pipeline.toksInit (pinned (F := F)) (EP (F := F)) p c : sProp 𝕄))).symm]
      iexact Ht
  rw [show (bigSep Finset.univ fun thr : Thread nD τ => bigSep Finset.univ fun q : Fin 1 => (P (U := UU) X Tb O0).x q thr) = bigSep Finset.univ fun _ => iprop(emp) from
    bigSep_congr fun _ _ => bigSep_univ_of_subsingleton (0 : Fin 1), bigSep_emp']
  iempintro

end Cert.Proof.KB

end
-- ==== Proof.TableB.lean ====
/-
  The rescaled table as one function of the 26 tables.

  The TensorCore kernel stores, for table `t`, one 128 x 128 block into rows `[128 t, 128 t + 128)` of the 3328 x 128
  result.  Each stored block is the same arithmetic of its table — every row times min(1, 1 / max(norm, eps)) — but
  the program is given in parts of sixty statements, so for eight of the tables the block's term takes a value
  computed in the part before (the row norms, the squares, the quotient) as an argument: `blk t` composes the pieces
  back into one function of the table.
-/
import proofs.«207321_g10943576670982_fold_wed_m_632_36_alg».proof.Proof.SetupB

noncomputable section

namespace Cert.Proof.KB

open Cert.Kernel Cert.Kernel.Gen
open Idealize.ShloMosaic Idealize.ShloMosaic.ValueIdx

variable {F : FTy → Type} [FloatOps F]

/-- The block stored for table `t`, as a function of that table. -/
def blk (t : Fin 26) (w : Vec F S128x128 .f32) : FVec F S128x128 .f32 :=
  match t with
  | ⟨0, _⟩ => k0_pay2 w
  | ⟨1, _⟩ => k0_pay3 w
  | ⟨2, _⟩ => k0_pay5 w (k0_pay4 w)
  | ⟨3, _⟩ => k0_pay6 w
  | ⟨4, _⟩ => k0_pay7 w
  | ⟨5, _⟩ => k0_pay9 w (k0_pay8 w)
  | ⟨6, _⟩ => k0_pay10 w
  | ⟨7, _⟩ => k0_pay11 w
  | ⟨8, _⟩ => k0_pay12 w
  | ⟨9, _⟩ => k0_pay13 w
  | ⟨10, _⟩ => k0_pay16 w (k0_pay14 w) k0_pay15
  | ⟨11, _⟩ => k0_pay17 w
  | ⟨12, _⟩ => k0_pay18 w
  | ⟨13, _⟩ => k0_pay19 w
  | ⟨14, _⟩ => k0_pay20 w
  | ⟨15, _⟩ => k0_pay22 w (k0_pay21 w) (Scalar.ofBits .f32 0x3F800000#32)
  | ⟨16, _⟩ => k0_pay23 w
  | ⟨17, _⟩ => k0_pay24 w
  | ⟨18, _⟩ => k0_pay26 w (k0_pay25 w)
  | ⟨19, _⟩ => k0_pay27 w
  | ⟨20, _⟩ => k0_pay28 w
  | ⟨21, _⟩ => k0_pay29 w
  | ⟨22, _⟩ => k0_pay30 w
  | ⟨23, _⟩ => k0_pay32 w (k0_pay31 w)
  | ⟨24, _⟩ => k0_pay33 w
  | ⟨25, _⟩ => k0_pay1 w (k0_pay34 w) k0_pay35
  | ⟨_ + 26, h⟩ => absurd h (by omega)

/-- The whole rescaled table: row `r` lies in block `r / 128`, at row `r mod 128` of it. -/
def tableOf (W : Fin 26 → Vec F S128x128 .f32) : S3328x128.Idx → F .f32 := fun j =>
  blk (⟨(j 0).val / 128, by have h : (j 0).val < 3328 := (j 0).isLt; omega⟩ : Fin 26) (W ⟨(j 0).val / 128, by have h : (j 0).val < 3328 := (j 0).isLt; omega⟩)
    (ix2 (⟨(j 0).val % 128, Nat.mod_lt _ (by norm_num)⟩ : Fin 128) (j 1))

/-- The table at a row written as `128 f + r` is row `r` of block `f`. -/
theorem tableOf_apply (W : Fin 26 → Vec F S128x128 .f32) (j : S3328x128.Idx) (f : Fin 26) (r : Fin 128)
    (h : (j 0).val = 128 * f.val + r.val) : tableOf W j = blk f (W f) (ix2 r (j 1)) := by
  unfold tableOf
  have hf : (⟨(j 0).val / 128, by have h : (j 0).val < 3328 := (j 0).isLt; omega⟩ : Fin 26) = f := Fin.ext (by simp only; omega)
  have hr : (⟨(j 0).val % 128, Nat.mod_lt _ (by norm_num)⟩ : Fin 128) = r := Fin.ext (by simp only; omega)
  rw [hf, hr]

/-- The row numbers laid out flat, row-major: word `26 b + f` is `x[b, f]`. -/
def flatOf (x : S16384x26.Idx → BitVec 32) : S425984.Idx → BitVec 32 := shapeCast S425984 x shapeCasts_S16384x26_S425984

end Cert.Proof.KB

end
-- ==== Proof.BodyB.lean ====
/-
  The TensorCore kernel's body as one triple.

  The body reads each of the 26 staged tables whole and stores, for table `t`, one 128 x 128 block into rows
  `[128 t, 128 t + 128)` of the staged result: the block is `blk t` of the table (TableI).  The 26 blocks tile the
  result, so after the body the staged result is the pieces' canonical reading, and the staged tables are as they were.
-/
import proofs.«207321_g10943576670982_fold_wed_m_632_36_alg».proof.Proof.TableB
import Idealize.ShloMosaic.Lib.Pipeline.FrameBody
import Idealize.ShloMosaic.Lib.Ring

set_option maxRecDepth 16384

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] {U : Type} [URA U]

local notation "𝕄" => MT nD τ sig (HIx 1) (Elt F) ℕ U ℕ

/-- A staged table whole, and block `t` of the staged result. -/
abbrev rIn : Rect S128x128 := Rect.unit (s := S128x128) ![0, 0] S128x128.size inb_S128x128_S128x128_0_0
def rOut : ℕ → Rect S3328x128
  | 0 => Rect.unit (s := S3328x128) ![0, 0] S128x128.size inb_S3328x128_S128x128_0_0
  | 1 => Rect.unit (s := S3328x128) ![128, 0] S128x128.size inb_S3328x128_S128x128_128_0
  | 2 => Rect.unit (s := S3328x128) ![256, 0] S128x128.size inb_S3328x128_S128x128_256_0
  | 3 => Rect.unit (s := S3328x128) ![384, 0] S128x128.size inb_S3328x128_S128x128_384_0
  | 4 => Rect.unit (s := S3328x128) ![512, 0] S128x128.size inb_S3328x128_S128x128_512_0
  | 5 => Rect.unit (s := S3328x128) ![640, 0] S128x128.size inb_S3328x128_S128x128_640_0
  | 6 => Rect.unit (s := S3328x128) ![768, 0] S128x128.size inb_S3328x128_S128x128_768_0
  | 7 => Rect.unit (s := S3328x128) ![896, 0] S128x128.size inb_S3328x128_S128x128_896_0
  | 8 => Rect.unit (s := S3328x128) ![1024, 0] S128x128.size inb_S3328x128_S128x128_1024_0
  | 9 => Rect.unit (s := S3328x128) ![1152, 0] S128x128.size inb_S3328x128_S128x128_1152_0
  | 10 => Rect.unit (s := S3328x128) ![1280, 0] S128x128.size inb_S3328x128_S128x128_1280_0
  | 11 => Rect.unit (s := S3328x128) ![1408, 0] S128x128.size inb_S3328x128_S128x128_1408_0
  | 12 => Rect.unit (s := S3328x128) ![1536, 0] S128x128.size inb_S3328x128_S128x128_1536_0
  | 13 => Rect.unit (s := S3328x128) ![1664, 0] S128x128.size inb_S3328x128_S128x128_1664_0
  | 14 => Rect.unit (s := S3328x128) ![1792, 0] S128x128.size inb_S3328x128_S128x128_1792_0
  | 15 => Rect.unit (s := S3328x128) ![1920, 0] S128x128.size inb_S3328x128_S128x128_1920_0
  | 16 => Rect.unit (s := S3328x128) ![2048, 0] S128x128.size inb_S3328x128_S128x128_2048_0
  | 17 => Rect.unit (s := S3328x128) ![2176, 0] S128x128.size inb_S3328x128_S128x128_2176_0
  | 18 => Rect.unit (s := S3328x128) ![2304, 0] S128x128.size inb_S3328x128_S128x128_2304_0
  | 19 => Rect.unit (s := S3328x128) ![2432, 0] S128x128.size inb_S3328x128_S128x128_2432_0
  | 20 => Rect.unit (s := S3328x128) ![2560, 0] S128x128.size inb_S3328x128_S128x128_2560_0
  | 21 => Rect.unit (s := S3328x128) ![2688, 0] S128x128.size inb_S3328x128_S128x128_2688_0
  | 22 => Rect.unit (s := S3328x128) ![2816, 0] S128x128.size inb_S3328x128_S128x128_2816_0
  | 23 => Rect.unit (s := S3328x128) ![2944, 0] S128x128.size inb_S3328x128_S128x128_2944_0
  | 24 => Rect.unit (s := S3328x128) ![3072, 0] S128x128.size inb_S3328x128_S128x128_3072_0
  | 25 => Rect.unit (s := S3328x128) ![3200, 0] S128x128.size inb_S3328x128_S128x128_3200_0
  | _ => Rect.unit (s := S3328x128) ![0, 0] S128x128.size inb_S3328x128_S128x128_0_0

/-- The staged result after the body, from the staged tables: its 26 stores as pieces, last first. -/
def outStage (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (x17 : Vec F S128x128 .f32) (x18 : Vec F S128x128 .f32) (x19 : Vec F S128x128 .f32) (x20 : Vec F S128x128 .f32) (x21 : Vec F S128x128 .f32) (x22 : Vec F S128x128 .f32) (x23 : Vec F S128x128 .f32) (x24 : Vec F S128x128 .f32) (x25 : Vec F S128x128 .f32) : Vec F S3328x128 .f32 :=
  View.canon [⟨rOut 25, blk ⟨25, by decide⟩ (View.ld x25 rIn)⟩,
    ⟨rOut 24, blk ⟨24, by decide⟩ (View.ld x24 rIn)⟩,
    ⟨rOut 23, blk ⟨23, by decide⟩ (View.ld x23 rIn)⟩,
    ⟨rOut 22, blk ⟨22, by decide⟩ (View.ld x22 rIn)⟩,
    ⟨rOut 21, blk ⟨21, by decide⟩ (View.ld x21 rIn)⟩,
    ⟨rOut 20, blk ⟨20, by decide⟩ (View.ld x20 rIn)⟩,
    ⟨rOut 19, blk ⟨19, by decide⟩ (View.ld x19 rIn)⟩,
    ⟨rOut 18, blk ⟨18, by decide⟩ (View.ld x18 rIn)⟩,
    ⟨rOut 17, blk ⟨17, by decide⟩ (View.ld x17 rIn)⟩,
    ⟨rOut 16, blk ⟨16, by decide⟩ (View.ld x16 rIn)⟩,
    ⟨rOut 15, blk ⟨15, by decide⟩ (View.ld x15 rIn)⟩,
    ⟨rOut 14, blk ⟨14, by decide⟩ (View.ld x14 rIn)⟩,
    ⟨rOut 13, blk ⟨13, by decide⟩ (View.ld x13 rIn)⟩,
    ⟨rOut 12, blk ⟨12, by decide⟩ (View.ld x12 rIn)⟩,
    ⟨rOut 11, blk ⟨11, by decide⟩ (View.ld x11 rIn)⟩,
    ⟨rOut 10, blk ⟨10, by decide⟩ (View.ld x10 rIn)⟩,
    ⟨rOut 9, blk ⟨9, by decide⟩ (View.ld x9 rIn)⟩,
    ⟨rOut 8, blk ⟨8, by decide⟩ (View.ld x8 rIn)⟩,
    ⟨rOut 7, blk ⟨7, by decide⟩ (View.ld x7 rIn)⟩,
    ⟨rOut 6, blk ⟨6, by decide⟩ (View.ld x6 rIn)⟩,
    ⟨rOut 5, blk ⟨5, by decide⟩ (View.ld x5 rIn)⟩,
    ⟨rOut 4, blk ⟨4, by decide⟩ (View.ld x4 rIn)⟩,
    ⟨rOut 3, blk ⟨3, by decide⟩ (View.ld x3 rIn)⟩,
    ⟨rOut 2, blk ⟨2, by decide⟩ (View.ld x2 rIn)⟩,
    ⟨rOut 1, blk ⟨1, by decide⟩ (View.ld x1 rIn)⟩,
    ⟨rOut 0, blk ⟨0, by decide⟩ (View.ld x0 rIn)⟩]

/-- The stores tile the staged result. -/
theorem cover_outStage (p0 : Vec F S128x128 .f32) (p1 : Vec F S128x128 .f32) (p2 : Vec F S128x128 .f32) (p3 : Vec F S128x128 .f32) (p4 : Vec F S128x128 .f32) (p5 : Vec F S128x128 .f32) (p6 : Vec F S128x128 .f32) (p7 : Vec F S128x128 .f32) (p8 : Vec F S128x128 .f32) (p9 : Vec F S128x128 .f32) (p10 : Vec F S128x128 .f32) (p11 : Vec F S128x128 .f32) (p12 : Vec F S128x128 .f32) (p13 : Vec F S128x128 .f32) (p14 : Vec F S128x128 .f32) (p15 : Vec F S128x128 .f32) (p16 : Vec F S128x128 .f32) (p17 : Vec F S128x128 .f32) (p18 : Vec F S128x128 .f32) (p19 : Vec F S128x128 .f32) (p20 : Vec F S128x128 .f32) (p21 : Vec F S128x128 .f32) (p22 : Vec F S128x128 .f32) (p23 : Vec F S128x128 .f32) (p24 : Vec F S128x128 .f32) (p25 : Vec F S128x128 .f32) (y : S3328x128.Idx) :
    ∃ pc ∈ ([⟨rOut 25, p25⟩, ⟨rOut 24, p24⟩, ⟨rOut 23, p23⟩, ⟨rOut 22, p22⟩, ⟨rOut 21, p21⟩, ⟨rOut 20, p20⟩, ⟨rOut 19, p19⟩, ⟨rOut 18, p18⟩, ⟨rOut 17, p17⟩, ⟨rOut 16, p16⟩, ⟨rOut 15, p15⟩, ⟨rOut 14, p14⟩, ⟨rOut 13, p13⟩, ⟨rOut 12, p12⟩, ⟨rOut 11, p11⟩, ⟨rOut 10, p10⟩, ⟨rOut 9, p9⟩, ⟨rOut 8, p8⟩, ⟨rOut 7, p7⟩, ⟨rOut 6, p6⟩, ⟨rOut 5, p5⟩, ⟨rOut 4, p4⟩, ⟨rOut 3, p3⟩, ⟨rOut 2, p2⟩, ⟨rOut 1, p1⟩, ⟨rOut 0, p0⟩] : List (View.Piece (Elt F) S3328x128 .f32)), y ∈ pc.1.set :=
  View.cover_of_tiled [⟨rOut 25, p25⟩, ⟨rOut 24, p24⟩, ⟨rOut 23, p23⟩, ⟨rOut 22, p22⟩, ⟨rOut 21, p21⟩, ⟨rOut 20, p20⟩, ⟨rOut 19, p19⟩, ⟨rOut 18, p18⟩, ⟨rOut 17, p17⟩, ⟨rOut 16, p16⟩, ⟨rOut 15, p15⟩, ⟨rOut 14, p14⟩, ⟨rOut 13, p13⟩, ⟨rOut 12, p12⟩, ⟨rOut 11, p11⟩, ⟨rOut 10, p10⟩, ⟨rOut 9, p9⟩, ⟨rOut 8, p8⟩, ⟨rOut 7, p7⟩, ⟨rOut 6, p6⟩, ⟨rOut 5, p5⟩, ⟨rOut 4, p4⟩, ⟨rOut 3, p3⟩, ⟨rOut 2, p2⟩, ⟨rOut 1, p1⟩, ⟨rOut 0, p0⟩] S128x128.size (by rfl) y

set_option maxHeartbeats 8000000 in
/-- The body on whole staging memrefs: the tables' at their contents, the result's at anything, to the tables' as they
    were and the result's at `outStage` of them. -/
theorem sound_kernel (d : Dev nD) (E : Set ℕ) (arg0 : Memref sig .tc .vmem S128x128 .f32) (harg0 : arg0.IsWhole) (arg1 : Memref sig .tc .vmem S128x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S128x128 .f32) (harg14 : arg14.IsWhole) (arg15 : Memref sig .tc .vmem S128x128 .f32) (harg15 : arg15.IsWhole) (arg16 : Memref sig .tc .vmem S128x128 .f32) (harg16 : arg16.IsWhole) (arg17 : Memref sig .tc .vmem S128x128 .f32) (harg17 : arg17.IsWhole) (arg18 : Memref sig .tc .vmem S128x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S3328x128 .f32) (harg26 : arg26.IsWhole)
    (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (x17 : Vec F S128x128 .f32) (x18 : Vec F S128x128 .f32) (x19 : Vec F S128x128 .f32) (x20 : Vec F S128x128 .f32) (x21 : Vec F S128x128 .f32) (x22 : Vec F S128x128 .f32) (x23 : Vec F S128x128 .f32) (x24 : Vec F S128x128 .f32) (x25 : Vec F S128x128 .f32) (Kc : PUnit → sProp 𝕄) :
    iprop(owns (SparseCore.T d) arg0 fullShare x0 ∗ owns (SparseCore.T d) arg1 fullShare x1 ∗ owns (SparseCore.T d) arg2 fullShare x2 ∗ owns (SparseCore.T d) arg3 fullShare x3 ∗ owns (SparseCore.T d) arg4 fullShare x4 ∗ owns (SparseCore.T d) arg5 fullShare x5 ∗ owns (SparseCore.T d) arg6 fullShare x6 ∗ owns (SparseCore.T d) arg7 fullShare x7 ∗ owns (SparseCore.T d) arg8 fullShare x8 ∗ owns (SparseCore.T d) arg9 fullShare x9 ∗ owns (SparseCore.T d) arg10 fullShare x10 ∗ owns (SparseCore.T d) arg11 fullShare x11 ∗ owns (SparseCore.T d) arg12 fullShare x12 ∗ owns (SparseCore.T d) arg13 fullShare x13 ∗ owns (SparseCore.T d) arg14 fullShare x14 ∗ owns (SparseCore.T d) arg15 fullShare x15 ∗ owns (SparseCore.T d) arg16 fullShare x16 ∗ owns (SparseCore.T d) arg17 fullShare x17 ∗ owns (SparseCore.T d) arg18 fullShare x18 ∗ owns (SparseCore.T d) arg19 fullShare x19 ∗ owns (SparseCore.T d) arg20 fullShare x20 ∗ owns (SparseCore.T d) arg21 fullShare x21 ∗ owns (SparseCore.T d) arg22 fullShare x22 ∗ owns (SparseCore.T d) arg23 fullShare x23 ∗ owns (SparseCore.T d) arg24 fullShare x24 ∗ owns (SparseCore.T d) arg25 fullShare x25 ∗ (∃ dd, owns (SparseCore.T d) arg26 fullShare dd)
        ∗ (iprop(owns (SparseCore.T d) arg0 fullShare x0 ∗ owns (SparseCore.T d) arg1 fullShare x1 ∗ owns (SparseCore.T d) arg2 fullShare x2 ∗ owns (SparseCore.T d) arg3 fullShare x3 ∗ owns (SparseCore.T d) arg4 fullShare x4 ∗ owns (SparseCore.T d) arg5 fullShare x5 ∗ owns (SparseCore.T d) arg6 fullShare x6 ∗ owns (SparseCore.T d) arg7 fullShare x7 ∗ owns (SparseCore.T d) arg8 fullShare x8 ∗ owns (SparseCore.T d) arg9 fullShare x9 ∗ owns (SparseCore.T d) arg10 fullShare x10 ∗ owns (SparseCore.T d) arg11 fullShare x11 ∗ owns (SparseCore.T d) arg12 fullShare x12 ∗ owns (SparseCore.T d) arg13 fullShare x13 ∗ owns (SparseCore.T d) arg14 fullShare x14 ∗ owns (SparseCore.T d) arg15 fullShare x15 ∗ owns (SparseCore.T d) arg16 fullShare x16 ∗ owns (SparseCore.T d) arg17 fullShare x17 ∗ owns (SparseCore.T d) arg18 fullShare x18 ∗ owns (SparseCore.T d) arg19 fullShare x19 ∗ owns (SparseCore.T d) arg20 fullShare x20 ∗ owns (SparseCore.T d) arg21 fullShare x21 ∗ owns (SparseCore.T d) arg22 fullShare x22 ∗ owns (SparseCore.T d) arg23 fullShare x23 ∗ owns (SparseCore.T d) arg24 fullShare x24 ∗ owns (SparseCore.T d) arg25 fullShare x25 ∗ owns (SparseCore.T d) arg26 fullShare (outStage x0 x1 x2 x3 x4 x5 x6 x7 x8 x9 x10 x11 x12 x13 x14 x15 x16 x17 x18 x19 x20 x21 x22 x23 x24 x25)) -∗ Kc ⟨⟩))
      ⊢ wp frame (wpE (defs₀ (F := F)) Variants.none (SparseCore.T d) none) E (cc0__scale_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) Kc := by
  simp only [cc0__scale_body_eq_skeleton]; unfold cc0__scale_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%d26, %f26, -, H26⟩, Hk⟩
  subst hf0 hf1 hf2 hf3 hf4 hf5 hf6 hf7 hf8 hf9 hf10 hf11 hf12 hf13 hf14 hf15 hf16 hf17 hf18 hf19 hf20 hf21 hf22 hf23 hf24 hf25
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  iexists _; isplitr
  swap; · iexact H26
  ipureintro
  exact View.read_writes_eq_canon _ _ _ (cover_outStage _ _ _ _ _ _ _ _ _ _ _ _ _ _ _ _ _ _ _ _ _ _ _ _ _ _)

end Cert.Proof.KB

end
-- ==== Proof.StageB.lean ====
/-
  The staged result after the TensorCore body is the rescaled table.

  The body's 26 stores tile the staged result, and the block stored for table `t` is, at local row `r`, the table
  function's row `128 t + r`; so the stores' canonical reading is the one function `tableOf` of the 26 tables.
-/
import proofs.«207321_g10943576670982_fold_wed_m_632_36_alg».proof.Proof.BodyB
import Idealize.ShloMosaic.Lib.Pipeline.Value

set_option maxRecDepth 16384

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F] [∀ e, Nonempty (Elt F e)]

/-- The 26 tables as a family. -/
def tabs (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (x17 : Vec F S128x128 .f32) (x18 : Vec F S128x128 .f32) (x19 : Vec F S128x128 .f32) (x20 : Vec F S128x128 .f32) (x21 : Vec F S128x128 .f32) (x22 : Vec F S128x128 .f32) (x23 : Vec F S128x128 .f32) (x24 : Vec F S128x128 .f32) (x25 : Vec F S128x128 .f32) : Fin 26 → Vec F S128x128 .f32 := fun t =>
  match t with
  | ⟨0, _⟩ => x0
  | ⟨1, _⟩ => x1
  | ⟨2, _⟩ => x2
  | ⟨3, _⟩ => x3
  | ⟨4, _⟩ => x4
  | ⟨5, _⟩ => x5
  | ⟨6, _⟩ => x6
  | ⟨7, _⟩ => x7
  | ⟨8, _⟩ => x8
  | ⟨9, _⟩ => x9
  | ⟨10, _⟩ => x10
  | ⟨11, _⟩ => x11
  | ⟨12, _⟩ => x12
  | ⟨13, _⟩ => x13
  | ⟨14, _⟩ => x14
  | ⟨15, _⟩ => x15
  | ⟨16, _⟩ => x16
  | ⟨17, _⟩ => x17
  | ⟨18, _⟩ => x18
  | ⟨19, _⟩ => x19
  | ⟨20, _⟩ => x20
  | ⟨21, _⟩ => x21
  | ⟨22, _⟩ => x22
  | ⟨23, _⟩ => x23
  | ⟨24, _⟩ => x24
  | ⟨25, _⟩ => x25
  | ⟨_ + 26, h⟩ => absurd h (by omega)

theorem zero_off : (![0, 0] : Fin 2 → ℕ) = fun _ => 0 := by
  funext a; match a with | ⟨0, _⟩ => rfl | ⟨1, _⟩ => rfl

/-- A staged table read whole is the table. -/
theorem ld_rIn (x : Vec F S128x128 .f32) : View.ld x rIn = x := View.ld_unit_zero (S := S128x128) zero_off _ x

/-- The block of table `f`, placed at rows from `128 f`, is the table function there. -/
theorem piece_at (W : Fin 26 → Vec F S128x128 .f32) (f : Fin 26) (off0 : ℕ) (hoff : off0 = 128 * f.val)
    (inb : ∀ a, (![off0, 0] : Fin 2 → ℕ) a + S128x128.size a ≤ S3328x128.size a) (x : S128x128.Idx) :
    blk f (W f) x = tableOf W ((Rect.unit (s := S3328x128) ![off0, 0] S128x128.size inb).emb x) := by
  have h0 : (((Rect.unit (s := S3328x128) ![off0, 0] S128x128.size inb).emb x) 0).val = 128 * f.val + (x 0).val := by
    rw [Rect.emb_apply]; simp [hoff]
  have h1 : ((Rect.unit (s := S3328x128) ![off0, 0] S128x128.size inb).emb x) 1 = x 1 := by
    apply Fin.ext; rw [Rect.emb_apply]; simp
  rw [tableOf_apply W _ f (x 0) h0, h1]
  exact congrArg (blk f (W f)) (eq_ix2 x)

theorem outStage_eq_tableOf (x0 : Vec F S128x128 .f32) (x1 : Vec F S128x128 .f32) (x2 : Vec F S128x128 .f32) (x3 : Vec F S128x128 .f32) (x4 : Vec F S128x128 .f32) (x5 : Vec F S128x128 .f32) (x6 : Vec F S128x128 .f32) (x7 : Vec F S128x128 .f32) (x8 : Vec F S128x128 .f32) (x9 : Vec F S128x128 .f32) (x10 : Vec F S128x128 .f32) (x11 : Vec F S128x128 .f32) (x12 : Vec F S128x128 .f32) (x13 : Vec F S128x128 .f32) (x14 : Vec F S128x128 .f32) (x15 : Vec F S128x128 .f32) (x16 : Vec F S128x128 .f32) (x17 : Vec F S128x128 .f32) (x18 : Vec F S128x128 .f32) (x19 : Vec F S128x128 .f32) (x20 : Vec F S128x128 .f32) (x21 : Vec F S128x128 .f32) (x22 : Vec F S128x128 .f32) (x23 : Vec F S128x128 .f32) (x24 : Vec F S128x128 .f32) (x25 : Vec F S128x128 .f32) :
    outStage x0 x1 x2 x3 x4 x5 x6 x7 x8 x9 x10 x11 x12 x13 x14 x15 x16 x17 x18 x19 x20 x21 x22 x23 x24 x25 = tableOf (tabs x0 x1 x2 x3 x4 x5 x6 x7 x8 x9 x10 x11 x12 x13 x14 x15 x16 x17 x18 x19 x20 x21 x22 x23 x24 x25) := by
  funext y
  unfold outStage
  simp only [ld_rIn]
  refine View.canon_apply_of_pieces (tableOf (tabs x0 x1 x2 x3 x4 x5 x6 x7 x8 x9 x10 x11 x12 x13 x14 x15 x16 x17 x18 x19 x20 x21 x22 x23 x24 x25)) _ ?_ y (cover_outStage _ _ _ _ _ _ _ _ _ _ _ _ _ _ _ _ _ _ _ _ _ _ _ _ _ _ y)
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl
  · exact piece_at (tabs x0 x1 x2 x3 x4 x5 x6 x7 x8 x9 x10 x11 x12 x13 x14 x15 x16 x17 x18 x19 x20 x21 x22 x23 x24 x25) ⟨25, by decide⟩ 3200 rfl inb_S3328x128_S128x128_3200_0 x
  · exact piece_at (tabs x0 x1 x2 x3 x4 x5 x6 x7 x8 x9 x10 x11 x12 x13 x14 x15 x16 x17 x18 x19 x20 x21 x22 x23 x24 x25) ⟨24, by decide⟩ 3072 rfl inb_S3328x128_S128x128_3072_0 x
  · exact piece_at (tabs x0 x1 x2 x3 x4 x5 x6 x7 x8 x9 x10 x11 x12 x13 x14 x15 x16 x17 x18 x19 x20 x21 x22 x23 x24 x25) ⟨23, by decide⟩ 2944 rfl inb_S3328x128_S128x128_2944_0 x
  · exact piece_at (tabs x0 x1 x2 x3 x4 x5 x6 x7 x8 x9 x10 x11 x12 x13 x14 x15 x16 x17 x18 x19 x20 x21 x22 x23 x24 x25) ⟨22, by decide⟩ 2816 rfl inb_S3328x128_S128x128_2816_0 x
  · exact piece_at (tabs x0 x1 x2 x3 x4 x5 x6 x7 x8 x9 x10 x11 x12 x13 x14 x15 x16 x17 x18 x19 x20 x21 x22 x23 x24 x25) ⟨21, by decide⟩ 2688 rfl inb_S3328x128_S128x128_2688_0 x
  · exact piece_at (tabs x0 x1 x2 x3 x4 x5 x6 x7 x8 x9 x10 x11 x12 x13 x14 x15 x16 x17 x18 x19 x20 x21 x22 x23 x24 x25) ⟨20, by decide⟩ 2560 rfl inb_S3328x128_S128x128_2560_0 x
  · exact piece_at (tabs x0 x1 x2 x3 x4 x5 x6 x7 x8 x9 x10 x11 x12 x13 x14 x15 x16 x17 x18 x19 x20 x21 x22 x23 x24 x25) ⟨19, by decide⟩ 2432 rfl inb_S3328x128_S128x128_2432_0 x
  · exact piece_at (tabs x0 x1 x2 x3 x4 x5 x6 x7 x8 x9 x10 x11 x12 x13 x14 x15 x16 x17 x18 x19 x20 x21 x22 x23 x24 x25) ⟨18, by decide⟩ 2304 rfl inb_S3328x128_S128x128_2304_0 x
  · exact piece_at (tabs x0 x1 x2 x3 x4 x5 x6 x7 x8 x9 x10 x11 x12 x13 x14 x15 x16 x17 x18 x19 x20 x21 x22 x23 x24 x25) ⟨17, by decide⟩ 2176 rfl inb_S3328x128_S128x128_2176_0 x
  · exact piece_at (tabs x0 x1 x2 x3 x4 x5 x6 x7 x8 x9 x10 x11 x12 x13 x14 x15 x16 x17 x18 x19 x20 x21 x22 x23 x24 x25) ⟨16, by decide⟩ 2048 rfl inb_S3328x128_S128x128_2048_0 x
  · exact piece_at (tabs x0 x1 x2 x3 x4 x5 x6 x7 x8 x9 x10 x11 x12 x13 x14 x15 x16 x17 x18 x19 x20 x21 x22 x23 x24 x25) ⟨15, by decide⟩ 1920 rfl inb_S3328x128_S128x128_1920_0 x
  · exact piece_at (tabs x0 x1 x2 x3 x4 x5 x6 x7 x8 x9 x10 x11 x12 x13 x14 x15 x16 x17 x18 x19 x20 x21 x22 x23 x24 x25) ⟨14, by decide⟩ 1792 rfl inb_S3328x128_S128x128_1792_0 x
  · exact piece_at (tabs x0 x1 x2 x3 x4 x5 x6 x7 x8 x9 x10 x11 x12 x13 x14 x15 x16 x17 x18 x19 x20 x21 x22 x23 x24 x25) ⟨13, by decide⟩ 1664 rfl inb_S3328x128_S128x128_1664_0 x
  · exact piece_at (tabs x0 x1 x2 x3 x4 x5 x6 x7 x8 x9 x10 x11 x12 x13 x14 x15 x16 x17 x18 x19 x20 x21 x22 x23 x24 x25) ⟨12, by decide⟩ 1536 rfl inb_S3328x128_S128x128_1536_0 x
  · exact piece_at (tabs x0 x1 x2 x3 x4 x5 x6 x7 x8 x9 x10 x11 x12 x13 x14 x15 x16 x17 x18 x19 x20 x21 x22 x23 x24 x25) ⟨11, by decide⟩ 1408 rfl inb_S3328x128_S128x128_1408_0 x
  · exact piece_at (tabs x0 x1 x2 x3 x4 x5 x6 x7 x8 x9 x10 x11 x12 x13 x14 x15 x16 x17 x18 x19 x20 x21 x22 x23 x24 x25) ⟨10, by decide⟩ 1280 rfl inb_S3328x128_S128x128_1280_0 x
  · exact piece_at (tabs x0 x1 x2 x3 x4 x5 x6 x7 x8 x9 x10 x11 x12 x13 x14 x15 x16 x17 x18 x19 x20 x21 x22 x23 x24 x25) ⟨9, by decide⟩ 1152 rfl inb_S3328x128_S128x128_1152_0 x
  · exact piece_at (tabs x0 x1 x2 x3 x4 x5 x6 x7 x8 x9 x10 x11 x12 x13 x14 x15 x16 x17 x18 x19 x20 x21 x22 x23 x24 x25) ⟨8, by decide⟩ 1024 rfl inb_S3328x128_S128x128_1024_0 x
  · exact piece_at (tabs x0 x1 x2 x3 x4 x5 x6 x7 x8 x9 x10 x11 x12 x13 x14 x15 x16 x17 x18 x19 x20 x21 x22 x23 x24 x25) ⟨7, by decide⟩ 896 rfl inb_S3328x128_S128x128_896_0 x
  · exact piece_at (tabs x0 x1 x2 x3 x4 x5 x6 x7 x8 x9 x10 x11 x12 x13 x14 x15 x16 x17 x18 x19 x20 x21 x22 x23 x24 x25) ⟨6, by decide⟩ 768 rfl inb_S3328x128_S128x128_768_0 x
  · exact piece_at (tabs x0 x1 x2 x3 x4 x5 x6 x7 x8 x9 x10 x11 x12 x13 x14 x15 x16 x17 x18 x19 x20 x21 x22 x23 x24 x25) ⟨5, by decide⟩ 640 rfl inb_S3328x128_S128x128_640_0 x
  · exact piece_at (tabs x0 x1 x2 x3 x4 x5 x6 x7 x8 x9 x10 x11 x12 x13 x14 x15 x16 x17 x18 x19 x20 x21 x22 x23 x24 x25) ⟨4, by decide⟩ 512 rfl inb_S3328x128_S128x128_512_0 x
  · exact piece_at (tabs x0 x1 x2 x3 x4 x5 x6 x7 x8 x9 x10 x11 x12 x13 x14 x15 x16 x17 x18 x19 x20 x21 x22 x23 x24 x25) ⟨3, by decide⟩ 384 rfl inb_S3328x128_S128x128_384_0 x
  · exact piece_at (tabs x0 x1 x2 x3 x4 x5 x6 x7 x8 x9 x10 x11 x12 x13 x14 x15 x16 x17 x18 x19 x20 x21 x22 x23 x24 x25) ⟨2, by decide⟩ 256 rfl inb_S3328x128_S128x128_256_0 x
  · exact piece_at (tabs x0 x1 x2 x3 x4 x5 x6 x7 x8 x9 x10 x11 x12 x13 x14 x15 x16 x17 x18 x19 x20 x21 x22 x23 x24 x25) ⟨1, by decide⟩ 128 rfl inb_S3328x128_S128x128_128_0 x
  · exact piece_at (tabs x0 x1 x2 x3 x4 x5 x6 x7 x8 x9 x10 x11 x12 x13 x14 x15 x16 x17 x18 x19 x20 x21 x22 x23 x24 x25) ⟨0, by decide⟩ 0 rfl inb_S3328x128_S128x128_0_0 x

end Cert.Proof.KB

end
-- ==== Proof.MainBb.lean ====
/-
  The TensorCore region of @main: the 26 tables are rescaled into one table of 3328 rows.

  The region's kernel has no grid: every window is its whole array, fetched once (the 26 tables) or written back once
  (the result).  The body loads each table whole, and stores its rescaled block into rows [128 t, 128 t + 128) of the
  result's staging buffer; the 26 stores tile that buffer, so what is written back is the table `Tb`: block t is
  `blk t` of table t.  The TensorCore owes the SparseCores' start signals throughout: the region's own waits sit
  at the lowest level, below all of them.
-/
import proofs.«207321_g10943576670982_fold_wed_m_632_36_alg».proof.Proof.SetupB
import proofs.«207321_g10943576670982_fold_wed_m_632_36_alg».proof.Proof.MainBa
import proofs.«207321_g10943576670982_fold_wed_m_632_36_alg».proof.Proof.TableB
import proofs.«207321_g10943576670982_fold_wed_m_632_36_alg».proof.Proof.StageB
import Idealize.ShloMosaic.Lib.Pipeline.FrameBody
import Idealize.ShloMosaic.Lib.Ring

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

variable [FloatOps F]

local notation "𝕄" => MT nD τ sig (HIx 1) (Elt F) ℕ UU ℕ

variable (m : (ℓ : Loc nD τ sig) → Buf (Elt F) ℓ)

/-! ## What @main's arrays hold -/

/-- The TensorCore's buffers as launched. -/
abbrev V0 (d : Dev nD) (b : Ref sig .tc) : Buf (Elt F) ((d.tc : Thread nD τ).loc b) := m ((d.tc : Thread nD τ).loc b)

/-- The flat row numbers: what the reshape leaves. -/
def Xf (d : Dev nD) : Buf (Elt F) (xLoc d) := flatOf (m ((SparseCore.T d).loc main_arg0))

/-- The 26 tables of device `d`, by number. -/
def tabOf (d : Dev nD) (t : Fin 26) : Vec F S128x128 .f32 :=
  match t with
    | ⟨0, _⟩ => m ((SparseCore.T d).loc main_arg1)
    | ⟨1, _⟩ => m ((SparseCore.T d).loc main_arg2)
    | ⟨2, _⟩ => m ((SparseCore.T d).loc main_arg3)
    | ⟨3, _⟩ => m ((SparseCore.T d).loc main_arg4)
    | ⟨4, _⟩ => m ((SparseCore.T d).loc main_arg5)
    | ⟨5, _⟩ => m ((SparseCore.T d).loc main_arg6)
    | ⟨6, _⟩ => m ((SparseCore.T d).loc main_arg7)
    | ⟨7, _⟩ => m ((SparseCore.T d).loc main_arg8)
    | ⟨8, _⟩ => m ((SparseCore.T d).loc main_arg9)
    | ⟨9, _⟩ => m ((SparseCore.T d).loc main_arg10)
    | ⟨10, _⟩ => m ((SparseCore.T d).loc main_arg11)
    | ⟨11, _⟩ => m ((SparseCore.T d).loc main_arg12)
    | ⟨12, _⟩ => m ((SparseCore.T d).loc main_arg13)
    | ⟨13, _⟩ => m ((SparseCore.T d).loc main_arg14)
    | ⟨14, _⟩ => m ((SparseCore.T d).loc main_arg15)
    | ⟨15, _⟩ => m ((SparseCore.T d).loc main_arg16)
    | ⟨16, _⟩ => m ((SparseCore.T d).loc main_arg17)
    | ⟨17, _⟩ => m ((SparseCore.T d).loc main_arg18)
    | ⟨18, _⟩ => m ((SparseCore.T d).loc main_arg19)
    | ⟨19, _⟩ => m ((SparseCore.T d).loc main_arg20)
    | ⟨20, _⟩ => m ((SparseCore.T d).loc main_arg21)
    | ⟨21, _⟩ => m ((SparseCore.T d).loc main_arg22)
    | ⟨22, _⟩ => m ((SparseCore.T d).loc main_arg23)
    | ⟨23, _⟩ => m ((SparseCore.T d).loc main_arg24)
    | ⟨24, _⟩ => m ((SparseCore.T d).loc main_arg25)
    | ⟨25, _⟩ => m ((SparseCore.T d).loc main_arg26)
    | ⟨_ + 26, h⟩ => absurd h (by omega)

/-- The rescaled table: what the region leaves. -/
def Tb (d : Dev nD) : Buf (Elt F) (tLoc d) := tableOf (tabOf m d)

/-- The 26 tables as launched and the rescaled table's array at contents `f`. -/
def arrs (d : Dev nD) (f : Buf (Elt F) (tLoc d)) : sProp 𝕄 :=
  iprop(((SparseCore.T d).loc main_arg1 ↦{fullShare} m ((SparseCore.T d).loc main_arg1)) ∗ ((SparseCore.T d).loc main_arg2 ↦{fullShare} m ((SparseCore.T d).loc main_arg2)) ∗ ((SparseCore.T d).loc main_arg3 ↦{fullShare} m ((SparseCore.T d).loc main_arg3)) ∗ ((SparseCore.T d).loc main_arg4 ↦{fullShare} m ((SparseCore.T d).loc main_arg4)) ∗ ((SparseCore.T d).loc main_arg5 ↦{fullShare} m ((SparseCore.T d).loc main_arg5)) ∗ ((SparseCore.T d).loc main_arg6 ↦{fullShare} m ((SparseCore.T d).loc main_arg6)) ∗ ((SparseCore.T d).loc main_arg7 ↦{fullShare} m ((SparseCore.T d).loc main_arg7)) ∗ ((SparseCore.T d).loc main_arg8 ↦{fullShare} m ((SparseCore.T d).loc main_arg8)) ∗ ((SparseCore.T d).loc main_arg9 ↦{fullShare} m ((SparseCore.T d).loc main_arg9)) ∗ ((SparseCore.T d).loc main_arg10 ↦{fullShare} m ((SparseCore.T d).loc main_arg10)) ∗ ((SparseCore.T d).loc main_arg11 ↦{fullShare} m ((SparseCore.T d).loc main_arg11)) ∗ ((SparseCore.T d).loc main_arg12 ↦{fullShare} m ((SparseCore.T d).loc main_arg12)) ∗ ((SparseCore.T d).loc main_arg13 ↦{fullShare} m ((SparseCore.T d).loc main_arg13)) ∗ ((SparseCore.T d).loc main_arg14 ↦{fullShare} m ((SparseCore.T d).loc main_arg14)) ∗ ((SparseCore.T d).loc main_arg15 ↦{fullShare} m ((SparseCore.T d).loc main_arg15)) ∗ ((SparseCore.T d).loc main_arg16 ↦{fullShare} m ((SparseCore.T d).loc main_arg16)) ∗ ((SparseCore.T d).loc main_arg17 ↦{fullShare} m ((SparseCore.T d).loc main_arg17)) ∗ ((SparseCore.T d).loc main_arg18 ↦{fullShare} m ((SparseCore.T d).loc main_arg18)) ∗ ((SparseCore.T d).loc main_arg19 ↦{fullShare} m ((SparseCore.T d).loc main_arg19)) ∗ ((SparseCore.T d).loc main_arg20 ↦{fullShare} m ((SparseCore.T d).loc main_arg20)) ∗ ((SparseCore.T d).loc main_arg21 ↦{fullShare} m ((SparseCore.T d).loc main_arg21)) ∗ ((SparseCore.T d).loc main_arg22 ↦{fullShare} m ((SparseCore.T d).loc main_arg22)) ∗ ((SparseCore.T d).loc main_arg23 ↦{fullShare} m ((SparseCore.T d).loc main_arg23)) ∗ ((SparseCore.T d).loc main_arg24 ↦{fullShare} m ((SparseCore.T d).loc main_arg24)) ∗ ((SparseCore.T d).loc main_arg25 ↦{fullShare} m ((SparseCore.T d).loc main_arg25)) ∗ ((SparseCore.T d).loc main_arg26 ↦{fullShare} m ((SparseCore.T d).loc main_arg26)) ∗ (tLoc d ↦{fullShare} f))

variable [∀ e, Nonempty (Elt F e)]

variable (O : CellTallies nD τ sig (HIx 1))

/-! ## The windows' blocks -/

/-- Window `w`'s block at the region's one point, read off its array as the region finds it. -/
def iblk (d : Dev nD) (w : Fin cfg0.W) (t : Fin cfg0.N) : ((cfg0.win w).xblock (cfg0.grid.coords t)).Idx → Elt F (cfg0.win w).elt :=
  ((cfg0.win w).blk t).view.read (Elt F) (V0 m d (Pipeline.arrRef spec0 w))

theorem before_0_of {d : Dev nD} (dat : Pipeline.Dat τ (Elt F) (HIx 1) ℕ UU ℕ cfg0 d) (hA : dat.A 0 = V0 m d (Pipeline.arrRef spec0 0))
    (hafter : ∀ t, dat.after 0 t = iblk m d 0 t) (t : Fin cfg0.N) (dd) : dat.before 0 t dd = iblk m d 0 t :=
  (dat.before_in_eq_fetched 0 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_1_of {d : Dev nD} (dat : Pipeline.Dat τ (Elt F) (HIx 1) ℕ UU ℕ cfg0 d) (hA : dat.A 1 = V0 m d (Pipeline.arrRef spec0 1))
    (hafter : ∀ t, dat.after 1 t = iblk m d 1 t) (t : Fin cfg0.N) (dd) : dat.before 1 t dd = iblk m d 1 t :=
  (dat.before_in_eq_fetched 1 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_2_of {d : Dev nD} (dat : Pipeline.Dat τ (Elt F) (HIx 1) ℕ UU ℕ cfg0 d) (hA : dat.A 2 = V0 m d (Pipeline.arrRef spec0 2))
    (hafter : ∀ t, dat.after 2 t = iblk m d 2 t) (t : Fin cfg0.N) (dd) : dat.before 2 t dd = iblk m d 2 t :=
  (dat.before_in_eq_fetched 2 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_3_of {d : Dev nD} (dat : Pipeline.Dat τ (Elt F) (HIx 1) ℕ UU ℕ cfg0 d) (hA : dat.A 3 = V0 m d (Pipeline.arrRef spec0 3))
    (hafter : ∀ t, dat.after 3 t = iblk m d 3 t) (t : Fin cfg0.N) (dd) : dat.before 3 t dd = iblk m d 3 t :=
  (dat.before_in_eq_fetched 3 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_4_of {d : Dev nD} (dat : Pipeline.Dat τ (Elt F) (HIx 1) ℕ UU ℕ cfg0 d) (hA : dat.A 4 = V0 m d (Pipeline.arrRef spec0 4))
    (hafter : ∀ t, dat.after 4 t = iblk m d 4 t) (t : Fin cfg0.N) (dd) : dat.before 4 t dd = iblk m d 4 t :=
  (dat.before_in_eq_fetched 4 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_5_of {d : Dev nD} (dat : Pipeline.Dat τ (Elt F) (HIx 1) ℕ UU ℕ cfg0 d) (hA : dat.A 5 = V0 m d (Pipeline.arrRef spec0 5))
    (hafter : ∀ t, dat.after 5 t = iblk m d 5 t) (t : Fin cfg0.N) (dd) : dat.before 5 t dd = iblk m d 5 t :=
  (dat.before_in_eq_fetched 5 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_6_of {d : Dev nD} (dat : Pipeline.Dat τ (Elt F) (HIx 1) ℕ UU ℕ cfg0 d) (hA : dat.A 6 = V0 m d (Pipeline.arrRef spec0 6))
    (hafter : ∀ t, dat.after 6 t = iblk m d 6 t) (t : Fin cfg0.N) (dd) : dat.before 6 t dd = iblk m d 6 t :=
  (dat.before_in_eq_fetched 6 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_7_of {d : Dev nD} (dat : Pipeline.Dat τ (Elt F) (HIx 1) ℕ UU ℕ cfg0 d) (hA : dat.A 7 = V0 m d (Pipeline.arrRef spec0 7))
    (hafter : ∀ t, dat.after 7 t = iblk m d 7 t) (t : Fin cfg0.N) (dd) : dat.before 7 t dd = iblk m d 7 t :=
  (dat.before_in_eq_fetched 7 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_8_of {d : Dev nD} (dat : Pipeline.Dat τ (Elt F) (HIx 1) ℕ UU ℕ cfg0 d) (hA : dat.A 8 = V0 m d (Pipeline.arrRef spec0 8))
    (hafter : ∀ t, dat.after 8 t = iblk m d 8 t) (t : Fin cfg0.N) (dd) : dat.before 8 t dd = iblk m d 8 t :=
  (dat.before_in_eq_fetched 8 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_9_of {d : Dev nD} (dat : Pipeline.Dat τ (Elt F) (HIx 1) ℕ UU ℕ cfg0 d) (hA : dat.A 9 = V0 m d (Pipeline.arrRef spec0 9))
    (hafter : ∀ t, dat.after 9 t = iblk m d 9 t) (t : Fin cfg0.N) (dd) : dat.before 9 t dd = iblk m d 9 t :=
  (dat.before_in_eq_fetched 9 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_10_of {d : Dev nD} (dat : Pipeline.Dat τ (Elt F) (HIx 1) ℕ UU ℕ cfg0 d) (hA : dat.A 10 = V0 m d (Pipeline.arrRef spec0 10))
    (hafter : ∀ t, dat.after 10 t = iblk m d 10 t) (t : Fin cfg0.N) (dd) : dat.before 10 t dd = iblk m d 10 t :=
  (dat.before_in_eq_fetched 10 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_11_of {d : Dev nD} (dat : Pipeline.Dat τ (Elt F) (HIx 1) ℕ UU ℕ cfg0 d) (hA : dat.A 11 = V0 m d (Pipeline.arrRef spec0 11))
    (hafter : ∀ t, dat.after 11 t = iblk m d 11 t) (t : Fin cfg0.N) (dd) : dat.before 11 t dd = iblk m d 11 t :=
  (dat.before_in_eq_fetched 11 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_12_of {d : Dev nD} (dat : Pipeline.Dat τ (Elt F) (HIx 1) ℕ UU ℕ cfg0 d) (hA : dat.A 12 = V0 m d (Pipeline.arrRef spec0 12))
    (hafter : ∀ t, dat.after 12 t = iblk m d 12 t) (t : Fin cfg0.N) (dd) : dat.before 12 t dd = iblk m d 12 t :=
  (dat.before_in_eq_fetched 12 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_13_of {d : Dev nD} (dat : Pipeline.Dat τ (Elt F) (HIx 1) ℕ UU ℕ cfg0 d) (hA : dat.A 13 = V0 m d (Pipeline.arrRef spec0 13))
    (hafter : ∀ t, dat.after 13 t = iblk m d 13 t) (t : Fin cfg0.N) (dd) : dat.before 13 t dd = iblk m d 13 t :=
  (dat.before_in_eq_fetched 13 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_14_of {d : Dev nD} (dat : Pipeline.Dat τ (Elt F) (HIx 1) ℕ UU ℕ cfg0 d) (hA : dat.A 14 = V0 m d (Pipeline.arrRef spec0 14))
    (hafter : ∀ t, dat.after 14 t = iblk m d 14 t) (t : Fin cfg0.N) (dd) : dat.before 14 t dd = iblk m d 14 t :=
  (dat.before_in_eq_fetched 14 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_15_of {d : Dev nD} (dat : Pipeline.Dat τ (Elt F) (HIx 1) ℕ UU ℕ cfg0 d) (hA : dat.A 15 = V0 m d (Pipeline.arrRef spec0 15))
    (hafter : ∀ t, dat.after 15 t = iblk m d 15 t) (t : Fin cfg0.N) (dd) : dat.before 15 t dd = iblk m d 15 t :=
  (dat.before_in_eq_fetched 15 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_16_of {d : Dev nD} (dat : Pipeline.Dat τ (Elt F) (HIx 1) ℕ UU ℕ cfg0 d) (hA : dat.A 16 = V0 m d (Pipeline.arrRef spec0 16))
    (hafter : ∀ t, dat.after 16 t = iblk m d 16 t) (t : Fin cfg0.N) (dd) : dat.before 16 t dd = iblk m d 16 t :=
  (dat.before_in_eq_fetched 16 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_17_of {d : Dev nD} (dat : Pipeline.Dat τ (Elt F) (HIx 1) ℕ UU ℕ cfg0 d) (hA : dat.A 17 = V0 m d (Pipeline.arrRef spec0 17))
    (hafter : ∀ t, dat.after 17 t = iblk m d 17 t) (t : Fin cfg0.N) (dd) : dat.before 17 t dd = iblk m d 17 t :=
  (dat.before_in_eq_fetched 17 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_18_of {d : Dev nD} (dat : Pipeline.Dat τ (Elt F) (HIx 1) ℕ UU ℕ cfg0 d) (hA : dat.A 18 = V0 m d (Pipeline.arrRef spec0 18))
    (hafter : ∀ t, dat.after 18 t = iblk m d 18 t) (t : Fin cfg0.N) (dd) : dat.before 18 t dd = iblk m d 18 t :=
  (dat.before_in_eq_fetched 18 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_19_of {d : Dev nD} (dat : Pipeline.Dat τ (Elt F) (HIx 1) ℕ UU ℕ cfg0 d) (hA : dat.A 19 = V0 m d (Pipeline.arrRef spec0 19))
    (hafter : ∀ t, dat.after 19 t = iblk m d 19 t) (t : Fin cfg0.N) (dd) : dat.before 19 t dd = iblk m d 19 t :=
  (dat.before_in_eq_fetched 19 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_20_of {d : Dev nD} (dat : Pipeline.Dat τ (Elt F) (HIx 1) ℕ UU ℕ cfg0 d) (hA : dat.A 20 = V0 m d (Pipeline.arrRef spec0 20))
    (hafter : ∀ t, dat.after 20 t = iblk m d 20 t) (t : Fin cfg0.N) (dd) : dat.before 20 t dd = iblk m d 20 t :=
  (dat.before_in_eq_fetched 20 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_21_of {d : Dev nD} (dat : Pipeline.Dat τ (Elt F) (HIx 1) ℕ UU ℕ cfg0 d) (hA : dat.A 21 = V0 m d (Pipeline.arrRef spec0 21))
    (hafter : ∀ t, dat.after 21 t = iblk m d 21 t) (t : Fin cfg0.N) (dd) : dat.before 21 t dd = iblk m d 21 t :=
  (dat.before_in_eq_fetched 21 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_22_of {d : Dev nD} (dat : Pipeline.Dat τ (Elt F) (HIx 1) ℕ UU ℕ cfg0 d) (hA : dat.A 22 = V0 m d (Pipeline.arrRef spec0 22))
    (hafter : ∀ t, dat.after 22 t = iblk m d 22 t) (t : Fin cfg0.N) (dd) : dat.before 22 t dd = iblk m d 22 t :=
  (dat.before_in_eq_fetched 22 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_23_of {d : Dev nD} (dat : Pipeline.Dat τ (Elt F) (HIx 1) ℕ UU ℕ cfg0 d) (hA : dat.A 23 = V0 m d (Pipeline.arrRef spec0 23))
    (hafter : ∀ t, dat.after 23 t = iblk m d 23 t) (t : Fin cfg0.N) (dd) : dat.before 23 t dd = iblk m d 23 t :=
  (dat.before_in_eq_fetched 23 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_24_of {d : Dev nD} (dat : Pipeline.Dat τ (Elt F) (HIx 1) ℕ UU ℕ cfg0 d) (hA : dat.A 24 = V0 m d (Pipeline.arrRef spec0 24))
    (hafter : ∀ t, dat.after 24 t = iblk m d 24 t) (t : Fin cfg0.N) (dd) : dat.before 24 t dd = iblk m d 24 t :=
  (dat.before_in_eq_fetched 24 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)
theorem before_25_of {d : Dev nD} (dat : Pipeline.Dat τ (Elt F) (HIx 1) ℕ UU ℕ cfg0 d) (hA : dat.A 25 = V0 m d (Pipeline.arrRef spec0 25))
    (hafter : ∀ t, dat.after 25 t = iblk m d 25 t) (t : Fin cfg0.N) (dd) : dat.before 25 t dd = iblk m d 25 t :=
  (dat.before_in_eq_fetched 25 rfl (fun _ => rfl) (fun _ _ _ => rfl) (fun t => by rw [hafter]; unfold Pipeline.Dat.blockOf iblk; rw [hA]; try rfl) t dd).trans
    (by unfold Pipeline.Dat.fetched Pipeline.Dat.blockOf iblk; rw [hA]; try rfl)

/-! ## The region's proof data -/

/-- The arrays as the region finds them; after the body each table's buffer holds the table and the result's buffer the 26
    rescaled blocks; the invariant is the scoped buffers no window stages; the TensorCore owes `O` throughout, and every
    pair its waits have recorded sits at the lowest level. -/
def dats (_ : Fin 1) (d : Dev nD) : Pipeline.Dat τ (Elt F) (HIx 1) ℕ UU ℕ cfg0 d where
  A w := V0 m d (Pipeline.arrRef spec0 w)
  after w t := match w with
    | ⟨0, _⟩ => iblk m d 0 t
    | ⟨1, _⟩ => iblk m d 1 t
    | ⟨2, _⟩ => iblk m d 2 t
    | ⟨3, _⟩ => iblk m d 3 t
    | ⟨4, _⟩ => iblk m d 4 t
    | ⟨5, _⟩ => iblk m d 5 t
    | ⟨6, _⟩ => iblk m d 6 t
    | ⟨7, _⟩ => iblk m d 7 t
    | ⟨8, _⟩ => iblk m d 8 t
    | ⟨9, _⟩ => iblk m d 9 t
    | ⟨10, _⟩ => iblk m d 10 t
    | ⟨11, _⟩ => iblk m d 11 t
    | ⟨12, _⟩ => iblk m d 12 t
    | ⟨13, _⟩ => iblk m d 13 t
    | ⟨14, _⟩ => iblk m d 14 t
    | ⟨15, _⟩ => iblk m d 15 t
    | ⟨16, _⟩ => iblk m d 16 t
    | ⟨17, _⟩ => iblk m d 17 t
    | ⟨18, _⟩ => iblk m d 18 t
    | ⟨19, _⟩ => iblk m d 19 t
    | ⟨20, _⟩ => iblk m d 20 t
    | ⟨21, _⟩ => iblk m d 21 t
    | ⟨22, _⟩ => iblk m d 22 t
    | ⟨23, _⟩ => iblk m d 23 t
    | ⟨24, _⟩ => iblk m d 24 t
    | ⟨25, _⟩ => iblk m d 25 t
    | ⟨26, _⟩ => outStage (iblk m d 0 t) (iblk m d 1 t) (iblk m d 2 t) (iblk m d 3 t) (iblk m d 4 t) (iblk m d 5 t) (iblk m d 6 t) (iblk m d 7 t) (iblk m d 8 t) (iblk m d 9 t) (iblk m d 10 t) (iblk m d 11 t) (iblk m d 12 t) (iblk m d 13 t) (iblk m d 14 t) (iblk m d 15 t) (iblk m d 16 t) (iblk m d 17 t) (iblk m d 18 t) (iblk m d 19 t) (iblk m d 20 t) (iblk m d 21 t) (iblk m d 22 t) (iblk m d 23 t) (iblk m d 24 t) (iblk m d 25 t)
    | ⟨_ + 27, h⟩ => absurd h (Nat.not_lt.2 (Nat.le_add_left _ _))
  Φ _ := Pipeline.scopedRest (pinned (F := F) 0).spec d
  q _ := fullShare
  owed _ := O
  recorded _ := {p | (K (F := F)).lev (SparseCore.T d, p.1) p.2 ≤ 0}

theorem A_eq (d : Dev nD) (w : Fin cfg0.W) : (dats m O 0 d).A w = V0 m d (Pipeline.arrRef spec0 w) := by
  dsimp only [dats]

theorem after_0 (d : Dev nD) (t : Fin cfg0.N) : (dats m O 0 d).after 0 t = iblk m d 0 t := by dsimp only [dats]
theorem after_1 (d : Dev nD) (t : Fin cfg0.N) : (dats m O 0 d).after 1 t = iblk m d 1 t := by dsimp only [dats]
theorem after_2 (d : Dev nD) (t : Fin cfg0.N) : (dats m O 0 d).after 2 t = iblk m d 2 t := by dsimp only [dats]
theorem after_3 (d : Dev nD) (t : Fin cfg0.N) : (dats m O 0 d).after 3 t = iblk m d 3 t := by dsimp only [dats]
theorem after_4 (d : Dev nD) (t : Fin cfg0.N) : (dats m O 0 d).after 4 t = iblk m d 4 t := by dsimp only [dats]
theorem after_5 (d : Dev nD) (t : Fin cfg0.N) : (dats m O 0 d).after 5 t = iblk m d 5 t := by dsimp only [dats]
theorem after_6 (d : Dev nD) (t : Fin cfg0.N) : (dats m O 0 d).after 6 t = iblk m d 6 t := by dsimp only [dats]
theorem after_7 (d : Dev nD) (t : Fin cfg0.N) : (dats m O 0 d).after 7 t = iblk m d 7 t := by dsimp only [dats]
theorem after_8 (d : Dev nD) (t : Fin cfg0.N) : (dats m O 0 d).after 8 t = iblk m d 8 t := by dsimp only [dats]
theorem after_9 (d : Dev nD) (t : Fin cfg0.N) : (dats m O 0 d).after 9 t = iblk m d 9 t := by dsimp only [dats]
theorem after_10 (d : Dev nD) (t : Fin cfg0.N) : (dats m O 0 d).after 10 t = iblk m d 10 t := by dsimp only [dats]
theorem after_11 (d : Dev nD) (t : Fin cfg0.N) : (dats m O 0 d).after 11 t = iblk m d 11 t := by dsimp only [dats]
theorem after_12 (d : Dev nD) (t : Fin cfg0.N) : (dats m O 0 d).after 12 t = iblk m d 12 t := by dsimp only [dats]
theorem after_13 (d : Dev nD) (t : Fin cfg0.N) : (dats m O 0 d).after 13 t = iblk m d 13 t := by dsimp only [dats]
theorem after_14 (d : Dev nD) (t : Fin cfg0.N) : (dats m O 0 d).after 14 t = iblk m d 14 t := by dsimp only [dats]
theorem after_15 (d : Dev nD) (t : Fin cfg0.N) : (dats m O 0 d).after 15 t = iblk m d 15 t := by dsimp only [dats]
theorem after_16 (d : Dev nD) (t : Fin cfg0.N) : (dats m O 0 d).after 16 t = iblk m d 16 t := by dsimp only [dats]
theorem after_17 (d : Dev nD) (t : Fin cfg0.N) : (dats m O 0 d).after 17 t = iblk m d 17 t := by dsimp only [dats]
theorem after_18 (d : Dev nD) (t : Fin cfg0.N) : (dats m O 0 d).after 18 t = iblk m d 18 t := by dsimp only [dats]
theorem after_19 (d : Dev nD) (t : Fin cfg0.N) : (dats m O 0 d).after 19 t = iblk m d 19 t := by dsimp only [dats]
theorem after_20 (d : Dev nD) (t : Fin cfg0.N) : (dats m O 0 d).after 20 t = iblk m d 20 t := by dsimp only [dats]
theorem after_21 (d : Dev nD) (t : Fin cfg0.N) : (dats m O 0 d).after 21 t = iblk m d 21 t := by dsimp only [dats]
theorem after_22 (d : Dev nD) (t : Fin cfg0.N) : (dats m O 0 d).after 22 t = iblk m d 22 t := by dsimp only [dats]
theorem after_23 (d : Dev nD) (t : Fin cfg0.N) : (dats m O 0 d).after 23 t = iblk m d 23 t := by dsimp only [dats]
theorem after_24 (d : Dev nD) (t : Fin cfg0.N) : (dats m O 0 d).after 24 t = iblk m d 24 t := by dsimp only [dats]
theorem after_25 (d : Dev nD) (t : Fin cfg0.N) : (dats m O 0 d).after 25 t = iblk m d 25 t := by dsimp only [dats]
theorem after_26 (d : Dev nD) (t : Fin cfg0.N) : (dats m O 0 d).after 26 t = outStage (iblk m d 0 t) (iblk m d 1 t) (iblk m d 2 t) (iblk m d 3 t) (iblk m d 4 t) (iblk m d 5 t) (iblk m d 6 t) (iblk m d 7 t) (iblk m d 8 t) (iblk m d 9 t) (iblk m d 10 t) (iblk m d 11 t) (iblk m d 12 t) (iblk m d 13 t) (iblk m d 14 t) (iblk m d 15 t) (iblk m d 16 t) (iblk m d 17 t) (iblk m d 18 t) (iblk m d 19 t) (iblk m d 20 t) (iblk m d 21 t) (iblk m d 22 t) (iblk m d 23 t) (iblk m d 24 t) (iblk m d 25 t) := by dsimp only [dats]

theorem before_0 (d : Dev nD) (t : Fin cfg0.N) (dd) : (dats m O 0 d).before 0 t dd = iblk m d 0 t :=
  before_0_of m (dats m O 0 d) (A_eq m O d 0) (after_0 m O d) t dd
theorem before_1 (d : Dev nD) (t : Fin cfg0.N) (dd) : (dats m O 0 d).before 1 t dd = iblk m d 1 t :=
  before_1_of m (dats m O 0 d) (A_eq m O d 1) (after_1 m O d) t dd
theorem before_2 (d : Dev nD) (t : Fin cfg0.N) (dd) : (dats m O 0 d).before 2 t dd = iblk m d 2 t :=
  before_2_of m (dats m O 0 d) (A_eq m O d 2) (after_2 m O d) t dd
theorem before_3 (d : Dev nD) (t : Fin cfg0.N) (dd) : (dats m O 0 d).before 3 t dd = iblk m d 3 t :=
  before_3_of m (dats m O 0 d) (A_eq m O d 3) (after_3 m O d) t dd
theorem before_4 (d : Dev nD) (t : Fin cfg0.N) (dd) : (dats m O 0 d).before 4 t dd = iblk m d 4 t :=
  before_4_of m (dats m O 0 d) (A_eq m O d 4) (after_4 m O d) t dd
theorem before_5 (d : Dev nD) (t : Fin cfg0.N) (dd) : (dats m O 0 d).before 5 t dd = iblk m d 5 t :=
  before_5_of m (dats m O 0 d) (A_eq m O d 5) (after_5 m O d) t dd
theorem before_6 (d : Dev nD) (t : Fin cfg0.N) (dd) : (dats m O 0 d).before 6 t dd = iblk m d 6 t :=
  before_6_of m (dats m O 0 d) (A_eq m O d 6) (after_6 m O d) t dd
theorem before_7 (d : Dev nD) (t : Fin cfg0.N) (dd) : (dats m O 0 d).before 7 t dd = iblk m d 7 t :=
  before_7_of m (dats m O 0 d) (A_eq m O d 7) (after_7 m O d) t dd
theorem before_8 (d : Dev nD) (t : Fin cfg0.N) (dd) : (dats m O 0 d).before 8 t dd = iblk m d 8 t :=
  before_8_of m (dats m O 0 d) (A_eq m O d 8) (after_8 m O d) t dd
theorem before_9 (d : Dev nD) (t : Fin cfg0.N) (dd) : (dats m O 0 d).before 9 t dd = iblk m d 9 t :=
  before_9_of m (dats m O 0 d) (A_eq m O d 9) (after_9 m O d) t dd
theorem before_10 (d : Dev nD) (t : Fin cfg0.N) (dd) : (dats m O 0 d).before 10 t dd = iblk m d 10 t :=
  before_10_of m (dats m O 0 d) (A_eq m O d 10) (after_10 m O d) t dd
theorem before_11 (d : Dev nD) (t : Fin cfg0.N) (dd) : (dats m O 0 d).before 11 t dd = iblk m d 11 t :=
  before_11_of m (dats m O 0 d) (A_eq m O d 11) (after_11 m O d) t dd
theorem before_12 (d : Dev nD) (t : Fin cfg0.N) (dd) : (dats m O 0 d).before 12 t dd = iblk m d 12 t :=
  before_12_of m (dats m O 0 d) (A_eq m O d 12) (after_12 m O d) t dd
theorem before_13 (d : Dev nD) (t : Fin cfg0.N) (dd) : (dats m O 0 d).before 13 t dd = iblk m d 13 t :=
  before_13_of m (dats m O 0 d) (A_eq m O d 13) (after_13 m O d) t dd
theorem before_14 (d : Dev nD) (t : Fin cfg0.N) (dd) : (dats m O 0 d).before 14 t dd = iblk m d 14 t :=
  before_14_of m (dats m O 0 d) (A_eq m O d 14) (after_14 m O d) t dd
theorem before_15 (d : Dev nD) (t : Fin cfg0.N) (dd) : (dats m O 0 d).before 15 t dd = iblk m d 15 t :=
  before_15_of m (dats m O 0 d) (A_eq m O d 15) (after_15 m O d) t dd
theorem before_16 (d : Dev nD) (t : Fin cfg0.N) (dd) : (dats m O 0 d).before 16 t dd = iblk m d 16 t :=
  before_16_of m (dats m O 0 d) (A_eq m O d 16) (after_16 m O d) t dd
theorem before_17 (d : Dev nD) (t : Fin cfg0.N) (dd) : (dats m O 0 d).before 17 t dd = iblk m d 17 t :=
  before_17_of m (dats m O 0 d) (A_eq m O d 17) (after_17 m O d) t dd
theorem before_18 (d : Dev nD) (t : Fin cfg0.N) (dd) : (dats m O 0 d).before 18 t dd = iblk m d 18 t :=
  before_18_of m (dats m O 0 d) (A_eq m O d 18) (after_18 m O d) t dd
theorem before_19 (d : Dev nD) (t : Fin cfg0.N) (dd) : (dats m O 0 d).before 19 t dd = iblk m d 19 t :=
  before_19_of m (dats m O 0 d) (A_eq m O d 19) (after_19 m O d) t dd
theorem before_20 (d : Dev nD) (t : Fin cfg0.N) (dd) : (dats m O 0 d).before 20 t dd = iblk m d 20 t :=
  before_20_of m (dats m O 0 d) (A_eq m O d 20) (after_20 m O d) t dd
theorem before_21 (d : Dev nD) (t : Fin cfg0.N) (dd) : (dats m O 0 d).before 21 t dd = iblk m d 21 t :=
  before_21_of m (dats m O 0 d) (A_eq m O d 21) (after_21 m O d) t dd
theorem before_22 (d : Dev nD) (t : Fin cfg0.N) (dd) : (dats m O 0 d).before 22 t dd = iblk m d 22 t :=
  before_22_of m (dats m O 0 d) (A_eq m O d 22) (after_22 m O d) t dd
theorem before_23 (d : Dev nD) (t : Fin cfg0.N) (dd) : (dats m O 0 d).before 23 t dd = iblk m d 23 t :=
  before_23_of m (dats m O 0 d) (A_eq m O d 23) (after_23 m O d) t dd
theorem before_24 (d : Dev nD) (t : Fin cfg0.N) (dd) : (dats m O 0 d).before 24 t dd = iblk m d 24 t :=
  before_24_of m (dats m O 0 d) (A_eq m O d 24) (after_24 m O d) t dd
theorem before_25 (d : Dev nD) (t : Fin cfg0.N) (dd) : (dats m O 0 d).before 25 t dd = iblk m d 25 t :=
  before_25_of m (dats m O 0 d) (A_eq m O d 25) (after_25 m O d) t dd

/-! ## The body obligation -/

def bodyPre (d : Dev nD) (t : Fin cfg0.N) : sProp 𝕄 :=
  iprop((dats m O 0 d).Φ t.castSucc ∗ (dats m O 0 d).owesAt none t.castSucc
    ∗ (∃ dd, owns (SparseCore.T d) (st0_0 t) fullShare ((dats m O 0 d).before 0 t dd))
    ∗ (∃ dd, owns (SparseCore.T d) (st0_1 t) fullShare ((dats m O 0 d).before 1 t dd))
    ∗ (∃ dd, owns (SparseCore.T d) (st0_2 t) fullShare ((dats m O 0 d).before 2 t dd))
    ∗ (∃ dd, owns (SparseCore.T d) (st0_3 t) fullShare ((dats m O 0 d).before 3 t dd))
    ∗ (∃ dd, owns (SparseCore.T d) (st0_4 t) fullShare ((dats m O 0 d).before 4 t dd))
    ∗ (∃ dd, owns (SparseCore.T d) (st0_5 t) fullShare ((dats m O 0 d).before 5 t dd))
    ∗ (∃ dd, owns (SparseCore.T d) (st0_6 t) fullShare ((dats m O 0 d).before 6 t dd))
    ∗ (∃ dd, owns (SparseCore.T d) (st0_7 t) fullShare ((dats m O 0 d).before 7 t dd))
    ∗ (∃ dd, owns (SparseCore.T d) (st0_8 t) fullShare ((dats m O 0 d).before 8 t dd))
    ∗ (∃ dd, owns (SparseCore.T d) (st0_9 t) fullShare ((dats m O 0 d).before 9 t dd))
    ∗ (∃ dd, owns (SparseCore.T d) (st0_10 t) fullShare ((dats m O 0 d).before 10 t dd))
    ∗ (∃ dd, owns (SparseCore.T d) (st0_11 t) fullShare ((dats m O 0 d).before 11 t dd))
    ∗ (∃ dd, owns (SparseCore.T d) (st0_12 t) fullShare ((dats m O 0 d).before 12 t dd))
    ∗ (∃ dd, owns (SparseCore.T d) (st0_13 t) fullShare ((dats m O 0 d).before 13 t dd))
    ∗ (∃ dd, owns (SparseCore.T d) (st0_14 t) fullShare ((dats m O 0 d).before 14 t dd))
    ∗ (∃ dd, owns (SparseCore.T d) (st0_15 t) fullShare ((dats m O 0 d).before 15 t dd))
    ∗ (∃ dd, owns (SparseCore.T d) (st0_16 t) fullShare ((dats m O 0 d).before 16 t dd))
    ∗ (∃ dd, owns (SparseCore.T d) (st0_17 t) fullShare ((dats m O 0 d).before 17 t dd))
    ∗ (∃ dd, owns (SparseCore.T d) (st0_18 t) fullShare ((dats m O 0 d).before 18 t dd))
    ∗ (∃ dd, owns (SparseCore.T d) (st0_19 t) fullShare ((dats m O 0 d).before 19 t dd))
    ∗ (∃ dd, owns (SparseCore.T d) (st0_20 t) fullShare ((dats m O 0 d).before 20 t dd))
    ∗ (∃ dd, owns (SparseCore.T d) (st0_21 t) fullShare ((dats m O 0 d).before 21 t dd))
    ∗ (∃ dd, owns (SparseCore.T d) (st0_22 t) fullShare ((dats m O 0 d).before 22 t dd))
    ∗ (∃ dd, owns (SparseCore.T d) (st0_23 t) fullShare ((dats m O 0 d).before 23 t dd))
    ∗ (∃ dd, owns (SparseCore.T d) (st0_24 t) fullShare ((dats m O 0 d).before 24 t dd))
    ∗ (∃ dd, owns (SparseCore.T d) (st0_25 t) fullShare ((dats m O 0 d).before 25 t dd))
    ∗ (∃ dd, owns (SparseCore.T d) (st0_26 t) fullShare ((dats m O 0 d).before 26 t dd)))

def bodyPost (d : Dev nD) (t : Fin cfg0.N) : sProp 𝕄 :=
  iprop((dats m O 0 d).Φ t.succ ∗ (dats m O 0 d).owesAt none t.succ
    ∗ owns (SparseCore.T d) (st0_0 t) fullShare ((dats m O 0 d).after 0 t)
    ∗ owns (SparseCore.T d) (st0_1 t) fullShare ((dats m O 0 d).after 1 t)
    ∗ owns (SparseCore.T d) (st0_2 t) fullShare ((dats m O 0 d).after 2 t)
    ∗ owns (SparseCore.T d) (st0_3 t) fullShare ((dats m O 0 d).after 3 t)
    ∗ owns (SparseCore.T d) (st0_4 t) fullShare ((dats m O 0 d).after 4 t)
    ∗ owns (SparseCore.T d) (st0_5 t) fullShare ((dats m O 0 d).after 5 t)
    ∗ owns (SparseCore.T d) (st0_6 t) fullShare ((dats m O 0 d).after 6 t)
    ∗ owns (SparseCore.T d) (st0_7 t) fullShare ((dats m O 0 d).after 7 t)
    ∗ owns (SparseCore.T d) (st0_8 t) fullShare ((dats m O 0 d).after 8 t)
    ∗ owns (SparseCore.T d) (st0_9 t) fullShare ((dats m O 0 d).after 9 t)
    ∗ owns (SparseCore.T d) (st0_10 t) fullShare ((dats m O 0 d).after 10 t)
    ∗ owns (SparseCore.T d) (st0_11 t) fullShare ((dats m O 0 d).after 11 t)
    ∗ owns (SparseCore.T d) (st0_12 t) fullShare ((dats m O 0 d).after 12 t)
    ∗ owns (SparseCore.T d) (st0_13 t) fullShare ((dats m O 0 d).after 13 t)
    ∗ owns (SparseCore.T d) (st0_14 t) fullShare ((dats m O 0 d).after 14 t)
    ∗ owns (SparseCore.T d) (st0_15 t) fullShare ((dats m O 0 d).after 15 t)
    ∗ owns (SparseCore.T d) (st0_16 t) fullShare ((dats m O 0 d).after 16 t)
    ∗ owns (SparseCore.T d) (st0_17 t) fullShare ((dats m O 0 d).after 17 t)
    ∗ owns (SparseCore.T d) (st0_18 t) fullShare ((dats m O 0 d).after 18 t)
    ∗ owns (SparseCore.T d) (st0_19 t) fullShare ((dats m O 0 d).after 19 t)
    ∗ owns (SparseCore.T d) (st0_20 t) fullShare ((dats m O 0 d).after 20 t)
    ∗ owns (SparseCore.T d) (st0_21 t) fullShare ((dats m O 0 d).after 21 t)
    ∗ owns (SparseCore.T d) (st0_22 t) fullShare ((dats m O 0 d).after 22 t)
    ∗ owns (SparseCore.T d) (st0_23 t) fullShare ((dats m O 0 d).after 23 t)
    ∗ owns (SparseCore.T d) (st0_24 t) fullShare ((dats m O 0 d).after 24 t)
    ∗ owns (SparseCore.T d) (st0_25 t) fullShare ((dats m O 0 d).after 25 t)
    ∗ owns (SparseCore.T d) (st0_26 t) fullShare ((dats m O 0 d).after 26 t))

set_option maxHeartbeats 4000000 in
theorem sound_body (d : Dev nD) (t : Fin cfg0.N) :
    bodyPre m O d t ⊢ wp frame (wpE (defs₀ (F := F)) Variants.none (SparseCore.T d) none) Set.univ (bodyAt0 t) (fun _ => bodyPost m O d t) := by
  unfold bodyPre bodyPost bodyAt0
  simp only [before_0, before_1, before_2, before_3, before_4, before_5, before_6, before_7, before_8, before_9, before_10, before_11, before_12, before_13, before_14, before_15, before_16, before_17, before_18, before_19, before_20, before_21, before_22, before_23, before_24, before_25]
  rw [show (dats m O 0 d).Φ t.succ = (dats m O 0 d).Φ t.castSucc from rfl,
    show (dats m O 0 d).owesAt none t.succ = (dats m O 0 d).owesAt none t.castSucc from rfl,
    after_0, after_1, after_2, after_3, after_4, after_5, after_6, after_7, after_8, after_9, after_10, after_11, after_12, after_13, after_14, after_15, after_16, after_17, after_18, after_19, after_20, after_21, after_22, after_23, after_24, after_25, after_26]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (sound_kernel d Set.univ _ _ _ _ _ _ _ _ _ _ _ _ _ _ _ _ _ _ _ _ _ _ _ _ _ _ _ _ _ _ _ _ _ _ _ _ _ _ _ _ _ _ _ _ _ _ _ _ _ _ _ _ _ _ (iblk m d 0 t) (iblk m d 1 t) (iblk m d 2 t) (iblk m d 3 t) (iblk m d 4 t) (iblk m d 5 t) (iblk m d 6 t) (iblk m d 7 t) (iblk m d 8 t) (iblk m d 9 t) (iblk m d 10 t) (iblk m d 11 t) (iblk m d 12 t) (iblk m d 13 t) (iblk m d 14 t) (iblk m d 15 t) (iblk m d 16 t) (iblk m d 17 t) (iblk m d 18 t) (iblk m d 19 t) (iblk m d 20 t) (iblk m d 21 t) (iblk m d 22 t) (iblk m d 23 t) (iblk m d 24 t) (iblk m d 25 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexists _; iexact H26
  iintro ⟨H0, H1, H2, H3, H4, H5, H6, H7, H8, H9, H10, H11, H12, H13, H14, H15, H16, H17, H18, H19, H20, H21, H22, H23, H24, H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

theorem body_obligation (d : Dev nD) : Pipeline.BodyObligation (dats (F := F) m O 0 d) (defs₀ (F := F)) Variants.none none Set.univ := fun t => by
  rw [bigSep_W0, bigSep_W0]
  exact sound_body m O d t

/-- The invariant, opened without unfolding anything else of the proof data. -/
theorem Φ_eq (d : Dev nD) (t : Fin (cfg0.N + 1)) : (dats m O 0 d).Φ t = Pipeline.scopedRest (pinned (F := F) 0).spec d := by
  dsimp only [dats]

end Cert.Proof.KB

end
-- ==== Proof.MainBd.lean ====
/-
  The TensorCore region of @main, entered and left.

  What the arrays hold when the region ends (each table as launched; the result the rescaled table, its one block
  being all of it), the region as the library's record (no semaphore of the kernel's own, no prefetched table, the
  TensorCore's debt to the SparseCores carried through), and the region's rule: from the 26 tables and the result's
  array at anything to the same with the result's array at the rescaled table.
-/
import proofs.«207321_g10943576670982_fold_wed_m_632_36_alg».proof.Proof.SetupB
import proofs.«207321_g10943576670982_fold_wed_m_632_36_alg».proof.Proof.MainBb

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

variable [FloatOps F] [∀ e, Nonempty (Elt F e)]

local notation "𝕄" => MT nD τ sig (HIx 1) (Elt F) ℕ UU ℕ

variable (m : (ℓ : Loc nD τ sig) → Buf (Elt F) ℓ) (O : CellTallies nD τ sig (HIx 1))

/-! ## What the arrays hold when the region ends -/

/-- A window that is its whole array, read at the one point, is the array. -/
theorem iblk_0 (d : Dev nD) (t : Fin cfg0.N) : iblk m d 0 t = (m ((SparseCore.T d).loc main_arg1) : Vec F S128x128 .f32) := by
  funext j
  show m ((SparseCore.T d).loc main_arg1) (((cfg0.win 0).blk t).view.emb j) = m ((SparseCore.T d).loc main_arg1) j
  congr 1
  funext a; apply Fin.ext
  match a with
  | ⟨0, _⟩ => show 0 * 128 + 1 * (j 0).val = (j 0).val; omega
  | ⟨1, _⟩ => show 0 * 128 + 1 * (j 1).val = (j 1).val; omega
theorem iblk_1 (d : Dev nD) (t : Fin cfg0.N) : iblk m d 1 t = (m ((SparseCore.T d).loc main_arg2) : Vec F S128x128 .f32) := by
  funext j
  show m ((SparseCore.T d).loc main_arg2) (((cfg0.win 1).blk t).view.emb j) = m ((SparseCore.T d).loc main_arg2) j
  congr 1
  funext a; apply Fin.ext
  match a with
  | ⟨0, _⟩ => show 0 * 128 + 1 * (j 0).val = (j 0).val; omega
  | ⟨1, _⟩ => show 0 * 128 + 1 * (j 1).val = (j 1).val; omega
theorem iblk_2 (d : Dev nD) (t : Fin cfg0.N) : iblk m d 2 t = (m ((SparseCore.T d).loc main_arg3) : Vec F S128x128 .f32) := by
  funext j
  show m ((SparseCore.T d).loc main_arg3) (((cfg0.win 2).blk t).view.emb j) = m ((SparseCore.T d).loc main_arg3) j
  congr 1
  funext a; apply Fin.ext
  match a with
  | ⟨0, _⟩ => show 0 * 128 + 1 * (j 0).val = (j 0).val; omega
  | ⟨1, _⟩ => show 0 * 128 + 1 * (j 1).val = (j 1).val; omega
theorem iblk_3 (d : Dev nD) (t : Fin cfg0.N) : iblk m d 3 t = (m ((SparseCore.T d).loc main_arg4) : Vec F S128x128 .f32) := by
  funext j
  show m ((SparseCore.T d).loc main_arg4) (((cfg0.win 3).blk t).view.emb j) = m ((SparseCore.T d).loc main_arg4) j
  congr 1
  funext a; apply Fin.ext
  match a with
  | ⟨0, _⟩ => show 0 * 128 + 1 * (j 0).val = (j 0).val; omega
  | ⟨1, _⟩ => show 0 * 128 + 1 * (j 1).val = (j 1).val; omega
theorem iblk_4 (d : Dev nD) (t : Fin cfg0.N) : iblk m d 4 t = (m ((SparseCore.T d).loc main_arg5) : Vec F S128x128 .f32) := by
  funext j
  show m ((SparseCore.T d).loc main_arg5) (((cfg0.win 4).blk t).view.emb j) = m ((SparseCore.T d).loc main_arg5) j
  congr 1
  funext a; apply Fin.ext
  match a with
  | ⟨0, _⟩ => show 0 * 128 + 1 * (j 0).val = (j 0).val; omega
  | ⟨1, _⟩ => show 0 * 128 + 1 * (j 1).val = (j 1).val; omega
theorem iblk_5 (d : Dev nD) (t : Fin cfg0.N) : iblk m d 5 t = (m ((SparseCore.T d).loc main_arg6) : Vec F S128x128 .f32) := by
  funext j
  show m ((SparseCore.T d).loc main_arg6) (((cfg0.win 5).blk t).view.emb j) = m ((SparseCore.T d).loc main_arg6) j
  congr 1
  funext a; apply Fin.ext
  match a with
  | ⟨0, _⟩ => show 0 * 128 + 1 * (j 0).val = (j 0).val; omega
  | ⟨1, _⟩ => show 0 * 128 + 1 * (j 1).val = (j 1).val; omega
theorem iblk_6 (d : Dev nD) (t : Fin cfg0.N) : iblk m d 6 t = (m ((SparseCore.T d).loc main_arg7) : Vec F S128x128 .f32) := by
  funext j
  show m ((SparseCore.T d).loc main_arg7) (((cfg0.win 6).blk t).view.emb j) = m ((SparseCore.T d).loc main_arg7) j
  congr 1
  funext a; apply Fin.ext
  match a with
  | ⟨0, _⟩ => show 0 * 128 + 1 * (j 0).val = (j 0).val; omega
  | ⟨1, _⟩ => show 0 * 128 + 1 * (j 1).val = (j 1).val; omega
theorem iblk_7 (d : Dev nD) (t : Fin cfg0.N) : iblk m d 7 t = (m ((SparseCore.T d).loc main_arg8) : Vec F S128x128 .f32) := by
  funext j
  show m ((SparseCore.T d).loc main_arg8) (((cfg0.win 7).blk t).view.emb j) = m ((SparseCore.T d).loc main_arg8) j
  congr 1
  funext a; apply Fin.ext
  match a with
  | ⟨0, _⟩ => show 0 * 128 + 1 * (j 0).val = (j 0).val; omega
  | ⟨1, _⟩ => show 0 * 128 + 1 * (j 1).val = (j 1).val; omega
theorem iblk_8 (d : Dev nD) (t : Fin cfg0.N) : iblk m d 8 t = (m ((SparseCore.T d).loc main_arg9) : Vec F S128x128 .f32) := by
  funext j
  show m ((SparseCore.T d).loc main_arg9) (((cfg0.win 8).blk t).view.emb j) = m ((SparseCore.T d).loc main_arg9) j
  congr 1
  funext a; apply Fin.ext
  match a with
  | ⟨0, _⟩ => show 0 * 128 + 1 * (j 0).val = (j 0).val; omega
  | ⟨1, _⟩ => show 0 * 128 + 1 * (j 1).val = (j 1).val; omega
theorem iblk_9 (d : Dev nD) (t : Fin cfg0.N) : iblk m d 9 t = (m ((SparseCore.T d).loc main_arg10) : Vec F S128x128 .f32) := by
  funext j
  show m ((SparseCore.T d).loc main_arg10) (((cfg0.win 9).blk t).view.emb j) = m ((SparseCore.T d).loc main_arg10) j
  congr 1
  funext a; apply Fin.ext
  match a with
  | ⟨0, _⟩ => show 0 * 128 + 1 * (j 0).val = (j 0).val; omega
  | ⟨1, _⟩ => show 0 * 128 + 1 * (j 1).val = (j 1).val; omega
theorem iblk_10 (d : Dev nD) (t : Fin cfg0.N) : iblk m d 10 t = (m ((SparseCore.T d).loc main_arg11) : Vec F S128x128 .f32) := by
  funext j
  show m ((SparseCore.T d).loc main_arg11) (((cfg0.win 10).blk t).view.emb j) = m ((SparseCore.T d).loc main_arg11) j
  congr 1
  funext a; apply Fin.ext
  match a with
  | ⟨0, _⟩ => show 0 * 128 + 1 * (j 0).val = (j 0).val; omega
  | ⟨1, _⟩ => show 0 * 128 + 1 * (j 1).val = (j 1).val; omega
theorem iblk_11 (d : Dev nD) (t : Fin cfg0.N) : iblk m d 11 t = (m ((SparseCore.T d).loc main_arg12) : Vec F S128x128 .f32) := by
  funext j
  show m ((SparseCore.T d).loc main_arg12) (((cfg0.win 11).blk t).view.emb j) = m ((SparseCore.T d).loc main_arg12) j
  congr 1
  funext a; apply Fin.ext
  match a with
  | ⟨0, _⟩ => show 0 * 128 + 1 * (j 0).val = (j 0).val; omega
  | ⟨1, _⟩ => show 0 * 128 + 1 * (j 1).val = (j 1).val; omega
theorem iblk_12 (d : Dev nD) (t : Fin cfg0.N) : iblk m d 12 t = (m ((SparseCore.T d).loc main_arg13) : Vec F S128x128 .f32) := by
  funext j
  show m ((SparseCore.T d).loc main_arg13) (((cfg0.win 12).blk t).view.emb j) = m ((SparseCore.T d).loc main_arg13) j
  congr 1
  funext a; apply Fin.ext
  match a with
  | ⟨0, _⟩ => show 0 * 128 + 1 * (j 0).val = (j 0).val; omega
  | ⟨1, _⟩ => show 0 * 128 + 1 * (j 1).val = (j 1).val; omega
theorem iblk_13 (d : Dev nD) (t : Fin cfg0.N) : iblk m d 13 t = (m ((SparseCore.T d).loc main_arg14) : Vec F S128x128 .f32) := by
  funext j
  show m ((SparseCore.T d).loc main_arg14) (((cfg0.win 13).blk t).view.emb j) = m ((SparseCore.T d).loc main_arg14) j
  congr 1
  funext a; apply Fin.ext
  match a with
  | ⟨0, _⟩ => show 0 * 128 + 1 * (j 0).val = (j 0).val; omega
  | ⟨1, _⟩ => show 0 * 128 + 1 * (j 1).val = (j 1).val; omega
theorem iblk_14 (d : Dev nD) (t : Fin cfg0.N) : iblk m d 14 t = (m ((SparseCore.T d).loc main_arg15) : Vec F S128x128 .f32) := by
  funext j
  show m ((SparseCore.T d).loc main_arg15) (((cfg0.win 14).blk t).view.emb j) = m ((SparseCore.T d).loc main_arg15) j
  congr 1
  funext a; apply Fin.ext
  match a with
  | ⟨0, _⟩ => show 0 * 128 + 1 * (j 0).val = (j 0).val; omega
  | ⟨1, _⟩ => show 0 * 128 + 1 * (j 1).val = (j 1).val; omega
theorem iblk_15 (d : Dev nD) (t : Fin cfg0.N) : iblk m d 15 t = (m ((SparseCore.T d).loc main_arg16) : Vec F S128x128 .f32) := by
  funext j
  show m ((SparseCore.T d).loc main_arg16) (((cfg0.win 15).blk t).view.emb j) = m ((SparseCore.T d).loc main_arg16) j
  congr 1
  funext a; apply Fin.ext
  match a with
  | ⟨0, _⟩ => show 0 * 128 + 1 * (j 0).val = (j 0).val; omega
  | ⟨1, _⟩ => show 0 * 128 + 1 * (j 1).val = (j 1).val; omega
theorem iblk_16 (d : Dev nD) (t : Fin cfg0.N) : iblk m d 16 t = (m ((SparseCore.T d).loc main_arg17) : Vec F S128x128 .f32) := by
  funext j
  show m ((SparseCore.T d).loc main_arg17) (((cfg0.win 16).blk t).view.emb j) = m ((SparseCore.T d).loc main_arg17) j
  congr 1
  funext a; apply Fin.ext
  match a with
  | ⟨0, _⟩ => show 0 * 128 + 1 * (j 0).val = (j 0).val; omega
  | ⟨1, _⟩ => show 0 * 128 + 1 * (j 1).val = (j 1).val; omega
theorem iblk_17 (d : Dev nD) (t : Fin cfg0.N) : iblk m d 17 t = (m ((SparseCore.T d).loc main_arg18) : Vec F S128x128 .f32) := by
  funext j
  show m ((SparseCore.T d).loc main_arg18) (((cfg0.win 17).blk t).view.emb j) = m ((SparseCore.T d).loc main_arg18) j
  congr 1
  funext a; apply Fin.ext
  match a with
  | ⟨0, _⟩ => show 0 * 128 + 1 * (j 0).val = (j 0).val; omega
  | ⟨1, _⟩ => show 0 * 128 + 1 * (j 1).val = (j 1).val; omega
theorem iblk_18 (d : Dev nD) (t : Fin cfg0.N) : iblk m d 18 t = (m ((SparseCore.T d).loc main_arg19) : Vec F S128x128 .f32) := by
  funext j
  show m ((SparseCore.T d).loc main_arg19) (((cfg0.win 18).blk t).view.emb j) = m ((SparseCore.T d).loc main_arg19) j
  congr 1
  funext a; apply Fin.ext
  match a with
  | ⟨0, _⟩ => show 0 * 128 + 1 * (j 0).val = (j 0).val; omega
  | ⟨1, _⟩ => show 0 * 128 + 1 * (j 1).val = (j 1).val; omega
theorem iblk_19 (d : Dev nD) (t : Fin cfg0.N) : iblk m d 19 t = (m ((SparseCore.T d).loc main_arg20) : Vec F S128x128 .f32) := by
  funext j
  show m ((SparseCore.T d).loc main_arg20) (((cfg0.win 19).blk t).view.emb j) = m ((SparseCore.T d).loc main_arg20) j
  congr 1
  funext a; apply Fin.ext
  match a with
  | ⟨0, _⟩ => show 0 * 128 + 1 * (j 0).val = (j 0).val; omega
  | ⟨1, _⟩ => show 0 * 128 + 1 * (j 1).val = (j 1).val; omega
theorem iblk_20 (d : Dev nD) (t : Fin cfg0.N) : iblk m d 20 t = (m ((SparseCore.T d).loc main_arg21) : Vec F S128x128 .f32) := by
  funext j
  show m ((SparseCore.T d).loc main_arg21) (((cfg0.win 20).blk t).view.emb j) = m ((SparseCore.T d).loc main_arg21) j
  congr 1
  funext a; apply Fin.ext
  match a with
  | ⟨0, _⟩ => show 0 * 128 + 1 * (j 0).val = (j 0).val; omega
  | ⟨1, _⟩ => show 0 * 128 + 1 * (j 1).val = (j 1).val; omega
theorem iblk_21 (d : Dev nD) (t : Fin cfg0.N) : iblk m d 21 t = (m ((SparseCore.T d).loc main_arg22) : Vec F S128x128 .f32) := by
  funext j
  show m ((SparseCore.T d).loc main_arg22) (((cfg0.win 21).blk t).view.emb j) = m ((SparseCore.T d).loc main_arg22) j
  congr 1
  funext a; apply Fin.ext
  match a with
  | ⟨0, _⟩ => show 0 * 128 + 1 * (j 0).val = (j 0).val; omega
  | ⟨1, _⟩ => show 0 * 128 + 1 * (j 1).val = (j 1).val; omega
theorem iblk_22 (d : Dev nD) (t : Fin cfg0.N) : iblk m d 22 t = (m ((SparseCore.T d).loc main_arg23) : Vec F S128x128 .f32) := by
  funext j
  show m ((SparseCore.T d).loc main_arg23) (((cfg0.win 22).blk t).view.emb j) = m ((SparseCore.T d).loc main_arg23) j
  congr 1
  funext a; apply Fin.ext
  match a with
  | ⟨0, _⟩ => show 0 * 128 + 1 * (j 0).val = (j 0).val; omega
  | ⟨1, _⟩ => show 0 * 128 + 1 * (j 1).val = (j 1).val; omega
theorem iblk_23 (d : Dev nD) (t : Fin cfg0.N) : iblk m d 23 t = (m ((SparseCore.T d).loc main_arg24) : Vec F S128x128 .f32) := by
  funext j
  show m ((SparseCore.T d).loc main_arg24) (((cfg0.win 23).blk t).view.emb j) = m ((SparseCore.T d).loc main_arg24) j
  congr 1
  funext a; apply Fin.ext
  match a with
  | ⟨0, _⟩ => show 0 * 128 + 1 * (j 0).val = (j 0).val; omega
  | ⟨1, _⟩ => show 0 * 128 + 1 * (j 1).val = (j 1).val; omega
theorem iblk_24 (d : Dev nD) (t : Fin cfg0.N) : iblk m d 24 t = (m ((SparseCore.T d).loc main_arg25) : Vec F S128x128 .f32) := by
  funext j
  show m ((SparseCore.T d).loc main_arg25) (((cfg0.win 24).blk t).view.emb j) = m ((SparseCore.T d).loc main_arg25) j
  congr 1
  funext a; apply Fin.ext
  match a with
  | ⟨0, _⟩ => show 0 * 128 + 1 * (j 0).val = (j 0).val; omega
  | ⟨1, _⟩ => show 0 * 128 + 1 * (j 1).val = (j 1).val; omega
theorem iblk_25 (d : Dev nD) (t : Fin cfg0.N) : iblk m d 25 t = (m ((SparseCore.T d).loc main_arg26) : Vec F S128x128 .f32) := by
  funext j
  show m ((SparseCore.T d).loc main_arg26) (((cfg0.win 25).blk t).view.emb j) = m ((SparseCore.T d).loc main_arg26) j
  congr 1
  funext a; apply Fin.ext
  match a with
  | ⟨0, _⟩ => show 0 * 128 + 1 * (j 0).val = (j 0).val; omega
  | ⟨1, _⟩ => show 0 * 128 + 1 * (j 1).val = (j 1).val; omega

theorem final_0 (d : Dev nD) : ((dats m O 0 d).arrAt 0 cfg0.N : Buf (Elt F) ((SparseCore.T d).loc main_arg1)) = m ((SparseCore.T d).loc main_arg1) :=
  (dats m O 0 d).arrAt_in 0 rfl _
theorem final_1 (d : Dev nD) : ((dats m O 0 d).arrAt 1 cfg0.N : Buf (Elt F) ((SparseCore.T d).loc main_arg2)) = m ((SparseCore.T d).loc main_arg2) :=
  (dats m O 0 d).arrAt_in 1 rfl _
theorem final_2 (d : Dev nD) : ((dats m O 0 d).arrAt 2 cfg0.N : Buf (Elt F) ((SparseCore.T d).loc main_arg3)) = m ((SparseCore.T d).loc main_arg3) :=
  (dats m O 0 d).arrAt_in 2 rfl _
theorem final_3 (d : Dev nD) : ((dats m O 0 d).arrAt 3 cfg0.N : Buf (Elt F) ((SparseCore.T d).loc main_arg4)) = m ((SparseCore.T d).loc main_arg4) :=
  (dats m O 0 d).arrAt_in 3 rfl _
theorem final_4 (d : Dev nD) : ((dats m O 0 d).arrAt 4 cfg0.N : Buf (Elt F) ((SparseCore.T d).loc main_arg5)) = m ((SparseCore.T d).loc main_arg5) :=
  (dats m O 0 d).arrAt_in 4 rfl _
theorem final_5 (d : Dev nD) : ((dats m O 0 d).arrAt 5 cfg0.N : Buf (Elt F) ((SparseCore.T d).loc main_arg6)) = m ((SparseCore.T d).loc main_arg6) :=
  (dats m O 0 d).arrAt_in 5 rfl _
theorem final_6 (d : Dev nD) : ((dats m O 0 d).arrAt 6 cfg0.N : Buf (Elt F) ((SparseCore.T d).loc main_arg7)) = m ((SparseCore.T d).loc main_arg7) :=
  (dats m O 0 d).arrAt_in 6 rfl _
theorem final_7 (d : Dev nD) : ((dats m O 0 d).arrAt 7 cfg0.N : Buf (Elt F) ((SparseCore.T d).loc main_arg8)) = m ((SparseCore.T d).loc main_arg8) :=
  (dats m O 0 d).arrAt_in 7 rfl _
theorem final_8 (d : Dev nD) : ((dats m O 0 d).arrAt 8 cfg0.N : Buf (Elt F) ((SparseCore.T d).loc main_arg9)) = m ((SparseCore.T d).loc main_arg9) :=
  (dats m O 0 d).arrAt_in 8 rfl _
theorem final_9 (d : Dev nD) : ((dats m O 0 d).arrAt 9 cfg0.N : Buf (Elt F) ((SparseCore.T d).loc main_arg10)) = m ((SparseCore.T d).loc main_arg10) :=
  (dats m O 0 d).arrAt_in 9 rfl _
theorem final_10 (d : Dev nD) : ((dats m O 0 d).arrAt 10 cfg0.N : Buf (Elt F) ((SparseCore.T d).loc main_arg11)) = m ((SparseCore.T d).loc main_arg11) :=
  (dats m O 0 d).arrAt_in 10 rfl _
theorem final_11 (d : Dev nD) : ((dats m O 0 d).arrAt 11 cfg0.N : Buf (Elt F) ((SparseCore.T d).loc main_arg12)) = m ((SparseCore.T d).loc main_arg12) :=
  (dats m O 0 d).arrAt_in 11 rfl _
theorem final_12 (d : Dev nD) : ((dats m O 0 d).arrAt 12 cfg0.N : Buf (Elt F) ((SparseCore.T d).loc main_arg13)) = m ((SparseCore.T d).loc main_arg13) :=
  (dats m O 0 d).arrAt_in 12 rfl _
theorem final_13 (d : Dev nD) : ((dats m O 0 d).arrAt 13 cfg0.N : Buf (Elt F) ((SparseCore.T d).loc main_arg14)) = m ((SparseCore.T d).loc main_arg14) :=
  (dats m O 0 d).arrAt_in 13 rfl _
theorem final_14 (d : Dev nD) : ((dats m O 0 d).arrAt 14 cfg0.N : Buf (Elt F) ((SparseCore.T d).loc main_arg15)) = m ((SparseCore.T d).loc main_arg15) :=
  (dats m O 0 d).arrAt_in 14 rfl _
theorem final_15 (d : Dev nD) : ((dats m O 0 d).arrAt 15 cfg0.N : Buf (Elt F) ((SparseCore.T d).loc main_arg16)) = m ((SparseCore.T d).loc main_arg16) :=
  (dats m O 0 d).arrAt_in 15 rfl _
theorem final_16 (d : Dev nD) : ((dats m O 0 d).arrAt 16 cfg0.N : Buf (Elt F) ((SparseCore.T d).loc main_arg17)) = m ((SparseCore.T d).loc main_arg17) :=
  (dats m O 0 d).arrAt_in 16 rfl _
theorem final_17 (d : Dev nD) : ((dats m O 0 d).arrAt 17 cfg0.N : Buf (Elt F) ((SparseCore.T d).loc main_arg18)) = m ((SparseCore.T d).loc main_arg18) :=
  (dats m O 0 d).arrAt_in 17 rfl _
theorem final_18 (d : Dev nD) : ((dats m O 0 d).arrAt 18 cfg0.N : Buf (Elt F) ((SparseCore.T d).loc main_arg19)) = m ((SparseCore.T d).loc main_arg19) :=
  (dats m O 0 d).arrAt_in 18 rfl _
theorem final_19 (d : Dev nD) : ((dats m O 0 d).arrAt 19 cfg0.N : Buf (Elt F) ((SparseCore.T d).loc main_arg20)) = m ((SparseCore.T d).loc main_arg20) :=
  (dats m O 0 d).arrAt_in 19 rfl _
theorem final_20 (d : Dev nD) : ((dats m O 0 d).arrAt 20 cfg0.N : Buf (Elt F) ((SparseCore.T d).loc main_arg21)) = m ((SparseCore.T d).loc main_arg21) :=
  (dats m O 0 d).arrAt_in 20 rfl _
theorem final_21 (d : Dev nD) : ((dats m O 0 d).arrAt 21 cfg0.N : Buf (Elt F) ((SparseCore.T d).loc main_arg22)) = m ((SparseCore.T d).loc main_arg22) :=
  (dats m O 0 d).arrAt_in 21 rfl _
theorem final_22 (d : Dev nD) : ((dats m O 0 d).arrAt 22 cfg0.N : Buf (Elt F) ((SparseCore.T d).loc main_arg23)) = m ((SparseCore.T d).loc main_arg23) :=
  (dats m O 0 d).arrAt_in 22 rfl _
theorem final_23 (d : Dev nD) : ((dats m O 0 d).arrAt 23 cfg0.N : Buf (Elt F) ((SparseCore.T d).loc main_arg24)) = m ((SparseCore.T d).loc main_arg24) :=
  (dats m O 0 d).arrAt_in 23 rfl _
theorem final_24 (d : Dev nD) : ((dats m O 0 d).arrAt 24 cfg0.N : Buf (Elt F) ((SparseCore.T d).loc main_arg25)) = m ((SparseCore.T d).loc main_arg25) :=
  (dats m O 0 d).arrAt_in 24 rfl _
theorem final_25 (d : Dev nD) : ((dats m O 0 d).arrAt 25 cfg0.N : Buf (Elt F) ((SparseCore.T d).loc main_arg26)) = m ((SparseCore.T d).loc main_arg26) :=
  (dats m O 0 d).arrAt_in 25 rfl _

theorem tabs_eq (d : Dev nD) : tabs (m ((SparseCore.T d).loc main_arg1)) (m ((SparseCore.T d).loc main_arg2)) (m ((SparseCore.T d).loc main_arg3)) (m ((SparseCore.T d).loc main_arg4)) (m ((SparseCore.T d).loc main_arg5)) (m ((SparseCore.T d).loc main_arg6)) (m ((SparseCore.T d).loc main_arg7)) (m ((SparseCore.T d).loc main_arg8)) (m ((SparseCore.T d).loc main_arg9)) (m ((SparseCore.T d).loc main_arg10)) (m ((SparseCore.T d).loc main_arg11)) (m ((SparseCore.T d).loc main_arg12)) (m ((SparseCore.T d).loc main_arg13)) (m ((SparseCore.T d).loc main_arg14)) (m ((SparseCore.T d).loc main_arg15)) (m ((SparseCore.T d).loc main_arg16)) (m ((SparseCore.T d).loc main_arg17)) (m ((SparseCore.T d).loc main_arg18)) (m ((SparseCore.T d).loc main_arg19)) (m ((SparseCore.T d).loc main_arg20)) (m ((SparseCore.T d).loc main_arg21)) (m ((SparseCore.T d).loc main_arg22)) (m ((SparseCore.T d).loc main_arg23)) (m ((SparseCore.T d).loc main_arg24)) (m ((SparseCore.T d).loc main_arg25)) (m ((SparseCore.T d).loc main_arg26)) = tabOf m d := by
  funext t
  match t with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl
  | ⟨9, _⟩ => rfl
  | ⟨10, _⟩ => rfl
  | ⟨11, _⟩ => rfl
  | ⟨12, _⟩ => rfl
  | ⟨13, _⟩ => rfl
  | ⟨14, _⟩ => rfl
  | ⟨15, _⟩ => rfl
  | ⟨16, _⟩ => rfl
  | ⟨17, _⟩ => rfl
  | ⟨18, _⟩ => rfl
  | ⟨19, _⟩ => rfl
  | ⟨20, _⟩ => rfl
  | ⟨21, _⟩ => rfl
  | ⟨22, _⟩ => rfl
  | ⟨23, _⟩ => rfl
  | ⟨24, _⟩ => rfl
  | ⟨25, _⟩ => rfl
  | ⟨_ + 26, h⟩ => exact absurd h (by omega)

/-- What the one point writes back is the rescaled table, read through the window. -/
theorem flushed_26 (d : Dev nD) (t : Fin cfg0.N) :
    (dats m O 0 d).flushed 26 t = ((cfg0.win 26).blk t).view.read (Elt F) (Tb m d) := by
  show (cfg0.win 26).cut (grid0.coords t) ((dats m O 0 d).after 26 t) = _
  rw [after_26, outStage_eq_tableOf]
  simp only [iblk_0, iblk_1, iblk_2, iblk_3, iblk_4, iblk_5, iblk_6, iblk_7, iblk_8, iblk_9, iblk_10, iblk_11, iblk_12, iblk_13, iblk_14, iblk_15, iblk_16, iblk_17, iblk_18, iblk_19, iblk_20, iblk_21, iblk_22, iblk_23, iblk_24, iblk_25]
  rw [tabs_eq m d]
  funext j
  show tableOf (tabOf m d) j = Tb m d (((cfg0.win 26).blk t).view.emb j)
  unfold Tb
  congr 1
  funext a; apply Fin.ext
  match a with
  | ⟨0, _⟩ => show (j 0).val = 0 * 3328 + 1 * (j 0).val; omega
  | ⟨1, _⟩ => show (j 1).val = 0 * 128 + 1 * (j 1).val; omega

/-- The window's one block is all of its array. -/
theorem cover_26 (i : S3328x128.Idx) : i ∈ ((cfg0.win 26).blk t0_0).view.set := by
  show i ∈ ((View.whole main_v0).slice (win0_26.rect t0_0)).set
  rw [View.set_slice_whole, Rect.mem_set_unit]
  intro a
  match a with
  | ⟨0, _⟩ => show 0 * 3328 ≤ (i 0).val ∧ (i 0).val < 0 * 3328 + 3328; have h : (i 0).val < 3328 := (i 0).isLt; omega
  | ⟨1, _⟩ => show 0 * 128 ≤ (i 1).val ∧ (i 1).val < 0 * 128 + 128; have h : (i 1).val < 128 := (i 1).isLt; omega

theorem final_26 (d : Dev nD) : ((dats m O 0 d).arrAt 26 cfg0.N : Buf (Elt F) (tLoc d)) = Tb m d :=
  (dats m O 0 d).arrAt_eq_of_cover 26 (Tb m d) (fun t _ => flushed_26 m O d t) (fun i => ⟨t0_0, flush0_26 t0_0, cover_26 i⟩)

/-! ## The region's record -/

theorem share_full (d : Dev nD) (w : Fin cfg0.W) : (dats m O 0 d).share w = fullShare :=
  (dats m O 0 d).share_full (fun _ => rfl) w

theorem pts_congr {ℓ : Loc nD τ sig} {f g : Buf (Elt F) ℓ} (h : f = g) : (ℓ ↦{fullShare} f : sProp 𝕄) ⊢ ℓ ↦{fullShare} g := by
  subst h; exact .rfl

/-- No table is prefetched, and the kernel names no semaphore of its own. -/
theorem prefHeld_intro (d : Dev nD) :
    (iprop(emp) : sProp 𝕄) ⊢ Pipeline.prefHeld (pcfgs (F := F) 0).pre d (fun _ => fullShare) (aA (F := F) 0).1 := by
  unfold Pipeline.prefHeld
  rw [Finset.univ_eq_empty, bigSep_empty]
  exact .rfl

theorem ownSems0_intro (d : Dev nD) :
    (iprop(emp) : sProp 𝕄) ⊢ Pipeline.ownSems0 (fun k : Fin 0 => (k.elim0 : SemLoc sig)) d := by
  unfold Pipeline.ownSems0
  rw [Finset.univ_eq_empty, bigSep_empty]
  exact .rfl

set_option maxHeartbeats 4000000 in
/-- The region of @main: entered from the windows' arrays and what the TensorCore owes, left with the arrays at their
    final contents and the same owed; its waits are the staging cells' own, at the lowest level. -/
def seg (hO : ∀ g, O g none = 0) :
    Pipeline.RegionSeg (pcfgs (F := F)) aA (dats m O) (none : HIx 1) (defs₀ (F := F)) 𝒱₀ (K (F := F)).L (K (F := F)).lev (0 : Fin 1) where
  win := winFacts0.to₀
  block_pos := block_pos0
  stage_whole := stage_whole0
  K := Fin 0
  osem := fun k => k.elim0
  ho := ⟨fun k => k.elim0, fun k => k.elim0, fun k => k.elim0⟩
  hbody c := (body_obligation m O c).loose
  hwaits c := Pipeline.cellsWaits_intro (pinned (F := F)) (dats m O) none 0 c fun w s t => (K (F := F)).mayWait_none _ hO
  pre c := iprop((dats m O 0 c).arrays (fun w => (dats m O 0 c).arrAt w 0) ∗ (dats m O 0 c).owesAt none 0)
  post c := iprop((dats m O 0 c).arrays (fun w => (dats m O 0 c).arrAt w cfg0.N) ∗ (dats m O 0 c).owesAt none (Fin.last cfg0.N))
  X _ := iprop(emp)
  Y _ := iprop(emp)
  Z _ := iprop(emp)
  hentry c := by
    iintro ⟨⟨Ha, Ho⟩, -, -⟩
    imodintro
    isplitl [Ha]; · iexact Ha
    isplitr; · iapply (prefHeld_intro (F := F) c); iempintro
    isplitl [Ho]; · iexact Ho
    isplitr <;> iempintro
  hin c := by
    rw [Φ_eq]
    iintro ⟨-, -, H⟩
    iexact H
  hout c := by
    rw [Φ_eq]
    iintro H
    isplitr; · iempintro
    isplitr; · iapply (ownSems0_intro (F := F) c); iempintro
    iexact H
  hexit c := by
    iintro ⟨Ha, Ho, -, -⟩
    imodintro
    isplitl [Ha]; · iexact Ha
    iexact Ho

/-! ## The arrays into the region and out of it -/

theorem arrays_in (d : Dev nD) : arrs m d (m (tLoc d)) ⊢ (dats m O 0 d).arrays (fun w => (dats m O 0 d).arrAt w 0) := by
  rw [Pipeline.arrays_eq cfgs (dats m O) 0 d arr_whole0 (share_full m O d), bigSep_W0]
  exact .rfl

set_option maxHeartbeats 4000000 in
theorem arrays_out (d : Dev nD) : (dats m O 0 d).arrays (fun w => (dats m O 0 d).arrAt w cfg0.N) ⊢ arrs m d (Tb m d) := by
  rw [Pipeline.arrays_eq cfgs (dats m O) 0 d arr_whole0 (share_full m O d), bigSep_W0]
  unfold arrs
  iintro ⟨H0, H1, H2, H3, H4, H5, H6, H7, H8, H9, H10, H11, H12, H13, H14, H15, H16, H17, H18, H19, H20, H21, H22, H23, H24, H25, H26⟩
  isplitl [H0]; · iapply (pts_congr (final_0 m O d)); iexact H0
  isplitl [H1]; · iapply (pts_congr (final_1 m O d)); iexact H1
  isplitl [H2]; · iapply (pts_congr (final_2 m O d)); iexact H2
  isplitl [H3]; · iapply (pts_congr (final_3 m O d)); iexact H3
  isplitl [H4]; · iapply (pts_congr (final_4 m O d)); iexact H4
  isplitl [H5]; · iapply (pts_congr (final_5 m O d)); iexact H5
  isplitl [H6]; · iapply (pts_congr (final_6 m O d)); iexact H6
  isplitl [H7]; · iapply (pts_congr (final_7 m O d)); iexact H7
  isplitl [H8]; · iapply (pts_congr (final_8 m O d)); iexact H8
  isplitl [H9]; · iapply (pts_congr (final_9 m O d)); iexact H9
  isplitl [H10]; · iapply (pts_congr (final_10 m O d)); iexact H10
  isplitl [H11]; · iapply (pts_congr (final_11 m O d)); iexact H11
  isplitl [H12]; · iapply (pts_congr (final_12 m O d)); iexact H12
  isplitl [H13]; · iapply (pts_congr (final_13 m O d)); iexact H13
  isplitl [H14]; · iapply (pts_congr (final_14 m O d)); iexact H14
  isplitl [H15]; · iapply (pts_congr (final_15 m O d)); iexact H15
  isplitl [H16]; · iapply (pts_congr (final_16 m O d)); iexact H16
  isplitl [H17]; · iapply (pts_congr (final_17 m O d)); iexact H17
  isplitl [H18]; · iapply (pts_congr (final_18 m O d)); iexact H18
  isplitl [H19]; · iapply (pts_congr (final_19 m O d)); iexact H19
  isplitl [H20]; · iapply (pts_congr (final_20 m O d)); iexact H20
  isplitl [H21]; · iapply (pts_congr (final_21 m O d)); iexact H21
  isplitl [H22]; · iapply (pts_congr (final_22 m O d)); iexact H22
  isplitl [H23]; · iapply (pts_congr (final_23 m O d)); iexact H23
  isplitl [H24]; · iapply (pts_congr (final_24 m O d)); iexact H24
  isplitl [H25]; · iapply (pts_congr (final_25 m O d)); iexact H25
  iapply (pts_congr (final_26 m O d)); iexact H26

/-! ## The region -/

set_option backward.isDefEq.respectTransparency.types false in
/-- The region: from the tables and the result's array at anything to the same with the result's array at `Tb`. -/
theorem region_scale (d : Dev nD) (hO : ∀ g, O g none = 0)
    {α : Type} (k : PUnit → Prog (TpuEff nD τ sig (Elt F) (ΛP (F := F)) .tc) α) (Q : α → sProp 𝕄) :
    iprop(levAts (K (F := F)).L (K (F := F)).lev ∗ boundary (SparseCore.T d) ∗ G (F := F) d
        ∗ (∃ W, ⌜(K (F := F)).WBelow (SparseCore.T d) W 0⌝ ∗ owes (SparseCore.T d) O W)
        ∗ arrs m d (m (tLoc d))
        ∗ ((boundary (SparseCore.T d) ∗ (∃ W, ⌜(K (F := F)).WBelow (SparseCore.T d) W 0⌝ ∗ owes (SparseCore.T d) O W) ∗ arrs m d (Tb m d))
            -∗ wp frame (wpE (D (F := F)) 𝒱 (SparseCore.T d) none) Set.univ (k ⟨⟩) Q))
      ⊢ wp frame (wpE (D (F := F)) 𝒱 (SparseCore.T d) none) Set.univ (.op (.customCall (Pipeline.entry 0) ()) k) Q := by
  iintro ⟨#Hlev, Hb, HG, ⟨%W, %hW, Howes⟩, Harrs, Hk⟩
  ihave HG' := (Entails.of_eq (show G (F := F) d = iprop(Pipeline.cellsGhost (pinned (F := F)) EP 0 d ∗ Pipeline.toksInit (pinned (F := F)) EP 0 d) from rfl)) $$ HG
  icases HG' with ⟨Hg, Ht⟩
  iapply (Pipeline.RegionSeg.wp (pcfgs (F := F)) aA (dats m O) (none : HIx 1) hinj EP (defs₀ (F := F)) 𝒱₀ (K (F := F)).L (K (F := F)).lev
    (seg m O hO) d none (fun u hu => nomatch hu) k Q)
  isplitl [Hk]
  · iintro ⟨Hb, Hpost⟩
    ihave Hp := (Entails.of_eq (show (seg m O hO).post d = iprop((dats m O 0 d).arrays (fun w => (dats m O 0 d).arrAt w cfg0.N) ∗ (dats m O 0 d).owesAt none (Fin.last cfg0.N)) from rfl)) $$ Hpost
    icases Hp with ⟨Ha, ⟨%W', %hW', Howes⟩⟩
    iapply Hk
    isplitl [Hb]; · iexact Hb
    isplitl [Howes]
    · iexists W'; isplitr
      · ipureintro
        intro p hp
        rcases hW' (Finset.mem_coe.2 hp) with h | ⟨w, s, rfl⟩
        · exact h
        · exact le_of_eq ((K (F := F)).lev_none _)
      · iexact Howes
    iapply (arrays_out m O d); iexact Ha
  isplitl [Hb]; · iexact Hb
  isplitl [Howes Harrs]
  · iapply (Entails.of_eq (show (seg m O hO).pre d = iprop((dats m O 0 d).arrays (fun w => (dats m O 0 d).arrAt w 0) ∗ (dats m O 0 d).owesAt none 0) from rfl).symm)
    isplitl [Harrs]; · iapply (arrays_in m O d); iexact Harrs
    iexists W; isplitr
    · ipureintro; intro p hp; exact Or.inl (hW p (Finset.mem_coe.1 hp))
    · iexact Howes
  isplitr; · iexact Hlev
  isplitl [Hg]; · iexact Hg
  iexact Ht

end Cert.Proof.KB

end
-- ==== Proof.SplitB.lean ====
/-
  How the flat row numbers and the result are cut among the two SparseCores and their sixteen workers each.

  Worker `w = 2 s + c` owns the words whose position divided by 13312 is `w` and the result rows whose number divided by
  512 is `w`; SparseCore `c` owns those with `w` of parity `c`.  Both families are partitions: the pieces are the
  fibres of a function, and every worker number below 32 is `2 s + c` for exactly one pair.
-/
import proofs.«207321_g10943576670982_fold_wed_m_632_36_alg».proof.Proof.SetupB

noncomputable section

namespace Cert.Proof.KB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} {U : Type} [URA U]

local notation "𝕄" => MT nD τ sig (HIx 1) (Elt F) ℕ U ℕ

/-! ## The pieces are fibres -/

theorem wid_coordsV (c : Fin 2) (s : Fin 16) : wid (coordsV c s) = 2 * s.val + c.val := rfl

theorem mem_xSet {L : grid1.Coords} {j : S425984.Idx} : j ∈ xSet L ↔ (j 0).val / 13312 = wid L := by
  simp [xSet]
theorem mem_oSet {L : grid1.Coords} {j : S16384x3328.Idx} : j ∈ oSet L ↔ (j 0).val / 512 = wid L := by
  simp [oSet]
theorem mem_xCoreSet {c : Fin 2} {j : S425984.Idx} : j ∈ xCoreSet c ↔ ((j 0).val / 13312) % 2 = c.val := by
  simp [xCoreSet]
theorem mem_oCoreSet {c : Fin 2} {j : S16384x3328.Idx} : j ∈ oCoreSet c ↔ ((j 0).val / 512) % 2 = c.val := by
  simp [oCoreSet]

theorem xCore_disjoint : ∀ i ∈ (Finset.univ : Finset (Fin 2)), ∀ j ∈ (Finset.univ : Finset (Fin 2)), i ≠ j → Disjoint (xCoreSet i) (xCoreSet j) :=
  fun i _ j _ h => Finset.disjoint_left.mpr fun a hi hj => h (Fin.ext ((mem_xCoreSet.mp hi).symm.trans (mem_xCoreSet.mp hj)))
theorem oCore_disjoint : ∀ i ∈ (Finset.univ : Finset (Fin 2)), ∀ j ∈ (Finset.univ : Finset (Fin 2)), i ≠ j → Disjoint (oCoreSet i) (oCoreSet j) :=
  fun i _ j _ h => Finset.disjoint_left.mpr fun a hi hj => h (Fin.ext ((mem_oCoreSet.mp hi).symm.trans (mem_oCoreSet.mp hj)))
theorem xCore_cover : (Finset.univ : Finset (Fin 2)).biUnion xCoreSet = Finset.univ := by
  ext j; simp only [Finset.mem_biUnion, Finset.mem_univ, true_and, iff_true]
  exact ⟨⟨((j 0).val / 13312) % 2, Nat.mod_lt _ (by norm_num)⟩, mem_xCoreSet.mpr rfl⟩
theorem oCore_cover : (Finset.univ : Finset (Fin 2)).biUnion oCoreSet = Finset.univ := by
  ext j; simp only [Finset.mem_biUnion, Finset.mem_univ, true_and, iff_true]
  exact ⟨⟨((j 0).val / 512) % 2, Nat.mod_lt _ (by norm_num)⟩, mem_oCoreSet.mpr rfl⟩

theorem xTile_disjoint (c : Fin 2) : ∀ i ∈ (Finset.univ : Finset (Fin 16)), ∀ j ∈ (Finset.univ : Finset (Fin 16)), i ≠ j →
    Disjoint (xSet (coordsV c i)) (xSet (coordsV c j)) :=
  fun i _ j _ h => Finset.disjoint_left.mpr fun a hi hj => h (Fin.ext (by
    have e := (mem_xSet.mp hi).symm.trans (mem_xSet.mp hj); rw [wid_coordsV, wid_coordsV] at e; omega))
theorem oTile_disjoint (c : Fin 2) : ∀ i ∈ (Finset.univ : Finset (Fin 16)), ∀ j ∈ (Finset.univ : Finset (Fin 16)), i ≠ j →
    Disjoint (oSet (coordsV c i)) (oSet (coordsV c j)) :=
  fun i _ j _ h => Finset.disjoint_left.mpr fun a hi hj => h (Fin.ext (by
    have e := (mem_oSet.mp hi).symm.trans (mem_oSet.mp hj); rw [wid_coordsV, wid_coordsV] at e; omega))
theorem xTile_cover (c : Fin 2) : (Finset.univ : Finset (Fin 16)).biUnion (fun s => xSet (coordsV c s)) = xCoreSet c := by
  ext j; simp only [Finset.mem_biUnion, Finset.mem_univ, true_and, mem_xSet, mem_xCoreSet, wid_coordsV]
  have hj : (j 0).val < 425984 := (j 0).isLt
  constructor
  · rintro ⟨s, hs⟩; omega
  · intro h; exact ⟨⟨(j 0).val / 13312 / 2, by omega⟩, by simp only; omega⟩
theorem oTile_cover (c : Fin 2) : (Finset.univ : Finset (Fin 16)).biUnion (fun s => oSet (coordsV c s)) = oCoreSet c := by
  ext j; simp only [Finset.mem_biUnion, Finset.mem_univ, true_and, mem_oSet, mem_oCoreSet, wid_coordsV]
  have hj : (j 0).val < 16384 := (j 0).isLt
  constructor
  · rintro ⟨s, hs⟩; omega
  · intro h; exact ⟨⟨(j 0).val / 512 / 2, by omega⟩, by simp only; omega⟩

/-! ## The arrays as their pieces -/

theorem x_cores (d : Dev nD) (f : Buf (Elt F) (xLoc d)) :
    (xLoc d ↦{fullShare} f : sProp 𝕄) = bigSep Finset.univ fun c : Fin 2 => xLoc d ↦[xCoreSet c]{fullShare} f := by
  rw [← pointsTo_biUnion Finset.univ (ℓ := xLoc d) xCoreSet xCore_disjoint, xCore_cover]; try rfl
theorem o_cores (d : Dev nD) (f : Buf (Elt F) (oLoc d)) :
    (oLoc d ↦{fullShare} f : sProp 𝕄) = bigSep Finset.univ fun c : Fin 2 => oLoc d ↦[oCoreSet c]{fullShare} f := by
  rw [← pointsTo_biUnion Finset.univ (ℓ := oLoc d) oCoreSet oCore_disjoint, oCore_cover]; try rfl
theorem x_tiles (d : Dev nD) (c : Fin 2) (f : Buf (Elt F) (xLoc d)) :
    (xLoc d ↦[xCoreSet c]{fullShare} f : sProp 𝕄) = bigSep Finset.univ fun s : Fin 16 => xLoc d ↦[xSet (coordsV c s)]{fullShare} f := by
  rw [← pointsTo_biUnion Finset.univ (ℓ := xLoc d) (fun s => xSet (coordsV c s)) (xTile_disjoint c), xTile_cover]
theorem o_tiles (d : Dev nD) (c : Fin 2) (f : Buf (Elt F) (oLoc d)) :
    (oLoc d ↦[oCoreSet c]{fullShare} f : sProp 𝕄) = bigSep Finset.univ fun s : Fin 16 => oLoc d ↦[oSet (coordsV c s)]{fullShare} f := by
  rw [← pointsTo_biUnion Finset.univ (ℓ := oLoc d) (fun s => oSet (coordsV c s)) (oTile_disjoint c), oTile_cover]

/-! ## A SparseCore's part among its workers -/

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit (X : (d : Dev nD) → Buf (Elt F) (xLoc d)) (Tb : (d : Dev nD) → Buf (Elt F) (tLoc d)) (O0 : (d : Dev nD) → Buf (Elt F) (oLoc d)) :
    (K (F := F)).VecSplit' (P (U := U) X Tb O0) 0 := by
  intro d c
  show iprop((xLoc d ↦[xCoreSet (Fin.cast nCore_zero c)]{fullShare} X d) ∗ (tLoc d ↦{coreShare (Fin.cast nCore_zero c)} Tb d)
        ∗ (oLoc d ↦[oCoreSet (Fin.cast nCore_zero c)]{fullShare} O0 d))
    ⊢ |={Set.univ}=> iprop((bigSep Finset.univ fun i : Fin ((K (F := F)).nSub 0) =>
          tileGo (U := U) d (coordsV (Fin.cast nCore_zero c) (Fin.cast nSub_zero i)) (X d) (Tb d) (O0 d))
        ∗ ((bigSep Finset.univ fun i : Fin ((K (F := F)).nSub 0) => tileTd (U := U) d (coordsV (Fin.cast nCore_zero c) (Fin.cast nSub_zero i)) (X d) (Tb d))
          -∗ (oLoc d ↦[oCoreSet (Fin.cast nCore_zero c)]{fullShare} (gatherOut (F := F) (X d) (Tb d) : Buf (Elt F) (oLoc d)))))
  generalize Fin.cast nCore_zero c = c'
  rw [bigSep_tasks (F := F) (U := U) (fun i => tileGo (U := U) d (coordsV c' i) (X d) (Tb d) (O0 d)),
    bigSep_tasks (F := F) (U := U) (fun i => tileTd (U := U) d (coordsV c' i) (X d) (Tb d))]
  unfold tileGo tileTd
  rw [bigSep_sep', bigSep_sep', ← x_tiles, ← o_tiles, ← o_tiles]
  iintro ⟨Hx, Ht, Ho⟩
  ihave Ht' := (Transfers.pointsTo_toks_split (coreShare c') 16) $$ Ht
  icases Ht' with ⟨-, Ht'⟩
  imodintro
  isplitl [Hx Ht' Ho]
  · isplitl [Hx]; · iexact Hx
    isplitl [Ht']; · iexact Ht'
    iexact Ho
  iintro H; iexact H

end Cert.Proof.KB

end
-- ==== Proof.MainBc.lean ====
/-
  @main on a device's TensorCore, for the SparseCore launch theorem.

  Three statements: the TensorCore region that rescales the 26 tables into one (entered through the lifting of the
  program's own body table into the launch's), the host reshape of the row numbers to a flat vector, and the
  SparseCore call.  The call takes the flat row numbers and the result cut between the two SparseCores, and a read
  share of the rescaled table each; it brings the result back gathered.  The 27 arguments are as launched at the end.
-/
import proofs.«207321_g10943576670982_fold_wed_m_632_36_alg».proof.Proof.SetupB
import proofs.«207321_g10943576670982_fold_wed_m_632_36_alg».proof.Proof.MainBd
import proofs.«207321_g10943576670982_fold_wed_m_632_36_alg».proof.Proof.SplitB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}

open Idealize.ShloMosaic.StableHlo (held wp_hlo_within)

variable [FloatOps F] [∀ e, Nonempty (Elt F e)]

local notation "𝕄" => MT nD τ sig (HIx 1) (Elt F) ℕ UU ℕ

variable (m : (ℓ : Loc nD τ sig) → Buf (Elt F) ℓ) (ρ : Dev nD → PrngReg)

/-! ## The reshape -/

abbrev a0' : DevRef τ sig := Proc.devRef .tc (main_arg0 : Ref sig .tc)
abbrev v1' : DevRef τ sig := Proc.devRef .tc (main_v1 : Ref sig .tc)
abbrev opR : HloOp τ sig (Elt F) := StableHlo.reshape main_arg0 main_v1 rfl shapeCasts_S16384x26_S425984

/-- The launch valuation of device `d`. -/
def Vv (d : Dev nD) : Valuation τ sig (Elt F) := fun b => m (d, b)

omit [FloatOps F] in
theorem held_R (d : Dev nD) (W : Valuation τ sig (Elt F)) :
    (held (SparseCore.T d) (opR (F := F)).bufs W : sProp 𝕄) = iprop(((SparseCore.T d).loc main_arg0 ↦{fullShare} W a0') ∗ (xLoc d ↦{fullShare} W v1')) := by
  unfold held
  rw [show (opR (F := F)).bufs = {a0', v1'} from rfl, SparseCore.bigSep_insert' (by decide), bigSep_singleton]

omit [FloatOps F] in
theorem R_a0 (d : Dev nD) : (opR (F := F)).result (Vv m d) a0' = m ((SparseCore.T d).loc main_arg0) :=
  (opR (F := F)).result_of_not_mem (Vv m d) (b := a0') (show a0' ∉ ({v1'} : Finset (DevRef τ sig)) by decide)

omit [FloatOps F] in
theorem R_v1 (d : Dev nD) : (opR (F := F)).result (Vv m d) v1' = Xf m d :=
  StableHlo.reshape_result main_arg0 main_v1 rfl shapeCasts_S16384x26_S425984 _ _ (Vv m d)

omit [FloatOps F] in
theorem held_R_after (d : Dev nD) :
    (held (SparseCore.T d) (opR (F := F)).bufs ((opR (F := F)).result (Vv m d)) : sProp 𝕄)
      = iprop(((SparseCore.T d).loc main_arg0 ↦{fullShare} m ((SparseCore.T d).loc main_arg0)) ∗ (xLoc d ↦{fullShare} Xf m d)) := by
  rw [held_R, R_a0, R_v1]

/-! ## @main's arrays -/

theorem unscoped_split (d : Dev nD) :
    (unscopedBufs d (fun b => m ((SparseCore.T d).loc b)) : sProp 𝕄)
      = iprop(arrs m d (m (tLoc d)) ∗ ((SparseCore.T d).loc main_arg0 ↦{fullShare} m ((SparseCore.T d).loc main_arg0)) ∗ (xLoc d ↦{fullShare} m (xLoc d))
          ∗ (oLoc d ↦{fullShare} m (oLoc d))) := by
  rw [Pipeline.unscopedBufs_split cfgs 0 winFacts0.arr_unscoped winFacts0.arr_inj d, unscopedRest0_eq, bigSep_W0]
  rfl

theorem arrs_eq (d : Dev nD) (f : Buf (Elt F) (tLoc d)) :
    (arrs m d f : sProp 𝕄) = iprop(((SparseCore.T d).loc main_arg1 ↦{fullShare} m ((SparseCore.T d).loc main_arg1)) ∗ ((SparseCore.T d).loc main_arg2 ↦{fullShare} m ((SparseCore.T d).loc main_arg2)) ∗ ((SparseCore.T d).loc main_arg3 ↦{fullShare} m ((SparseCore.T d).loc main_arg3)) ∗ ((SparseCore.T d).loc main_arg4 ↦{fullShare} m ((SparseCore.T d).loc main_arg4)) ∗ ((SparseCore.T d).loc main_arg5 ↦{fullShare} m ((SparseCore.T d).loc main_arg5)) ∗ ((SparseCore.T d).loc main_arg6 ↦{fullShare} m ((SparseCore.T d).loc main_arg6)) ∗ ((SparseCore.T d).loc main_arg7 ↦{fullShare} m ((SparseCore.T d).loc main_arg7)) ∗ ((SparseCore.T d).loc main_arg8 ↦{fullShare} m ((SparseCore.T d).loc main_arg8)) ∗ ((SparseCore.T d).loc main_arg9 ↦{fullShare} m ((SparseCore.T d).loc main_arg9)) ∗ ((SparseCore.T d).loc main_arg10 ↦{fullShare} m ((SparseCore.T d).loc main_arg10)) ∗ ((SparseCore.T d).loc main_arg11 ↦{fullShare} m ((SparseCore.T d).loc main_arg11)) ∗ ((SparseCore.T d).loc main_arg12 ↦{fullShare} m ((SparseCore.T d).loc main_arg12)) ∗ ((SparseCore.T d).loc main_arg13 ↦{fullShare} m ((SparseCore.T d).loc main_arg13)) ∗ ((SparseCore.T d).loc main_arg14 ↦{fullShare} m ((SparseCore.T d).loc main_arg14)) ∗ ((SparseCore.T d).loc main_arg15 ↦{fullShare} m ((SparseCore.T d).loc main_arg15)) ∗ ((SparseCore.T d).loc main_arg16 ↦{fullShare} m ((SparseCore.T d).loc main_arg16)) ∗ ((SparseCore.T d).loc main_arg17 ↦{fullShare} m ((SparseCore.T d).loc main_arg17)) ∗ ((SparseCore.T d).loc main_arg18 ↦{fullShare} m ((SparseCore.T d).loc main_arg18)) ∗ ((SparseCore.T d).loc main_arg19 ↦{fullShare} m ((SparseCore.T d).loc main_arg19)) ∗ ((SparseCore.T d).loc main_arg20 ↦{fullShare} m ((SparseCore.T d).loc main_arg20)) ∗ ((SparseCore.T d).loc main_arg21 ↦{fullShare} m ((SparseCore.T d).loc main_arg21)) ∗ ((SparseCore.T d).loc main_arg22 ↦{fullShare} m ((SparseCore.T d).loc main_arg22)) ∗ ((SparseCore.T d).loc main_arg23 ↦{fullShare} m ((SparseCore.T d).loc main_arg23)) ∗ ((SparseCore.T d).loc main_arg24 ↦{fullShare} m ((SparseCore.T d).loc main_arg24)) ∗ ((SparseCore.T d).loc main_arg25 ↦{fullShare} m ((SparseCore.T d).loc main_arg25)) ∗ ((SparseCore.T d).loc main_arg26 ↦{fullShare} m ((SparseCore.T d).loc main_arg26)) ∗ (tLoc d ↦{fullShare} f)) := by
  unfold arrs; rfl

/-! ## What the call takes for the two SparseCores, and what it hands back -/

theorem st0_eq (d : Dev nD) (X : (d : Dev nD) → Buf (Elt F) (xLoc d)) (Tt : (d : Dev nD) → Buf (Elt F) (tLoc d)) (O0 : (d : Dev nD) → Buf (Elt F) (oLoc d)) :
    (bigSep Finset.univ fun c : Fin ((K (F := F)).nCore 0) => (P (U := UU) X Tt O0).st 0 d c)
      = iprop((bigSep Finset.univ fun c : Fin 2 => xLoc d ↦[xCoreSet c]{fullShare} X d)
          ∗ (bigSep Finset.univ fun c : Fin 2 => (tLoc d ↦{coreShare c} Tt d : sProp 𝕄))
          ∗ (bigSep Finset.univ fun c : Fin 2 => oLoc d ↦[oCoreSet c]{fullShare} O0 d)) := by
  show (bigSep (Finset.univ : Finset (Fin 2)) fun c => iprop((xLoc d ↦[xCoreSet c]{fullShare} X d) ∗ (tLoc d ↦{coreShare c} Tt d) ∗ (oLoc d ↦[oCoreSet c]{fullShare} O0 d))) = _
  rw [bigSep_sep', bigSep_sep']

theorem dn0_eq (d : Dev nD) (X : (d : Dev nD) → Buf (Elt F) (xLoc d)) (Tt : (d : Dev nD) → Buf (Elt F) (tLoc d)) (O0 : (d : Dev nD) → Buf (Elt F) (oLoc d)) :
    (bigSep Finset.univ fun c : Fin ((K (F := F)).nCore 0) => (P (U := UU) X Tt O0).dn 0 d c)
      = (oLoc d ↦{fullShare} (gatherOut (F := F) (X d) (Tt d) : Buf (Elt F) (oLoc d)) : sProp 𝕄) := by
  rw [o_cores]; rfl

/-! ## The TensorCore's state before the call, opened -/

/-- Its handshake state but for what it owes. -/
def tcRest (d : Dev nD) : sProp 𝕄 :=
  iprop(atPos (EH (F := F)) ((K (F := F)).doneCell d) 0 ∅ 0 ∗ reached (EH (F := F)) ((K (F := F)).doneCell d) 0
    ∗ (bigSep Finset.univ fun c : Fin τ.nSC => reached (EH (F := F)) ((K (F := F)).startCell d c) ((K (F := F)).sRank c 0))
    ∗ bigSep (SparseCore.Cfg.callsFrom 0) fun q : Fin 1 => bigSep Finset.univ fun c : Fin ((K (F := F)).nCore q) =>
        iprop(dutyTok (EH (F := F)) ((K (F := F)).startCell d ((K (F := F)).core q c)) ((K (F := F)).sRank ((K (F := F)).core q c) q.val) 0
          ∗ cred (tallyAt ((K (F := F)).doneCell d) (some q) 1)))

omit [FloatOps F] in
theorem tcSt_eq (d : Dev nD) :
    ((K (F := F)).tcSt EH d 0 : sProp 𝕄)
      = iprop((∃ W, ⌜(K (F := F)).WBelow (SparseCore.T d) W 0⌝ ∗ owes (SparseCore.T d) ((K (F := F)).Otc d 0) W) ∗ tcRest (F := F) d) := rfl

/-! ## @main -/

/-- What @main leaves the claim: the 27 arguments as launched, the result gathered. -/
def FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1)) ∗ ((SparseCore.T d).loc main_arg2 ↦{fullShare} m ((SparseCore.T d).loc main_arg2)) ∗ ((SparseCore.T d).loc main_arg3 ↦{fullShare} m ((SparseCore.T d).loc main_arg3)) ∗ ((SparseCore.T d).loc main_arg4 ↦{fullShare} m ((SparseCore.T d).loc main_arg4)) ∗ ((SparseCore.T d).loc main_arg5 ↦{fullShare} m ((SparseCore.T d).loc main_arg5)) ∗ ((SparseCore.T d).loc main_arg6 ↦{fullShare} m ((SparseCore.T d).loc main_arg6)) ∗ ((SparseCore.T d).loc main_arg7 ↦{fullShare} m ((SparseCore.T d).loc main_arg7)) ∗ ((SparseCore.T d).loc main_arg8 ↦{fullShare} m ((SparseCore.T d).loc main_arg8)) ∗ ((SparseCore.T d).loc main_arg9 ↦{fullShare} m ((SparseCore.T d).loc main_arg9)) ∗ ((SparseCore.T d).loc main_arg10 ↦{fullShare} m ((SparseCore.T d).loc main_arg10)) ∗ ((SparseCore.T d).loc main_arg11 ↦{fullShare} m ((SparseCore.T d).loc main_arg11)) ∗ ((SparseCore.T d).loc main_arg12 ↦{fullShare} m ((SparseCore.T d).loc main_arg12)) ∗ ((SparseCore.T d).loc main_arg13 ↦{fullShare} m ((SparseCore.T d).loc main_arg13)) ∗ ((SparseCore.T d).loc main_arg14 ↦{fullShare} m ((SparseCore.T d).loc main_arg14)) ∗ ((SparseCore.T d).loc main_arg15 ↦{fullShare} m ((SparseCore.T d).loc main_arg15)) ∗ ((SparseCore.T d).loc main_arg16 ↦{fullShare} m ((SparseCore.T d).loc main_arg16)) ∗ ((SparseCore.T d).loc main_arg17 ↦{fullShare} m ((SparseCore.T d).loc main_arg17)) ∗ ((SparseCore.T d).loc main_arg18 ↦{fullShare} m ((SparseCore.T d).loc main_arg18)) ∗ ((SparseCore.T d).loc main_arg19 ↦{fullShare} m ((SparseCore.T d).loc main_arg19)) ∗ ((SparseCore.T d).loc main_arg20 ↦{fullShare} m ((SparseCore.T d).loc main_arg20)) ∗ ((SparseCore.T d).loc main_arg21 ↦{fullShare} m ((SparseCore.T d).loc main_arg21)) ∗ ((SparseCore.T d).loc main_arg22 ↦{fullShare} m ((SparseCore.T d).loc main_arg22)) ∗ ((SparseCore.T d).loc main_arg23 ↦{fullShare} m ((SparseCore.T d).loc main_arg23)) ∗ ((SparseCore.T d).loc main_arg24 ↦{fullShare} m ((SparseCore.T d).loc main_arg24)) ∗ ((SparseCore.T d).loc main_arg25 ↦{fullShare} m ((SparseCore.T d).loc main_arg25)) ∗ ((SparseCore.T d).loc main_arg26 ↦{fullShare} m ((SparseCore.T d).loc main_arg26))
    ∗ (oLoc d ↦{fullShare} (gatherOut (F := F) (Xf m d) (Tb m d) : Buf (Elt F) (oLoc d))))

omit [FloatOps F] in
/-- A unit owed at a call's index is no unit at the kernels' own index. -/
theorem tallyAt_some_none (g' g : GSem nD τ sig) (q : Fin 1) (k : ℕ) :
    (tallyAt g' (some q) k : CellTallies nD τ sig (HIx 1)) g none = 0 := by
  unfold tallyAt tallyOn
  by_cases h : g = g'
  · subst h; rw [Pi.single_eq_same]; simp [Finsupp.single_apply]
  · rw [Pi.single_eq_of_ne h]; rfl

omit [FloatOps F] in
/-- What the TensorCore owes the SparseCores is owed at the calls' indices only. -/
theorem Otc_none (d : Dev nD) (n : ℕ) (g : GSem nD τ sig) : (K (F := F)).Otc d n g none = 0 := by
  unfold SparseCore.Cfg.Otc
  rw [Finset.sum_apply, Finsupp.finset_sum_apply]
  refine Finset.sum_eq_zero fun q _ => ?_
  split_ifs
  · rw [Finset.sum_apply, Finsupp.finset_sum_apply]
    exact Finset.sum_eq_zero fun c _ => tallyAt_some_none _ g q 1
  · rfl

set_option backward.isDefEq.respectTransparency.types false in
theorem hmain (κ : GSem nD τ sig → ℕ) (d : Dev nD) :
    iprop((K (F := F)).ctx EH (P (U := UU) (Xf m) (Tb m) (fun d => m (oLoc d))) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_split]
  simp only [main, wp_bind, wp_pure]
  iintro ⟨#Hctx, Hst, ⟨Hb, ⟨Harrs, Ha0, Hx, Ho⟩, -, -⟩, HG⟩
  ihave Hlev := ((K (F := F)).ctx_levAts κ) $$ Hctx
  -- the region
  ihave Hst' := (Entails.of_eq (tcSt_eq (F := F) d)) $$ Hst
  icases Hst' with ⟨Howes, Hrest⟩
  iapply ((K (F := F)).wp_liftProg (D (F := F)) 𝒱 (SparseCore.T d) Set.univ none (p := Prog.op (.customCall (Pipeline.entry 0) ()) Prog.ret))
  iapply (region_scale m ((K (F := F)).Otc d 0) d (Otc_none d 0) Prog.ret _)
  isplitl [Hlev]; · iexact Hlev
  isplitl [Hb]; · iexact Hb
  isplitl [HG]; · iexact HG
  isplitl [Howes]; · iexact Howes
  isplitl [Harrs]; · iexact Harrs
  iintro ⟨Hb, Howes, Harrs⟩
  rw [wp_ret]; imodintro
  -- the reshape
  iapply (wp_hlo_within 𝒱 (SparseCore.T d) none Set.univ (op := opR) (S := (opR (F := F)).bufs) (Finset.Subset.refl _) (V := Vv m d)) $$ [Hb Ha0 Hx]
  · isplitl [Hb]; · iexact Hb
    rw [held_R]
    isplitl [Ha0]; · iexact Ha0
    iexact Hx
  iintro ⟨Hb, Hheld⟩
  ihave Hh := (Entails.of_eq (held_R_after (F := F) m d)) $$ Hheld
  icases Hh with ⟨Ha0, Hx⟩
  rw [wp_ret]; imodintro
  -- the call
  ihave Harrs' := (Entails.of_eq (arrs_eq (F := F) m d (Tb m d))) $$ Harrs
  icases Harrs' with ⟨H1, H2, H3, H4, H5, H6, H7, H8, H9, H10, H11, H12, H13, H14, H15, H16, H17, H18, H19, H20, H21, H22, H23, H24, H25, H26, Ht⟩
  ihave Htt := (Transfers.pointsTo_toks_split fullShare 2) $$ Ht
  icases Htt with ⟨-, Ht⟩
  iapply ((K (F := F)).wp_run (D (F := F)) 𝒱 (EH := EH) (P := P (U := UU) (Xf m) (Tb m) (fun d => m (oLoc d))) κ d 0) $$ [Howes Hrest Hx Ht Ho Hb Ha0 H1 H2 H3 H4 H5 H6 H7 H8 H9 H10 H11 H12 H13 H14 H15 H16 H17 H18 H19 H20 H21 H22 H23 H24 H25 H26]
  isplitr; · iexact Hctx
  isplitl [Howes Hrest]
  · iapply (Entails.of_eq (tcSt_eq (F := F) d).symm)
    isplitl [Howes]; · iexact Howes
    iexact Hrest
  isplitl [Hx Ht Ho]
  · rw [st0_eq]
    isplitl [Hx]; · rw [← x_cores]; iexact Hx
    isplitl [Ht]; · iexact Ht
    rw [← o_cores]; iexact Ho
  iintro ⟨Hst, Hdn⟩
  ihave Hdn' := (Entails.of_eq (dn0_eq (F := F) d (Xf m) (Tb m) (fun d => m (oLoc d)))) $$ Hdn
  imodintro
  isplitl [Hst]; · iexact Hst
  unfold FIN
  isplitl [Ha0]; · iexact Ha0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  iexact Hdn'

end Cert.Proof.KB

end
-- ==== Proof.OblB.lean ====
/-
  A worker's task as the launch theorem asks for it, from the task's proof at a grid place.
-/
import proofs.«207321_g10943576670982_fold_wed_m_632_36_alg».proof.Proof.SetupB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} {U : Type} [URA U]

local notation "𝕄" => MT nD τ sig (HIx 1) (Elt F) ℕ U ℕ

variable [FloatOps F]

/-- The statement of a worker's task at a grid place. -/
def TileBody (U : Type) [URA U] : Prop :=
  ∀ (hF : (K (F := F)).Facts) (d : Dev nD) (L : grid1.Coords)
    (X : Buf (Elt F) (xLoc d)) (Tb : Buf (Elt F) (tLoc d)) (O0 : Buf (Elt F) (oLoc d)) (hX : ∀ j, (X j : BitVec 32).toNat < 128)
    (O : CellTallies nD τ sig (HIx 1)) (W : Waits sig (HIx 1)) (hO : ∀ g, O g none = 0),
    iprop(levAts (K (F := F)).L (K (F := F)).lev ∗ emp ∗ tileGo (U := U) d L X Tb O0
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather_body L (Memref.whole main_v1_scv) (Memref.isWhole_whole _) (Memref.whole main_v0_scv) (Memref.isWhole_whole _) (Memref.whole main_v2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) cc1_scratch9 cc1_scratch10 cc1_scratch11 cc1_scratch12 cc1_scratch13 cc1_scratch14 cc1_scratch15 cc1_scratch16 cc1_scratch17 cc1_scratch18 cc1_scratch19 cc1_scratch20 cc1_scratch21 cc1_scratch22 cc1_scratch23 cc1_scratch24 cc1_scoped0)
          fun _ => iprop(tileTd (U := U) d L X Tb ∗ scopedBufs (V d (cV L) (jV L)) ∗ scopedSems0 (V d (cV L) (jV L))
            ∗ ∃ W', ⌜∀ p ∈ W', p ∈ W ∨ p.2 = none⌝ ∗ owes (V d (cV L) (jV L)) O W')

theorem defs₀_vector (c : Fin τ.nSC) (s : Fin τ.nSub) :
    defs₀ (F := F) (.scVector c s) 1 ()
      = SparseCore.onTile hcore1 hsub1 (fun c s => cc1__sc_gather_body (fun | 0 => c | 1 => s | ⟨_ + 2, h⟩ => absurd h (Nat.not_lt.2 (Nat.le_add_left _ _)))
          (Memref.whole main_v1_scv) (Memref.isWhole_whole _) (Memref.whole main_v0_scv) (Memref.isWhole_whole _) (Memref.whole main_v2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) cc1_scratch9 cc1_scratch10 cc1_scratch11 cc1_scratch12 cc1_scratch13 cc1_scratch14 cc1_scratch15 cc1_scratch16 cc1_scratch17 cc1_scratch18 cc1_scratch19 cc1_scratch20 cc1_scratch21 cc1_scratch22 cc1_scratch23 cc1_scratch24 cc1_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hbody : TileBody (F := F) U) (hF : (K (F := F)).Facts)
    (X : (d : Dev nD) → Buf (Elt F) (xLoc d)) (Tb : (d : Dev nD) → Buf (Elt F) (tLoc d)) (O0 : (d : Dev nD) → Buf (Elt F) (oLoc d))
    (hX : ∀ d j, (X d j : BitVec 32).toNat < 128) :
    (K (F := F)).TileObl (D (F := F)) 𝒱 (P (U := U) X Tb O0) v₀ 0 := by
  intro d c i O W hO _ _
  simp only [show (P (U := U) X Tb O0).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (hbody hF d (coordsV (Fin.cast nCore_zero c) (Fin.cast nSub_zero i)) (X d) (Tb d) (O0 d) (hX d) O W hO).trans (wp_mono frame _ _ fun _ => obl_post)

end Cert.Proof.KB

end
-- ==== Proof.RunB.lean ====
/-
  The run of the whole program: every weakly fair execution of the TensorCore's @main beside the SparseCores' threads
  ends, nothing faulting, with the 27 arguments as launched and the result holding the gathered rows of the rescaled
  table — the launch theorem applied to @main's proof, the workers' task and the split of a SparseCore's part.
-/
import proofs.«207321_g10943576670982_fold_wed_m_632_36_alg».proof.Proof.MainBc
import proofs.«207321_g10943576670982_fold_wed_m_632_36_alg».proof.Proof.OblB
import proofs.«207321_g10943576670982_fold_wed_m_632_36_alg».proof.Proof.SplitB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type} [FloatOps F]

local notation "𝕄" => MT nD τ sig (HIx 1) (Elt F) ℕ UU ℕ

variable (m : (ℓ : Loc nD τ sig) → Buf (Elt F) ℓ) (ρ : Dev nD → PrngReg)

/-- What the final memory holds on device `d`: the result gathered, the arguments as launched. -/
def fqM (d : Dev nD) (M : MemSt nD τ sig (Elt F)) : Prop :=
  M.mem (oLoc d) = (gatherOut (F := F) (Xf m d) (Tb m d) : Buf (Elt F) (oLoc d))
  ∧ M.mem ((SparseCore.T d).loc main_arg0) = m ((SparseCore.T d).loc main_arg0)
  ∧ M.mem ((SparseCore.T d).loc main_arg1) = m ((SparseCore.T d).loc main_arg1)
  ∧ M.mem ((SparseCore.T d).loc main_arg2) = m ((SparseCore.T d).loc main_arg2)
  ∧ M.mem ((SparseCore.T d).loc main_arg3) = m ((SparseCore.T d).loc main_arg3)
  ∧ M.mem ((SparseCore.T d).loc main_arg4) = m ((SparseCore.T d).loc main_arg4)
  ∧ M.mem ((SparseCore.T d).loc main_arg5) = m ((SparseCore.T d).loc main_arg5)
  ∧ M.mem ((SparseCore.T d).loc main_arg6) = m ((SparseCore.T d).loc main_arg6)
  ∧ M.mem ((SparseCore.T d).loc main_arg7) = m ((SparseCore.T d).loc main_arg7)
  ∧ M.mem ((SparseCore.T d).loc main_arg8) = m ((SparseCore.T d).loc main_arg8)
  ∧ M.mem ((SparseCore.T d).loc main_arg9) = m ((SparseCore.T d).loc main_arg9)
  ∧ M.mem ((SparseCore.T d).loc main_arg10) = m ((SparseCore.T d).loc main_arg10)
  ∧ M.mem ((SparseCore.T d).loc main_arg11) = m ((SparseCore.T d).loc main_arg11)
  ∧ M.mem ((SparseCore.T d).loc main_arg12) = m ((SparseCore.T d).loc main_arg12)
  ∧ M.mem ((SparseCore.T d).loc main_arg13) = m ((SparseCore.T d).loc main_arg13)
  ∧ M.mem ((SparseCore.T d).loc main_arg14) = m ((SparseCore.T d).loc main_arg14)
  ∧ M.mem ((SparseCore.T d).loc main_arg15) = m ((SparseCore.T d).loc main_arg15)
  ∧ M.mem ((SparseCore.T d).loc main_arg16) = m ((SparseCore.T d).loc main_arg16)
  ∧ M.mem ((SparseCore.T d).loc main_arg17) = m ((SparseCore.T d).loc main_arg17)
  ∧ M.mem ((SparseCore.T d).loc main_arg18) = m ((SparseCore.T d).loc main_arg18)
  ∧ M.mem ((SparseCore.T d).loc main_arg19) = m ((SparseCore.T d).loc main_arg19)
  ∧ M.mem ((SparseCore.T d).loc main_arg20) = m ((SparseCore.T d).loc main_arg20)
  ∧ M.mem ((SparseCore.T d).loc main_arg21) = m ((SparseCore.T d).loc main_arg21)
  ∧ M.mem ((SparseCore.T d).loc main_arg22) = m ((SparseCore.T d).loc main_arg22)
  ∧ M.mem ((SparseCore.T d).loc main_arg23) = m ((SparseCore.T d).loc main_arg23)
  ∧ M.mem ((SparseCore.T d).loc main_arg24) = m ((SparseCore.T d).loc main_arg24)
  ∧ M.mem ((SparseCore.T d).loc main_arg25) = m ((SparseCore.T d).loc main_arg25)
  ∧ M.mem ((SparseCore.T d).loc main_arg26) = m ((SparseCore.T d).loc main_arg26)

def fq (d : Dev nD) (s' : Phys nD τ sig (Elt F)) : Prop := fqM m d s'.mem

set_option maxRecDepth 16384 in
set_option maxHeartbeats 4000000 in
theorem hfin (d : Dev nD) (s' : Phys nD τ sig (Elt F)) : iprop(FIN m d ∗ SI s') ⊢ (⌜fq m d s'⌝ : sProp 𝕄) := by
  unfold FIN
  iintro ⟨⟨H0, H1, H2, H3, H4, H5, H6, H7, H8, H9, H10, H11, H12, H13, H14, H15, H16, H17, H18, H19, H20, H21, H22, H23, H24, H25, H26, Ho⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare) (f := m ((SparseCore.T d).loc main_arg2)))) $$ [HSI H2]
  · isplitl [HSI] <;> iassumption
  icases H with ⟨%h2, HSI, -⟩
  ihave H := (persistent_entails_right (SI_pointsTo_agree (st := s') (ℓ := (SparseCore.T d).loc main_arg3) (I := Finset.univ) (q := fullShare) (f := m ((SparseCore.T d).loc main_arg3)))) $$ [HSI H3]
  · isplitl [HSI] <;> iassumption
  icases H with ⟨%h3, HSI, -⟩
  ihave H := (persistent_entails_right (SI_pointsTo_agree (st := s') (ℓ := (SparseCore.T d).loc main_arg4) (I := Finset.univ) (q := fullShare) (f := m ((SparseCore.T d).loc main_arg4)))) $$ [HSI H4]
  · isplitl [HSI] <;> iassumption
  icases H with ⟨%h4, HSI, -⟩
  ihave H := (persistent_entails_right (SI_pointsTo_agree (st := s') (ℓ := (SparseCore.T d).loc main_arg5) (I := Finset.univ) (q := fullShare) (f := m ((SparseCore.T d).loc main_arg5)))) $$ [HSI H5]
  · isplitl [HSI] <;> iassumption
  icases H with ⟨%h5, HSI, -⟩
  ihave H := (persistent_entails_right (SI_pointsTo_agree (st := s') (ℓ := (SparseCore.T d).loc main_arg6) (I := Finset.univ) (q := fullShare) (f := m ((SparseCore.T d).loc main_arg6)))) $$ [HSI H6]
  · isplitl [HSI] <;> iassumption
  icases H with ⟨%h6, HSI, -⟩
  ihave H := (persistent_entails_right (SI_pointsTo_agree (st := s') (ℓ := (SparseCore.T d).loc main_arg7) (I := Finset.univ) (q := fullShare) (f := m ((SparseCore.T d).loc main_arg7)))) $$ [HSI H7]
  · isplitl [HSI] <;> iassumption
  icases H with ⟨%h7, HSI, -⟩
  ihave H := (persistent_entails_right (SI_pointsTo_agree (st := s') (ℓ := (SparseCore.T d).loc main_arg8) (I := Finset.univ) (q := fullShare) (f := m ((SparseCore.T d).loc main_arg8)))) $$ [HSI H8]
  · isplitl [HSI] <;> iassumption
  icases H with ⟨%h8, HSI, -⟩
  ihave H := (persistent_entails_right (SI_pointsTo_agree (st := s') (ℓ := (SparseCore.T d).loc main_arg9) (I := Finset.univ) (q := fullShare) (f := m ((SparseCore.T d).loc main_arg9)))) $$ [HSI H9]
  · isplitl [HSI] <;> iassumption
  icases H with ⟨%h9, HSI, -⟩
  ihave H := (persistent_entails_right (SI_pointsTo_agree (st := s') (ℓ := (SparseCore.T d).loc main_arg10) (I := Finset.univ) (q := fullShare) (f := m ((SparseCore.T d).loc main_arg10)))) $$ [HSI H10]
  · isplitl [HSI] <;> iassumption
  icases H with ⟨%h10, HSI, -⟩
  ihave H := (persistent_entails_right (SI_pointsTo_agree (st := s') (ℓ := (SparseCore.T d).loc main_arg11) (I := Finset.univ) (q := fullShare) (f := m ((SparseCore.T d).loc main_arg11)))) $$ [HSI H11]
  · isplitl [HSI] <;> iassumption
  icases H with ⟨%h11, HSI, -⟩
  ihave H := (persistent_entails_right (SI_pointsTo_agree (st := s') (ℓ := (SparseCore.T d).loc main_arg12) (I := Finset.univ) (q := fullShare) (f := m ((SparseCore.T d).loc main_arg12)))) $$ [HSI H12]
  · isplitl [HSI] <;> iassumption
  icases H with ⟨%h12, HSI, -⟩
  ihave H := (persistent_entails_right (SI_pointsTo_agree (st := s') (ℓ := (SparseCore.T d).loc main_arg13) (I := Finset.univ) (q := fullShare) (f := m ((SparseCore.T d).loc main_arg13)))) $$ [HSI H13]
  · isplitl [HSI] <;> iassumption
  icases H with ⟨%h13, HSI, -⟩
  ihave H := (persistent_entails_right (SI_pointsTo_agree (st := s') (ℓ := (SparseCore.T d).loc main_arg14) (I := Finset.univ) (q := fullShare) (f := m ((SparseCore.T d).loc main_arg14)))) $$ [HSI H14]
  · isplitl [HSI] <;> iassumption
  icases H with ⟨%h14, HSI, -⟩
  ihave H := (persistent_entails_right (SI_pointsTo_agree (st := s') (ℓ := (SparseCore.T d).loc main_arg15) (I := Finset.univ) (q := fullShare) (f := m ((SparseCore.T d).loc main_arg15)))) $$ [HSI H15]
  · isplitl [HSI] <;> iassumption
  icases H with ⟨%h15, HSI, -⟩
  ihave H := (persistent_entails_right (SI_pointsTo_agree (st := s') (ℓ := (SparseCore.T d).loc main_arg16) (I := Finset.univ) (q := fullShare) (f := m ((SparseCore.T d).loc main_arg16)))) $$ [HSI H16]
  · isplitl [HSI] <;> iassumption
  icases H with ⟨%h16, HSI, -⟩
  ihave H := (persistent_entails_right (SI_pointsTo_agree (st := s') (ℓ := (SparseCore.T d).loc main_arg17) (I := Finset.univ) (q := fullShare) (f := m ((SparseCore.T d).loc main_arg17)))) $$ [HSI H17]
  · isplitl [HSI] <;> iassumption
  icases H with ⟨%h17, HSI, -⟩
  ihave H := (persistent_entails_right (SI_pointsTo_agree (st := s') (ℓ := (SparseCore.T d).loc main_arg18) (I := Finset.univ) (q := fullShare) (f := m ((SparseCore.T d).loc main_arg18)))) $$ [HSI H18]
  · isplitl [HSI] <;> iassumption
  icases H with ⟨%h18, HSI, -⟩
  ihave H := (persistent_entails_right (SI_pointsTo_agree (st := s') (ℓ := (SparseCore.T d).loc main_arg19) (I := Finset.univ) (q := fullShare) (f := m ((SparseCore.T d).loc main_arg19)))) $$ [HSI H19]
  · isplitl [HSI] <;> iassumption
  icases H with ⟨%h19, HSI, -⟩
  ihave H := (persistent_entails_right (SI_pointsTo_agree (st := s') (ℓ := (SparseCore.T d).loc main_arg20) (I := Finset.univ) (q := fullShare) (f := m ((SparseCore.T d).loc main_arg20)))) $$ [HSI H20]
  · isplitl [HSI] <;> iassumption
  icases H with ⟨%h20, HSI, -⟩
  ihave H := (persistent_entails_right (SI_pointsTo_agree (st := s') (ℓ := (SparseCore.T d).loc main_arg21) (I := Finset.univ) (q := fullShare) (f := m ((SparseCore.T d).loc main_arg21)))) $$ [HSI H21]
  · isplitl [HSI] <;> iassumption
  icases H with ⟨%h21, HSI, -⟩
  ihave H := (persistent_entails_right (SI_pointsTo_agree (st := s') (ℓ := (SparseCore.T d).loc main_arg22) (I := Finset.univ) (q := fullShare) (f := m ((SparseCore.T d).loc main_arg22)))) $$ [HSI H22]
  · isplitl [HSI] <;> iassumption
  icases H with ⟨%h22, HSI, -⟩
  ihave H := (persistent_entails_right (SI_pointsTo_agree (st := s') (ℓ := (SparseCore.T d).loc main_arg23) (I := Finset.univ) (q := fullShare) (f := m ((SparseCore.T d).loc main_arg23)))) $$ [HSI H23]
  · isplitl [HSI] <;> iassumption
  icases H with ⟨%h23, HSI, -⟩
  ihave H := (persistent_entails_right (SI_pointsTo_agree (st := s') (ℓ := (SparseCore.T d).loc main_arg24) (I := Finset.univ) (q := fullShare) (f := m ((SparseCore.T d).loc main_arg24)))) $$ [HSI H24]
  · isplitl [HSI] <;> iassumption
  icases H with ⟨%h24, HSI, -⟩
  ihave H := (persistent_entails_right (SI_pointsTo_agree (st := s') (ℓ := (SparseCore.T d).loc main_arg25) (I := Finset.univ) (q := fullShare) (f := m ((SparseCore.T d).loc main_arg25)))) $$ [HSI H25]
  · isplitl [HSI] <;> iassumption
  icases H with ⟨%h25, HSI, -⟩
  ihave H := (persistent_entails_right (SI_pointsTo_agree (st := s') (ℓ := (SparseCore.T d).loc main_arg26) (I := Finset.univ) (q := fullShare) (f := m ((SparseCore.T d).loc main_arg26)))) $$ [HSI H26]
  · isplitl [HSI] <;> iassumption
  icases H with ⟨%h26, HSI, -⟩
  ihave H := (SI_pointsTo_agree (st := s') (ℓ := oLoc d) (I := Finset.univ) (q := fullShare) (f := (gatherOut (F := F) (Xf m d) (Tb m d) : Buf (Elt F) (oLoc d)))) $$ [HSI Ho]
  · isplitl [HSI] <;> iassumption
  icases H with %ho
  ipureintro
  show fqM m d s'.mem
  exact ⟨funext fun i => ho i (Finset.mem_univ i), funext fun i => h0 i (Finset.mem_univ i), funext fun i => h1 i (Finset.mem_univ i), funext fun i => h2 i (Finset.mem_univ i), funext fun i => h3 i (Finset.mem_univ i), funext fun i => h4 i (Finset.mem_univ i), funext fun i => h5 i (Finset.mem_univ i), funext fun i => h6 i (Finset.mem_univ i), funext fun i => h7 i (Finset.mem_univ i), funext fun i => h8 i (Finset.mem_univ i), funext fun i => h9 i (Finset.mem_univ i), funext fun i => h10 i (Finset.mem_univ i), funext fun i => h11 i (Finset.mem_univ i), funext fun i => h12 i (Finset.mem_univ i), funext fun i => h13 i (Finset.mem_univ i), funext fun i => h14 i (Finset.mem_univ i), funext fun i => h15 i (Finset.mem_univ i), funext fun i => h16 i (Finset.mem_univ i), funext fun i => h17 i (Finset.mem_univ i), funext fun i => h18 i (Finset.mem_univ i), funext fun i => h19 i (Finset.mem_univ i), funext fun i => h20 i (Finset.mem_univ i), funext fun i => h21 i (Finset.mem_univ i), funext fun i => h22 i (Finset.mem_univ i), funext fun i => h23 i (Finset.mem_univ i), funext fun i => h24 i (Finset.mem_univ i), funext fun i => h25 i (Finset.mem_univ i), funext fun i => h26 i (Finset.mem_univ i)⟩

/-- The claim's reading of the final memory. -/
def QC : PUnit × MemSt nD τ sig (Elt F) → Prop := fun r => ∀ c : Dev nD, fqM m c r.2

/-- The flat row numbers are below 128 when the row numbers are. -/
theorem Xf_lt (hx : ∀ (d : Dev nD) (j : S16384x26.Idx), (m ((SparseCore.T d).loc main_arg0) j : BitVec 32).toNat < 128) (d : Dev nD) (j : S425984.Idx) :
    (Xf m d j : BitVec 32).toNat < 128 := by
  unfold Xf flatOf shapeCast; exact hx d _

theorem run_main [∀ e, Nonempty (Elt F e)] (hbody : TileBody (F := F) UU)
    (hx : ∀ (d : Dev nD) (j : S16384x26.Idx), (m ((SparseCore.T d).loc main_arg0) j : BitVec 32).toNat < 128) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P (U := UU) (Xf m) (Tb m) (fun d => m (oLoc d))) facts v₀
    (fun q hq => match q with | 0 => nomatch hq)
    (fun q _ => match q with | 0 => tileObl hbody facts (Xf m) (Tb m) (fun d => m (oLoc d)) (Xf_lt m hx))
    (fun q _ => match q with | 0 => SparseCore.Cfg.VecSplit.of_plain (vecSplit (Xf m) (Tb m) (fun d => m (oLoc d))))
    m ρ main (fun d => G (F := F) d) (FIN m) (u₀ (F := F)) (sep_elim_left.trans (hu₀ (Xf m) (Tb m) (fun d => m (oLoc d)))) (hmain m ρ) (fq m) (hfin m) (QC m) (fun _ h => h)

end Cert.Proof.KB

end
-- ==== Proof.LibColLayout.lean ====
/-
  Layout operations read at an index, for the shapes a row-wise normalisation meets: a vector of row statistics
  viewed as a column, a column broadcast along the rows, a row vector lifted to one row and broadcast over many rows,
  and a scalar broadcast to an array. Each is stated for any extents, with the indices built from their coordinates.
-/
import Idealize.ShloMosaic.Lib.ValueIdx
import Idealize.ShloMosaic.Lib.ValueLayout
import Idealize.ShloMosaic.Lib.Pipeline.Value

noncomputable section

namespace Cert.ColLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `broadcast_in_dim` of an `[a]` array to the column `[a, 1]` along axis 0 reads, at `(p, u)`, the operand at `p`. -/
theorem bcast_a_a1_apply {a : ℕ} (v : (⟨1, ![a]⟩ : Shape).Idx → α) (dims : Fin 1 → Fin 2) (hd : dims 0 = 0)
    (h : (⟨1, ![a]⟩ : Shape).BroadcastsInDim ⟨2, ![a, 1]⟩ dims) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else ((ix2 p u : (⟨2, ![a, 1]⟩ : Shape).Idx) (dims 0)).val
    rw [hd]
    show p.val = if a = 1 then 0 else p.val
    split
    · have := p.isLt; omega
    · rfl

/-- A `broadcast_in_dim` of a column `[a, 1]` to `[a, b]` along both axes reads, at `(p, c)`, the column's entry of row `p`. -/
theorem bcast_a1_ab_apply {a b : ℕ} (v : (⟨2, ![a, 1]⟩ : Shape).Idx → α) (dims : Fin 2 → Fin 2) (hd0 : dims 0 = 0) (hd1 : dims 1 = 1)
    (h : (⟨2, ![a, 1]⟩ : Shape).BroadcastsInDim ⟨2, ![a, b]⟩ dims) (p : Fin a) (c : Fin b) :
    broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else ((ix2 p c : (⟨2, ![a, b]⟩ : Shape).Idx) (dims 0)).val
    rw [hd0]
    show p.val = if a = 1 then 0 else p.val
    split
    · have := p.isLt; omega
    · rfl
  | ⟨1, _⟩ => rfl

/-- A `broadcast_in_dim` of a `[b]` array to the one row `[1, b]` along axis 1 reads, at `(u, c)`, the operand at `c`. -/
theorem bcast_b_1b_apply {b : ℕ} (v : (⟨1, ![b]⟩ : Shape).Idx → α) (dims : Fin 1 → Fin 2) (hd : dims 0 = 1)
    (h : (⟨1, ![b]⟩ : Shape).BroadcastsInDim ⟨2, ![1, b]⟩ dims) (u : Fin 1) (c : Fin b) :
    broadcastInDim ⟨2, ![1, b]⟩ dims h v (ix2 u c) = v (ix1 c) := by
  refine broadcastInDim_apply dims h v (ix2 u c) (ix1 c) fun ax => ?_
  match ax with
  | ⟨0, _⟩ =>
    show c.val = if b = 1 then 0 else ((ix2 u c : (⟨2, ![1, b]⟩ : Shape).Idx) (dims 0)).val
    rw [hd]
    show c.val = if b = 1 then 0 else c.val
    split
    · have := c.isLt; omega
    · rfl

/-- A `broadcast_in_dim` of one row `[1, b]` to `[a, b]` along both axes reads, at `(p, c)`, the row at `c`. -/
theorem bcast_1b_ab_apply {a b : ℕ} (v : (⟨2, ![1, b]⟩ : Shape).Idx → α) (dims : Fin 2 → Fin 2) (hd0 : dims 0 = 0) (hd1 : dims 1 = 1)
    (h : (⟨2, ![1, b]⟩ : Shape).BroadcastsInDim ⟨2, ![a, b]⟩ dims) (p : Fin a) (c : Fin b) :
    broadcastInDim ⟨2, ![a, b]⟩ dims h v (ix2 p c) = v (ix2 (0 : Fin 1) c) := by
  refine broadcastInDim_apply dims h v (ix2 p c) (ix2 (0 : Fin 1) c) fun ax => ?_
  match ax with
  | ⟨0, _⟩ => rfl
  | ⟨1, _⟩ =>
    show c.val = if b = 1 then 0 else ((ix2 p c : (⟨2, ![a, b]⟩ : Shape).Idx) (dims 1)).val
    rw [hd1]
    show c.val = if b = 1 then 0 else c.val
    split
    · have := c.isLt; omega
    · rfl

/-- A `broadcast_in_dim` of a scalar reads the scalar at every index. -/
theorem bcast_scalar_apply {t : Shape} (v : (⟨0, ![]⟩ : Shape).Idx → α) (dims : Fin 0 → Fin t.rank)
    (h : (⟨0, ![]⟩ : Shape).BroadcastsInDim t dims) (j : t.Idx) :
    broadcastInDim t dims h v j = v ix0 :=
  broadcastInDim_apply dims h v j ix0 fun ax => ax.elim0

end Cert.ColLayout

end
-- ==== Proof.ValueI.lean ====
/-
  The idealized kernel's result is the specification.

  At the extended reals every stored block of the rescaled table is one and the same function of its table: row `r`,
  lane `v` is `w r v * min 1 (1 / max (sqrt (sum_k (w r k)^2)) eps)` (a lane sum over one axis is a plain finite sum
  there).  Gathering row `x[b, f] + 128 f` of the rescaled table therefore gives the rescaled row `x[b, f]` of table
  `f`: gathering a row and rescaling it commute, which is all that separates the two programs.
-/
import proofs.«207321_g10943576670982_fold_wed_m_632_36_alg».proof.Proof.TableI
import proofs.«207321_g10943576670982_fold_wed_m_632_36_alg».proof.Proof.Spec
import proofs.«207321_g10943576670982_fold_wed_m_632_36_alg».proof.Proof.LibColLayout
import Idealize.ShloMosaic.PureOps.Ideal.Laws
import Idealize.ShloMosaic.Lib.ValueIdx
import Idealize.ShloMosaic.Lib.ValueLayout
import Idealize.ShloMosaic.Lib.Pipeline.Value

noncomputable section

namespace Cert.Proof.KI.Val

open Cert.KernelIdeal Cert.KernelIdeal.Gen Idealize.ShloMosaic Idealize.ShloMosaic.ValueIdx Cert.ColLayout Cert.Proof
open scoped BigOperators

/-! ## One block at an index -/

/-- Over row `r` of the column of row sums, coordinate `k` of the summed axis is lane `k` of row `r`. -/
theorem lift_row (h : S128x128.Reduces [(1 : Fin 2)] S128) (r : Fin 128) (k : Fin (S128x128.size (1 : Fin 2))) :
    h.lift (ix1 r) k = ix2 r k := by
  funext c; apply Fin.ext
  show h.liftVal (ix1 r) k.val c = _
  unfold Shape.Reduces.liftVal
  match c with
  | ⟨0, _⟩ => simp
  | ⟨1, _⟩ => simp

/-- The lane sum of a 128 x 128 array at row `r` is the sum of the row. -/
theorem rowSum (src : FVec Ideal S128x128 .f32) (h : S128x128.Reduces [(1 : Fin 2)] S128) (hφ : FKind.Formats FTy.f32)
    (hacc : (0x00000000#32 : BitVec 32) = FKind.add.neutral FTy.f32 hφ) (r : Fin 128) :
    multiReduction .add [1] S128 src 0x00000000#32 h hφ hacc (ix1 r) = ∑ k : Fin 128, src (ix2 r k) :=
  (Ideal.multiReduction_add_single src 0x00000000#32 h hφ hacc (ix1 r)).trans (Finset.sum_congr rfl fun k _ => congrArg src (lift_row h r k))

theorem sqrt_apply' {s : Shape} {φ : FTy} (a : FVec Ideal s φ) (i : s.Idx) : sqrt a i = Ideal.sqrt (a i) := rfl

/-- The first table's block, read at row `r`, lane `v`, is the rescaled row. -/
theorem pay2_apply (w : Vec Ideal S128x128 .f32) (r v : Fin 128) :
    k0_pay2 (F := Ideal) w (ix2 r v) = Spec.scaleRow (fun k => w (ix2 r k)) v := by
  have hs : multiReduction (F := Ideal) .add [1] S128 (mulf w w) 0x00000000#32 reduces_S128x128_S128 (.inl rfl) rfl (ix1 r)
      = ∑ k : Fin 128, w (ix2 r k) * w (ix2 r k) := rowSum _ _ _ _ r
  unfold k0_pay2 Spec.scaleRow Spec.rowFactor
  simp only [mulf_apply, broadcastTo_a1_ab_apply, minimumf_apply, broadcast_apply, divf_apply, maximumf_apply, sqrt_apply',
    shapeCast_a_a1_apply]
  exact congrArg (fun s => w (ix2 r v) * min Spec.one (Ideal.div Spec.one (max (Ideal.sqrt s) Spec.eps))) hs

/-- Every table's block is the same function of its table as the first one's: the pieces the program computes
    in an earlier part compose to the same term. -/
theorem blk_eq {F : FTy → Type} [FloatOps F] (t : Fin 26) (w : Vec F S128x128 .f32) : blk t w = k0_pay2 w := by
  fin_cases t <;> rfl

theorem blk_apply (t : Fin 26) (w : Vec Ideal S128x128 .f32) (r v : Fin 128) :
    blk (F := Ideal) t w (ix2 r v) = Spec.scaleRow (fun k => w (ix2 r k)) v := by
  rw [blk_eq]; exact pay2_apply w r v

/-! ## The table and the flat row numbers at an index -/

theorem flatOf_apply (x : S16384x26.Idx → BitVec 32) (b : Fin 16384) (f : Fin 26) (n : Fin 425984) (h : n.val = 26 * b.val + f.val) :
    flatOf x (ix1 n) = x (ix2 b f) :=
  shapeCast_apply x _ _ _ (by
    rw [Shape.rowMajor_val_two, Shape.rowMajor_val_one]
    show b.val * 26 + f.val = n.val
    omega)

/-! ## The gathered table is the specification -/

theorem gather_table_eq (x : S16384x26.Idx → BitVec 32) (W : Fin 26 → Vec Ideal S128x128 .f32) (hx : ∀ j, (x j).toNat < 128) :
    gatherOut (F := Ideal) (flatOf x) (tableOf W) = Spec.G x W := by
  funext j
  obtain ⟨b, q, rfl⟩ : ∃ (b : Fin 16384) (q : Fin 3328), j = ix2 b q := ⟨j 0, j 1, eq_ix2 j⟩
  have hb : b.val < 16384 := b.isLt
  have hq : q.val < 3328 := q.isLt
  have hxb := hx (ix2 b (Spec.fieldOf q))
  have hfv : (Spec.fieldOf q).val = q.val / 128 := rfl
  have hn : (26 * b.val + q.val / 128) % 425984 = 26 * b.val + (Spec.fieldOf q).val := by rw [hfv]; omega
  have e1 : flatOf x (ix1 ⟨(26 * b.val + q.val / 128) % 425984, Nat.mod_lt _ (by norm_num)⟩) = x (ix2 b (Spec.fieldOf q)) :=
    flatOf_apply x b (Spec.fieldOf q) _ hn
  rw [Spec.G_apply]
  show tableOf W (ix2 (⟨((flatOf x (ix1 ⟨(26 * b.val + q.val / 128) % 425984, Nat.mod_lt _ (by norm_num)⟩) : BitVec 32).toNat + 128 * (q.val / 128)) % 3328,
      Nat.mod_lt _ (by norm_num)⟩ : Fin 3328) (⟨q.val % 128, Nat.mod_lt _ (by norm_num)⟩ : Fin 128)) = _
  rw [e1]
  have hrow : (Spec.rowOf x b (Spec.fieldOf q)).val = (x (ix2 b (Spec.fieldOf q))).toNat := Nat.mod_eq_of_lt hxb
  rw [tableOf_apply W _ (Spec.fieldOf q) (Spec.rowOf x b (Spec.fieldOf q)) (by
    show ((x (ix2 b (Spec.fieldOf q))).toNat + 128 * (q.val / 128)) % 3328 = 128 * (Spec.fieldOf q).val + (Spec.rowOf x b (Spec.fieldOf q)).val
    rw [hrow, hfv]; omega)]
  exact blk_apply _ _ _ _

end Cert.Proof.KI.Val

end
-- ==== Proof.RefStanza.lean ====
/-
  One field of the reference, as a record of buffers.

  The reference handles the 26 fields one after another by the same fifteen statements: cut a column of the row
  numbers, flatten it, take the rows of the field's table, compute their norms, bound the norms below, invert,
  bound by one, spread over the lanes, multiply.  With the two functions it calls written out these are 41
  operations, each writing a buffer of its own.  This file states them ONCE over a record naming the buffers, as a
  program and as a list of operations, and shows the program is the list run in order.
-/
import proofs.«207321_g10943576670982_fold_wed_m_632_36_alg».proof.ReferenceIdeal
import Idealize.ShloMosaic.Lib.StableHlo.Run

noncomputable section

namespace Cert.Proof.Ref

open Idealize.ShloMosaic Idealize.SL.Sem Idealize.ShloMosaic.StableHlo
open Cert.ReferenceIdeal Cert.ReferenceIdeal.Facts₀ Cert.ReferenceIdeal.Facts

variable {F : FTy → Type} [FloatOps F] [Cert.ReferenceIdeal.Facts]

/-- The buffers of one field: the row numbers, the field's table, and one buffer per value computed. -/
structure Stanza where
  off : Fin S16384x26.rank → Nat
  hoff : S16384x26.Slices off S16384x1
  x : TRef sig ⟨S16384x26, .i32⟩
  w : TRef sig ⟨S128x128, .f32⟩
  s0 : TRef sig ⟨S16384x1, .i32⟩
  s1 : TRef sig ⟨S16384, .i32⟩
  tk : fn_take.Bufs
  nm : fn_norm.Bufs
  cst : TRef sig ⟨S_, .f32⟩
  v4 : TRef sig ⟨S16384x1, .f32⟩
  v5 : TRef sig ⟨S16384x1, .f32⟩
  cst0 : TRef sig ⟨S_, .f32⟩
  v6 : TRef sig ⟨S16384x1, .f32⟩
  v7 : TRef sig ⟨S16384x1, .f32⟩
  cst1 : TRef sig ⟨S_, .f32⟩
  v8 : TRef sig ⟨S16384x1, .f32⟩
  v9 : TRef sig ⟨S16384x1, .f32⟩
  v10 : TRef sig ⟨S16384x128, .f32⟩
  v11 : TRef sig ⟨S16384x128, .f32⟩

/-- The fifteen statements of one field. -/
def stanzaProg (S : Stanza) :
    Prog (TpuEff nD τ sig (Elt F) (Pipeline.Sig Λ₀ (Fin 0) fun p => (pcfgs (F := F) p).Adm) .tc) PUnit := do
  hlo rfl (TRef.unary S.x S.s0 (extractStridedSlice S16384x1 S.off · S.hoff)) (fun _ => .ret ⟨⟩)
  hlo rfl (TRef.reshape S.s0 S.s1 rfl shapeCasts_S16384x1_S16384) (fun _ => .ret ⟨⟩)
  fn_take.body S.w S.s1 S.tk
  fn_norm.body S.tk.v16 S.nm
  hlo rfl (TRef.nullary S.cst (constant S_ .f32 0x33D6BF95#32)) (fun _ => .ret ⟨⟩)
  hlo rfl (TRef.unary S.cst S.v4 (broadcastInDim S16384x1 ![] bcast_S_S16384x1)) (fun _ => .ret ⟨⟩)
  hlo rfl (TRef.binary S.nm.v3 S.v4 S.v5 maximumf) (fun _ => .ret ⟨⟩)
  hlo rfl (TRef.nullary S.cst0 (constant S_ .f32 0x3F800000#32)) (fun _ => .ret ⟨⟩)
  hlo rfl (TRef.unary S.cst0 S.v6 (broadcastInDim S16384x1 ![] bcast_S_S16384x1)) (fun _ => .ret ⟨⟩)
  hlo rfl (TRef.binary S.v6 S.v5 S.v7 Host.divf) (fun _ => .ret ⟨⟩)
  hlo rfl (TRef.nullary S.cst1 (constant S_ .f32 0x3F800000#32)) (fun _ => .ret ⟨⟩)
  hlo rfl (TRef.unary S.cst1 S.v8 (broadcastInDim S16384x1 ![] bcast_S_S16384x1)) (fun _ => .ret ⟨⟩)
  hlo rfl (TRef.binary S.v8 S.v7 S.v9 minimumf) (fun _ => .ret ⟨⟩)
  hlo rfl (TRef.unary S.v9 S.v10 (broadcastInDim S16384x128 ![0, 1] bcast_S16384x1_S16384x128_0_1)) (fun _ => .ret ⟨⟩)
  hlo rfl (TRef.binary S.tk.v16 S.v10 S.v11 mulf) (fun _ => .ret ⟨⟩)

/-- The same with the two called functions written out: 41 operations in program order. -/
def stanzaOps (S : Stanza) : List (HloOp τ sig (Elt F)) :=
  [ TRef.unary S.x S.s0 (extractStridedSlice S16384x1 S.off · S.hoff),
    TRef.reshape S.s0 S.s1 rfl shapeCasts_S16384x1_S16384,
    TRef.nullary S.tk.c (constantI S_ 32 0#32),
    TRef.unary S.tk.c S.tk.v0 (broadcastInDim S16384 ![] bcast_S_S16384),
    TRef.binary S.s1 S.tk.v0 S.tk.v1 (cmpi .slt),
    TRef.nullary S.tk.c_0 (constantI S_ 32 128#32),
    TRef.unary S.tk.c_0 S.tk.v2 (broadcastInDim S16384 ![] bcast_S_S16384),
    TRef.binary S.s1 S.tk.v2 S.tk.v3 addi,
    TRef.ternary S.tk.v1 S.tk.v3 S.s1 S.tk.call0.v0 select,
    TRef.unary S.tk.call0.v0 S.tk.v5 (broadcastInDim S16384x1 ![0] bcast_S16384_S16384x1_0),
    TRef.nullary S.tk.c_1 (constantI S1 32 127#32),
    TRef.nullary S.tk.c_2 (constantI S_ 32 0#32),
    TRef.unary S.tk.c_2 S.tk.v6 (broadcastInDim S16384x1 ![] bcast_S_S16384x1),
    TRef.binary S.tk.v5 S.tk.v6 S.tk.v7 (cmpi .sge),
    TRef.unary S.tk.c_1 S.tk.v8 (broadcastInDim S1x1 ![1] bcast_S1_S1x1_1),
    TRef.unary S.tk.v8 S.tk.v9 (broadcastInDim S16384x1 ![0, 1] bcast_S1x1_S16384x1_0_1),
    TRef.binary S.tk.v5 S.tk.v9 S.tk.v10 (cmpi .sle),
    TRef.binary S.tk.v7 S.tk.v10 S.tk.v11 andi,
    TRef.nullary S.tk.c_3 (constantI S_ 1 1#1),
    TRef.binary S.tk.v11 S.tk.c_3 S.tk.v12 (fun x v => Host.reduce IntOp.andi x v reducesTo_S16384x1_S16384_d1 h_S_),
    TRef.binary S.w S.tk.v5 S.tk.v13 (fun x i => Host.gather gather_S128x128_S16384x1_S16384x128_1_0_n_n_0_1_1128 x i),
    TRef.unary S.tk.v12 S.tk.v14 (broadcastInDim S16384x128 ![0] bcast_S16384_S16384x128_0),
    TRef.nullary S.tk.cst (constant S_ .f32 0x7FC00000#32),
    TRef.unary S.tk.cst S.tk.v15 (broadcastInDim S16384x128 ![] bcast_S_S16384x128),
    TRef.ternary S.tk.v14 S.tk.v13 S.tk.v15 S.tk.v16 select,
    TRef.binary S.tk.v16 S.tk.v16 S.nm.v0 mulf,
    TRef.nullary S.nm.cst (constant S_ .f32 0x00000000#32),
    TRef.binary S.nm.v0 S.nm.cst S.nm.v1 (fun x v => Host.reduceAdd x v reducesTo_S16384x128_S16384_d1 h_S_),
    TRef.unary S.nm.v1 S.nm.v2 (broadcastInDim S16384x1 ![0] bcast_S16384_S16384x1_0),
    TRef.unary S.nm.v2 S.nm.v3 Host.sqrt,
    TRef.nullary S.cst (constant S_ .f32 0x33D6BF95#32),
    TRef.unary S.cst S.v4 (broadcastInDim S16384x1 ![] bcast_S_S16384x1),
    TRef.binary S.nm.v3 S.v4 S.v5 maximumf,
    TRef.nullary S.cst0 (constant S_ .f32 0x3F800000#32),
    TRef.unary S.cst0 S.v6 (broadcastInDim S16384x1 ![] bcast_S_S16384x1),
    TRef.binary S.v6 S.v5 S.v7 Host.divf,
    TRef.nullary S.cst1 (constant S_ .f32 0x3F800000#32),
    TRef.unary S.cst1 S.v8 (broadcastInDim S16384x1 ![] bcast_S_S16384x1),
    TRef.binary S.v8 S.v7 S.v9 minimumf,
    TRef.unary S.v9 S.v10 (broadcastInDim S16384x128 ![0, 1] bcast_S16384x1_S16384x128_0_1),
    TRef.binary S.tk.v16 S.v10 S.v11 mulf ]

/-- The statements of one field are its operations run in order: the two called functions' bodies are substituted
    and the sequencing reassociated. -/
theorem stanzaProg_eq (S : Stanza) : stanzaProg (F := F) S = seq (stanzaOps S) := by
  simp only [stanzaProg, stanzaOps, fn_take.body, fn_where.body, fn_norm.body, seq, bind_assoc, pure_bind]
  rfl

end Cert.Proof.Ref

end
-- ==== Proof.RefMain.lean ====
/-
  The reference as one line of operations.

  The 26 fields are 26 instances of one record of buffers; the program is their operations in order followed by the
  three concatenations that lay the 26 rescaled blocks side by side.
-/
import proofs.«207321_g10943576670982_fold_wed_m_632_36_alg».proof.Proof.RefStanza

noncomputable section

namespace Cert.Proof.Ref

open Idealize.ShloMosaic Idealize.SL.Sem Idealize.ShloMosaic.StableHlo
open Cert.ReferenceIdeal Cert.ReferenceIdeal.Facts₀ Cert.ReferenceIdeal.Facts

variable {F : FTy → Type} [FloatOps F] [Cert.ReferenceIdeal.Facts]

/-- Field 0. -/
abbrev S0 : Stanza where
  off := ![0, 0]
  hoff := slices_S16384x26_S16384x1_0_0
  x := .of main_arg0
  w := .of main_arg1
  s0 := .of main_v0
  s1 := .of main_v1
  tk := main_call0
  nm := main_call1
  cst := .of main_cst
  v4 := .of main_v4
  v5 := .of main_v5
  cst0 := .of main_cst_0
  v6 := .of main_v6
  v7 := .of main_v7
  cst1 := .of main_cst_1
  v8 := .of main_v8
  v9 := .of main_v9
  v10 := .of main_v10
  v11 := .of main_v11

/-- Field 1. -/
abbrev S1 : Stanza where
  off := ![0, 1]
  hoff := slices_S16384x26_S16384x1_0_1
  x := .of main_arg0
  w := .of main_arg2
  s0 := .of main_v12
  s1 := .of main_v13
  tk := main_call2
  nm := main_call3
  cst := .of main_cst_2
  v4 := .of main_v16
  v5 := .of main_v17
  cst0 := .of main_cst_3
  v6 := .of main_v18
  v7 := .of main_v19
  cst1 := .of main_cst_4
  v8 := .of main_v20
  v9 := .of main_v21
  v10 := .of main_v22
  v11 := .of main_v23

/-- Field 2. -/
abbrev S2 : Stanza where
  off := ![0, 2]
  hoff := slices_S16384x26_S16384x1_0_2
  x := .of main_arg0
  w := .of main_arg3
  s0 := .of main_v24
  s1 := .of main_v25
  tk := main_call4
  nm := main_call5
  cst := .of main_cst_5
  v4 := .of main_v28
  v5 := .of main_v29
  cst0 := .of main_cst_6
  v6 := .of main_v30
  v7 := .of main_v31
  cst1 := .of main_cst_7
  v8 := .of main_v32
  v9 := .of main_v33
  v10 := .of main_v34
  v11 := .of main_v35

/-- Field 3. -/
abbrev S3 : Stanza where
  off := ![0, 3]
  hoff := slices_S16384x26_S16384x1_0_3
  x := .of main_arg0
  w := .of main_arg4
  s0 := .of main_v36
  s1 := .of main_v37
  tk := main_call6
  nm := main_call7
  cst := .of main_cst_8
  v4 := .of main_v40
  v5 := .of main_v41
  cst0 := .of main_cst_9
  v6 := .of main_v42
  v7 := .of main_v43
  cst1 := .of main_cst_10
  v8 := .of main_v44
  v9 := .of main_v45
  v10 := .of main_v46
  v11 := .of main_v47

/-- Field 4. -/
abbrev S4 : Stanza where
  off := ![0, 4]
  hoff := slices_S16384x26_S16384x1_0_4
  x := .of main_arg0
  w := .of main_arg5
  s0 := .of main_v48
  s1 := .of main_v49
  tk := main_call8
  nm := main_call9
  cst := .of main_cst_11
  v4 := .of main_v52
  v5 := .of main_v53
  cst0 := .of main_cst_12
  v6 := .of main_v54
  v7 := .of main_v55
  cst1 := .of main_cst_13
  v8 := .of main_v56
  v9 := .of main_v57
  v10 := .of main_v58
  v11 := .of main_v59

/-- Field 5. -/
abbrev S5 : Stanza where
  off := ![0, 5]
  hoff := slices_S16384x26_S16384x1_0_5
  x := .of main_arg0
  w := .of main_arg6
  s0 := .of main_v60
  s1 := .of main_v61
  tk := main_call10
  nm := main_call11
  cst := .of main_cst_14
  v4 := .of main_v64
  v5 := .of main_v65
  cst0 := .of main_cst_15
  v6 := .of main_v66
  v7 := .of main_v67
  cst1 := .of main_cst_16
  v8 := .of main_v68
  v9 := .of main_v69
  v10 := .of main_v70
  v11 := .of main_v71

/-- Field 6. -/
abbrev S6 : Stanza where
  off := ![0, 6]
  hoff := slices_S16384x26_S16384x1_0_6
  x := .of main_arg0
  w := .of main_arg7
  s0 := .of main_v72
  s1 := .of main_v73
  tk := main_call12
  nm := main_call13
  cst := .of main_cst_17
  v4 := .of main_v76
  v5 := .of main_v77
  cst0 := .of main_cst_18
  v6 := .of main_v78
  v7 := .of main_v79
  cst1 := .of main_cst_19
  v8 := .of main_v80
  v9 := .of main_v81
  v10 := .of main_v82
  v11 := .of main_v83

/-- Field 7. -/
abbrev S7 : Stanza where
  off := ![0, 7]
  hoff := slices_S16384x26_S16384x1_0_7
  x := .of main_arg0
  w := .of main_arg8
  s0 := .of main_v84
  s1 := .of main_v85
  tk := main_call14
  nm := main_call15
  cst := .of main_cst_20
  v4 := .of main_v88
  v5 := .of main_v89
  cst0 := .of main_cst_21
  v6 := .of main_v90
  v7 := .of main_v91
  cst1 := .of main_cst_22
  v8 := .of main_v92
  v9 := .of main_v93
  v10 := .of main_v94
  v11 := .of main_v95

/-- Field 8. -/
abbrev S8 : Stanza where
  off := ![0, 8]
  hoff := slices_S16384x26_S16384x1_0_8
  x := .of main_arg0
  w := .of main_arg9
  s0 := .of main_v96
  s1 := .of main_v97
  tk := main_call16
  nm := main_call17
  cst := .of main_cst_23
  v4 := .of main_v100
  v5 := .of main_v101
  cst0 := .of main_cst_24
  v6 := .of main_v102
  v7 := .of main_v103
  cst1 := .of main_cst_25
  v8 := .of main_v104
  v9 := .of main_v105
  v10 := .of main_v106
  v11 := .of main_v107

/-- Field 9. -/
abbrev S9 : Stanza where
  off := ![0, 9]
  hoff := slices_S16384x26_S16384x1_0_9
  x := .of main_arg0
  w := .of main_arg10
  s0 := .of main_v108
  s1 := .of main_v109
  tk := main_call18
  nm := main_call19
  cst := .of main_cst_26
  v4 := .of main_v112
  v5 := .of main_v113
  cst0 := .of main_cst_27
  v6 := .of main_v114
  v7 := .of main_v115
  cst1 := .of main_cst_28
  v8 := .of main_v116
  v9 := .of main_v117
  v10 := .of main_v118
  v11 := .of main_v119

/-- Field 10. -/
abbrev S10 : Stanza where
  off := ![0, 10]
  hoff := slices_S16384x26_S16384x1_0_10
  x := .of main_arg0
  w := .of main_arg11
  s0 := .of main_v120
  s1 := .of main_v121
  tk := main_call20
  nm := main_call21
  cst := .of main_cst_29
  v4 := .of main_v124
  v5 := .of main_v125
  cst0 := .of main_cst_30
  v6 := .of main_v126
  v7 := .of main_v127
  cst1 := .of main_cst_31
  v8 := .of main_v128
  v9 := .of main_v129
  v10 := .of main_v130
  v11 := .of main_v131

/-- Field 11. -/
abbrev S11 : Stanza where
  off := ![0, 11]
  hoff := slices_S16384x26_S16384x1_0_11
  x := .of main_arg0
  w := .of main_arg12
  s0 := .of main_v132
  s1 := .of main_v133
  tk := main_call22
  nm := main_call23
  cst := .of main_cst_32
  v4 := .of main_v136
  v5 := .of main_v137
  cst0 := .of main_cst_33
  v6 := .of main_v138
  v7 := .of main_v139
  cst1 := .of main_cst_34
  v8 := .of main_v140
  v9 := .of main_v141
  v10 := .of main_v142
  v11 := .of main_v143

/-- Field 12. -/
abbrev S12 : Stanza where
  off := ![0, 12]
  hoff := slices_S16384x26_S16384x1_0_12
  x := .of main_arg0
  w := .of main_arg13
  s0 := .of main_v144
  s1 := .of main_v145
  tk := main_call24
  nm := main_call25
  cst := .of main_cst_35
  v4 := .of main_v148
  v5 := .of main_v149
  cst0 := .of main_cst_36
  v6 := .of main_v150
  v7 := .of main_v151
  cst1 := .of main_cst_37
  v8 := .of main_v152
  v9 := .of main_v153
  v10 := .of main_v154
  v11 := .of main_v155

/-- Field 13. -/
abbrev S13 : Stanza where
  off := ![0, 13]
  hoff := slices_S16384x26_S16384x1_0_13
  x := .of main_arg0
  w := .of main_arg14
  s0 := .of main_v156
  s1 := .of main_v157
  tk := main_call26
  nm := main_call27
  cst := .of main_cst_38
  v4 := .of main_v160
  v5 := .of main_v161
  cst0 := .of main_cst_39
  v6 := .of main_v162
  v7 := .of main_v163
  cst1 := .of main_cst_40
  v8 := .of main_v164
  v9 := .of main_v165
  v10 := .of main_v166
  v11 := .of main_v167

/-- Field 14. -/
abbrev S14 : Stanza where
  off := ![0, 14]
  hoff := slices_S16384x26_S16384x1_0_14
  x := .of main_arg0
  w := .of main_arg15
  s0 := .of main_v168
  s1 := .of main_v169
  tk := main_call28
  nm := main_call29
  cst := .of main_cst_41
  v4 := .of main_v172
  v5 := .of main_v173
  cst0 := .of main_cst_42
  v6 := .of main_v174
  v7 := .of main_v175
  cst1 := .of main_cst_43
  v8 := .of main_v176
  v9 := .of main_v177
  v10 := .of main_v178
  v11 := .of main_v179

/-- Field 15. -/
abbrev S15 : Stanza where
  off := ![0, 15]
  hoff := slices_S16384x26_S16384x1_0_15
  x := .of main_arg0
  w := .of main_arg16
  s0 := .of main_v180
  s1 := .of main_v181
  tk := main_call30
  nm := main_call31
  cst := .of main_cst_44
  v4 := .of main_v184
  v5 := .of main_v185
  cst0 := .of main_cst_45
  v6 := .of main_v186
  v7 := .of main_v187
  cst1 := .of main_cst_46
  v8 := .of main_v188
  v9 := .of main_v189
  v10 := .of main_v190
  v11 := .of main_v191

/-- Field 16. -/
abbrev S16 : Stanza where
  off := ![0, 16]
  hoff := slices_S16384x26_S16384x1_0_16
  x := .of main_arg0
  w := .of main_arg17
  s0 := .of main_v192
  s1 := .of main_v193
  tk := main_call32
  nm := main_call33
  cst := .of main_cst_47
  v4 := .of main_v196
  v5 := .of main_v197
  cst0 := .of main_cst_48
  v6 := .of main_v198
  v7 := .of main_v199
  cst1 := .of main_cst_49
  v8 := .of main_v200
  v9 := .of main_v201
  v10 := .of main_v202
  v11 := .of main_v203

/-- Field 17. -/
abbrev S17 : Stanza where
  off := ![0, 17]
  hoff := slices_S16384x26_S16384x1_0_17
  x := .of main_arg0
  w := .of main_arg18
  s0 := .of main_v204
  s1 := .of main_v205
  tk := main_call34
  nm := main_call35
  cst := .of main_cst_50
  v4 := .of main_v208
  v5 := .of main_v209
  cst0 := .of main_cst_51
  v6 := .of main_v210
  v7 := .of main_v211
  cst1 := .of main_cst_52
  v8 := .of main_v212
  v9 := .of main_v213
  v10 := .of main_v214
  v11 := .of main_v215

/-- Field 18. -/
abbrev S18 : Stanza where
  off := ![0, 18]
  hoff := slices_S16384x26_S16384x1_0_18
  x := .of main_arg0
  w := .of main_arg19
  s0 := .of main_v216
  s1 := .of main_v217
  tk := main_call36
  nm := main_call37
  cst := .of main_cst_53
  v4 := .of main_v220
  v5 := .of main_v221
  cst0 := .of main_cst_54
  v6 := .of main_v222
  v7 := .of main_v223
  cst1 := .of main_cst_55
  v8 := .of main_v224
  v9 := .of main_v225
  v10 := .of main_v226
  v11 := .of main_v227

/-- Field 19. -/
abbrev S19 : Stanza where
  off := ![0, 19]
  hoff := slices_S16384x26_S16384x1_0_19
  x := .of main_arg0
  w := .of main_arg20
  s0 := .of main_v228
  s1 := .of main_v229
  tk := main_call38
  nm := main_call39
  cst := .of main_cst_56
  v4 := .of main_v232
  v5 := .of main_v233
  cst0 := .of main_cst_57
  v6 := .of main_v234
  v7 := .of main_v235
  cst1 := .of main_cst_58
  v8 := .of main_v236
  v9 := .of main_v237
  v10 := .of main_v238
  v11 := .of main_v239

/-- Field 20. -/
abbrev S20 : Stanza where
  off := ![0, 20]
  hoff := slices_S16384x26_S16384x1_0_20
  x := .of main_arg0
  w := .of main_arg21
  s0 := .of main_v240
  s1 := .of main_v241
  tk := main_call40
  nm := main_call41
  cst := .of main_cst_59
  v4 := .of main_v244
  v5 := .of main_v245
  cst0 := .of main_cst_60
  v6 := .of main_v246
  v7 := .of main_v247
  cst1 := .of main_cst_61
  v8 := .of main_v248
  v9 := .of main_v249
  v10 := .of main_v250
  v11 := .of main_v251

/-- Field 21. -/
abbrev S21 : Stanza where
  off := ![0, 21]
  hoff := slices_S16384x26_S16384x1_0_21
  x := .of main_arg0
  w := .of main_arg22
  s0 := .of main_v252
  s1 := .of main_v253
  tk := main_call42
  nm := main_call43
  cst := .of main_cst_62
  v4 := .of main_v256
  v5 := .of main_v257
  cst0 := .of main_cst_63
  v6 := .of main_v258
  v7 := .of main_v259
  cst1 := .of main_cst_64
  v8 := .of main_v260
  v9 := .of main_v261
  v10 := .of main_v262
  v11 := .of main_v263

/-- Field 22. -/
abbrev S22 : Stanza where
  off := ![0, 22]
  hoff := slices_S16384x26_S16384x1_0_22
  x := .of main_arg0
  w := .of main_arg23
  s0 := .of main_v264
  s1 := .of main_v265
  tk := main_call44
  nm := main_call45
  cst := .of main_cst_65
  v4 := .of main_v268
  v5 := .of main_v269
  cst0 := .of main_cst_66
  v6 := .of main_v270
  v7 := .of main_v271
  cst1 := .of main_cst_67
  v8 := .of main_v272
  v9 := .of main_v273
  v10 := .of main_v274
  v11 := .of main_v275

/-- Field 23. -/
abbrev S23 : Stanza where
  off := ![0, 23]
  hoff := slices_S16384x26_S16384x1_0_23
  x := .of main_arg0
  w := .of main_arg24
  s0 := .of main_v276
  s1 := .of main_v277
  tk := main_call46
  nm := main_call47
  cst := .of main_cst_68
  v4 := .of main_v280
  v5 := .of main_v281
  cst0 := .of main_cst_69
  v6 := .of main_v282
  v7 := .of main_v283
  cst1 := .of main_cst_70
  v8 := .of main_v284
  v9 := .of main_v285
  v10 := .of main_v286
  v11 := .of main_v287

/-- Field 24. -/
abbrev S24 : Stanza where
  off := ![0, 24]
  hoff := slices_S16384x26_S16384x1_0_24
  x := .of main_arg0
  w := .of main_arg25
  s0 := .of main_v288
  s1 := .of main_v289
  tk := main_call48
  nm := main_call49
  cst := .of main_cst_71
  v4 := .of main_v292
  v5 := .of main_v293
  cst0 := .of main_cst_72
  v6 := .of main_v294
  v7 := .of main_v295
  cst1 := .of main_cst_73
  v8 := .of main_v296
  v9 := .of main_v297
  v10 := .of main_v298
  v11 := .of main_v299

/-- Field 25. -/
abbrev S25 : Stanza where
  off := ![0, 25]
  hoff := slices_S16384x26_S16384x1_0_25
  x := .of main_arg0
  w := .of main_arg26
  s0 := .of main_v300
  s1 := .of main_v301
  tk := main_call50
  nm := main_call51
  cst := .of main_cst_74
  v4 := .of main_v304
  v5 := .of main_v305
  cst0 := .of main_cst_75
  v6 := .of main_v306
  v7 := .of main_v307
  cst1 := .of main_cst_76
  v8 := .of main_v308
  v9 := .of main_v309
  v10 := .of main_v310
  v11 := .of main_v311

/-- The fields in program order. -/
def stanzas : List Stanza :=
  [S0, S1, S2, S3, S4, S5, S6, S7, S8, S9, S10, S11, S12, S13, S14, S15, S16, S17, S18, S19, S20, S21, S22, S23, S24, S25]

/-- The three concatenations: fields 0–15 side by side, fields 16–25 side by side, the two side by side. -/
def tailOps : List (HloOp τ sig (Elt F)) :=
  [ StableHlo.nary ![main_v11, main_v23, main_v35, main_v47, main_v59, main_v71, main_v83, main_v95, main_v107, main_v119, main_v131, main_v143, main_v155, main_v167, main_v179, main_v191] main_v312 (fun u => concatenate S16384x2048 1 [⟨S16384x128, u 0⟩, ⟨S16384x128, u 1⟩, ⟨S16384x128, u 2⟩, ⟨S16384x128, u 3⟩, ⟨S16384x128, u 4⟩, ⟨S16384x128, u 5⟩, ⟨S16384x128, u 6⟩, ⟨S16384x128, u 7⟩, ⟨S16384x128, u 8⟩, ⟨S16384x128, u 9⟩, ⟨S16384x128, u 10⟩, ⟨S16384x128, u 11⟩, ⟨S16384x128, u 12⟩, ⟨S16384x128, u 13⟩, ⟨S16384x128, u 14⟩, ⟨S16384x128, u 15⟩] concatenates_S16384x128_S16384x128_S16384x128_S16384x128_S16384x128_S16384x128_S16384x128_S16384x128_S16384x128_S16384x128_S16384x128_S16384x128_S16384x128_S16384x128_S16384x128_S16384x128_S16384x2048_d1),
    StableHlo.nary ![main_v203, main_v215, main_v227, main_v239, main_v251, main_v263, main_v275, main_v287, main_v299, main_v311] main_v313 (fun u => concatenate S16384x1280 1 [⟨S16384x128, u 0⟩, ⟨S16384x128, u 1⟩, ⟨S16384x128, u 2⟩, ⟨S16384x128, u 3⟩, ⟨S16384x128, u 4⟩, ⟨S16384x128, u 5⟩, ⟨S16384x128, u 6⟩, ⟨S16384x128, u 7⟩, ⟨S16384x128, u 8⟩, ⟨S16384x128, u 9⟩] concatenates_S16384x128_S16384x128_S16384x128_S16384x128_S16384x128_S16384x128_S16384x128_S16384x128_S16384x128_S16384x128_S16384x1280_d1),
    StableHlo.binary main_v312 main_v313 main_v314 ((fun a b => concatenate S16384x3328 1 [⟨S16384x2048, a⟩, ⟨S16384x1280, b⟩] concatenates_S16384x2048_S16384x1280_S16384x3328_d1) : (⟨S16384x2048, .f32⟩ : BufTy).Contents (Elt F) → (⟨S16384x1280, .f32⟩ : BufTy).Contents (Elt F) → (⟨S16384x3328, .f32⟩ : BufTy).Contents (Elt F)) ]

/-- The whole reference: 26 × 41 + 3 operations. -/
def ops : List (HloOp τ sig (Elt F)) := stanzas.flatMap stanzaOps ++ tailOps

theorem part0_eq (d : Dev nD) : main_part0 (F := F) d = (stanzaProg S0 >>= fun _ => stanzaProg S1 >>= fun _ => stanzaProg S2 >>= fun _ => stanzaProg S3) := by
  simp only [stanzaProg, bind_assoc]; rfl

theorem part1_eq (d : Dev nD) : main_part1 (F := F) d = (stanzaProg S4 >>= fun _ => stanzaProg S5 >>= fun _ => stanzaProg S6 >>= fun _ => stanzaProg S7) := by
  simp only [stanzaProg, bind_assoc]; rfl

theorem part2_eq (d : Dev nD) : main_part2 (F := F) d = (stanzaProg S8 >>= fun _ => stanzaProg S9 >>= fun _ => stanzaProg S10 >>= fun _ => stanzaProg S11) := by
  simp only [stanzaProg, bind_assoc]; rfl

theorem part3_eq (d : Dev nD) : main_part3 (F := F) d = (stanzaProg S12 >>= fun _ => stanzaProg S13 >>= fun _ => stanzaProg S14 >>= fun _ => stanzaProg S15) := by
  simp only [stanzaProg, bind_assoc]; rfl

theorem part4_eq (d : Dev nD) : main_part4 (F := F) d = (stanzaProg S16 >>= fun _ => stanzaProg S17 >>= fun _ => stanzaProg S18 >>= fun _ => stanzaProg S19) := by
  simp only [stanzaProg, bind_assoc]; rfl

theorem part5_eq (d : Dev nD) : main_part5 (F := F) d = (stanzaProg S20 >>= fun _ => stanzaProg S21 >>= fun _ => stanzaProg S22 >>= fun _ => stanzaProg S23) := by
  simp only [stanzaProg, bind_assoc]; rfl

theorem part6_eq (d : Dev nD) : main_part6 (F := F) d = (stanzaProg S24 >>= fun _ => stanzaProg S25 >>= fun _ => seq tailOps) := by
  simp only [stanzaProg, tailOps, seq, bind_assoc]; rfl

/-- A list of fields' operations followed by a tail, run in order, is the fields' statements one after another and
    then the tail. -/
theorem seq_stanzas (l : List Stanza) (t : List (HloOp τ sig (Elt F))) :
    (seq (l.flatMap stanzaOps ++ t) : Prog (TpuEff nD τ sig (Elt F) (Pipeline.Sig Λ₀ (Fin 0) fun p => (pcfgs (F := F) p).Adm) .tc) PUnit)
      = l.foldr (fun S p => stanzaProg S >>= fun _ => p) (seq t) := by
  induction l with
  | nil => rfl
  | cons S l ih => rw [List.flatMap_cons, List.append_assoc, seq_append, ih, ← stanzaProg_eq]; rfl

/-- The reference's @main is that line of operations. -/
theorem main_eq (d : Dev nD) : main (F := F) d = seq ops := by
  unfold ops
  rw [seq_stanzas]
  simp only [main, part0_eq, part1_eq, part2_eq, part3_eq, part4_eq, part5_eq, part6_eq, stanzas, List.foldr, bind_assoc]

end Cert.Proof.Ref

end
-- ==== Proof.LibLineFix.lean ====
/- A straight line of host operations in which every operation writes a buffer of its own, numbered in program order,
   and reads only buffers numbered before it, is read as a system of equations: with `W` the buffers' contents after the
   whole line, every operation's written buffer holds, in `W`, the operation's function of its operands' contents IN
   `W` (an operand is never written again, so what it held when it was read is what it holds at the end). Stated for
   any topology and signature. -/
import Idealize.ShloMosaic.Lib.StableHlo.Run

noncomputable section

namespace Cert.LineFix

open Idealize.ShloMosaic Idealize.ShloMosaic.TcCoe Idealize.SL.Sem Idealize.ShloMosaic.StableHlo

section General

variable {τ : Topo} {sig : RefSig} {Val : EltTy → Type}

/-- Two valuations agree on every HBM reference numbered below `c`. -/
def AgreeBelow (c : ℕ) (G H : Valuation τ sig Val) : Prop :=
  ∀ r : Ref sig .tc, r.space = .hbm → r.idx.val < c → G (Proc.devRef .tc r) = H (Proc.devRef .tc r)

/-- The operation writes exactly the HBM reference numbered `c`, and what it writes there is decided by the contents
    of the references numbered below `c`. -/
structure StepAt (c : ℕ) (op : HloOp τ sig Val) : Prop where
  writes : ∃ w : Ref sig .tc, w.space = .hbm ∧ w.idx.val = c ∧ op.writes = {Proc.devRef .tc w}
  reads : ∀ G H : Valuation τ sig Val, AgreeBelow c G H → ∀ b ∈ op.writes, op.result G b = op.result H b

/-- Every operation of the line is a step at its own number, counted from `c`. -/
def Numbered : ℕ → List (HloOp τ sig Val) → Prop
  | _, [] => True
  | c, op :: ops => StepAt c op ∧ Numbered (c + 1) ops

theorem stepAt_nullary (c : ℕ) (y : Ref sig .tc) (v : y.ty.Contents Val) (hy)
    (hs : y.space = .hbm) (hc : y.idx.val = c) : StepAt c (nullary (τ := τ) y v hy) :=
  ⟨⟨y, hs, hc, rfl⟩, fun G H _ b hb => by
    rw [nullary_writes, Finset.mem_singleton] at hb; subst hb; rw [nullary_result, nullary_result]⟩

theorem stepAt_unary (c : ℕ) (x y : Ref sig .tc) (f : x.ty.Contents Val → y.ty.Contents Val) (hx hy)
    (hs : y.space = .hbm) (hc : y.idx.val = c) (hxs : x.space = .hbm) (hxc : x.idx.val < c) :
    StepAt c (unary (τ := τ) x y f hx hy) :=
  ⟨⟨y, hs, hc, rfl⟩, fun G H h b hb => by
    rw [unary_writes, Finset.mem_singleton] at hb; subst hb; rw [unary_result, unary_result, h x hxs hxc]⟩

theorem stepAt_binary (c : ℕ) (a b y : Ref sig .tc) (f : a.ty.Contents Val → b.ty.Contents Val → y.ty.Contents Val) (ha hb hy)
    (hs : y.space = .hbm) (hc : y.idx.val = c) (has : a.space = .hbm) (hac : a.idx.val < c)
    (hbs : b.space = .hbm) (hbc : b.idx.val < c) : StepAt c (binary (τ := τ) a b y f ha hb hy) :=
  ⟨⟨y, hs, hc, rfl⟩, fun G H h r hr => by
    rw [binary_writes, Finset.mem_singleton] at hr; subst hr
    rw [binary_result, binary_result, h a has hac, h b hbs hbc]⟩

theorem stepAt_ternary (c : ℕ) (p a b y : Ref sig .tc)
    (f : p.ty.Contents Val → a.ty.Contents Val → b.ty.Contents Val → y.ty.Contents Val) (hp ha hb hy)
    (hs : y.space = .hbm) (hc : y.idx.val = c) (hps : p.space = .hbm) (hpc : p.idx.val < c)
    (has : a.space = .hbm) (hac : a.idx.val < c) (hbs : b.space = .hbm) (hbc : b.idx.val < c) :
    StepAt c (ternary (τ := τ) p a b y f hp ha hb hy) :=
  ⟨⟨y, hs, hc, rfl⟩, fun G H h r hr => by
    rw [ternary_writes, Finset.mem_singleton] at hr; subst hr
    rw [ternary_result, ternary_result, h p hps hpc, h a has hac, h b hbs hbc]⟩

theorem stepAt_reshape (c : ℕ) (x y : Ref sig .tc) (he hn hx hy)
    (hs : y.space = .hbm) (hc : y.idx.val = c) (hxs : x.space = .hbm) (hxc : x.idx.val < c) :
    StepAt c (reshape (τ := τ) (Val := Val) x y he hn hx hy) :=
  ⟨⟨y, hs, hc, rfl⟩, fun G H h b hb => by
    rw [reshape_writes, Finset.mem_singleton] at hb; subst hb; rw [reshape_result, reshape_result, h x hxs hxc]⟩

/-- A numbered line appended to a numbered line that starts where the first ends. -/
theorem Numbered.append {c : ℕ} {l₁ l₂ : List (HloOp τ sig Val)} (h₁ : Numbered c l₁) (h₂ : Numbered (c + l₁.length) l₂) :
    Numbered c (l₁ ++ l₂) := by
  induction l₁ generalizing c with
  | nil => simpa using h₂
  | cons op l ih =>
    refine ⟨h₁.1, ih h₁.2 ?_⟩
    have e : c + (op :: l).length = c + 1 + l.length := by rw [List.length_cons]; omega
    rw [← e]; exact h₂

/-- No operation of a line numbered from `c` writes a reference numbered below `c`. -/
theorem Numbered.not_written {c : ℕ} {ops : List (HloOp τ sig Val)} (h : Numbered c ops) (r : Ref sig .tc)
    (hlt : r.idx.val < c) : ∀ o ∈ ops, Proc.devRef (τ := τ) .tc r ∉ o.writes := by
  induction ops generalizing c with
  | nil => intro o ho; exact absurd ho (List.not_mem_nil)
  | cons op l ih =>
    intro o ho
    rcases List.mem_cons.mp ho with rfl | ho
    · obtain ⟨w, -, hw, hws⟩ := h.1.writes
      rw [hws, Finset.mem_singleton]
      intro e
      have : r = w := Proc.devRef_injective _ e
      rw [this] at hlt; omega
    · exact ih h.2 (by omega) o ho

/-- The equations of a numbered line: after the whole line, every written buffer holds its operation's result computed
    from the FINAL contents. -/
theorem Numbered.fix {c : ℕ} {ops : List (HloOp τ sig Val)} (h : Numbered c ops) (V : Valuation τ sig Val) :
    ∀ op ∈ ops, ∀ b ∈ op.writes, after ops V b = op.result (after ops V) b := by
  induction ops generalizing c V with
  | nil => intro o ho; exact absurd ho (List.not_mem_nil)
  | cons op l ih =>
    intro o ho b hb
    rw [after_cons]
    rcases List.mem_cons.mp ho with rfl | ho
    · obtain ⟨w, hs, hw, hws⟩ := h.1.writes
      have hbw : b = Proc.devRef .tc w := by rw [hws, Finset.mem_singleton] at hb; exact hb
      have keep : after l (o.result V) b = o.result V b := by
        rw [hbw]
        exact after_of_forall_not_mem l _ (h.2.not_written w (by omega))
      rw [keep]
      refine h.1.reads V _ (fun r hrs hrc => ?_) b hb
      rw [after_of_forall_not_mem l _ (h.2.not_written r (by omega))]
      refine (o.result_of_not_mem V ?_).symm
      rw [hws, Finset.mem_singleton]
      intro e
      have : r = w := Proc.devRef_injective _ e
      rw [this] at hrc; omega
    · exact ih h.2 (op.result V) o ho b hb

end General

end Cert.LineFix

end
-- ==== Proof.RefLine.lean ====
/-
  Reading a line of operations through typed references.

  A typed reference names a buffer together with the type of the tensor value it holds.  `rd W x` is that buffer's
  contents in the valuation `W`, at the value's type.  When `W` satisfies an operation's equation (the written
  buffer holds the operation's function of the operands' contents in `W`), the equation reads, through `rd`, as
  `rd W y = f (rd W x)` with no transport left.  The operations of one field are numbered: their buffers occupy
  41 consecutive slots in program order and every operand sits in an earlier slot.
-/
import proofs.«207321_g10943576670982_fold_wed_m_632_36_alg».proof.Proof.RefStanza
import proofs.«207321_g10943576670982_fold_wed_m_632_36_alg».proof.Proof.LibLineFix

noncomputable section

namespace Cert.Proof.Ref

open Idealize.ShloMosaic Idealize.SL.Sem Idealize.ShloMosaic.StableHlo Cert.LineFix

section Typed

variable {τ : Topo} {sig : RefSig} {Val : EltTy → Type} {T Tx Ta Tb Tc Ty : BufTy}

/-- The contents of a typed reference's buffer, at the value's type. -/
def rd (W : Valuation τ sig Val) (x : TRef sig T) : T.Contents Val := x.ofBuf (W (Proc.devRef .tc x.ref))

theorem ofBuf_toBuf (y : TRef sig T) (v : T.Contents Val) : y.ofBuf (y.toBuf v) = v := by
  obtain ⟨r, h, h1, h2⟩ := y
  subst h
  rfl

theorem rd_nullary {W : Valuation τ sig Val} {y : TRef sig Ty} {v : Ty.Contents Val}
    (h : ∀ b ∈ (TRef.nullary (τ := τ) y v).writes, W b = (TRef.nullary y v).result W b) : rd W y = v := by
  have e := h (Proc.devRef .tc y.ref) (by rw [nullary_writes]; exact Finset.mem_singleton_self _)
  unfold rd
  rw [e, nullary_result]
  exact ofBuf_toBuf y v

theorem rd_unary {W : Valuation τ sig Val} {x : TRef sig Tx} {y : TRef sig Ty} {f : Tx.Contents Val → Ty.Contents Val}
    (h : ∀ b ∈ (TRef.unary (τ := τ) x y f).writes, W b = (TRef.unary x y f).result W b) : rd W y = f (rd W x) := by
  have e := h (Proc.devRef .tc y.ref) (by rw [unary_writes]; exact Finset.mem_singleton_self _)
  unfold rd
  rw [e, unary_result]
  exact ofBuf_toBuf y _

theorem rd_binary {W : Valuation τ sig Val} {a : TRef sig Ta} {b : TRef sig Tb} {y : TRef sig Ty}
    {f : Ta.Contents Val → Tb.Contents Val → Ty.Contents Val}
    (h : ∀ r ∈ (TRef.binary (τ := τ) a b y f).writes, W r = (TRef.binary a b y f).result W r) :
    rd W y = f (rd W a) (rd W b) := by
  have e := h (Proc.devRef .tc y.ref) (by rw [binary_writes]; exact Finset.mem_singleton_self _)
  unfold rd
  rw [e, binary_result]
  exact ofBuf_toBuf y _

theorem rd_ternary {W : Valuation τ sig Val} {c : TRef sig Tc} {a : TRef sig Ta} {b : TRef sig Tb} {y : TRef sig Ty}
    {f : Tc.Contents Val → Ta.Contents Val → Tb.Contents Val → Ty.Contents Val}
    (h : ∀ r ∈ (TRef.ternary (τ := τ) c a b y f).writes, W r = (TRef.ternary c a b y f).result W r) :
    rd W y = f (rd W c) (rd W a) (rd W b) := by
  have e := h (Proc.devRef .tc y.ref) (by rw [ternary_writes]; exact Finset.mem_singleton_self _)
  unfold rd
  rw [e, ternary_result]
  exact ofBuf_toBuf y _

theorem rd_reshape {W : Valuation τ sig Val} {x : TRef sig Tx} {y : TRef sig Ty} {he : Tx.elt = Ty.elt}
    {hn : Tx.shape.ShapeCasts Ty.shape}
    (h : ∀ r ∈ (TRef.reshape (τ := τ) (Val := Val) x y he hn).writes, W r = (TRef.reshape x y he hn).result W r) :
    rd W y = fun i => he ▸ shapeCast Ty.shape (rd W x) hn i := by
  have e := h (Proc.devRef .tc y.ref) (by rw [reshape_writes]; exact Finset.mem_singleton_self _)
  unfold rd
  rw [e, reshape_result]
  obtain ⟨rx, hx, hx1, hx2⟩ := x
  obtain ⟨ry, hy, hy1, hy2⟩ := y
  subst hx
  subst hy
  rfl

/-- An operation of any number of operands is a step at its slot when all its operands sit below it. -/
theorem stepAt_nary (c : ℕ) {n : ℕ} (xs : Fin n → Ref sig .tc) (y : Ref sig .tc)
    (f : ((k : Fin n) → (xs k).ty.Contents Val) → y.ty.Contents Val) (hxs hy)
    (hs : y.space = .hbm) (hc : y.idx.val = c) (hx : ∀ k, (xs k).space = .hbm ∧ (xs k).idx.val < c) :
    StepAt c (nary (τ := τ) xs y f hxs hy) :=
  ⟨⟨y, hs, hc, rfl⟩, fun G H h r hr => by
    rw [nary_writes, Finset.mem_singleton] at hr
    subst hr
    rw [nary_result, nary_result]
    exact congrArg f (funext fun k => h (xs k) (hx k).1 (hx k).2)⟩

end Typed

open Cert.ReferenceIdeal Cert.ReferenceIdeal.Facts₀ Cert.ReferenceIdeal.Facts

variable {F : FTy → Type} [FloatOps F] [Cert.ReferenceIdeal.Facts]

/-- The field's own buffers occupy the 41 slots from `c` on, in program order; the row numbers and the table sit
    below `c`. -/
structure Stanza.At (S : Stanza) (c : ℕ) : Prop where
  x : S.x.ref.space = .hbm ∧ S.x.ref.idx.val < c
  w : S.w.ref.space = .hbm ∧ S.w.ref.idx.val < c
  s0 : S.s0.ref.space = .hbm ∧ S.s0.ref.idx.val = c + 0
  s1 : S.s1.ref.space = .hbm ∧ S.s1.ref.idx.val = c + 1
  tk_c : S.tk.c.ref.space = .hbm ∧ S.tk.c.ref.idx.val = c + 2
  tk_v0 : S.tk.v0.ref.space = .hbm ∧ S.tk.v0.ref.idx.val = c + 3
  tk_v1 : S.tk.v1.ref.space = .hbm ∧ S.tk.v1.ref.idx.val = c + 4
  tk_c_0 : S.tk.c_0.ref.space = .hbm ∧ S.tk.c_0.ref.idx.val = c + 5
  tk_v2 : S.tk.v2.ref.space = .hbm ∧ S.tk.v2.ref.idx.val = c + 6
  tk_v3 : S.tk.v3.ref.space = .hbm ∧ S.tk.v3.ref.idx.val = c + 7
  tk_call0_v0 : S.tk.call0.v0.ref.space = .hbm ∧ S.tk.call0.v0.ref.idx.val = c + 8
  tk_v5 : S.tk.v5.ref.space = .hbm ∧ S.tk.v5.ref.idx.val = c + 9
  tk_c_1 : S.tk.c_1.ref.space = .hbm ∧ S.tk.c_1.ref.idx.val = c + 10
  tk_c_2 : S.tk.c_2.ref.space = .hbm ∧ S.tk.c_2.ref.idx.val = c + 11
  tk_v6 : S.tk.v6.ref.space = .hbm ∧ S.tk.v6.ref.idx.val = c + 12
  tk_v7 : S.tk.v7.ref.space = .hbm ∧ S.tk.v7.ref.idx.val = c + 13
  tk_v8 : S.tk.v8.ref.space = .hbm ∧ S.tk.v8.ref.idx.val = c + 14
  tk_v9 : S.tk.v9.ref.space = .hbm ∧ S.tk.v9.ref.idx.val = c + 15
  tk_v10 : S.tk.v10.ref.space = .hbm ∧ S.tk.v10.ref.idx.val = c + 16
  tk_v11 : S.tk.v11.ref.space = .hbm ∧ S.tk.v11.ref.idx.val = c + 17
  tk_c_3 : S.tk.c_3.ref.space = .hbm ∧ S.tk.c_3.ref.idx.val = c + 18
  tk_v12 : S.tk.v12.ref.space = .hbm ∧ S.tk.v12.ref.idx.val = c + 19
  tk_v13 : S.tk.v13.ref.space = .hbm ∧ S.tk.v13.ref.idx.val = c + 20
  tk_v14 : S.tk.v14.ref.space = .hbm ∧ S.tk.v14.ref.idx.val = c + 21
  tk_cst : S.tk.cst.ref.space = .hbm ∧ S.tk.cst.ref.idx.val = c + 22
  tk_v15 : S.tk.v15.ref.space = .hbm ∧ S.tk.v15.ref.idx.val = c + 23
  tk_v16 : S.tk.v16.ref.space = .hbm ∧ S.tk.v16.ref.idx.val = c + 24
  nm_v0 : S.nm.v0.ref.space = .hbm ∧ S.nm.v0.ref.idx.val = c + 25
  nm_cst : S.nm.cst.ref.space = .hbm ∧ S.nm.cst.ref.idx.val = c + 26
  nm_v1 : S.nm.v1.ref.space = .hbm ∧ S.nm.v1.ref.idx.val = c + 27
  nm_v2 : S.nm.v2.ref.space = .hbm ∧ S.nm.v2.ref.idx.val = c + 28
  nm_v3 : S.nm.v3.ref.space = .hbm ∧ S.nm.v3.ref.idx.val = c + 29
  cst : S.cst.ref.space = .hbm ∧ S.cst.ref.idx.val = c + 30
  v4 : S.v4.ref.space = .hbm ∧ S.v4.ref.idx.val = c + 31
  v5 : S.v5.ref.space = .hbm ∧ S.v5.ref.idx.val = c + 32
  cst0 : S.cst0.ref.space = .hbm ∧ S.cst0.ref.idx.val = c + 33
  v6 : S.v6.ref.space = .hbm ∧ S.v6.ref.idx.val = c + 34
  v7 : S.v7.ref.space = .hbm ∧ S.v7.ref.idx.val = c + 35
  cst1 : S.cst1.ref.space = .hbm ∧ S.cst1.ref.idx.val = c + 36
  v8 : S.v8.ref.space = .hbm ∧ S.v8.ref.idx.val = c + 37
  v9 : S.v9.ref.space = .hbm ∧ S.v9.ref.idx.val = c + 38
  v10 : S.v10.ref.space = .hbm ∧ S.v10.ref.idx.val = c + 39
  v11 : S.v11.ref.space = .hbm ∧ S.v11.ref.idx.val = c + 40

theorem stanzaOps_length (S : Stanza) : (stanzaOps (F := F) S).length = 41 := rfl

/-- Every operation of a field touches TensorCore buffers only. -/
theorem stanzaOps_sub (S : Stanza) : (stanzaOps (F := F) S).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., nullary_bufs_sub .., binary_bufs_sub .., unary_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., binary_bufs_sub ..⟩

/-- Every operation of a field determines what it writes. -/
theorem stanzaOps_fresh (S : Stanza) : (stanzaOps (F := F) S).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem Numbered.nil {τ : Topo} {sig : RefSig} {Val : EltTy → Type} {c : ℕ} :
    Numbered (τ := τ) (sig := sig) (Val := Val) c [] := trivial

theorem Numbered.cons' {τ : Topo} {sig : RefSig} {Val : EltTy → Type} {c d : ℕ} {op : HloOp τ sig Val}
    {l : List (HloOp τ sig Val)} (h₁ : StepAt c op) (hd : d = c + 1) (h₂ : Numbered d l) : Numbered c (op :: l) := by
  subst hd
  exact ⟨h₁, h₂⟩

/-- The operations of a field are numbered from the field's first slot. -/
theorem stanza_numbered (S : Stanza) (c : ℕ) (h : S.At c) : Numbered c (stanzaOps (F := F) S) := by
  obtain ⟨⟨hx, hxc⟩, ⟨hw, hwc⟩, ⟨a0, b0⟩, ⟨a1, b1⟩, ⟨a2, b2⟩, ⟨a3, b3⟩, ⟨a4, b4⟩, ⟨a5, b5⟩, ⟨a6, b6⟩, ⟨a7, b7⟩, ⟨a8, b8⟩, ⟨a9, b9⟩, ⟨a10, b10⟩, ⟨a11, b11⟩, ⟨a12, b12⟩, ⟨a13, b13⟩, ⟨a14, b14⟩, ⟨a15, b15⟩, ⟨a16, b16⟩, ⟨a17, b17⟩, ⟨a18, b18⟩, ⟨a19, b19⟩, ⟨a20, b20⟩, ⟨a21, b21⟩, ⟨a22, b22⟩, ⟨a23, b23⟩, ⟨a24, b24⟩, ⟨a25, b25⟩, ⟨a26, b26⟩, ⟨a27, b27⟩, ⟨a28, b28⟩, ⟨a29, b29⟩, ⟨a30, b30⟩, ⟨a31, b31⟩, ⟨a32, b32⟩, ⟨a33, b33⟩, ⟨a34, b34⟩, ⟨a35, b35⟩, ⟨a36, b36⟩, ⟨a37, b37⟩, ⟨a38, b38⟩, ⟨a39, b39⟩, ⟨a40, b40⟩⟩ := h
  unfold stanzaOps
  show Numbered (c + 0) _
  refine Numbered.cons' (c := c + 0) (d := c + 1) ?_ rfl (Numbered.cons' (c := c + 1) (d := c + 2) ?_ rfl (Numbered.cons' (c := c + 2) (d := c + 3) ?_ rfl (Numbered.cons' (c := c + 3) (d := c + 4) ?_ rfl (Numbered.cons' (c := c + 4) (d := c + 5) ?_ rfl (Numbered.cons' (c := c + 5) (d := c + 6) ?_ rfl (Numbered.cons' (c := c + 6) (d := c + 7) ?_ rfl (Numbered.cons' (c := c + 7) (d := c + 8) ?_ rfl (Numbered.cons' (c := c + 8) (d := c + 9) ?_ rfl (Numbered.cons' (c := c + 9) (d := c + 10) ?_ rfl (Numbered.cons' (c := c + 10) (d := c + 11) ?_ rfl (Numbered.cons' (c := c + 11) (d := c + 12) ?_ rfl (Numbered.cons' (c := c + 12) (d := c + 13) ?_ rfl (Numbered.cons' (c := c + 13) (d := c + 14) ?_ rfl (Numbered.cons' (c := c + 14) (d := c + 15) ?_ rfl (Numbered.cons' (c := c + 15) (d := c + 16) ?_ rfl (Numbered.cons' (c := c + 16) (d := c + 17) ?_ rfl (Numbered.cons' (c := c + 17) (d := c + 18) ?_ rfl (Numbered.cons' (c := c + 18) (d := c + 19) ?_ rfl (Numbered.cons' (c := c + 19) (d := c + 20) ?_ rfl (Numbered.cons' (c := c + 20) (d := c + 21) ?_ rfl (Numbered.cons' (c := c + 21) (d := c + 22) ?_ rfl (Numbered.cons' (c := c + 22) (d := c + 23) ?_ rfl (Numbered.cons' (c := c + 23) (d := c + 24) ?_ rfl (Numbered.cons' (c := c + 24) (d := c + 25) ?_ rfl (Numbered.cons' (c := c + 25) (d := c + 26) ?_ rfl (Numbered.cons' (c := c + 26) (d := c + 27) ?_ rfl (Numbered.cons' (c := c + 27) (d := c + 28) ?_ rfl (Numbered.cons' (c := c + 28) (d := c + 29) ?_ rfl (Numbered.cons' (c := c + 29) (d := c + 30) ?_ rfl (Numbered.cons' (c := c + 30) (d := c + 31) ?_ rfl (Numbered.cons' (c := c + 31) (d := c + 32) ?_ rfl (Numbered.cons' (c := c + 32) (d := c + 33) ?_ rfl (Numbered.cons' (c := c + 33) (d := c + 34) ?_ rfl (Numbered.cons' (c := c + 34) (d := c + 35) ?_ rfl (Numbered.cons' (c := c + 35) (d := c + 36) ?_ rfl (Numbered.cons' (c := c + 36) (d := c + 37) ?_ rfl (Numbered.cons' (c := c + 37) (d := c + 38) ?_ rfl (Numbered.cons' (c := c + 38) (d := c + 39) ?_ rfl (Numbered.cons' (c := c + 39) (d := c + 40) ?_ rfl (Numbered.cons' (c := c + 40) (d := c + 41) ?_ rfl (Numbered.nil)))))))))))))))))))))))))))))))))))))))))
  · exact stepAt_unary _ _ _ _ _ _ a0 b0 hx (lt_of_lt_of_le hxc (Nat.le_add_right c 0))
  · exact stepAt_reshape _ _ _ _ _ _ _ a1 b1 a0 (lt_of_eq_of_lt b0 (Nat.add_lt_add_left (show (0 : ℕ) < 1 by decide) c))
  · exact stepAt_nullary _ _ _ _ a2 b2
  · exact stepAt_unary _ _ _ _ _ _ a3 b3 a2 (lt_of_eq_of_lt b2 (Nat.add_lt_add_left (show (2 : ℕ) < 3 by decide) c))
  · exact stepAt_binary _ _ _ _ _ _ _ _ a4 b4 a1 (lt_of_eq_of_lt b1 (Nat.add_lt_add_left (show (1 : ℕ) < 4 by decide) c)) a3 (lt_of_eq_of_lt b3 (Nat.add_lt_add_left (show (3 : ℕ) < 4 by decide) c))
  · exact stepAt_nullary _ _ _ _ a5 b5
  · exact stepAt_unary _ _ _ _ _ _ a6 b6 a5 (lt_of_eq_of_lt b5 (Nat.add_lt_add_left (show (5 : ℕ) < 6 by decide) c))
  · exact stepAt_binary _ _ _ _ _ _ _ _ a7 b7 a1 (lt_of_eq_of_lt b1 (Nat.add_lt_add_left (show (1 : ℕ) < 7 by decide) c)) a6 (lt_of_eq_of_lt b6 (Nat.add_lt_add_left (show (6 : ℕ) < 7 by decide) c))
  · exact stepAt_ternary _ _ _ _ _ _ _ _ _ _ a8 b8 a4 (lt_of_eq_of_lt b4 (Nat.add_lt_add_left (show (4 : ℕ) < 8 by decide) c)) a7 (lt_of_eq_of_lt b7 (Nat.add_lt_add_left (show (7 : ℕ) < 8 by decide) c)) a1 (lt_of_eq_of_lt b1 (Nat.add_lt_add_left (show (1 : ℕ) < 8 by decide) c))
  · exact stepAt_unary _ _ _ _ _ _ a9 b9 a8 (lt_of_eq_of_lt b8 (Nat.add_lt_add_left (show (8 : ℕ) < 9 by decide) c))
  · exact stepAt_nullary _ _ _ _ a10 b10
  · exact stepAt_nullary _ _ _ _ a11 b11
  · exact stepAt_unary _ _ _ _ _ _ a12 b12 a11 (lt_of_eq_of_lt b11 (Nat.add_lt_add_left (show (11 : ℕ) < 12 by decide) c))
  · exact stepAt_binary _ _ _ _ _ _ _ _ a13 b13 a9 (lt_of_eq_of_lt b9 (Nat.add_lt_add_left (show (9 : ℕ) < 13 by decide) c)) a12 (lt_of_eq_of_lt b12 (Nat.add_lt_add_left (show (12 : ℕ) < 13 by decide) c))
  · exact stepAt_unary _ _ _ _ _ _ a14 b14 a10 (lt_of_eq_of_lt b10 (Nat.add_lt_add_left (show (10 : ℕ) < 14 by decide) c))
  · exact stepAt_unary _ _ _ _ _ _ a15 b15 a14 (lt_of_eq_of_lt b14 (Nat.add_lt_add_left (show (14 : ℕ) < 15 by decide) c))
  · exact stepAt_binary _ _ _ _ _ _ _ _ a16 b16 a9 (lt_of_eq_of_lt b9 (Nat.add_lt_add_left (show (9 : ℕ) < 16 by decide) c)) a15 (lt_of_eq_of_lt b15 (Nat.add_lt_add_left (show (15 : ℕ) < 16 by decide) c))
  · exact stepAt_binary _ _ _ _ _ _ _ _ a17 b17 a13 (lt_of_eq_of_lt b13 (Nat.add_lt_add_left (show (13 : ℕ) < 17 by decide) c)) a16 (lt_of_eq_of_lt b16 (Nat.add_lt_add_left (show (16 : ℕ) < 17 by decide) c))
  · exact stepAt_nullary _ _ _ _ a18 b18
  · exact stepAt_binary _ _ _ _ _ _ _ _ a19 b19 a17 (lt_of_eq_of_lt b17 (Nat.add_lt_add_left (show (17 : ℕ) < 19 by decide) c)) a18 (lt_of_eq_of_lt b18 (Nat.add_lt_add_left (show (18 : ℕ) < 19 by decide) c))
  · exact stepAt_binary _ _ _ _ _ _ _ _ a20 b20 hw (lt_of_lt_of_le hwc (Nat.le_add_right c 20)) a9 (lt_of_eq_of_lt b9 (Nat.add_lt_add_left (show (9 : ℕ) < 20 by decide) c))
  · exact stepAt_unary _ _ _ _ _ _ a21 b21 a19 (lt_of_eq_of_lt b19 (Nat.add_lt_add_left (show (19 : ℕ) < 21 by decide) c))
  · exact stepAt_nullary _ _ _ _ a22 b22
  · exact stepAt_unary _ _ _ _ _ _ a23 b23 a22 (lt_of_eq_of_lt b22 (Nat.add_lt_add_left (show (22 : ℕ) < 23 by decide) c))
  · exact stepAt_ternary _ _ _ _ _ _ _ _ _ _ a24 b24 a21 (lt_of_eq_of_lt b21 (Nat.add_lt_add_left (show (21 : ℕ) < 24 by decide) c)) a20 (lt_of_eq_of_lt b20 (Nat.add_lt_add_left (show (20 : ℕ) < 24 by decide) c)) a23 (lt_of_eq_of_lt b23 (Nat.add_lt_add_left (show (23 : ℕ) < 24 by decide) c))
  · exact stepAt_binary _ _ _ _ _ _ _ _ a25 b25 a24 (lt_of_eq_of_lt b24 (Nat.add_lt_add_left (show (24 : ℕ) < 25 by decide) c)) a24 (lt_of_eq_of_lt b24 (Nat.add_lt_add_left (show (24 : ℕ) < 25 by decide) c))
  · exact stepAt_nullary _ _ _ _ a26 b26
  · exact stepAt_binary _ _ _ _ _ _ _ _ a27 b27 a25 (lt_of_eq_of_lt b25 (Nat.add_lt_add_left (show (25 : ℕ) < 27 by decide) c)) a26 (lt_of_eq_of_lt b26 (Nat.add_lt_add_left (show (26 : ℕ) < 27 by decide) c))
  · exact stepAt_unary _ _ _ _ _ _ a28 b28 a27 (lt_of_eq_of_lt b27 (Nat.add_lt_add_left (show (27 : ℕ) < 28 by decide) c))
  · exact stepAt_unary _ _ _ _ _ _ a29 b29 a28 (lt_of_eq_of_lt b28 (Nat.add_lt_add_left (show (28 : ℕ) < 29 by decide) c))
  · exact stepAt_nullary _ _ _ _ a30 b30
  · exact stepAt_unary _ _ _ _ _ _ a31 b31 a30 (lt_of_eq_of_lt b30 (Nat.add_lt_add_left (show (30 : ℕ) < 31 by decide) c))
  · exact stepAt_binary _ _ _ _ _ _ _ _ a32 b32 a29 (lt_of_eq_of_lt b29 (Nat.add_lt_add_left (show (29 : ℕ) < 32 by decide) c)) a31 (lt_of_eq_of_lt b31 (Nat.add_lt_add_left (show (31 : ℕ) < 32 by decide) c))
  · exact stepAt_nullary _ _ _ _ a33 b33
  · exact stepAt_unary _ _ _ _ _ _ a34 b34 a33 (lt_of_eq_of_lt b33 (Nat.add_lt_add_left (show (33 : ℕ) < 34 by decide) c))
  · exact stepAt_binary _ _ _ _ _ _ _ _ a35 b35 a34 (lt_of_eq_of_lt b34 (Nat.add_lt_add_left (show (34 : ℕ) < 35 by decide) c)) a32 (lt_of_eq_of_lt b32 (Nat.add_lt_add_left (show (32 : ℕ) < 35 by decide) c))
  · exact stepAt_nullary _ _ _ _ a36 b36
  · exact stepAt_unary _ _ _ _ _ _ a37 b37 a36 (lt_of_eq_of_lt b36 (Nat.add_lt_add_left (show (36 : ℕ) < 37 by decide) c))
  · exact stepAt_binary _ _ _ _ _ _ _ _ a38 b38 a37 (lt_of_eq_of_lt b37 (Nat.add_lt_add_left (show (37 : ℕ) < 38 by decide) c)) a35 (lt_of_eq_of_lt b35 (Nat.add_lt_add_left (show (35 : ℕ) < 38 by decide) c))
  · exact stepAt_unary _ _ _ _ _ _ a39 b39 a38 (lt_of_eq_of_lt b38 (Nat.add_lt_add_left (show (38 : ℕ) < 39 by decide) c))
  · exact stepAt_binary _ _ _ _ _ _ _ _ a40 b40 a24 (lt_of_eq_of_lt b24 (Nat.add_lt_add_left (show (24 : ℕ) < 40 by decide) c)) a39 (lt_of_eq_of_lt b39 (Nat.add_lt_add_left (show (39 : ℕ) < 40 by decide) c))

end Cert.Proof.Ref

end
-- ==== Proof.RefVal.lean ====
/-
  What one field of the reference computes, as a function of the row numbers and the field's table.

  `takeVal w i` is the table's rows at the row numbers `i` as the lookup is lowered: negative numbers are wrapped
  around by the number of rows, a row number outside the table yields a row of NaNs, the rest a gather.  `normVal r`
  is the column of Euclidean norms of the rows of `r`, `scaleVal r` the rows of `r` each multiplied by the smaller
  of one and the inverse of its norm (the norm bounded below first).  `stanzaVal` composes them after cutting the
  field's column out of the row numbers.  A valuation satisfying the 41 equations of a field holds `stanzaVal` of its
  row numbers and table in the field's last buffer.
-/
import proofs.«207321_g10943576670982_fold_wed_m_632_36_alg».proof.Proof.RefLine

noncomputable section

namespace Cert.Proof.Ref

open Idealize.ShloMosaic Idealize.SL.Sem Idealize.ShloMosaic.StableHlo Cert.LineFix
open Cert.ReferenceIdeal Cert.ReferenceIdeal.Facts₀ Cert.ReferenceIdeal.Facts

variable {F : FTy → Type} [FloatOps F] [Cert.ReferenceIdeal.Facts]

/-- The row numbers as a column, a negative one moved up by the number of rows. -/
def takeCol (i : (⟨S16384, .i32⟩ : BufTy).Contents (Elt F)) : (⟨S16384x1, .i32⟩ : BufTy).Contents (Elt F) :=
  broadcastInDim S16384x1 ![0] bcast_S16384_S16384x1_0
    (select (cmpi .slt i (broadcastInDim S16384 ![] bcast_S_S16384 (constantI S_ 32 0#32)))
      (addi i (broadcastInDim S16384 ![] bcast_S_S16384 (constantI S_ 32 128#32))) i)

/-- Whether each row number lies in the table, spread over the lanes. -/
def takeOk (col : (⟨S16384x1, .i32⟩ : BufTy).Contents (Elt F)) : (⟨S16384x128, .i1⟩ : BufTy).Contents (Elt F) :=
  broadcastInDim S16384x128 ![0] bcast_S16384_S16384x128_0
    (Host.reduce IntOp.andi
      (andi (cmpi .sge col (broadcastInDim S16384x1 ![] bcast_S_S16384x1 (constantI S_ 32 0#32)))
        (cmpi .sle col (broadcastInDim S16384x1 ![0, 1] bcast_S1x1_S16384x1_0_1
          (broadcastInDim S1x1 ![1] bcast_S1_S1x1_1 (constantI S1 32 127#32)))))
      (constantI S_ 1 1#1) reducesTo_S16384x1_S16384_d1 h_S_)

/-- The table's rows at the row numbers. -/
def takeVal (w : (⟨S128x128, .f32⟩ : BufTy).Contents (Elt F)) (i : (⟨S16384, .i32⟩ : BufTy).Contents (Elt F)) : (⟨S16384x128, .f32⟩ : BufTy).Contents (Elt F) :=
  select (takeOk (F := F) (takeCol (F := F) i))
    (Host.gather gather_S128x128_S16384x1_S16384x128_1_0_n_n_0_1_1128 w (takeCol (F := F) i))
    (broadcastInDim S16384x128 ![] bcast_S_S16384x128 (constant S_ .f32 0x7FC00000#32))

/-- The column of the rows' Euclidean norms. -/
def normVal (r : (⟨S16384x128, .f32⟩ : BufTy).Contents (Elt F)) : (⟨S16384x1, .f32⟩ : BufTy).Contents (Elt F) :=
  Host.sqrt (broadcastInDim S16384x1 ![0] bcast_S16384_S16384x1_0
    (Host.reduceAdd (mulf r r) (constant S_ .f32 0x00000000#32) reducesTo_S16384x128_S16384_d1 h_S_))

/-- The rows, each multiplied by the smaller of one and the inverse of its norm bounded below. -/
def scaleVal (r : (⟨S16384x128, .f32⟩ : BufTy).Contents (Elt F)) : (⟨S16384x128, .f32⟩ : BufTy).Contents (Elt F) :=
  mulf r (broadcastInDim S16384x128 ![0, 1] bcast_S16384x1_S16384x128_0_1
    (minimumf (broadcastInDim S16384x1 ![] bcast_S_S16384x1 (constant S_ .f32 0x3F800000#32))
      (Host.divf (broadcastInDim S16384x1 ![] bcast_S_S16384x1 (constant S_ .f32 0x3F800000#32))
        (maximumf (normVal r) (broadcastInDim S16384x1 ![] bcast_S_S16384x1 (constant S_ .f32 0x33D6BF95#32))))))

/-- One field: its column of the row numbers, flattened; the rows taken; rescaled. -/
def stanzaVal (off : Fin S16384x26.rank → Nat) (hoff : S16384x26.Slices off S16384x1)
    (x : (⟨S16384x26, .i32⟩ : BufTy).Contents (Elt F)) (w : (⟨S128x128, .f32⟩ : BufTy).Contents (Elt F)) : (⟨S16384x128, .f32⟩ : BufTy).Contents (Elt F) :=
  scaleVal (takeVal w (shapeCast S16384 (extractStridedSlice S16384x1 off x hoff) shapeCasts_S16384x1_S16384))

/-- A valuation satisfying a field's equations holds the field's value in its last buffer. -/
theorem stanza_val (S : Stanza) (W : Valuation τ sig (Elt F))
    (h : ∀ op ∈ stanzaOps (F := F) S, ∀ b ∈ op.writes, W b = op.result W b) :
    rd W S.v11 = stanzaVal S.off S.hoff (rd W S.x) (rd W S.w) := by
  have H := List.forall_iff_forall_mem.2 h
  obtain ⟨e0, e1, e2, e3, e4, e5, e6, e7, e8, e9, e10, e11, e12, e13, e14, e15, e16, e17, e18, e19, e20, e21, e22, e23, e24, e25, e26, e27, e28, e29, e30, e31, e32, e33, e34, e35, e36, e37, e38, e39, e40⟩ := H
  have E0 := rd_unary e0
  have E1 := rd_reshape e1
  have E2 := rd_nullary e2
  have E3 := rd_unary e3
  have E4 := rd_binary e4
  have E5 := rd_nullary e5
  have E6 := rd_unary e6
  have E7 := rd_binary e7
  have E8 := rd_ternary e8
  have E9 := rd_unary e9
  have E10 := rd_nullary e10
  have E11 := rd_nullary e11
  have E12 := rd_unary e12
  have E13 := rd_binary e13
  have E14 := rd_unary e14
  have E15 := rd_unary e15
  have E16 := rd_binary e16
  have E17 := rd_binary e17
  have E18 := rd_nullary e18
  have E19 := rd_binary e19
  have E20 := rd_binary e20
  have E21 := rd_unary e21
  have E22 := rd_nullary e22
  have E23 := rd_unary e23
  have E24 := rd_ternary e24
  have E25 := rd_binary e25
  have E26 := rd_nullary e26
  have E27 := rd_binary e27
  have E28 := rd_unary e28
  have E29 := rd_unary e29
  have E30 := rd_nullary e30
  have E31 := rd_unary e31
  have E32 := rd_binary e32
  have E33 := rd_nullary e33
  have E34 := rd_unary e34
  have E35 := rd_binary e35
  have E36 := rd_nullary e36
  have E37 := rd_unary e37
  have E38 := rd_binary e38
  have E39 := rd_unary e39
  have E40 := rd_binary e40
  rw [E40, E39, E38, E37, E36, E35, E34, E33, E32, E31, E30, E29, E28, E27, E26, E25, E24, E23, E22, E21, E20, E19, E18, E17, E16, E15, E14, E13, E12, E11, E10, E9, E8, E7, E6, E5, E4, E3, E2, E1, E0]
  rfl

end Cert.Proof.Ref

end
-- ==== Proof.RefRun.lean ====
/-
  The reference's run.

  The whole reference is a numbered line: the 26 fields occupy the buffer slots 27 … 1092 in runs of 41 and the three
  concatenations the next three, every operand below its operation.  Hence every execution terminates with each buffer
  at the line's fold over the launch contents; in that final valuation every operation's equation holds, the 27
  arguments (slots 0 … 26) are untouched, each field's last buffer holds the field's value of the row numbers and its
  table, and the result buffer holds the 26 blocks side by side.
-/
import proofs.«207321_g10943576670982_fold_wed_m_632_36_alg».proof.Proof.RefMain
import proofs.«207321_g10943576670982_fold_wed_m_632_36_alg».proof.Proof.RefVal

noncomputable section

namespace Cert.Proof.Ref

open Idealize.ShloMosaic Idealize.SL.Sem Idealize.ShloMosaic.StableHlo Cert.LineFix
open Cert.ReferenceIdeal Cert.ReferenceIdeal.Facts₀ Cert.ReferenceIdeal.Facts

variable {F : FTy → Type} [FloatOps F] [Cert.ReferenceIdeal.Facts]

/-- Consecutive fields occupy consecutive runs of 41 slots. -/
def AllAt : ℕ → List Stanza → Prop
  | _, [] => True
  | c, S :: l => S.At c ∧ AllAt (c + 41) l

theorem allAt : AllAt 27 stanzas := by
  simp only [stanzas, AllAt]
  refine ⟨?_, ?_, ?_, ?_, ?_, ?_, ?_, ?_, ?_, ?_, ?_, ?_, ?_, ?_, ?_, ?_, ?_, ?_, ?_, ?_, ?_, ?_, ?_, ?_, ?_, ?_, trivial⟩
  all_goals (constructor <;> first | exact ⟨rfl, rfl⟩ | exact ⟨rfl, Nat.le_of_ble_eq_true rfl⟩)

theorem numbered_flatMap : ∀ (l : List Stanza) (c : ℕ), AllAt c l → Numbered c (l.flatMap (stanzaOps (F := F)))
  | [], _, _ => trivial
  | S :: l, c, h => by
    rw [List.flatMap_cons]
    refine Numbered.append (stanza_numbered S c h.1) ?_
    rw [stanzaOps_length]
    exact numbered_flatMap l (c + 41) h.2

theorem flatMap_length (l : List Stanza) : (l.flatMap (stanzaOps (F := F))).length = 41 * l.length := by
  induction l with
  | nil => rfl
  | cons S l ih => rw [List.flatMap_cons, List.length_append, ih, stanzaOps_length, List.length_cons]; omega

theorem tail_numbered : Numbered 1093 (tailOps (F := F)) := by
  unfold tailOps
  refine Numbered.cons' (d := 1094) ?_ rfl (Numbered.cons' (d := 1095) ?_ rfl (Numbered.cons' (d := 1096) ?_ rfl Numbered.nil))
  · exact stepAt_nary _ _ _ _ _ _ rfl rfl (by decide)
  · exact stepAt_nary _ _ _ _ _ _ rfl rfl (by decide)
  · exact stepAt_binary _ _ _ _ _ _ _ _ rfl rfl rfl (by decide) rfl (by decide)

/-- The whole reference is a numbered line from slot 27. -/
theorem ops_numbered : Numbered 27 (ops (F := F)) := by
  unfold ops
  refine Numbered.append (numbered_flatMap stanzas 27 allAt) ?_
  rw [flatMap_length]
  exact tail_numbered

theorem tail_sub : (tailOps (F := F)).Forall fun op => op.bufs ⊆ tcRefs τ sig :=
  ⟨nary_bufs_sub .., nary_bufs_sub .., binary_bufs_sub ..⟩

theorem tail_fresh : (tailOps (F := F)).Forall fun op => op.fresh = ∅ := ⟨rfl, rfl, rfl⟩

theorem ops_sub : (ops (F := F)).Forall fun op => op.bufs ⊆ tcRefs τ sig := by
  rw [List.forall_iff_forall_mem]
  intro op hop
  rcases List.mem_append.1 hop with h | h
  · obtain ⟨S, -, hS⟩ := List.mem_flatMap.1 h
    exact List.forall_iff_forall_mem.1 (stanzaOps_sub S) op hS
  · exact List.forall_iff_forall_mem.1 tail_sub op h

theorem ops_fresh : ∀ op ∈ ops (F := F), op.fresh = ∅ := by
  intro op hop
  rcases List.mem_append.1 hop with h | h
  · obtain ⟨S, -, hS⟩ := List.mem_flatMap.1 h
    exact List.forall_iff_forall_mem.1 (stanzaOps_fresh S) op hS
  · exact List.forall_iff_forall_mem.1 tail_fresh op h

theorem scopedRefs_eq : (Finset.univ.filter fun b : Ref sig .tc => b.isScoped) = ∅ := by decide
theorem scopedSems_eq : (Finset.univ.filter fun sm : SemLoc sig => sm.isScoped .tc) = ∅ := by decide

/-- Every execution of the reference terminates with each buffer at the line's fold over the launch contents. -/
theorem run_ops (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

theorem mem_ops_of_stanza {S : Stanza} (hS : S ∈ stanzas) {op : HloOp τ sig (Elt F)} (hop : op ∈ stanzaOps S) :
    op ∈ ops (F := F) :=
  List.mem_append_left _ (List.mem_flatMap.2 ⟨S, hS, hop⟩)

theorem mem_tail {op : HloOp τ sig (Elt F)} (hop : op ∈ tailOps (F := F)) : op ∈ ops (F := F) :=
  List.mem_append_right _ hop

/-- A buffer below slot 27 — an argument — keeps its contents. -/
theorem arg_keep (V : Valuation τ sig (Elt F)) (r : Ref sig .tc) (h : r.idx.val < 27) :
    after ops V (Proc.devRef .tc r) = V (Proc.devRef .tc r) :=
  after_of_forall_not_mem ops V ((ops_numbered (F := F)).not_written r h)

/-- After the whole line a field's last buffer holds the field's value of the launch's row numbers and table. -/
theorem field_at (V : Valuation τ sig (Elt F)) {S : Stanza} (hS : S ∈ stanzas) (hx : S.x.ref.idx.val < 27)
    (hw : S.w.ref.idx.val < 27) :
    rd (after ops V) S.v11 = stanzaVal S.off S.hoff (rd V S.x) (rd V S.w) := by
  have e := stanza_val S (after ops V) fun op hop => (ops_numbered (F := F)).fix V op (mem_ops_of_stanza hS hop)
  rw [e]
  unfold rd
  rw [arg_keep V S.x.ref hx, arg_keep V S.w.ref hw]

theorem mem_S0 : S0 ∈ stanzas := by unfold stanzas; exact List.mem_cons_self ..
theorem mem_S1 : S1 ∈ stanzas := by unfold stanzas; exact List.mem_cons_of_mem _ (List.mem_cons_self ..)
theorem mem_S2 : S2 ∈ stanzas := by unfold stanzas; exact List.mem_cons_of_mem _ (List.mem_cons_of_mem _ (List.mem_cons_self ..))
theorem mem_S3 : S3 ∈ stanzas := by unfold stanzas; exact List.mem_cons_of_mem _ (List.mem_cons_of_mem _ (List.mem_cons_of_mem _ (List.mem_cons_self ..)))
theorem mem_S4 : S4 ∈ stanzas := by unfold stanzas; exact List.mem_cons_of_mem _ (List.mem_cons_of_mem _ (List.mem_cons_of_mem _ (List.mem_cons_of_mem _ (List.mem_cons_self ..))))
theorem mem_S5 : S5 ∈ stanzas := by unfold stanzas; exact List.mem_cons_of_mem _ (List.mem_cons_of_mem _ (List.mem_cons_of_mem _ (List.mem_cons_of_mem _ (List.mem_cons_of_mem _ (List.mem_cons_self ..)))))
theorem mem_S6 : S6 ∈ stanzas := by unfold stanzas; exact List.mem_cons_of_mem _ (List.mem_cons_of_mem _ (List.mem_cons_of_mem _ (List.mem_cons_of_mem _ (List.mem_cons_of_mem _ (List.mem_cons_of_mem _ (List.mem_cons_self ..))))))
theorem mem_S7 : S7 ∈ stanzas := by unfold stanzas; exact List.mem_cons_of_mem _ (List.mem_cons_of_mem _ (List.mem_cons_of_mem _ (List.mem_cons_of_mem _ (List.mem_cons_of_mem _ (List.mem_cons_of_mem _ (List.mem_cons_of_mem _ (List.mem_cons_self ..)))))))
theorem mem_S8 : S8 ∈ stanzas := by unfold stanzas; exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))
theorem mem_S9 : S9 ∈ stanzas := by unfold stanzas; exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))
theorem mem_S10 : S10 ∈ stanzas := by unfold stanzas; exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))
theorem mem_S11 : S11 ∈ stanzas := by unfold stanzas; exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))
theorem mem_S12 : S12 ∈ stanzas := by unfold stanzas; exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))
theorem mem_S13 : S13 ∈ stanzas := by unfold stanzas; exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))
theorem mem_S14 : S14 ∈ stanzas := by unfold stanzas; exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))
theorem mem_S15 : S15 ∈ stanzas := by unfold stanzas; exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))))
theorem mem_S16 : S16 ∈ stanzas := by unfold stanzas; exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))))
theorem mem_S17 : S17 ∈ stanzas := by unfold stanzas; exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))))))
theorem mem_S18 : S18 ∈ stanzas := by unfold stanzas; exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))))))
theorem mem_S19 : S19 ∈ stanzas := by unfold stanzas; exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))))))))
theorem mem_S20 : S20 ∈ stanzas := by unfold stanzas; exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))))))))
theorem mem_S21 : S21 ∈ stanzas := by unfold stanzas; exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))))))))))
theorem mem_S22 : S22 ∈ stanzas := by unfold stanzas; exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))))))))))
theorem mem_S23 : S23 ∈ stanzas := by unfold stanzas; exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))))))))))))
theorem mem_S24 : S24 ∈ stanzas := by unfold stanzas; exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..))))))))))))))))))))))))
theorem mem_S25 : S25 ∈ stanzas := by unfold stanzas; exact List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self ..)))))))))))))))))))))))))

section Final

attribute [local irreducible] ops

theorem blk0 (V : Valuation τ sig (Elt F)) :
    after ops V (Proc.devRef .tc main_v11) = stanzaVal ![0, 0] slices_S16384x26_S16384x1_0_0 (V (Proc.devRef .tc main_arg0)) (V (Proc.devRef .tc main_arg1)) := by
  have e := field_at V mem_S0 (Nat.le_of_ble_eq_true rfl) (Nat.le_of_ble_eq_true rfl)
  generalize after ops V = W at e ⊢
  exact e

theorem blk1 (V : Valuation τ sig (Elt F)) :
    after ops V (Proc.devRef .tc main_v23) = stanzaVal ![0, 1] slices_S16384x26_S16384x1_0_1 (V (Proc.devRef .tc main_arg0)) (V (Proc.devRef .tc main_arg2)) := by
  have e := field_at V mem_S1 (Nat.le_of_ble_eq_true rfl) (Nat.le_of_ble_eq_true rfl)
  generalize after ops V = W at e ⊢
  exact e

theorem blk2 (V : Valuation τ sig (Elt F)) :
    after ops V (Proc.devRef .tc main_v35) = stanzaVal ![0, 2] slices_S16384x26_S16384x1_0_2 (V (Proc.devRef .tc main_arg0)) (V (Proc.devRef .tc main_arg3)) := by
  have e := field_at V mem_S2 (Nat.le_of_ble_eq_true rfl) (Nat.le_of_ble_eq_true rfl)
  generalize after ops V = W at e ⊢
  exact e

theorem blk3 (V : Valuation τ sig (Elt F)) :
    after ops V (Proc.devRef .tc main_v47) = stanzaVal ![0, 3] slices_S16384x26_S16384x1_0_3 (V (Proc.devRef .tc main_arg0)) (V (Proc.devRef .tc main_arg4)) := by
  have e := field_at V mem_S3 (Nat.le_of_ble_eq_true rfl) (Nat.le_of_ble_eq_true rfl)
  generalize after ops V = W at e ⊢
  exact e

theorem blk4 (V : Valuation τ sig (Elt F)) :
    after ops V (Proc.devRef .tc main_v59) = stanzaVal ![0, 4] slices_S16384x26_S16384x1_0_4 (V (Proc.devRef .tc main_arg0)) (V (Proc.devRef .tc main_arg5)) := by
  have e := field_at V mem_S4 (Nat.le_of_ble_eq_true rfl) (Nat.le_of_ble_eq_true rfl)
  generalize after ops V = W at e ⊢
  exact e

theorem blk5 (V : Valuation τ sig (Elt F)) :
    after ops V (Proc.devRef .tc main_v71) = stanzaVal ![0, 5] slices_S16384x26_S16384x1_0_5 (V (Proc.devRef .tc main_arg0)) (V (Proc.devRef .tc main_arg6)) := by
  have e := field_at V mem_S5 (Nat.le_of_ble_eq_true rfl) (Nat.le_of_ble_eq_true rfl)
  generalize after ops V = W at e ⊢
  exact e

theorem blk6 (V : Valuation τ sig (Elt F)) :
    after ops V (Proc.devRef .tc main_v83) = stanzaVal ![0, 6] slices_S16384x26_S16384x1_0_6 (V (Proc.devRef .tc main_arg0)) (V (Proc.devRef .tc main_arg7)) := by
  have e := field_at V mem_S6 (Nat.le_of_ble_eq_true rfl) (Nat.le_of_ble_eq_true rfl)
  generalize after ops V = W at e ⊢
  exact e

theorem blk7 (V : Valuation τ sig (Elt F)) :
    after ops V (Proc.devRef .tc main_v95) = stanzaVal ![0, 7] slices_S16384x26_S16384x1_0_7 (V (Proc.devRef .tc main_arg0)) (V (Proc.devRef .tc main_arg8)) := by
  have e := field_at V mem_S7 (Nat.le_of_ble_eq_true rfl) (Nat.le_of_ble_eq_true rfl)
  generalize after ops V = W at e ⊢
  exact e

theorem blk8 (V : Valuation τ sig (Elt F)) :
    after ops V (Proc.devRef .tc main_v107) = stanzaVal ![0, 8] slices_S16384x26_S16384x1_0_8 (V (Proc.devRef .tc main_arg0)) (V (Proc.devRef .tc main_arg9)) := by
  have e := field_at V mem_S8 (Nat.le_of_ble_eq_true rfl) (Nat.le_of_ble_eq_true rfl)
  generalize after ops V = W at e ⊢
  exact e

theorem blk9 (V : Valuation τ sig (Elt F)) :
    after ops V (Proc.devRef .tc main_v119) = stanzaVal ![0, 9] slices_S16384x26_S16384x1_0_9 (V (Proc.devRef .tc main_arg0)) (V (Proc.devRef .tc main_arg10)) := by
  have e := field_at V mem_S9 (Nat.le_of_ble_eq_true rfl) (Nat.le_of_ble_eq_true rfl)
  generalize after ops V = W at e ⊢
  exact e

theorem blk10 (V : Valuation τ sig (Elt F)) :
    after ops V (Proc.devRef .tc main_v131) = stanzaVal ![0, 10] slices_S16384x26_S16384x1_0_10 (V (Proc.devRef .tc main_arg0)) (V (Proc.devRef .tc main_arg11)) := by
  have e := field_at V mem_S10 (Nat.le_of_ble_eq_true rfl) (Nat.le_of_ble_eq_true rfl)
  generalize after ops V = W at e ⊢
  exact e

theorem blk11 (V : Valuation τ sig (Elt F)) :
    after ops V (Proc.devRef .tc main_v143) = stanzaVal ![0, 11] slices_S16384x26_S16384x1_0_11 (V (Proc.devRef .tc main_arg0)) (V (Proc.devRef .tc main_arg12)) := by
  have e := field_at V mem_S11 (Nat.le_of_ble_eq_true rfl) (Nat.le_of_ble_eq_true rfl)
  generalize after ops V = W at e ⊢
  exact e

theorem blk12 (V : Valuation τ sig (Elt F)) :
    after ops V (Proc.devRef .tc main_v155) = stanzaVal ![0, 12] slices_S16384x26_S16384x1_0_12 (V (Proc.devRef .tc main_arg0)) (V (Proc.devRef .tc main_arg13)) := by
  have e := field_at V mem_S12 (Nat.le_of_ble_eq_true rfl) (Nat.le_of_ble_eq_true rfl)
  generalize after ops V = W at e ⊢
  exact e

theorem blk13 (V : Valuation τ sig (Elt F)) :
    after ops V (Proc.devRef .tc main_v167) = stanzaVal ![0, 13] slices_S16384x26_S16384x1_0_13 (V (Proc.devRef .tc main_arg0)) (V (Proc.devRef .tc main_arg14)) := by
  have e := field_at V mem_S13 (Nat.le_of_ble_eq_true rfl) (Nat.le_of_ble_eq_true rfl)
  generalize after ops V = W at e ⊢
  exact e

theorem blk14 (V : Valuation τ sig (Elt F)) :
    after ops V (Proc.devRef .tc main_v179) = stanzaVal ![0, 14] slices_S16384x26_S16384x1_0_14 (V (Proc.devRef .tc main_arg0)) (V (Proc.devRef .tc main_arg15)) := by
  have e := field_at V mem_S14 (Nat.le_of_ble_eq_true rfl) (Nat.le_of_ble_eq_true rfl)
  generalize after ops V = W at e ⊢
  exact e

theorem blk15 (V : Valuation τ sig (Elt F)) :
    after ops V (Proc.devRef .tc main_v191) = stanzaVal ![0, 15] slices_S16384x26_S16384x1_0_15 (V (Proc.devRef .tc main_arg0)) (V (Proc.devRef .tc main_arg16)) := by
  have e := field_at V mem_S15 (Nat.le_of_ble_eq_true rfl) (Nat.le_of_ble_eq_true rfl)
  generalize after ops V = W at e ⊢
  exact e

theorem blk16 (V : Valuation τ sig (Elt F)) :
    after ops V (Proc.devRef .tc main_v203) = stanzaVal ![0, 16] slices_S16384x26_S16384x1_0_16 (V (Proc.devRef .tc main_arg0)) (V (Proc.devRef .tc main_arg17)) := by
  have e := field_at V mem_S16 (Nat.le_of_ble_eq_true rfl) (Nat.le_of_ble_eq_true rfl)
  generalize after ops V = W at e ⊢
  exact e

theorem blk17 (V : Valuation τ sig (Elt F)) :
    after ops V (Proc.devRef .tc main_v215) = stanzaVal ![0, 17] slices_S16384x26_S16384x1_0_17 (V (Proc.devRef .tc main_arg0)) (V (Proc.devRef .tc main_arg18)) := by
  have e := field_at V mem_S17 (Nat.le_of_ble_eq_true rfl) (Nat.le_of_ble_eq_true rfl)
  generalize after ops V = W at e ⊢
  exact e

theorem blk18 (V : Valuation τ sig (Elt F)) :
    after ops V (Proc.devRef .tc main_v227) = stanzaVal ![0, 18] slices_S16384x26_S16384x1_0_18 (V (Proc.devRef .tc main_arg0)) (V (Proc.devRef .tc main_arg19)) := by
  have e := field_at V mem_S18 (Nat.le_of_ble_eq_true rfl) (Nat.le_of_ble_eq_true rfl)
  generalize after ops V = W at e ⊢
  exact e

theorem blk19 (V : Valuation τ sig (Elt F)) :
    after ops V (Proc.devRef .tc main_v239) = stanzaVal ![0, 19] slices_S16384x26_S16384x1_0_19 (V (Proc.devRef .tc main_arg0)) (V (Proc.devRef .tc main_arg20)) := by
  have e := field_at V mem_S19 (Nat.le_of_ble_eq_true rfl) (Nat.le_of_ble_eq_true rfl)
  generalize after ops V = W at e ⊢
  exact e

theorem blk20 (V : Valuation τ sig (Elt F)) :
    after ops V (Proc.devRef .tc main_v251) = stanzaVal ![0, 20] slices_S16384x26_S16384x1_0_20 (V (Proc.devRef .tc main_arg0)) (V (Proc.devRef .tc main_arg21)) := by
  have e := field_at V mem_S20 (Nat.le_of_ble_eq_true rfl) (Nat.le_of_ble_eq_true rfl)
  generalize after ops V = W at e ⊢
  exact e

theorem blk21 (V : Valuation τ sig (Elt F)) :
    after ops V (Proc.devRef .tc main_v263) = stanzaVal ![0, 21] slices_S16384x26_S16384x1_0_21 (V (Proc.devRef .tc main_arg0)) (V (Proc.devRef .tc main_arg22)) := by
  have e := field_at V mem_S21 (Nat.le_of_ble_eq_true rfl) (Nat.le_of_ble_eq_true rfl)
  generalize after ops V = W at e ⊢
  exact e

theorem blk22 (V : Valuation τ sig (Elt F)) :
    after ops V (Proc.devRef .tc main_v275) = stanzaVal ![0, 22] slices_S16384x26_S16384x1_0_22 (V (Proc.devRef .tc main_arg0)) (V (Proc.devRef .tc main_arg23)) := by
  have e := field_at V mem_S22 (Nat.le_of_ble_eq_true rfl) (Nat.le_of_ble_eq_true rfl)
  generalize after ops V = W at e ⊢
  exact e

theorem blk23 (V : Valuation τ sig (Elt F)) :
    after ops V (Proc.devRef .tc main_v287) = stanzaVal ![0, 23] slices_S16384x26_S16384x1_0_23 (V (Proc.devRef .tc main_arg0)) (V (Proc.devRef .tc main_arg24)) := by
  have e := field_at V mem_S23 (Nat.le_of_ble_eq_true rfl) (Nat.le_of_ble_eq_true rfl)
  generalize after ops V = W at e ⊢
  exact e

theorem blk24 (V : Valuation τ sig (Elt F)) :
    after ops V (Proc.devRef .tc main_v299) = stanzaVal ![0, 24] slices_S16384x26_S16384x1_0_24 (V (Proc.devRef .tc main_arg0)) (V (Proc.devRef .tc main_arg25)) := by
  have e := field_at V mem_S24 (Nat.le_of_ble_eq_true rfl) (Nat.le_of_ble_eq_true rfl)
  generalize after ops V = W at e ⊢
  exact e

theorem blk25 (V : Valuation τ sig (Elt F)) :
    after ops V (Proc.devRef .tc main_v311) = stanzaVal ![0, 25] slices_S16384x26_S16384x1_0_25 (V (Proc.devRef .tc main_arg0)) (V (Proc.devRef .tc main_arg26)) := by
  have e := field_at V mem_S25 (Nat.le_of_ble_eq_true rfl) (Nat.le_of_ble_eq_true rfl)
  generalize after ops V = W at e ⊢
  exact e

theorem cat16_eq (V : Valuation τ sig (Elt F)) :
    after ops V (Proc.devRef .tc main_v312) = concatenate S16384x2048 1
      [⟨S16384x128, after ops V (Proc.devRef .tc main_v11)⟩, ⟨S16384x128, after ops V (Proc.devRef .tc main_v23)⟩, ⟨S16384x128, after ops V (Proc.devRef .tc main_v35)⟩, ⟨S16384x128, after ops V (Proc.devRef .tc main_v47)⟩, ⟨S16384x128, after ops V (Proc.devRef .tc main_v59)⟩, ⟨S16384x128, after ops V (Proc.devRef .tc main_v71)⟩, ⟨S16384x128, after ops V (Proc.devRef .tc main_v83)⟩, ⟨S16384x128, after ops V (Proc.devRef .tc main_v95)⟩, ⟨S16384x128, after ops V (Proc.devRef .tc main_v107)⟩, ⟨S16384x128, after ops V (Proc.devRef .tc main_v119)⟩, ⟨S16384x128, after ops V (Proc.devRef .tc main_v131)⟩, ⟨S16384x128, after ops V (Proc.devRef .tc main_v143)⟩, ⟨S16384x128, after ops V (Proc.devRef .tc main_v155)⟩, ⟨S16384x128, after ops V (Proc.devRef .tc main_v167)⟩, ⟨S16384x128, after ops V (Proc.devRef .tc main_v179)⟩, ⟨S16384x128, after ops V (Proc.devRef .tc main_v191)⟩]
      concatenates_S16384x128_S16384x128_S16384x128_S16384x128_S16384x128_S16384x128_S16384x128_S16384x128_S16384x128_S16384x128_S16384x128_S16384x128_S16384x128_S16384x128_S16384x128_S16384x128_S16384x2048_d1 := by
  have e := (ops_numbered (F := F)).fix V _ (mem_tail (List.mem_cons_self ..)) (Proc.devRef .tc main_v312) (by rw [nary_writes]; exact Finset.mem_singleton_self _)
  rw [nary_result] at e
  exact e

theorem cat10_eq (V : Valuation τ sig (Elt F)) :
    after ops V (Proc.devRef .tc main_v313) = concatenate S16384x1280 1
      [⟨S16384x128, after ops V (Proc.devRef .tc main_v203)⟩, ⟨S16384x128, after ops V (Proc.devRef .tc main_v215)⟩, ⟨S16384x128, after ops V (Proc.devRef .tc main_v227)⟩, ⟨S16384x128, after ops V (Proc.devRef .tc main_v239)⟩, ⟨S16384x128, after ops V (Proc.devRef .tc main_v251)⟩, ⟨S16384x128, after ops V (Proc.devRef .tc main_v263)⟩, ⟨S16384x128, after ops V (Proc.devRef .tc main_v275)⟩, ⟨S16384x128, after ops V (Proc.devRef .tc main_v287)⟩, ⟨S16384x128, after ops V (Proc.devRef .tc main_v299)⟩, ⟨S16384x128, after ops V (Proc.devRef .tc main_v311)⟩]
      concatenates_S16384x128_S16384x128_S16384x128_S16384x128_S16384x128_S16384x128_S16384x128_S16384x128_S16384x128_S16384x128_S16384x1280_d1 := by
  have e := (ops_numbered (F := F)).fix V _ (mem_tail (List.mem_cons_of_mem _ (List.mem_cons_self ..))) (Proc.devRef .tc main_v313) (by rw [nary_writes]; exact Finset.mem_singleton_self _)
  rw [nary_result] at e
  exact e

theorem cat2_eq (V : Valuation τ sig (Elt F)) :
    after ops V (Proc.devRef .tc main_v314) = concatenate S16384x3328 1 [⟨S16384x2048, after ops V (Proc.devRef .tc main_v312)⟩, ⟨S16384x1280, after ops V (Proc.devRef .tc main_v313)⟩]
      concatenates_S16384x2048_S16384x1280_S16384x3328_d1 := by
  have e := (ops_numbered (F := F)).fix V _ (mem_tail (List.mem_cons_of_mem _ (List.mem_cons_of_mem _ (List.mem_cons_self ..)))) (Proc.devRef .tc main_v314) (by rw [binary_writes]; exact Finset.mem_singleton_self _)
  rw [binary_result] at e
  exact e

/-- The reference's result as a function of the row numbers and the 26 tables: the 26 fields' blocks side by side. -/
def refOut (x : (⟨S16384x26, .i32⟩ : BufTy).Contents (Elt F)) (Wt : Fin 26 → (⟨S128x128, .f32⟩ : BufTy).Contents (Elt F)) : (⟨S16384x3328, .f32⟩ : BufTy).Contents (Elt F) :=
  concatenate S16384x3328 1
    [⟨S16384x2048, concatenate S16384x2048 1
        [⟨S16384x128, stanzaVal ![0, 0] slices_S16384x26_S16384x1_0_0 x (Wt 0)⟩,
         ⟨S16384x128, stanzaVal ![0, 1] slices_S16384x26_S16384x1_0_1 x (Wt 1)⟩,
         ⟨S16384x128, stanzaVal ![0, 2] slices_S16384x26_S16384x1_0_2 x (Wt 2)⟩,
         ⟨S16384x128, stanzaVal ![0, 3] slices_S16384x26_S16384x1_0_3 x (Wt 3)⟩,
         ⟨S16384x128, stanzaVal ![0, 4] slices_S16384x26_S16384x1_0_4 x (Wt 4)⟩,
         ⟨S16384x128, stanzaVal ![0, 5] slices_S16384x26_S16384x1_0_5 x (Wt 5)⟩,
         ⟨S16384x128, stanzaVal ![0, 6] slices_S16384x26_S16384x1_0_6 x (Wt 6)⟩,
         ⟨S16384x128, stanzaVal ![0, 7] slices_S16384x26_S16384x1_0_7 x (Wt 7)⟩,
         ⟨S16384x128, stanzaVal ![0, 8] slices_S16384x26_S16384x1_0_8 x (Wt 8)⟩,
         ⟨S16384x128, stanzaVal ![0, 9] slices_S16384x26_S16384x1_0_9 x (Wt 9)⟩,
         ⟨S16384x128, stanzaVal ![0, 10] slices_S16384x26_S16384x1_0_10 x (Wt 10)⟩,
         ⟨S16384x128, stanzaVal ![0, 11] slices_S16384x26_S16384x1_0_11 x (Wt 11)⟩,
         ⟨S16384x128, stanzaVal ![0, 12] slices_S16384x26_S16384x1_0_12 x (Wt 12)⟩,
         ⟨S16384x128, stanzaVal ![0, 13] slices_S16384x26_S16384x1_0_13 x (Wt 13)⟩,
         ⟨S16384x128, stanzaVal ![0, 14] slices_S16384x26_S16384x1_0_14 x (Wt 14)⟩,
         ⟨S16384x128, stanzaVal ![0, 15] slices_S16384x26_S16384x1_0_15 x (Wt 15)⟩]
        concatenates_S16384x128_S16384x128_S16384x128_S16384x128_S16384x128_S16384x128_S16384x128_S16384x128_S16384x128_S16384x128_S16384x128_S16384x128_S16384x128_S16384x128_S16384x128_S16384x128_S16384x2048_d1⟩,
     ⟨S16384x1280, concatenate S16384x1280 1
        [⟨S16384x128, stanzaVal ![0, 16] slices_S16384x26_S16384x1_0_16 x (Wt 16)⟩,
         ⟨S16384x128, stanzaVal ![0, 17] slices_S16384x26_S16384x1_0_17 x (Wt 17)⟩,
         ⟨S16384x128, stanzaVal ![0, 18] slices_S16384x26_S16384x1_0_18 x (Wt 18)⟩,
         ⟨S16384x128, stanzaVal ![0, 19] slices_S16384x26_S16384x1_0_19 x (Wt 19)⟩,
         ⟨S16384x128, stanzaVal ![0, 20] slices_S16384x26_S16384x1_0_20 x (Wt 20)⟩,
         ⟨S16384x128, stanzaVal ![0, 21] slices_S16384x26_S16384x1_0_21 x (Wt 21)⟩,
         ⟨S16384x128, stanzaVal ![0, 22] slices_S16384x26_S16384x1_0_22 x (Wt 22)⟩,
         ⟨S16384x128, stanzaVal ![0, 23] slices_S16384x26_S16384x1_0_23 x (Wt 23)⟩,
         ⟨S16384x128, stanzaVal ![0, 24] slices_S16384x26_S16384x1_0_24 x (Wt 24)⟩,
         ⟨S16384x128, stanzaVal ![0, 25] slices_S16384x26_S16384x1_0_25 x (Wt 25)⟩]
        concatenates_S16384x128_S16384x128_S16384x128_S16384x128_S16384x128_S16384x128_S16384x128_S16384x128_S16384x128_S16384x128_S16384x1280_d1⟩]
    concatenates_S16384x2048_S16384x1280_S16384x3328_d1

/-- After the whole line the result buffer holds the 26 blocks side by side. -/
theorem out_val (V : Valuation τ sig (Elt F)) :
    after ops V (Proc.devRef .tc main_v314)
      = refOut (V (Proc.devRef .tc main_arg0)) ![V (Proc.devRef .tc main_arg1), V (Proc.devRef .tc main_arg2), V (Proc.devRef .tc main_arg3), V (Proc.devRef .tc main_arg4), V (Proc.devRef .tc main_arg5), V (Proc.devRef .tc main_arg6), V (Proc.devRef .tc main_arg7), V (Proc.devRef .tc main_arg8), V (Proc.devRef .tc main_arg9), V (Proc.devRef .tc main_arg10), V (Proc.devRef .tc main_arg11), V (Proc.devRef .tc main_arg12), V (Proc.devRef .tc main_arg13), V (Proc.devRef .tc main_arg14), V (Proc.devRef .tc main_arg15), V (Proc.devRef .tc main_arg16), V (Proc.devRef .tc main_arg17), V (Proc.devRef .tc main_arg18), V (Proc.devRef .tc main_arg19), V (Proc.devRef .tc main_arg20), V (Proc.devRef .tc main_arg21), V (Proc.devRef .tc main_arg22), V (Proc.devRef .tc main_arg23), V (Proc.devRef .tc main_arg24), V (Proc.devRef .tc main_arg25), V (Proc.devRef .tc main_arg26)] := by
  rw [cat2_eq, cat16_eq, cat10_eq, blk0, blk1, blk2, blk3, blk4, blk5, blk6, blk7, blk8, blk9, blk10, blk11, blk12, blk13, blk14, blk15, blk16, blk17, blk18, blk19, blk20, blk21, blk22, blk23, blk24, blk25]
  rfl

end Final

end Cert.Proof.Ref

end
-- ==== Proof.RefFrame.lean ====
/-
  The reference's run, stated over the launch memory.

  From any memory with zero counters every execution of the reference terminates; on every device the result buffer
  then holds `refOut` of the launch's row numbers and its 26 tables, and each of the 27 arguments holds what it held
  at launch.
-/
import proofs.«207321_g10943576670982_fold_wed_m_632_36_alg».proof.Proof.RefRun
import proofs.«207321_g10943576670982_fold_wed_m_632_36_alg».proof.Proof.Spec

noncomputable section

namespace Cert.Proof.Ref

open Idealize.ShloMosaic Idealize.SL.Sem Idealize.ShloMosaic.StableHlo
open Cert.ReferenceIdeal Cert.ReferenceIdeal.Facts₀ Cert.ReferenceIdeal.Facts

variable [Cert.ReferenceIdeal.Facts]

/-- The 26 tables of a device at launch, by field. -/
def Wtab (m : (ℓ : Loc nD τ sig) → Buf (Elt Ideal) ℓ) (c : Dev nD) : Fin 26 → Spec.SW.Idx → EReal :=
  ![m ((c.tc : Thread nD τ).loc main_arg1),
    m ((c.tc : Thread nD τ).loc main_arg2),
    m ((c.tc : Thread nD τ).loc main_arg3),
    m ((c.tc : Thread nD τ).loc main_arg4),
    m ((c.tc : Thread nD τ).loc main_arg5),
    m ((c.tc : Thread nD τ).loc main_arg6),
    m ((c.tc : Thread nD τ).loc main_arg7),
    m ((c.tc : Thread nD τ).loc main_arg8),
    m ((c.tc : Thread nD τ).loc main_arg9),
    m ((c.tc : Thread nD τ).loc main_arg10),
    m ((c.tc : Thread nD τ).loc main_arg11),
    m ((c.tc : Thread nD τ).loc main_arg12),
    m ((c.tc : Thread nD τ).loc main_arg13),
    m ((c.tc : Thread nD τ).loc main_arg14),
    m ((c.tc : Thread nD τ).loc main_arg15),
    m ((c.tc : Thread nD τ).loc main_arg16),
    m ((c.tc : Thread nD τ).loc main_arg17),
    m ((c.tc : Thread nD τ).loc main_arg18),
    m ((c.tc : Thread nD τ).loc main_arg19),
    m ((c.tc : Thread nD τ).loc main_arg20),
    m ((c.tc : Thread nD τ).loc main_arg21),
    m ((c.tc : Thread nD τ).loc main_arg22),
    m ((c.tc : Thread nD τ).loc main_arg23),
    m ((c.tc : Thread nD τ).loc main_arg24),
    m ((c.tc : Thread nD τ).loc main_arg25),
    m ((c.tc : Thread nD τ).loc main_arg26)]

theorem Wtab_0 (m : (ℓ : Loc nD τ sig) → Buf (Elt Ideal) ℓ) (c : Dev nD) :
    Wtab m c (0 : Fin 26) = m ((c.tc : Thread nD τ).loc main_arg1) := rfl
theorem Wtab_1 (m : (ℓ : Loc nD τ sig) → Buf (Elt Ideal) ℓ) (c : Dev nD) :
    Wtab m c (1 : Fin 26) = m ((c.tc : Thread nD τ).loc main_arg2) := rfl
theorem Wtab_2 (m : (ℓ : Loc nD τ sig) → Buf (Elt Ideal) ℓ) (c : Dev nD) :
    Wtab m c (2 : Fin 26) = m ((c.tc : Thread nD τ).loc main_arg3) := rfl
theorem Wtab_3 (m : (ℓ : Loc nD τ sig) → Buf (Elt Ideal) ℓ) (c : Dev nD) :
    Wtab m c (3 : Fin 26) = m ((c.tc : Thread nD τ).loc main_arg4) := rfl
theorem Wtab_4 (m : (ℓ : Loc nD τ sig) → Buf (Elt Ideal) ℓ) (c : Dev nD) :
    Wtab m c (4 : Fin 26) = m ((c.tc : Thread nD τ).loc main_arg5) := rfl
theorem Wtab_5 (m : (ℓ : Loc nD τ sig) → Buf (Elt Ideal) ℓ) (c : Dev nD) :
    Wtab m c (5 : Fin 26) = m ((c.tc : Thread nD τ).loc main_arg6) := rfl
theorem Wtab_6 (m : (ℓ : Loc nD τ sig) → Buf (Elt Ideal) ℓ) (c : Dev nD) :
    Wtab m c (6 : Fin 26) = m ((c.tc : Thread nD τ).loc main_arg7) := rfl
theorem Wtab_7 (m : (ℓ : Loc nD τ sig) → Buf (Elt Ideal) ℓ) (c : Dev nD) :
    Wtab m c (7 : Fin 26) = m ((c.tc : Thread nD τ).loc main_arg8) := rfl
theorem Wtab_8 (m : (ℓ : Loc nD τ sig) → Buf (Elt Ideal) ℓ) (c : Dev nD) :
    Wtab m c (8 : Fin 26) = m ((c.tc : Thread nD τ).loc main_arg9) := rfl
theorem Wtab_9 (m : (ℓ : Loc nD τ sig) → Buf (Elt Ideal) ℓ) (c : Dev nD) :
    Wtab m c (9 : Fin 26) = m ((c.tc : Thread nD τ).loc main_arg10) := rfl
theorem Wtab_10 (m : (ℓ : Loc nD τ sig) → Buf (Elt Ideal) ℓ) (c : Dev nD) :
    Wtab m c (10 : Fin 26) = m ((c.tc : Thread nD τ).loc main_arg11) := rfl
theorem Wtab_11 (m : (ℓ : Loc nD τ sig) → Buf (Elt Ideal) ℓ) (c : Dev nD) :
    Wtab m c (11 : Fin 26) = m ((c.tc : Thread nD τ).loc main_arg12) := rfl
theorem Wtab_12 (m : (ℓ : Loc nD τ sig) → Buf (Elt Ideal) ℓ) (c : Dev nD) :
    Wtab m c (12 : Fin 26) = m ((c.tc : Thread nD τ).loc main_arg13) := rfl
theorem Wtab_13 (m : (ℓ : Loc nD τ sig) → Buf (Elt Ideal) ℓ) (c : Dev nD) :
    Wtab m c (13 : Fin 26) = m ((c.tc : Thread nD τ).loc main_arg14) := rfl
theorem Wtab_14 (m : (ℓ : Loc nD τ sig) → Buf (Elt Ideal) ℓ) (c : Dev nD) :
    Wtab m c (14 : Fin 26) = m ((c.tc : Thread nD τ).loc main_arg15) := rfl
theorem Wtab_15 (m : (ℓ : Loc nD τ sig) → Buf (Elt Ideal) ℓ) (c : Dev nD) :
    Wtab m c (15 : Fin 26) = m ((c.tc : Thread nD τ).loc main_arg16) := rfl
theorem Wtab_16 (m : (ℓ : Loc nD τ sig) → Buf (Elt Ideal) ℓ) (c : Dev nD) :
    Wtab m c (16 : Fin 26) = m ((c.tc : Thread nD τ).loc main_arg17) := rfl
theorem Wtab_17 (m : (ℓ : Loc nD τ sig) → Buf (Elt Ideal) ℓ) (c : Dev nD) :
    Wtab m c (17 : Fin 26) = m ((c.tc : Thread nD τ).loc main_arg18) := rfl
theorem Wtab_18 (m : (ℓ : Loc nD τ sig) → Buf (Elt Ideal) ℓ) (c : Dev nD) :
    Wtab m c (18 : Fin 26) = m ((c.tc : Thread nD τ).loc main_arg19) := rfl
theorem Wtab_19 (m : (ℓ : Loc nD τ sig) → Buf (Elt Ideal) ℓ) (c : Dev nD) :
    Wtab m c (19 : Fin 26) = m ((c.tc : Thread nD τ).loc main_arg20) := rfl
theorem Wtab_20 (m : (ℓ : Loc nD τ sig) → Buf (Elt Ideal) ℓ) (c : Dev nD) :
    Wtab m c (20 : Fin 26) = m ((c.tc : Thread nD τ).loc main_arg21) := rfl
theorem Wtab_21 (m : (ℓ : Loc nD τ sig) → Buf (Elt Ideal) ℓ) (c : Dev nD) :
    Wtab m c (21 : Fin 26) = m ((c.tc : Thread nD τ).loc main_arg22) := rfl
theorem Wtab_22 (m : (ℓ : Loc nD τ sig) → Buf (Elt Ideal) ℓ) (c : Dev nD) :
    Wtab m c (22 : Fin 26) = m ((c.tc : Thread nD τ).loc main_arg23) := rfl
theorem Wtab_23 (m : (ℓ : Loc nD τ sig) → Buf (Elt Ideal) ℓ) (c : Dev nD) :
    Wtab m c (23 : Fin 26) = m ((c.tc : Thread nD τ).loc main_arg24) := rfl
theorem Wtab_24 (m : (ℓ : Loc nD τ sig) → Buf (Elt Ideal) ℓ) (c : Dev nD) :
    Wtab m c (24 : Fin 26) = m ((c.tc : Thread nD τ).loc main_arg25) := rfl
theorem Wtab_25 (m : (ℓ : Loc nD τ sig) → Buf (Elt Ideal) ℓ) (c : Dev nD) :
    Wtab m c (25 : Fin 26) = m ((c.tc : Thread nD τ).loc main_arg26) := rfl

/-- The run with the result as an explicit function of the arguments, and the arguments unchanged. -/
theorem run_out (m : (ℓ : Loc nD τ sig) → Buf (Elt Ideal) ℓ) (ρ : Dev nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev nD,
        r.2.mem ((c.tc : Thread nD τ).loc main_v314) = refOut (m ((c.tc : Thread nD τ).loc main_arg0)) (Wtab m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)
        ∧ r.2.mem ((c.tc : Thread nD τ).loc main_arg18) = m ((c.tc : Thread nD τ).loc main_arg18)
        ∧ r.2.mem ((c.tc : Thread nD τ).loc main_arg19) = m ((c.tc : Thread nD τ).loc main_arg19)
        ∧ r.2.mem ((c.tc : Thread nD τ).loc main_arg20) = m ((c.tc : Thread nD τ).loc main_arg20)
        ∧ r.2.mem ((c.tc : Thread nD τ).loc main_arg21) = m ((c.tc : Thread nD τ).loc main_arg21)
        ∧ r.2.mem ((c.tc : Thread nD τ).loc main_arg22) = m ((c.tc : Thread nD τ).loc main_arg22)
        ∧ r.2.mem ((c.tc : Thread nD τ).loc main_arg23) = m ((c.tc : Thread nD τ).loc main_arg23)
        ∧ r.2.mem ((c.tc : Thread nD τ).loc main_arg24) = m ((c.tc : Thread nD τ).loc main_arg24)
        ∧ r.2.mem ((c.tc : Thread nD τ).loc main_arg25) = m ((c.tc : Thread nD τ).loc main_arg25)
        ∧ r.2.mem ((c.tc : Thread nD τ).loc main_arg26) = m ((c.tc : Thread nD τ).loc main_arg26)) :=
  (θ_run _ _ _).mono (fun r h c =>
    ⟨(h c main_v314).trans (out_val (launchContents m c)),
      (h c main_arg0).trans (arg_keep _ main_arg0 (by decide)),
      (h c main_arg1).trans (arg_keep _ main_arg1 (by decide)),
      (h c main_arg2).trans (arg_keep _ main_arg2 (by decide)),
      (h c main_arg3).trans (arg_keep _ main_arg3 (by decide)),
      (h c main_arg4).trans (arg_keep _ main_arg4 (by decide)),
      (h c main_arg5).trans (arg_keep _ main_arg5 (by decide)),
      (h c main_arg6).trans (arg_keep _ main_arg6 (by decide)),
      (h c main_arg7).trans (arg_keep _ main_arg7 (by decide)),
      (h c main_arg8).trans (arg_keep _ main_arg8 (by decide)),
      (h c main_arg9).trans (arg_keep _ main_arg9 (by decide)),
      (h c main_arg10).trans (arg_keep _ main_arg10 (by decide)),
      (h c main_arg11).trans (arg_keep _ main_arg11 (by decide)),
      (h c main_arg12).trans (arg_keep _ main_arg12 (by decide)),
      (h c main_arg13).trans (arg_keep _ main_arg13 (by decide)),
      (h c main_arg14).trans (arg_keep _ main_arg14 (by decide)),
      (h c main_arg15).trans (arg_keep _ main_arg15 (by decide)),
      (h c main_arg16).trans (arg_keep _ main_arg16 (by decide)),
      (h c main_arg17).trans (arg_keep _ main_arg17 (by decide)),
      (h c main_arg18).trans (arg_keep _ main_arg18 (by decide)),
      (h c main_arg19).trans (arg_keep _ main_arg19 (by decide)),
      (h c main_arg20).trans (arg_keep _ main_arg20 (by decide)),
      (h c main_arg21).trans (arg_keep _ main_arg21 (by decide)),
      (h c main_arg22).trans (arg_keep _ main_arg22 (by decide)),
      (h c main_arg23).trans (arg_keep _ main_arg23 (by decide)),
      (h c main_arg24).trans (arg_keep _ main_arg24 (by decide)),
      (h c main_arg25).trans (arg_keep _ main_arg25 (by decide)),
      (h c main_arg26).trans (arg_keep _ main_arg26 (by decide))⟩)
    (run_ops m ρ)

end Cert.Proof.Ref

end
-- ==== Proof.RefScale.lean ====
/-
  The rescaling of one field read at an index, over the extended reals.

  The norm column at row `b` is the square root of the sum over the lanes of the squares of row `b` (the host's
  sum starts from the zero word, which denotes zero).  The rescaled block at `(b, v)` is the row's entry times the
  smaller of one and one over the norm bounded below by the small constant.
-/
import proofs.«207321_g10943576670982_fold_wed_m_632_36_alg».proof.Proof.RefVal
import proofs.«207321_g10943576670982_fold_wed_m_632_36_alg».proof.Proof.LibColLayout
import proofs.«207321_g10943576670982_fold_wed_m_632_36_alg».proof.Proof.Spec
import Idealize.ShloMosaic.Lib.IdealHost
import Idealize.ShloMosaic.PureOps.Ideal.Laws

noncomputable section

namespace Cert.Proof.Ref

open Idealize.ShloMosaic Idealize.ShloMosaic.ValueIdx Idealize.SL.Sem Idealize.ShloMosaic.StableHlo
open Cert.ReferenceIdeal Cert.ReferenceIdeal.Facts₀ Cert.ReferenceIdeal.Facts Cert.ColLayout
open scoped BigOperators

variable [Cert.ReferenceIdeal.Facts]

theorem reduces_lanes : S16384x128.Reduces [1] S16384 := by decide

/-- The host's square root at an index. -/
theorem hostSqrt_apply {s : Shape} {φ : FTy} (x : FVec Ideal s φ) (i : s.Idx) : Host.sqrt x i = Ideal.sqrt (x i) := rfl

/-- The norm of row `b`. -/
theorem normVal_apply (r : FVec Ideal S16384x128 .f32) (b : Fin 16384) (u : Fin 1) :
    normVal (F := Ideal) r (ix2 b u) = Ideal.sqrt (∑ k : Fin 128, r (ix2 b k) * r (ix2 b k)) := by
  unfold normVal
  rw [hostSqrt_apply, bcast_a_a1_apply _ ![0] rfl _ b u, hostReduceAdd_apply,
    Ideal.hostReduceAdd_single _ reduces_lanes, constant_apply, Ideal.ofBits_zero_f32, zero_add]
  have hidx : ∀ k : Fin 128, reduces_lanes.lift (ix1 b) k = ix2 b k := fun k => by
    funext a
    match a with
    | ⟨0, _⟩ => rfl
    | ⟨1, _⟩ => rfl
  show Ideal.sqrt (∑ k : Fin 128, mulf r r (reduces_lanes.lift (ix1 b) k)) = _
  refine congrArg Ideal.sqrt (Finset.sum_congr rfl fun k _ => ?_)
  rw [hidx k, mulf_apply]

/-- The rescaled block at `(b, v)`. -/
theorem scaleVal_apply (r : FVec Ideal S16384x128 .f32) (b : Fin 16384) (v : Fin 128) :
    scaleVal (F := Ideal) r (ix2 b v) = Spec.scaleRow (fun k => r (ix2 b k)) v := by
  unfold scaleVal Spec.scaleRow Spec.rowFactor
  rw [mulf_apply, bcast_a1_ab_apply _ ![0, 1] rfl rfl _ b v, minimumf_apply, hostDivf_apply, maximumf_apply,
    normVal_apply, bcast_scalar_apply, bcast_scalar_apply]
  rfl

end Cert.Proof.Ref

end
-- ==== Proof.LibEdgeOps.lean ====
/-
  Two more host operations read at an index, for any sizes; no program is mentioned.

  ROW GATHER.  `x[idx]` for a table of rows `x : [M, C]` and a column of start indices `idx : [N, 1]` (offset axis 1 of the
  result, operand axis 0 collapsed, the one index component sent to operand axis 0, slices of one whole row):
  result element `(e, c)` is the table's element in column `c` of the row `idx[e,0]`, the word read as a SIGNED integer
  and clamped into `[0, M − 1]` (`gather_apply`).

  FLAT SCATTER-ADD.  `operand.at[idx].add(updates)` for a flat operand `[G]`, a column of index words `idx : [N, 1]` and
  flat updates `[N]` (no update window axis, inserted window axis 0, the one index component sent to operand axis
  0): update element `n` lands on operand element `idx[n,0]` when the word, read signed, names an element of the
  operand, and is dropped otherwise.  At the extended reals the result at `g` is therefore the operand's element plus
  the sum over ALL `n` of `updates[n]` when `idx[n,0] = g` and of `0` otherwise (`scatterAdd_apply`).
-/
import Idealize.ShloMosaic.PureOps.Ideal
import Idealize.ShloMosaic.PureOps.Ideal.Laws
import Idealize.ShloMosaic.Lib.ValueIdx

noncomputable section

open scoped BigOperators

namespace Cert.Lib.RowGather

open Idealize.ShloMosaic Idealize.ShloMosaic.ValueIdx

variable {α : Type} {M N C : Nat}

/-- The dimension numbers of `x[idx]` for a table of rows `x : [M, C]` and a column of start indices `idx : [N, 1]`. -/
abbrev dims (M N C : Nat)
    (wf : GatherDims.WF ⟨2, ![M, C]⟩ ⟨2, ![N, 1]⟩ ⟨2, ![N, C]⟩ [1] [0] [] [0] [] 1 ![1, C]) :
    GatherDims ⟨2, ![M, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- THE GATHER OF ROWS READ AT `(e, c)`: column `c` of the table's row `idx[e, 0]`, read signed and clamped into
    `[0, M − 1]`. -/
theorem gather_apply {w : Nat} (hM : 0 < M)
    (wf : GatherDims.WF ⟨2, ![M, C]⟩ ⟨2, ![N, 1]⟩ ⟨2, ![N, C]⟩ [1] [0] [] [0] [] 1 ![1, C])
    (x : (⟨2, ![M, C]⟩ : Shape).Idx → α) (idx : IVec ⟨2, ![N, 1]⟩ w) (e : Fin N) (c : Fin C) :
    Host.gather (dims M N C wf) x idx (ix2 e c)
      = x (ix2 ⟨min (idx (ix2 e (0 : Fin 1))).toInt.toNat (M - 1), by omega⟩ c) := by
  unfold Host.gather
  congr 1
  funext a
  refine Fin.ext ?_
  match a with
  | ⟨0, _⟩ =>
    show (dims M N C wf).start (ix2 e c) idx 0 + (dims M N C wf).batchCoord (ix2 e c) 0
      + (dims M N C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (dims M N C wf).startIndexMap from List.mem_singleton.mpr rfl)]
    have hsi : (dims M N C wf).siIdx (ix2 e c) ⟨List.idxOf (0 : Fin 2) (dims M N C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (dims M N C wf).start (ix2 e c) idx 1 + (dims M N C wf).batchCoord (ix2 e c) 1
      + (dims M N C wf).offCoord (ix2 e c) 1 = c.val
    rw [GatherDims.batchCoord_eq_zero _ _ _ List.not_mem_nil]
    have hs : (dims M N C wf).start (ix2 e c) idx 1 = 0 := by
      unfold GatherDims.start
      rw [dif_neg (show ¬ (1 : Fin 2) ∈ (dims M N C wf).startIndexMap from
        show ¬ (1 : Fin 2) ∈ ([0] : List (Fin 2)) from by decide)]
    have ho : (dims M N C wf).offCoord (ix2 e c) 1 = c.val := by
      unfold GatherDims.offCoord
      rw [dif_pos ((GatherDims.mem_sKept _ _).mpr
        ⟨show ¬ (1 : Fin 2) ∈ ([0] : List (Fin 2)) from by decide, List.not_mem_nil⟩)]
      rfl
    rw [hs, ho]; omega

end Cert.Lib.RowGather

namespace Cert.Lib.FlatScatter

open Idealize.ShloMosaic Idealize.ShloMosaic.ValueIdx

variable {G N : Nat}

/-- The dimension numbers of `operand.at[idx].add(updates)` for a flat operand `[G]`, an index column `[N, 1]` and
    flat updates `[N]`. -/
abbrev dims (G N : Nat) (wf : ScatterDims.WF ⟨1, ![G]⟩ ⟨2, ![N, 1]⟩ ⟨1, ![N]⟩ [] [0] [0] 1) :
    ScatterDims ⟨1, ![G]⟩ ⟨2, ![N, 1]⟩ ⟨1, ![N]⟩ where
  updateWindowDims := []
  insertedWindowDims := [0]
  scatterDimsToOperandDims := [0]
  indexVectorDim := 1
  wf := wf

/-- The index word update element `j` reads: row `j` of the index column. -/
abbrev colIdx (j : (⟨1, ![N]⟩ : Shape).Idx) : (⟨2, ![N, 1]⟩ : Shape).Idx :=
  fun a => match a with | ⟨0, _⟩ => j 0 | ⟨1, _⟩ => ⟨0, Nat.one_pos⟩

variable (wf : ScatterDims.WF ⟨1, ![G]⟩ ⟨2, ![N, 1]⟩ ⟨1, ![N]⟩ [] [0] [0] 1)

theorem start_zero {w : Nat} (j : (⟨1, ![N]⟩ : Shape).Idx) (idx : IVec ⟨2, ![N, 1]⟩ w) :
    (dims G N wf).start j idx (0 : Fin 1) = (idx (colIdx j)).toInt := by
  unfold ScatterDims.start
  rw [dif_pos (show (0 : Fin 1) ∈ (dims G N wf).scatterDimsToOperandDims from List.mem_singleton.mpr rfl)]
  have hsi : (dims G N wf).siIdx j ⟨List.idxOf (0 : Fin 1) (dims G N wf).scatterDimsToOperandDims,
      List.idxOf_lt_length_iff.2 (List.mem_singleton.mpr rfl)⟩ = colIdx j := by
    funext b; refine Fin.ext ?_
    match b with
    | ⟨0, _⟩ => rfl
    | ⟨1, _⟩ => rfl
  rw [hsi]

theorem window_zero (j : (⟨1, ![N]⟩ : Shape).Idx) : (dims G N wf).window j (0 : Fin 1) = 0 := by
  unfold ScatterDims.window
  rw [dif_neg (show ¬ (0 : Fin 1) ∈ (dims G N wf).sKept from
    show ¬ (0 : Fin 1) ∈ (List.finRange 1).filter (fun a : Fin 1 => a ∉ ([0] : List (Fin 1))) from by decide)]

/-- An update element lands on operand element `g` exactly when its index word, read signed, is `g`. -/
theorem resultIdx?_eq_some_iff {w : Nat} (j : (⟨1, ![N]⟩ : Shape).Idx) (idx : IVec ⟨2, ![N, 1]⟩ w) (g : Fin G) :
    (dims G N wf).resultIdx? j idx = some (ix1 g) ↔ (idx (colIdx j)).toInt = (g.val : Int) := by
  have h0 : (dims G N wf).start j idx (0 : Fin 1) + ((dims G N wf).window j (0 : Fin 1) : Int) = (idx (colIdx j)).toInt := by
    rw [start_zero, window_zero]; simp
  unfold ScatterDims.resultIdx?
  split
  · next h =>
    constructor
    · intro e
      have e' := Option.some.inj e
      have e0 : ((dims G N wf).start j idx (0 : Fin 1) + ((dims G N wf).window j (0 : Fin 1) : Int)).toNat = g.val :=
        congrArg (fun f : (⟨1, ![G]⟩ : Shape).Idx => (f (0 : Fin 1)).val) e'
      have p0 := (h (0 : Fin 1)).1
      rw [h0] at e0 p0
      omega
    · intro e0
      refine congrArg some (funext fun a => Fin.ext ?_)
      match a with
      | ⟨0, _⟩ =>
        show ((dims G N wf).start j idx (0 : Fin 1) + ((dims G N wf).window j (0 : Fin 1) : Int)).toNat = g.val
        rw [h0, e0]; omega
  · next h =>
    constructor
    · intro e; exact absurd e.symm (Option.some_ne_none _)
    · intro e0
      refine absurd (fun a => ?_) h
      match a with
      | ⟨0, _⟩ =>
        show 0 ≤ (dims G N wf).start j idx (0 : Fin 1) + ((dims G N wf).window j (0 : Fin 1) : Int) ∧
          (dims G N wf).start j idx (0 : Fin 1) + ((dims G N wf).window j (0 : Fin 1) : Int) < ((G : Nat) : Int)
        rw [h0, e0]; have := g.isLt; omega

theorem colIdx_ix1 (n : Fin N) : colIdx (ix1 n) = ix2 n (0 : Fin 1) := by
  funext a; match a with | ⟨0, _⟩ => rfl | ⟨1, _⟩ => rfl

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {A : Type*} [AddCommMonoid A] {n : Nat} (f : (⟨1, ![n]⟩ : Shape).Idx → A) :
    ∑ i, f i = ∑ a : Fin n, f (ix1 a) := by
  rw [← Equiv.sum_comp (idxEquiv1 (n := n)).symm f]
  rfl

/-- THE FLAT SCATTER-ADD READ AT `g`: the operand's element plus the sum, over ALL update elements, of the element
    when its index word, read signed, is `g`. -/
theorem scatterAdd_apply {φ : FTy} (x0 : FVec Ideal ⟨1, ![G]⟩ φ) (idx : IVec ⟨2, ![N, 1]⟩ 32) (upd : FVec Ideal ⟨1, ![N]⟩ φ)
    (g : Fin G) :
    Host.scatterAdd (F := Ideal) (dims G N wf) x0 idx upd (ix1 g)
      = x0 (ix1 g) + ∑ n : Fin N, if (idx (ix2 n (0 : Fin 1))).toInt = (g.val : Int) then upd (ix1 n) else 0 := by
  show Ideal.hostScatterAdd (dims G N wf) x0 idx upd (ix1 g) = _
  unfold Ideal.hostScatterAdd
  congr 1
  rw [Finset.sum_filter, sum_idx1]
  refine Finset.sum_congr rfl fun n _ => ?_
  exact if_congr (by rw [resultIdx?_eq_some_iff, colIdx_ix1]) rfl rfl

end Cert.Lib.FlatScatter

end
-- ==== Proof.RefTake.lean ====
/-
  The lookup of one field read at an index.

  Under the hypothesis that every row number, read unsigned, is below 128: no row number is negative, so the
  wrap-around leaves it as it is; every row number lies in the table, so the validity mask is true everywhere and no
  row of NaNs is chosen; and the gather's clamp of the row number into the table is the identity.  The lookup at
  `(b, v)` is then lane `v` of the table's row numbered by entry `b`.
-/
import proofs.«207321_g10943576670982_fold_wed_m_632_36_alg».proof.Proof.RefVal
import proofs.«207321_g10943576670982_fold_wed_m_632_36_alg».proof.Proof.LibColLayout
import proofs.«207321_g10943576670982_fold_wed_m_632_36_alg».proof.Proof.LibEdgeOps
import Idealize.ShloMosaic.Lib.Pipeline.Value
import Idealize.ShloMosaic.Lib.ValueLayout
import Idealize.ShloMosaic.PureOps.Reduce

noncomputable section

namespace Cert.Proof.Ref

open Idealize.ShloMosaic Idealize.ShloMosaic.ValueIdx Idealize.SL.Sem Idealize.ShloMosaic.StableHlo
open Cert.ReferenceIdeal Cert.ReferenceIdeal.Facts₀ Cert.ReferenceIdeal.Facts Cert.ColLayout

variable [Cert.ReferenceIdeal.Facts]

/-- A word below 128 read signed is the word read unsigned. -/
theorem small_toInt (a : BitVec 32) (h : a.toNat < 128) : a.toInt = (a.toNat : Int) := by
  rw [BitVec.toInt_eq_toNat_cond]
  split
  · rfl
  · omega

theorem cmpi_slt_small (a : BitVec 32) (h : a.toNat < 128) : IntOp.cmpi .slt a 0#32 = 0#1 := by
  have e : a.slt 0#32 = false := by
    rw [BitVec.slt, decide_eq_false_iff_not, small_toInt a h, BitVec.toInt_zero]
    omega
  show BitVec.ofBool (a.slt 0#32) = 0#1
  rw [e]
  rfl

theorem cmpi_sge_small (a : BitVec 32) (h : a.toNat < 128) : IntOp.cmpi .sge a 0#32 = 1#1 := by
  have e : (0#32).sle a = true := by
    rw [BitVec.sle, decide_eq_true_iff, small_toInt a h, BitVec.toInt_zero]
    omega
  show BitVec.ofBool ((0#32).sle a) = 1#1
  rw [e]
  rfl

theorem cmpi_sle_small (a : BitVec 32) (h : a.toNat < 128) : IntOp.cmpi .sle a 127#32 = 1#1 := by
  have e : a.sle 127#32 = true := by
    rw [BitVec.sle, decide_eq_true_iff, small_toInt a h, show (127#32 : BitVec 32).toInt = 127 by decide]
    omega
  show BitVec.ofBool (a.sle 127#32) = 1#1
  rw [e]
  rfl

/-- The gather's clamp of a row number below 128 into a table of 128 rows is the row number. -/
theorem small_row (a : BitVec 32) (h : a.toNat < 128) : min a.toInt.toNat (128 - 1) = a.toNat := by
  rw [small_toInt a h]
  omega

/-- The column of row numbers holds the row numbers: none is negative, so none is moved. -/
theorem takeCol_apply (i : IVec S16384 32) (hi : ∀ b : Fin 16384, (i (ix1 b)).toNat < 128) (b : Fin 16384) (u : Fin 1) :
    takeCol (F := Ideal) i (ix2 b u) = i (ix1 b) := by
  unfold takeCol
  rw [bcast_a_a1_apply _ ![0] rfl _ b u, select_apply]
  show Scalar.select (IntOp.cmpi .slt (i (ix1 b)) 0#32) _ _ = _
  rw [cmpi_slt_small _ (hi b), select_zero]

theorem reduces_col : S16384x1.Reduces [1] S16384 := by decide

/-- A fold over a one-element index set is the operation applied once. -/
theorem fold_fin_one (op : BitVec 1 → BitVec 1 → BitVec 1) [Std.Commutative op] [Std.Associative op] (c : BitVec 1)
    (g : Fin 1 → BitVec 1) : (Finset.univ : Finset (Fin 1)).fold op c g = op (g 0) c := by
  rw [Finset.univ_unique, Finset.fold_singleton]
  rfl

/-- The validity mask is true everywhere. -/
theorem takeOk_apply (col : IVec S16384x1 32) (hc : ∀ (b : Fin 16384) (u : Fin 1), (col (ix2 b u)).toNat < 128)
    (b : Fin 16384) (v : Fin 128) : takeOk (F := Ideal) col (ix2 b v) = 1#1 := by
  unfold takeOk
  rw [broadcastInDim_apply ![0] _ _ (ix2 b v) (ix1 b) (fun a => by match a with | ⟨0, _⟩ => rfl),
    Host.reduce_eq_fold_single IntOp.andi _ _ reducesTo_S16384x1_S16384_d1 reduces_col h_S_ (ix1 b)]
  have hidx : reduces_col.lift (ix1 b) (0 : Fin 1) = ix2 b (0 : Fin 1) := by
    funext a
    match a with
    | ⟨0, _⟩ => rfl
    | ⟨1, _⟩ => rfl
  refine (fold_fin_one IntOp.andi _ _).trans ?_
  show IntOp.andi (IntOp.andi (IntOp.cmpi .sge (col (reduces_col.lift (ix1 b) (0 : Fin 1))) 0#32)
    (IntOp.cmpi .sle (col (reduces_col.lift (ix1 b) (0 : Fin 1))) 127#32)) 1#1 = 1#1
  rw [hidx, cmpi_sge_small _ (hc b 0), cmpi_sle_small _ (hc b 0)]
  rfl

/-- The lookup at `(b, v)`: lane `v` of the table's row numbered by entry `b`. -/
theorem takeVal_apply (w : FVec Ideal S128x128 .f32) (i : IVec S16384 32)
    (hi : ∀ b : Fin 16384, (i (ix1 b)).toNat < 128) (b : Fin 16384) (v : Fin 128) :
    takeVal (F := Ideal) w i (ix2 b v) = w (ix2 ⟨(i (ix1 b)).toNat, hi b⟩ v) := by
  unfold takeVal
  rw [select_apply, takeOk_apply _ (fun b u => by rw [takeCol_apply i hi]; exact hi b) b v, select_one]
  show Host.gather (Cert.Lib.RowGather.dims 128 16384 128 gather_S128x128_S16384x1_S16384x128_1_0_n_n_0_1_1128_wf) w
    (takeCol (F := Ideal) i) (ix2 b v) = _
  rw [Cert.Lib.RowGather.gather_apply (by decide)]
  refine congrArg w (congrArg (fun r => ix2 r v) (Fin.ext ?_))
  show min (takeCol (F := Ideal) i (ix2 b (0 : Fin 1))).toInt.toNat (128 - 1) = (i (ix1 b)).toNat
  rw [takeCol_apply i hi]
  exact small_row _ (hi b)

end Cert.Proof.Ref

end
-- ==== Proof.RefValue.lean ====
/-
  The reference computes the specification.

  Block `f` of the result at `(b, v)` is lane `v` of row `x[b, f]` of table `f`, rescaled: the field's column of the
  row numbers at `b` is `x[b, f]`, the lookup returns that row of the table, and the rescaling is the specification's.
  The result lays the 26 blocks of 128 lanes side by side, sixteen and ten and then the two together, so column `q`
  of the result is lane `q mod 128` of block `q / 128`.
-/
import proofs.«207321_g10943576670982_fold_wed_m_632_36_alg».proof.Proof.RefFrame
import proofs.«207321_g10943576670982_fold_wed_m_632_36_alg».proof.Proof.RefScale
import proofs.«207321_g10943576670982_fold_wed_m_632_36_alg».proof.Proof.RefTake

noncomputable section

namespace Cert.Proof.Ref

open Idealize.ShloMosaic Idealize.ShloMosaic.ValueIdx Idealize.SL.Sem Idealize.ShloMosaic.StableHlo
open Cert.ReferenceIdeal Cert.ReferenceIdeal.Facts₀ Cert.ReferenceIdeal.Facts Cert.ColLayout

variable [Cert.ReferenceIdeal.Facts]

/-- Every field's column can be cut out of the row numbers. -/
theorem slicesOf : ∀ n : Fin 26, S16384x26.Slices ![0, n.val] S16384x1 := by decide

/-- Block `f` of the result. -/
def blockOf (x : IVec S16384x26 32) (Wt : Fin 26 → FVec Ideal S128x128 .f32) (f : Fin 26) : FVec Ideal S16384x128 .f32 :=
  stanzaVal (F := Ideal) ![0, f.val] (slicesOf f) x (Wt f)

/-- The field's column of the row numbers, flattened, at `b`. -/
theorem fieldCol_apply (x : IVec S16384x26 32) (f : Fin 26) (b : Fin 16384) :
    shapeCast S16384 (extractStridedSlice S16384x1 ![0, f.val] x (slicesOf f)) shapeCasts_S16384x1_S16384 (ix1 b)
      = x (ix2 b f) := by
  rw [shapeCast_apply _ _ (ix1 b) (ix2 b (0 : Fin 1)) (by
    rw [Shape.rowMajor_val_two, Shape.rowMajor_val_one]
    show b.val * 1 + 0 = b.val
    omega)]
  exact slice2_axis1_apply f.val x (slicesOf f) b 0 f (by simp)

/-- Block `f` at `(b, v)`. -/
theorem blockOf_apply (x : IVec S16384x26 32) (Wt : Fin 26 → FVec Ideal S128x128 .f32)
    (hx : ∀ j : S16384x26.Idx, (x j).toNat < 128) (f : Fin 26) (b : Fin 16384) (v : Fin 128) :
    blockOf x Wt f (ix2 b v) = Spec.scaleRow (fun k => Wt f (ix2 (Spec.rowOf x b f) k)) v := by
  unfold blockOf stanzaVal
  rw [scaleVal_apply]
  refine congrArg (fun w => Spec.scaleRow w v) (funext fun k => ?_)
  rw [takeVal_apply _ _ (fun b' => by rw [fieldCol_apply]; exact hx _) b k]
  refine congrArg (Wt f) (congrArg (fun r => ix2 r k) (Fin.ext ?_))
  show (shapeCast S16384 (extractStridedSlice S16384x1 ![0, f.val] x (slicesOf f)) shapeCasts_S16384x1_S16384 (ix1 b)).toNat
    = (x (ix2 b f)).toNat % 128
  rw [fieldCol_apply, Nat.mod_eq_of_lt (hx _)]

theorem blockOf_congr (x : IVec S16384x26 32) (Wt : Fin 26 → FVec Ideal S128x128 .f32) {f f' : Fin 26} (hf : f = f')
    {i i' : S16384x128.Idx} (hi : i = i') : blockOf x Wt f i = blockOf x Wt f' i' := by
  subst hf
  subst hi
  rfl

/-- Fields 0 … 15 side by side: column `p` is lane `p mod 128` of block `p / 128`. -/
theorem cat16_apply (x : IVec S16384x26 32) (Wt : Fin 26 → FVec Ideal S128x128 .f32) (b : Fin 16384) (p : Fin 2048) :
    concatenate S16384x2048 1
      [⟨S16384x128, stanzaVal (F := Ideal) ![0, 0] slices_S16384x26_S16384x1_0_0 x (Wt 0)⟩,
       ⟨S16384x128, stanzaVal (F := Ideal) ![0, 1] slices_S16384x26_S16384x1_0_1 x (Wt 1)⟩,
       ⟨S16384x128, stanzaVal (F := Ideal) ![0, 2] slices_S16384x26_S16384x1_0_2 x (Wt 2)⟩,
       ⟨S16384x128, stanzaVal (F := Ideal) ![0, 3] slices_S16384x26_S16384x1_0_3 x (Wt 3)⟩,
       ⟨S16384x128, stanzaVal (F := Ideal) ![0, 4] slices_S16384x26_S16384x1_0_4 x (Wt 4)⟩,
       ⟨S16384x128, stanzaVal (F := Ideal) ![0, 5] slices_S16384x26_S16384x1_0_5 x (Wt 5)⟩,
       ⟨S16384x128, stanzaVal (F := Ideal) ![0, 6] slices_S16384x26_S16384x1_0_6 x (Wt 6)⟩,
       ⟨S16384x128, stanzaVal (F := Ideal) ![0, 7] slices_S16384x26_S16384x1_0_7 x (Wt 7)⟩,
       ⟨S16384x128, stanzaVal (F := Ideal) ![0, 8] slices_S16384x26_S16384x1_0_8 x (Wt 8)⟩,
       ⟨S16384x128, stanzaVal (F := Ideal) ![0, 9] slices_S16384x26_S16384x1_0_9 x (Wt 9)⟩,
       ⟨S16384x128, stanzaVal (F := Ideal) ![0, 10] slices_S16384x26_S16384x1_0_10 x (Wt 10)⟩,
       ⟨S16384x128, stanzaVal (F := Ideal) ![0, 11] slices_S16384x26_S16384x1_0_11 x (Wt 11)⟩,
       ⟨S16384x128, stanzaVal (F := Ideal) ![0, 12] slices_S16384x26_S16384x1_0_12 x (Wt 12)⟩,
       ⟨S16384x128, stanzaVal (F := Ideal) ![0, 13] slices_S16384x26_S16384x1_0_13 x (Wt 13)⟩,
       ⟨S16384x128, stanzaVal (F := Ideal) ![0, 14] slices_S16384x26_S16384x1_0_14 x (Wt 14)⟩,
       ⟨S16384x128, stanzaVal (F := Ideal) ![0, 15] slices_S16384x26_S16384x1_0_15 x (Wt 15)⟩]
      concatenates_S16384x128_S16384x128_S16384x128_S16384x128_S16384x128_S16384x128_S16384x128_S16384x128_S16384x128_S16384x128_S16384x128_S16384x128_S16384x128_S16384x128_S16384x128_S16384x128_S16384x2048_d1 (ix2 b p)
      = blockOf x Wt ⟨p.val / 128, by have := p.isLt; omega⟩ (ix2 b ⟨p.val % 128, Nat.mod_lt _ (by norm_num)⟩) :=
  concatenate_ofFn_apply (t := S16384x2048) (s₁ := S16384x128) 1
    (fun n : Fin 16 => blockOf x Wt ⟨n.val, by have := n.isLt; omega⟩)
    concatenates_S16384x128_S16384x128_S16384x128_S16384x128_S16384x128_S16384x128_S16384x128_S16384x128_S16384x128_S16384x128_S16384x128_S16384x128_S16384x128_S16384x128_S16384x128_S16384x128_S16384x2048_d1 rfl 128 rfl (ix2 b p) ⟨p.val / 128, by have := p.isLt; omega⟩ rfl
    (ix2 b ⟨p.val % 128, Nat.mod_lt _ (by norm_num)⟩) rfl
    (fun a ha => by
      match a with
      | ⟨0, _⟩ => rfl
      | ⟨1, _⟩ => exact absurd rfl ha)

/-- Fields 16 … 25 side by side. -/
theorem cat10_apply (x : IVec S16384x26 32) (Wt : Fin 26 → FVec Ideal S128x128 .f32) (b : Fin 16384) (p : Fin 1280) :
    concatenate S16384x1280 1
      [⟨S16384x128, stanzaVal (F := Ideal) ![0, 16] slices_S16384x26_S16384x1_0_16 x (Wt 16)⟩,
       ⟨S16384x128, stanzaVal (F := Ideal) ![0, 17] slices_S16384x26_S16384x1_0_17 x (Wt 17)⟩,
       ⟨S16384x128, stanzaVal (F := Ideal) ![0, 18] slices_S16384x26_S16384x1_0_18 x (Wt 18)⟩,
       ⟨S16384x128, stanzaVal (F := Ideal) ![0, 19] slices_S16384x26_S16384x1_0_19 x (Wt 19)⟩,
       ⟨S16384x128, stanzaVal (F := Ideal) ![0, 20] slices_S16384x26_S16384x1_0_20 x (Wt 20)⟩,
       ⟨S16384x128, stanzaVal (F := Ideal) ![0, 21] slices_S16384x26_S16384x1_0_21 x (Wt 21)⟩,
       ⟨S16384x128, stanzaVal (F := Ideal) ![0, 22] slices_S16384x26_S16384x1_0_22 x (Wt 22)⟩,
       ⟨S16384x128, stanzaVal (F := Ideal) ![0, 23] slices_S16384x26_S16384x1_0_23 x (Wt 23)⟩,
       ⟨S16384x128, stanzaVal (F := Ideal) ![0, 24] slices_S16384x26_S16384x1_0_24 x (Wt 24)⟩,
       ⟨S16384x128, stanzaVal (F := Ideal) ![0, 25] slices_S16384x26_S16384x1_0_25 x (Wt 25)⟩]
      concatenates_S16384x128_S16384x128_S16384x128_S16384x128_S16384x128_S16384x128_S16384x128_S16384x128_S16384x128_S16384x128_S16384x1280_d1 (ix2 b p)
      = blockOf x Wt ⟨16 + p.val / 128, by have := p.isLt; omega⟩ (ix2 b ⟨p.val % 128, Nat.mod_lt _ (by norm_num)⟩) :=
  concatenate_ofFn_apply (t := S16384x1280) (s₁ := S16384x128) 1
    (fun n : Fin 10 => blockOf x Wt ⟨16 + n.val, by have := n.isLt; omega⟩)
    concatenates_S16384x128_S16384x128_S16384x128_S16384x128_S16384x128_S16384x128_S16384x128_S16384x128_S16384x128_S16384x128_S16384x1280_d1 rfl 128 rfl (ix2 b p) ⟨p.val / 128, by have := p.isLt; omega⟩ rfl
    (ix2 b ⟨p.val % 128, Nat.mod_lt _ (by norm_num)⟩) rfl
    (fun a ha => by
      match a with
      | ⟨0, _⟩ => rfl
      | ⟨1, _⟩ => exact absurd rfl ha)

/-- The result at `(b, q)`: lane `q mod 128` of block `q / 128`. -/
theorem refOut_apply (x : IVec S16384x26 32) (Wt : Fin 26 → FVec Ideal S128x128 .f32) (b : Fin 16384) (q : Fin 3328) :
    refOut (F := Ideal) x Wt (ix2 b q) = blockOf x Wt (Spec.fieldOf q) (ix2 b (Spec.laneOf q)) := by
  unfold refOut
  by_cases hq : q.val < 2048
  · refine (concatenate_pair_apply_left (t := S16384x3328) (s₁ := S16384x2048) (s₂ := S16384x1280) 1 _ _ _ (ix2 b q) rfl (ix2 b (⟨q.val, hq⟩ : Fin 2048)) (fun a => by
      match a with
      | ⟨0, _⟩ => rfl
      | ⟨1, _⟩ => rfl)).trans ?_
    refine (cat16_apply x Wt b ⟨q.val, hq⟩).trans ?_
    exact blockOf_congr x Wt (Fin.ext rfl) rfl
  · have hq' : q.val - 2048 < 1280 := by have := q.isLt; omega
    refine (concatenate_pair_apply_right (t := S16384x3328) (s₁ := S16384x2048) (s₂ := S16384x1280) 1 _ _ _ (ix2 b q) rfl rfl (ix2 b (⟨q.val - 2048, hq'⟩ : Fin 1280)) (fun a ha => by
      match a with
      | ⟨0, _⟩ => rfl
      | ⟨1, _⟩ => exact absurd rfl ha) (by
        show q.val - 2048 + 2048 = q.val
        omega)).trans ?_
    refine (cat10_apply x Wt b ⟨q.val - 2048, hq'⟩).trans ?_
    refine blockOf_congr x Wt (Fin.ext ?_) (congrArg (ix2 b) (Fin.ext ?_))
    · show 16 + (q.val - 2048) / 128 = q.val / 128
      omega
    · show (q.val - 2048) % 128 = q.val % 128
      omega

/-- The reference's result is the specification's, when every row number read unsigned is below 128. -/
theorem refOut_eq_G (x : IVec S16384x26 32) (Wt : Fin 26 → FVec Ideal S128x128 .f32)
    (hx : ∀ j : S16384x26.Idx, (x j).toNat < 128) : refOut (F := Ideal) x Wt = Spec.G x Wt := by
  funext j
  obtain ⟨b, q, rfl⟩ : ∃ (b : Fin 16384) (q : Fin 3328), j = ix2 b q := ⟨j 0, j 1, eq_ix2 j⟩
  rw [refOut_apply, blockOf_apply x Wt hx, Spec.G_apply]

/-- THE REFERENCE'S RUN: from any memory with zero counters whose row numbers, read unsigned, are below 128, every
    execution terminates; on every device the result buffer holds the specification's function of the launch's row
    numbers and tables, and every argument holds what it held at launch. -/
theorem run (m : (ℓ : Loc Cert.ReferenceIdeal.nD Cert.ReferenceIdeal.τ Cert.ReferenceIdeal.sig) → Buf (Elt Ideal) ℓ)
    (ρ : Dev Cert.ReferenceIdeal.nD → PrngReg)
    (hx : ∀ (c : Dev Cert.ReferenceIdeal.nD) (j : Cert.ReferenceIdeal.S16384x26.Idx),
      (m ((c.tc : Thread nD τ).loc main_arg0) j).toNat < 128) :
    θ_run (Cert.ReferenceIdeal.defs (F := Ideal)) (onTc (τ := Cert.ReferenceIdeal.τ) (Cert.ReferenceIdeal.main (F := Ideal))) ⟨m, fun _ => 0, ρ⟩
      (fun r => ∀ c : Dev nD,
        r.2.mem ((c.tc : Thread nD τ).loc main_v314) = Spec.G (m ((c.tc : Thread nD τ).loc main_arg0)) (Wtab m c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)
        ∧ r.2.mem ((c.tc : Thread nD τ).loc main_arg18) = m ((c.tc : Thread nD τ).loc main_arg18)
        ∧ r.2.mem ((c.tc : Thread nD τ).loc main_arg19) = m ((c.tc : Thread nD τ).loc main_arg19)
        ∧ r.2.mem ((c.tc : Thread nD τ).loc main_arg20) = m ((c.tc : Thread nD τ).loc main_arg20)
        ∧ r.2.mem ((c.tc : Thread nD τ).loc main_arg21) = m ((c.tc : Thread nD τ).loc main_arg21)
        ∧ r.2.mem ((c.tc : Thread nD τ).loc main_arg22) = m ((c.tc : Thread nD τ).loc main_arg22)
        ∧ r.2.mem ((c.tc : Thread nD τ).loc main_arg23) = m ((c.tc : Thread nD τ).loc main_arg23)
        ∧ r.2.mem ((c.tc : Thread nD τ).loc main_arg24) = m ((c.tc : Thread nD τ).loc main_arg24)
        ∧ r.2.mem ((c.tc : Thread nD τ).loc main_arg25) = m ((c.tc : Thread nD τ).loc main_arg25)
        ∧ r.2.mem ((c.tc : Thread nD τ).loc main_arg26) = m ((c.tc : Thread nD τ).loc main_arg26)) :=
  (θ_run _ _ _).mono (fun r h c => ⟨(h c).1.trans (refOut_eq_G _ _ (hx c)), (h c).2⟩) (run_out m ρ)

end Cert.Proof.Ref

end
-- ==== Proof.Pre.lean ====
/-
  What the precondition says about the row numbers: every word of `x`, compared signed against 0 and 127, lies in
  [0, 127], so read as a natural number it is below 128.  (The precondition's other conjuncts, the finiteness of the
  26 tables, are not needed: both programs apply one and the same function to a row, at whatever it holds.)
-/
import proofs.«207321_g10943576670982_fold_wed_m_632_36_alg».proof.Pre_input_domain
import proofs.«207321_g10943576670982_fold_wed_m_632_36_alg».proof.Proof.Gen.Pre_input_domain
import Idealize.ShloMosaic.Lib.ReduceAll
import Idealize.ShloMosaic.Lib.ValueIdx
import Idealize.ShloMosaic.Lib.Affine

noncomputable section

namespace Cert.Proof.Pre

open Idealize.ShloMosaic Cert.Pre_input_domain

instance : Subsingleton Cert.Pre_input_domain.S_.Idx := ⟨fun a b => funext fun d => d.elim0⟩

/-- A word that is at least 0 and at most 127 as a signed number is below 128 as a natural number. -/
theorem word_lt (v : BitVec 32) (e : IntOp.andi (IntOp.cmpi .sge v 0#32) (IntOp.cmpi .sle v 127#32) = 1#1) : v.toNat < 128 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

variable {F : FTy → Type} [FloatOps F] [Cert.Pre_input_domain.Facts]

/-- Under the precondition every row number is below 128. -/
theorem x_lt (a0 : IVec S16384x26 32) (a1 : FVec F S128x128 .f32) (a2 : FVec F S128x128 .f32) (a3 : FVec F S128x128 .f32) (a4 : FVec F S128x128 .f32) (a5 : FVec F S128x128 .f32) (a6 : FVec F S128x128 .f32) (a7 : FVec F S128x128 .f32) (a8 : FVec F S128x128 .f32) (a9 : FVec F S128x128 .f32) (a10 : FVec F S128x128 .f32) (a11 : FVec F S128x128 .f32) (a12 : FVec F S128x128 .f32) (a13 : FVec F S128x128 .f32) (a14 : FVec F S128x128 .f32) (a15 : FVec F S128x128 .f32) (a16 : FVec F S128x128 .f32) (a17 : FVec F S128x128 .f32) (a18 : FVec F S128x128 .f32) (a19 : FVec F S128x128 .f32) (a20 : FVec F S128x128 .f32) (a21 : FVec F S128x128 .f32) (a22 : FVec F S128x128 .f32) (a23 : FVec F S128x128 .f32) (a24 : FVec F S128x128 .f32) (a25 : FVec F S128x128 .f32) (a26 : FVec F S128x128 .f32)
    (h : fn (F := F) a0 a1 a2 a3 a4 a5 a6 a7 a8 a9 a10 a11 a12 a13 a14 a15 a16 a17 a18 a19 a20 a21 a22 a23 a24 a25 a26 = fun _ => 1#1) (j : S16384x26.Idx) : (a0 j).toNat < 128 := by
  have e := congrFun h ValueIdx.ix0
  dsimp only [fn, fn_part1, fn_part2, fn_part3, fn_part4, fn_part5, fn_part6, fn_part7] at e
  have e2 := (IntOp.andi_eq_one.mp e).2
  have e3 := Host.reduce_andi_all _ _ _ _ _ e2 j
  simp only [andi, cmpi, broadcastInDim, constantI] at e3
  exact word_lt _ e3

end Cert.Proof.Pre

end
-- ==== Proof.Claims.lean ====
/-
  The claims, from the runs.

  Under the precondition every row number lies in [0, 127].  The idealized kernel then ends with the arguments as
  launched and the result holding, at (b, 128 f + v), lane v of row x[b, f] + 128 f of the rescaled table; the
  reference ends with the rescaled row x[b, f] of table f there.  Rescaling is the same function of a row on both
  sides, so the two results are one function of the arguments: gathering a row and rescaling it commute.
-/
import proofs.«207321_g10943576670982_fold_wed_m_632_36_alg».proof.Proof.RunI
import proofs.«207321_g10943576670982_fold_wed_m_632_36_alg».proof.Proof.RunB
import proofs.«207321_g10943576670982_fold_wed_m_632_36_alg».proof.Proof.ValueI
import proofs.«207321_g10943576670982_fold_wed_m_632_36_alg».proof.Proof.RefValue
import proofs.«207321_g10943576670982_fold_wed_m_632_36_alg».proof.Proof.Pre
import proofs.«207321_g10943576670982_fold_wed_m_632_36_alg».proof.Proof.Gen.ReferenceIdeal

noncomputable section

namespace Cert.Proof.Claims

open Idealize.ShloMosaic Idealize.SL.Sem
open Cert.Proof

/-- The row numbers of the idealized kernel's launch memory are below 128. -/
theorem hx_KI (m : (ℓ : Loc Cert.KernelIdeal.nD Cert.KernelIdeal.τ Cert.KernelIdeal.sig) → Buf (Elt Ideal) ℓ) (h : Cert.Pre_KernelIdeal m)
    (d : Dev Cert.KernelIdeal.nD) (j : Cert.KernelIdeal.S16384x26.Idx) :
    (m ((SparseCore.T d).loc Cert.KernelIdeal.main_arg0) j : BitVec 32).toNat < 128 :=
  Pre.x_lt (F := Ideal) _ _ _ _ _ _ _ _ _ _ _ _ _ _ _ _ _ _ _ _ _ _ _ _ _ _ _ (h d) j

/-- The same of the word-level kernel's. -/
theorem hx_KB (m : (ℓ : Loc Cert.Kernel.nD Cert.Kernel.τ Cert.Kernel.sig) → Buf (Elt Bits) ℓ) (h : Cert.Pre_Kernel m)
    (d : Dev Cert.Kernel.nD) (j : Cert.Kernel.S16384x26.Idx) :
    (m ((SparseCore.T d).loc Cert.Kernel.main_arg0) j : BitVec 32).toNat < 128 :=
  Pre.x_lt (F := Bits) _ _ _ _ _ _ _ _ _ _ _ _ _ _ _ _ _ _ _ _ _ _ _ _ _ _ _ (h d) j

/-- The same of the reference's. -/
theorem hx_RI (m : (ℓ : Loc Cert.ReferenceIdeal.nD Cert.ReferenceIdeal.τ Cert.ReferenceIdeal.sig) → Buf (Elt Ideal) ℓ) (h : Cert.Pre_ReferenceIdeal m)
    (c : Dev Cert.ReferenceIdeal.nD) (j : Cert.ReferenceIdeal.S16384x26.Idx) :
    (m ((c.tc : Thread _ _).loc Cert.ReferenceIdeal.main_arg0) j : BitVec 32).toNat < 128 :=
  Pre.x_lt (F := Ideal) _ _ _ _ _ _ _ _ _ _ _ _ _ _ _ _ _ _ _ _ _ _ _ _ _ _ _ (h c) j

theorem frame_KI (hbody : KI.TileBody (F := Ideal) KI.UU) : Cert.frame_KernelIdeal := fun m ρ hpre =>
  (θ_run Cert.KernelIdeal.defs _ _).mono (fun _ h c => (h c).2) (KI.run_main (F := Ideal) m ρ hbody (hx_KI m hpre))

theorem frame_KB (hbody : KB.TileBody (F := Bits) KB.UU) : Cert.frame_Kernel := fun m ρ hpre =>
  (θ_run Cert.Kernel.defs _ _).mono (fun _ h c => (h c).2) (KB.run_main (F := Bits) m ρ hbody (hx_KB m hpre))

theorem frame_RI : Cert.frame_ReferenceIdeal := fun m ρ _ =>
  (θ_run Cert.ReferenceIdeal.defs _ _).mono (fun _ h c => (h c).2) (Ref.run_out m ρ)

set_option maxHeartbeats 1000000 in
theorem algebraic (hbody : KI.TileBody (F := Ideal) KI.UU) : Cert.algebraic_KernelIdeal_ReferenceIdeal := by
  intro m ρ m' ρ' hpre hagree
  have hx := hx_KI m hpre
  have hx' : ∀ (c : Dev Cert.ReferenceIdeal.nD) (j : Cert.ReferenceIdeal.S16384x26.Idx),
      (m' ((c.tc : Thread _ _).loc Cert.ReferenceIdeal.main_arg0) j : BitVec 32).toNat < 128 := fun c j => by
    rw [(hagree c).1]; exact hx c j
  refine ⟨fun c => KI.gatherOut (F := Ideal) (KI.Xf m c) (KI.Tb m c), KI.run_main (F := Ideal) m ρ hbody hx, ?_⟩
  refine (θ_run Cert.ReferenceIdeal.defs _ _).mono (fun _ h c => ⟨(h c).1.trans ?_, (h c).2⟩) (Ref.run m' ρ' hx')
  have hW : Ref.Wtab m' c = KI.tabOf m c := by
    funext f
    fin_cases f
    · exact (hagree c).2.1
    · exact (hagree c).2.2.1
    · exact (hagree c).2.2.2.1
    · exact (hagree c).2.2.2.2.1
    · exact (hagree c).2.2.2.2.2.1
    · exact (hagree c).2.2.2.2.2.2.1
    · exact (hagree c).2.2.2.2.2.2.2.1
    · exact (hagree c).2.2.2.2.2.2.2.2.1
    · exact (hagree c).2.2.2.2.2.2.2.2.2.1
    · exact (hagree c).2.2.2.2.2.2.2.2.2.2.1
    · exact (hagree c).2.2.2.2.2.2.2.2.2.2.2.1
    · exact (hagree c).2.2.2.2.2.2.2.2.2.2.2.2.1
    · exact (hagree c).2.2.2.2.2.2.2.2.2.2.2.2.2.1
    · exact (hagree c).2.2.2.2.2.2.2.2.2.2.2.2.2.2.1
    · exact (hagree c).2.2.2.2.2.2.2.2.2.2.2.2.2.2.2.1
    · exact (hagree c).2.2.2.2.2.2.2.2.2.2.2.2.2.2.2.2.1
    · exact (hagree c).2.2.2.2.2.2.2.2.2.2.2.2.2.2.2.2.2.1
    · exact (hagree c).2.2.2.2.2.2.2.2.2.2.2.2.2.2.2.2.2.2.1
    · exact (hagree c).2.2.2.2.2.2.2.2.2.2.2.2.2.2.2.2.2.2.2.1
    · exact (hagree c).2.2.2.2.2.2.2.2.2.2.2.2.2.2.2.2.2.2.2.2.1
    · exact (hagree c).2.2.2.2.2.2.2.2.2.2.2.2.2.2.2.2.2.2.2.2.2.1
    · exact (hagree c).2.2.2.2.2.2.2.2.2.2.2.2.2.2.2.2.2.2.2.2.2.2.1
    · exact (hagree c).2.2.2.2.2.2.2.2.2.2.2.2.2.2.2.2.2.2.2.2.2.2.2.1
    · exact (hagree c).2.2.2.2.2.2.2.2.2.2.2.2.2.2.2.2.2.2.2.2.2.2.2.2.1
    · exact (hagree c).2.2.2.2.2.2.2.2.2.2.2.2.2.2.2.2.2.2.2.2.2.2.2.2.2.1
    · exact (hagree c).2.2.2.2.2.2.2.2.2.2.2.2.2.2.2.2.2.2.2.2.2.2.2.2.2.2
  rw [(hagree c).1, hW]
  exact (KI.Val.gather_table_eq _ _ (hx c)).symm

end Cert.Proof.Claims

end
-- ==== Proof.TileI0.lean ====
import proofs.«207321_g10943576670982_fold_wed_m_632_36_alg».proof.Proof.SetupI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
variable {U : Type} [URA U]

local notation "𝕄" => MT nD τ sig (HIx 1) (Elt F) ℕ U ℕ

/-! ## The vector subcore's own cells and buffers, by name -/

section Tile

variable (d : Dev nD) (L : grid1.Coords)

/-- The cell of DMA semaphore `s` on the worker's subcore. -/
abbrev cellOf (d : Dev nD) (L : grid1.Coords) (s : DmaSems sig S_) : GSem nD τ sig := (V d (cV L) (jV L), .dma s.sem)

theorem cellOf_ne {s s' : DmaSems sig S_} (h : (SemLoc.dma s.sem : SemLoc sig) ≠ SemLoc.dma s'.sem) : cellOf d L s ≠ cellOf d L s' :=
  fun e => h (congrArg Prod.snd e)

theorem cellOf_mem (s : DmaSems sig S_) (h : (SemLoc.dma s.sem : SemLoc sig).isScoped .scVector = true) :
    cellOf d L s ∈ ownCells (V d (cV L) (jV L)) := (mem_ownCells (g := cellOf d L s)).mpr ⟨rfl, h⟩

theorem ownSems0_V :
    (ownSems0 (V d (cV L) (jV L)) : sProp 𝕄)
      = iprop(semVal (cellOf d L cc1_scratch9) 0 ∗ semVal (cellOf d L cc1_scratch10) 0 ∗ semVal (cellOf d L cc1_scratch11) 0 ∗ semVal (cellOf d L cc1_scratch12) 0 ∗ semVal (cellOf d L cc1_scratch13) 0 ∗ semVal (cellOf d L cc1_scratch14) 0 ∗ semVal (cellOf d L cc1_scratch15) 0 ∗ semVal (cellOf d L cc1_scratch16) 0 ∗ semVal (cellOf d L cc1_scratch17) 0 ∗ semVal (cellOf d L cc1_scratch18) 0 ∗ semVal (cellOf d L cc1_scratch19) 0 ∗ semVal (cellOf d L cc1_scratch20) 0 ∗ semVal (cellOf d L cc1_scratch21) 0 ∗ semVal (cellOf d L cc1_scratch22) 0 ∗ semVal (cellOf d L cc1_scratch23) 0 ∗ semVal (cellOf d L cc1_scratch24) 0 ∗ semVal (cellOf d L cc1_scoped0) 0
          ∗ bigSep ((((((((((((((((((ownCells (V d (cV L) (jV L))).erase (cellOf d L cc1_scratch9)).erase (cellOf d L cc1_scratch10)).erase (cellOf d L cc1_scratch11)).erase (cellOf d L cc1_scratch12)).erase (cellOf d L cc1_scratch13)).erase (cellOf d L cc1_scratch14)).erase (cellOf d L cc1_scratch15)).erase (cellOf d L cc1_scratch16)).erase (cellOf d L cc1_scratch17)).erase (cellOf d L cc1_scratch18)).erase (cellOf d L cc1_scratch19)).erase (cellOf d L cc1_scratch20)).erase (cellOf d L cc1_scratch21)).erase (cellOf d L cc1_scratch22)).erase (cellOf d L cc1_scratch23)).erase (cellOf d L cc1_scratch24)).erase (cellOf d L cc1_scoped0)) fun g => semVal g 0) := by
  unfold SparseCore.Cfg.ownSems0
  rw [SparseCore.bigSep_erase' (cellOf_mem d L cc1_scratch9 (by decide)),
    SparseCore.bigSep_erase' (Finset.mem_erase.mpr ⟨cellOf_ne d L (by decide), cellOf_mem d L cc1_scratch10 (by decide)⟩),
    SparseCore.bigSep_erase' (Finset.mem_erase.mpr ⟨cellOf_ne d L (by decide), Finset.mem_erase.mpr ⟨cellOf_ne d L (by decide), cellOf_mem d L cc1_scratch11 (by decide)⟩⟩),
    SparseCore.bigSep_erase' (Finset.mem_erase.mpr ⟨cellOf_ne d L (by decide), Finset.mem_erase.mpr ⟨cellOf_ne d L (by decide), Finset.mem_erase.mpr ⟨cellOf_ne d L (by decide), cellOf_mem d L cc1_scratch12 (by decide)⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_mem d L cc1_scratch13 (by decide)⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_mem d L cc1_scratch14 (by decide)⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_mem d L cc1_scratch15 (by decide)⟩⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_mem d L cc1_scratch16 (by decide)⟩⟩⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_mem d L cc1_scratch17 (by decide)⟩⟩⟩⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_mem d L cc1_scratch18 (by decide)⟩⟩⟩⟩⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_mem d L cc1_scratch19 (by decide)⟩⟩⟩⟩⟩⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_mem d L cc1_scratch20 (by decide)⟩⟩⟩⟩⟩⟩⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_mem d L cc1_scratch21 (by decide)⟩⟩⟩⟩⟩⟩⟩⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_mem d L cc1_scratch22 (by decide)⟩⟩⟩⟩⟩⟩⟩⟩⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_mem d L cc1_scratch23 (by decide)⟩⟩⟩⟩⟩⟩⟩⟩⟩⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_mem d L cc1_scratch24 (by decide)⟩⟩⟩⟩⟩⟩⟩⟩⟩⟩⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_mem d L cc1_scoped0 (by decide)⟩⟩⟩⟩⟩⟩⟩⟩⟩⟩⟩⟩⟩⟩⟩⟩)]

theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f) ∗ (∃ f, (V d (cV L) (jV L)).loc cc1_scratch2 ↦{fullShare} f) ∗ (∃ f, (V d (cV L) (jV L)).loc cc1_scratch3 ↦{fullShare} f) ∗ (∃ f, (V d (cV L) (jV L)).loc cc1_scratch4 ↦{fullShare} f) ∗ (∃ f, (V d (cV L) (jV L)).loc cc1_scratch5 ↦{fullShare} f) ∗ (∃ f, (V d (cV L) (jV L)).loc cc1_scratch6 ↦{fullShare} f) ∗ (∃ f, (V d (cV L) (jV L)).loc cc1_scratch7 ↦{fullShare} f) ∗ (∃ f, (V d (cV L) (jV L)).loc cc1_scratch8 ↦{fullShare} f)
          ∗ bigSep ((((((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5)).erase ((Proc.scVector (cV L) (jV L)).devRef cc1_scratch6)).erase ((Proc.scVector (cV L) (jV L)).devRef cc1_scratch7)).erase ((Proc.scVector (cV L) (jV L)).devRef cc1_scratch8))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := (Proc.scVector (cV L) (jV L)).devRef cc1_scratch0) rfl),
    SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector (cV L) (jV L)) (b := (Proc.scVector (cV L) (jV L)).devRef cc1_scratch2) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := Proc.scVector (cV L) (jV L)) (b := (Proc.scVector (cV L) (jV L)).devRef cc1_scratch3) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := Proc.scVector (cV L) (jV L)) (b := (Proc.scVector (cV L) (jV L)).devRef cc1_scratch4) rfl⟩⟩⟩⟩),
    SparseCore.bigSep_erase' (Finset.mem_erase.mpr ⟨fun e => absurd (Proc.devRef_injective _ e) (show (cc1_scratch5 : Ref sig .scVector) ≠ cc1_scratch4 by decide), Finset.mem_erase.mpr ⟨fun e => absurd (Proc.devRef_injective _ e) (show (cc1_scratch5 : Ref sig .scVector) ≠ cc1_scratch3 by decide), Finset.mem_erase.mpr ⟨fun e => absurd (Proc.devRef_injective _ e) (show (cc1_scratch5 : Ref sig .scVector) ≠ cc1_scratch2 by decide), Finset.mem_erase.mpr ⟨fun e => absurd (Proc.devRef_injective _ e) (show (cc1_scratch5 : Ref sig .scVector) ≠ cc1_scratch1 by decide), Finset.mem_erase.mpr ⟨fun e => absurd (Proc.devRef_injective _ e) (show (cc1_scratch5 : Ref sig .scVector) ≠ cc1_scratch0 by decide), SparseCore.Cfg.mem_ownRefs_of_owner (p := Proc.scVector (cV L) (jV L)) (b := (Proc.scVector (cV L) (jV L)).devRef cc1_scratch5) rfl⟩⟩⟩⟩⟩),
    SparseCore.bigSep_erase' (Finset.mem_erase.mpr ⟨fun e => absurd (Proc.devRef_injective _ e) (show (cc1_scratch6 : Ref sig .scVector) ≠ cc1_scratch5 by decide), Finset.mem_erase.mpr ⟨fun e => absurd (Proc.devRef_injective _ e) (show (cc1_scratch6 : Ref sig .scVector) ≠ cc1_scratch4 by decide), Finset.mem_erase.mpr ⟨fun e => absurd (Proc.devRef_injective _ e) (show (cc1_scratch6 : Ref sig .scVector) ≠ cc1_scratch3 by decide), Finset.mem_erase.mpr ⟨fun e => absurd (Proc.devRef_injective _ e) (show (cc1_scratch6 : Ref sig .scVector) ≠ cc1_scratch2 by decide), Finset.mem_erase.mpr ⟨fun e => absurd (Proc.devRef_injective _ e) (show (cc1_scratch6 : Ref sig .scVector) ≠ cc1_scratch1 by decide), Finset.mem_erase.mpr ⟨fun e => absurd (Proc.devRef_injective _ e) (show (cc1_scratch6 : Ref sig .scVector) ≠ cc1_scratch0 by decide), SparseCore.Cfg.mem_ownRefs_of_owner (p := Proc.scVector (cV L) (jV L)) (b := (Proc.scVector (cV L) (jV L)).devRef cc1_scratch6) rfl⟩⟩⟩⟩⟩⟩),
    SparseCore.bigSep_erase' (Finset.mem_erase.mpr ⟨fun e => absurd (Proc.devRef_injective _ e) (show (cc1_scratch7 : Ref sig .scVector) ≠ cc1_scratch6 by decide), Finset.mem_erase.mpr ⟨fun e => absurd (Proc.devRef_injective _ e) (show (cc1_scratch7 : Ref sig .scVector) ≠ cc1_scratch5 by decide), Finset.mem_erase.mpr ⟨fun e => absurd (Proc.devRef_injective _ e) (show (cc1_scratch7 : Ref sig .scVector) ≠ cc1_scratch4 by decide), Finset.mem_erase.mpr ⟨fun e => absurd (Proc.devRef_injective _ e) (show (cc1_scratch7 : Ref sig .scVector) ≠ cc1_scratch3 by decide), Finset.mem_erase.mpr ⟨fun e => absurd (Proc.devRef_injective _ e) (show (cc1_scratch7 : Ref sig .scVector) ≠ cc1_scratch2 by decide), Finset.mem_erase.mpr ⟨fun e => absurd (Proc.devRef_injective _ e) (show (cc1_scratch7 : Ref sig .scVector) ≠ cc1_scratch1 by decide), Finset.mem_erase.mpr ⟨fun e => absurd (Proc.devRef_injective _ e) (show (cc1_scratch7 : Ref sig .scVector) ≠ cc1_scratch0 by decide), SparseCore.Cfg.mem_ownRefs_of_owner (p := Proc.scVector (cV L) (jV L)) (b := (Proc.scVector (cV L) (jV L)).devRef cc1_scratch7) rfl⟩⟩⟩⟩⟩⟩⟩),
    SparseCore.bigSep_erase' (Finset.mem_erase.mpr ⟨fun e => absurd (Proc.devRef_injective _ e) (show (cc1_scratch8 : Ref sig .scVector) ≠ cc1_scratch7 by decide), Finset.mem_erase.mpr ⟨fun e => absurd (Proc.devRef_injective _ e) (show (cc1_scratch8 : Ref sig .scVector) ≠ cc1_scratch6 by decide), Finset.mem_erase.mpr ⟨fun e => absurd (Proc.devRef_injective _ e) (show (cc1_scratch8 : Ref sig .scVector) ≠ cc1_scratch5 by decide), Finset.mem_erase.mpr ⟨fun e => absurd (Proc.devRef_injective _ e) (show (cc1_scratch8 : Ref sig .scVector) ≠ cc1_scratch4 by decide), Finset.mem_erase.mpr ⟨fun e => absurd (Proc.devRef_injective _ e) (show (cc1_scratch8 : Ref sig .scVector) ≠ cc1_scratch3 by decide), Finset.mem_erase.mpr ⟨fun e => absurd (Proc.devRef_injective _ e) (show (cc1_scratch8 : Ref sig .scVector) ≠ cc1_scratch2 by decide), Finset.mem_erase.mpr ⟨fun e => absurd (Proc.devRef_injective _ e) (show (cc1_scratch8 : Ref sig .scVector) ≠ cc1_scratch1 by decide), Finset.mem_erase.mpr ⟨fun e => absurd (Proc.devRef_injective _ e) (show (cc1_scratch8 : Ref sig .scVector) ≠ cc1_scratch0 by decide), SparseCore.Cfg.mem_ownRefs_of_owner (p := Proc.scVector (cV L) (jV L)) (b := (Proc.scVector (cV L) (jV L)).devRef cc1_scratch8) rfl⟩⟩⟩⟩⟩⟩⟩⟩)]

end Tile

end Cert.Proof.KI

end
-- ==== Proof.TileI1.lean ====
import proofs.«207321_g10943576670982_fold_wed_m_632_36_alg».proof.Proof.TileI0

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
variable {U : Type} [URA U]

local notation "𝕄" => MT nD τ sig (HIx 1) (Elt F) ℕ U ℕ

variable [CountersIn U] [FloatOps F]

section Tile
variable (d : Dev nD) (L : grid1.Coords)

abbrev xSl (L : grid1.Coords) : Memref sig .scVector .hbm S13312 .i32 :=
  (Memref.whole main_v1_scv).slice (Rect.unit (s := S425984) (k1_off1 L) S13312.size (k1_off1_inb L)) (fun _ => rfl)

theorem set_xSl (L : grid1.Coords) : (xSl L).view.set = xSet L := by
  show ((View.whole main_v1_scv).slice _).set = _
  rw [View.set_slice_whole]
  ext j
  rw [Rect.mem_set_unit, k1_off1_eq]
  unfold xSet wid
  constructor
  · intro h
    have h0 := h (0 : Fin 1)
    simp only [Matrix.cons_val_zero] at h0
    refine Finset.mem_filter.mpr ⟨Finset.mem_univ _, ?_⟩
    omega
  · intro h
    have h' := (Finset.mem_filter.mp h).2
    show ∀ a : Fin 1, _
    intro a
    have ha : a = 0 := Subsingleton.elim _ _
    subst ha
    have hj : (j 0).val < 425984 := (j 0).isLt
    simp only [Matrix.cons_val_zero]
    omega

/-- The table, as every gather addresses it. -/
abbrev tSl : Memref sig .scVector .hbm S3328x128 .f32 :=
  (Memref.whole main_v0_scv).slice (Rect.unit (s := S3328x128) ![0, 0] S3328x128.size inb_S3328x128_S3328x128_0_0) (fun _ => rfl)

/-- Word `n` of the worker's piece of the row numbers. -/
def xw (d : Dev nD) (L : grid1.Coords) (X : Buf (Elt F) (xLoc d)) (n : S13312.Idx) : BitVec 32 :=
  X (ix1 ⟨(13312 * wid L + (n 0).val) % 425984, Nat.mod_lt _ (by norm_num)⟩)

/-- The list of table rows once the first `m` words have had their field's offset added: word `n` below `m` is
    `X[13312 w + n] + 128 (n mod 26)`, the others are still `X[13312 w + n]`. -/
def idxG (d : Dev nD) (L : grid1.Coords) (X : Buf (Elt F) (xLoc d)) (m : ℕ) : Buf (Elt F) ((V d (cV L) (jV L)).loc cc1_scratch0) :=
  fun n => if (n 0).val < m then xw d L X n + BitVec.ofNat 32 (128 * ((n 0).val % 26)) else xw d L X n

/-- The finished list. -/
abbrev idxF (d : Dev nD) (L : grid1.Coords) (X : Buf (Elt F) (xLoc d)) : Buf (Elt F) ((V d (cV L) (jV L)).loc cc1_scratch0) := idxG d L X 13312

theorem xw_lt (X : Buf (Elt F) (xLoc d)) (hX : ∀ j, (X j : BitVec 32).toNat < 128) (n : S13312.Idx) : (xw d L X n).toNat < 128 := hX _

theorem idxG_lt (X : Buf (Elt F) (xLoc d)) (hX : ∀ j, (X j : BitVec 32).toNat < 128) (m : ℕ) (n : S13312.Idx) :
    (idxG d L X m n : BitVec 32).toNat < 3328 := by
  have h := xw_lt d L X hX n
  unfold idxG
  split
  · rw [BitVec.toNat_add, BitVec.toNat_ofNat]
    have : (n 0).val % 26 < 26 := Nat.mod_lt _ (by norm_num)
    omega
  · omega

/-- The words of the list the second loop rewrites, and the others. -/
def hiSet : Finset S13312.Idx := Finset.univ.filter fun n => 832 ≤ (n 0).val
abbrev loSet : Finset S13312.Idx := Finset.univ \ hiSet

/-- A chunk of 104 words of the list, as the program slices it at offset `o`. -/
abbrev oSl (o : Fin 1 → ℕ) (h : ∀ a, o a + S104.size a ≤ S13312.size a) : Memref sig .scVector .vmem S104 .i32 :=
  (Memref.whole cc1_scratch0).slice (Rect.unit (s := S13312) o S104.size h) (fun _ => rfl)

theorem oSl_sub_lo (o : Fin 1 → ℕ) (h : ∀ a, o a + S104.size a ≤ S13312.size a) (ho : o 0 + 104 ≤ 832) :
    (oSl o h).view.set ⊆ loSet := by
  intro j hj
  have hj' : j ∈ (Rect.unit (s := S13312) o S104.size h).set := by
    have e : (oSl o h).view.set = (Rect.unit (s := S13312) o S104.size h).set := View.set_slice_whole _ _
    rw [e] at hj; exact hj
  rw [Rect.mem_set_unit] at hj'
  have h0 := hj' (0 : Fin 1)
  refine Finset.mem_sdiff.mpr ⟨Finset.mem_univ _, fun hh => ?_⟩
  have := (Finset.mem_filter.mp hh).2
  have hs : S104.size (0 : Fin 1) = 104 := rfl
  omega

theorem read_oSl_lt (X : Buf (Elt F) (xLoc d)) (hX : ∀ j, (X j : BitVec 32).toNat < 128) (m : ℕ)
    (o : Fin 1 → ℕ) (h : ∀ a, o a + S104.size a ≤ S13312.size a) :
    ∀ x, ((oSl o h).view.read (Elt F) (idxG d L X m) x).toNat < S3328x128.size gathers_S3328x128_S104x128.axis := by
  intro x
  rw [show (oSl o h).view.read (Elt F) (idxG d L X m) x = idxG d L X m ((oSl o h).view.emb x) from (View.read_apply _ _).trans (cast_eq _ _)]
  exact idxG_lt d L X hX m _

theorem set_tSl : (tSl).view.set = Finset.univ := by
  show ((View.whole main_v0_scv).slice _).set = _
  rw [View.set_slice_whole]
  ext j
  simp only [Rect.mem_set_unit, Finset.mem_univ, iff_true]
  intro a
  exact ⟨by fin_cases a <;> simp, by fin_cases a <;> simp <;> exact (j _).isLt⟩

theorem lo_congr (X : Buf (Elt F) (xLoc d)) : ∀ i ∈ loSet, idxG d L X 832 i = idxF d L X i := by
  intro i hi
  have h1 : ¬ 832 ≤ (i 0).val := fun hh => (Finset.mem_sdiff.mp hi).2 (Finset.mem_filter.mpr ⟨Finset.mem_univ _, hh⟩)
  unfold idxF idxG
  rw [if_pos (by omega), if_pos (by omega)]

def inv1 (X : Buf (Elt F) (xLoc d)) (k : ℕ) (_ : PUnit) : sProp 𝕄 :=
  iprop((Memref.whole cc1_scratch0).view.loc (V d (cV L) (jV L)) ↦{fullShare} idxG d L X (16 * k))

def inv2 (X : Buf (Elt F) (xLoc d)) (k : ℕ) (_ : PUnit) : sProp 𝕄 :=
  iprop((V d (cV L) (jV L)).loc cc1_scratch0 ↦[hiSet]{fullShare} idxG d L X (832 + 16 * k))

theorem hsub3 (k : Fin k1_t2_loop.trips) :
    ((Memref.whole cc1_scratch0).access (Rect.unit (s := S13312) (k1_off3 k) S16.size (k1_off3_inb k))).set ⊆ hiSet := by
  show ((View.whole cc1_scratch0).slice _).set ⊆ _
  rw [View.set_slice_whole]
  intro j hj
  rw [Rect.mem_set_unit, k1_off3_eq] at hj
  have h0 := hj (0 : Fin 1)
  simp only [Matrix.cons_val_zero] at h0
  exact Finset.mem_filter.mpr ⟨Finset.mem_univ _, by omega⟩

/-! ## The worker's rows of the result, chunk by chunk -/

/-- Chunk `n` of the worker's rows: rows `[512 w + 4 n, 512 w + 4 n + 4)`. -/
def oChunk (L : grid1.Coords) (n : ℕ) : Finset S16384x3328.Idx := Finset.univ.filter fun j => (j 0).val / 4 = 128 * wid L + n
/-- The worker's rows from chunk `n` on, and those before it. -/
def oRem (L : grid1.Coords) (n : ℕ) : Finset S16384x3328.Idx := Finset.univ.filter fun j => (j 0).val / 512 = wid L ∧ 512 * wid L + 4 * n ≤ (j 0).val
def oDone (L : grid1.Coords) (n : ℕ) : Finset S16384x3328.Idx := Finset.univ.filter fun j => (j 0).val / 512 = wid L ∧ (j 0).val < 512 * wid L + 4 * n

theorem oRem_zero (L : grid1.Coords) : oRem L 0 = oSet L := by
  ext j; simp only [oRem, oSet, Finset.mem_filter, Finset.mem_univ, true_and]; omega
theorem oDone_all (L : grid1.Coords) : oDone L 128 = oSet L := by
  ext j; simp only [oDone, oSet, Finset.mem_filter, Finset.mem_univ, true_and]; omega
theorem oChunk_sub_rem (L : grid1.Coords) (n : ℕ) (hn : n < 128) : oChunk L n ⊆ oRem L n := by
  intro j; simp only [oChunk, oRem, Finset.mem_filter, Finset.mem_univ, true_and]; omega
theorem oRem_sdiff (L : grid1.Coords) (n : ℕ) (hn : n < 128) : oRem L n \ oChunk L n = oRem L (n + 1) := by
  ext j; simp only [oChunk, oRem, Finset.mem_sdiff, Finset.mem_filter, Finset.mem_univ, true_and]; omega
theorem oChunk_sub_done (L : grid1.Coords) (n : ℕ) (hn : n < 128) : oChunk L n ⊆ oDone L (n + 1) := by
  intro j; simp only [oChunk, oDone, Finset.mem_filter, Finset.mem_univ, true_and]; omega
theorem oDone_sdiff (L : grid1.Coords) (n : ℕ) (hn : n < 128) : oDone L (n + 1) \ oChunk L n = oDone L n := by
  ext j; simp only [oChunk, oDone, Finset.mem_sdiff, Finset.mem_filter, Finset.mem_univ, true_and]; omega

/-- Four rows of the result, as the program slices them at offset `o`. -/
abbrev oSlc (o : Fin 2 → ℕ) (h : ∀ a, o a + S4x3328.size a ≤ S16384x3328.size a) : Memref sig .scVector .hbm S4x3328 .f32 :=
  (Memref.whole main_v2_scv).slice (Rect.unit (s := S16384x3328) o S4x3328.size h) (fun _ => rfl)

theorem set_oSlc (L : grid1.Coords) (n : ℕ) (o : Fin 2 → ℕ) (h : ∀ a, o a + S4x3328.size a ≤ S16384x3328.size a)
    (ho : o = ![1024 * (L 1).val + 512 * (L 0).val + 4 * n, 0]) : (oSlc o h).view.set = oChunk L n := by
  subst ho
  show ((View.whole main_v2_scv).slice _).set = _
  rw [View.set_slice_whole]
  ext j
  rw [Rect.mem_set_unit]
  unfold oChunk wid
  have e0 : S4x3328.size (0 : Fin 2) = 4 := rfl
  have e1 : S4x3328.size (1 : Fin 2) = 3328 := rfl
  constructor
  · intro hh
    have h0 := hh (0 : Fin 2)
    simp only [Matrix.cons_val_zero, e0] at h0
    refine Finset.mem_filter.mpr ⟨Finset.mem_univ _, ?_⟩
    omega
  · intro hh
    have h' := (Finset.mem_filter.mp hh).2
    show ∀ a : Fin 2, _
    intro a
    fin_cases a
    · simp only [Fin.zero_eta, Matrix.cons_val_zero, e0]; omega
    · have hj : (j 1).val < 3328 := (j 1).isLt
      simp only [Fin.mk_one, Matrix.cons_val_one, Matrix.cons_val_zero, e1]; omega

/-! ## What a buffer holds after the gather of chunk `n`, and the transfers in flight -/

/-- Buffer contents after the gather of chunk `n`: row `j 0` is the table's row `idxv[104 n + j 0]`. -/
def goodBuf (d : Dev nD) (L : grid1.Coords) (X : Buf (Elt F) (xLoc d)) (Tb : Buf (Elt F) (tLoc d)) (n : ℕ) (f : S104x128.Idx → Elt F .f32) : Prop :=
  ∀ j : S104x128.Idx, f j = Tb (ix2 (⟨((idxF d L X (ix1 ⟨(104 * n + (j 0).val) % 13312, Nat.mod_lt _ (by norm_num)⟩) : BitVec 32).toNat) % 3328, Nat.mod_lt _ (by norm_num)⟩ : Fin 3328)
      (⟨(j 1).val % 128, Nat.mod_lt _ (by norm_num)⟩ : Fin 128))

/-- A buffer viewed as four result rows. -/
abbrev rsh (B : Memref sig .scVector .vmem S104x128 .f32) (hB : B.IsWhole) : Memref sig .scVector .vmem S4x3328 .f32 :=
  B.reshape S4x3328 reshapes_S104x128_S4x3328.1 reshapes_S104x128_S4x3328.2 hB.contiguous

/-- The amount an out-copy of four rows credits. -/
abbrev NO : ℕ := (oSlc (k1_off8 L) (k1_off8_inb L)).view.dmaCredit

/-- The gather of chunk `n` into buffer `B` on semaphore `s`, in flight: it delivers the buffer filled, the share of the
    table and the piece of the list it was lent. -/
abbrev GFl (X : Buf (Elt F) (xLoc d)) (Tb : Buf (Elt F) (tLoc d)) (B : Memref sig .scVector .vmem S104x128 .f32) (s : DmaSems sig S_)
    (n : ℕ) (qt : PosShare TreeShare) (S : Finset S13312.Idx) (qi : PosShare TreeShare) : sProp 𝕄 :=
  Transfers.Flight countersEmb (V d (cV L) (jV L)) (SemLoc.dma s.sem) (default : HIx 1) B.view.dmaCredit
    iprop((∃ f, (B.view.loc (V d (cV L) (jV L)) ↦{fullShare} f) ∗ ⌜goodBuf d L X Tb n (B.view.read (Elt F) f)⌝)
      ∗ ((tSl).view.loc (V d (cV L) (jV L)) ↦[(tSl).view.set]{qt} Tb) ∗ ((V d (cV L) (jV L)).loc cc1_scratch0 ↦[S]{qi} idxF d L X))

/-- The copy of buffer `B` out to chunk `n` of the rows on semaphore `s`, in flight: it delivers the rows filled and the buffer. -/
abbrev OFl (X : Buf (Elt F) (xLoc d)) (Tb : Buf (Elt F) (tLoc d)) (B : Memref sig .scVector .vmem S104x128 .f32) (s : DmaSems sig S_) (n : ℕ) : sProp 𝕄 :=
  Transfers.Flight countersEmb (V d (cV L) (jV L)) (SemLoc.dma s.sem) (default : HIx 1) (NO L)
    iprop((oLoc d ↦[oChunk L n]{fullShare} (gatherOut (F := F) X Tb : Buf (Elt F) (oLoc d))) ∗ (∃ f, B.view.loc (V d (cV L) (jV L)) ↦{fullShare} f))

end Tile
end Cert.Proof.KI
end
-- ==== Proof.TileMathI.lean ====
/-
  The arithmetic of the SparseCore worker's task, with no memory in it.

  A worker adds to word `n` of its 13312 row numbers the offset `128 (n mod 26)`: word `n` of worker `w` is entry
  `13312 w + n` of the flat row numbers, its field is that position modulo 26, and `13312 = 512 * 26`, so the field is
  `n mod 26`.  The program computes the position as a 32-bit word, takes the signed remainder by 26 and multiplies by
  128, sixteen lanes at a time; every number involved is far below `2^31`, so the word arithmetic is the arithmetic of
  natural numbers and the signed remainder of a nonnegative word is the remainder.
-/
import proofs.«207321_g10943576670982_fold_wed_m_632_36_alg».proof.Proof.SetupI
import Idealize.ShloMosaic.Lib.Affine
import Idealize.ShloMosaic.Lib.Pipeline.Value

noncomputable section

namespace Cert.Proof.KI

open Cert.KernelIdeal Cert.KernelIdeal.Gen
open Idealize.ShloMosaic
open Idealize.ShloMosaic.ValueIdx

variable {F : FTy → Type}

/-! ## The offset of one lane -/

/-- The signed remainder by 26 of a position below `2^31`, times 128, as a word. -/
theorem offset_word (N : ℕ) (hN : N < 2 ^ 31) :
    IntOp.muli (IntOp.remsi .vector (BitVec.ofNat 32 N) 26#32) 128#32 = BitVec.ofNat 32 (128 * (N % 26)) := by
  have h1 : (BitVec.ofNat 32 N).toNat = N := by
    rw [BitVec.toNat_ofNat]
    exact Nat.mod_eq_of_lt (by omega)
  have h2 : (IntOp.remsi .vector (BitVec.ofNat 32 N) (BitVec.ofNat 32 26)).toNat = N % 26 := by
    rw [IntOp.toNat_remsi .vector (by rw [h1]; omega) 26 (by norm_num) (by norm_num), h1]
  have h3 : IntOp.remsi .vector (BitVec.ofNat 32 N) 26#32 = BitVec.ofNat 32 (N % 26) := by
    apply BitVec.eq_of_toNat_eq
    rw [h2, BitVec.toNat_ofNat]
    exact (Nat.mod_eq_of_lt (by omega)).symm
  rw [h3]
  show BitVec.ofNat 32 (N % 26) * BitVec.ofNat 32 128 = _
  rw [← BitVec.ofNat_mul, Nat.mul_comm]

/-- The position word of lane `lane` of the sixteen words starting at word `m` of worker `L`. -/
theorem position_word (L : grid1.Coords) (lb : ℕ) (k : ℕ) (lane : ℕ) :
    IntOp.addi (Scalar.addi (Scalar.muli (Scalar.addi (Scalar.muli (BitVec.ofNat 32 (L 1).val) 2#32) (BitVec.ofNat 32 (L 0).val)) 13312#32)
        (Scalar.muli (Scf.iv (BitVec.ofNat 32 lb) 1#32 k) 16#32)) (BitVec.ofNat 32 lane)
      = BitVec.ofNat 32 (13312 * wid L + 16 * (lb + k) + lane) := by
  simp only [Scalar.addi, Scalar.muli, IntOp.addi, IntOp.muli, Scf.iv, ← BitVec.ofNat_add, ← BitVec.ofNat_mul]
  refine congrArg (BitVec.ofNat 32) ?_
  unfold wid
  ring

/-! ## The two payloads at a lane -/

/-- The first loop's stored vector: lane `lane` of trip `k` is word `16 k + lane`, moved up by 128 times its field. -/
theorem pay1_lane (L : grid1.Coords) (k : Fin k1_t1_loop.trips) (v : Vec F S16 .i32) (lane : Fin 16) :
    k1_pay1 (F := F) L k v (ix1 lane) = v (ix1 lane) + BitVec.ofNat 32 (128 * ((16 * k.val + lane.val) % 26)) := by
  have hk : k.val < 52 := Nat.lt_of_lt_of_le k.isLt k1_t1_abs.2.1
  have hw := wid_lt L
  have hl := lane.isLt
  simp only [k1_pay1, shapeCast_self]
  show (IntOp.addi (v (ix1 lane)) (IntOp.muli (IntOp.remsi .vector
      (IntOp.addi (Scalar.addi (Scalar.muli (Scalar.addi (Scalar.muli (BitVec.ofNat 32 (L 1).val) 2#32) (BitVec.ofNat 32 (L 0).val)) 13312#32)
        (Scalar.muli (Scf.iv 0#32 1#32 k) 16#32)) (iota .scVector S16 32 [0] iota_S16_d0_w32_scVector (ix1 lane))) 26#32) 128#32)) = _
  rw [iota_single_apply]
  show IntOp.addi (v (ix1 lane)) (IntOp.muli (IntOp.remsi .vector
      (IntOp.addi (Scalar.addi (Scalar.muli (Scalar.addi (Scalar.muli (BitVec.ofNat 32 (L 1).val) 2#32) (BitVec.ofNat 32 (L 0).val)) 13312#32)
        (Scalar.muli (Scf.iv (BitVec.ofNat 32 0) 1#32 k) 16#32)) (BitVec.ofNat 32 lane.val)) 26#32) 128#32) = _
  rw [position_word L 0 k.val lane.val, offset_word _ (by omega),
    show (13312 * wid L + 16 * (0 + k.val) + lane.val) % 26 = (16 * k.val + lane.val) % 26 by omega]
  rfl

/-- The second loop's stored vector: lane `lane` of trip `k` is word `832 + 16 k + lane`. -/
theorem pay2_lane (L : grid1.Coords) (k : Fin k1_t2_loop.trips) (v : Vec F S16 .i32) (lane : Fin 16) :
    k1_pay2 (F := F)
        (Scalar.muli (Scalar.addi (Scalar.muli (BitVec.ofNat 32 (L 1).val) 2#32) (BitVec.ofNat 32 (L 0).val)) 13312#32)
        (iota .scVector S16 32 [0] iota_S16_d0_w32_scVector) k v (ix1 lane)
      = v (ix1 lane) + BitVec.ofNat 32 (128 * ((832 + 16 * k.val + lane.val) % 26)) := by
  have hk : k.val < 780 := Nat.lt_of_lt_of_le k.isLt k1_t2_abs.2.1
  have hw := wid_lt L
  have hl := lane.isLt
  simp only [k1_pay2, shapeCast_self]
  show (IntOp.addi (v (ix1 lane)) (IntOp.muli (IntOp.remsi .vector
      (IntOp.addi (Scalar.addi (Scalar.muli (Scalar.addi (Scalar.muli (BitVec.ofNat 32 (L 1).val) 2#32) (BitVec.ofNat 32 (L 0).val)) 13312#32)
        (Scalar.muli (Scf.iv 52#32 1#32 k) 16#32)) (iota .scVector S16 32 [0] iota_S16_d0_w32_scVector (ix1 lane))) 26#32) 128#32)) = _
  rw [iota_single_apply]
  show IntOp.addi (v (ix1 lane)) (IntOp.muli (IntOp.remsi .vector
      (IntOp.addi (Scalar.addi (Scalar.muli (Scalar.addi (Scalar.muli (BitVec.ofNat 32 (L 1).val) 2#32) (BitVec.ofNat 32 (L 0).val)) 13312#32)
        (Scalar.muli (Scf.iv (BitVec.ofNat 32 52) 1#32 k) 16#32)) (BitVec.ofNat 32 lane.val)) 26#32) 128#32) = _
  rw [position_word L 52 k.val lane.val, offset_word _ (by omega),
    show (13312 * wid L + 16 * (52 + k.val) + lane.val) % 26 = (832 + 16 * k.val + lane.val) % 26 by omega]
  rfl

end Cert.Proof.KI

end
-- ==== Proof.TileIVal.lean ====
import proofs.«207321_g10943576670982_fold_wed_m_632_36_alg».proof.Proof.TileI1
import proofs.«207321_g10943576670982_fold_wed_m_632_36_alg».proof.Proof.TileMathI

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
variable {U : Type} [URA U]

local notation "𝕄" => MT nD τ sig (HIx 1) (Elt F) ℕ U ℕ

variable [CountersIn U] [FloatOps F]

section Tile
variable (d : Dev nD) (L : grid1.Coords)

/-- A word at or above `m` and below `m + 16`, with its field's offset added, is the word of the list advanced by sixteen. -/
private theorem idxG_step (X : Buf (Elt F) (xLoc d)) (m : ℕ) (i : S13312.Idx) (hi : m ≤ (i 0).val) (hi' : (i 0).val < m + 16)
    (c : ℕ) (hc : c = (i 0).val) :
    @HAdd.hAdd (BitVec 32) (BitVec 32) (BitVec 32) _ (idxG d L X m i) (BitVec.ofNat 32 (128 * (c % 26))) = idxG d L X (m + 16) i := by
  subst hc
  unfold idxG
  rw [if_neg (by omega), if_pos (by omega)]

/-- A word outside `[m, m + 16)` is the same in the list advanced by sixteen. -/
private theorem idxG_keep (X : Buf (Elt F) (xLoc d)) (m : ℕ) (i : S13312.Idx) (hi : (i 0).val < m ∨ m + 16 ≤ (i 0).val) :
    idxG d L X m i = idxG d L X (m + 16) i := by
  unfold idxG
  by_cases h1 : (i 0).val < m
  · rw [if_pos h1, if_pos (by omega)]
  · rw [if_neg h1, if_neg (by omega)]

/-- One trip's store: the sixteen words from `m` on get their field's offset added. -/
theorem trip_val (X : Buf (Elt F) (xLoc d)) (m : ℕ) (o : Fin 1 → ℕ) (h : ∀ a, o a + S16.size a ≤ S13312.size a) (ho : o 0 = m)
    (w : S16.Idx → BitVec 32)
    (hw : ∀ x : S16.Idx, w x = @HAdd.hAdd (BitVec 32) (BitVec 32) (BitVec 32) _ (idxG d L X m ((Rect.unit (s := S13312) o S16.size h).emb x)) (BitVec.ofNat 32 (128 * ((m + (x 0).val) % 26)))) :
    ((View.whole cc1_scratch0).slice (Rect.unit (s := S13312) o S16.size h)).write (Elt F) (idxG d L X m) w Finset.univ = idxG d L X (m + 16) := by
  funext n
  have e16 : S16.size (0 : Fin 1) = 16 := rfl
  by_cases hmem : n ∈ ((View.whole cc1_scratch0).slice (Rect.unit (s := S13312) o S16.size h)).set
  · obtain ⟨x, -, rfl⟩ := Finset.mem_map.mp hmem
    rw [View.write_emb_of_mem _ _ (Finset.mem_univ x)]
    refine (cast_eq _ _).trans ?_
    rw [hw x]
    have hx : (x 0).val < 16 := (x 0).isLt
    have hc : (((Rect.unit (s := S13312) o S16.size h).emb x) 0).val = m + (x 0).val := by
      rw [Rect.emb_apply, Rect.off_unit, Rect.stride_unit, ho]
      omega
    exact idxG_step d L X m _ (by rw [hc]; omega) (by rw [hc]; omega) _ hc.symm
  · rw [View.write_of_not_mem _ _ _ (by rw [View.setOn_univ]; exact hmem)]
    rw [View.set_slice_whole, Rect.mem_set_unit] at hmem
    have h0 : ¬ (o 0 ≤ (n 0).val ∧ (n 0).val < o 0 + S16.size 0) := fun hh => hmem (Fin.forall_fin_one.mpr hh)
    rw [ho, e16] at h0
    exact idxG_keep d L X m n (by omega)

/-- The first loop's stored vector at a lane. -/
theorem pay1_apply (k : Fin k1_t1_loop.trips) (v : Vec F S16 .i32) (x : S16.Idx) :
    k1_pay1 (F := F) L k v x = (v x : BitVec 32) + BitVec.ofNat 32 (128 * ((16 * k.val + (x 0).val) % 26)) := by
  obtain ⟨lane, rfl⟩ : ∃ lane : Fin 16, x = ix1 lane := ⟨x 0, eq_ix1 x⟩
  exact pay1_lane L k v lane

/-- The second loop's stored vector at a lane, at the program's base word and lane numbers. -/
theorem pay2_apply (k : Fin k1_t2_loop.trips) (v : Vec F S16 .i32) (x : S16.Idx) :
    k1_pay2 (F := F) (Scalar.muli (Scalar.addi (Scalar.muli (BitVec.ofNat 32 (L 1).val) 2#32) (BitVec.ofNat 32 (L 0).val)) 13312#32)
        (iota .scVector S16 32 [0] iota_S16_d0_w32_scVector) k v x
      = (v x : BitVec 32) + BitVec.ofNat 32 (128 * ((832 + 16 * k.val + (x 0).val) % 26)) := by
  obtain ⟨lane, rfl⟩ : ∃ lane : Fin 16, x = ix1 lane := ⟨x 0, eq_ix1 x⟩
  exact pay2_lane L k v lane

/-- What the first copy lands in the list: the worker's words of the row numbers. -/
theorem dma0_val (X : Buf (Elt F) (xLoc d)) : (xSl L).view.read (Elt F) X = idxG d L X 0 := by
  funext n
  have hw := wid_lt L
  have hn : (n 0).val < 13312 := (n 0).isLt
  rw [View.read_apply]
  unfold idxG xw
  rw [if_neg (Nat.not_lt_zero _)]
  refine (cast_eq _ _).trans (congrArg X ?_)
  refine (eq_ix1 _).trans (congrArg ix1 (Fin.ext ?_))
  show ((Rect.unit (s := S425984) (k1_off1 L) S13312.size (k1_off1_inb L)).emb n 0).val = _
  rw [Rect.emb_apply, Rect.off_unit, Rect.stride_unit, congrFun (k1_off1_eq L) 0]
  show 26624 * (L 1).val + 13312 * (L 0).val + 1 * (n 0).val = (13312 * wid L + (n 0).val) % 425984
  unfold wid at hw ⊢
  omega

/-- The gather's payload over chunk `n` of the finished list. -/
theorem gather_val (X : Buf (Elt F) (xLoc d)) (Tb : Buf (Elt F) (tLoc d)) (n : ℕ) (o : Fin 1 → ℕ) (h : ∀ a, o a + S104.size a ≤ S13312.size a)
    (ho : o 0 = 104 * n) (hn : S104.numel = S104x128.size gathers_S3328x128_S104x128.axis')
    (hin : ∀ x, ((oSl o h).view.read (Elt F) (idxF d L X) x).toNat < S3328x128.size gathers_S3328x128_S104x128.axis) :
    goodBuf d L X Tb n (SparseCore.gatherPayload gathers_S3328x128_S104x128 ((tSl).view.read (Elt F) Tb)
      (SparseCore.rows ((oSl o h).view.read (Elt F) (idxF d L X)) hn hin)) := by
  intro j
  have hj0 : (j 0).val < 104 := (j 0).isLt
  have hj1 : (j 1).val < 128 := (j 1).isLt
  have hb : o 0 + 104 ≤ 13312 := h 0
  unfold SparseCore.gatherPayload
  rw [View.read_apply]
  refine (cast_eq _ _).trans (congrArg Tb ?_)
  refine (eq_ix2 _).trans (congrArg₂ ix2 (Fin.ext ?_) (Fin.ext ?_))
  · -- the row: the word the list holds at position 104 n + j 0
    show ((Rect.unit (s := S3328x128) ![0, 0] S3328x128.size inb_S3328x128_S3328x128_0_0).emb
      (gathers_S3328x128_S104x128.idx (SparseCore.rows ((oSl o h).view.read (Elt F) (idxF d L X)) hn hin) j) 0).val = _
    rw [Rect.emb_apply, Rect.off_unit, Rect.stride_unit]
    show 0 + 1 * (gathers_S3328x128_S104x128.idx (SparseCore.rows ((oSl o h).view.read (Elt F) (idxF d L X)) hn hin) j
      gathers_S3328x128_S104x128.axis).val = _
    rw [Shape.Gathers.idx_axis]
    unfold SparseCore.rows
    show 0 + 1 * ((oSl o h).view.read (Elt F) (idxF d L X)
      (S104.rowMajor.symm ((j gathers_S3328x128_S104x128.axis').cast hn.symm))).toNat = _
    have hy : ∀ y : S104.Idx, (oSl o h).view.read (Elt F) (idxF d L X) y
        = idxF d L X (ix1 ⟨(o 0 + (y 0).val) % 13312, Nat.mod_lt _ (by norm_num)⟩) := fun y => by
      rw [View.read_apply]
      refine (cast_eq _ _).trans (congrArg (idxF d L X) ?_)
      refine (eq_ix1 _).trans (congrArg ix1 (Fin.ext ?_))
      show ((Rect.unit (s := S13312) o S104.size h).emb y 0).val = _
      have hy0 : (y 0).val < 104 := (y 0).isLt
      rw [Rect.emb_apply, Rect.off_unit, Rect.stride_unit]
      show o 0 + 1 * (y 0).val = (o 0 + (y 0).val) % 13312
      omega
    have hk : ((S104.rowMajor.symm ((j gathers_S3328x128_S104x128.axis').cast hn.symm)) 0).val = (j 0).val := by
      have e := congrArg Fin.val (S104.rowMajor.apply_symm_apply ((j gathers_S3328x128_S104x128.axis').cast hn.symm))
      rw [Shape.rowMajor_val_one] at e
      exact e
    rw [hy, hk, ho]
    have hlt := hin (S104.rowMajor.symm ((j gathers_S3328x128_S104x128.axis').cast hn.symm))
    rw [hy, hk, ho] at hlt
    have e3328 : S3328x128.size gathers_S3328x128_S104x128.axis = 3328 := rfl
    rw [e3328] at hlt
    rw [Nat.zero_add, Nat.one_mul]
    exact (Nat.mod_eq_of_lt hlt).symm
  · -- the lane
    show ((Rect.unit (s := S3328x128) ![0, 0] S3328x128.size inb_S3328x128_S3328x128_0_0).emb
      (gathers_S3328x128_S104x128.idx (SparseCore.rows ((oSl o h).view.read (Elt F) (idxF d L X)) hn hin) j) 1).val = _
    rw [Rect.emb_apply, Rect.off_unit, Rect.stride_unit,
      Shape.Gathers.idx_of_ne gathers_S3328x128_S104x128 _ j (1 : Fin 2) (by decide)]
    show 0 + 1 * (j 1).val = (j 1).val % 128
    omega

/-- The table row the finished list names at position `104 n + 26 r + q / 128` is the row the specification reads at
    result row `512 w + 4 n + r`, column `q`: the position is entry `26 (512 w + 4 n + r) + q / 128` of the row numbers,
    its field is `q / 128`, and a word below 128 plus at most `128 * 25` does not wrap. -/
private theorem row_eq (X : Buf (Elt F) (xLoc d)) (hX : ∀ j, (X j : BitVec 32).toNat < 128) (n r q : ℕ) (hn : n < 128)
    (hr : r < 4) (hq : q < 3328) :
    (idxF d L X (ix1 ⟨(104 * n + (26 * r + q / 128)) % 13312, Nat.mod_lt _ (by norm_num)⟩) : BitVec 32).toNat % 3328
      = ((X (ix1 ⟨(26 * (512 * wid L + 4 * n + r) + q / 128) % 425984, Nat.mod_lt _ (by norm_num)⟩) : BitVec 32).toNat
          + 128 * (q / 128)) % 3328 := by
  have hw := wid_lt L
  have hXeq : (X (ix1 ⟨(13312 * wid L + (104 * n + (26 * r + q / 128)) % 13312) % 425984, Nat.mod_lt _ (by norm_num)⟩) : BitVec 32)
      = X (ix1 ⟨(26 * (512 * wid L + 4 * n + r) + q / 128) % 425984, Nat.mod_lt _ (by norm_num)⟩) :=
    congrArg X (congrArg ix1 (Fin.ext (by
      show (13312 * wid L + (104 * n + (26 * r + q / 128)) % 13312) % 425984 = (26 * (512 * wid L + 4 * n + r) + q / 128) % 425984
      omega)))
  have hx := hX (ix1 ⟨(26 * (512 * wid L + 4 * n + r) + q / 128) % 425984, Nat.mod_lt _ (by norm_num)⟩)
  unfold idxF idxG xw
  split
  case isFalse hneg =>
    exact absurd (show (104 * n + (26 * r + q / 128)) % 13312 < 13312 from Nat.mod_lt _ (by norm_num)) hneg
  show (@HAdd.hAdd (BitVec 32) (BitVec 32) (BitVec 32) _
      (X (ix1 ⟨(13312 * wid L + (104 * n + (26 * r + q / 128)) % 13312) % 425984, Nat.mod_lt _ (by norm_num)⟩))
      (BitVec.ofNat 32 (128 * ((104 * n + (26 * r + q / 128)) % 13312 % 26)))).toNat % 3328 = _
  rw [hXeq, BitVec.toNat_add, BitVec.toNat_ofNat]
  omega

/-- A buffer holding chunk `n`'s rows, viewed as four result rows and written to chunk `n` of the result, leaves there what the
    specification asks. -/
theorem out_val (X : Buf (Elt F) (xLoc d)) (Tb : Buf (Elt F) (tLoc d)) (hX : ∀ j, (X j : BitVec 32).toNat < 128) (O' : Buf (Elt F) (oLoc d)) (n : ℕ) (hn : n < 128)
    (o : Fin 2 → ℕ) (h : ∀ a, o a + S4x3328.size a ≤ S16384x3328.size a) (ho : o = ![1024 * (L 1).val + 512 * (L 0).val + 4 * n, 0])
    (B : Memref sig .scVector .vmem S104x128 .f32) (hB : B.IsWhole) (fb : Buf (Elt F) (B.view.loc (V d (cV L) (jV L))))
    (hg : goodBuf d L X Tb n (B.view.read (Elt F) fb)) :
    ∀ i ∈ (oSlc o h).view.set,
      (oSlc o h).view.write (Elt F) O' ((rsh B hB).view.read (Elt F) fb) Finset.univ i = (gatherOut (F := F) X Tb : Buf (Elt F) (oLoc d)) i := by
  subst ho
  intro i hi
  obtain ⟨y, -, rfl⟩ := Finset.mem_map.mp hi
  rw [View.write_emb_of_mem _ _ (Finset.mem_univ y)]
  refine (cast_eq _ _).trans ?_
  have hw := wid_lt L
  have hy0 : (y 0).val < 4 := (y 0).isLt
  have hy1 : (y 1).val < 3328 := (y 1).isLt
  -- position (y 0, y 1) of the four-row view is position (26 (y 0) + y 1 / 128, y 1 mod 128) of the buffer
  have hz : Shape.reshapeEquiv reshapes_S104x128_S4x3328.1 y
      = (ix2 (⟨26 * (y 0).val + (y 1).val / 128, by omega⟩ : Fin 104) (⟨(y 1).val % 128, Nat.mod_lt _ (by norm_num)⟩ : Fin 128) : S104x128.Idx) :=
    Shape.reshapeEquiv_eq_of_rowMajor _ (by
      rw [Shape.rowMajor_val_two, Shape.rowMajor_val_two]
      show (26 * (y 0).val + (y 1).val / 128) * 128 + (y 1).val % 128 = (y 0).val * 3328 + (y 1).val
      omega)
  have hread : (rsh B hB).view.read (Elt F) fb y
      = B.view.read (Elt F) fb (ix2 (⟨26 * (y 0).val + (y 1).val / 128, by omega⟩ : Fin 104) (⟨(y 1).val % 128, Nat.mod_lt _ (by norm_num)⟩ : Fin 128)) := by
    rw [← hz]
    rfl
  -- where the element lands in the result
  have hemb : (oSlc _ h).view.emb y
      = (ix2 (⟨512 * wid L + 4 * n + (y 0).val, by omega⟩ : Fin 16384) (⟨(y 1).val, hy1⟩ : Fin 3328) : S16384x3328.Idx) := by
    refine (eq_ix2 _).trans (congrArg₂ ix2 (Fin.ext ?_) (Fin.ext ?_))
    · show ((Rect.unit (s := S16384x3328) ![1024 * (L 1).val + 512 * (L 0).val + 4 * n, 0] S4x3328.size h).emb y 0).val = _
      rw [Rect.emb_apply, Rect.off_unit, Rect.stride_unit]
      show 1024 * (L 1).val + 512 * (L 0).val + 4 * n + 1 * (y 0).val = 512 * wid L + 4 * n + (y 0).val
      unfold wid
      omega
    · show ((Rect.unit (s := S16384x3328) ![1024 * (L 1).val + 512 * (L 0).val + 4 * n, 0] S4x3328.size h).emb y 1).val = _
      rw [Rect.emb_apply, Rect.off_unit, Rect.stride_unit]
      show 0 + 1 * (y 1).val = (y 1).val
      omega
  rw [hread, hg, hemb]
  unfold gatherOut
  refine congrArg Tb (congrArg₂ ix2 (Fin.ext ?_) (Fin.ext (by
    show (y 1).val % 128 % 128 = (y 1).val % 128
    omega)))
  exact row_eq d L X hX n (y 0).val (y 1).val hn hy0 hy1

end Tile
end Cert.Proof.KI
end
-- ==== Proof.TileI2.lean ====
import proofs.«207321_g10943576670982_fold_wed_m_632_36_alg».proof.Proof.TileIVal

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
variable {U : Type} [URA U]

local notation "𝕄" => MT nD τ sig (HIx 1) (Elt F) ℕ U ℕ

variable [CountersIn U] [FloatOps F]

section Tile
variable (d : Dev nD) (L : grid1.Coords)

/-- A wait on a scoped semaphore at the kernel's index is one the launch admits. -/
theorem waits_ok {W W' : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with hp | hp
  · exact .inr (hp ▸ rfl)
  · exact h p hp

theorem goodBuf_write (X : Buf (Elt F) (xLoc d)) (Tb : Buf (Elt F) (tLoc d)) (n : ℕ) (B : Memref sig .scVector .vmem S104x128 .f32) (hB : B.IsWhole)
    (fd : Buf (Elt F) (B.view.loc (V d (cV L) (jV L)))) (w : S104x128.Idx → Elt F .f32) (hw : goodBuf d L X Tb n w) :
    goodBuf d L X Tb n (B.view.read (Elt F) (B.view.write (Elt F) fd w Finset.univ)) := by
  rw [View.read_write_univ]
  exact hw

/-- What the gather of chunk `n` delivers. -/
theorem gather_deliver (X : Buf (Elt F) (xLoc d)) (Tb : Buf (Elt F) (tLoc d)) (B : Memref sig .scVector .vmem S104x128 .f32) (hB : B.IsWhole)
    (n : ℕ) (o : Fin 1 → ℕ) (h : ∀ a, o a + S104.size a ≤ S13312.size a) (ho : o 0 = 104 * n)
    (hn : S104.numel = S104x128.size gathers_S3328x128_S104x128.axis')
    (hin : ∀ x, ((oSl o h).view.read (Elt F) (idxF d L X) x).toNat < S3328x128.size gathers_S3328x128_S104x128.axis)
    (fd : Buf (Elt F) (B.view.loc (V d (cV L) (jV L)))) (qt qi : PosShare TreeShare) :
    iprop((B.view.loc (V d (cV L) (jV L)) ↦[B.view.set]{fullShare} (B.view.write (Elt F) fd (SparseCore.gatherPayload gathers_S3328x128_S104x128 ((tSl).view.read (Elt F) Tb)
            (SparseCore.rows ((oSl o h).view.read (Elt F) (idxF d L X)) hn hin)) Finset.univ))
        ∗ ((tSl).view.loc (V d (cV L) (jV L)) ↦[(tSl).view.set]{qt} Tb) ∗ ((oSl o h).view.loc (V d (cV L) (jV L)) ↦[(oSl o h).view.set]{qi} idxF d L X))
      ⊢ (iprop((∃ f, (B.view.loc (V d (cV L) (jV L)) ↦{fullShare} f) ∗ ⌜goodBuf d L X Tb n (B.view.read (Elt F) f)⌝)
        ∗ ((tSl).view.loc (V d (cV L) (jV L)) ↦[(tSl).view.set]{qt} Tb) ∗ ((V d (cV L) (jV L)).loc cc1_scratch0 ↦[(oSl o h).view.set]{qi} idxF d L X)) : sProp 𝕄) := by
  iintro ⟨Hb, Ht, Hl⟩
  isplitl [Hb]
  · iexists _
    isplitl [Hb]
    · rw [hB.set_eq_univ]; iexact Hb
    · ipureintro
      exact goodBuf_write d L X Tb n B hB fd _ (gather_val d L X Tb n o h ho hn hin)
  isplitl [Ht]; · iexact Ht
  iexact Hl

/-- What the copy of a buffer holding chunk `n` out to the rows of chunk `n` delivers. -/
theorem out_deliver (X : Buf (Elt F) (xLoc d)) (Tb : Buf (Elt F) (tLoc d)) (hX : ∀ j, (X j : BitVec 32).toNat < 128) (O' : Buf (Elt F) (oLoc d)) (B : Memref sig .scVector .vmem S104x128 .f32) (hB : B.IsWhole)
    (n : ℕ) (hn : n < 128) (o : Fin 2 → ℕ) (h : ∀ a, o a + S4x3328.size a ≤ S16384x3328.size a) (ho : o = ![1024 * (L 1).val + 512 * (L 0).val + 4 * n, 0])
    (fb : Buf (Elt F) (B.view.loc (V d (cV L) (jV L)))) (hg : goodBuf d L X Tb n (B.view.read (Elt F) fb)) :
    iprop(((oSlc o h).view.loc (V d (cV L) (jV L)) ↦[(oSlc o h).view.set]{fullShare} ((oSlc o h).view.write (Elt F) O' ((rsh B hB).view.read (Elt F) fb) Finset.univ))
        ∗ ((rsh B hB).view.loc (V d (cV L) (jV L)) ↦[(rsh B hB).view.set]{fullShare} fb))
      ⊢ (iprop((oLoc d ↦[oChunk L n]{fullShare} (gatherOut (F := F) X Tb : Buf (Elt F) (oLoc d))) ∗ (∃ f, B.view.loc (V d (cV L) (jV L)) ↦{fullShare} f)) : sProp 𝕄) := by
  iintro ⟨Ho, Hb⟩
  isplitl [Ho]
  · have e : ((oSlc o h).view.loc (V d (cV L) (jV L)) ↦[(oSlc o h).view.set]{fullShare} ((oSlc o h).view.write (Elt F) O' ((rsh B hB).view.read (Elt F) fb) Finset.univ) : sProp 𝕄)
        = (oLoc d ↦[oChunk L n]{fullShare} (gatherOut (F := F) X Tb : Buf (Elt F) (oLoc d))) := by
      rw [pointsTo_congr (out_val d L X Tb hX O' n hn o h ho B hB fb hg), set_oSlc L n o h ho]
    iapply (Entails.of_eq e); iexact Ho
  · iexists fb
    have e : ((rsh B hB).view.loc (V d (cV L) (jV L)) ↦[(rsh B hB).view.set]{fullShare} fb : sProp 𝕄) = (B.view.loc (V d (cV L) (jV L)) ↦{fullShare} fb) := by
      rw [show (rsh B hB).view.set = B.view.set from View.set_reshape _ _, hB.set_eq_univ]
    iapply (Entails.of_eq e); iexact Hb

theorem oRem_take (O' : Buf (Elt F) (oLoc d)) (n : ℕ) (hn : n < 128) :
    (oLoc d ↦[oRem L n]{fullShare} O' : sProp 𝕄) ⊢ iprop((oLoc d ↦[oChunk L n]{fullShare} O') ∗ (oLoc d ↦[oRem L (n + 1)]{fullShare} O')) := by
  rw [← oRem_sdiff L n hn]
  exact (pointsTo_split_subset (oChunk_sub_rem L n hn)).1

theorem oDone_put (G : Buf (Elt F) (oLoc d)) (n : ℕ) (hn : n < 128) :
    (iprop((oLoc d ↦[oChunk L n]{fullShare} G) ∗ (oLoc d ↦[oDone L n]{fullShare} G)) : sProp 𝕄) ⊢ (oLoc d ↦[oDone L (n + 1)]{fullShare} G) := by
  rw [← oDone_sdiff L n hn]
  exact (pointsTo_split_subset (oChunk_sub_done L n hn)).2

end Tile
end Cert.Proof.KI
end
-- ==== Proof.TileI3.lean ====
import proofs.«207321_g10943576670982_fold_wed_m_632_36_alg».proof.Proof.TileI2

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
variable {U : Type} [URA U]

local notation "𝕄" => MT nD τ sig (HIx 1) (Elt F) ℕ U ℕ

variable [CountersIn U] [FloatOps F]

section Tile
variable (d : Dev nD) (L : grid1.Coords)

set_option maxHeartbeats 4000000 in
theorem part8_spec (X : Buf (Elt F) (xLoc d)) (Tb : Buf (Elt F) (tLoc d)) (O0 : Buf (Elt F) (oLoc d)) (hX : ∀ j, (X j : BitVec 32).toNat < 128)
    (O : CellTallies nD τ sig (HIx 1)) (W : Waits sig (HIx 1)) (v3 : BitVec 32) (Φ : PUnit → sProp 𝕄) :
    iprop((Transfers.MayWaits (V d (cV L) (jV L)) (default : HIx 1) O
        ∗ (∃ W', ⌜∀ p ∈ W', p ∈ W ∨ p.2 = none⌝ ∗ owes (V d (cV L) (jV L)) O W')
        ∗ (oLoc d ↦[oRem L 2]{fullShare} O0)
        ∗ (∃ f, ((Memref.whole cc1_scratch3).view.loc (V d (cV L) (jV L)) ↦{fullShare} f) ∗ ⌜goodBuf d L X Tb 2 ((Memref.whole cc1_scratch3).view.read (Elt F) f)⌝)
        ∗ semVal (cellOf d L cc1_scratch19) 0
        ∗ semVal (cellOf d L cc1_scratch20) 0
        ∗ semVal (cellOf d L cc1_scratch21) 0
        ∗ semVal (cellOf d L cc1_scratch22) 0
        ∗ GFl d L X Tb (Memref.whole cc1_scratch4) cc1_scratch12 3 ((tileShare L).left.left.left.right) ((oSl ![312] inb_S13312_S104_312).view.set) (fullShare.left.left.left.right)
        ∗ GFl d L X Tb (Memref.whole cc1_scratch5) cc1_scratch13 4 ((tileShare L).left.left.left.left.right) ((oSl ![416] inb_S13312_S104_416).view.set) (fullShare.left.left.left.left.right)
        ∗ GFl d L X Tb (Memref.whole cc1_scratch6) cc1_scratch14 5 ((tileShare L).left.left.left.left.left.right) ((oSl ![520] inb_S13312_S104_520).view.set) (fullShare.left.left.left.left.left.right)
        ∗ GFl d L X Tb (Memref.whole cc1_scratch7) cc1_scratch15 6 ((tileShare L).left.left.left.left.left.left.right) ((oSl ![624] inb_S13312_S104_624).view.set) (fullShare.left.left.left.left.left.left.right))
        ∗ (((∃ W', ⌜∀ p ∈ W', p ∈ W ∨ p.2 = none⌝ ∗ owes (V d (cV L) (jV L)) O W')
        ∗ (oLoc d ↦[oRem L 6]{fullShare} O0)
        ∗ OFl d L X Tb (Memref.whole cc1_scratch3) cc1_scratch19 2
        ∗ OFl d L X Tb (Memref.whole cc1_scratch4) cc1_scratch20 3
        ∗ OFl d L X Tb (Memref.whole cc1_scratch5) cc1_scratch21 4
        ∗ OFl d L X Tb (Memref.whole cc1_scratch6) cc1_scratch22 5
        ∗ (∃ f, ((Memref.whole cc1_scratch7).view.loc (V d (cV L) (jV L)) ↦{fullShare} f) ∗ ⌜goodBuf d L X Tb 6 ((Memref.whole cc1_scratch7).view.read (Elt F) f)⌝)
        ∗ ((tSl).view.loc (V d (cV L) (jV L)) ↦[(tSl).view.set]{((tileShare L).left.left.left.right)} Tb)
        ∗ ((tSl).view.loc (V d (cV L) (jV L)) ↦[(tSl).view.set]{((tileShare L).left.left.left.left.right)} Tb)
        ∗ ((tSl).view.loc (V d (cV L) (jV L)) ↦[(tSl).view.set]{((tileShare L).left.left.left.left.left.right)} Tb)
        ∗ ((tSl).view.loc (V d (cV L) (jV L)) ↦[(tSl).view.set]{((tileShare L).left.left.left.left.left.left.right)} Tb)
        ∗ ((V d (cV L) (jV L)).loc cc1_scratch0 ↦[(oSl ![312] inb_S13312_S104_312).view.set]{(fullShare.left.left.left.right)} idxF d L X)
        ∗ ((V d (cV L) (jV L)).loc cc1_scratch0 ↦[(oSl ![416] inb_S13312_S104_416).view.set]{(fullShare.left.left.left.left.right)} idxF d L X)
        ∗ ((V d (cV L) (jV L)).loc cc1_scratch0 ↦[(oSl ![520] inb_S13312_S104_520).view.set]{(fullShare.left.left.left.left.left.right)} idxF d L X)
        ∗ ((V d (cV L) (jV L)).loc cc1_scratch0 ↦[(oSl ![624] inb_S13312_S104_624).view.set]{(fullShare.left.left.left.left.left.left.right)} idxF d L X)
        ∗ semVal (cellOf d L cc1_scratch12) 0
        ∗ semVal (cellOf d L cc1_scratch13) 0
        ∗ semVal (cellOf d L cc1_scratch14) 0
        ∗ semVal (cellOf d L cc1_scratch15) 0) -∗ Φ ⟨⟩))
      ⊢ wp frame (wpE (defs₀ (F := F)) 𝒱₀ (V d (cV L) (jV L)) none) Set.univ (k1_part8 L (Memref.whole main_v1_scv) (Memref.isWhole_whole _) (Memref.whole main_v0_scv) (Memref.isWhole_whole _) (Memref.whole main_v2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) cc1_scratch9 cc1_scratch10 cc1_scratch11 cc1_scratch12 cc1_scratch13 cc1_scratch14 cc1_scratch15 cc1_scratch16 cc1_scratch17 cc1_scratch18 cc1_scratch19 cc1_scratch20 cc1_scratch21 cc1_scratch22 cc1_scratch23 cc1_scratch24 cc1_scoped0 v3) Φ := by
  rw [k1_part8_eq_skeleton]; unfold k1_part8_skel
  iintro ⟨⟨#Hmw, ⟨%W', %hW', HO⟩, Horem, ⟨%fb2, Hb2, %hg2⟩, Hs19, Hs20, Hs21, Hs22, Hfl3, Hfl4, Hfl5, Hfl6⟩, HΦ⟩
  -- copy buffer 2 out to chunk 2
  sl_exec
  ihave Hsp := (oRem_take d L O0 (2) (by decide)) $$ Horem
  icases Hsp with ⟨Hoc, Horem⟩
  ihave Hoc := (Entails.of_eq (show (oLoc d ↦[oChunk L (2)]{fullShare} O0 : sProp 𝕄)
      = ((oSlc (k1_off4 L 8#32) (k1_off4_inb L 2)).view.loc (V d (cV L) (jV L)) ↦[(oSlc (k1_off4 L 8#32) (k1_off4_inb L 2)).view.set]{fullShare} O0) by rw [set_oSlc L (2) (k1_off4 L 8#32) (k1_off4_inb L 2) (show (k1_off4 L 8#32) = ![1024 * (L 1).val + 512 * (L 0).val + 4 * (2), 0] from (k1_off4_eq L 2))])) $$ Hoc
  ihave Hsrc := (Entails.of_eq (show ((Memref.whole cc1_scratch3).view.loc (V d (cV L) (jV L)) ↦{fullShare} fb2 : sProp 𝕄)
      = ((rsh (Memref.whole cc1_scratch3) (Memref.isWhole_whole _)).view.loc (V d (cV L) (jV L)) ↦[(rsh (Memref.whole cc1_scratch3) (Memref.isWhole_whole _)).view.set]{fullShare} fb2) by
        rw [show (rsh (Memref.whole cc1_scratch3) (Memref.isWhole_whole _)).view.set = (Memref.whole cc1_scratch3).view.set from View.set_reshape _ _, View.set_whole])) $$ Hb2
  iapply (Transfers.wp_dmaLocal countersEmb 𝒱₀ (V d (cV L) (jV L)) none (default : HIx 1) (NO L) rfl (View.dmaCredit_pos _ (show 0 < S4x3328.numel by decide)) (Finset.Subset.refl _)) $$ [Hsrc Hoc Hs19]
  · isplitl [Hsrc]; · iexact Hsrc
    isplitl [Hoc]; · iexact Hoc
    iexact Hs19
  iintro Hofl
  ihave Hofl2 := (Transfers.Flight_mono countersEmb (V d (cV L) (jV L)) (sm := SemLoc.dma cc1_scratch19.sem) (ι := (default : HIx 1)) (N := NO L) (out_deliver d L X Tb hX O0 (Memref.whole cc1_scratch3) (Memref.isWhole_whole _) (2) (by decide) (k1_off4 L 8#32) (k1_off4_inb L 2) (show (k1_off4 L 8#32) = ![1024 * (L 1).val + 512 * (L 0).val + 4 * (2), 0] from (k1_off4_eq L 2)) fb2 hg2)) $$ Hofl
  -- wait for gather 3
  sl_exec
  iapply (Transfers.wp_waitLocalO countersEmb 𝒱₀ (V d (cV L) (jV L)) none (default : HIx 1) (rfl : (Memref.whole cc1_scratch4).view.dmaCredit = _)) $$ [Hfl3 HO]
  · isplitl [Hfl3]; · iexact Hfl3
    isplitl [HO]; · iexact HO
    iapply (Transfers.MayWaits.elim (SemLoc.dma cc1_scratch12.sem)) $$ Hmw
  iintro ⟨⟨⟨%fb3, Hb3, %hg3⟩, Htt3, Hlist3⟩, Hs12, HO⟩
  -- copy buffer 3 out to chunk 3
  sl_exec
  ihave Hsp := (oRem_take d L O0 (3) (by decide)) $$ Horem
  icases Hsp with ⟨Hoc, Horem⟩
  ihave Hoc := (Entails.of_eq (show (oLoc d ↦[oChunk L (3)]{fullShare} O0 : sProp 𝕄)
      = ((oSlc (k1_off4 L 12#32) (k1_off4_inb L 3)).view.loc (V d (cV L) (jV L)) ↦[(oSlc (k1_off4 L 12#32) (k1_off4_inb L 3)).view.set]{fullShare} O0) by rw [set_oSlc L (3) (k1_off4 L 12#32) (k1_off4_inb L 3) (show (k1_off4 L 12#32) = ![1024 * (L 1).val + 512 * (L 0).val + 4 * (3), 0] from (k1_off4_eq L 3))])) $$ Hoc
  ihave Hsrc := (Entails.of_eq (show ((Memref.whole cc1_scratch4).view.loc (V d (cV L) (jV L)) ↦{fullShare} fb3 : sProp 𝕄)
      = ((rsh (Memref.whole cc1_scratch4) (Memref.isWhole_whole _)).view.loc (V d (cV L) (jV L)) ↦[(rsh (Memref.whole cc1_scratch4) (Memref.isWhole_whole _)).view.set]{fullShare} fb3) by
        rw [show (rsh (Memref.whole cc1_scratch4) (Memref.isWhole_whole _)).view.set = (Memref.whole cc1_scratch4).view.set from View.set_reshape _ _, View.set_whole])) $$ Hb3
  iapply (Transfers.wp_dmaLocal countersEmb 𝒱₀ (V d (cV L) (jV L)) none (default : HIx 1) (NO L) rfl (View.dmaCredit_pos _ (show 0 < S4x3328.numel by decide)) (Finset.Subset.refl _)) $$ [Hsrc Hoc Hs20]
  · isplitl [Hsrc]; · iexact Hsrc
    isplitl [Hoc]; · iexact Hoc
    iexact Hs20
  iintro Hofl
  ihave Hofl3 := (Transfers.Flight_mono countersEmb (V d (cV L) (jV L)) (sm := SemLoc.dma cc1_scratch20.sem) (ι := (default : HIx 1)) (N := NO L) (out_deliver d L X Tb hX O0 (Memref.whole cc1_scratch4) (Memref.isWhole_whole _) (3) (by decide) (k1_off4 L 12#32) (k1_off4_inb L 3) (show (k1_off4 L 12#32) = ![1024 * (L 1).val + 512 * (L 0).val + 4 * (3), 0] from (k1_off4_eq L 3)) fb3 hg3)) $$ Hofl
  -- wait for gather 4
  sl_exec
  iapply (Transfers.wp_waitLocalO countersEmb 𝒱₀ (V d (cV L) (jV L)) none (default : HIx 1) (rfl : (Memref.whole cc1_scratch5).view.dmaCredit = _)) $$ [Hfl4 HO]
  · isplitl [Hfl4]; · iexact Hfl4
    isplitl [HO]; · iexact HO
    iapply (Transfers.MayWaits.elim (SemLoc.dma cc1_scratch13.sem)) $$ Hmw
  iintro ⟨⟨⟨%fb4, Hb4, %hg4⟩, Htt4, Hlist4⟩, Hs13, HO⟩
  -- copy buffer 4 out to chunk 4
  sl_exec
  ihave Hsp := (oRem_take d L O0 (4) (by decide)) $$ Horem
  icases Hsp with ⟨Hoc, Horem⟩
  ihave Hoc := (Entails.of_eq (show (oLoc d ↦[oChunk L (4)]{fullShare} O0 : sProp 𝕄)
      = ((oSlc (k1_off4 L 16#32) (k1_off4_inb L 4)).view.loc (V d (cV L) (jV L)) ↦[(oSlc (k1_off4 L 16#32) (k1_off4_inb L 4)).view.set]{fullShare} O0) by rw [set_oSlc L (4) (k1_off4 L 16#32) (k1_off4_inb L 4) (show (k1_off4 L 16#32) = ![1024 * (L 1).val + 512 * (L 0).val + 4 * (4), 0] from (k1_off4_eq L 4))])) $$ Hoc
  ihave Hsrc := (Entails.of_eq (show ((Memref.whole cc1_scratch5).view.loc (V d (cV L) (jV L)) ↦{fullShare} fb4 : sProp 𝕄)
      = ((rsh (Memref.whole cc1_scratch5) (Memref.isWhole_whole _)).view.loc (V d (cV L) (jV L)) ↦[(rsh (Memref.whole cc1_scratch5) (Memref.isWhole_whole _)).view.set]{fullShare} fb4) by
        rw [show (rsh (Memref.whole cc1_scratch5) (Memref.isWhole_whole _)).view.set = (Memref.whole cc1_scratch5).view.set from View.set_reshape _ _, View.set_whole])) $$ Hb4
  iapply (Transfers.wp_dmaLocal countersEmb 𝒱₀ (V d (cV L) (jV L)) none (default : HIx 1) (NO L) rfl (View.dmaCredit_pos _ (show 0 < S4x3328.numel by decide)) (Finset.Subset.refl _)) $$ [Hsrc Hoc Hs21]
  · isplitl [Hsrc]; · iexact Hsrc
    isplitl [Hoc]; · iexact Hoc
    iexact Hs21
  iintro Hofl
  ihave Hofl4 := (Transfers.Flight_mono countersEmb (V d (cV L) (jV L)) (sm := SemLoc.dma cc1_scratch21.sem) (ι := (default : HIx 1)) (N := NO L) (out_deliver d L X Tb hX O0 (Memref.whole cc1_scratch5) (Memref.isWhole_whole _) (4) (by decide) (k1_off4 L 16#32) (k1_off4_inb L 4) (show (k1_off4 L 16#32) = ![1024 * (L 1).val + 512 * (L 0).val + 4 * (4), 0] from (k1_off4_eq L 4)) fb4 hg4)) $$ Hofl
  -- wait for gather 5
  sl_exec
  iapply (Transfers.wp_waitLocalO countersEmb 𝒱₀ (V d (cV L) (jV L)) none (default : HIx 1) (rfl : (Memref.whole cc1_scratch6).view.dmaCredit = _)) $$ [Hfl5 HO]
  · isplitl [Hfl5]; · iexact Hfl5
    isplitl [HO]; · iexact HO
    iapply (Transfers.MayWaits.elim (SemLoc.dma cc1_scratch14.sem)) $$ Hmw
  iintro ⟨⟨⟨%fb5, Hb5, %hg5⟩, Htt5, Hlist5⟩, Hs14, HO⟩
  -- copy buffer 5 out to chunk 5
  sl_exec
  ihave Hsp := (oRem_take d L O0 (5) (by decide)) $$ Horem
  icases Hsp with ⟨Hoc, Horem⟩
  ihave Hoc := (Entails.of_eq (show (oLoc d ↦[oChunk L (5)]{fullShare} O0 : sProp 𝕄)
      = ((oSlc (k1_off4 L 20#32) (k1_off4_inb L 5)).view.loc (V d (cV L) (jV L)) ↦[(oSlc (k1_off4 L 20#32) (k1_off4_inb L 5)).view.set]{fullShare} O0) by rw [set_oSlc L (5) (k1_off4 L 20#32) (k1_off4_inb L 5) (show (k1_off4 L 20#32) = ![1024 * (L 1).val + 512 * (L 0).val + 4 * (5), 0] from (k1_off4_eq L 5))])) $$ Hoc
  ihave Hsrc := (Entails.of_eq (show ((Memref.whole cc1_scratch6).view.loc (V d (cV L) (jV L)) ↦{fullShare} fb5 : sProp 𝕄)
      = ((rsh (Memref.whole cc1_scratch6) (Memref.isWhole_whole _)).view.loc (V d (cV L) (jV L)) ↦[(rsh (Memref.whole cc1_scratch6) (Memref.isWhole_whole _)).view.set]{fullShare} fb5) by
        rw [show (rsh (Memref.whole cc1_scratch6) (Memref.isWhole_whole _)).view.set = (Memref.whole cc1_scratch6).view.set from View.set_reshape _ _, View.set_whole])) $$ Hb5
  iapply (Transfers.wp_dmaLocal countersEmb 𝒱₀ (V d (cV L) (jV L)) none (default : HIx 1) (NO L) rfl (View.dmaCredit_pos _ (show 0 < S4x3328.numel by decide)) (Finset.Subset.refl _)) $$ [Hsrc Hoc Hs22]
  · isplitl [Hsrc]; · iexact Hsrc
    isplitl [Hoc]; · iexact Hoc
    iexact Hs22
  iintro Hofl
  ihave Hofl5 := (Transfers.Flight_mono countersEmb (V d (cV L) (jV L)) (sm := SemLoc.dma cc1_scratch22.sem) (ι := (default : HIx 1)) (N := NO L) (out_deliver d L X Tb hX O0 (Memref.whole cc1_scratch6) (Memref.isWhole_whole _) (5) (by decide) (k1_off4 L 20#32) (k1_off4_inb L 5) (show (k1_off4 L 20#32) = ![1024 * (L 1).val + 512 * (L 0).val + 4 * (5), 0] from (k1_off4_eq L 5)) fb5 hg5)) $$ Hofl
  -- wait for gather 6
  sl_exec
  iapply (Transfers.wp_waitLocalO countersEmb 𝒱₀ (V d (cV L) (jV L)) none (default : HIx 1) (rfl : (Memref.whole cc1_scratch7).view.dmaCredit = _)) $$ [Hfl6 HO]
  · isplitl [Hfl6]; · iexact Hfl6
    isplitl [HO]; · iexact HO
    iapply (Transfers.MayWaits.elim (SemLoc.dma cc1_scratch15.sem)) $$ Hmw
  iintro ⟨⟨⟨%fb6, Hb6, %hg6⟩, Htt6, Hlist6⟩, Hs15, HO⟩
  sl_exec
  sl_step
  iapply HΦ
  isplitl [HO]
  · iexists _
    isplitr
    swap
    · iexact HO
    ipureintro; repeat (first | exact hW' | apply waits_ok)
  isplitl [Horem]
  · iexact Horem
  isplitl [Hofl2]
  · iexact Hofl2
  isplitl [Hofl3]
  · iexact Hofl3
  isplitl [Hofl4]
  · iexact Hofl4
  isplitl [Hofl5]
  · iexact Hofl5
  isplitl [Hb6]
  · iexists fb6
    isplitl [Hb6]
    · iexact Hb6
    · ipureintro; exact hg6
  isplitl [Htt3]
  · iexact Htt3
  isplitl [Htt4]
  · iexact Htt4
  isplitl [Htt5]
  · iexact Htt5
  isplitl [Htt6]
  · iexact Htt6
  isplitl [Hlist3]
  · iexact Hlist3
  isplitl [Hlist4]
  · iexact Hlist4
  isplitl [Hlist5]
  · iexact Hlist5
  isplitl [Hlist6]
  · iexact Hlist6
  isplitl [Hs12]
  · iexact Hs12
  isplitl [Hs13]
  · iexact Hs13
  isplitl [Hs14]
  · iexact Hs14
  iexact Hs15

end Tile
end Cert.Proof.KI
end
-- ==== Proof.TileI4.lean ====
import proofs.«207321_g10943576670982_fold_wed_m_632_36_alg».proof.Proof.TileI2

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
variable {U : Type} [URA U]

local notation "𝕄" => MT nD τ sig (HIx 1) (Elt F) ℕ U ℕ

variable [CountersIn U] [FloatOps F]

section Tile
variable (d : Dev nD) (L : grid1.Coords)

/-- Between trips of the ring: the rows of the chunks before `m` are written, the copies of the eight buffers out to chunks
    `m … m + 7` are in flight, the rest of the rows is untouched; the list is whole (held as eight read tokens), every
    gather has been waited for. -/
def ringInv (X : Buf (Elt F) (xLoc d)) (Tb : Buf (Elt F) (tLoc d)) (O0 : Buf (Elt F) (oLoc d))
    (O : CellTallies nD τ sig (HIx 1)) (W : Waits sig (HIx 1)) (m : ℕ) : sProp 𝕄 :=
  iprop(Transfers.MayWaits (V d (cV L) (jV L)) (default : HIx 1) O
        ∗ (∃ W', ⌜∀ p ∈ W', p ∈ W ∨ p.2 = none⌝ ∗ owes (V d (cV L) (jV L)) O W')
        ∗ (oLoc d ↦[oDone L (m)]{fullShare} (gatherOut (F := F) X Tb : Buf (Elt F) (oLoc d)))
        ∗ (oLoc d ↦[oRem L (m + 8)]{fullShare} O0)
        ∗ OFl d L X Tb (Memref.whole cc1_scratch1) cc1_scratch17 (m + 0)
        ∗ OFl d L X Tb (Memref.whole cc1_scratch2) cc1_scratch18 (m + 1)
        ∗ OFl d L X Tb (Memref.whole cc1_scratch3) cc1_scratch19 (m + 2)
        ∗ OFl d L X Tb (Memref.whole cc1_scratch4) cc1_scratch20 (m + 3)
        ∗ OFl d L X Tb (Memref.whole cc1_scratch5) cc1_scratch21 (m + 4)
        ∗ OFl d L X Tb (Memref.whole cc1_scratch6) cc1_scratch22 (m + 5)
        ∗ OFl d L X Tb (Memref.whole cc1_scratch7) cc1_scratch23 (m + 6)
        ∗ OFl d L X Tb (Memref.whole cc1_scratch8) cc1_scratch24 (m + 7)
        ∗ ((tSl).view.loc (V d (cV L) (jV L)) ↦[(tSl).view.set]{((tileShare L).right)} Tb)
        ∗ ((tSl).view.loc (V d (cV L) (jV L)) ↦[(tSl).view.set]{((tileShare L).left.right)} Tb)
        ∗ ((tSl).view.loc (V d (cV L) (jV L)) ↦[(tSl).view.set]{((tileShare L).left.left.right)} Tb)
        ∗ ((tSl).view.loc (V d (cV L) (jV L)) ↦[(tSl).view.set]{((tileShare L).left.left.left.right)} Tb)
        ∗ ((tSl).view.loc (V d (cV L) (jV L)) ↦[(tSl).view.set]{((tileShare L).left.left.left.left.right)} Tb)
        ∗ ((tSl).view.loc (V d (cV L) (jV L)) ↦[(tSl).view.set]{((tileShare L).left.left.left.left.left.right)} Tb)
        ∗ ((tSl).view.loc (V d (cV L) (jV L)) ↦[(tSl).view.set]{((tileShare L).left.left.left.left.left.left.right)} Tb)
        ∗ ((tSl).view.loc (V d (cV L) (jV L)) ↦[(tSl).view.set]{((tileShare L).left.left.left.left.left.left.left.right)} Tb)
        ∗ ((V d (cV L) (jV L)).loc cc1_scratch0 ↦[Finset.univ]{(fullShare.right)} idxF d L X)
        ∗ ((V d (cV L) (jV L)).loc cc1_scratch0 ↦[Finset.univ]{(fullShare.left.right)} idxF d L X)
        ∗ ((V d (cV L) (jV L)).loc cc1_scratch0 ↦[Finset.univ]{(fullShare.left.left.right)} idxF d L X)
        ∗ ((V d (cV L) (jV L)).loc cc1_scratch0 ↦[Finset.univ]{(fullShare.left.left.left.right)} idxF d L X)
        ∗ ((V d (cV L) (jV L)).loc cc1_scratch0 ↦[Finset.univ]{(fullShare.left.left.left.left.right)} idxF d L X)
        ∗ ((V d (cV L) (jV L)).loc cc1_scratch0 ↦[Finset.univ]{(fullShare.left.left.left.left.left.right)} idxF d L X)
        ∗ ((V d (cV L) (jV L)).loc cc1_scratch0 ↦[Finset.univ]{(fullShare.left.left.left.left.left.left.right)} idxF d L X)
        ∗ ((V d (cV L) (jV L)).loc cc1_scratch0 ↦[Finset.univ]{(fullShare.left.left.left.left.left.left.left.right)} idxF d L X)
        ∗ semVal (cellOf d L cc1_scratch9) 0
        ∗ semVal (cellOf d L cc1_scratch10) 0
        ∗ semVal (cellOf d L cc1_scratch11) 0
        ∗ semVal (cellOf d L cc1_scratch12) 0
        ∗ semVal (cellOf d L cc1_scratch13) 0
        ∗ semVal (cellOf d L cc1_scratch14) 0
        ∗ semVal (cellOf d L cc1_scratch15) 0
        ∗ semVal (cellOf d L cc1_scratch16) 0)

def inv3 (X : Buf (Elt F) (xLoc d)) (Tb : Buf (Elt F) (tLoc d)) (O0 : Buf (Elt F) (oLoc d))
    (O : CellTallies nD τ sig (HIx 1)) (W : Waits sig (HIx 1)) (k : ℕ) (_ : PUnit) : sProp 𝕄 := ringInv d L X Tb O0 O W (8 * k)

theorem off6_zero (k : Fin k1_t3_loop.trips) (r : Fin 8) : (k1_off6 k (BitVec.ofNat 32 r.val)) 0 = 104 * (8 * k.val + (8 + r.val)) := by
  rw [k1_off6_eq k r]
  show 832 * k.val + 104 * r.val + 832 = _
  omega

theorem off7_eq (L : grid1.Coords) (k : Fin k1_t3_loop.trips) (r : Fin 8) :
    k1_off7 L k (BitVec.ofNat 32 r.val) = ![1024 * (L 1).val + 512 * (L 0).val + 4 * (8 * k.val + (8 + r.val)), 0] := by
  rw [k1_off7_eq L k r]
  congr 1
  omega

set_option maxHeartbeats 8000000 in
theorem trip3 (X : Buf (Elt F) (xLoc d)) (Tb : Buf (Elt F) (tLoc d)) (O0 : Buf (Elt F) (oLoc d)) (hX : ∀ j, (X j : BitVec 32).toNat < 128)
    (O : CellTallies nD τ sig (HIx 1)) (W : Waits sig (HIx 1)) (v3 : BitVec 32) (k : Fin k1_t3_loop.trips) :
    inv3 (U := U) d L X Tb O0 O W k.val ⟨⟩
      ⊢ wp frame (wpE (defs₀ (F := F)) 𝒱₀ (V d (cV L) (jV L)) none) Set.univ (k1_t3_body L (Memref.whole main_v1_scv) (Memref.isWhole_whole _) (Memref.whole main_v0_scv) (Memref.isWhole_whole _) (Memref.whole main_v2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) cc1_scratch9 cc1_scratch10 cc1_scratch11 cc1_scratch12 cc1_scratch13 cc1_scratch14 cc1_scratch15 cc1_scratch16 cc1_scratch17 cc1_scratch18 cc1_scratch19 cc1_scratch20 cc1_scratch21 cc1_scratch22 cc1_scratch23 cc1_scratch24 cc1_scoped0 v3 k ⟨⟩)
          (inv3 (U := U) d L X Tb O0 O W (k.val + 1)) := by
  have hN : ∀ (B : Memref sig .scVector .vmem S104x128 .f32) (a' : Fin S104x128.rank),
      ∑ j, (B.slice (S104x128.rowRect a' j) (S104x128.stride_rowRect a' j)).view.dmaCredit = B.view.dmaCredit :=
    fun B a' => SparseCore.sum_rowCredit_eq_dmaCredit B a' (fun _ => rfl)
  unfold inv3 ringInv k1_t3_body
  iintro ⟨#Hmw, ⟨%W', %hW', HO⟩, Hodone, Horem, Hofl0, Hofl1, Hofl2, Hofl3, Hofl4, Hofl5, Hofl6, Hofl7, Htt0, Htt1, Htt2, Htt3, Htt4, Htt5, Htt6, Htt7, Hl0, Hl1, Hl2, Hl3, Hl4, Hl5, Hl6, Hl7, Hs9, Hs10, Hs11, Hs12, Hs13, Hs14, Hs15, Hs16⟩
  -- wait for the copy of buffer 0 out to chunk 8 * k.val + 0
  sl_exec
  iapply (Transfers.wp_waitLocalO countersEmb 𝒱₀ (V d (cV L) (jV L)) none (default : HIx 1) (rfl : _ = NO L)) $$ [Hofl0 HO]
  · isplitl [Hofl0]; · iexact Hofl0
    isplitl [HO]; · iexact HO
    iapply (Transfers.MayWaits.elim (SemLoc.dma cc1_scratch17.sem)) $$ Hmw
  iintro ⟨⟨Hoc, ⟨%fb0, Hb0⟩⟩, Hs17, HO⟩
  ihave Hodone := (oDone_put d L (gatherOut (F := F) X Tb : Buf (Elt F) (oLoc d)) (8 * k.val + 0) (by have := k.isLt; have : k1_t3_loop.trips = 15 := rfl; omega)) $$ [Hoc Hodone]
  · isplitl [Hoc]; · iexact Hoc
    iexact Hodone
  -- gather chunk 8 * k.val + 8 into buffer 0
  sl_exec
  ihave Hls := (pointsTo_split_subset (q := (fullShare.right)) (f := idxF d L X) (S := Finset.univ) (Finset.subset_univ (oSl (k1_off6 k 0#32) (k1_off6_inb k 0)).view.set)).1 $$ Hl0
  icases Hls with ⟨Hlist0, Hlrest0⟩
  ihave Hbb := (Entails.of_eq (show ((Memref.whole cc1_scratch1).view.loc (V d (cV L) (jV L)) ↦{fullShare} fb0 : sProp 𝕄)
      = ((Memref.whole cc1_scratch1).view.loc (V d (cV L) (jV L)) ↦[(Memref.whole cc1_scratch1).view.set]{fullShare} fb0) by rw [View.set_whole])) $$ Hb0
  iapply (SparseCore.wp_indirectGatherLocal countersEmb 𝒱₀ (V d (cV L) (jV L)) none (hg := gathers_S3328x128_S104x128) (default : HIx 1)
      (Memref.whole cc1_scratch1).view.dmaCredit (hN (Memref.whole cc1_scratch1) _) (by decide) (read_oSl_lt d L X hX 13312 (k1_off6 k 0#32) (k1_off6_inb k 0))) $$ [Htt0 Hbb Hlist0 Hs9]
  · isplitl [Htt0]; · iexact Htt0
    isplitl [Hbb]; · iexact Hbb
    isplitl [Hlist0]; · iexact Hlist0
    iexact Hs9
  iintro Hfl
  ihave Hfl0 := (Transfers.Flight_mono countersEmb (V d (cV L) (jV L)) (sm := SemLoc.dma cc1_scratch9.sem) (ι := (default : HIx 1)) (N := (Memref.whole cc1_scratch1).view.dmaCredit) (gather_deliver d L X Tb (Memref.whole cc1_scratch1) (Memref.isWhole_whole _) (8 * k.val + 8) (k1_off6 k 0#32) (k1_off6_inb k 0) (off6_zero k 0) rfl
      (read_oSl_lt d L X hX 13312 (k1_off6 k 0#32) (k1_off6_inb k 0)) fb0 ((tileShare L).right) (fullShare.right))) $$ Hfl
  -- wait for the copy of buffer 1 out to chunk 8 * k.val + 1
  sl_exec
  iapply (Transfers.wp_waitLocalO countersEmb 𝒱₀ (V d (cV L) (jV L)) none (default : HIx 1) (rfl : _ = NO L)) $$ [Hofl1 HO]
  · isplitl [Hofl1]; · iexact Hofl1
    isplitl [HO]; · iexact HO
    iapply (Transfers.MayWaits.elim (SemLoc.dma cc1_scratch18.sem)) $$ Hmw
  iintro ⟨⟨Hoc, ⟨%fb1, Hb1⟩⟩, Hs18, HO⟩
  ihave Hodone := (oDone_put d L (gatherOut (F := F) X Tb : Buf (Elt F) (oLoc d)) (8 * k.val + 1) (by have := k.isLt; have : k1_t3_loop.trips = 15 := rfl; omega)) $$ [Hoc Hodone]
  · isplitl [Hoc]; · iexact Hoc
    iexact Hodone
  -- gather chunk 8 * k.val + 9 into buffer 1
  sl_exec
  ihave Hls := (pointsTo_split_subset (q := (fullShare.left.right)) (f := idxF d L X) (S := Finset.univ) (Finset.subset_univ (oSl (k1_off6 k 1#32) (k1_off6_inb k 1)).view.set)).1 $$ Hl1
  icases Hls with ⟨Hlist1, Hlrest1⟩
  ihave Hbb := (Entails.of_eq (show ((Memref.whole cc1_scratch2).view.loc (V d (cV L) (jV L)) ↦{fullShare} fb1 : sProp 𝕄)
      = ((Memref.whole cc1_scratch2).view.loc (V d (cV L) (jV L)) ↦[(Memref.whole cc1_scratch2).view.set]{fullShare} fb1) by rw [View.set_whole])) $$ Hb1
  iapply (SparseCore.wp_indirectGatherLocal countersEmb 𝒱₀ (V d (cV L) (jV L)) none (hg := gathers_S3328x128_S104x128) (default : HIx 1)
      (Memref.whole cc1_scratch2).view.dmaCredit (hN (Memref.whole cc1_scratch2) _) (by decide) (read_oSl_lt d L X hX 13312 (k1_off6 k 1#32) (k1_off6_inb k 1))) $$ [Htt1 Hbb Hlist1 Hs10]
  · isplitl [Htt1]; · iexact Htt1
    isplitl [Hbb]; · iexact Hbb
    isplitl [Hlist1]; · iexact Hlist1
    iexact Hs10
  iintro Hfl
  ihave Hfl1 := (Transfers.Flight_mono countersEmb (V d (cV L) (jV L)) (sm := SemLoc.dma cc1_scratch10.sem) (ι := (default : HIx 1)) (N := (Memref.whole cc1_scratch2).view.dmaCredit) (gather_deliver d L X Tb (Memref.whole cc1_scratch2) (Memref.isWhole_whole _) (8 * k.val + 9) (k1_off6 k 1#32) (k1_off6_inb k 1) (off6_zero k 1) rfl
      (read_oSl_lt d L X hX 13312 (k1_off6 k 1#32) (k1_off6_inb k 1)) fb1 ((tileShare L).left.right) (fullShare.left.right))) $$ Hfl
  -- wait for the copy of buffer 2 out to chunk 8 * k.val + 2
  sl_exec
  iapply (Transfers.wp_waitLocalO countersEmb 𝒱₀ (V d (cV L) (jV L)) none (default : HIx 1) (rfl : _ = NO L)) $$ [Hofl2 HO]
  · isplitl [Hofl2]; · iexact Hofl2
    isplitl [HO]; · iexact HO
    iapply (Transfers.MayWaits.elim (SemLoc.dma cc1_scratch19.sem)) $$ Hmw
  iintro ⟨⟨Hoc, ⟨%fb2, Hb2⟩⟩, Hs19, HO⟩
  ihave Hodone := (oDone_put d L (gatherOut (F := F) X Tb : Buf (Elt F) (oLoc d)) (8 * k.val + 2) (by have := k.isLt; have : k1_t3_loop.trips = 15 := rfl; omega)) $$ [Hoc Hodone]
  · isplitl [Hoc]; · iexact Hoc
    iexact Hodone
  -- gather chunk 8 * k.val + 10 into buffer 2
  sl_exec
  ihave Hls := (pointsTo_split_subset (q := (fullShare.left.left.right)) (f := idxF d L X) (S := Finset.univ) (Finset.subset_univ (oSl (k1_off6 k 2#32) (k1_off6_inb k 2)).view.set)).1 $$ Hl2
  icases Hls with ⟨Hlist2, Hlrest2⟩
  ihave Hbb := (Entails.of_eq (show ((Memref.whole cc1_scratch3).view.loc (V d (cV L) (jV L)) ↦{fullShare} fb2 : sProp 𝕄)
      = ((Memref.whole cc1_scratch3).view.loc (V d (cV L) (jV L)) ↦[(Memref.whole cc1_scratch3).view.set]{fullShare} fb2) by rw [View.set_whole])) $$ Hb2
  iapply (SparseCore.wp_indirectGatherLocal countersEmb 𝒱₀ (V d (cV L) (jV L)) none (hg := gathers_S3328x128_S104x128) (default : HIx 1)
      (Memref.whole cc1_scratch3).view.dmaCredit (hN (Memref.whole cc1_scratch3) _) (by decide) (read_oSl_lt d L X hX 13312 (k1_off6 k 2#32) (k1_off6_inb k 2))) $$ [Htt2 Hbb Hlist2 Hs11]
  · isplitl [Htt2]; · iexact Htt2
    isplitl [Hbb]; · iexact Hbb
    isplitl [Hlist2]; · iexact Hlist2
    iexact Hs11
  iintro Hfl
  ihave Hfl2 := (Transfers.Flight_mono countersEmb (V d (cV L) (jV L)) (sm := SemLoc.dma cc1_scratch11.sem) (ι := (default : HIx 1)) (N := (Memref.whole cc1_scratch3).view.dmaCredit) (gather_deliver d L X Tb (Memref.whole cc1_scratch3) (Memref.isWhole_whole _) (8 * k.val + 10) (k1_off6 k 2#32) (k1_off6_inb k 2) (off6_zero k 2) rfl
      (read_oSl_lt d L X hX 13312 (k1_off6 k 2#32) (k1_off6_inb k 2)) fb2 ((tileShare L).left.left.right) (fullShare.left.left.right))) $$ Hfl
  -- wait for the copy of buffer 3 out to chunk 8 * k.val + 3
  sl_exec
  iapply (Transfers.wp_waitLocalO countersEmb 𝒱₀ (V d (cV L) (jV L)) none (default : HIx 1) (rfl : _ = NO L)) $$ [Hofl3 HO]
  · isplitl [Hofl3]; · iexact Hofl3
    isplitl [HO]; · iexact HO
    iapply (Transfers.MayWaits.elim (SemLoc.dma cc1_scratch20.sem)) $$ Hmw
  iintro ⟨⟨Hoc, ⟨%fb3, Hb3⟩⟩, Hs20, HO⟩
  ihave Hodone := (oDone_put d L (gatherOut (F := F) X Tb : Buf (Elt F) (oLoc d)) (8 * k.val + 3) (by have := k.isLt; have : k1_t3_loop.trips = 15 := rfl; omega)) $$ [Hoc Hodone]
  · isplitl [Hoc]; · iexact Hoc
    iexact Hodone
  -- gather chunk 8 * k.val + 11 into buffer 3
  sl_exec
  ihave Hls := (pointsTo_split_subset (q := (fullShare.left.left.left.right)) (f := idxF d L X) (S := Finset.univ) (Finset.subset_univ (oSl (k1_off6 k 3#32) (k1_off6_inb k 3)).view.set)).1 $$ Hl3
  icases Hls with ⟨Hlist3, Hlrest3⟩
  ihave Hbb := (Entails.of_eq (show ((Memref.whole cc1_scratch4).view.loc (V d (cV L) (jV L)) ↦{fullShare} fb3 : sProp 𝕄)
      = ((Memref.whole cc1_scratch4).view.loc (V d (cV L) (jV L)) ↦[(Memref.whole cc1_scratch4).view.set]{fullShare} fb3) by rw [View.set_whole])) $$ Hb3
  iapply (SparseCore.wp_indirectGatherLocal countersEmb 𝒱₀ (V d (cV L) (jV L)) none (hg := gathers_S3328x128_S104x128) (default : HIx 1)
      (Memref.whole cc1_scratch4).view.dmaCredit (hN (Memref.whole cc1_scratch4) _) (by decide) (read_oSl_lt d L X hX 13312 (k1_off6 k 3#32) (k1_off6_inb k 3))) $$ [Htt3 Hbb Hlist3 Hs12]
  · isplitl [Htt3]; · iexact Htt3
    isplitl [Hbb]; · iexact Hbb
    isplitl [Hlist3]; · iexact Hlist3
    iexact Hs12
  iintro Hfl
  ihave Hfl3 := (Transfers.Flight_mono countersEmb (V d (cV L) (jV L)) (sm := SemLoc.dma cc1_scratch12.sem) (ι := (default : HIx 1)) (N := (Memref.whole cc1_scratch4).view.dmaCredit) (gather_deliver d L X Tb (Memref.whole cc1_scratch4) (Memref.isWhole_whole _) (8 * k.val + 11) (k1_off6 k 3#32) (k1_off6_inb k 3) (off6_zero k 3) rfl
      (read_oSl_lt d L X hX 13312 (k1_off6 k 3#32) (k1_off6_inb k 3)) fb3 ((tileShare L).left.left.left.right) (fullShare.left.left.left.right))) $$ Hfl
  -- wait for the copy of buffer 4 out to chunk 8 * k.val + 4
  sl_exec
  iapply (Transfers.wp_waitLocalO countersEmb 𝒱₀ (V d (cV L) (jV L)) none (default : HIx 1) (rfl : _ = NO L)) $$ [Hofl4 HO]
  · isplitl [Hofl4]; · iexact Hofl4
    isplitl [HO]; · iexact HO
    iapply (Transfers.MayWaits.elim (SemLoc.dma cc1_scratch21.sem)) $$ Hmw
  iintro ⟨⟨Hoc, ⟨%fb4, Hb4⟩⟩, Hs21, HO⟩
  ihave Hodone := (oDone_put d L (gatherOut (F := F) X Tb : Buf (Elt F) (oLoc d)) (8 * k.val + 4) (by have := k.isLt; have : k1_t3_loop.trips = 15 := rfl; omega)) $$ [Hoc Hodone]
  · isplitl [Hoc]; · iexact Hoc
    iexact Hodone
  -- gather chunk 8 * k.val + 12 into buffer 4
  sl_exec
  ihave Hls := (pointsTo_split_subset (q := (fullShare.left.left.left.left.right)) (f := idxF d L X) (S := Finset.univ) (Finset.subset_univ (oSl (k1_off6 k 4#32) (k1_off6_inb k 4)).view.set)).1 $$ Hl4
  icases Hls with ⟨Hlist4, Hlrest4⟩
  ihave Hbb := (Entails.of_eq (show ((Memref.whole cc1_scratch5).view.loc (V d (cV L) (jV L)) ↦{fullShare} fb4 : sProp 𝕄)
      = ((Memref.whole cc1_scratch5).view.loc (V d (cV L) (jV L)) ↦[(Memref.whole cc1_scratch5).view.set]{fullShare} fb4) by rw [View.set_whole])) $$ Hb4
  iapply (SparseCore.wp_indirectGatherLocal countersEmb 𝒱₀ (V d (cV L) (jV L)) none (hg := gathers_S3328x128_S104x128) (default : HIx 1)
      (Memref.whole cc1_scratch5).view.dmaCredit (hN (Memref.whole cc1_scratch5) _) (by decide) (read_oSl_lt d L X hX 13312 (k1_off6 k 4#32) (k1_off6_inb k 4))) $$ [Htt4 Hbb Hlist4 Hs13]
  · isplitl [Htt4]; · iexact Htt4
    isplitl [Hbb]; · iexact Hbb
    isplitl [Hlist4]; · iexact Hlist4
    iexact Hs13
  iintro Hfl
  ihave Hfl4 := (Transfers.Flight_mono countersEmb (V d (cV L) (jV L)) (sm := SemLoc.dma cc1_scratch13.sem) (ι := (default : HIx 1)) (N := (Memref.whole cc1_scratch5).view.dmaCredit) (gather_deliver d L X Tb (Memref.whole cc1_scratch5) (Memref.isWhole_whole _) (8 * k.val + 12) (k1_off6 k 4#32) (k1_off6_inb k 4) (off6_zero k 4) rfl
      (read_oSl_lt d L X hX 13312 (k1_off6 k 4#32) (k1_off6_inb k 4)) fb4 ((tileShare L).left.left.left.left.right) (fullShare.left.left.left.left.right))) $$ Hfl
  -- wait for the copy of buffer 5 out to chunk 8 * k.val + 5
  sl_exec
  iapply (Transfers.wp_waitLocalO countersEmb 𝒱₀ (V d (cV L) (jV L)) none (default : HIx 1) (rfl : _ = NO L)) $$ [Hofl5 HO]
  · isplitl [Hofl5]; · iexact Hofl5
    isplitl [HO]; · iexact HO
    iapply (Transfers.MayWaits.elim (SemLoc.dma cc1_scratch22.sem)) $$ Hmw
  iintro ⟨⟨Hoc, ⟨%fb5, Hb5⟩⟩, Hs22, HO⟩
  ihave Hodone := (oDone_put d L (gatherOut (F := F) X Tb : Buf (Elt F) (oLoc d)) (8 * k.val + 5) (by have := k.isLt; have : k1_t3_loop.trips = 15 := rfl; omega)) $$ [Hoc Hodone]
  · isplitl [Hoc]; · iexact Hoc
    iexact Hodone
  -- gather chunk 8 * k.val + 13 into buffer 5
  sl_exec
  ihave Hls := (pointsTo_split_subset (q := (fullShare.left.left.left.left.left.right)) (f := idxF d L X) (S := Finset.univ) (Finset.subset_univ (oSl (k1_off6 k 5#32) (k1_off6_inb k 5)).view.set)).1 $$ Hl5
  icases Hls with ⟨Hlist5, Hlrest5⟩
  ihave Hbb := (Entails.of_eq (show ((Memref.whole cc1_scratch6).view.loc (V d (cV L) (jV L)) ↦{fullShare} fb5 : sProp 𝕄)
      = ((Memref.whole cc1_scratch6).view.loc (V d (cV L) (jV L)) ↦[(Memref.whole cc1_scratch6).view.set]{fullShare} fb5) by rw [View.set_whole])) $$ Hb5
  iapply (SparseCore.wp_indirectGatherLocal countersEmb 𝒱₀ (V d (cV L) (jV L)) none (hg := gathers_S3328x128_S104x128) (default : HIx 1)
      (Memref.whole cc1_scratch6).view.dmaCredit (hN (Memref.whole cc1_scratch6) _) (by decide) (read_oSl_lt d L X hX 13312 (k1_off6 k 5#32) (k1_off6_inb k 5))) $$ [Htt5 Hbb Hlist5 Hs14]
  · isplitl [Htt5]; · iexact Htt5
    isplitl [Hbb]; · iexact Hbb
    isplitl [Hlist5]; · iexact Hlist5
    iexact Hs14
  iintro Hfl
  ihave Hfl5 := (Transfers.Flight_mono countersEmb (V d (cV L) (jV L)) (sm := SemLoc.dma cc1_scratch14.sem) (ι := (default : HIx 1)) (N := (Memref.whole cc1_scratch6).view.dmaCredit) (gather_deliver d L X Tb (Memref.whole cc1_scratch6) (Memref.isWhole_whole _) (8 * k.val + 13) (k1_off6 k 5#32) (k1_off6_inb k 5) (off6_zero k 5) rfl
      (read_oSl_lt d L X hX 13312 (k1_off6 k 5#32) (k1_off6_inb k 5)) fb5 ((tileShare L).left.left.left.left.left.right) (fullShare.left.left.left.left.left.right))) $$ Hfl
  -- wait for the copy of buffer 6 out to chunk 8 * k.val + 6
  sl_exec
  iapply (Transfers.wp_waitLocalO countersEmb 𝒱₀ (V d (cV L) (jV L)) none (default : HIx 1) (rfl : _ = NO L)) $$ [Hofl6 HO]
  · isplitl [Hofl6]; · iexact Hofl6
    isplitl [HO]; · iexact HO
    iapply (Transfers.MayWaits.elim (SemLoc.dma cc1_scratch23.sem)) $$ Hmw
  iintro ⟨⟨Hoc, ⟨%fb6, Hb6⟩⟩, Hs23, HO⟩
  ihave Hodone := (oDone_put d L (gatherOut (F := F) X Tb : Buf (Elt F) (oLoc d)) (8 * k.val + 6) (by have := k.isLt; have : k1_t3_loop.trips = 15 := rfl; omega)) $$ [Hoc Hodone]
  · isplitl [Hoc]; · iexact Hoc
    iexact Hodone
  -- gather chunk 8 * k.val + 14 into buffer 6
  sl_exec
  ihave Hls := (pointsTo_split_subset (q := (fullShare.left.left.left.left.left.left.right)) (f := idxF d L X) (S := Finset.univ) (Finset.subset_univ (oSl (k1_off6 k 6#32) (k1_off6_inb k 6)).view.set)).1 $$ Hl6
  icases Hls with ⟨Hlist6, Hlrest6⟩
  ihave Hbb := (Entails.of_eq (show ((Memref.whole cc1_scratch7).view.loc (V d (cV L) (jV L)) ↦{fullShare} fb6 : sProp 𝕄)
      = ((Memref.whole cc1_scratch7).view.loc (V d (cV L) (jV L)) ↦[(Memref.whole cc1_scratch7).view.set]{fullShare} fb6) by rw [View.set_whole])) $$ Hb6
  iapply (SparseCore.wp_indirectGatherLocal countersEmb 𝒱₀ (V d (cV L) (jV L)) none (hg := gathers_S3328x128_S104x128) (default : HIx 1)
      (Memref.whole cc1_scratch7).view.dmaCredit (hN (Memref.whole cc1_scratch7) _) (by decide) (read_oSl_lt d L X hX 13312 (k1_off6 k 6#32) (k1_off6_inb k 6))) $$ [Htt6 Hbb Hlist6 Hs15]
  · isplitl [Htt6]; · iexact Htt6
    isplitl [Hbb]; · iexact Hbb
    isplitl [Hlist6]; · iexact Hlist6
    iexact Hs15
  iintro Hfl
  ihave Hfl6 := (Transfers.Flight_mono countersEmb (V d (cV L) (jV L)) (sm := SemLoc.dma cc1_scratch15.sem) (ι := (default : HIx 1)) (N := (Memref.whole cc1_scratch7).view.dmaCredit) (gather_deliver d L X Tb (Memref.whole cc1_scratch7) (Memref.isWhole_whole _) (8 * k.val + 14) (k1_off6 k 6#32) (k1_off6_inb k 6) (off6_zero k 6) rfl
      (read_oSl_lt d L X hX 13312 (k1_off6 k 6#32) (k1_off6_inb k 6)) fb6 ((tileShare L).left.left.left.left.left.left.right) (fullShare.left.left.left.left.left.left.right))) $$ Hfl
  -- wait for the copy of buffer 7 out to chunk 8 * k.val + 7
  sl_exec
  iapply (Transfers.wp_waitLocalO countersEmb 𝒱₀ (V d (cV L) (jV L)) none (default : HIx 1) (rfl : _ = NO L)) $$ [Hofl7 HO]
  · isplitl [Hofl7]; · iexact Hofl7
    isplitl [HO]; · iexact HO
    iapply (Transfers.MayWaits.elim (SemLoc.dma cc1_scratch24.sem)) $$ Hmw
  iintro ⟨⟨Hoc, ⟨%fb7, Hb7⟩⟩, Hs24, HO⟩
  ihave Hodone := (oDone_put d L (gatherOut (F := F) X Tb : Buf (Elt F) (oLoc d)) (8 * k.val + 7) (by have := k.isLt; have : k1_t3_loop.trips = 15 := rfl; omega)) $$ [Hoc Hodone]
  · isplitl [Hoc]; · iexact Hoc
    iexact Hodone
  -- gather chunk 8 * k.val + 15 into buffer 7
  sl_exec
  ihave Hls := (pointsTo_split_subset (q := (fullShare.left.left.left.left.left.left.left.right)) (f := idxF d L X) (S := Finset.univ) (Finset.subset_univ (oSl (k1_off6 k 7#32) (k1_off6_inb k 7)).view.set)).1 $$ Hl7
  icases Hls with ⟨Hlist7, Hlrest7⟩
  ihave Hbb := (Entails.of_eq (show ((Memref.whole cc1_scratch8).view.loc (V d (cV L) (jV L)) ↦{fullShare} fb7 : sProp 𝕄)
      = ((Memref.whole cc1_scratch8).view.loc (V d (cV L) (jV L)) ↦[(Memref.whole cc1_scratch8).view.set]{fullShare} fb7) by rw [View.set_whole])) $$ Hb7
  iapply (SparseCore.wp_indirectGatherLocal countersEmb 𝒱₀ (V d (cV L) (jV L)) none (hg := gathers_S3328x128_S104x128) (default : HIx 1)
      (Memref.whole cc1_scratch8).view.dmaCredit (hN (Memref.whole cc1_scratch8) _) (by decide) (read_oSl_lt d L X hX 13312 (k1_off6 k 7#32) (k1_off6_inb k 7))) $$ [Htt7 Hbb Hlist7 Hs16]
  · isplitl [Htt7]; · iexact Htt7
    isplitl [Hbb]; · iexact Hbb
    isplitl [Hlist7]; · iexact Hlist7
    iexact Hs16
  iintro Hfl
  ihave Hfl7 := (Transfers.Flight_mono countersEmb (V d (cV L) (jV L)) (sm := SemLoc.dma cc1_scratch16.sem) (ι := (default : HIx 1)) (N := (Memref.whole cc1_scratch8).view.dmaCredit) (gather_deliver d L X Tb (Memref.whole cc1_scratch8) (Memref.isWhole_whole _) (8 * k.val + 15) (k1_off6 k 7#32) (k1_off6_inb k 7) (off6_zero k 7) rfl
      (read_oSl_lt d L X hX 13312 (k1_off6 k 7#32) (k1_off6_inb k 7)) fb7 ((tileShare L).left.left.left.left.left.left.left.right) (fullShare.left.left.left.left.left.left.left.right))) $$ Hfl
  -- wait for gather 0
  sl_exec
  iapply (Transfers.wp_waitLocalO countersEmb 𝒱₀ (V d (cV L) (jV L)) none (default : HIx 1) (rfl : (Memref.whole cc1_scratch1).view.dmaCredit = _)) $$ [Hfl0 HO]
  · isplitl [Hfl0]; · iexact Hfl0
    isplitl [HO]; · iexact HO
    iapply (Transfers.MayWaits.elim (SemLoc.dma cc1_scratch9.sem)) $$ Hmw
  iintro ⟨⟨⟨%fb0, Hb0, %hg0⟩, Htt0, Hlist0⟩, Hs9, HO⟩
  ihave Hl0 := (pointsTo_split_subset (q := (fullShare.right)) (f := idxF d L X) (S := Finset.univ) (Finset.subset_univ (oSl (k1_off6 k 0#32) (k1_off6_inb k 0)).view.set)).2 $$ [Hlist0 Hlrest0]
  · isplitl [Hlist0]; · iexact Hlist0
    iexact Hlrest0
  -- copy buffer 0 out to chunk 8 * k.val + 8
  sl_exec
  ihave Hsp := (oRem_take d L O0 (8 * k.val + 8) (by have := k.isLt; have : k1_t3_loop.trips = 15 := rfl; omega)) $$ Horem
  icases Hsp with ⟨Hoc, Horem⟩
  ihave Hoc := (Entails.of_eq (show (oLoc d ↦[oChunk L (8 * k.val + 8)]{fullShare} O0 : sProp 𝕄)
      = ((oSlc (k1_off7 L k 0#32) (k1_off7_inb L k 0)).view.loc (V d (cV L) (jV L)) ↦[(oSlc (k1_off7 L k 0#32) (k1_off7_inb L k 0)).view.set]{fullShare} O0) by rw [set_oSlc L (8 * k.val + 8) (k1_off7 L k 0#32) (k1_off7_inb L k 0) (show (k1_off7 L k 0#32) = ![1024 * (L 1).val + 512 * (L 0).val + 4 * (8 * k.val + 8), 0] from (off7_eq L k 0))])) $$ Hoc
  ihave Hsrc := (Entails.of_eq (show ((Memref.whole cc1_scratch1).view.loc (V d (cV L) (jV L)) ↦{fullShare} fb0 : sProp 𝕄)
      = ((rsh (Memref.whole cc1_scratch1) (Memref.isWhole_whole _)).view.loc (V d (cV L) (jV L)) ↦[(rsh (Memref.whole cc1_scratch1) (Memref.isWhole_whole _)).view.set]{fullShare} fb0) by
        rw [show (rsh (Memref.whole cc1_scratch1) (Memref.isWhole_whole _)).view.set = (Memref.whole cc1_scratch1).view.set from View.set_reshape _ _, View.set_whole])) $$ Hb0
  iapply (Transfers.wp_dmaLocal countersEmb 𝒱₀ (V d (cV L) (jV L)) none (default : HIx 1) (NO L) rfl (View.dmaCredit_pos _ (show 0 < S4x3328.numel by decide)) (Finset.Subset.refl _)) $$ [Hsrc Hoc Hs17]
  · isplitl [Hsrc]; · iexact Hsrc
    isplitl [Hoc]; · iexact Hoc
    iexact Hs17
  iintro Hofl
  ihave Hofl0 := (Transfers.Flight_mono countersEmb (V d (cV L) (jV L)) (sm := SemLoc.dma cc1_scratch17.sem) (ι := (default : HIx 1)) (N := NO L) (out_deliver d L X Tb hX O0 (Memref.whole cc1_scratch1) (Memref.isWhole_whole _) (8 * k.val + 8) (by have := k.isLt; have : k1_t3_loop.trips = 15 := rfl; omega) (k1_off7 L k 0#32) (k1_off7_inb L k 0) (show (k1_off7 L k 0#32) = ![1024 * (L 1).val + 512 * (L 0).val + 4 * (8 * k.val + 8), 0] from (off7_eq L k 0)) fb0 hg0)) $$ Hofl
  -- wait for gather 1
  sl_exec
  iapply (Transfers.wp_waitLocalO countersEmb 𝒱₀ (V d (cV L) (jV L)) none (default : HIx 1) (rfl : (Memref.whole cc1_scratch2).view.dmaCredit = _)) $$ [Hfl1 HO]
  · isplitl [Hfl1]; · iexact Hfl1
    isplitl [HO]; · iexact HO
    iapply (Transfers.MayWaits.elim (SemLoc.dma cc1_scratch10.sem)) $$ Hmw
  iintro ⟨⟨⟨%fb1, Hb1, %hg1⟩, Htt1, Hlist1⟩, Hs10, HO⟩
  ihave Hl1 := (pointsTo_split_subset (q := (fullShare.left.right)) (f := idxF d L X) (S := Finset.univ) (Finset.subset_univ (oSl (k1_off6 k 1#32) (k1_off6_inb k 1)).view.set)).2 $$ [Hlist1 Hlrest1]
  · isplitl [Hlist1]; · iexact Hlist1
    iexact Hlrest1
  -- copy buffer 1 out to chunk 8 * k.val + 9
  sl_exec
  ihave Hsp := (oRem_take d L O0 (8 * k.val + 9) (by have := k.isLt; have : k1_t3_loop.trips = 15 := rfl; omega)) $$ Horem
  icases Hsp with ⟨Hoc, Horem⟩
  ihave Hoc := (Entails.of_eq (show (oLoc d ↦[oChunk L (8 * k.val + 9)]{fullShare} O0 : sProp 𝕄)
      = ((oSlc (k1_off7 L k 1#32) (k1_off7_inb L k 1)).view.loc (V d (cV L) (jV L)) ↦[(oSlc (k1_off7 L k 1#32) (k1_off7_inb L k 1)).view.set]{fullShare} O0) by rw [set_oSlc L (8 * k.val + 9) (k1_off7 L k 1#32) (k1_off7_inb L k 1) (show (k1_off7 L k 1#32) = ![1024 * (L 1).val + 512 * (L 0).val + 4 * (8 * k.val + 9), 0] from (off7_eq L k 1))])) $$ Hoc
  ihave Hsrc := (Entails.of_eq (show ((Memref.whole cc1_scratch2).view.loc (V d (cV L) (jV L)) ↦{fullShare} fb1 : sProp 𝕄)
      = ((rsh (Memref.whole cc1_scratch2) (Memref.isWhole_whole _)).view.loc (V d (cV L) (jV L)) ↦[(rsh (Memref.whole cc1_scratch2) (Memref.isWhole_whole _)).view.set]{fullShare} fb1) by
        rw [show (rsh (Memref.whole cc1_scratch2) (Memref.isWhole_whole _)).view.set = (Memref.whole cc1_scratch2).view.set from View.set_reshape _ _, View.set_whole])) $$ Hb1
  iapply (Transfers.wp_dmaLocal countersEmb 𝒱₀ (V d (cV L) (jV L)) none (default : HIx 1) (NO L) rfl (View.dmaCredit_pos _ (show 0 < S4x3328.numel by decide)) (Finset.Subset.refl _)) $$ [Hsrc Hoc Hs18]
  · isplitl [Hsrc]; · iexact Hsrc
    isplitl [Hoc]; · iexact Hoc
    iexact Hs18
  iintro Hofl
  ihave Hofl1 := (Transfers.Flight_mono countersEmb (V d (cV L) (jV L)) (sm := SemLoc.dma cc1_scratch18.sem) (ι := (default : HIx 1)) (N := NO L) (out_deliver d L X Tb hX O0 (Memref.whole cc1_scratch2) (Memref.isWhole_whole _) (8 * k.val + 9) (by have := k.isLt; have : k1_t3_loop.trips = 15 := rfl; omega) (k1_off7 L k 1#32) (k1_off7_inb L k 1) (show (k1_off7 L k 1#32) = ![1024 * (L 1).val + 512 * (L 0).val + 4 * (8 * k.val + 9), 0] from (off7_eq L k 1)) fb1 hg1)) $$ Hofl
  -- wait for gather 2
  sl_exec
  iapply (Transfers.wp_waitLocalO countersEmb 𝒱₀ (V d (cV L) (jV L)) none (default : HIx 1) (rfl : (Memref.whole cc1_scratch3).view.dmaCredit = _)) $$ [Hfl2 HO]
  · isplitl [Hfl2]; · iexact Hfl2
    isplitl [HO]; · iexact HO
    iapply (Transfers.MayWaits.elim (SemLoc.dma cc1_scratch11.sem)) $$ Hmw
  iintro ⟨⟨⟨%fb2, Hb2, %hg2⟩, Htt2, Hlist2⟩, Hs11, HO⟩
  ihave Hl2 := (pointsTo_split_subset (q := (fullShare.left.left.right)) (f := idxF d L X) (S := Finset.univ) (Finset.subset_univ (oSl (k1_off6 k 2#32) (k1_off6_inb k 2)).view.set)).2 $$ [Hlist2 Hlrest2]
  · isplitl [Hlist2]; · iexact Hlist2
    iexact Hlrest2
  -- copy buffer 2 out to chunk 8 * k.val + 10
  sl_exec
  ihave Hsp := (oRem_take d L O0 (8 * k.val + 10) (by have := k.isLt; have : k1_t3_loop.trips = 15 := rfl; omega)) $$ Horem
  icases Hsp with ⟨Hoc, Horem⟩
  ihave Hoc := (Entails.of_eq (show (oLoc d ↦[oChunk L (8 * k.val + 10)]{fullShare} O0 : sProp 𝕄)
      = ((oSlc (k1_off7 L k 2#32) (k1_off7_inb L k 2)).view.loc (V d (cV L) (jV L)) ↦[(oSlc (k1_off7 L k 2#32) (k1_off7_inb L k 2)).view.set]{fullShare} O0) by rw [set_oSlc L (8 * k.val + 10) (k1_off7 L k 2#32) (k1_off7_inb L k 2) (show (k1_off7 L k 2#32) = ![1024 * (L 1).val + 512 * (L 0).val + 4 * (8 * k.val + 10), 0] from (off7_eq L k 2))])) $$ Hoc
  ihave Hsrc := (Entails.of_eq (show ((Memref.whole cc1_scratch3).view.loc (V d (cV L) (jV L)) ↦{fullShare} fb2 : sProp 𝕄)
      = ((rsh (Memref.whole cc1_scratch3) (Memref.isWhole_whole _)).view.loc (V d (cV L) (jV L)) ↦[(rsh (Memref.whole cc1_scratch3) (Memref.isWhole_whole _)).view.set]{fullShare} fb2) by
        rw [show (rsh (Memref.whole cc1_scratch3) (Memref.isWhole_whole _)).view.set = (Memref.whole cc1_scratch3).view.set from View.set_reshape _ _, View.set_whole])) $$ Hb2
  iapply (Transfers.wp_dmaLocal countersEmb 𝒱₀ (V d (cV L) (jV L)) none (default : HIx 1) (NO L) rfl (View.dmaCredit_pos _ (show 0 < S4x3328.numel by decide)) (Finset.Subset.refl _)) $$ [Hsrc Hoc Hs19]
  · isplitl [Hsrc]; · iexact Hsrc
    isplitl [Hoc]; · iexact Hoc
    iexact Hs19
  iintro Hofl
  ihave Hofl2 := (Transfers.Flight_mono countersEmb (V d (cV L) (jV L)) (sm := SemLoc.dma cc1_scratch19.sem) (ι := (default : HIx 1)) (N := NO L) (out_deliver d L X Tb hX O0 (Memref.whole cc1_scratch3) (Memref.isWhole_whole _) (8 * k.val + 10) (by have := k.isLt; have : k1_t3_loop.trips = 15 := rfl; omega) (k1_off7 L k 2#32) (k1_off7_inb L k 2) (show (k1_off7 L k 2#32) = ![1024 * (L 1).val + 512 * (L 0).val + 4 * (8 * k.val + 10), 0] from (off7_eq L k 2)) fb2 hg2)) $$ Hofl
  -- wait for gather 3
  sl_exec
  iapply (Transfers.wp_waitLocalO countersEmb 𝒱₀ (V d (cV L) (jV L)) none (default : HIx 1) (rfl : (Memref.whole cc1_scratch4).view.dmaCredit = _)) $$ [Hfl3 HO]
  · isplitl [Hfl3]; · iexact Hfl3
    isplitl [HO]; · iexact HO
    iapply (Transfers.MayWaits.elim (SemLoc.dma cc1_scratch12.sem)) $$ Hmw
  iintro ⟨⟨⟨%fb3, Hb3, %hg3⟩, Htt3, Hlist3⟩, Hs12, HO⟩
  ihave Hl3 := (pointsTo_split_subset (q := (fullShare.left.left.left.right)) (f := idxF d L X) (S := Finset.univ) (Finset.subset_univ (oSl (k1_off6 k 3#32) (k1_off6_inb k 3)).view.set)).2 $$ [Hlist3 Hlrest3]
  · isplitl [Hlist3]; · iexact Hlist3
    iexact Hlrest3
  -- copy buffer 3 out to chunk 8 * k.val + 11
  sl_exec
  ihave Hsp := (oRem_take d L O0 (8 * k.val + 11) (by have := k.isLt; have : k1_t3_loop.trips = 15 := rfl; omega)) $$ Horem
  icases Hsp with ⟨Hoc, Horem⟩
  ihave Hoc := (Entails.of_eq (show (oLoc d ↦[oChunk L (8 * k.val + 11)]{fullShare} O0 : sProp 𝕄)
      = ((oSlc (k1_off7 L k 3#32) (k1_off7_inb L k 3)).view.loc (V d (cV L) (jV L)) ↦[(oSlc (k1_off7 L k 3#32) (k1_off7_inb L k 3)).view.set]{fullShare} O0) by rw [set_oSlc L (8 * k.val + 11) (k1_off7 L k 3#32) (k1_off7_inb L k 3) (show (k1_off7 L k 3#32) = ![1024 * (L 1).val + 512 * (L 0).val + 4 * (8 * k.val + 11), 0] from (off7_eq L k 3))])) $$ Hoc
  ihave Hsrc := (Entails.of_eq (show ((Memref.whole cc1_scratch4).view.loc (V d (cV L) (jV L)) ↦{fullShare} fb3 : sProp 𝕄)
      = ((rsh (Memref.whole cc1_scratch4) (Memref.isWhole_whole _)).view.loc (V d (cV L) (jV L)) ↦[(rsh (Memref.whole cc1_scratch4) (Memref.isWhole_whole _)).view.set]{fullShare} fb3) by
        rw [show (rsh (Memref.whole cc1_scratch4) (Memref.isWhole_whole _)).view.set = (Memref.whole cc1_scratch4).view.set from View.set_reshape _ _, View.set_whole])) $$ Hb3
  iapply (Transfers.wp_dmaLocal countersEmb 𝒱₀ (V d (cV L) (jV L)) none (default : HIx 1) (NO L) rfl (View.dmaCredit_pos _ (show 0 < S4x3328.numel by decide)) (Finset.Subset.refl _)) $$ [Hsrc Hoc Hs20]
  · isplitl [Hsrc]; · iexact Hsrc
    isplitl [Hoc]; · iexact Hoc
    iexact Hs20
  iintro Hofl
  ihave Hofl3 := (Transfers.Flight_mono countersEmb (V d (cV L) (jV L)) (sm := SemLoc.dma cc1_scratch20.sem) (ι := (default : HIx 1)) (N := NO L) (out_deliver d L X Tb hX O0 (Memref.whole cc1_scratch4) (Memref.isWhole_whole _) (8 * k.val + 11) (by have := k.isLt; have : k1_t3_loop.trips = 15 := rfl; omega) (k1_off7 L k 3#32) (k1_off7_inb L k 3) (show (k1_off7 L k 3#32) = ![1024 * (L 1).val + 512 * (L 0).val + 4 * (8 * k.val + 11), 0] from (off7_eq L k 3)) fb3 hg3)) $$ Hofl
  -- wait for gather 4
  sl_exec
  iapply (Transfers.wp_waitLocalO countersEmb 𝒱₀ (V d (cV L) (jV L)) none (default : HIx 1) (rfl : (Memref.whole cc1_scratch5).view.dmaCredit = _)) $$ [Hfl4 HO]
  · isplitl [Hfl4]; · iexact Hfl4
    isplitl [HO]; · iexact HO
    iapply (Transfers.MayWaits.elim (SemLoc.dma cc1_scratch13.sem)) $$ Hmw
  iintro ⟨⟨⟨%fb4, Hb4, %hg4⟩, Htt4, Hlist4⟩, Hs13, HO⟩
  ihave Hl4 := (pointsTo_split_subset (q := (fullShare.left.left.left.left.right)) (f := idxF d L X) (S := Finset.univ) (Finset.subset_univ (oSl (k1_off6 k 4#32) (k1_off6_inb k 4)).view.set)).2 $$ [Hlist4 Hlrest4]
  · isplitl [Hlist4]; · iexact Hlist4
    iexact Hlrest4
  -- copy buffer 4 out to chunk 8 * k.val + 12
  sl_exec
  ihave Hsp := (oRem_take d L O0 (8 * k.val + 12) (by have := k.isLt; have : k1_t3_loop.trips = 15 := rfl; omega)) $$ Horem
  icases Hsp with ⟨Hoc, Horem⟩
  ihave Hoc := (Entails.of_eq (show (oLoc d ↦[oChunk L (8 * k.val + 12)]{fullShare} O0 : sProp 𝕄)
      = ((oSlc (k1_off7 L k 4#32) (k1_off7_inb L k 4)).view.loc (V d (cV L) (jV L)) ↦[(oSlc (k1_off7 L k 4#32) (k1_off7_inb L k 4)).view.set]{fullShare} O0) by rw [set_oSlc L (8 * k.val + 12) (k1_off7 L k 4#32) (k1_off7_inb L k 4) (show (k1_off7 L k 4#32) = ![1024 * (L 1).val + 512 * (L 0).val + 4 * (8 * k.val + 12), 0] from (off7_eq L k 4))])) $$ Hoc
  ihave Hsrc := (Entails.of_eq (show ((Memref.whole cc1_scratch5).view.loc (V d (cV L) (jV L)) ↦{fullShare} fb4 : sProp 𝕄)
      = ((rsh (Memref.whole cc1_scratch5) (Memref.isWhole_whole _)).view.loc (V d (cV L) (jV L)) ↦[(rsh (Memref.whole cc1_scratch5) (Memref.isWhole_whole _)).view.set]{fullShare} fb4) by
        rw [show (rsh (Memref.whole cc1_scratch5) (Memref.isWhole_whole _)).view.set = (Memref.whole cc1_scratch5).view.set from View.set_reshape _ _, View.set_whole])) $$ Hb4
  iapply (Transfers.wp_dmaLocal countersEmb 𝒱₀ (V d (cV L) (jV L)) none (default : HIx 1) (NO L) rfl (View.dmaCredit_pos _ (show 0 < S4x3328.numel by decide)) (Finset.Subset.refl _)) $$ [Hsrc Hoc Hs21]
  · isplitl [Hsrc]; · iexact Hsrc
    isplitl [Hoc]; · iexact Hoc
    iexact Hs21
  iintro Hofl
  ihave Hofl4 := (Transfers.Flight_mono countersEmb (V d (cV L) (jV L)) (sm := SemLoc.dma cc1_scratch21.sem) (ι := (default : HIx 1)) (N := NO L) (out_deliver d L X Tb hX O0 (Memref.whole cc1_scratch5) (Memref.isWhole_whole _) (8 * k.val + 12) (by have := k.isLt; have : k1_t3_loop.trips = 15 := rfl; omega) (k1_off7 L k 4#32) (k1_off7_inb L k 4) (show (k1_off7 L k 4#32) = ![1024 * (L 1).val + 512 * (L 0).val + 4 * (8 * k.val + 12), 0] from (off7_eq L k 4)) fb4 hg4)) $$ Hofl
  -- wait for gather 5
  sl_exec
  iapply (Transfers.wp_waitLocalO countersEmb 𝒱₀ (V d (cV L) (jV L)) none (default : HIx 1) (rfl : (Memref.whole cc1_scratch6).view.dmaCredit = _)) $$ [Hfl5 HO]
  · isplitl [Hfl5]; · iexact Hfl5
    isplitl [HO]; · iexact HO
    iapply (Transfers.MayWaits.elim (SemLoc.dma cc1_scratch14.sem)) $$ Hmw
  iintro ⟨⟨⟨%fb5, Hb5, %hg5⟩, Htt5, Hlist5⟩, Hs14, HO⟩
  ihave Hl5 := (pointsTo_split_subset (q := (fullShare.left.left.left.left.left.right)) (f := idxF d L X) (S := Finset.univ) (Finset.subset_univ (oSl (k1_off6 k 5#32) (k1_off6_inb k 5)).view.set)).2 $$ [Hlist5 Hlrest5]
  · isplitl [Hlist5]; · iexact Hlist5
    iexact Hlrest5
  -- copy buffer 5 out to chunk 8 * k.val + 13
  sl_exec
  ihave Hsp := (oRem_take d L O0 (8 * k.val + 13) (by have := k.isLt; have : k1_t3_loop.trips = 15 := rfl; omega)) $$ Horem
  icases Hsp with ⟨Hoc, Horem⟩
  ihave Hoc := (Entails.of_eq (show (oLoc d ↦[oChunk L (8 * k.val + 13)]{fullShare} O0 : sProp 𝕄)
      = ((oSlc (k1_off7 L k 5#32) (k1_off7_inb L k 5)).view.loc (V d (cV L) (jV L)) ↦[(oSlc (k1_off7 L k 5#32) (k1_off7_inb L k 5)).view.set]{fullShare} O0) by rw [set_oSlc L (8 * k.val + 13) (k1_off7 L k 5#32) (k1_off7_inb L k 5) (show (k1_off7 L k 5#32) = ![1024 * (L 1).val + 512 * (L 0).val + 4 * (8 * k.val + 13), 0] from (off7_eq L k 5))])) $$ Hoc
  ihave Hsrc := (Entails.of_eq (show ((Memref.whole cc1_scratch6).view.loc (V d (cV L) (jV L)) ↦{fullShare} fb5 : sProp 𝕄)
      = ((rsh (Memref.whole cc1_scratch6) (Memref.isWhole_whole _)).view.loc (V d (cV L) (jV L)) ↦[(rsh (Memref.whole cc1_scratch6) (Memref.isWhole_whole _)).view.set]{fullShare} fb5) by
        rw [show (rsh (Memref.whole cc1_scratch6) (Memref.isWhole_whole _)).view.set = (Memref.whole cc1_scratch6).view.set from View.set_reshape _ _, View.set_whole])) $$ Hb5
  iapply (Transfers.wp_dmaLocal countersEmb 𝒱₀ (V d (cV L) (jV L)) none (default : HIx 1) (NO L) rfl (View.dmaCredit_pos _ (show 0 < S4x3328.numel by decide)) (Finset.Subset.refl _)) $$ [Hsrc Hoc Hs22]
  · isplitl [Hsrc]; · iexact Hsrc
    isplitl [Hoc]; · iexact Hoc
    iexact Hs22
  iintro Hofl
  ihave Hofl5 := (Transfers.Flight_mono countersEmb (V d (cV L) (jV L)) (sm := SemLoc.dma cc1_scratch22.sem) (ι := (default : HIx 1)) (N := NO L) (out_deliver d L X Tb hX O0 (Memref.whole cc1_scratch6) (Memref.isWhole_whole _) (8 * k.val + 13) (by have := k.isLt; have : k1_t3_loop.trips = 15 := rfl; omega) (k1_off7 L k 5#32) (k1_off7_inb L k 5) (show (k1_off7 L k 5#32) = ![1024 * (L 1).val + 512 * (L 0).val + 4 * (8 * k.val + 13), 0] from (off7_eq L k 5)) fb5 hg5)) $$ Hofl
  -- wait for gather 6
  sl_exec
  iapply (Transfers.wp_waitLocalO countersEmb 𝒱₀ (V d (cV L) (jV L)) none (default : HIx 1) (rfl : (Memref.whole cc1_scratch7).view.dmaCredit = _)) $$ [Hfl6 HO]
  · isplitl [Hfl6]; · iexact Hfl6
    isplitl [HO]; · iexact HO
    iapply (Transfers.MayWaits.elim (SemLoc.dma cc1_scratch15.sem)) $$ Hmw
  iintro ⟨⟨⟨%fb6, Hb6, %hg6⟩, Htt6, Hlist6⟩, Hs15, HO⟩
  ihave Hl6 := (pointsTo_split_subset (q := (fullShare.left.left.left.left.left.left.right)) (f := idxF d L X) (S := Finset.univ) (Finset.subset_univ (oSl (k1_off6 k 6#32) (k1_off6_inb k 6)).view.set)).2 $$ [Hlist6 Hlrest6]
  · isplitl [Hlist6]; · iexact Hlist6
    iexact Hlrest6
  -- copy buffer 6 out to chunk 8 * k.val + 14
  sl_exec
  ihave Hsp := (oRem_take d L O0 (8 * k.val + 14) (by have := k.isLt; have : k1_t3_loop.trips = 15 := rfl; omega)) $$ Horem
  icases Hsp with ⟨Hoc, Horem⟩
  ihave Hoc := (Entails.of_eq (show (oLoc d ↦[oChunk L (8 * k.val + 14)]{fullShare} O0 : sProp 𝕄)
      = ((oSlc (k1_off7 L k 6#32) (k1_off7_inb L k 6)).view.loc (V d (cV L) (jV L)) ↦[(oSlc (k1_off7 L k 6#32) (k1_off7_inb L k 6)).view.set]{fullShare} O0) by rw [set_oSlc L (8 * k.val + 14) (k1_off7 L k 6#32) (k1_off7_inb L k 6) (show (k1_off7 L k 6#32) = ![1024 * (L 1).val + 512 * (L 0).val + 4 * (8 * k.val + 14), 0] from (off7_eq L k 6))])) $$ Hoc
  ihave Hsrc := (Entails.of_eq (show ((Memref.whole cc1_scratch7).view.loc (V d (cV L) (jV L)) ↦{fullShare} fb6 : sProp 𝕄)
      = ((rsh (Memref.whole cc1_scratch7) (Memref.isWhole_whole _)).view.loc (V d (cV L) (jV L)) ↦[(rsh (Memref.whole cc1_scratch7) (Memref.isWhole_whole _)).view.set]{fullShare} fb6) by
        rw [show (rsh (Memref.whole cc1_scratch7) (Memref.isWhole_whole _)).view.set = (Memref.whole cc1_scratch7).view.set from View.set_reshape _ _, View.set_whole])) $$ Hb6
  iapply (Transfers.wp_dmaLocal countersEmb 𝒱₀ (V d (cV L) (jV L)) none (default : HIx 1) (NO L) rfl (View.dmaCredit_pos _ (show 0 < S4x3328.numel by decide)) (Finset.Subset.refl _)) $$ [Hsrc Hoc Hs23]
  · isplitl [Hsrc]; · iexact Hsrc
    isplitl [Hoc]; · iexact Hoc
    iexact Hs23
  iintro Hofl
  ihave Hofl6 := (Transfers.Flight_mono countersEmb (V d (cV L) (jV L)) (sm := SemLoc.dma cc1_scratch23.sem) (ι := (default : HIx 1)) (N := NO L) (out_deliver d L X Tb hX O0 (Memref.whole cc1_scratch7) (Memref.isWhole_whole _) (8 * k.val + 14) (by have := k.isLt; have : k1_t3_loop.trips = 15 := rfl; omega) (k1_off7 L k 6#32) (k1_off7_inb L k 6) (show (k1_off7 L k 6#32) = ![1024 * (L 1).val + 512 * (L 0).val + 4 * (8 * k.val + 14), 0] from (off7_eq L k 6)) fb6 hg6)) $$ Hofl
  -- wait for gather 7
  sl_exec
  iapply (Transfers.wp_waitLocalO countersEmb 𝒱₀ (V d (cV L) (jV L)) none (default : HIx 1) (rfl : (Memref.whole cc1_scratch8).view.dmaCredit = _)) $$ [Hfl7 HO]
  · isplitl [Hfl7]; · iexact Hfl7
    isplitl [HO]; · iexact HO
    iapply (Transfers.MayWaits.elim (SemLoc.dma cc1_scratch16.sem)) $$ Hmw
  iintro ⟨⟨⟨%fb7, Hb7, %hg7⟩, Htt7, Hlist7⟩, Hs16, HO⟩
  ihave Hl7 := (pointsTo_split_subset (q := (fullShare.left.left.left.left.left.left.left.right)) (f := idxF d L X) (S := Finset.univ) (Finset.subset_univ (oSl (k1_off6 k 7#32) (k1_off6_inb k 7)).view.set)).2 $$ [Hlist7 Hlrest7]
  · isplitl [Hlist7]; · iexact Hlist7
    iexact Hlrest7
  -- copy buffer 7 out to chunk 8 * k.val + 15
  sl_exec
  ihave Hsp := (oRem_take d L O0 (8 * k.val + 15) (by have := k.isLt; have : k1_t3_loop.trips = 15 := rfl; omega)) $$ Horem
  icases Hsp with ⟨Hoc, Horem⟩
  ihave Hoc := (Entails.of_eq (show (oLoc d ↦[oChunk L (8 * k.val + 15)]{fullShare} O0 : sProp 𝕄)
      = ((oSlc (k1_off7 L k 7#32) (k1_off7_inb L k 7)).view.loc (V d (cV L) (jV L)) ↦[(oSlc (k1_off7 L k 7#32) (k1_off7_inb L k 7)).view.set]{fullShare} O0) by rw [set_oSlc L (8 * k.val + 15) (k1_off7 L k 7#32) (k1_off7_inb L k 7) (show (k1_off7 L k 7#32) = ![1024 * (L 1).val + 512 * (L 0).val + 4 * (8 * k.val + 15), 0] from (off7_eq L k 7))])) $$ Hoc
  ihave Hsrc := (Entails.of_eq (show ((Memref.whole cc1_scratch8).view.loc (V d (cV L) (jV L)) ↦{fullShare} fb7 : sProp 𝕄)
      = ((rsh (Memref.whole cc1_scratch8) (Memref.isWhole_whole _)).view.loc (V d (cV L) (jV L)) ↦[(rsh (Memref.whole cc1_scratch8) (Memref.isWhole_whole _)).view.set]{fullShare} fb7) by
        rw [show (rsh (Memref.whole cc1_scratch8) (Memref.isWhole_whole _)).view.set = (Memref.whole cc1_scratch8).view.set from View.set_reshape _ _, View.set_whole])) $$ Hb7
  iapply (Transfers.wp_dmaLocal countersEmb 𝒱₀ (V d (cV L) (jV L)) none (default : HIx 1) (NO L) rfl (View.dmaCredit_pos _ (show 0 < S4x3328.numel by decide)) (Finset.Subset.refl _)) $$ [Hsrc Hoc Hs24]
  · isplitl [Hsrc]; · iexact Hsrc
    isplitl [Hoc]; · iexact Hoc
    iexact Hs24
  iintro Hofl
  ihave Hofl7 := (Transfers.Flight_mono countersEmb (V d (cV L) (jV L)) (sm := SemLoc.dma cc1_scratch24.sem) (ι := (default : HIx 1)) (N := NO L) (out_deliver d L X Tb hX O0 (Memref.whole cc1_scratch8) (Memref.isWhole_whole _) (8 * k.val + 15) (by have := k.isLt; have : k1_t3_loop.trips = 15 := rfl; omega) (k1_off7 L k 7#32) (k1_off7_inb L k 7) (show (k1_off7 L k 7#32) = ![1024 * (L 1).val + 512 * (L 0).val + 4 * (8 * k.val + 15), 0] from (off7_eq L k 7)) fb7 hg7)) $$ Hofl
  sl_exec
  sl_step
  ihave Hodone := (Entails.of_eq (congrArg (fun n : ℕ => ((oLoc d ↦[oDone L n]{fullShare} (gatherOut (F := F) X Tb : Buf (Elt F) (oLoc d))) : sProp 𝕄)) (show 8 * k.val + 7 + 1 = 8 * (k.val + 1) by omega))) $$ Hodone
  ihave Horem := (Entails.of_eq (congrArg (fun n : ℕ => ((oLoc d ↦[oRem L n]{fullShare} O0) : sProp 𝕄)) (show 8 * k.val + (8 + 7) + 1 = 8 * (k.val + 1) + 8 by omega))) $$ Horem
  ihave Hofl0 := (Entails.of_eq (congrArg (fun n : ℕ => (OFl d L X Tb (Memref.whole cc1_scratch1) cc1_scratch17 n : sProp 𝕄)) (show 8 * k.val + (8 + 0) = 8 * (k.val + 1) + 0 by omega))) $$ Hofl0
  ihave Hofl1 := (Entails.of_eq (congrArg (fun n : ℕ => (OFl d L X Tb (Memref.whole cc1_scratch2) cc1_scratch18 n : sProp 𝕄)) (show 8 * k.val + (8 + 1) = 8 * (k.val + 1) + 1 by omega))) $$ Hofl1
  ihave Hofl2 := (Entails.of_eq (congrArg (fun n : ℕ => (OFl d L X Tb (Memref.whole cc1_scratch3) cc1_scratch19 n : sProp 𝕄)) (show 8 * k.val + (8 + 2) = 8 * (k.val + 1) + 2 by omega))) $$ Hofl2
  ihave Hofl3 := (Entails.of_eq (congrArg (fun n : ℕ => (OFl d L X Tb (Memref.whole cc1_scratch4) cc1_scratch20 n : sProp 𝕄)) (show 8 * k.val + (8 + 3) = 8 * (k.val + 1) + 3 by omega))) $$ Hofl3
  ihave Hofl4 := (Entails.of_eq (congrArg (fun n : ℕ => (OFl d L X Tb (Memref.whole cc1_scratch5) cc1_scratch21 n : sProp 𝕄)) (show 8 * k.val + (8 + 4) = 8 * (k.val + 1) + 4 by omega))) $$ Hofl4
  ihave Hofl5 := (Entails.of_eq (congrArg (fun n : ℕ => (OFl d L X Tb (Memref.whole cc1_scratch6) cc1_scratch22 n : sProp 𝕄)) (show 8 * k.val + (8 + 5) = 8 * (k.val + 1) + 5 by omega))) $$ Hofl5
  ihave Hofl6 := (Entails.of_eq (congrArg (fun n : ℕ => (OFl d L X Tb (Memref.whole cc1_scratch7) cc1_scratch23 n : sProp 𝕄)) (show 8 * k.val + (8 + 6) = 8 * (k.val + 1) + 6 by omega))) $$ Hofl6
  ihave Hofl7 := (Entails.of_eq (congrArg (fun n : ℕ => (OFl d L X Tb (Memref.whole cc1_scratch8) cc1_scratch24 n : sProp 𝕄)) (show 8 * k.val + (8 + 7) = 8 * (k.val + 1) + 7 by omega))) $$ Hofl7
  isplitr; · iexact Hmw
  isplitl [HO]
  · iexists _
    isplitr
    swap
    · iexact HO
    ipureintro; repeat (first | exact hW' | apply waits_ok)
  isplitl [Hodone]
  · iexact Hodone
  isplitl [Horem]
  · iexact Horem
  isplitl [Hofl0]
  · iexact Hofl0
  isplitl [Hofl1]
  · iexact Hofl1
  isplitl [Hofl2]
  · iexact Hofl2
  isplitl [Hofl3]
  · iexact Hofl3
  isplitl [Hofl4]
  · iexact Hofl4
  isplitl [Hofl5]
  · iexact Hofl5
  isplitl [Hofl6]
  · iexact Hofl6
  isplitl [Hofl7]
  · iexact Hofl7
  isplitl [Htt0]
  · iexact Htt0
  isplitl [Htt1]
  · iexact Htt1
  isplitl [Htt2]
  · iexact Htt2
  isplitl [Htt3]
  · iexact Htt3
  isplitl [Htt4]
  · iexact Htt4
  isplitl [Htt5]
  · iexact Htt5
  isplitl [Htt6]
  · iexact Htt6
  isplitl [Htt7]
  · iexact Htt7
  isplitl [Hl0]
  · iexact Hl0
  isplitl [Hl1]
  · iexact Hl1
  isplitl [Hl2]
  · iexact Hl2
  isplitl [Hl3]
  · iexact Hl3
  isplitl [Hl4]
  · iexact Hl4
  isplitl [Hl5]
  · iexact Hl5
  isplitl [Hl6]
  · iexact Hl6
  isplitl [Hl7]
  · iexact Hl7
  isplitl [Hs9]
  · iexact Hs9
  isplitl [Hs10]
  · iexact Hs10
  isplitl [Hs11]
  · iexact Hs11
  isplitl [Hs12]
  · iexact Hs12
  isplitl [Hs13]
  · iexact Hs13
  isplitl [Hs14]
  · iexact Hs14
  isplitl [Hs15]
  · iexact Hs15
  iexact Hs16

end Tile
end Cert.Proof.KI
end
-- ==== Proof.TileI5.lean ====
import proofs.«207321_g10943576670982_fold_wed_m_632_36_alg».proof.Proof.TileI4

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
variable {U : Type} [URA U]

local notation "𝕄" => MT nD τ sig (HIx 1) (Elt F) ℕ U ℕ

variable [CountersIn U] [FloatOps F]

section Tile
variable (d : Dev nD) (L : grid1.Coords)

theorem oDone_zero (L : grid1.Coords) : oDone L (8 * 0) = ∅ := by
  ext j; simp only [oDone, Finset.mem_filter, Finset.mem_univ, true_and, Finset.notMem_empty, iff_false]; omega

/-- Before the ring's first trip no chunk is finished. -/
theorem oDone_init (G : Buf (Elt F) (oLoc d)) : (emp : sProp 𝕄) ⊢ (oLoc d ↦[oDone L (8 * 0)]{fullShare} G) := by
  rw [oDone_zero, pointsTo_empty]

set_option maxHeartbeats 8000000 in
theorem part9_spec (X : Buf (Elt F) (xLoc d)) (Tb : Buf (Elt F) (tLoc d)) (O0 : Buf (Elt F) (oLoc d)) (hX : ∀ j, (X j : BitVec 32).toNat < 128)
    (O : CellTallies nD τ sig (HIx 1)) (W : Waits sig (HIx 1)) (v3 : BitVec 32) (Φ : PUnit → sProp 𝕄) :
    iprop((Transfers.MayWaits (V d (cV L) (jV L)) (default : HIx 1) O
        ∗ (∃ W', ⌜∀ p ∈ W', p ∈ W ∨ p.2 = none⌝ ∗ owes (V d (cV L) (jV L)) O W')
        ∗ (oLoc d ↦[oRem L 6]{fullShare} O0)
        ∗ (∃ f, ((Memref.whole cc1_scratch7).view.loc (V d (cV L) (jV L)) ↦{fullShare} f) ∗ ⌜goodBuf d L X Tb 6 ((Memref.whole cc1_scratch7).view.read (Elt F) f)⌝)
        ∗ semVal (cellOf d L cc1_scratch23) 0
        ∗ semVal (cellOf d L cc1_scratch24) 0
        ∗ GFl d L X Tb (Memref.whole cc1_scratch8) cc1_scratch16 7 ((tileShare L).left.left.left.left.left.left.left.right) ((oSl ![728] inb_S13312_S104_728).view.set) (fullShare.left.left.left.left.left.left.left.right)
        ∗ OFl d L X Tb (Memref.whole cc1_scratch1) cc1_scratch17 0
        ∗ OFl d L X Tb (Memref.whole cc1_scratch2) cc1_scratch18 1
        ∗ OFl d L X Tb (Memref.whole cc1_scratch3) cc1_scratch19 2
        ∗ OFl d L X Tb (Memref.whole cc1_scratch4) cc1_scratch20 3
        ∗ OFl d L X Tb (Memref.whole cc1_scratch5) cc1_scratch21 4
        ∗ OFl d L X Tb (Memref.whole cc1_scratch6) cc1_scratch22 5
        ∗ ((V d (cV L) (jV L)).loc cc1_scratch0 ↦[hiSet]{fullShare} idxF d L X)
        ∗ ((V d (cV L) (jV L)).loc cc1_scratch0 ↦[loSet]{(fullShare.left.left.left.left.left.left.left.left)} idxF d L X)
        ∗ ((V d (cV L) (jV L)).loc cc1_scratch0 ↦[loSet \ (oSl ![0] inb_S13312_S104_0).view.set]{(fullShare.right)} idxF d L X)
        ∗ ((V d (cV L) (jV L)).loc cc1_scratch0 ↦[loSet \ (oSl ![104] inb_S13312_S104_104).view.set]{(fullShare.left.right)} idxF d L X)
        ∗ ((V d (cV L) (jV L)).loc cc1_scratch0 ↦[loSet \ (oSl ![208] inb_S13312_S104_208).view.set]{(fullShare.left.left.right)} idxF d L X)
        ∗ ((V d (cV L) (jV L)).loc cc1_scratch0 ↦[loSet \ (oSl ![312] inb_S13312_S104_312).view.set]{(fullShare.left.left.left.right)} idxF d L X)
        ∗ ((V d (cV L) (jV L)).loc cc1_scratch0 ↦[loSet \ (oSl ![416] inb_S13312_S104_416).view.set]{(fullShare.left.left.left.left.right)} idxF d L X)
        ∗ ((V d (cV L) (jV L)).loc cc1_scratch0 ↦[loSet \ (oSl ![520] inb_S13312_S104_520).view.set]{(fullShare.left.left.left.left.left.right)} idxF d L X)
        ∗ ((V d (cV L) (jV L)).loc cc1_scratch0 ↦[loSet \ (oSl ![624] inb_S13312_S104_624).view.set]{(fullShare.left.left.left.left.left.left.right)} idxF d L X)
        ∗ ((V d (cV L) (jV L)).loc cc1_scratch0 ↦[loSet \ (oSl ![728] inb_S13312_S104_728).view.set]{(fullShare.left.left.left.left.left.left.left.right)} idxF d L X)
        ∗ ((V d (cV L) (jV L)).loc cc1_scratch0 ↦[(oSl ![0] inb_S13312_S104_0).view.set]{(fullShare.right)} idxF d L X)
        ∗ ((V d (cV L) (jV L)).loc cc1_scratch0 ↦[(oSl ![104] inb_S13312_S104_104).view.set]{(fullShare.left.right)} idxF d L X)
        ∗ ((V d (cV L) (jV L)).loc cc1_scratch0 ↦[(oSl ![208] inb_S13312_S104_208).view.set]{(fullShare.left.left.right)} idxF d L X)
        ∗ ((V d (cV L) (jV L)).loc cc1_scratch0 ↦[(oSl ![312] inb_S13312_S104_312).view.set]{(fullShare.left.left.left.right)} idxF d L X)
        ∗ ((V d (cV L) (jV L)).loc cc1_scratch0 ↦[(oSl ![416] inb_S13312_S104_416).view.set]{(fullShare.left.left.left.left.right)} idxF d L X)
        ∗ ((V d (cV L) (jV L)).loc cc1_scratch0 ↦[(oSl ![520] inb_S13312_S104_520).view.set]{(fullShare.left.left.left.left.left.right)} idxF d L X)
        ∗ ((V d (cV L) (jV L)).loc cc1_scratch0 ↦[(oSl ![624] inb_S13312_S104_624).view.set]{(fullShare.left.left.left.left.left.left.right)} idxF d L X)
        ∗ ((tSl).view.loc (V d (cV L) (jV L)) ↦[(tSl).view.set]{((tileShare L).right)} Tb)
        ∗ ((tSl).view.loc (V d (cV L) (jV L)) ↦[(tSl).view.set]{((tileShare L).left.right)} Tb)
        ∗ ((tSl).view.loc (V d (cV L) (jV L)) ↦[(tSl).view.set]{((tileShare L).left.left.right)} Tb)
        ∗ ((tSl).view.loc (V d (cV L) (jV L)) ↦[(tSl).view.set]{((tileShare L).left.left.left.right)} Tb)
        ∗ ((tSl).view.loc (V d (cV L) (jV L)) ↦[(tSl).view.set]{((tileShare L).left.left.left.left.right)} Tb)
        ∗ ((tSl).view.loc (V d (cV L) (jV L)) ↦[(tSl).view.set]{((tileShare L).left.left.left.left.left.right)} Tb)
        ∗ ((tSl).view.loc (V d (cV L) (jV L)) ↦[(tSl).view.set]{((tileShare L).left.left.left.left.left.left.right)} Tb)
        ∗ semVal (cellOf d L cc1_scratch9) 0
        ∗ semVal (cellOf d L cc1_scratch10) 0
        ∗ semVal (cellOf d L cc1_scratch11) 0
        ∗ semVal (cellOf d L cc1_scratch12) 0
        ∗ semVal (cellOf d L cc1_scratch13) 0
        ∗ semVal (cellOf d L cc1_scratch14) 0
        ∗ semVal (cellOf d L cc1_scratch15) 0
        ∗ (oLoc d ↦[oDone L (8 * 0)]{fullShare} (gatherOut (F := F) X Tb : Buf (Elt F) (oLoc d))))
        ∗ (((∃ W', ⌜∀ p ∈ W', p ∈ W ∨ p.2 = none⌝ ∗ owes (V d (cV L) (jV L)) O W')
        ∗ (oLoc d ↦[oDone L 125]{fullShare} (gatherOut (F := F) X Tb : Buf (Elt F) (oLoc d)))
        ∗ (oLoc d ↦[oRem L 128]{fullShare} O0)
        ∗ OFl d L X Tb (Memref.whole cc1_scratch6) cc1_scratch22 125
        ∗ OFl d L X Tb (Memref.whole cc1_scratch7) cc1_scratch23 126
        ∗ OFl d L X Tb (Memref.whole cc1_scratch8) cc1_scratch24 127
        ∗ (∃ f, (Memref.whole cc1_scratch1).view.loc (V d (cV L) (jV L)) ↦{fullShare} f)
        ∗ (∃ f, (Memref.whole cc1_scratch2).view.loc (V d (cV L) (jV L)) ↦{fullShare} f)
        ∗ (∃ f, (Memref.whole cc1_scratch3).view.loc (V d (cV L) (jV L)) ↦{fullShare} f)
        ∗ (∃ f, (Memref.whole cc1_scratch4).view.loc (V d (cV L) (jV L)) ↦{fullShare} f)
        ∗ (∃ f, (Memref.whole cc1_scratch5).view.loc (V d (cV L) (jV L)) ↦{fullShare} f)
        ∗ semVal (cellOf d L cc1_scratch17) 0
        ∗ semVal (cellOf d L cc1_scratch18) 0
        ∗ semVal (cellOf d L cc1_scratch19) 0
        ∗ semVal (cellOf d L cc1_scratch20) 0
        ∗ semVal (cellOf d L cc1_scratch21) 0
        ∗ ((tSl).view.loc (V d (cV L) (jV L)) ↦[(tSl).view.set]{((tileShare L).right)} Tb)
        ∗ ((tSl).view.loc (V d (cV L) (jV L)) ↦[(tSl).view.set]{((tileShare L).left.right)} Tb)
        ∗ ((tSl).view.loc (V d (cV L) (jV L)) ↦[(tSl).view.set]{((tileShare L).left.left.right)} Tb)
        ∗ ((tSl).view.loc (V d (cV L) (jV L)) ↦[(tSl).view.set]{((tileShare L).left.left.left.right)} Tb)
        ∗ ((tSl).view.loc (V d (cV L) (jV L)) ↦[(tSl).view.set]{((tileShare L).left.left.left.left.right)} Tb)
        ∗ ((tSl).view.loc (V d (cV L) (jV L)) ↦[(tSl).view.set]{((tileShare L).left.left.left.left.left.right)} Tb)
        ∗ ((tSl).view.loc (V d (cV L) (jV L)) ↦[(tSl).view.set]{((tileShare L).left.left.left.left.left.left.right)} Tb)
        ∗ ((tSl).view.loc (V d (cV L) (jV L)) ↦[(tSl).view.set]{((tileShare L).left.left.left.left.left.left.left.right)} Tb)
        ∗ ((V d (cV L) (jV L)).loc cc1_scratch0 ↦[Finset.univ]{(fullShare.right)} idxF d L X)
        ∗ ((V d (cV L) (jV L)).loc cc1_scratch0 ↦[Finset.univ]{(fullShare.left.right)} idxF d L X)
        ∗ ((V d (cV L) (jV L)).loc cc1_scratch0 ↦[Finset.univ]{(fullShare.left.left.right)} idxF d L X)
        ∗ ((V d (cV L) (jV L)).loc cc1_scratch0 ↦[Finset.univ]{(fullShare.left.left.left.right)} idxF d L X)
        ∗ ((V d (cV L) (jV L)).loc cc1_scratch0 ↦[Finset.univ]{(fullShare.left.left.left.left.right)} idxF d L X)
        ∗ ((V d (cV L) (jV L)).loc cc1_scratch0 ↦[Finset.univ]{(fullShare.left.left.left.left.left.right)} idxF d L X)
        ∗ ((V d (cV L) (jV L)).loc cc1_scratch0 ↦[Finset.univ]{(fullShare.left.left.left.left.left.left.right)} idxF d L X)
        ∗ ((V d (cV L) (jV L)).loc cc1_scratch0 ↦[Finset.univ]{(fullShare.left.left.left.left.left.left.left.right)} idxF d L X)
        ∗ ((V d (cV L) (jV L)).loc cc1_scratch0 ↦{(fullShare.left.left.left.left.left.left.left.left)} idxF d L X)
        ∗ semVal (cellOf d L cc1_scratch9) 0
        ∗ semVal (cellOf d L cc1_scratch10) 0
        ∗ semVal (cellOf d L cc1_scratch11) 0
        ∗ semVal (cellOf d L cc1_scratch12) 0
        ∗ semVal (cellOf d L cc1_scratch13) 0
        ∗ semVal (cellOf d L cc1_scratch14) 0
        ∗ semVal (cellOf d L cc1_scratch15) 0
        ∗ semVal (cellOf d L cc1_scratch16) 0) -∗ Φ ⟨⟩))
      ⊢ wp frame (wpE (defs₀ (F := F)) 𝒱₀ (V d (cV L) (jV L)) none) Set.univ (k1_part9 L (Memref.whole main_v1_scv) (Memref.isWhole_whole _) (Memref.whole main_v0_scv) (Memref.isWhole_whole _) (Memref.whole main_v2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) cc1_scratch9 cc1_scratch10 cc1_scratch11 cc1_scratch12 cc1_scratch13 cc1_scratch14 cc1_scratch15 cc1_scratch16 cc1_scratch17 cc1_scratch18 cc1_scratch19 cc1_scratch20 cc1_scratch21 cc1_scratch22 cc1_scratch23 cc1_scratch24 cc1_scoped0 v3) Φ := by
  have hN : ∀ (B : Memref sig .scVector .vmem S104x128 .f32) (a' : Fin S104x128.rank),
      ∑ j, (B.slice (S104x128.rowRect a' j) (S104x128.stride_rowRect a' j)).view.dmaCredit = B.view.dmaCredit :=
    fun B a' => SparseCore.sum_rowCredit_eq_dmaCredit B a' (fun _ => rfl)
  rw [k1_part9_eq_skeleton]; unfold k1_part9_skel
  iintro ⟨⟨#Hmw, ⟨%W', %hW', HO⟩, Horem, ⟨%fb6, Hb6, %hg6⟩, Hs23, Hs24, Hfl7, Hofl0, Hofl1, Hofl2, Hofl3, Hofl4, Hofl5, Hhi, Hlr7, Hlrest0, Hlrest1, Hlrest2, Hlrest3, Hlrest4, Hlrest5, Hlrest6, Hlrest7, Hlist0, Hlist1, Hlist2, Hlist3, Hlist4, Hlist5, Hlist6, Htt0, Htt1, Htt2, Htt3, Htt4, Htt5, Htt6, Hs9, Hs10, Hs11, Hs12, Hs13, Hs14, Hs15, Hodone⟩, HΦ⟩
  -- copy buffer 6 out to chunk 6
  sl_exec
  ihave Hsp := (oRem_take d L O0 (6) (by decide)) $$ Horem
  icases Hsp with ⟨Hoc, Horem⟩
  ihave Hoc := (Entails.of_eq (show (oLoc d ↦[oChunk L (6)]{fullShare} O0 : sProp 𝕄)
      = ((oSlc (k1_off4 L 24#32) (k1_off4_inb L 6)).view.loc (V d (cV L) (jV L)) ↦[(oSlc (k1_off4 L 24#32) (k1_off4_inb L 6)).view.set]{fullShare} O0) by rw [set_oSlc L (6) (k1_off4 L 24#32) (k1_off4_inb L 6) (show (k1_off4 L 24#32) = ![1024 * (L 1).val + 512 * (L 0).val + 4 * (6), 0] from (k1_off4_eq L 6))])) $$ Hoc
  ihave Hsrc := (Entails.of_eq (show ((Memref.whole cc1_scratch7).view.loc (V d (cV L) (jV L)) ↦{fullShare} fb6 : sProp 𝕄)
      = ((rsh (Memref.whole cc1_scratch7) (Memref.isWhole_whole _)).view.loc (V d (cV L) (jV L)) ↦[(rsh (Memref.whole cc1_scratch7) (Memref.isWhole_whole _)).view.set]{fullShare} fb6) by
        rw [show (rsh (Memref.whole cc1_scratch7) (Memref.isWhole_whole _)).view.set = (Memref.whole cc1_scratch7).view.set from View.set_reshape _ _, View.set_whole])) $$ Hb6
  iapply (Transfers.wp_dmaLocal countersEmb 𝒱₀ (V d (cV L) (jV L)) none (default : HIx 1) (NO L) rfl (View.dmaCredit_pos _ (show 0 < S4x3328.numel by decide)) (Finset.Subset.refl _)) $$ [Hsrc Hoc Hs23]
  · isplitl [Hsrc]; · iexact Hsrc
    isplitl [Hoc]; · iexact Hoc
    iexact Hs23
  iintro Hofl
  ihave Hofl6 := (Transfers.Flight_mono countersEmb (V d (cV L) (jV L)) (sm := SemLoc.dma cc1_scratch23.sem) (ι := (default : HIx 1)) (N := NO L) (out_deliver d L X Tb hX O0 (Memref.whole cc1_scratch7) (Memref.isWhole_whole _) (6) (by decide) (k1_off4 L 24#32) (k1_off4_inb L 6) (show (k1_off4 L 24#32) = ![1024 * (L 1).val + 512 * (L 0).val + 4 * (6), 0] from (k1_off4_eq L 6)) fb6 hg6)) $$ Hofl
  -- wait for gather 7
  sl_exec
  iapply (Transfers.wp_waitLocalO countersEmb 𝒱₀ (V d (cV L) (jV L)) none (default : HIx 1) (rfl : (Memref.whole cc1_scratch8).view.dmaCredit = _)) $$ [Hfl7 HO]
  · isplitl [Hfl7]; · iexact Hfl7
    isplitl [HO]; · iexact HO
    iapply (Transfers.MayWaits.elim (SemLoc.dma cc1_scratch16.sem)) $$ Hmw
  iintro ⟨⟨⟨%fb7, Hb7, %hg7⟩, Htt7, Hlist7⟩, Hs16, HO⟩
  -- copy buffer 7 out to chunk 7
  sl_exec
  ihave Hsp := (oRem_take d L O0 (7) (by decide)) $$ Horem
  icases Hsp with ⟨Hoc, Horem⟩
  ihave Hoc := (Entails.of_eq (show (oLoc d ↦[oChunk L (7)]{fullShare} O0 : sProp 𝕄)
      = ((oSlc (k1_off4 L 28#32) (k1_off4_inb L 7)).view.loc (V d (cV L) (jV L)) ↦[(oSlc (k1_off4 L 28#32) (k1_off4_inb L 7)).view.set]{fullShare} O0) by rw [set_oSlc L (7) (k1_off4 L 28#32) (k1_off4_inb L 7) (show (k1_off4 L 28#32) = ![1024 * (L 1).val + 512 * (L 0).val + 4 * (7), 0] from (k1_off4_eq L 7))])) $$ Hoc
  ihave Hsrc := (Entails.of_eq (show ((Memref.whole cc1_scratch8).view.loc (V d (cV L) (jV L)) ↦{fullShare} fb7 : sProp 𝕄)
      = ((rsh (Memref.whole cc1_scratch8) (Memref.isWhole_whole _)).view.loc (V d (cV L) (jV L)) ↦[(rsh (Memref.whole cc1_scratch8) (Memref.isWhole_whole _)).view.set]{fullShare} fb7) by
        rw [show (rsh (Memref.whole cc1_scratch8) (Memref.isWhole_whole _)).view.set = (Memref.whole cc1_scratch8).view.set from View.set_reshape _ _, View.set_whole])) $$ Hb7
  iapply (Transfers.wp_dmaLocal countersEmb 𝒱₀ (V d (cV L) (jV L)) none (default : HIx 1) (NO L) rfl (View.dmaCredit_pos _ (show 0 < S4x3328.numel by decide)) (Finset.Subset.refl _)) $$ [Hsrc Hoc Hs24]
  · isplitl [Hsrc]; · iexact Hsrc
    isplitl [Hoc]; · iexact Hoc
    iexact Hs24
  iintro Hofl
  ihave Hofl7 := (Transfers.Flight_mono countersEmb (V d (cV L) (jV L)) (sm := SemLoc.dma cc1_scratch24.sem) (ι := (default : HIx 1)) (N := NO L) (out_deliver d L X Tb hX O0 (Memref.whole cc1_scratch8) (Memref.isWhole_whole _) (7) (by decide) (k1_off4 L 28#32) (k1_off4_inb L 7) (show (k1_off4 L 28#32) = ![1024 * (L 1).val + 512 * (L 0).val + 4 * (7), 0] from (k1_off4_eq L 7)) fb7 hg7)) $$ Hofl
  -- the list is whole again: its pieces joined, then held as eight read tokens
  ihave Hl0 := (pointsTo_split_subset (q := (fullShare.right)) (f := idxF d L X) (S := loSet) (oSl_sub_lo ![0] inb_S13312_S104_0 (by decide))).2 $$ [Hlist0 Hlrest0]
  · isplitl [Hlist0]; · iexact Hlist0
    iexact Hlrest0
  ihave Hl1 := (pointsTo_split_subset (q := (fullShare.left.right)) (f := idxF d L X) (S := loSet) (oSl_sub_lo ![104] inb_S13312_S104_104 (by decide))).2 $$ [Hlist1 Hlrest1]
  · isplitl [Hlist1]; · iexact Hlist1
    iexact Hlrest1
  ihave Hl2 := (pointsTo_split_subset (q := (fullShare.left.left.right)) (f := idxF d L X) (S := loSet) (oSl_sub_lo ![208] inb_S13312_S104_208 (by decide))).2 $$ [Hlist2 Hlrest2]
  · isplitl [Hlist2]; · iexact Hlist2
    iexact Hlrest2
  ihave Hl3 := (pointsTo_split_subset (q := (fullShare.left.left.left.right)) (f := idxF d L X) (S := loSet) (oSl_sub_lo ![312] inb_S13312_S104_312 (by decide))).2 $$ [Hlist3 Hlrest3]
  · isplitl [Hlist3]; · iexact Hlist3
    iexact Hlrest3
  ihave Hl4 := (pointsTo_split_subset (q := (fullShare.left.left.left.left.right)) (f := idxF d L X) (S := loSet) (oSl_sub_lo ![416] inb_S13312_S104_416 (by decide))).2 $$ [Hlist4 Hlrest4]
  · isplitl [Hlist4]; · iexact Hlist4
    iexact Hlrest4
  ihave Hl5 := (pointsTo_split_subset (q := (fullShare.left.left.left.left.left.right)) (f := idxF d L X) (S := loSet) (oSl_sub_lo ![520] inb_S13312_S104_520 (by decide))).2 $$ [Hlist5 Hlrest5]
  · isplitl [Hlist5]; · iexact Hlist5
    iexact Hlrest5
  ihave Hl6 := (pointsTo_split_subset (q := (fullShare.left.left.left.left.left.left.right)) (f := idxF d L X) (S := loSet) (oSl_sub_lo ![624] inb_S13312_S104_624 (by decide))).2 $$ [Hlist6 Hlrest6]
  · isplitl [Hlist6]; · iexact Hlist6
    iexact Hlrest6
  ihave Hl7 := (pointsTo_split_subset (q := (fullShare.left.left.left.left.left.left.left.right)) (f := idxF d L X) (S := loSet) (oSl_sub_lo ![728] inb_S13312_S104_728 (by decide))).2 $$ [Hlist7 Hlrest7]
  · isplitl [Hlist7]; · iexact Hlist7
    iexact Hlrest7
  ihave Hlr6 := (pointsTo_share (PosShare.mem_left_op_right (fullShare.left.left.left.left.left.left.left))).2 $$ [Hlr7 Hl7]
  · isplitl [Hlr7]; · iexact Hlr7
    iexact Hl7
  ihave Hlr5 := (pointsTo_share (PosShare.mem_left_op_right (fullShare.left.left.left.left.left.left))).2 $$ [Hlr6 Hl6]
  · isplitl [Hlr6]; · iexact Hlr6
    iexact Hl6
  ihave Hlr4 := (pointsTo_share (PosShare.mem_left_op_right (fullShare.left.left.left.left.left))).2 $$ [Hlr5 Hl5]
  · isplitl [Hlr5]; · iexact Hlr5
    iexact Hl5
  ihave Hlr3 := (pointsTo_share (PosShare.mem_left_op_right (fullShare.left.left.left.left))).2 $$ [Hlr4 Hl4]
  · isplitl [Hlr4]; · iexact Hlr4
    iexact Hl4
  ihave Hlr2 := (pointsTo_share (PosShare.mem_left_op_right (fullShare.left.left.left))).2 $$ [Hlr3 Hl3]
  · isplitl [Hlr3]; · iexact Hlr3
    iexact Hl3
  ihave Hlr1 := (pointsTo_share (PosShare.mem_left_op_right (fullShare.left.left))).2 $$ [Hlr2 Hl2]
  · isplitl [Hlr2]; · iexact Hlr2
    iexact Hl2
  ihave Hlr0 := (pointsTo_share (PosShare.mem_left_op_right (fullShare.left))).2 $$ [Hlr1 Hl1]
  · isplitl [Hlr1]; · iexact Hlr1
    iexact Hl1
  ihave Hlo := (pointsTo_share (PosShare.mem_left_op_right (fullShare))).2 $$ [Hlr0 Hl0]
  · isplitl [Hlr0]; · iexact Hlr0
    iexact Hl0
  ihave Hall := (pointsTo_split_subset (q := fullShare) (f := idxF d L X) (S := Finset.univ) (Finset.subset_univ hiSet)).2 $$ [Hhi Hlo]
  · isplitl [Hhi]; · iexact Hhi
    iexact Hlo
  ihave Hsp_Hl0 := (pointsTo_share (PosShare.mem_left_op_right (fullShare))).1 $$ Hall
  icases Hsp_Hl0 with ⟨Hur0, Hl0⟩
  ihave Hsp_Hl1 := (pointsTo_share (PosShare.mem_left_op_right (fullShare.left))).1 $$ Hur0
  icases Hsp_Hl1 with ⟨Hur1, Hl1⟩
  ihave Hsp_Hl2 := (pointsTo_share (PosShare.mem_left_op_right (fullShare.left.left))).1 $$ Hur1
  icases Hsp_Hl2 with ⟨Hur2, Hl2⟩
  ihave Hsp_Hl3 := (pointsTo_share (PosShare.mem_left_op_right (fullShare.left.left.left))).1 $$ Hur2
  icases Hsp_Hl3 with ⟨Hur3, Hl3⟩
  ihave Hsp_Hl4 := (pointsTo_share (PosShare.mem_left_op_right (fullShare.left.left.left.left))).1 $$ Hur3
  icases Hsp_Hl4 with ⟨Hur4, Hl4⟩
  ihave Hsp_Hl5 := (pointsTo_share (PosShare.mem_left_op_right (fullShare.left.left.left.left.left))).1 $$ Hur4
  icases Hsp_Hl5 with ⟨Hur5, Hl5⟩
  ihave Hsp_Hl6 := (pointsTo_share (PosShare.mem_left_op_right (fullShare.left.left.left.left.left.left))).1 $$ Hur5
  icases Hsp_Hl6 with ⟨Hur6, Hl6⟩
  ihave Hsp_Hl7 := (pointsTo_share (PosShare.mem_left_op_right (fullShare.left.left.left.left.left.left.left))).1 $$ Hur6
  icases Hsp_Hl7 with ⟨Hur7, Hl7⟩
  -- the ring
  sl_exec
  sl_for (inv3 (U := U) d L X Tb O0 O W) $$ [HO Hodone Horem Hofl0 Hofl1 Hofl2 Hofl3 Hofl4 Hofl5 Hofl6 Hofl7 Htt0 Htt1 Htt2 Htt3 Htt4 Htt5 Htt6 Htt7 Hl0 Hl1 Hl2 Hl3 Hl4 Hl5 Hl6 Hl7 Hs9 Hs10 Hs11 Hs12 Hs13 Hs14 Hs15 Hs16]
  case region =>
    intro k _
    exact trip3 d L X Tb O0 hX O W v3 k
  · unfold inv3 ringInv
    isplitr; · iexact Hmw
    isplitl [HO]
    · iexists _
      isplitr
      swap
      · iexact HO
      ipureintro; repeat (first | exact hW' | apply waits_ok)
    isplitl [Hodone]
    · iexact Hodone
    isplitl [Horem]
    · iexact Horem
    isplitl [Hofl0]
    · iexact Hofl0
    isplitl [Hofl1]
    · iexact Hofl1
    isplitl [Hofl2]
    · iexact Hofl2
    isplitl [Hofl3]
    · iexact Hofl3
    isplitl [Hofl4]
    · iexact Hofl4
    isplitl [Hofl5]
    · iexact Hofl5
    isplitl [Hofl6]
    · iexact Hofl6
    isplitl [Hofl7]
    · iexact Hofl7
    isplitl [Htt0]
    · iexact Htt0
    isplitl [Htt1]
    · iexact Htt1
    isplitl [Htt2]
    · iexact Htt2
    isplitl [Htt3]
    · iexact Htt3
    isplitl [Htt4]
    · iexact Htt4
    isplitl [Htt5]
    · iexact Htt5
    isplitl [Htt6]
    · iexact Htt6
    isplitl [Htt7]
    · iexact Htt7
    isplitl [Hl0]
    · iexact Hl0
    isplitl [Hl1]
    · iexact Hl1
    isplitl [Hl2]
    · iexact Hl2
    isplitl [Hl3]
    · iexact Hl3
    isplitl [Hl4]
    · iexact Hl4
    isplitl [Hl5]
    · iexact Hl5
    isplitl [Hl6]
    · iexact Hl6
    isplitl [Hl7]
    · iexact Hl7
    isplitl [Hs9]
    · iexact Hs9
    isplitl [Hs10]
    · iexact Hs10
    isplitl [Hs11]
    · iexact Hs11
    isplitl [Hs12]
    · iexact Hs12
    isplitl [Hs13]
    · iexact Hs13
    isplitl [Hs14]
    · iexact Hs14
    isplitl [Hs15]
    · iexact Hs15
    iexact Hs16
  iintro %_ HI
  unfold inv3 ringInv
  icases HI with ⟨-, ⟨%W'', %hW'', HO⟩, Hodone, Horem, Hofl0, Hofl1, Hofl2, Hofl3, Hofl4, Hofl5, Hofl6, Hofl7, Htt0, Htt1, Htt2, Htt3, Htt4, Htt5, Htt6, Htt7, Hl0, Hl1, Hl2, Hl3, Hl4, Hl5, Hl6, Hl7, Hs9, Hs10, Hs11, Hs12, Hs13, Hs14, Hs15, Hs16⟩
  have hW' := hW''
  ihave Hodone := (Entails.of_eq (congrArg (fun n : ℕ => ((oLoc d ↦[oDone L n]{fullShare} (gatherOut (F := F) X Tb : Buf (Elt F) (oLoc d))) : sProp 𝕄)) (show 8 * Scf.trips k1_t3_loop.lb k1_t3_loop.ub k1_t3_loop.st = 120 from rfl))) $$ Hodone
  ihave Horem := (Entails.of_eq (congrArg (fun n : ℕ => ((oLoc d ↦[oRem L n]{fullShare} O0) : sProp 𝕄)) (show 8 * Scf.trips k1_t3_loop.lb k1_t3_loop.ub k1_t3_loop.st + 8 = 128 from rfl))) $$ Horem
  ihave Hofl0 := (Entails.of_eq (congrArg (fun n : ℕ => (OFl d L X Tb (Memref.whole cc1_scratch1) cc1_scratch17 n : sProp 𝕄)) (show 8 * Scf.trips k1_t3_loop.lb k1_t3_loop.ub k1_t3_loop.st + 0 = 120 from rfl))) $$ Hofl0
  ihave Hofl1 := (Entails.of_eq (congrArg (fun n : ℕ => (OFl d L X Tb (Memref.whole cc1_scratch2) cc1_scratch18 n : sProp 𝕄)) (show 8 * Scf.trips k1_t3_loop.lb k1_t3_loop.ub k1_t3_loop.st + 1 = 121 from rfl))) $$ Hofl1
  ihave Hofl2 := (Entails.of_eq (congrArg (fun n : ℕ => (OFl d L X Tb (Memref.whole cc1_scratch3) cc1_scratch19 n : sProp 𝕄)) (show 8 * Scf.trips k1_t3_loop.lb k1_t3_loop.ub k1_t3_loop.st + 2 = 122 from rfl))) $$ Hofl2
  ihave Hofl3 := (Entails.of_eq (congrArg (fun n : ℕ => (OFl d L X Tb (Memref.whole cc1_scratch4) cc1_scratch20 n : sProp 𝕄)) (show 8 * Scf.trips k1_t3_loop.lb k1_t3_loop.ub k1_t3_loop.st + 3 = 123 from rfl))) $$ Hofl3
  ihave Hofl4 := (Entails.of_eq (congrArg (fun n : ℕ => (OFl d L X Tb (Memref.whole cc1_scratch5) cc1_scratch21 n : sProp 𝕄)) (show 8 * Scf.trips k1_t3_loop.lb k1_t3_loop.ub k1_t3_loop.st + 4 = 124 from rfl))) $$ Hofl4
  ihave Hofl5 := (Entails.of_eq (congrArg (fun n : ℕ => (OFl d L X Tb (Memref.whole cc1_scratch6) cc1_scratch22 n : sProp 𝕄)) (show 8 * Scf.trips k1_t3_loop.lb k1_t3_loop.ub k1_t3_loop.st + 5 = 125 from rfl))) $$ Hofl5
  ihave Hofl6 := (Entails.of_eq (congrArg (fun n : ℕ => (OFl d L X Tb (Memref.whole cc1_scratch7) cc1_scratch23 n : sProp 𝕄)) (show 8 * Scf.trips k1_t3_loop.lb k1_t3_loop.ub k1_t3_loop.st + 6 = 126 from rfl))) $$ Hofl6
  ihave Hofl7 := (Entails.of_eq (congrArg (fun n : ℕ => (OFl d L X Tb (Memref.whole cc1_scratch8) cc1_scratch24 n : sProp 𝕄)) (show 8 * Scf.trips k1_t3_loop.lb k1_t3_loop.ub k1_t3_loop.st + 7 = 127 from rfl))) $$ Hofl7
  -- wait for the copy of buffer 0 out to chunk 120
  sl_exec
  iapply (Transfers.wp_waitLocalO countersEmb 𝒱₀ (V d (cV L) (jV L)) none (default : HIx 1) (rfl : _ = NO L)) $$ [Hofl0 HO]
  · isplitl [Hofl0]; · iexact Hofl0
    isplitl [HO]; · iexact HO
    iapply (Transfers.MayWaits.elim (SemLoc.dma cc1_scratch17.sem)) $$ Hmw
  iintro ⟨⟨Hoc, ⟨%fb0, Hb0⟩⟩, Hs17, HO⟩
  ihave Hodone := (oDone_put d L (gatherOut (F := F) X Tb : Buf (Elt F) (oLoc d)) (120) (by decide)) $$ [Hoc Hodone]
  · isplitl [Hoc]; · iexact Hoc
    iexact Hodone
  -- wait for the copy of buffer 1 out to chunk 121
  sl_exec
  iapply (Transfers.wp_waitLocalO countersEmb 𝒱₀ (V d (cV L) (jV L)) none (default : HIx 1) (rfl : _ = NO L)) $$ [Hofl1 HO]
  · isplitl [Hofl1]; · iexact Hofl1
    isplitl [HO]; · iexact HO
    iapply (Transfers.MayWaits.elim (SemLoc.dma cc1_scratch18.sem)) $$ Hmw
  iintro ⟨⟨Hoc, ⟨%fb1, Hb1⟩⟩, Hs18, HO⟩
  ihave Hodone := (oDone_put d L (gatherOut (F := F) X Tb : Buf (Elt F) (oLoc d)) (121) (by decide)) $$ [Hoc Hodone]
  · isplitl [Hoc]; · iexact Hoc
    iexact Hodone
  -- wait for the copy of buffer 2 out to chunk 122
  sl_exec
  iapply (Transfers.wp_waitLocalO countersEmb 𝒱₀ (V d (cV L) (jV L)) none (default : HIx 1) (rfl : _ = NO L)) $$ [Hofl2 HO]
  · isplitl [Hofl2]; · iexact Hofl2
    isplitl [HO]; · iexact HO
    iapply (Transfers.MayWaits.elim (SemLoc.dma cc1_scratch19.sem)) $$ Hmw
  iintro ⟨⟨Hoc, ⟨%fb2, Hb2⟩⟩, Hs19, HO⟩
  ihave Hodone := (oDone_put d L (gatherOut (F := F) X Tb : Buf (Elt F) (oLoc d)) (122) (by decide)) $$ [Hoc Hodone]
  · isplitl [Hoc]; · iexact Hoc
    iexact Hodone
  -- wait for the copy of buffer 3 out to chunk 123
  sl_exec
  iapply (Transfers.wp_waitLocalO countersEmb 𝒱₀ (V d (cV L) (jV L)) none (default : HIx 1) (rfl : _ = NO L)) $$ [Hofl3 HO]
  · isplitl [Hofl3]; · iexact Hofl3
    isplitl [HO]; · iexact HO
    iapply (Transfers.MayWaits.elim (SemLoc.dma cc1_scratch20.sem)) $$ Hmw
  iintro ⟨⟨Hoc, ⟨%fb3, Hb3⟩⟩, Hs20, HO⟩
  ihave Hodone := (oDone_put d L (gatherOut (F := F) X Tb : Buf (Elt F) (oLoc d)) (123) (by decide)) $$ [Hoc Hodone]
  · isplitl [Hoc]; · iexact Hoc
    iexact Hodone
  -- wait for the copy of buffer 4 out to chunk 124
  sl_exec
  iapply (Transfers.wp_waitLocalO countersEmb 𝒱₀ (V d (cV L) (jV L)) none (default : HIx 1) (rfl : _ = NO L)) $$ [Hofl4 HO]
  · isplitl [Hofl4]; · iexact Hofl4
    isplitl [HO]; · iexact HO
    iapply (Transfers.MayWaits.elim (SemLoc.dma cc1_scratch21.sem)) $$ Hmw
  iintro ⟨⟨Hoc, ⟨%fb4, Hb4⟩⟩, Hs21, HO⟩
  ihave Hodone := (oDone_put d L (gatherOut (F := F) X Tb : Buf (Elt F) (oLoc d)) (124) (by decide)) $$ [Hoc Hodone]
  · isplitl [Hoc]; · iexact Hoc
    iexact Hodone
  sl_exec
  sl_step
  iapply HΦ
  isplitl [HO]
  · iexists _
    isplitr
    swap
    · iexact HO
    ipureintro; repeat (first | exact hW' | apply waits_ok)
  isplitl [Hodone]
  · iexact Hodone
  isplitl [Horem]
  · iexact Horem
  isplitl [Hofl5]
  · iexact Hofl5
  isplitl [Hofl6]
  · iexact Hofl6
  isplitl [Hofl7]
  · iexact Hofl7
  isplitl [Hb0]
  · iexists fb0
    iexact Hb0
  isplitl [Hb1]
  · iexists fb1
    iexact Hb1
  isplitl [Hb2]
  · iexists fb2
    iexact Hb2
  isplitl [Hb3]
  · iexists fb3
    iexact Hb3
  isplitl [Hb4]
  · iexists fb4
    iexact Hb4
  isplitl [Hs17]
  · iexact Hs17
  isplitl [Hs18]
  · iexact Hs18
  isplitl [Hs19]
  · iexact Hs19
  isplitl [Hs20]
  · iexact Hs20
  isplitl [Hs21]
  · iexact Hs21
  isplitl [Htt0]
  · iexact Htt0
  isplitl [Htt1]
  · iexact Htt1
  isplitl [Htt2]
  · iexact Htt2
  isplitl [Htt3]
  · iexact Htt3
  isplitl [Htt4]
  · iexact Htt4
  isplitl [Htt5]
  · iexact Htt5
  isplitl [Htt6]
  · iexact Htt6
  isplitl [Htt7]
  · iexact Htt7
  isplitl [Hl0]
  · iexact Hl0
  isplitl [Hl1]
  · iexact Hl1
  isplitl [Hl2]
  · iexact Hl2
  isplitl [Hl3]
  · iexact Hl3
  isplitl [Hl4]
  · iexact Hl4
  isplitl [Hl5]
  · iexact Hl5
  isplitl [Hl6]
  · iexact Hl6
  isplitl [Hl7]
  · iexact Hl7
  isplitl [Hur7]
  · iexact Hur7
  isplitl [Hs9]
  · iexact Hs9
  isplitl [Hs10]
  · iexact Hs10
  isplitl [Hs11]
  · iexact Hs11
  isplitl [Hs12]
  · iexact Hs12
  isplitl [Hs13]
  · iexact Hs13
  isplitl [Hs14]
  · iexact Hs14
  isplitl [Hs15]
  · iexact Hs15
  iexact Hs16

end Tile
end Cert.Proof.KI
end
-- ==== Proof.TileI6.lean ====
import proofs.«207321_g10943576670982_fold_wed_m_632_36_alg».proof.Proof.TileI3
import proofs.«207321_g10943576670982_fold_wed_m_632_36_alg».proof.Proof.TileI5

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
variable {U : Type} [URA U]

local notation "𝕄" => MT nD τ sig (HIx 1) (Elt F) ℕ U ℕ

variable [CountersIn U] [FloatOps F]

section Tile
variable (d : Dev nD) (L : grid1.Coords)

theorem part8_bind (X : Buf (Elt F) (xLoc d)) (Tb : Buf (Elt F) (tLoc d)) (O0 : Buf (Elt F) (oLoc d)) (hX : ∀ j, (X j : BitVec 32).toNat < 128)
    (O : CellTallies nD τ sig (HIx 1)) (W : Waits sig (HIx 1)) (v3 : BitVec 32) (k : PUnit → Prog (TpuEff nD τ sig (Elt F) Λ₀ (.scVector (cV L) (jV L))) PUnit) (Q : PUnit → sProp 𝕄) :
    (iprop((Transfers.MayWaits (V d (cV L) (jV L)) (default : HIx 1) O
        ∗ (∃ W', ⌜∀ p ∈ W', p ∈ W ∨ p.2 = none⌝ ∗ owes (V d (cV L) (jV L)) O W')
        ∗ (oLoc d ↦[oRem L 2]{fullShare} O0)
        ∗ (∃ f, ((Memref.whole cc1_scratch3).view.loc (V d (cV L) (jV L)) ↦{fullShare} f) ∗ ⌜goodBuf d L X Tb 2 ((Memref.whole cc1_scratch3).view.read (Elt F) f)⌝)
        ∗ semVal (cellOf d L cc1_scratch19) 0
        ∗ semVal (cellOf d L cc1_scratch20) 0
        ∗ semVal (cellOf d L cc1_scratch21) 0
        ∗ semVal (cellOf d L cc1_scratch22) 0
        ∗ GFl d L X Tb (Memref.whole cc1_scratch4) cc1_scratch12 3 ((tileShare L).left.left.left.right) ((oSl ![312] inb_S13312_S104_312).view.set) (fullShare.left.left.left.right)
        ∗ GFl d L X Tb (Memref.whole cc1_scratch5) cc1_scratch13 4 ((tileShare L).left.left.left.left.right) ((oSl ![416] inb_S13312_S104_416).view.set) (fullShare.left.left.left.left.right)
        ∗ GFl d L X Tb (Memref.whole cc1_scratch6) cc1_scratch14 5 ((tileShare L).left.left.left.left.left.right) ((oSl ![520] inb_S13312_S104_520).view.set) (fullShare.left.left.left.left.left.right)
        ∗ GFl d L X Tb (Memref.whole cc1_scratch7) cc1_scratch15 6 ((tileShare L).left.left.left.left.left.left.right) ((oSl ![624] inb_S13312_S104_624).view.set) (fullShare.left.left.left.left.left.left.right))
        ∗ (((∃ W', ⌜∀ p ∈ W', p ∈ W ∨ p.2 = none⌝ ∗ owes (V d (cV L) (jV L)) O W')
        ∗ (oLoc d ↦[oRem L 6]{fullShare} O0)
        ∗ OFl d L X Tb (Memref.whole cc1_scratch3) cc1_scratch19 2
        ∗ OFl d L X Tb (Memref.whole cc1_scratch4) cc1_scratch20 3
        ∗ OFl d L X Tb (Memref.whole cc1_scratch5) cc1_scratch21 4
        ∗ OFl d L X Tb (Memref.whole cc1_scratch6) cc1_scratch22 5
        ∗ (∃ f, ((Memref.whole cc1_scratch7).view.loc (V d (cV L) (jV L)) ↦{fullShare} f) ∗ ⌜goodBuf d L X Tb 6 ((Memref.whole cc1_scratch7).view.read (Elt F) f)⌝)
        ∗ ((tSl).view.loc (V d (cV L) (jV L)) ↦[(tSl).view.set]{((tileShare L).left.left.left.right)} Tb)
        ∗ ((tSl).view.loc (V d (cV L) (jV L)) ↦[(tSl).view.set]{((tileShare L).left.left.left.left.right)} Tb)
        ∗ ((tSl).view.loc (V d (cV L) (jV L)) ↦[(tSl).view.set]{((tileShare L).left.left.left.left.left.right)} Tb)
        ∗ ((tSl).view.loc (V d (cV L) (jV L)) ↦[(tSl).view.set]{((tileShare L).left.left.left.left.left.left.right)} Tb)
        ∗ ((V d (cV L) (jV L)).loc cc1_scratch0 ↦[(oSl ![312] inb_S13312_S104_312).view.set]{(fullShare.left.left.left.right)} idxF d L X)
        ∗ ((V d (cV L) (jV L)).loc cc1_scratch0 ↦[(oSl ![416] inb_S13312_S104_416).view.set]{(fullShare.left.left.left.left.right)} idxF d L X)
        ∗ ((V d (cV L) (jV L)).loc cc1_scratch0 ↦[(oSl ![520] inb_S13312_S104_520).view.set]{(fullShare.left.left.left.left.left.right)} idxF d L X)
        ∗ ((V d (cV L) (jV L)).loc cc1_scratch0 ↦[(oSl ![624] inb_S13312_S104_624).view.set]{(fullShare.left.left.left.left.left.left.right)} idxF d L X)
        ∗ semVal (cellOf d L cc1_scratch12) 0
        ∗ semVal (cellOf d L cc1_scratch13) 0
        ∗ semVal (cellOf d L cc1_scratch14) 0
        ∗ semVal (cellOf d L cc1_scratch15) 0) -∗ wp frame (wpE (defs₀ (F := F)) 𝒱₀ (V d (cV L) (jV L)) none) Set.univ (k ⟨⟩) Q)) : sProp 𝕄)
      ⊢ wp frame (wpE (defs₀ (F := F)) 𝒱₀ (V d (cV L) (jV L)) none) Set.univ (k1_part8 L (Memref.whole main_v1_scv) (Memref.isWhole_whole _) (Memref.whole main_v0_scv) (Memref.isWhole_whole _) (Memref.whole main_v2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) cc1_scratch9 cc1_scratch10 cc1_scratch11 cc1_scratch12 cc1_scratch13 cc1_scratch14 cc1_scratch15 cc1_scratch16 cc1_scratch17 cc1_scratch18 cc1_scratch19 cc1_scratch20 cc1_scratch21 cc1_scratch22 cc1_scratch23 cc1_scratch24 cc1_scoped0 v3 >>= k) Q := by
  rw [wp_bind]
  exact part8_spec (U := U) d L X Tb O0 hX O W v3 (fun a => wp frame (wpE (defs₀ (F := F)) 𝒱₀ (V d (cV L) (jV L)) none) Set.univ (k a) Q)

theorem part9_bind (X : Buf (Elt F) (xLoc d)) (Tb : Buf (Elt F) (tLoc d)) (O0 : Buf (Elt F) (oLoc d)) (hX : ∀ j, (X j : BitVec 32).toNat < 128)
    (O : CellTallies nD τ sig (HIx 1)) (W : Waits sig (HIx 1)) (v3 : BitVec 32) (k : PUnit → Prog (TpuEff nD τ sig (Elt F) Λ₀ (.scVector (cV L) (jV L))) PUnit) (Q : PUnit → sProp 𝕄) :
    (iprop((Transfers.MayWaits (V d (cV L) (jV L)) (default : HIx 1) O
        ∗ (∃ W', ⌜∀ p ∈ W', p ∈ W ∨ p.2 = none⌝ ∗ owes (V d (cV L) (jV L)) O W')
        ∗ (oLoc d ↦[oRem L 6]{fullShare} O0)
        ∗ (∃ f, ((Memref.whole cc1_scratch7).view.loc (V d (cV L) (jV L)) ↦{fullShare} f) ∗ ⌜goodBuf d L X Tb 6 ((Memref.whole cc1_scratch7).view.read (Elt F) f)⌝)
        ∗ semVal (cellOf d L cc1_scratch23) 0
        ∗ semVal (cellOf d L cc1_scratch24) 0
        ∗ GFl d L X Tb (Memref.whole cc1_scratch8) cc1_scratch16 7 ((tileShare L).left.left.left.left.left.left.left.right) ((oSl ![728] inb_S13312_S104_728).view.set) (fullShare.left.left.left.left.left.left.left.right)
        ∗ OFl d L X Tb (Memref.whole cc1_scratch1) cc1_scratch17 0
        ∗ OFl d L X Tb (Memref.whole cc1_scratch2) cc1_scratch18 1
        ∗ OFl d L X Tb (Memref.whole cc1_scratch3) cc1_scratch19 2
        ∗ OFl d L X Tb (Memref.whole cc1_scratch4) cc1_scratch20 3
        ∗ OFl d L X Tb (Memref.whole cc1_scratch5) cc1_scratch21 4
        ∗ OFl d L X Tb (Memref.whole cc1_scratch6) cc1_scratch22 5
        ∗ ((V d (cV L) (jV L)).loc cc1_scratch0 ↦[hiSet]{fullShare} idxF d L X)
        ∗ ((V d (cV L) (jV L)).loc cc1_scratch0 ↦[loSet]{(fullShare.left.left.left.left.left.left.left.left)} idxF d L X)
        ∗ ((V d (cV L) (jV L)).loc cc1_scratch0 ↦[loSet \ (oSl ![0] inb_S13312_S104_0).view.set]{(fullShare.right)} idxF d L X)
        ∗ ((V d (cV L) (jV L)).loc cc1_scratch0 ↦[loSet \ (oSl ![104] inb_S13312_S104_104).view.set]{(fullShare.left.right)} idxF d L X)
        ∗ ((V d (cV L) (jV L)).loc cc1_scratch0 ↦[loSet \ (oSl ![208] inb_S13312_S104_208).view.set]{(fullShare.left.left.right)} idxF d L X)
        ∗ ((V d (cV L) (jV L)).loc cc1_scratch0 ↦[loSet \ (oSl ![312] inb_S13312_S104_312).view.set]{(fullShare.left.left.left.right)} idxF d L X)
        ∗ ((V d (cV L) (jV L)).loc cc1_scratch0 ↦[loSet \ (oSl ![416] inb_S13312_S104_416).view.set]{(fullShare.left.left.left.left.right)} idxF d L X)
        ∗ ((V d (cV L) (jV L)).loc cc1_scratch0 ↦[loSet \ (oSl ![520] inb_S13312_S104_520).view.set]{(fullShare.left.left.left.left.left.right)} idxF d L X)
        ∗ ((V d (cV L) (jV L)).loc cc1_scratch0 ↦[loSet \ (oSl ![624] inb_S13312_S104_624).view.set]{(fullShare.left.left.left.left.left.left.right)} idxF d L X)
        ∗ ((V d (cV L) (jV L)).loc cc1_scratch0 ↦[loSet \ (oSl ![728] inb_S13312_S104_728).view.set]{(fullShare.left.left.left.left.left.left.left.right)} idxF d L X)
        ∗ ((V d (cV L) (jV L)).loc cc1_scratch0 ↦[(oSl ![0] inb_S13312_S104_0).view.set]{(fullShare.right)} idxF d L X)
        ∗ ((V d (cV L) (jV L)).loc cc1_scratch0 ↦[(oSl ![104] inb_S13312_S104_104).view.set]{(fullShare.left.right)} idxF d L X)
        ∗ ((V d (cV L) (jV L)).loc cc1_scratch0 ↦[(oSl ![208] inb_S13312_S104_208).view.set]{(fullShare.left.left.right)} idxF d L X)
        ∗ ((V d (cV L) (jV L)).loc cc1_scratch0 ↦[(oSl ![312] inb_S13312_S104_312).view.set]{(fullShare.left.left.left.right)} idxF d L X)
        ∗ ((V d (cV L) (jV L)).loc cc1_scratch0 ↦[(oSl ![416] inb_S13312_S104_416).view.set]{(fullShare.left.left.left.left.right)} idxF d L X)
        ∗ ((V d (cV L) (jV L)).loc cc1_scratch0 ↦[(oSl ![520] inb_S13312_S104_520).view.set]{(fullShare.left.left.left.left.left.right)} idxF d L X)
        ∗ ((V d (cV L) (jV L)).loc cc1_scratch0 ↦[(oSl ![624] inb_S13312_S104_624).view.set]{(fullShare.left.left.left.left.left.left.right)} idxF d L X)
        ∗ ((tSl).view.loc (V d (cV L) (jV L)) ↦[(tSl).view.set]{((tileShare L).right)} Tb)
        ∗ ((tSl).view.loc (V d (cV L) (jV L)) ↦[(tSl).view.set]{((tileShare L).left.right)} Tb)
        ∗ ((tSl).view.loc (V d (cV L) (jV L)) ↦[(tSl).view.set]{((tileShare L).left.left.right)} Tb)
        ∗ ((tSl).view.loc (V d (cV L) (jV L)) ↦[(tSl).view.set]{((tileShare L).left.left.left.right)} Tb)
        ∗ ((tSl).view.loc (V d (cV L) (jV L)) ↦[(tSl).view.set]{((tileShare L).left.left.left.left.right)} Tb)
        ∗ ((tSl).view.loc (V d (cV L) (jV L)) ↦[(tSl).view.set]{((tileShare L).left.left.left.left.left.right)} Tb)
        ∗ ((tSl).view.loc (V d (cV L) (jV L)) ↦[(tSl).view.set]{((tileShare L).left.left.left.left.left.left.right)} Tb)
        ∗ semVal (cellOf d L cc1_scratch9) 0
        ∗ semVal (cellOf d L cc1_scratch10) 0
        ∗ semVal (cellOf d L cc1_scratch11) 0
        ∗ semVal (cellOf d L cc1_scratch12) 0
        ∗ semVal (cellOf d L cc1_scratch13) 0
        ∗ semVal (cellOf d L cc1_scratch14) 0
        ∗ semVal (cellOf d L cc1_scratch15) 0
        ∗ (oLoc d ↦[oDone L (8 * 0)]{fullShare} (gatherOut (F := F) X Tb : Buf (Elt F) (oLoc d))))
        ∗ (((∃ W', ⌜∀ p ∈ W', p ∈ W ∨ p.2 = none⌝ ∗ owes (V d (cV L) (jV L)) O W')
        ∗ (oLoc d ↦[oDone L 125]{fullShare} (gatherOut (F := F) X Tb : Buf (Elt F) (oLoc d)))
        ∗ (oLoc d ↦[oRem L 128]{fullShare} O0)
        ∗ OFl d L X Tb (Memref.whole cc1_scratch6) cc1_scratch22 125
        ∗ OFl d L X Tb (Memref.whole cc1_scratch7) cc1_scratch23 126
        ∗ OFl d L X Tb (Memref.whole cc1_scratch8) cc1_scratch24 127
        ∗ (∃ f, (Memref.whole cc1_scratch1).view.loc (V d (cV L) (jV L)) ↦{fullShare} f)
        ∗ (∃ f, (Memref.whole cc1_scratch2).view.loc (V d (cV L) (jV L)) ↦{fullShare} f)
        ∗ (∃ f, (Memref.whole cc1_scratch3).view.loc (V d (cV L) (jV L)) ↦{fullShare} f)
        ∗ (∃ f, (Memref.whole cc1_scratch4).view.loc (V d (cV L) (jV L)) ↦{fullShare} f)
        ∗ (∃ f, (Memref.whole cc1_scratch5).view.loc (V d (cV L) (jV L)) ↦{fullShare} f)
        ∗ semVal (cellOf d L cc1_scratch17) 0
        ∗ semVal (cellOf d L cc1_scratch18) 0
        ∗ semVal (cellOf d L cc1_scratch19) 0
        ∗ semVal (cellOf d L cc1_scratch20) 0
        ∗ semVal (cellOf d L cc1_scratch21) 0
        ∗ ((tSl).view.loc (V d (cV L) (jV L)) ↦[(tSl).view.set]{((tileShare L).right)} Tb)
        ∗ ((tSl).view.loc (V d (cV L) (jV L)) ↦[(tSl).view.set]{((tileShare L).left.right)} Tb)
        ∗ ((tSl).view.loc (V d (cV L) (jV L)) ↦[(tSl).view.set]{((tileShare L).left.left.right)} Tb)
        ∗ ((tSl).view.loc (V d (cV L) (jV L)) ↦[(tSl).view.set]{((tileShare L).left.left.left.right)} Tb)
        ∗ ((tSl).view.loc (V d (cV L) (jV L)) ↦[(tSl).view.set]{((tileShare L).left.left.left.left.right)} Tb)
        ∗ ((tSl).view.loc (V d (cV L) (jV L)) ↦[(tSl).view.set]{((tileShare L).left.left.left.left.left.right)} Tb)
        ∗ ((tSl).view.loc (V d (cV L) (jV L)) ↦[(tSl).view.set]{((tileShare L).left.left.left.left.left.left.right)} Tb)
        ∗ ((tSl).view.loc (V d (cV L) (jV L)) ↦[(tSl).view.set]{((tileShare L).left.left.left.left.left.left.left.right)} Tb)
        ∗ ((V d (cV L) (jV L)).loc cc1_scratch0 ↦[Finset.univ]{(fullShare.right)} idxF d L X)
        ∗ ((V d (cV L) (jV L)).loc cc1_scratch0 ↦[Finset.univ]{(fullShare.left.right)} idxF d L X)
        ∗ ((V d (cV L) (jV L)).loc cc1_scratch0 ↦[Finset.univ]{(fullShare.left.left.right)} idxF d L X)
        ∗ ((V d (cV L) (jV L)).loc cc1_scratch0 ↦[Finset.univ]{(fullShare.left.left.left.right)} idxF d L X)
        ∗ ((V d (cV L) (jV L)).loc cc1_scratch0 ↦[Finset.univ]{(fullShare.left.left.left.left.right)} idxF d L X)
        ∗ ((V d (cV L) (jV L)).loc cc1_scratch0 ↦[Finset.univ]{(fullShare.left.left.left.left.left.right)} idxF d L X)
        ∗ ((V d (cV L) (jV L)).loc cc1_scratch0 ↦[Finset.univ]{(fullShare.left.left.left.left.left.left.right)} idxF d L X)
        ∗ ((V d (cV L) (jV L)).loc cc1_scratch0 ↦[Finset.univ]{(fullShare.left.left.left.left.left.left.left.right)} idxF d L X)
        ∗ ((V d (cV L) (jV L)).loc cc1_scratch0 ↦{(fullShare.left.left.left.left.left.left.left.left)} idxF d L X)
        ∗ semVal (cellOf d L cc1_scratch9) 0
        ∗ semVal (cellOf d L cc1_scratch10) 0
        ∗ semVal (cellOf d L cc1_scratch11) 0
        ∗ semVal (cellOf d L cc1_scratch12) 0
        ∗ semVal (cellOf d L cc1_scratch13) 0
        ∗ semVal (cellOf d L cc1_scratch14) 0
        ∗ semVal (cellOf d L cc1_scratch15) 0
        ∗ semVal (cellOf d L cc1_scratch16) 0) -∗ wp frame (wpE (defs₀ (F := F)) 𝒱₀ (V d (cV L) (jV L)) none) Set.univ (k ⟨⟩) Q)) : sProp 𝕄)
      ⊢ wp frame (wpE (defs₀ (F := F)) 𝒱₀ (V d (cV L) (jV L)) none) Set.univ (k1_part9 L (Memref.whole main_v1_scv) (Memref.isWhole_whole _) (Memref.whole main_v0_scv) (Memref.isWhole_whole _) (Memref.whole main_v2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) cc1_scratch9 cc1_scratch10 cc1_scratch11 cc1_scratch12 cc1_scratch13 cc1_scratch14 cc1_scratch15 cc1_scratch16 cc1_scratch17 cc1_scratch18 cc1_scratch19 cc1_scratch20 cc1_scratch21 cc1_scratch22 cc1_scratch23 cc1_scratch24 cc1_scoped0 v3 >>= k) Q := by
  rw [wp_bind]
  exact part9_spec (U := U) d L X Tb O0 hX O W v3 (fun a => wp frame (wpE (defs₀ (F := F)) 𝒱₀ (V d (cV L) (jV L)) none) Set.univ (k a) Q)

set_option maxHeartbeats 8000000 in
/-- The gather kernel's body at one vector subcore: from its words of the row numbers, its share of the rescaled table and its
    rows of the result, it leaves in those rows, for every row `r` and column `q`, lane `q mod 128` of the table's row
    `X[26 r + q / 128] + 128 (q / 128)`. -/
theorem tile_body (hF : (K (F := F)).Facts)
    (X : Buf (Elt F) (xLoc d)) (Tb : Buf (Elt F) (tLoc d)) (O0 : Buf (Elt F) (oLoc d)) (hX : ∀ j, (X j : BitVec 32).toNat < 128)
    (O : CellTallies nD τ sig (HIx 1)) (W : Waits sig (HIx 1)) (hO : ∀ g, O g none = 0) :
    iprop(levAts (K (F := F)).L (K (F := F)).lev ∗ emp ∗ tileGo (U := U) d L X Tb O0
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather_body L (Memref.whole main_v1_scv) (Memref.isWhole_whole _) (Memref.whole main_v0_scv) (Memref.isWhole_whole _) (Memref.whole main_v2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) cc1_scratch9 cc1_scratch10 cc1_scratch11 cc1_scratch12 cc1_scratch13 cc1_scratch14 cc1_scratch15 cc1_scratch16 cc1_scratch17 cc1_scratch18 cc1_scratch19 cc1_scratch20 cc1_scratch21 cc1_scratch22 cc1_scratch23 cc1_scratch24 cc1_scoped0)
          fun _ => iprop(tileTd (U := U) d L X Tb ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc1__sc_gather_body_eq_skeleton]; unfold cc1__sc_gather_body_skel
  rw [(K (F := F)).scopedBufs_V hF d (cV L) (jV L), SparseCore.Cfg.scopedSems0_V (Val := Elt F) d (cV L) (jV L), ownSems0_V, ownBufs_V]
  unfold tileGo tileTd
  iintro ⟨#Hlv, Hemp, ⟨Hx, Ht, Ho⟩, ⟨⟨%fi, Hi⟩, ⟨%fb0, Hb0⟩, ⟨%fb1, Hb1⟩, ⟨%fb2, Hb2⟩, ⟨%fb3, Hb3⟩, ⟨%fb4, Hb4⟩, ⟨%fb5, Hb5⟩, ⟨%fb6, Hb6⟩, ⟨%fb7, Hb7⟩, Hbufs⟩, ⟨Hs9, Hs10, Hs11, Hs12, Hs13, Hs14, Hs15, Hs16, Hs17, Hs18, Hs19, Hs20, Hs21, Hs22, Hs23, Hs24, Hs0, Hsems⟩, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hodone := (oDone_init (U := U) d L (gatherOut (F := F) X Tb : Buf (Elt F) (oLoc d))) $$ Hemp
  have hW' : ∀ p ∈ W, p ∈ W ∨ p.2 = none := fun p hp => .inl hp
  have hN : ∀ (B : Memref sig .scVector .vmem S104x128 .f32) (a' : Fin S104x128.rank),
      ∑ j, (B.slice (S104x128.rowRect a' j) (S104x128.stride_rowRect a' j)).view.dmaCredit = B.view.dmaCredit :=
    fun B a' => SparseCore.sum_rowCredit_eq_dmaCredit B a' (fun _ => rfl)
  ihave Hx' := (Entails.of_eq (show (xLoc d ↦[xSet L]{fullShare} X : sProp 𝕄) = ((xSl L).view.loc (V d (cV L) (jV L)) ↦[(xSl L).view.set]{fullShare} X) by rw [set_xSl])) $$ Hx
  ihave Hi' := (Entails.of_eq (show ((V d (cV L) (jV L)).loc cc1_scratch0 ↦{fullShare} fi : sProp 𝕄) = ((Memref.whole cc1_scratch0).view.loc (V d (cV L) (jV L)) ↦{fullShare} fi) from rfl)) $$ Hi
  ihave Horem := (Entails.of_eq (show (oLoc d ↦[oSet L]{fullShare} O0 : sProp 𝕄) = (oLoc d ↦[oRem L 0]{fullShare} O0) by rw [oRem_zero])) $$ Ho
  -- phase 0: the worker's words of the row numbers into the list
  sl_exec
  have hdma : View.write (Elt F) (Memref.whole cc1_scratch0).view fi (tile_body.sl.dma0 d L X) Finset.univ = idxG d L X (16 * 0) := by
    exact (View.write_whole_univ cc1_scratch0 fi _).trans (dma0_val d L X)
  ihave Hi2 := (Entails.of_eq (congrArg (fun f => ((Memref.whole cc1_scratch0).view.loc (V d (cV L) (jV L)) ↦{fullShare} f : sProp 𝕄)) hdma)) $$ Hi'
  -- phase 1: the first 832 words get their field's offset
  sl_for (inv1 d L X) $$ [Hi2]
  case region =>
    intro k _
    unfold inv1
    iintro Hi
    sl_exec
    sl_step
    iapply (Entails.of_eq (congrArg (fun f => ((Memref.whole cc1_scratch0).view.loc (V d (cV L) (jV L)) ↦{fullShare} f : sProp 𝕄))
      (trip_val d L X (16 * k.val) (k1_off2 k) (k1_off2_inb k) (by rw [k1_off2_eq]; rfl) (k1_pay1 L k (View.readAt (Elt F) (Memref.whole cc1_scratch0).view (Rect.unit (s := S13312) (k1_off2 k) S16.size (k1_off2_inb k)).toLoadRect (idxG d L X (16 * k.val)))) (fun x => pay1_apply L k (View.readAt (Elt F) (Memref.whole cc1_scratch0).view (Rect.unit (s := S13312) (k1_off2 k) S16.size (k1_off2_inb k)).toLoadRect (idxG d L X (16 * k.val))) x))))
    iexact Hi
  · unfold inv1; iexact Hi2
  iintro %_ HI
  unfold inv1
  ihave HI2 := (Entails.of_eq (show ((Memref.whole cc1_scratch0).view.loc (V d (cV L) (jV L)) ↦{fullShare} idxG d L X (16 * Scf.trips k1_t1_loop.lb k1_t1_loop.ub k1_t1_loop.st) : sProp 𝕄)
      = ((V d (cV L) (jV L)).loc cc1_scratch0 ↦{fullShare} idxG d L X 832) from rfl)) $$ HI
  ihave Hsp := (pointsTo_split_subset (q := fullShare) (f := idxG d L X 832) (S := Finset.univ) (Finset.subset_univ hiSet)).1 $$ HI2
  icases Hsp with ⟨Hhi, Hlo⟩
  ihave Hlo2 := (Entails.of_eq (pointsTo_congr (q := fullShare) (lo_congr d L X))) $$ Hlo
  ihave Hsp_Hl0 := (pointsTo_share (PosShare.mem_left_op_right (fullShare))).1 $$ Hlo2
  icases Hsp_Hl0 with ⟨Hlr0, Hl0⟩
  ihave Hsp_Hl1 := (pointsTo_share (PosShare.mem_left_op_right (fullShare.left))).1 $$ Hlr0
  icases Hsp_Hl1 with ⟨Hlr1, Hl1⟩
  ihave Hsp_Hl2 := (pointsTo_share (PosShare.mem_left_op_right (fullShare.left.left))).1 $$ Hlr1
  icases Hsp_Hl2 with ⟨Hlr2, Hl2⟩
  ihave Hsp_Hl3 := (pointsTo_share (PosShare.mem_left_op_right (fullShare.left.left.left))).1 $$ Hlr2
  icases Hsp_Hl3 with ⟨Hlr3, Hl3⟩
  ihave Hsp_Hl4 := (pointsTo_share (PosShare.mem_left_op_right (fullShare.left.left.left.left))).1 $$ Hlr3
  icases Hsp_Hl4 with ⟨Hlr4, Hl4⟩
  ihave Hsp_Hl5 := (pointsTo_share (PosShare.mem_left_op_right (fullShare.left.left.left.left.left))).1 $$ Hlr4
  icases Hsp_Hl5 with ⟨Hlr5, Hl5⟩
  ihave Hsp_Hl6 := (pointsTo_share (PosShare.mem_left_op_right (fullShare.left.left.left.left.left.left))).1 $$ Hlr5
  icases Hsp_Hl6 with ⟨Hlr6, Hl6⟩
  ihave Hsp_Hl7 := (pointsTo_share (PosShare.mem_left_op_right (fullShare.left.left.left.left.left.left.left))).1 $$ Hlr6
  icases Hsp_Hl7 with ⟨Hlr7, Hl7⟩
  ihave Hsp_Htk0 := (pointsTo_share (PosShare.mem_left_op_right ((tileShare L)))).1 $$ Ht
  icases Hsp_Htk0 with ⟨Htr0, Htk0⟩
  ihave Hsp_Htk1 := (pointsTo_share (PosShare.mem_left_op_right ((tileShare L).left))).1 $$ Htr0
  icases Hsp_Htk1 with ⟨Htr1, Htk1⟩
  ihave Hsp_Htk2 := (pointsTo_share (PosShare.mem_left_op_right ((tileShare L).left.left))).1 $$ Htr1
  icases Hsp_Htk2 with ⟨Htr2, Htk2⟩
  ihave Hsp_Htk3 := (pointsTo_share (PosShare.mem_left_op_right ((tileShare L).left.left.left))).1 $$ Htr2
  icases Hsp_Htk3 with ⟨Htr3, Htk3⟩
  ihave Hsp_Htk4 := (pointsTo_share (PosShare.mem_left_op_right ((tileShare L).left.left.left.left))).1 $$ Htr3
  icases Hsp_Htk4 with ⟨Htr4, Htk4⟩
  ihave Hsp_Htk5 := (pointsTo_share (PosShare.mem_left_op_right ((tileShare L).left.left.left.left.left))).1 $$ Htr4
  icases Hsp_Htk5 with ⟨Htr5, Htk5⟩
  ihave Hsp_Htk6 := (pointsTo_share (PosShare.mem_left_op_right ((tileShare L).left.left.left.left.left.left))).1 $$ Htr5
  icases Hsp_Htk6 with ⟨Htr6, Htk6⟩
  ihave Hsp_Htk7 := (pointsTo_share (PosShare.mem_left_op_right ((tileShare L).left.left.left.left.left.left.left))).1 $$ Htr6
  icases Hsp_Htk7 with ⟨Htr7, Htk7⟩
  ihave Htt0 := (Entails.of_eq (show (tLoc d ↦{((tileShare L).right)} Tb : sProp 𝕄) = ((tSl).view.loc (V d (cV L) (jV L)) ↦[(tSl).view.set]{((tileShare L).right)} Tb) by rw [set_tSl])) $$ Htk0
  ihave Htt1 := (Entails.of_eq (show (tLoc d ↦{((tileShare L).left.right)} Tb : sProp 𝕄) = ((tSl).view.loc (V d (cV L) (jV L)) ↦[(tSl).view.set]{((tileShare L).left.right)} Tb) by rw [set_tSl])) $$ Htk1
  ihave Htt2 := (Entails.of_eq (show (tLoc d ↦{((tileShare L).left.left.right)} Tb : sProp 𝕄) = ((tSl).view.loc (V d (cV L) (jV L)) ↦[(tSl).view.set]{((tileShare L).left.left.right)} Tb) by rw [set_tSl])) $$ Htk2
  ihave Htt3 := (Entails.of_eq (show (tLoc d ↦{((tileShare L).left.left.left.right)} Tb : sProp 𝕄) = ((tSl).view.loc (V d (cV L) (jV L)) ↦[(tSl).view.set]{((tileShare L).left.left.left.right)} Tb) by rw [set_tSl])) $$ Htk3
  ihave Htt4 := (Entails.of_eq (show (tLoc d ↦{((tileShare L).left.left.left.left.right)} Tb : sProp 𝕄) = ((tSl).view.loc (V d (cV L) (jV L)) ↦[(tSl).view.set]{((tileShare L).left.left.left.left.right)} Tb) by rw [set_tSl])) $$ Htk4
  ihave Htt5 := (Entails.of_eq (show (tLoc d ↦{((tileShare L).left.left.left.left.left.right)} Tb : sProp 𝕄) = ((tSl).view.loc (V d (cV L) (jV L)) ↦[(tSl).view.set]{((tileShare L).left.left.left.left.left.right)} Tb) by rw [set_tSl])) $$ Htk5
  ihave Htt6 := (Entails.of_eq (show (tLoc d ↦{((tileShare L).left.left.left.left.left.left.right)} Tb : sProp 𝕄) = ((tSl).view.loc (V d (cV L) (jV L)) ↦[(tSl).view.set]{((tileShare L).left.left.left.left.left.left.right)} Tb) by rw [set_tSl])) $$ Htk6
  ihave Htt7 := (Entails.of_eq (show (tLoc d ↦{((tileShare L).left.left.left.left.left.left.left.right)} Tb : sProp 𝕄) = ((tSl).view.loc (V d (cV L) (jV L)) ↦[(tSl).view.set]{((tileShare L).left.left.left.left.left.left.left.right)} Tb) by rw [set_tSl])) $$ Htk7
  -- phase 2: the eight gathers
  -- gather chunk 0 into buffer 0
  sl_exec
  ihave Hls := (pointsTo_split_subset (q := (fullShare.right)) (f := idxF d L X) (S := loSet) (oSl_sub_lo ![0] inb_S13312_S104_0 (by decide))).1 $$ Hl0
  icases Hls with ⟨Hlist0, Hlrest0⟩
  ihave Hbb := (Entails.of_eq (show ((Memref.whole cc1_scratch1).view.loc (V d (cV L) (jV L)) ↦{fullShare} fb0 : sProp 𝕄)
      = ((Memref.whole cc1_scratch1).view.loc (V d (cV L) (jV L)) ↦[(Memref.whole cc1_scratch1).view.set]{fullShare} fb0) by rw [View.set_whole])) $$ Hb0
  iapply (SparseCore.wp_indirectGatherLocal countersEmb 𝒱₀ (V d (cV L) (jV L)) none (hg := gathers_S3328x128_S104x128) (default : HIx 1)
      (Memref.whole cc1_scratch1).view.dmaCredit (hN (Memref.whole cc1_scratch1) _) (by decide) (read_oSl_lt d L X hX 13312 ![0] inb_S13312_S104_0)) $$ [Htt0 Hbb Hlist0 Hs9]
  · isplitl [Htt0]; · iexact Htt0
    isplitl [Hbb]; · iexact Hbb
    isplitl [Hlist0]; · iexact Hlist0
    iexact Hs9
  iintro Hfl
  ihave Hfl0 := (Transfers.Flight_mono countersEmb (V d (cV L) (jV L)) (sm := SemLoc.dma cc1_scratch9.sem) (ι := (default : HIx 1)) (N := (Memref.whole cc1_scratch1).view.dmaCredit) (gather_deliver d L X Tb (Memref.whole cc1_scratch1) (Memref.isWhole_whole _) (0) ![0] inb_S13312_S104_0 (show (![0] : Fin 1 → ℕ) 0 = 104 * 0 from rfl) rfl
      (read_oSl_lt d L X hX 13312 ![0] inb_S13312_S104_0) fb0 ((tileShare L).right) (fullShare.right))) $$ Hfl
  -- gather chunk 1 into buffer 1
  sl_exec
  ihave Hls := (pointsTo_split_subset (q := (fullShare.left.right)) (f := idxF d L X) (S := loSet) (oSl_sub_lo ![104] inb_S13312_S104_104 (by decide))).1 $$ Hl1
  icases Hls with ⟨Hlist1, Hlrest1⟩
  ihave Hbb := (Entails.of_eq (show ((Memref.whole cc1_scratch2).view.loc (V d (cV L) (jV L)) ↦{fullShare} fb1 : sProp 𝕄)
      = ((Memref.whole cc1_scratch2).view.loc (V d (cV L) (jV L)) ↦[(Memref.whole cc1_scratch2).view.set]{fullShare} fb1) by rw [View.set_whole])) $$ Hb1
  iapply (SparseCore.wp_indirectGatherLocal countersEmb 𝒱₀ (V d (cV L) (jV L)) none (hg := gathers_S3328x128_S104x128) (default : HIx 1)
      (Memref.whole cc1_scratch2).view.dmaCredit (hN (Memref.whole cc1_scratch2) _) (by decide) (read_oSl_lt d L X hX 13312 ![104] inb_S13312_S104_104)) $$ [Htt1 Hbb Hlist1 Hs10]
  · isplitl [Htt1]; · iexact Htt1
    isplitl [Hbb]; · iexact Hbb
    isplitl [Hlist1]; · iexact Hlist1
    iexact Hs10
  iintro Hfl
  ihave Hfl1 := (Transfers.Flight_mono countersEmb (V d (cV L) (jV L)) (sm := SemLoc.dma cc1_scratch10.sem) (ι := (default : HIx 1)) (N := (Memref.whole cc1_scratch2).view.dmaCredit) (gather_deliver d L X Tb (Memref.whole cc1_scratch2) (Memref.isWhole_whole _) (1) ![104] inb_S13312_S104_104 (show (![104] : Fin 1 → ℕ) 0 = 104 * 1 from rfl) rfl
      (read_oSl_lt d L X hX 13312 ![104] inb_S13312_S104_104) fb1 ((tileShare L).left.right) (fullShare.left.right))) $$ Hfl
  -- gather chunk 2 into buffer 2
  sl_exec
  ihave Hls := (pointsTo_split_subset (q := (fullShare.left.left.right)) (f := idxF d L X) (S := loSet) (oSl_sub_lo ![208] inb_S13312_S104_208 (by decide))).1 $$ Hl2
  icases Hls with ⟨Hlist2, Hlrest2⟩
  ihave Hbb := (Entails.of_eq (show ((Memref.whole cc1_scratch3).view.loc (V d (cV L) (jV L)) ↦{fullShare} fb2 : sProp 𝕄)
      = ((Memref.whole cc1_scratch3).view.loc (V d (cV L) (jV L)) ↦[(Memref.whole cc1_scratch3).view.set]{fullShare} fb2) by rw [View.set_whole])) $$ Hb2
  iapply (SparseCore.wp_indirectGatherLocal countersEmb 𝒱₀ (V d (cV L) (jV L)) none (hg := gathers_S3328x128_S104x128) (default : HIx 1)
      (Memref.whole cc1_scratch3).view.dmaCredit (hN (Memref.whole cc1_scratch3) _) (by decide) (read_oSl_lt d L X hX 13312 ![208] inb_S13312_S104_208)) $$ [Htt2 Hbb Hlist2 Hs11]
  · isplitl [Htt2]; · iexact Htt2
    isplitl [Hbb]; · iexact Hbb
    isplitl [Hlist2]; · iexact Hlist2
    iexact Hs11
  iintro Hfl
  ihave Hfl2 := (Transfers.Flight_mono countersEmb (V d (cV L) (jV L)) (sm := SemLoc.dma cc1_scratch11.sem) (ι := (default : HIx 1)) (N := (Memref.whole cc1_scratch3).view.dmaCredit) (gather_deliver d L X Tb (Memref.whole cc1_scratch3) (Memref.isWhole_whole _) (2) ![208] inb_S13312_S104_208 (show (![208] : Fin 1 → ℕ) 0 = 104 * 2 from rfl) rfl
      (read_oSl_lt d L X hX 13312 ![208] inb_S13312_S104_208) fb2 ((tileShare L).left.left.right) (fullShare.left.left.right))) $$ Hfl
  -- gather chunk 3 into buffer 3
  sl_exec
  ihave Hls := (pointsTo_split_subset (q := (fullShare.left.left.left.right)) (f := idxF d L X) (S := loSet) (oSl_sub_lo ![312] inb_S13312_S104_312 (by decide))).1 $$ Hl3
  icases Hls with ⟨Hlist3, Hlrest3⟩
  ihave Hbb := (Entails.of_eq (show ((Memref.whole cc1_scratch4).view.loc (V d (cV L) (jV L)) ↦{fullShare} fb3 : sProp 𝕄)
      = ((Memref.whole cc1_scratch4).view.loc (V d (cV L) (jV L)) ↦[(Memref.whole cc1_scratch4).view.set]{fullShare} fb3) by rw [View.set_whole])) $$ Hb3
  iapply (SparseCore.wp_indirectGatherLocal countersEmb 𝒱₀ (V d (cV L) (jV L)) none (hg := gathers_S3328x128_S104x128) (default : HIx 1)
      (Memref.whole cc1_scratch4).view.dmaCredit (hN (Memref.whole cc1_scratch4) _) (by decide) (read_oSl_lt d L X hX 13312 ![312] inb_S13312_S104_312)) $$ [Htt3 Hbb Hlist3 Hs12]
  · isplitl [Htt3]; · iexact Htt3
    isplitl [Hbb]; · iexact Hbb
    isplitl [Hlist3]; · iexact Hlist3
    iexact Hs12
  iintro Hfl
  ihave Hfl3 := (Transfers.Flight_mono countersEmb (V d (cV L) (jV L)) (sm := SemLoc.dma cc1_scratch12.sem) (ι := (default : HIx 1)) (N := (Memref.whole cc1_scratch4).view.dmaCredit) (gather_deliver d L X Tb (Memref.whole cc1_scratch4) (Memref.isWhole_whole _) (3) ![312] inb_S13312_S104_312 (show (![312] : Fin 1 → ℕ) 0 = 104 * 3 from rfl) rfl
      (read_oSl_lt d L X hX 13312 ![312] inb_S13312_S104_312) fb3 ((tileShare L).left.left.left.right) (fullShare.left.left.left.right))) $$ Hfl
  -- gather chunk 4 into buffer 4
  sl_exec
  ihave Hls := (pointsTo_split_subset (q := (fullShare.left.left.left.left.right)) (f := idxF d L X) (S := loSet) (oSl_sub_lo ![416] inb_S13312_S104_416 (by decide))).1 $$ Hl4
  icases Hls with ⟨Hlist4, Hlrest4⟩
  ihave Hbb := (Entails.of_eq (show ((Memref.whole cc1_scratch5).view.loc (V d (cV L) (jV L)) ↦{fullShare} fb4 : sProp 𝕄)
      = ((Memref.whole cc1_scratch5).view.loc (V d (cV L) (jV L)) ↦[(Memref.whole cc1_scratch5).view.set]{fullShare} fb4) by rw [View.set_whole])) $$ Hb4
  iapply (SparseCore.wp_indirectGatherLocal countersEmb 𝒱₀ (V d (cV L) (jV L)) none (hg := gathers_S3328x128_S104x128) (default : HIx 1)
      (Memref.whole cc1_scratch5).view.dmaCredit (hN (Memref.whole cc1_scratch5) _) (by decide) (read_oSl_lt d L X hX 13312 ![416] inb_S13312_S104_416)) $$ [Htt4 Hbb Hlist4 Hs13]
  · isplitl [Htt4]; · iexact Htt4
    isplitl [Hbb]; · iexact Hbb
    isplitl [Hlist4]; · iexact Hlist4
    iexact Hs13
  iintro Hfl
  ihave Hfl4 := (Transfers.Flight_mono countersEmb (V d (cV L) (jV L)) (sm := SemLoc.dma cc1_scratch13.sem) (ι := (default : HIx 1)) (N := (Memref.whole cc1_scratch5).view.dmaCredit) (gather_deliver d L X Tb (Memref.whole cc1_scratch5) (Memref.isWhole_whole _) (4) ![416] inb_S13312_S104_416 (show (![416] : Fin 1 → ℕ) 0 = 104 * 4 from rfl) rfl
      (read_oSl_lt d L X hX 13312 ![416] inb_S13312_S104_416) fb4 ((tileShare L).left.left.left.left.right) (fullShare.left.left.left.left.right))) $$ Hfl
  -- gather chunk 5 into buffer 5
  sl_exec
  ihave Hls := (pointsTo_split_subset (q := (fullShare.left.left.left.left.left.right)) (f := idxF d L X) (S := loSet) (oSl_sub_lo ![520] inb_S13312_S104_520 (by decide))).1 $$ Hl5
  icases Hls with ⟨Hlist5, Hlrest5⟩
  ihave Hbb := (Entails.of_eq (show ((Memref.whole cc1_scratch6).view.loc (V d (cV L) (jV L)) ↦{fullShare} fb5 : sProp 𝕄)
      = ((Memref.whole cc1_scratch6).view.loc (V d (cV L) (jV L)) ↦[(Memref.whole cc1_scratch6).view.set]{fullShare} fb5) by rw [View.set_whole])) $$ Hb5
  iapply (SparseCore.wp_indirectGatherLocal countersEmb 𝒱₀ (V d (cV L) (jV L)) none (hg := gathers_S3328x128_S104x128) (default : HIx 1)
      (Memref.whole cc1_scratch6).view.dmaCredit (hN (Memref.whole cc1_scratch6) _) (by decide) (read_oSl_lt d L X hX 13312 ![520] inb_S13312_S104_520)) $$ [Htt5 Hbb Hlist5 Hs14]
  · isplitl [Htt5]; · iexact Htt5
    isplitl [Hbb]; · iexact Hbb
    isplitl [Hlist5]; · iexact Hlist5
    iexact Hs14
  iintro Hfl
  ihave Hfl5 := (Transfers.Flight_mono countersEmb (V d (cV L) (jV L)) (sm := SemLoc.dma cc1_scratch14.sem) (ι := (default : HIx 1)) (N := (Memref.whole cc1_scratch6).view.dmaCredit) (gather_deliver d L X Tb (Memref.whole cc1_scratch6) (Memref.isWhole_whole _) (5) ![520] inb_S13312_S104_520 (show (![520] : Fin 1 → ℕ) 0 = 104 * 5 from rfl) rfl
      (read_oSl_lt d L X hX 13312 ![520] inb_S13312_S104_520) fb5 ((tileShare L).left.left.left.left.left.right) (fullShare.left.left.left.left.left.right))) $$ Hfl
  -- gather chunk 6 into buffer 6
  sl_exec
  ihave Hls := (pointsTo_split_subset (q := (fullShare.left.left.left.left.left.left.right)) (f := idxF d L X) (S := loSet) (oSl_sub_lo ![624] inb_S13312_S104_624 (by decide))).1 $$ Hl6
  icases Hls with ⟨Hlist6, Hlrest6⟩
  ihave Hbb := (Entails.of_eq (show ((Memref.whole cc1_scratch7).view.loc (V d (cV L) (jV L)) ↦{fullShare} fb6 : sProp 𝕄)
      = ((Memref.whole cc1_scratch7).view.loc (V d (cV L) (jV L)) ↦[(Memref.whole cc1_scratch7).view.set]{fullShare} fb6) by rw [View.set_whole])) $$ Hb6
  iapply (SparseCore.wp_indirectGatherLocal countersEmb 𝒱₀ (V d (cV L) (jV L)) none (hg := gathers_S3328x128_S104x128) (default : HIx 1)
      (Memref.whole cc1_scratch7).view.dmaCredit (hN (Memref.whole cc1_scratch7) _) (by decide) (read_oSl_lt d L X hX 13312 ![624] inb_S13312_S104_624)) $$ [Htt6 Hbb Hlist6 Hs15]
  · isplitl [Htt6]; · iexact Htt6
    isplitl [Hbb]; · iexact Hbb
    isplitl [Hlist6]; · iexact Hlist6
    iexact Hs15
  iintro Hfl
  ihave Hfl6 := (Transfers.Flight_mono countersEmb (V d (cV L) (jV L)) (sm := SemLoc.dma cc1_scratch15.sem) (ι := (default : HIx 1)) (N := (Memref.whole cc1_scratch7).view.dmaCredit) (gather_deliver d L X Tb (Memref.whole cc1_scratch7) (Memref.isWhole_whole _) (6) ![624] inb_S13312_S104_624 (show (![624] : Fin 1 → ℕ) 0 = 104 * 6 from rfl) rfl
      (read_oSl_lt d L X hX 13312 ![624] inb_S13312_S104_624) fb6 ((tileShare L).left.left.left.left.left.left.right) (fullShare.left.left.left.left.left.left.right))) $$ Hfl
  -- gather chunk 7 into buffer 7
  sl_exec
  ihave Hls := (pointsTo_split_subset (q := (fullShare.left.left.left.left.left.left.left.right)) (f := idxF d L X) (S := loSet) (oSl_sub_lo ![728] inb_S13312_S104_728 (by decide))).1 $$ Hl7
  icases Hls with ⟨Hlist7, Hlrest7⟩
  ihave Hbb := (Entails.of_eq (show ((Memref.whole cc1_scratch8).view.loc (V d (cV L) (jV L)) ↦{fullShare} fb7 : sProp 𝕄)
      = ((Memref.whole cc1_scratch8).view.loc (V d (cV L) (jV L)) ↦[(Memref.whole cc1_scratch8).view.set]{fullShare} fb7) by rw [View.set_whole])) $$ Hb7
  iapply (SparseCore.wp_indirectGatherLocal countersEmb 𝒱₀ (V d (cV L) (jV L)) none (hg := gathers_S3328x128_S104x128) (default : HIx 1)
      (Memref.whole cc1_scratch8).view.dmaCredit (hN (Memref.whole cc1_scratch8) _) (by decide) (read_oSl_lt d L X hX 13312 ![728] inb_S13312_S104_728)) $$ [Htt7 Hbb Hlist7 Hs16]
  · isplitl [Htt7]; · iexact Htt7
    isplitl [Hbb]; · iexact Hbb
    isplitl [Hlist7]; · iexact Hlist7
    iexact Hs16
  iintro Hfl
  ihave Hfl7 := (Transfers.Flight_mono countersEmb (V d (cV L) (jV L)) (sm := SemLoc.dma cc1_scratch16.sem) (ι := (default : HIx 1)) (N := (Memref.whole cc1_scratch8).view.dmaCredit) (gather_deliver d L X Tb (Memref.whole cc1_scratch8) (Memref.isWhole_whole _) (7) ![728] inb_S13312_S104_728 (show (![728] : Fin 1 → ℕ) 0 = 104 * 7 from rfl) rfl
      (read_oSl_lt d L X hX 13312 ![728] inb_S13312_S104_728) fb7 ((tileShare L).left.left.left.left.left.left.left.right) (fullShare.left.left.left.left.left.left.left.right))) $$ Hfl
  -- phase 3: the other words get their field's offset while the gathers fly
  sl_exec
  sl_for (inv2 d L X) $$ [Hhi]
  case region =>
    intro k _
    unfold inv2
    iintro Hi
    sl_exec
    iapply (wp_load_rect 𝒱₀ (V d (cV L) (jV L)) none Set.univ (m := (Memref.whole cc1_scratch0)) (r := Rect.unit (s := S13312) (k1_off3 k) S16.size (k1_off3_inb k)) (hsub3 k)) $$ Hi
    iintro Hi
    sl_exec
    iapply (wp_load_rect 𝒱₀ (V d (cV L) (jV L)) none Set.univ (m := (Memref.whole cc1_scratch0)) (r := Rect.unit (s := S13312) (k1_off3 k) S16.size (k1_off3_inb k)) (hsub3 k)) $$ Hi
    iintro Hi
    sl_exec
    iapply (wp_store 𝒱₀ (V d (cV L) (jV L)) none Set.univ (m := (Memref.whole cc1_scratch0)) (r := Rect.unit (s := S13312) (k1_off3 k) S16.size (k1_off3_inb k)) (hsub3 k)) $$ Hi
    iintro Hi
    sl_exec
    sl_step
    iapply (Entails.of_eq (congrArg (fun f => ((V d (cV L) (jV L)).loc cc1_scratch0 ↦[hiSet]{fullShare} f : sProp 𝕄))
      (trip_val d L X (832 + 16 * k.val) (k1_off3 k) (k1_off3_inb k) (by rw [k1_off3_eq]; show 16 * k.val + 832 = _; omega) (k1_pay2 (Scalar.muli (Scalar.addi (Scalar.muli (BitVec.ofNat 32 (L 1).val) 2#32) (BitVec.ofNat 32 (L 0).val)) 13312#32) (iota .scVector S16 32 [0] iota_S16_d0_w32_scVector) k (((Memref.whole cc1_scratch0).access (Rect.unit (s := S13312) (k1_off3 k) S16.size (k1_off3_inb k))).read (Elt F) (idxG d L X (832 + 16 * k.val)))) (fun x => pay2_apply L k (((Memref.whole cc1_scratch0).access (Rect.unit (s := S13312) (k1_off3 k) S16.size (k1_off3_inb k))).read (Elt F) (idxG d L X (832 + 16 * k.val))) x))))
    iexact Hi
  · unfold inv2; iexact Hhi
  iintro %_ HI
  unfold inv2
  ihave Hhi := (Entails.of_eq (show ((V d (cV L) (jV L)).loc cc1_scratch0 ↦[hiSet]{fullShare} idxG d L X (832 + 16 * Scf.trips k1_t2_loop.lb k1_t2_loop.ub k1_t2_loop.st) : sProp 𝕄)
      = ((V d (cV L) (jV L)).loc cc1_scratch0 ↦[hiSet]{fullShare} idxF d L X) from rfl)) $$ HI
  -- phase 4: each gather waited for, its buffer copied out
  -- wait for gather 0
  sl_exec
  iapply (Transfers.wp_waitLocalO countersEmb 𝒱₀ (V d (cV L) (jV L)) none (default : HIx 1) (rfl : (Memref.whole cc1_scratch1).view.dmaCredit = _)) $$ [Hfl0 HO]
  · isplitl [Hfl0]; · iexact Hfl0
    isplitl [HO]; · iexact HO
    iapply (Transfers.MayWaits.elim (SemLoc.dma cc1_scratch9.sem)) $$ Hmw
  iintro ⟨⟨⟨%fb0, Hb0, %hg0⟩, Htt0, Hlist0⟩, Hs9, HO⟩
  -- copy buffer 0 out to chunk 0
  sl_exec
  ihave Hsp := (oRem_take d L O0 (0) (by decide)) $$ Horem
  icases Hsp with ⟨Hoc, Horem⟩
  ihave Hoc := (Entails.of_eq (show (oLoc d ↦[oChunk L (0)]{fullShare} O0 : sProp 𝕄)
      = ((oSlc (k1_off4 L 0#32) (k1_off4_inb L 0)).view.loc (V d (cV L) (jV L)) ↦[(oSlc (k1_off4 L 0#32) (k1_off4_inb L 0)).view.set]{fullShare} O0) by rw [set_oSlc L (0) (k1_off4 L 0#32) (k1_off4_inb L 0) (show (k1_off4 L 0#32) = ![1024 * (L 1).val + 512 * (L 0).val + 4 * (0), 0] from (k1_off4_eq L 0))])) $$ Hoc
  ihave Hsrc := (Entails.of_eq (show ((Memref.whole cc1_scratch1).view.loc (V d (cV L) (jV L)) ↦{fullShare} fb0 : sProp 𝕄)
      = ((rsh (Memref.whole cc1_scratch1) (Memref.isWhole_whole _)).view.loc (V d (cV L) (jV L)) ↦[(rsh (Memref.whole cc1_scratch1) (Memref.isWhole_whole _)).view.set]{fullShare} fb0) by
        rw [show (rsh (Memref.whole cc1_scratch1) (Memref.isWhole_whole _)).view.set = (Memref.whole cc1_scratch1).view.set from View.set_reshape _ _, View.set_whole])) $$ Hb0
  iapply (Transfers.wp_dmaLocal countersEmb 𝒱₀ (V d (cV L) (jV L)) none (default : HIx 1) (NO L) rfl (View.dmaCredit_pos _ (show 0 < S4x3328.numel by decide)) (Finset.Subset.refl _)) $$ [Hsrc Hoc Hs17]
  · isplitl [Hsrc]; · iexact Hsrc
    isplitl [Hoc]; · iexact Hoc
    iexact Hs17
  iintro Hofl
  ihave Hofl0 := (Transfers.Flight_mono countersEmb (V d (cV L) (jV L)) (sm := SemLoc.dma cc1_scratch17.sem) (ι := (default : HIx 1)) (N := NO L) (out_deliver d L X Tb hX O0 (Memref.whole cc1_scratch1) (Memref.isWhole_whole _) (0) (by decide) (k1_off4 L 0#32) (k1_off4_inb L 0) (show (k1_off4 L 0#32) = ![1024 * (L 1).val + 512 * (L 0).val + 4 * (0), 0] from (k1_off4_eq L 0)) fb0 hg0)) $$ Hofl
  -- wait for gather 1
  sl_exec
  iapply (Transfers.wp_waitLocalO countersEmb 𝒱₀ (V d (cV L) (jV L)) none (default : HIx 1) (rfl : (Memref.whole cc1_scratch2).view.dmaCredit = _)) $$ [Hfl1 HO]
  · isplitl [Hfl1]; · iexact Hfl1
    isplitl [HO]; · iexact HO
    iapply (Transfers.MayWaits.elim (SemLoc.dma cc1_scratch10.sem)) $$ Hmw
  iintro ⟨⟨⟨%fb1, Hb1, %hg1⟩, Htt1, Hlist1⟩, Hs10, HO⟩
  -- copy buffer 1 out to chunk 1
  sl_exec
  ihave Hsp := (oRem_take d L O0 (1) (by decide)) $$ Horem
  icases Hsp with ⟨Hoc, Horem⟩
  ihave Hoc := (Entails.of_eq (show (oLoc d ↦[oChunk L (1)]{fullShare} O0 : sProp 𝕄)
      = ((oSlc (k1_off4 L 4#32) (k1_off4_inb L 1)).view.loc (V d (cV L) (jV L)) ↦[(oSlc (k1_off4 L 4#32) (k1_off4_inb L 1)).view.set]{fullShare} O0) by rw [set_oSlc L (1) (k1_off4 L 4#32) (k1_off4_inb L 1) (show (k1_off4 L 4#32) = ![1024 * (L 1).val + 512 * (L 0).val + 4 * (1), 0] from (k1_off4_eq L 1))])) $$ Hoc
  ihave Hsrc := (Entails.of_eq (show ((Memref.whole cc1_scratch2).view.loc (V d (cV L) (jV L)) ↦{fullShare} fb1 : sProp 𝕄)
      = ((rsh (Memref.whole cc1_scratch2) (Memref.isWhole_whole _)).view.loc (V d (cV L) (jV L)) ↦[(rsh (Memref.whole cc1_scratch2) (Memref.isWhole_whole _)).view.set]{fullShare} fb1) by
        rw [show (rsh (Memref.whole cc1_scratch2) (Memref.isWhole_whole _)).view.set = (Memref.whole cc1_scratch2).view.set from View.set_reshape _ _, View.set_whole])) $$ Hb1
  iapply (Transfers.wp_dmaLocal countersEmb 𝒱₀ (V d (cV L) (jV L)) none (default : HIx 1) (NO L) rfl (View.dmaCredit_pos _ (show 0 < S4x3328.numel by decide)) (Finset.Subset.refl _)) $$ [Hsrc Hoc Hs18]
  · isplitl [Hsrc]; · iexact Hsrc
    isplitl [Hoc]; · iexact Hoc
    iexact Hs18
  iintro Hofl
  ihave Hofl1 := (Transfers.Flight_mono countersEmb (V d (cV L) (jV L)) (sm := SemLoc.dma cc1_scratch18.sem) (ι := (default : HIx 1)) (N := NO L) (out_deliver d L X Tb hX O0 (Memref.whole cc1_scratch2) (Memref.isWhole_whole _) (1) (by decide) (k1_off4 L 4#32) (k1_off4_inb L 1) (show (k1_off4 L 4#32) = ![1024 * (L 1).val + 512 * (L 0).val + 4 * (1), 0] from (k1_off4_eq L 1)) fb1 hg1)) $$ Hofl
  -- wait for gather 2
  sl_exec
  iapply (Transfers.wp_waitLocalO countersEmb 𝒱₀ (V d (cV L) (jV L)) none (default : HIx 1) (rfl : (Memref.whole cc1_scratch3).view.dmaCredit = _)) $$ [Hfl2 HO]
  · isplitl [Hfl2]; · iexact Hfl2
    isplitl [HO]; · iexact HO
    iapply (Transfers.MayWaits.elim (SemLoc.dma cc1_scratch11.sem)) $$ Hmw
  iintro ⟨⟨⟨%fb2, Hb2, %hg2⟩, Htt2, Hlist2⟩, Hs11, HO⟩
  -- the rest of phase 4 and the ring, part by part
  sl_step
  iapply (le_wp_ret _ _ _ PUnit.unit _)
  iapply (part8_bind d L X Tb O0 hX O W _ _ _)
  isplitl [HO Horem Hb2 Hs19 Hs20 Hs21 Hs22 Hfl3 Hfl4 Hfl5 Hfl6]
  · isplitr; · iexact Hmw
    isplitl [HO]
    · iexists _
      isplitr
      swap
      · iexact HO
      ipureintro; repeat (first | exact hW' | apply waits_ok)
    isplitl [Horem]
    · iexact Horem
    isplitl [Hb2]
    · iexists fb2
      isplitl [Hb2]
      · iexact Hb2
      · ipureintro; exact hg2
    isplitl [Hs19]
    · iexact Hs19
    isplitl [Hs20]
    · iexact Hs20
    isplitl [Hs21]
    · iexact Hs21
    isplitl [Hs22]
    · iexact Hs22
    isplitl [Hfl3]
    · iexact Hfl3
    isplitl [Hfl4]
    · iexact Hfl4
    isplitl [Hfl5]
    · iexact Hfl5
    iexact Hfl6
  iintro ⟨⟨%W', %hW', HO⟩, Horem, Hofl2, Hofl3, Hofl4, Hofl5, ⟨%fb6, Hb6, %hg6⟩, Htt3, Htt4, Htt5, Htt6, Hlist3, Hlist4, Hlist5, Hlist6, Hs12, Hs13, Hs14, Hs15⟩
  iapply (part9_bind d L X Tb O0 hX O W _ _ _)
  isplitl [HO Horem Hb6 Hs23 Hs24 Hfl7 Hofl0 Hofl1 Hofl2 Hofl3 Hofl4 Hofl5 Hhi Hlr7 Hlrest0 Hlrest1 Hlrest2 Hlrest3 Hlrest4 Hlrest5 Hlrest6 Hlrest7 Hlist0 Hlist1 Hlist2 Hlist3 Hlist4 Hlist5 Hlist6 Htt0 Htt1 Htt2 Htt3 Htt4 Htt5 Htt6 Hs9 Hs10 Hs11 Hs12 Hs13 Hs14 Hs15 Hodone]
  · isplitr; · iexact Hmw
    isplitl [HO]
    · iexists _
      isplitr
      swap
      · iexact HO
      ipureintro; repeat (first | exact hW' | apply waits_ok)
    isplitl [Horem]
    · iexact Horem
    isplitl [Hb6]
    · iexists fb6
      isplitl [Hb6]
      · iexact Hb6
      · ipureintro; exact hg6
    isplitl [Hs23]
    · iexact Hs23
    isplitl [Hs24]
    · iexact Hs24
    isplitl [Hfl7]
    · iexact Hfl7
    isplitl [Hofl0]
    · iexact Hofl0
    isplitl [Hofl1]
    · iexact Hofl1
    isplitl [Hofl2]
    · iexact Hofl2
    isplitl [Hofl3]
    · iexact Hofl3
    isplitl [Hofl4]
    · iexact Hofl4
    isplitl [Hofl5]
    · iexact Hofl5
    isplitl [Hhi]
    · iexact Hhi
    isplitl [Hlr7]
    · iexact Hlr7
    isplitl [Hlrest0]
    · iexact Hlrest0
    isplitl [Hlrest1]
    · iexact Hlrest1
    isplitl [Hlrest2]
    · iexact Hlrest2
    isplitl [Hlrest3]
    · iexact Hlrest3
    isplitl [Hlrest4]
    · iexact Hlrest4
    isplitl [Hlrest5]
    · iexact Hlrest5
    isplitl [Hlrest6]
    · iexact Hlrest6
    isplitl [Hlrest7]
    · iexact Hlrest7
    isplitl [Hlist0]
    · iexact Hlist0
    isplitl [Hlist1]
    · iexact Hlist1
    isplitl [Hlist2]
    · iexact Hlist2
    isplitl [Hlist3]
    · iexact Hlist3
    isplitl [Hlist4]
    · iexact Hlist4
    isplitl [Hlist5]
    · iexact Hlist5
    isplitl [Hlist6]
    · iexact Hlist6
    isplitl [Htt0]
    · iexact Htt0
    isplitl [Htt1]
    · iexact Htt1
    isplitl [Htt2]
    · iexact Htt2
    isplitl [Htt3]
    · iexact Htt3
    isplitl [Htt4]
    · iexact Htt4
    isplitl [Htt5]
    · iexact Htt5
    isplitl [Htt6]
    · iexact Htt6
    isplitl [Hs9]
    · iexact Hs9
    isplitl [Hs10]
    · iexact Hs10
    isplitl [Hs11]
    · iexact Hs11
    isplitl [Hs12]
    · iexact Hs12
    isplitl [Hs13]
    · iexact Hs13
    isplitl [Hs14]
    · iexact Hs14
    isplitl [Hs15]
    · iexact Hs15
    iexact Hodone
  iintro ⟨⟨%W', %hW', HO⟩, Hodone, Horem, Hofl5, Hofl6, Hofl7, ⟨%fb0, Hb0⟩, ⟨%fb1, Hb1⟩, ⟨%fb2, Hb2⟩, ⟨%fb3, Hb3⟩, ⟨%fb4, Hb4⟩, Hs17, Hs18, Hs19, Hs20, Hs21, Htt0, Htt1, Htt2, Htt3, Htt4, Htt5, Htt6, Htt7, Hl0, Hl1, Hl2, Hl3, Hl4, Hl5, Hl6, Hl7, Hur7, Hs9, Hs10, Hs11, Hs12, Hs13, Hs14, Hs15, Hs16⟩
  -- phase 6: the last three copies out
  -- wait for the copy of buffer 5 out to chunk 125
  sl_exec
  iapply (Transfers.wp_waitLocalO countersEmb 𝒱₀ (V d (cV L) (jV L)) none (default : HIx 1) (rfl : _ = NO L)) $$ [Hofl5 HO]
  · isplitl [Hofl5]; · iexact Hofl5
    isplitl [HO]; · iexact HO
    iapply (Transfers.MayWaits.elim (SemLoc.dma cc1_scratch22.sem)) $$ Hmw
  iintro ⟨⟨Hoc, ⟨%fb5, Hb5⟩⟩, Hs22, HO⟩
  ihave Hodone := (oDone_put d L (gatherOut (F := F) X Tb : Buf (Elt F) (oLoc d)) (125) (by decide)) $$ [Hoc Hodone]
  · isplitl [Hoc]; · iexact Hoc
    iexact Hodone
  -- wait for the copy of buffer 6 out to chunk 126
  sl_exec
  iapply (Transfers.wp_waitLocalO countersEmb 𝒱₀ (V d (cV L) (jV L)) none (default : HIx 1) (rfl : _ = NO L)) $$ [Hofl6 HO]
  · isplitl [Hofl6]; · iexact Hofl6
    isplitl [HO]; · iexact HO
    iapply (Transfers.MayWaits.elim (SemLoc.dma cc1_scratch23.sem)) $$ Hmw
  iintro ⟨⟨Hoc, ⟨%fb6, Hb6⟩⟩, Hs23, HO⟩
  ihave Hodone := (oDone_put d L (gatherOut (F := F) X Tb : Buf (Elt F) (oLoc d)) (126) (by decide)) $$ [Hoc Hodone]
  · isplitl [Hoc]; · iexact Hoc
    iexact Hodone
  -- wait for the copy of buffer 7 out to chunk 127
  sl_exec
  iapply (Transfers.wp_waitLocalO countersEmb 𝒱₀ (V d (cV L) (jV L)) none (default : HIx 1) (rfl : _ = NO L)) $$ [Hofl7 HO]
  · isplitl [Hofl7]; · iexact Hofl7
    isplitl [HO]; · iexact HO
    iapply (Transfers.MayWaits.elim (SemLoc.dma cc1_scratch24.sem)) $$ Hmw
  iintro ⟨⟨Hoc, ⟨%fb7, Hb7⟩⟩, Hs24, HO⟩
  ihave Hodone := (oDone_put d L (gatherOut (F := F) X Tb : Buf (Elt F) (oLoc d)) (127) (by decide)) $$ [Hoc Hodone]
  · isplitl [Hoc]; · iexact Hoc
    iexact Hodone
  sl_exec
  sl_step
  -- what is handed back
  isplitl [Hodone]
  · iapply (Entails.of_eq (show ((oLoc d ↦[oDone L 128]{fullShare} (gatherOut (F := F) X Tb : Buf (Elt F) (oLoc d))) : sProp 𝕄) = (oLoc d ↦[oSet L]{fullShare} (gatherOut (F := F) X Tb : Buf (Elt F) (oLoc d))) by rw [oDone_all]))
    iexact Hodone
  ihave Hur6 := (pointsTo_share (PosShare.mem_left_op_right (fullShare.left.left.left.left.left.left.left))).2 $$ [Hur7 Hl7]
  · isplitl [Hur7]; · iexact Hur7
    iexact Hl7
  ihave Hur5 := (pointsTo_share (PosShare.mem_left_op_right (fullShare.left.left.left.left.left.left))).2 $$ [Hur6 Hl6]
  · isplitl [Hur6]; · iexact Hur6
    iexact Hl6
  ihave Hur4 := (pointsTo_share (PosShare.mem_left_op_right (fullShare.left.left.left.left.left))).2 $$ [Hur5 Hl5]
  · isplitl [Hur5]; · iexact Hur5
    iexact Hl5
  ihave Hur3 := (pointsTo_share (PosShare.mem_left_op_right (fullShare.left.left.left.left))).2 $$ [Hur4 Hl4]
  · isplitl [Hur4]; · iexact Hur4
    iexact Hl4
  ihave Hur2 := (pointsTo_share (PosShare.mem_left_op_right (fullShare.left.left.left))).2 $$ [Hur3 Hl3]
  · isplitl [Hur3]; · iexact Hur3
    iexact Hl3
  ihave Hur1 := (pointsTo_share (PosShare.mem_left_op_right (fullShare.left.left))).2 $$ [Hur2 Hl2]
  · isplitl [Hur2]; · iexact Hur2
    iexact Hl2
  ihave Hur0 := (pointsTo_share (PosShare.mem_left_op_right (fullShare.left))).2 $$ [Hur1 Hl1]
  · isplitl [Hur1]; · iexact Hur1
    iexact Hl1
  ihave Hlall := (pointsTo_share (PosShare.mem_left_op_right (fullShare))).2 $$ [Hur0 Hl0]
  · isplitl [Hur0]; · iexact Hur0
    iexact Hl0
  isplitl [Hlall Hb0 Hb1 Hb2 Hb3 Hb4 Hb5 Hb6 Hb7 Hbufs]
  · isplitl [Hlall]; · iexists _; iexact Hlall
    isplitl [Hb0]; · iexists _; iexact Hb0
    isplitl [Hb1]; · iexists _; iexact Hb1
    isplitl [Hb2]; · iexists _; iexact Hb2
    isplitl [Hb3]; · iexists _; iexact Hb3
    isplitl [Hb4]; · iexists _; iexact Hb4
    isplitl [Hb5]; · iexists _; iexact Hb5
    isplitl [Hb6]; · iexists _; iexact Hb6
    isplitl [Hb7]; · iexists _; iexact Hb7
    iexact Hbufs
  isplitl [Hs9 Hs10 Hs11 Hs12 Hs13 Hs14 Hs15 Hs16 Hs17 Hs18 Hs19 Hs20 Hs21 Hs22 Hs23 Hs24 Hs0 Hsems]
  · isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hs18]; · iexact Hs18
    isplitl [Hs19]; · iexact Hs19
    isplitl [Hs20]; · iexact Hs20
    isplitl [Hs21]; · iexact Hs21
    isplitl [Hs22]; · iexact Hs22
    isplitl [Hs23]; · iexact Hs23
    isplitl [Hs24]; · iexact Hs24
    isplitl [Hs0]; · iexact Hs0
    iexact Hsems
  iexists _; isplitr
  swap; · iexact HO
  ipureintro; repeat (first | exact hW' | apply waits_ok)

end Tile
end Cert.Proof.KI
end
-- ==== Proof.TileB0.lean ====
import proofs.«207321_g10943576670982_fold_wed_m_632_36_alg».proof.Proof.SetupB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
variable {U : Type} [URA U]

local notation "𝕄" => MT nD τ sig (HIx 1) (Elt F) ℕ U ℕ

/-! ## The vector subcore's own cells and buffers, by name -/

section Tile

variable (d : Dev nD) (L : grid1.Coords)

/-- The cell of DMA semaphore `s` on the worker's subcore. -/
abbrev cellOf (d : Dev nD) (L : grid1.Coords) (s : DmaSems sig S_) : GSem nD τ sig := (V d (cV L) (jV L), .dma s.sem)

theorem cellOf_ne {s s' : DmaSems sig S_} (h : (SemLoc.dma s.sem : SemLoc sig) ≠ SemLoc.dma s'.sem) : cellOf d L s ≠ cellOf d L s' :=
  fun e => h (congrArg Prod.snd e)

theorem cellOf_mem (s : DmaSems sig S_) (h : (SemLoc.dma s.sem : SemLoc sig).isScoped .scVector = true) :
    cellOf d L s ∈ ownCells (V d (cV L) (jV L)) := (mem_ownCells (g := cellOf d L s)).mpr ⟨rfl, h⟩

theorem ownSems0_V :
    (ownSems0 (V d (cV L) (jV L)) : sProp 𝕄)
      = iprop(semVal (cellOf d L cc1_scratch9) 0 ∗ semVal (cellOf d L cc1_scratch10) 0 ∗ semVal (cellOf d L cc1_scratch11) 0 ∗ semVal (cellOf d L cc1_scratch12) 0 ∗ semVal (cellOf d L cc1_scratch13) 0 ∗ semVal (cellOf d L cc1_scratch14) 0 ∗ semVal (cellOf d L cc1_scratch15) 0 ∗ semVal (cellOf d L cc1_scratch16) 0 ∗ semVal (cellOf d L cc1_scratch17) 0 ∗ semVal (cellOf d L cc1_scratch18) 0 ∗ semVal (cellOf d L cc1_scratch19) 0 ∗ semVal (cellOf d L cc1_scratch20) 0 ∗ semVal (cellOf d L cc1_scratch21) 0 ∗ semVal (cellOf d L cc1_scratch22) 0 ∗ semVal (cellOf d L cc1_scratch23) 0 ∗ semVal (cellOf d L cc1_scratch24) 0 ∗ semVal (cellOf d L cc1_scoped0) 0
          ∗ bigSep ((((((((((((((((((ownCells (V d (cV L) (jV L))).erase (cellOf d L cc1_scratch9)).erase (cellOf d L cc1_scratch10)).erase (cellOf d L cc1_scratch11)).erase (cellOf d L cc1_scratch12)).erase (cellOf d L cc1_scratch13)).erase (cellOf d L cc1_scratch14)).erase (cellOf d L cc1_scratch15)).erase (cellOf d L cc1_scratch16)).erase (cellOf d L cc1_scratch17)).erase (cellOf d L cc1_scratch18)).erase (cellOf d L cc1_scratch19)).erase (cellOf d L cc1_scratch20)).erase (cellOf d L cc1_scratch21)).erase (cellOf d L cc1_scratch22)).erase (cellOf d L cc1_scratch23)).erase (cellOf d L cc1_scratch24)).erase (cellOf d L cc1_scoped0)) fun g => semVal g 0) := by
  unfold SparseCore.Cfg.ownSems0
  rw [SparseCore.bigSep_erase' (cellOf_mem d L cc1_scratch9 (by decide)),
    SparseCore.bigSep_erase' (Finset.mem_erase.mpr ⟨cellOf_ne d L (by decide), cellOf_mem d L cc1_scratch10 (by decide)⟩),
    SparseCore.bigSep_erase' (Finset.mem_erase.mpr ⟨cellOf_ne d L (by decide), Finset.mem_erase.mpr ⟨cellOf_ne d L (by decide), cellOf_mem d L cc1_scratch11 (by decide)⟩⟩),
    SparseCore.bigSep_erase' (Finset.mem_erase.mpr ⟨cellOf_ne d L (by decide), Finset.mem_erase.mpr ⟨cellOf_ne d L (by decide), Finset.mem_erase.mpr ⟨cellOf_ne d L (by decide), cellOf_mem d L cc1_scratch12 (by decide)⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_mem d L cc1_scratch13 (by decide)⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_mem d L cc1_scratch14 (by decide)⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_mem d L cc1_scratch15 (by decide)⟩⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_mem d L cc1_scratch16 (by decide)⟩⟩⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_mem d L cc1_scratch17 (by decide)⟩⟩⟩⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_mem d L cc1_scratch18 (by decide)⟩⟩⟩⟩⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_mem d L cc1_scratch19 (by decide)⟩⟩⟩⟩⟩⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_mem d L cc1_scratch20 (by decide)⟩⟩⟩⟩⟩⟩⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_mem d L cc1_scratch21 (by decide)⟩⟩⟩⟩⟩⟩⟩⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_mem d L cc1_scratch22 (by decide)⟩⟩⟩⟩⟩⟩⟩⟩⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_mem d L cc1_scratch23 (by decide)⟩⟩⟩⟩⟩⟩⟩⟩⟩⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_mem d L cc1_scratch24 (by decide)⟩⟩⟩⟩⟩⟩⟩⟩⟩⟩⟩⟩⟩⟩⟩),
    SparseCore.bigSep_erase' (Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), Finset.mem_erase.mpr ⟨cellOf_ne d L (by decide), cellOf_mem d L cc1_scoped0 (by decide)⟩⟩⟩⟩⟩⟩⟩⟩⟩⟩⟩⟩⟩⟩⟩⟩)]

theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f) ∗ (∃ f, (V d (cV L) (jV L)).loc cc1_scratch2 ↦{fullShare} f) ∗ (∃ f, (V d (cV L) (jV L)).loc cc1_scratch3 ↦{fullShare} f) ∗ (∃ f, (V d (cV L) (jV L)).loc cc1_scratch4 ↦{fullShare} f) ∗ (∃ f, (V d (cV L) (jV L)).loc cc1_scratch5 ↦{fullShare} f) ∗ (∃ f, (V d (cV L) (jV L)).loc cc1_scratch6 ↦{fullShare} f) ∗ (∃ f, (V d (cV L) (jV L)).loc cc1_scratch7 ↦{fullShare} f) ∗ (∃ f, (V d (cV L) (jV L)).loc cc1_scratch8 ↦{fullShare} f)
          ∗ bigSep ((((((((((ownRefs (τ := τ) (.scVector (cV L) (jV L))).erase ((Proc.scVector (cV L) (jV L)).devRef cc1_scratch0)).erase ((Proc.scVector (cV L) (jV L)).devRef cc1_scratch1)).erase ((Proc.scVector (cV L) (jV L)).devRef cc1_scratch2)).erase ((Proc.scVector (cV L) (jV L)).devRef cc1_scratch3)).erase ((Proc.scVector (cV L) (jV L)).devRef cc1_scratch4)).erase ((Proc.scVector (cV L) (jV L)).devRef cc1_scratch5)).erase ((Proc.scVector (cV L) (jV L)).devRef cc1_scratch6)).erase ((Proc.scVector (cV L) (jV L)).devRef cc1_scratch7)).erase ((Proc.scVector (cV L) (jV L)).devRef cc1_scratch8))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := (Proc.scVector (cV L) (jV L)).devRef cc1_scratch0) rfl),
    SparseCore.bigSep_erase' (Finset.mem_erase.mpr ⟨fun e => absurd (Proc.devRef_injective _ e) (show (cc1_scratch1 : Ref sig .scVector) ≠ cc1_scratch0 by decide), SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide), Finset.mem_erase.mpr ⟨fun e => absurd (Proc.devRef_injective _ e) (show (cc1_scratch2 : Ref sig .scVector) ≠ cc1_scratch0 by decide), SparseCore.Cfg.mem_ownRefs_of_owner (p := Proc.scVector (cV L) (jV L)) (b := (Proc.scVector (cV L) (jV L)).devRef cc1_scratch2) rfl⟩⟩),
    SparseCore.bigSep_erase' (Finset.mem_erase.mpr ⟨fun e => absurd (Proc.devRef_injective _ e) (show (cc1_scratch3 : Ref sig .scVector) ≠ cc1_scratch2 by decide), Finset.mem_erase.mpr ⟨fun e => absurd (Proc.devRef_injective _ e) (show (cc1_scratch3 : Ref sig .scVector) ≠ cc1_scratch1 by decide), Finset.mem_erase.mpr ⟨fun e => absurd (Proc.devRef_injective _ e) (show (cc1_scratch3 : Ref sig .scVector) ≠ cc1_scratch0 by decide), SparseCore.Cfg.mem_ownRefs_of_owner (p := Proc.scVector (cV L) (jV L)) (b := (Proc.scVector (cV L) (jV L)).devRef cc1_scratch3) rfl⟩⟩⟩),
    SparseCore.bigSep_erase' (Finset.mem_erase.mpr ⟨fun e => absurd (Proc.devRef_injective _ e) (show (cc1_scratch4 : Ref sig .scVector) ≠ cc1_scratch3 by decide), Finset.mem_erase.mpr ⟨fun e => absurd (Proc.devRef_injective _ e) (show (cc1_scratch4 : Ref sig .scVector) ≠ cc1_scratch2 by decide), Finset.mem_erase.mpr ⟨fun e => absurd (Proc.devRef_injective _ e) (show (cc1_scratch4 : Ref sig .scVector) ≠ cc1_scratch1 by decide), Finset.mem_erase.mpr ⟨fun e => absurd (Proc.devRef_injective _ e) (show (cc1_scratch4 : Ref sig .scVector) ≠ cc1_scratch0 by decide), SparseCore.Cfg.mem_ownRefs_of_owner (p := Proc.scVector (cV L) (jV L)) (b := (Proc.scVector (cV L) (jV L)).devRef cc1_scratch4) rfl⟩⟩⟩⟩),
    SparseCore.bigSep_erase' (Finset.mem_erase.mpr ⟨fun e => absurd (Proc.devRef_injective _ e) (show (cc1_scratch5 : Ref sig .scVector) ≠ cc1_scratch4 by decide), Finset.mem_erase.mpr ⟨fun e => absurd (Proc.devRef_injective _ e) (show (cc1_scratch5 : Ref sig .scVector) ≠ cc1_scratch3 by decide), Finset.mem_erase.mpr ⟨fun e => absurd (Proc.devRef_injective _ e) (show (cc1_scratch5 : Ref sig .scVector) ≠ cc1_scratch2 by decide), Finset.mem_erase.mpr ⟨fun e => absurd (Proc.devRef_injective _ e) (show (cc1_scratch5 : Ref sig .scVector) ≠ cc1_scratch1 by decide), Finset.mem_erase.mpr ⟨fun e => absurd (Proc.devRef_injective _ e) (show (cc1_scratch5 : Ref sig .scVector) ≠ cc1_scratch0 by decide), SparseCore.Cfg.mem_ownRefs_of_owner (p := Proc.scVector (cV L) (jV L)) (b := (Proc.scVector (cV L) (jV L)).devRef cc1_scratch5) rfl⟩⟩⟩⟩⟩),
    SparseCore.bigSep_erase' (Finset.mem_erase.mpr ⟨fun e => absurd (Proc.devRef_injective _ e) (show (cc1_scratch6 : Ref sig .scVector) ≠ cc1_scratch5 by decide), Finset.mem_erase.mpr ⟨fun e => absurd (Proc.devRef_injective _ e) (show (cc1_scratch6 : Ref sig .scVector) ≠ cc1_scratch4 by decide), Finset.mem_erase.mpr ⟨fun e => absurd (Proc.devRef_injective _ e) (show (cc1_scratch6 : Ref sig .scVector) ≠ cc1_scratch3 by decide), Finset.mem_erase.mpr ⟨fun e => absurd (Proc.devRef_injective _ e) (show (cc1_scratch6 : Ref sig .scVector) ≠ cc1_scratch2 by decide), Finset.mem_erase.mpr ⟨fun e => absurd (Proc.devRef_injective _ e) (show (cc1_scratch6 : Ref sig .scVector) ≠ cc1_scratch1 by decide), Finset.mem_erase.mpr ⟨fun e => absurd (Proc.devRef_injective _ e) (show (cc1_scratch6 : Ref sig .scVector) ≠ cc1_scratch0 by decide), SparseCore.Cfg.mem_ownRefs_of_owner (p := Proc.scVector (cV L) (jV L)) (b := (Proc.scVector (cV L) (jV L)).devRef cc1_scratch6) rfl⟩⟩⟩⟩⟩⟩),
    SparseCore.bigSep_erase' (Finset.mem_erase.mpr ⟨fun e => absurd (Proc.devRef_injective _ e) (show (cc1_scratch7 : Ref sig .scVector) ≠ cc1_scratch6 by decide), Finset.mem_erase.mpr ⟨fun e => absurd (Proc.devRef_injective _ e) (show (cc1_scratch7 : Ref sig .scVector) ≠ cc1_scratch5 by decide), Finset.mem_erase.mpr ⟨fun e => absurd (Proc.devRef_injective _ e) (show (cc1_scratch7 : Ref sig .scVector) ≠ cc1_scratch4 by decide), Finset.mem_erase.mpr ⟨fun e => absurd (Proc.devRef_injective _ e) (show (cc1_scratch7 : Ref sig .scVector) ≠ cc1_scratch3 by decide), Finset.mem_erase.mpr ⟨fun e => absurd (Proc.devRef_injective _ e) (show (cc1_scratch7 : Ref sig .scVector) ≠ cc1_scratch2 by decide), Finset.mem_erase.mpr ⟨fun e => absurd (Proc.devRef_injective _ e) (show (cc1_scratch7 : Ref sig .scVector) ≠ cc1_scratch1 by decide), Finset.mem_erase.mpr ⟨fun e => absurd (Proc.devRef_injective _ e) (show (cc1_scratch7 : Ref sig .scVector) ≠ cc1_scratch0 by decide), SparseCore.Cfg.mem_ownRefs_of_owner (p := Proc.scVector (cV L) (jV L)) (b := (Proc.scVector (cV L) (jV L)).devRef cc1_scratch7) rfl⟩⟩⟩⟩⟩⟩⟩),
    SparseCore.bigSep_erase' (Finset.mem_erase.mpr ⟨fun e => absurd (Proc.devRef_injective _ e) (show (cc1_scratch8 : Ref sig .scVector) ≠ cc1_scratch7 by decide), Finset.mem_erase.mpr ⟨fun e => absurd (Proc.devRef_injective _ e) (show (cc1_scratch8 : Ref sig .scVector) ≠ cc1_scratch6 by decide), Finset.mem_erase.mpr ⟨fun e => absurd (Proc.devRef_injective _ e) (show (cc1_scratch8 : Ref sig .scVector) ≠ cc1_scratch5 by decide), Finset.mem_erase.mpr ⟨fun e => absurd (Proc.devRef_injective _ e) (show (cc1_scratch8 : Ref sig .scVector) ≠ cc1_scratch4 by decide), Finset.mem_erase.mpr ⟨fun e => absurd (Proc.devRef_injective _ e) (show (cc1_scratch8 : Ref sig .scVector) ≠ cc1_scratch3 by decide), Finset.mem_erase.mpr ⟨fun e => absurd (Proc.devRef_injective _ e) (show (cc1_scratch8 : Ref sig .scVector) ≠ cc1_scratch2 by decide), Finset.mem_erase.mpr ⟨fun e => absurd (Proc.devRef_injective _ e) (show (cc1_scratch8 : Ref sig .scVector) ≠ cc1_scratch1 by decide), Finset.mem_erase.mpr ⟨fun e => absurd (Proc.devRef_injective _ e) (show (cc1_scratch8 : Ref sig .scVector) ≠ cc1_scratch0 by decide), SparseCore.Cfg.mem_ownRefs_of_owner (p := Proc.scVector (cV L) (jV L)) (b := (Proc.scVector (cV L) (jV L)).devRef cc1_scratch8) rfl⟩⟩⟩⟩⟩⟩⟩⟩)]

end Tile

end Cert.Proof.KB

end
-- ==== Proof.TileB1.lean ====
import proofs.«207321_g10943576670982_fold_wed_m_632_36_alg».proof.Proof.TileB0

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
variable {U : Type} [URA U]

local notation "𝕄" => MT nD τ sig (HIx 1) (Elt F) ℕ U ℕ

variable [CountersIn U] [FloatOps F]

section Tile
variable (d : Dev nD) (L : grid1.Coords)

abbrev xSl (L : grid1.Coords) : Memref sig .scVector .hbm S13312 .i32 :=
  (Memref.whole main_v1_scv).slice (Rect.unit (s := S425984) (k1_off1 L) S13312.size (k1_off1_inb L)) (fun _ => rfl)

theorem set_xSl (L : grid1.Coords) : (xSl L).view.set = xSet L := by
  show ((View.whole main_v1_scv).slice _).set = _
  rw [View.set_slice_whole]
  ext j
  rw [Rect.mem_set_unit, k1_off1_eq]
  unfold xSet wid
  constructor
  · intro h
    have h0 := h (0 : Fin 1)
    simp only [Matrix.cons_val_zero] at h0
    refine Finset.mem_filter.mpr ⟨Finset.mem_univ _, ?_⟩
    omega
  · intro h
    have h' := (Finset.mem_filter.mp h).2
    show ∀ a : Fin 1, _
    intro a
    have ha : a = 0 := Subsingleton.elim _ _
    subst ha
    have hj : (j 0).val < 425984 := (j 0).isLt
    simp only [Matrix.cons_val_zero]
    omega

/-- The table, as every gather addresses it. -/
abbrev tSl : Memref sig .scVector .hbm S3328x128 .f32 :=
  (Memref.whole main_v0_scv).slice (Rect.unit (s := S3328x128) ![0, 0] S3328x128.size inb_S3328x128_S3328x128_0_0) (fun _ => rfl)

/-- Word `n` of the worker's piece of the row numbers. -/
def xw (d : Dev nD) (L : grid1.Coords) (X : Buf (Elt F) (xLoc d)) (n : S13312.Idx) : BitVec 32 :=
  X (ix1 ⟨(13312 * wid L + (n 0).val) % 425984, Nat.mod_lt _ (by norm_num)⟩)

/-- The list of table rows once the first `m` words have had their field's offset added: word `n` below `m` is
    `X[13312 w + n] + 128 (n mod 26)`, the others are still `X[13312 w + n]`. -/
def idxG (d : Dev nD) (L : grid1.Coords) (X : Buf (Elt F) (xLoc d)) (m : ℕ) : Buf (Elt F) ((V d (cV L) (jV L)).loc cc1_scratch0) :=
  fun n => if (n 0).val < m then xw d L X n + BitVec.ofNat 32 (128 * ((n 0).val % 26)) else xw d L X n

/-- The finished list. -/
abbrev idxF (d : Dev nD) (L : grid1.Coords) (X : Buf (Elt F) (xLoc d)) : Buf (Elt F) ((V d (cV L) (jV L)).loc cc1_scratch0) := idxG d L X 13312

theorem xw_lt (X : Buf (Elt F) (xLoc d)) (hX : ∀ j, (X j : BitVec 32).toNat < 128) (n : S13312.Idx) : (xw d L X n).toNat < 128 := hX _

theorem idxG_lt (X : Buf (Elt F) (xLoc d)) (hX : ∀ j, (X j : BitVec 32).toNat < 128) (m : ℕ) (n : S13312.Idx) :
    (idxG d L X m n : BitVec 32).toNat < 3328 := by
  have h := xw_lt d L X hX n
  unfold idxG
  split
  · rw [BitVec.toNat_add, BitVec.toNat_ofNat]
    have : (n 0).val % 26 < 26 := Nat.mod_lt _ (by norm_num)
    omega
  · omega

/-- The words of the list the second loop rewrites, and the others. -/
def hiSet : Finset S13312.Idx := Finset.univ.filter fun n => 832 ≤ (n 0).val
abbrev loSet : Finset S13312.Idx := Finset.univ \ hiSet

/-- A chunk of 104 words of the list, as the program slices it at offset `o`. -/
abbrev oSl (o : Fin 1 → ℕ) (h : ∀ a, o a + S104.size a ≤ S13312.size a) : Memref sig .scVector .vmem S104 .i32 :=
  (Memref.whole cc1_scratch0).slice (Rect.unit (s := S13312) o S104.size h) (fun _ => rfl)

theorem oSl_sub_lo (o : Fin 1 → ℕ) (h : ∀ a, o a + S104.size a ≤ S13312.size a) (ho : o 0 + 104 ≤ 832) :
    (oSl o h).view.set ⊆ loSet := by
  intro j hj
  have hj' : j ∈ (Rect.unit (s := S13312) o S104.size h).set := by
    have e : (oSl o h).view.set = (Rect.unit (s := S13312) o S104.size h).set := View.set_slice_whole _ _
    rw [e] at hj; exact hj
  rw [Rect.mem_set_unit] at hj'
  have h0 := hj' (0 : Fin 1)
  refine Finset.mem_sdiff.mpr ⟨Finset.mem_univ _, fun hh => ?_⟩
  have := (Finset.mem_filter.mp hh).2
  have hs : S104.size (0 : Fin 1) = 104 := rfl
  omega

theorem read_oSl_lt (X : Buf (Elt F) (xLoc d)) (hX : ∀ j, (X j : BitVec 32).toNat < 128) (m : ℕ)
    (o : Fin 1 → ℕ) (h : ∀ a, o a + S104.size a ≤ S13312.size a) :
    ∀ x, ((oSl o h).view.read (Elt F) (idxG d L X m) x).toNat < S3328x128.size gathers_S3328x128_S104x128.axis := by
  intro x
  rw [show (oSl o h).view.read (Elt F) (idxG d L X m) x = idxG d L X m ((oSl o h).view.emb x) from (View.read_apply _ _).trans (cast_eq _ _)]
  exact idxG_lt d L X hX m _

theorem set_tSl : (tSl).view.set = Finset.univ := by
  show ((View.whole main_v0_scv).slice _).set = _
  rw [View.set_slice_whole]
  ext j
  simp only [Rect.mem_set_unit, Finset.mem_univ, iff_true]
  intro a
  exact ⟨by fin_cases a <;> simp, by fin_cases a <;> simp <;> exact (j _).isLt⟩

theorem lo_congr (X : Buf (Elt F) (xLoc d)) : ∀ i ∈ loSet, idxG d L X 832 i = idxF d L X i := by
  intro i hi
  have h1 : ¬ 832 ≤ (i 0).val := fun hh => (Finset.mem_sdiff.mp hi).2 (Finset.mem_filter.mpr ⟨Finset.mem_univ _, hh⟩)
  unfold idxF idxG
  rw [if_pos (by omega), if_pos (by omega)]

def inv1 (X : Buf (Elt F) (xLoc d)) (k : ℕ) (_ : PUnit) : sProp 𝕄 :=
  iprop((Memref.whole cc1_scratch0).view.loc (V d (cV L) (jV L)) ↦{fullShare} idxG d L X (16 * k))

def inv2 (X : Buf (Elt F) (xLoc d)) (k : ℕ) (_ : PUnit) : sProp 𝕄 :=
  iprop((V d (cV L) (jV L)).loc cc1_scratch0 ↦[hiSet]{fullShare} idxG d L X (832 + 16 * k))

theorem hsub3 (k : Fin k1_t2_loop.trips) :
    ((Memref.whole cc1_scratch0).access (Rect.unit (s := S13312) (k1_off3 k) S16.size (k1_off3_inb k))).set ⊆ hiSet := by
  show ((View.whole cc1_scratch0).slice _).set ⊆ _
  rw [View.set_slice_whole]
  intro j hj
  rw [Rect.mem_set_unit, k1_off3_eq] at hj
  have h0 := hj (0 : Fin 1)
  simp only [Matrix.cons_val_zero] at h0
  exact Finset.mem_filter.mpr ⟨Finset.mem_univ _, by omega⟩

/-! ## The worker's rows of the result, chunk by chunk -/

/-- Chunk `n` of the worker's rows: rows `[512 w + 4 n, 512 w + 4 n + 4)`. -/
def oChunk (L : grid1.Coords) (n : ℕ) : Finset S16384x3328.Idx := Finset.univ.filter fun j => (j 0).val / 4 = 128 * wid L + n
/-- The worker's rows from chunk `n` on, and those before it. -/
def oRem (L : grid1.Coords) (n : ℕ) : Finset S16384x3328.Idx := Finset.univ.filter fun j => (j 0).val / 512 = wid L ∧ 512 * wid L + 4 * n ≤ (j 0).val
def oDone (L : grid1.Coords) (n : ℕ) : Finset S16384x3328.Idx := Finset.univ.filter fun j => (j 0).val / 512 = wid L ∧ (j 0).val < 512 * wid L + 4 * n

theorem oRem_zero (L : grid1.Coords) : oRem L 0 = oSet L := by
  ext j; simp only [oRem, oSet, Finset.mem_filter, Finset.mem_univ, true_and]; omega
theorem oDone_all (L : grid1.Coords) : oDone L 128 = oSet L := by
  ext j; simp only [oDone, oSet, Finset.mem_filter, Finset.mem_univ, true_and]; omega
theorem oChunk_sub_rem (L : grid1.Coords) (n : ℕ) (hn : n < 128) : oChunk L n ⊆ oRem L n := by
  intro j; simp only [oChunk, oRem, Finset.mem_filter, Finset.mem_univ, true_and]; omega
theorem oRem_sdiff (L : grid1.Coords) (n : ℕ) (hn : n < 128) : oRem L n \ oChunk L n = oRem L (n + 1) := by
  ext j; simp only [oChunk, oRem, Finset.mem_sdiff, Finset.mem_filter, Finset.mem_univ, true_and]; omega
theorem oChunk_sub_done (L : grid1.Coords) (n : ℕ) (hn : n < 128) : oChunk L n ⊆ oDone L (n + 1) := by
  intro j; simp only [oChunk, oDone, Finset.mem_filter, Finset.mem_univ, true_and]; omega
theorem oDone_sdiff (L : grid1.Coords) (n : ℕ) (hn : n < 128) : oDone L (n + 1) \ oChunk L n = oDone L n := by
  ext j; simp only [oChunk, oDone, Finset.mem_sdiff, Finset.mem_filter, Finset.mem_univ, true_and]; omega

/-- Four rows of the result, as the program slices them at offset `o`. -/
abbrev oSlc (o : Fin 2 → ℕ) (h : ∀ a, o a + S4x3328.size a ≤ S16384x3328.size a) : Memref sig .scVector .hbm S4x3328 .f32 :=
  (Memref.whole main_v2_scv).slice (Rect.unit (s := S16384x3328) o S4x3328.size h) (fun _ => rfl)

theorem set_oSlc (L : grid1.Coords) (n : ℕ) (o : Fin 2 → ℕ) (h : ∀ a, o a + S4x3328.size a ≤ S16384x3328.size a)
    (ho : o = ![1024 * (L 1).val + 512 * (L 0).val + 4 * n, 0]) : (oSlc o h).view.set = oChunk L n := by
  subst ho
  show ((View.whole main_v2_scv).slice _).set = _
  rw [View.set_slice_whole]
  ext j
  rw [Rect.mem_set_unit]
  unfold oChunk wid
  have e0 : S4x3328.size (0 : Fin 2) = 4 := rfl
  have e1 : S4x3328.size (1 : Fin 2) = 3328 := rfl
  constructor
  · intro hh
    have h0 := hh (0 : Fin 2)
    simp only [Matrix.cons_val_zero, e0] at h0
    refine Finset.mem_filter.mpr ⟨Finset.mem_univ _, ?_⟩
    omega
  · intro hh
    have h' := (Finset.mem_filter.mp hh).2
    show ∀ a : Fin 2, _
    intro a
    fin_cases a
    · simp only [Fin.zero_eta, Matrix.cons_val_zero, e0]; omega
    · have hj : (j 1).val < 3328 := (j 1).isLt
      simp only [Fin.mk_one, Matrix.cons_val_one, Matrix.cons_val_zero, e1]; omega

/-! ## What a buffer holds after the gather of chunk `n`, and the transfers in flight -/

/-- Buffer contents after the gather of chunk `n`: row `j 0` is the table's row `idxv[104 n + j 0]`. -/
def goodBuf (d : Dev nD) (L : grid1.Coords) (X : Buf (Elt F) (xLoc d)) (Tb : Buf (Elt F) (tLoc d)) (n : ℕ) (f : S104x128.Idx → Elt F .f32) : Prop :=
  ∀ j : S104x128.Idx, f j = Tb (ix2 (⟨((idxF d L X (ix1 ⟨(104 * n + (j 0).val) % 13312, Nat.mod_lt _ (by norm_num)⟩) : BitVec 32).toNat) % 3328, Nat.mod_lt _ (by norm_num)⟩ : Fin 3328)
      (⟨(j 1).val % 128, Nat.mod_lt _ (by norm_num)⟩ : Fin 128))

/-- A buffer viewed as four result rows. -/
abbrev rsh (B : Memref sig .scVector .vmem S104x128 .f32) (hB : B.IsWhole) : Memref sig .scVector .vmem S4x3328 .f32 :=
  B.reshape S4x3328 reshapes_S104x128_S4x3328.1 reshapes_S104x128_S4x3328.2 hB.contiguous

/-- The amount an out-copy of four rows credits. -/
abbrev NO : ℕ := (oSlc (k1_off8 L) (k1_off8_inb L)).view.dmaCredit

/-- The gather of chunk `n` into buffer `B` on semaphore `s`, in flight: it delivers the buffer filled, the share of the
    table and the piece of the list it was lent. -/
abbrev GFl (X : Buf (Elt F) (xLoc d)) (Tb : Buf (Elt F) (tLoc d)) (B : Memref sig .scVector .vmem S104x128 .f32) (s : DmaSems sig S_)
    (n : ℕ) (qt : PosShare TreeShare) (S : Finset S13312.Idx) (qi : PosShare TreeShare) : sProp 𝕄 :=
  Transfers.Flight countersEmb (V d (cV L) (jV L)) (SemLoc.dma s.sem) (default : HIx 1) B.view.dmaCredit
    iprop((∃ f, (B.view.loc (V d (cV L) (jV L)) ↦{fullShare} f) ∗ ⌜goodBuf d L X Tb n (B.view.read (Elt F) f)⌝)
      ∗ ((tSl).view.loc (V d (cV L) (jV L)) ↦[(tSl).view.set]{qt} Tb) ∗ ((V d (cV L) (jV L)).loc cc1_scratch0 ↦[S]{qi} idxF d L X))

/-- The copy of buffer `B` out to chunk `n` of the rows on semaphore `s`, in flight: it delivers the rows filled and the buffer. -/
abbrev OFl (X : Buf (Elt F) (xLoc d)) (Tb : Buf (Elt F) (tLoc d)) (B : Memref sig .scVector .vmem S104x128 .f32) (s : DmaSems sig S_) (n : ℕ) : sProp 𝕄 :=
  Transfers.Flight countersEmb (V d (cV L) (jV L)) (SemLoc.dma s.sem) (default : HIx 1) (NO L)
    iprop((oLoc d ↦[oChunk L n]{fullShare} (gatherOut (F := F) X Tb : Buf (Elt F) (oLoc d))) ∗ (∃ f, B.view.loc (V d (cV L) (jV L)) ↦{fullShare} f))

end Tile
end Cert.Proof.KB
end
-- ==== Proof.TileMathB.lean ====
/-
  The arithmetic of the SparseCore worker's task, with no memory in it.

  A worker adds to word `n` of its 13312 row numbers the offset `128 (n mod 26)`: word `n` of worker `w` is entry
  `13312 w + n` of the flat row numbers, its field is that position modulo 26, and `13312 = 512 * 26`, so the field is
  `n mod 26`.  The program computes the position as a 32-bit word, takes the signed remainder by 26 and multiplies by
  128, sixteen lanes at a time; every number involved is far below `2^31`, so the word arithmetic is the arithmetic of
  natural numbers and the signed remainder of a nonnegative word is the remainder.
-/
import proofs.«207321_g10943576670982_fold_wed_m_632_36_alg».proof.Proof.SetupB
import Idealize.ShloMosaic.Lib.Affine
import Idealize.ShloMosaic.Lib.Pipeline.Value

noncomputable section

namespace Cert.Proof.KB

open Cert.Kernel Cert.Kernel.Gen
open Idealize.ShloMosaic
open Idealize.ShloMosaic.ValueIdx

variable {F : FTy → Type}

/-! ## The offset of one lane -/

/-- The signed remainder by 26 of a position below `2^31`, times 128, as a word. -/
theorem offset_word (N : ℕ) (hN : N < 2 ^ 31) :
    IntOp.muli (IntOp.remsi .vector (BitVec.ofNat 32 N) 26#32) 128#32 = BitVec.ofNat 32 (128 * (N % 26)) := by
  have h1 : (BitVec.ofNat 32 N).toNat = N := by
    rw [BitVec.toNat_ofNat]
    exact Nat.mod_eq_of_lt (by omega)
  have h2 : (IntOp.remsi .vector (BitVec.ofNat 32 N) (BitVec.ofNat 32 26)).toNat = N % 26 := by
    rw [IntOp.toNat_remsi .vector (by rw [h1]; omega) 26 (by norm_num) (by norm_num), h1]
  have h3 : IntOp.remsi .vector (BitVec.ofNat 32 N) 26#32 = BitVec.ofNat 32 (N % 26) := by
    apply BitVec.eq_of_toNat_eq
    rw [h2, BitVec.toNat_ofNat]
    exact (Nat.mod_eq_of_lt (by omega)).symm
  rw [h3]
  show BitVec.ofNat 32 (N % 26) * BitVec.ofNat 32 128 = _
  rw [← BitVec.ofNat_mul, Nat.mul_comm]

/-- The position word of lane `lane` of the sixteen words starting at word `m` of worker `L`. -/
theorem position_word (L : grid1.Coords) (lb : ℕ) (k : ℕ) (lane : ℕ) :
    IntOp.addi (Scalar.addi (Scalar.muli (Scalar.addi (Scalar.muli (BitVec.ofNat 32 (L 1).val) 2#32) (BitVec.ofNat 32 (L 0).val)) 13312#32)
        (Scalar.muli (Scf.iv (BitVec.ofNat 32 lb) 1#32 k) 16#32)) (BitVec.ofNat 32 lane)
      = BitVec.ofNat 32 (13312 * wid L + 16 * (lb + k) + lane) := by
  simp only [Scalar.addi, Scalar.muli, IntOp.addi, IntOp.muli, Scf.iv, ← BitVec.ofNat_add, ← BitVec.ofNat_mul]
  refine congrArg (BitVec.ofNat 32) ?_
  unfold wid
  ring

/-! ## The two payloads at a lane -/

/-- The first loop's stored vector: lane `lane` of trip `k` is word `16 k + lane`, moved up by 128 times its field. -/
theorem pay1_lane (L : grid1.Coords) (k : Fin k1_t1_loop.trips) (v : Vec F S16 .i32) (lane : Fin 16) :
    k1_pay1 (F := F) L k v (ix1 lane) = v (ix1 lane) + BitVec.ofNat 32 (128 * ((16 * k.val + lane.val) % 26)) := by
  have hk : k.val < 52 := Nat.lt_of_lt_of_le k.isLt k1_t1_abs.2.1
  have hw := wid_lt L
  have hl := lane.isLt
  simp only [k1_pay1, shapeCast_self]
  show (IntOp.addi (v (ix1 lane)) (IntOp.muli (IntOp.remsi .vector
      (IntOp.addi (Scalar.addi (Scalar.muli (Scalar.addi (Scalar.muli (BitVec.ofNat 32 (L 1).val) 2#32) (BitVec.ofNat 32 (L 0).val)) 13312#32)
        (Scalar.muli (Scf.iv 0#32 1#32 k) 16#32)) (iota .scVector S16 32 [0] iota_S16_d0_w32_scVector (ix1 lane))) 26#32) 128#32)) = _
  rw [iota_single_apply]
  show IntOp.addi (v (ix1 lane)) (IntOp.muli (IntOp.remsi .vector
      (IntOp.addi (Scalar.addi (Scalar.muli (Scalar.addi (Scalar.muli (BitVec.ofNat 32 (L 1).val) 2#32) (BitVec.ofNat 32 (L 0).val)) 13312#32)
        (Scalar.muli (Scf.iv (BitVec.ofNat 32 0) 1#32 k) 16#32)) (BitVec.ofNat 32 lane.val)) 26#32) 128#32) = _
  rw [position_word L 0 k.val lane.val, offset_word _ (by omega),
    show (13312 * wid L + 16 * (0 + k.val) + lane.val) % 26 = (16 * k.val + lane.val) % 26 by omega]
  rfl

/-- The second loop's stored vector: lane `lane` of trip `k` is word `832 + 16 k + lane`. -/
theorem pay2_lane (L : grid1.Coords) (k : Fin k1_t2_loop.trips) (v : Vec F S16 .i32) (lane : Fin 16) :
    k1_pay2 (F := F)
        (Scalar.muli (Scalar.addi (Scalar.muli (BitVec.ofNat 32 (L 1).val) 2#32) (BitVec.ofNat 32 (L 0).val)) 13312#32)
        (iota .scVector S16 32 [0] iota_S16_d0_w32_scVector) k v (ix1 lane)
      = v (ix1 lane) + BitVec.ofNat 32 (128 * ((832 + 16 * k.val + lane.val) % 26)) := by
  have hk : k.val < 780 := Nat.lt_of_lt_of_le k.isLt k1_t2_abs.2.1
  have hw := wid_lt L
  have hl := lane.isLt
  simp only [k1_pay2, shapeCast_self]
  show (IntOp.addi (v (ix1 lane)) (IntOp.muli (IntOp.remsi .vector
      (IntOp.addi (Scalar.addi (Scalar.muli (Scalar.addi (Scalar.muli (BitVec.ofNat 32 (L 1).val) 2#32) (BitVec.ofNat 32 (L 0).val)) 13312#32)
        (Scalar.muli (Scf.iv 52#32 1#32 k) 16#32)) (iota .scVector S16 32 [0] iota_S16_d0_w32_scVector (ix1 lane))) 26#32) 128#32)) = _
  rw [iota_single_apply]
  show IntOp.addi (v (ix1 lane)) (IntOp.muli (IntOp.remsi .vector
      (IntOp.addi (Scalar.addi (Scalar.muli (Scalar.addi (Scalar.muli (BitVec.ofNat 32 (L 1).val) 2#32) (BitVec.ofNat 32 (L 0).val)) 13312#32)
        (Scalar.muli (Scf.iv (BitVec.ofNat 32 52) 1#32 k) 16#32)) (BitVec.ofNat 32 lane.val)) 26#32) 128#32) = _
  rw [position_word L 52 k.val lane.val, offset_word _ (by omega),
    show (13312 * wid L + 16 * (52 + k.val) + lane.val) % 26 = (832 + 16 * k.val + lane.val) % 26 by omega]
  rfl

end Cert.Proof.KB

end
-- ==== Proof.TileBVal.lean ====
import proofs.«207321_g10943576670982_fold_wed_m_632_36_alg».proof.Proof.TileB1
import proofs.«207321_g10943576670982_fold_wed_m_632_36_alg».proof.Proof.TileMathB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
variable {U : Type} [URA U]

local notation "𝕄" => MT nD τ sig (HIx 1) (Elt F) ℕ U ℕ

variable [CountersIn U] [FloatOps F]

section Tile
variable (d : Dev nD) (L : grid1.Coords)

/-- A word at or above `m` and below `m + 16`, with its field's offset added, is the word of the list advanced by sixteen. -/
private theorem idxG_step (X : Buf (Elt F) (xLoc d)) (m : ℕ) (i : S13312.Idx) (hi : m ≤ (i 0).val) (hi' : (i 0).val < m + 16)
    (c : ℕ) (hc : c = (i 0).val) :
    @HAdd.hAdd (BitVec 32) (BitVec 32) (BitVec 32) _ (idxG d L X m i) (BitVec.ofNat 32 (128 * (c % 26))) = idxG d L X (m + 16) i := by
  subst hc
  unfold idxG
  rw [if_neg (by omega), if_pos (by omega)]

/-- A word outside `[m, m + 16)` is the same in the list advanced by sixteen. -/
private theorem idxG_keep (X : Buf (Elt F) (xLoc d)) (m : ℕ) (i : S13312.Idx) (hi : (i 0).val < m ∨ m + 16 ≤ (i 0).val) :
    idxG d L X m i = idxG d L X (m + 16) i := by
  unfold idxG
  by_cases h1 : (i 0).val < m
  · rw [if_pos h1, if_pos (by omega)]
  · rw [if_neg h1, if_neg (by omega)]

/-- One trip's store: the sixteen words from `m` on get their field's offset added. -/
theorem trip_val (X : Buf (Elt F) (xLoc d)) (m : ℕ) (o : Fin 1 → ℕ) (h : ∀ a, o a + S16.size a ≤ S13312.size a) (ho : o 0 = m)
    (w : S16.Idx → BitVec 32)
    (hw : ∀ x : S16.Idx, w x = @HAdd.hAdd (BitVec 32) (BitVec 32) (BitVec 32) _ (idxG d L X m ((Rect.unit (s := S13312) o S16.size h).emb x)) (BitVec.ofNat 32 (128 * ((m + (x 0).val) % 26)))) :
    ((View.whole cc1_scratch0).slice (Rect.unit (s := S13312) o S16.size h)).write (Elt F) (idxG d L X m) w Finset.univ = idxG d L X (m + 16) := by
  funext n
  have e16 : S16.size (0 : Fin 1) = 16 := rfl
  by_cases hmem : n ∈ ((View.whole cc1_scratch0).slice (Rect.unit (s := S13312) o S16.size h)).set
  · obtain ⟨x, -, rfl⟩ := Finset.mem_map.mp hmem
    rw [View.write_emb_of_mem _ _ (Finset.mem_univ x)]
    refine (cast_eq _ _).trans ?_
    rw [hw x]
    have hx : (x 0).val < 16 := (x 0).isLt
    have hc : (((Rect.unit (s := S13312) o S16.size h).emb x) 0).val = m + (x 0).val := by
      rw [Rect.emb_apply, Rect.off_unit, Rect.stride_unit, ho]
      omega
    exact idxG_step d L X m _ (by rw [hc]; omega) (by rw [hc]; omega) _ hc.symm
  · rw [View.write_of_not_mem _ _ _ (by rw [View.setOn_univ]; exact hmem)]
    rw [View.set_slice_whole, Rect.mem_set_unit] at hmem
    have h0 : ¬ (o 0 ≤ (n 0).val ∧ (n 0).val < o 0 + S16.size 0) := fun hh => hmem (Fin.forall_fin_one.mpr hh)
    rw [ho, e16] at h0
    exact idxG_keep d L X m n (by omega)

/-- The first loop's stored vector at a lane. -/
theorem pay1_apply (k : Fin k1_t1_loop.trips) (v : Vec F S16 .i32) (x : S16.Idx) :
    k1_pay1 (F := F) L k v x = (v x : BitVec 32) + BitVec.ofNat 32 (128 * ((16 * k.val + (x 0).val) % 26)) := by
  obtain ⟨lane, rfl⟩ : ∃ lane : Fin 16, x = ix1 lane := ⟨x 0, eq_ix1 x⟩
  exact pay1_lane L k v lane

/-- The second loop's stored vector at a lane, at the program's base word and lane numbers. -/
theorem pay2_apply (k : Fin k1_t2_loop.trips) (v : Vec F S16 .i32) (x : S16.Idx) :
    k1_pay2 (F := F) (Scalar.muli (Scalar.addi (Scalar.muli (BitVec.ofNat 32 (L 1).val) 2#32) (BitVec.ofNat 32 (L 0).val)) 13312#32)
        (iota .scVector S16 32 [0] iota_S16_d0_w32_scVector) k v x
      = (v x : BitVec 32) + BitVec.ofNat 32 (128 * ((832 + 16 * k.val + (x 0).val) % 26)) := by
  obtain ⟨lane, rfl⟩ : ∃ lane : Fin 16, x = ix1 lane := ⟨x 0, eq_ix1 x⟩
  exact pay2_lane L k v lane

/-- What the first copy lands in the list: the worker's words of the row numbers. -/
theorem dma0_val (X : Buf (Elt F) (xLoc d)) : (xSl L).view.read (Elt F) X = idxG d L X 0 := by
  funext n
  have hw := wid_lt L
  have hn : (n 0).val < 13312 := (n 0).isLt
  rw [View.read_apply]
  unfold idxG xw
  rw [if_neg (Nat.not_lt_zero _)]
  refine (cast_eq _ _).trans (congrArg X ?_)
  refine (eq_ix1 _).trans (congrArg ix1 (Fin.ext ?_))
  show ((Rect.unit (s := S425984) (k1_off1 L) S13312.size (k1_off1_inb L)).emb n 0).val = _
  rw [Rect.emb_apply, Rect.off_unit, Rect.stride_unit, congrFun (k1_off1_eq L) 0]
  show 26624 * (L 1).val + 13312 * (L 0).val + 1 * (n 0).val = (13312 * wid L + (n 0).val) % 425984
  unfold wid at hw ⊢
  omega

/-- The gather's payload over chunk `n` of the finished list. -/
theorem gather_val (X : Buf (Elt F) (xLoc d)) (Tb : Buf (Elt F) (tLoc d)) (n : ℕ) (o : Fin 1 → ℕ) (h : ∀ a, o a + S104.size a ≤ S13312.size a)
    (ho : o 0 = 104 * n) (hn : S104.numel = S104x128.size gathers_S3328x128_S104x128.axis')
    (hin : ∀ x, ((oSl o h).view.read (Elt F) (idxF d L X) x).toNat < S3328x128.size gathers_S3328x128_S104x128.axis) :
    goodBuf d L X Tb n (SparseCore.gatherPayload gathers_S3328x128_S104x128 ((tSl).view.read (Elt F) Tb)
      (SparseCore.rows ((oSl o h).view.read (Elt F) (idxF d L X)) hn hin)) := by
  intro j
  have hj0 : (j 0).val < 104 := (j 0).isLt
  have hj1 : (j 1).val < 128 := (j 1).isLt
  have hb : o 0 + 104 ≤ 13312 := h 0
  unfold SparseCore.gatherPayload
  rw [View.read_apply]
  refine (cast_eq _ _).trans (congrArg Tb ?_)
  refine (eq_ix2 _).trans (congrArg₂ ix2 (Fin.ext ?_) (Fin.ext ?_))
  · -- the row: the word the list holds at position 104 n + j 0
    show ((Rect.unit (s := S3328x128) ![0, 0] S3328x128.size inb_S3328x128_S3328x128_0_0).emb
      (gathers_S3328x128_S104x128.idx (SparseCore.rows ((oSl o h).view.read (Elt F) (idxF d L X)) hn hin) j) 0).val = _
    rw [Rect.emb_apply, Rect.off_unit, Rect.stride_unit]
    show 0 + 1 * (gathers_S3328x128_S104x128.idx (SparseCore.rows ((oSl o h).view.read (Elt F) (idxF d L X)) hn hin) j
      gathers_S3328x128_S104x128.axis).val = _
    rw [Shape.Gathers.idx_axis]
    unfold SparseCore.rows
    show 0 + 1 * ((oSl o h).view.read (Elt F) (idxF d L X)
      (S104.rowMajor.symm ((j gathers_S3328x128_S104x128.axis').cast hn.symm))).toNat = _
    have hy : ∀ y : S104.Idx, (oSl o h).view.read (Elt F) (idxF d L X) y
        = idxF d L X (ix1 ⟨(o 0 + (y 0).val) % 13312, Nat.mod_lt _ (by norm_num)⟩) := fun y => by
      rw [View.read_apply]
      refine (cast_eq _ _).trans (congrArg (idxF d L X) ?_)
      refine (eq_ix1 _).trans (congrArg ix1 (Fin.ext ?_))
      show ((Rect.unit (s := S13312) o S104.size h).emb y 0).val = _
      have hy0 : (y 0).val < 104 := (y 0).isLt
      rw [Rect.emb_apply, Rect.off_unit, Rect.stride_unit]
      show o 0 + 1 * (y 0).val = (o 0 + (y 0).val) % 13312
      omega
    have hk : ((S104.rowMajor.symm ((j gathers_S3328x128_S104x128.axis').cast hn.symm)) 0).val = (j 0).val := by
      have e := congrArg Fin.val (S104.rowMajor.apply_symm_apply ((j gathers_S3328x128_S104x128.axis').cast hn.symm))
      rw [Shape.rowMajor_val_one] at e
      exact e
    rw [hy, hk, ho]
    have hlt := hin (S104.rowMajor.symm ((j gathers_S3328x128_S104x128.axis').cast hn.symm))
    rw [hy, hk, ho] at hlt
    have e3328 : S3328x128.size gathers_S3328x128_S104x128.axis = 3328 := rfl
    rw [e3328] at hlt
    rw [Nat.zero_add, Nat.one_mul]
    exact (Nat.mod_eq_of_lt hlt).symm
  · -- the lane
    show ((Rect.unit (s := S3328x128) ![0, 0] S3328x128.size inb_S3328x128_S3328x128_0_0).emb
      (gathers_S3328x128_S104x128.idx (SparseCore.rows ((oSl o h).view.read (Elt F) (idxF d L X)) hn hin) j) 1).val = _
    rw [Rect.emb_apply, Rect.off_unit, Rect.stride_unit,
      Shape.Gathers.idx_of_ne gathers_S3328x128_S104x128 _ j (1 : Fin 2) (by decide)]
    show 0 + 1 * (j 1).val = (j 1).val % 128
    omega

/-- The table row the finished list names at position `104 n + 26 r + q / 128` is the row the specification reads at
    result row `512 w + 4 n + r`, column `q`: the position is entry `26 (512 w + 4 n + r) + q / 128` of the row numbers,
    its field is `q / 128`, and a word below 128 plus at most `128 * 25` does not wrap. -/
private theorem row_eq (X : Buf (Elt F) (xLoc d)) (hX : ∀ j, (X j : BitVec 32).toNat < 128) (n r q : ℕ) (hn : n < 128)
    (hr : r < 4) (hq : q < 3328) :
    (idxF d L X (ix1 ⟨(104 * n + (26 * r + q / 128)) % 13312, Nat.mod_lt _ (by norm_num)⟩) : BitVec 32).toNat % 3328
      = ((X (ix1 ⟨(26 * (512 * wid L + 4 * n + r) + q / 128) % 425984, Nat.mod_lt _ (by norm_num)⟩) : BitVec 32).toNat
          + 128 * (q / 128)) % 3328 := by
  have hw := wid_lt L
  have hXeq : (X (ix1 ⟨(13312 * wid L + (104 * n + (26 * r + q / 128)) % 13312) % 425984, Nat.mod_lt _ (by norm_num)⟩) : BitVec 32)
      = X (ix1 ⟨(26 * (512 * wid L + 4 * n + r) + q / 128) % 425984, Nat.mod_lt _ (by norm_num)⟩) :=
    congrArg X (congrArg ix1 (Fin.ext (by
      show (13312 * wid L + (104 * n + (26 * r + q / 128)) % 13312) % 425984 = (26 * (512 * wid L + 4 * n + r) + q / 128) % 425984
      omega)))
  have hx := hX (ix1 ⟨(26 * (512 * wid L + 4 * n + r) + q / 128) % 425984, Nat.mod_lt _ (by norm_num)⟩)
  unfold idxF idxG xw
  split
  case isFalse hneg =>
    exact absurd (show (104 * n + (26 * r + q / 128)) % 13312 < 13312 from Nat.mod_lt _ (by norm_num)) hneg
  show (@HAdd.hAdd (BitVec 32) (BitVec 32) (BitVec 32) _
      (X (ix1 ⟨(13312 * wid L + (104 * n + (26 * r + q / 128)) % 13312) % 425984, Nat.mod_lt _ (by norm_num)⟩))
      (BitVec.ofNat 32 (128 * ((104 * n + (26 * r + q / 128)) % 13312 % 26)))).toNat % 3328 = _
  rw [hXeq, BitVec.toNat_add, BitVec.toNat_ofNat]
  omega

/-- A buffer holding chunk `n`'s rows, viewed as four result rows and written to chunk `n` of the result, leaves there what the
    specification asks. -/
theorem out_val (X : Buf (Elt F) (xLoc d)) (Tb : Buf (Elt F) (tLoc d)) (hX : ∀ j, (X j : BitVec 32).toNat < 128) (O' : Buf (Elt F) (oLoc d)) (n : ℕ) (hn : n < 128)
    (o : Fin 2 → ℕ) (h : ∀ a, o a + S4x3328.size a ≤ S16384x3328.size a) (ho : o = ![1024 * (L 1).val + 512 * (L 0).val + 4 * n, 0])
    (B : Memref sig .scVector .vmem S104x128 .f32) (hB : B.IsWhole) (fb : Buf (Elt F) (B.view.loc (V d (cV L) (jV L))))
    (hg : goodBuf d L X Tb n (B.view.read (Elt F) fb)) :
    ∀ i ∈ (oSlc o h).view.set,
      (oSlc o h).view.write (Elt F) O' ((rsh B hB).view.read (Elt F) fb) Finset.univ i = (gatherOut (F := F) X Tb : Buf (Elt F) (oLoc d)) i := by
  subst ho
  intro i hi
  obtain ⟨y, -, rfl⟩ := Finset.mem_map.mp hi
  rw [View.write_emb_of_mem _ _ (Finset.mem_univ y)]
  refine (cast_eq _ _).trans ?_
  have hw := wid_lt L
  have hy0 : (y 0).val < 4 := (y 0).isLt
  have hy1 : (y 1).val < 3328 := (y 1).isLt
  -- position (y 0, y 1) of the four-row view is position (26 (y 0) + y 1 / 128, y 1 mod 128) of the buffer
  have hz : Shape.reshapeEquiv reshapes_S104x128_S4x3328.1 y
      = (ix2 (⟨26 * (y 0).val + (y 1).val / 128, by omega⟩ : Fin 104) (⟨(y 1).val % 128, Nat.mod_lt _ (by norm_num)⟩ : Fin 128) : S104x128.Idx) :=
    Shape.reshapeEquiv_eq_of_rowMajor _ (by
      rw [Shape.rowMajor_val_two, Shape.rowMajor_val_two]
      show (26 * (y 0).val + (y 1).val / 128) * 128 + (y 1).val % 128 = (y 0).val * 3328 + (y 1).val
      omega)
  have hread : (rsh B hB).view.read (Elt F) fb y
      = B.view.read (Elt F) fb (ix2 (⟨26 * (y 0).val + (y 1).val / 128, by omega⟩ : Fin 104) (⟨(y 1).val % 128, Nat.mod_lt _ (by norm_num)⟩ : Fin 128)) := by
    rw [← hz]
    rfl
  -- where the element lands in the result
  have hemb : (oSlc _ h).view.emb y
      = (ix2 (⟨512 * wid L + 4 * n + (y 0).val, by omega⟩ : Fin 16384) (⟨(y 1).val, hy1⟩ : Fin 3328) : S16384x3328.Idx) := by
    refine (eq_ix2 _).trans (congrArg₂ ix2 (Fin.ext ?_) (Fin.ext ?_))
    · show ((Rect.unit (s := S16384x3328) ![1024 * (L 1).val + 512 * (L 0).val + 4 * n, 0] S4x3328.size h).emb y 0).val = _
      rw [Rect.emb_apply, Rect.off_unit, Rect.stride_unit]
      show 1024 * (L 1).val + 512 * (L 0).val + 4 * n + 1 * (y 0).val = 512 * wid L + 4 * n + (y 0).val
      unfold wid
      omega
    · show ((Rect.unit (s := S16384x3328) ![1024 * (L 1).val + 512 * (L 0).val + 4 * n, 0] S4x3328.size h).emb y 1).val = _
      rw [Rect.emb_apply, Rect.off_unit, Rect.stride_unit]
      show 0 + 1 * (y 1).val = (y 1).val
      omega
  rw [hread, hg, hemb]
  unfold gatherOut
  refine congrArg Tb (congrArg₂ ix2 (Fin.ext ?_) (Fin.ext (by
    show (y 1).val % 128 % 128 = (y 1).val % 128
    omega)))
  exact row_eq d L X hX n (y 0).val (y 1).val hn hy0 hy1

end Tile
end Cert.Proof.KB
end
-- ==== Proof.TileB2.lean ====
import proofs.«207321_g10943576670982_fold_wed_m_632_36_alg».proof.Proof.TileBVal

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
variable {U : Type} [URA U]

local notation "𝕄" => MT nD τ sig (HIx 1) (Elt F) ℕ U ℕ

variable [CountersIn U] [FloatOps F]

section Tile
variable (d : Dev nD) (L : grid1.Coords)

/-- A wait on a scoped semaphore at the kernel's index is one the launch admits. -/
theorem waits_ok {W W' : Waits sig (HIx 1)} (h : ∀ p ∈ W', p ∈ W ∨ p.2 = none) (s : SemLoc sig) :
    ∀ p ∈ insert (s, (default : HIx 1)) W', p ∈ W ∨ p.2 = none := by
  intro p hp
  rcases Finset.mem_insert.mp hp with hp | hp
  · exact .inr (hp ▸ rfl)
  · exact h p hp

theorem goodBuf_write (X : Buf (Elt F) (xLoc d)) (Tb : Buf (Elt F) (tLoc d)) (n : ℕ) (B : Memref sig .scVector .vmem S104x128 .f32) (hB : B.IsWhole)
    (fd : Buf (Elt F) (B.view.loc (V d (cV L) (jV L)))) (w : S104x128.Idx → Elt F .f32) (hw : goodBuf d L X Tb n w) :
    goodBuf d L X Tb n (B.view.read (Elt F) (B.view.write (Elt F) fd w Finset.univ)) := by
  rw [View.read_write_univ]
  exact hw

/-- What the gather of chunk `n` delivers. -/
theorem gather_deliver (X : Buf (Elt F) (xLoc d)) (Tb : Buf (Elt F) (tLoc d)) (B : Memref sig .scVector .vmem S104x128 .f32) (hB : B.IsWhole)
    (n : ℕ) (o : Fin 1 → ℕ) (h : ∀ a, o a + S104.size a ≤ S13312.size a) (ho : o 0 = 104 * n)
    (hn : S104.numel = S104x128.size gathers_S3328x128_S104x128.axis')
    (hin : ∀ x, ((oSl o h).view.read (Elt F) (idxF d L X) x).toNat < S3328x128.size gathers_S3328x128_S104x128.axis)
    (fd : Buf (Elt F) (B.view.loc (V d (cV L) (jV L)))) (qt qi : PosShare TreeShare) :
    iprop((B.view.loc (V d (cV L) (jV L)) ↦[B.view.set]{fullShare} (B.view.write (Elt F) fd (SparseCore.gatherPayload gathers_S3328x128_S104x128 ((tSl).view.read (Elt F) Tb)
            (SparseCore.rows ((oSl o h).view.read (Elt F) (idxF d L X)) hn hin)) Finset.univ))
        ∗ ((tSl).view.loc (V d (cV L) (jV L)) ↦[(tSl).view.set]{qt} Tb) ∗ ((oSl o h).view.loc (V d (cV L) (jV L)) ↦[(oSl o h).view.set]{qi} idxF d L X))
      ⊢ (iprop((∃ f, (B.view.loc (V d (cV L) (jV L)) ↦{fullShare} f) ∗ ⌜goodBuf d L X Tb n (B.view.read (Elt F) f)⌝)
        ∗ ((tSl).view.loc (V d (cV L) (jV L)) ↦[(tSl).view.set]{qt} Tb) ∗ ((V d (cV L) (jV L)).loc cc1_scratch0 ↦[(oSl o h).view.set]{qi} idxF d L X)) : sProp 𝕄) := by
  iintro ⟨Hb, Ht, Hl⟩
  isplitl [Hb]
  · iexists _
    isplitl [Hb]
    · rw [hB.set_eq_univ]; iexact Hb
    · ipureintro
      exact goodBuf_write d L X Tb n B hB fd _ (gather_val d L X Tb n o h ho hn hin)
  isplitl [Ht]; · iexact Ht
  iexact Hl

/-- What the copy of a buffer holding chunk `n` out to the rows of chunk `n` delivers. -/
theorem out_deliver (X : Buf (Elt F) (xLoc d)) (Tb : Buf (Elt F) (tLoc d)) (hX : ∀ j, (X j : BitVec 32).toNat < 128) (O' : Buf (Elt F) (oLoc d)) (B : Memref sig .scVector .vmem S104x128 .f32) (hB : B.IsWhole)
    (n : ℕ) (hn : n < 128) (o : Fin 2 → ℕ) (h : ∀ a, o a + S4x3328.size a ≤ S16384x3328.size a) (ho : o = ![1024 * (L 1).val + 512 * (L 0).val + 4 * n, 0])
    (fb : Buf (Elt F) (B.view.loc (V d (cV L) (jV L)))) (hg : goodBuf d L X Tb n (B.view.read (Elt F) fb)) :
    iprop(((oSlc o h).view.loc (V d (cV L) (jV L)) ↦[(oSlc o h).view.set]{fullShare} ((oSlc o h).view.write (Elt F) O' ((rsh B hB).view.read (Elt F) fb) Finset.univ))
        ∗ ((rsh B hB).view.loc (V d (cV L) (jV L)) ↦[(rsh B hB).view.set]{fullShare} fb))
      ⊢ (iprop((oLoc d ↦[oChunk L n]{fullShare} (gatherOut (F := F) X Tb : Buf (Elt F) (oLoc d))) ∗ (∃ f, B.view.loc (V d (cV L) (jV L)) ↦{fullShare} f)) : sProp 𝕄) := by
  iintro ⟨Ho, Hb⟩
  isplitl [Ho]
  · have e : ((oSlc o h).view.loc (V d (cV L) (jV L)) ↦[(oSlc o h).view.set]{fullShare} ((oSlc o h).view.write (Elt F) O' ((rsh B hB).view.read (Elt F) fb) Finset.univ) : sProp 𝕄)
        = (oLoc d ↦[oChunk L n]{fullShare} (gatherOut (F := F) X Tb : Buf (Elt F) (oLoc d))) := by
      rw [pointsTo_congr (out_val d L X Tb hX O' n hn o h ho B hB fb hg), set_oSlc L n o h ho]
    iapply (Entails.of_eq e); iexact Ho
  · iexists fb
    have e : ((rsh B hB).view.loc (V d (cV L) (jV L)) ↦[(rsh B hB).view.set]{fullShare} fb : sProp 𝕄) = (B.view.loc (V d (cV L) (jV L)) ↦{fullShare} fb) := by
      rw [show (rsh B hB).view.set = B.view.set from View.set_reshape _ _, hB.set_eq_univ]
    iapply (Entails.of_eq e); iexact Hb

theorem oRem_take (O' : Buf (Elt F) (oLoc d)) (n : ℕ) (hn : n < 128) :
    (oLoc d ↦[oRem L n]{fullShare} O' : sProp 𝕄) ⊢ iprop((oLoc d ↦[oChunk L n]{fullShare} O') ∗ (oLoc d ↦[oRem L (n + 1)]{fullShare} O')) := by
  rw [← oRem_sdiff L n hn]
  exact (pointsTo_split_subset (oChunk_sub_rem L n hn)).1

theorem oDone_put (G : Buf (Elt F) (oLoc d)) (n : ℕ) (hn : n < 128) :
    (iprop((oLoc d ↦[oChunk L n]{fullShare} G) ∗ (oLoc d ↦[oDone L n]{fullShare} G)) : sProp 𝕄) ⊢ (oLoc d ↦[oDone L (n + 1)]{fullShare} G) := by
  rw [← oDone_sdiff L n hn]
  exact (pointsTo_split_subset (oChunk_sub_done L n hn)).2

end Tile
end Cert.Proof.KB
end
-- ==== Proof.TileB3.lean ====
import proofs.«207321_g10943576670982_fold_wed_m_632_36_alg».proof.Proof.TileB2

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
variable {U : Type} [URA U]

local notation "𝕄" => MT nD τ sig (HIx 1) (Elt F) ℕ U ℕ

variable [CountersIn U] [FloatOps F]

section Tile
variable (d : Dev nD) (L : grid1.Coords)

set_option maxHeartbeats 4000000 in
theorem part8_spec (X : Buf (Elt F) (xLoc d)) (Tb : Buf (Elt F) (tLoc d)) (O0 : Buf (Elt F) (oLoc d)) (hX : ∀ j, (X j : BitVec 32).toNat < 128)
    (O : CellTallies nD τ sig (HIx 1)) (W : Waits sig (HIx 1)) (v3 : BitVec 32) (Φ : PUnit → sProp 𝕄) :
    iprop((Transfers.MayWaits (V d (cV L) (jV L)) (default : HIx 1) O
        ∗ (∃ W', ⌜∀ p ∈ W', p ∈ W ∨ p.2 = none⌝ ∗ owes (V d (cV L) (jV L)) O W')
        ∗ (oLoc d ↦[oRem L 2]{fullShare} O0)
        ∗ (∃ f, ((Memref.whole cc1_scratch3).view.loc (V d (cV L) (jV L)) ↦{fullShare} f) ∗ ⌜goodBuf d L X Tb 2 ((Memref.whole cc1_scratch3).view.read (Elt F) f)⌝)
        ∗ semVal (cellOf d L cc1_scratch19) 0
        ∗ semVal (cellOf d L cc1_scratch20) 0
        ∗ semVal (cellOf d L cc1_scratch21) 0
        ∗ semVal (cellOf d L cc1_scratch22) 0
        ∗ GFl d L X Tb (Memref.whole cc1_scratch4) cc1_scratch12 3 ((tileShare L).left.left.left.right) ((oSl ![312] inb_S13312_S104_312).view.set) (fullShare.left.left.left.right)
        ∗ GFl d L X Tb (Memref.whole cc1_scratch5) cc1_scratch13 4 ((tileShare L).left.left.left.left.right) ((oSl ![416] inb_S13312_S104_416).view.set) (fullShare.left.left.left.left.right)
        ∗ GFl d L X Tb (Memref.whole cc1_scratch6) cc1_scratch14 5 ((tileShare L).left.left.left.left.left.right) ((oSl ![520] inb_S13312_S104_520).view.set) (fullShare.left.left.left.left.left.right)
        ∗ GFl d L X Tb (Memref.whole cc1_scratch7) cc1_scratch15 6 ((tileShare L).left.left.left.left.left.left.right) ((oSl ![624] inb_S13312_S104_624).view.set) (fullShare.left.left.left.left.left.left.right))
        ∗ (((∃ W', ⌜∀ p ∈ W', p ∈ W ∨ p.2 = none⌝ ∗ owes (V d (cV L) (jV L)) O W')
        ∗ (oLoc d ↦[oRem L 6]{fullShare} O0)
        ∗ OFl d L X Tb (Memref.whole cc1_scratch3) cc1_scratch19 2
        ∗ OFl d L X Tb (Memref.whole cc1_scratch4) cc1_scratch20 3
        ∗ OFl d L X Tb (Memref.whole cc1_scratch5) cc1_scratch21 4
        ∗ OFl d L X Tb (Memref.whole cc1_scratch6) cc1_scratch22 5
        ∗ (∃ f, ((Memref.whole cc1_scratch7).view.loc (V d (cV L) (jV L)) ↦{fullShare} f) ∗ ⌜goodBuf d L X Tb 6 ((Memref.whole cc1_scratch7).view.read (Elt F) f)⌝)
        ∗ ((tSl).view.loc (V d (cV L) (jV L)) ↦[(tSl).view.set]{((tileShare L).left.left.left.right)} Tb)
        ∗ ((tSl).view.loc (V d (cV L) (jV L)) ↦[(tSl).view.set]{((tileShare L).left.left.left.left.right)} Tb)
        ∗ ((tSl).view.loc (V d (cV L) (jV L)) ↦[(tSl).view.set]{((tileShare L).left.left.left.left.left.right)} Tb)
        ∗ ((tSl).view.loc (V d (cV L) (jV L)) ↦[(tSl).view.set]{((tileShare L).left.left.left.left.left.left.right)} Tb)
        ∗ ((V d (cV L) (jV L)).loc cc1_scratch0 ↦[(oSl ![312] inb_S13312_S104_312).view.set]{(fullShare.left.left.left.right)} idxF d L X)
        ∗ ((V d (cV L) (jV L)).loc cc1_scratch0 ↦[(oSl ![416] inb_S13312_S104_416).view.set]{(fullShare.left.left.left.left.right)} idxF d L X)
        ∗ ((V d (cV L) (jV L)).loc cc1_scratch0 ↦[(oSl ![520] inb_S13312_S104_520).view.set]{(fullShare.left.left.left.left.left.right)} idxF d L X)
        ∗ ((V d (cV L) (jV L)).loc cc1_scratch0 ↦[(oSl ![624] inb_S13312_S104_624).view.set]{(fullShare.left.left.left.left.left.left.right)} idxF d L X)
        ∗ semVal (cellOf d L cc1_scratch12) 0
        ∗ semVal (cellOf d L cc1_scratch13) 0
        ∗ semVal (cellOf d L cc1_scratch14) 0
        ∗ semVal (cellOf d L cc1_scratch15) 0) -∗ Φ ⟨⟩))
      ⊢ wp frame (wpE (defs₀ (F := F)) 𝒱₀ (V d (cV L) (jV L)) none) Set.univ (k1_part8 L (Memref.whole main_v1_scv) (Memref.isWhole_whole _) (Memref.whole main_v0_scv) (Memref.isWhole_whole _) (Memref.whole main_v2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) cc1_scratch9 cc1_scratch10 cc1_scratch11 cc1_scratch12 cc1_scratch13 cc1_scratch14 cc1_scratch15 cc1_scratch16 cc1_scratch17 cc1_scratch18 cc1_scratch19 cc1_scratch20 cc1_scratch21 cc1_scratch22 cc1_scratch23 cc1_scratch24 cc1_scoped0 v3) Φ := by
  rw [k1_part8_eq_skeleton]; unfold k1_part8_skel
  iintro ⟨⟨#Hmw, ⟨%W', %hW', HO⟩, Horem, ⟨%fb2, Hb2, %hg2⟩, Hs19, Hs20, Hs21, Hs22, Hfl3, Hfl4, Hfl5, Hfl6⟩, HΦ⟩
  -- copy buffer 2 out to chunk 2
  sl_exec
  ihave Hsp := (oRem_take d L O0 (2) (by decide)) $$ Horem
  icases Hsp with ⟨Hoc, Horem⟩
  ihave Hoc := (Entails.of_eq (show (oLoc d ↦[oChunk L (2)]{fullShare} O0 : sProp 𝕄)
      = ((oSlc (k1_off4 L 8#32) (k1_off4_inb L 2)).view.loc (V d (cV L) (jV L)) ↦[(oSlc (k1_off4 L 8#32) (k1_off4_inb L 2)).view.set]{fullShare} O0) by rw [set_oSlc L (2) (k1_off4 L 8#32) (k1_off4_inb L 2) (show (k1_off4 L 8#32) = ![1024 * (L 1).val + 512 * (L 0).val + 4 * (2), 0] from (k1_off4_eq L 2))])) $$ Hoc
  ihave Hsrc := (Entails.of_eq (show ((Memref.whole cc1_scratch3).view.loc (V d (cV L) (jV L)) ↦{fullShare} fb2 : sProp 𝕄)
      = ((rsh (Memref.whole cc1_scratch3) (Memref.isWhole_whole _)).view.loc (V d (cV L) (jV L)) ↦[(rsh (Memref.whole cc1_scratch3) (Memref.isWhole_whole _)).view.set]{fullShare} fb2) by
        rw [show (rsh (Memref.whole cc1_scratch3) (Memref.isWhole_whole _)).view.set = (Memref.whole cc1_scratch3).view.set from View.set_reshape _ _, View.set_whole])) $$ Hb2
  iapply (Transfers.wp_dmaLocal countersEmb 𝒱₀ (V d (cV L) (jV L)) none (default : HIx 1) (NO L) rfl (View.dmaCredit_pos _ (show 0 < S4x3328.numel by decide)) (Finset.Subset.refl _)) $$ [Hsrc Hoc Hs19]
  · isplitl [Hsrc]; · iexact Hsrc
    isplitl [Hoc]; · iexact Hoc
    iexact Hs19
  iintro Hofl
  ihave Hofl2 := (Transfers.Flight_mono countersEmb (V d (cV L) (jV L)) (sm := SemLoc.dma cc1_scratch19.sem) (ι := (default : HIx 1)) (N := NO L) (out_deliver d L X Tb hX O0 (Memref.whole cc1_scratch3) (Memref.isWhole_whole _) (2) (by decide) (k1_off4 L 8#32) (k1_off4_inb L 2) (show (k1_off4 L 8#32) = ![1024 * (L 1).val + 512 * (L 0).val + 4 * (2), 0] from (k1_off4_eq L 2)) fb2 hg2)) $$ Hofl
  -- wait for gather 3
  sl_exec
  iapply (Transfers.wp_waitLocalO countersEmb 𝒱₀ (V d (cV L) (jV L)) none (default : HIx 1) (rfl : (Memref.whole cc1_scratch4).view.dmaCredit = _)) $$ [Hfl3 HO]
  · isplitl [Hfl3]; · iexact Hfl3
    isplitl [HO]; · iexact HO
    iapply (Transfers.MayWaits.elim (SemLoc.dma cc1_scratch12.sem)) $$ Hmw
  iintro ⟨⟨⟨%fb3, Hb3, %hg3⟩, Htt3, Hlist3⟩, Hs12, HO⟩
  -- copy buffer 3 out to chunk 3
  sl_exec
  ihave Hsp := (oRem_take d L O0 (3) (by decide)) $$ Horem
  icases Hsp with ⟨Hoc, Horem⟩
  ihave Hoc := (Entails.of_eq (show (oLoc d ↦[oChunk L (3)]{fullShare} O0 : sProp 𝕄)
      = ((oSlc (k1_off4 L 12#32) (k1_off4_inb L 3)).view.loc (V d (cV L) (jV L)) ↦[(oSlc (k1_off4 L 12#32) (k1_off4_inb L 3)).view.set]{fullShare} O0) by rw [set_oSlc L (3) (k1_off4 L 12#32) (k1_off4_inb L 3) (show (k1_off4 L 12#32) = ![1024 * (L 1).val + 512 * (L 0).val + 4 * (3), 0] from (k1_off4_eq L 3))])) $$ Hoc
  ihave Hsrc := (Entails.of_eq (show ((Memref.whole cc1_scratch4).view.loc (V d (cV L) (jV L)) ↦{fullShare} fb3 : sProp 𝕄)
      = ((rsh (Memref.whole cc1_scratch4) (Memref.isWhole_whole _)).view.loc (V d (cV L) (jV L)) ↦[(rsh (Memref.whole cc1_scratch4) (Memref.isWhole_whole _)).view.set]{fullShare} fb3) by
        rw [show (rsh (Memref.whole cc1_scratch4) (Memref.isWhole_whole _)).view.set = (Memref.whole cc1_scratch4).view.set from View.set_reshape _ _, View.set_whole])) $$ Hb3
  iapply (Transfers.wp_dmaLocal countersEmb 𝒱₀ (V d (cV L) (jV L)) none (default : HIx 1) (NO L) rfl (View.dmaCredit_pos _ (show 0 < S4x3328.numel by decide)) (Finset.Subset.refl _)) $$ [Hsrc Hoc Hs20]
  · isplitl [Hsrc]; · iexact Hsrc
    isplitl [Hoc]; · iexact Hoc
    iexact Hs20
  iintro Hofl
  ihave Hofl3 := (Transfers.Flight_mono countersEmb (V d (cV L) (jV L)) (sm := SemLoc.dma cc1_scratch20.sem) (ι := (default : HIx 1)) (N := NO L) (out_deliver d L X Tb hX O0 (Memref.whole cc1_scratch4) (Memref.isWhole_whole _) (3) (by decide) (k1_off4 L 12#32) (k1_off4_inb L 3) (show (k1_off4 L 12#32) = ![1024 * (L 1).val + 512 * (L 0).val + 4 * (3), 0] from (k1_off4_eq L 3)) fb3 hg3)) $$ Hofl
  -- wait for gather 4
  sl_exec
  iapply (Transfers.wp_waitLocalO countersEmb 𝒱₀ (V d (cV L) (jV L)) none (default : HIx 1) (rfl : (Memref.whole cc1_scratch5).view.dmaCredit = _)) $$ [Hfl4 HO]
  · isplitl [Hfl4]; · iexact Hfl4
    isplitl [HO]; · iexact HO
    iapply (Transfers.MayWaits.elim (SemLoc.dma cc1_scratch13.sem)) $$ Hmw
  iintro ⟨⟨⟨%fb4, Hb4, %hg4⟩, Htt4, Hlist4⟩, Hs13, HO⟩
  -- copy buffer 4 out to chunk 4
  sl_exec
  ihave Hsp := (oRem_take d L O0 (4) (by decide)) $$ Horem
  icases Hsp with ⟨Hoc, Horem⟩
  ihave Hoc := (Entails.of_eq (show (oLoc d ↦[oChunk L (4)]{fullShare} O0 : sProp 𝕄)
      = ((oSlc (k1_off4 L 16#32) (k1_off4_inb L 4)).view.loc (V d (cV L) (jV L)) ↦[(oSlc (k1_off4 L 16#32) (k1_off4_inb L 4)).view.set]{fullShare} O0) by rw [set_oSlc L (4) (k1_off4 L 16#32) (k1_off4_inb L 4) (show (k1_off4 L 16#32) = ![1024 * (L 1).val + 512 * (L 0).val + 4 * (4), 0] from (k1_off4_eq L 4))])) $$ Hoc
  ihave Hsrc := (Entails.of_eq (show ((Memref.whole cc1_scratch5).view.loc (V d (cV L) (jV L)) ↦{fullShare} fb4 : sProp 𝕄)
      = ((rsh (Memref.whole cc1_scratch5) (Memref.isWhole_whole _)).view.loc (V d (cV L) (jV L)) ↦[(rsh (Memref.whole cc1_scratch5) (Memref.isWhole_whole _)).view.set]{fullShare} fb4) by
        rw [show (rsh (Memref.whole cc1_scratch5) (Memref.isWhole_whole _)).view.set = (Memref.whole cc1_scratch5).view.set from View.set_reshape _ _, View.set_whole])) $$ Hb4
  iapply (Transfers.wp_dmaLocal countersEmb 𝒱₀ (V d (cV L) (jV L)) none (default : HIx 1) (NO L) rfl (View.dmaCredit_pos _ (show 0 < S4x3328.numel by decide)) (Finset.Subset.refl _)) $$ [Hsrc Hoc Hs21]
  · isplitl [Hsrc]; · iexact Hsrc
    isplitl [Hoc]; · iexact Hoc
    iexact Hs21
  iintro Hofl
  ihave Hofl4 := (Transfers.Flight_mono countersEmb (V d (cV L) (jV L)) (sm := SemLoc.dma cc1_scratch21.sem) (ι := (default : HIx 1)) (N := NO L) (out_deliver d L X Tb hX O0 (Memref.whole cc1_scratch5) (Memref.isWhole_whole _) (4) (by decide) (k1_off4 L 16#32) (k1_off4_inb L 4) (show (k1_off4 L 16#32) = ![1024 * (L 1).val + 512 * (L 0).val + 4 * (4), 0] from (k1_off4_eq L 4)) fb4 hg4)) $$ Hofl
  -- wait for gather 5
  sl_exec
  iapply (Transfers.wp_waitLocalO countersEmb 𝒱₀ (V d (cV L) (jV L)) none (default : HIx 1) (rfl : (Memref.whole cc1_scratch6).view.dmaCredit = _)) $$ [Hfl5 HO]
  · isplitl [Hfl5]; · iexact Hfl5
    isplitl [HO]; · iexact HO
    iapply (Transfers.MayWaits.elim (SemLoc.dma cc1_scratch14.sem)) $$ Hmw
  iintro ⟨⟨⟨%fb5, Hb5, %hg5⟩, Htt5, Hlist5⟩, Hs14, HO⟩
  -- copy buffer 5 out to chunk 5
  sl_exec
  ihave Hsp := (oRem_take d L O0 (5) (by decide)) $$ Horem
  icases Hsp with ⟨Hoc, Horem⟩
  ihave Hoc := (Entails.of_eq (show (oLoc d ↦[oChunk L (5)]{fullShare} O0 : sProp 𝕄)
      = ((oSlc (k1_off4 L 20#32) (k1_off4_inb L 5)).view.loc (V d (cV L) (jV L)) ↦[(oSlc (k1_off4 L 20#32) (k1_off4_inb L 5)).view.set]{fullShare} O0) by rw [set_oSlc L (5) (k1_off4 L 20#32) (k1_off4_inb L 5) (show (k1_off4 L 20#32) = ![1024 * (L 1).val + 512 * (L 0).val + 4 * (5), 0] from (k1_off4_eq L 5))])) $$ Hoc
  ihave Hsrc := (Entails.of_eq (show ((Memref.whole cc1_scratch6).view.loc (V d (cV L) (jV L)) ↦{fullShare} fb5 : sProp 𝕄)
      = ((rsh (Memref.whole cc1_scratch6) (Memref.isWhole_whole _)).view.loc (V d (cV L) (jV L)) ↦[(rsh (Memref.whole cc1_scratch6) (Memref.isWhole_whole _)).view.set]{fullShare} fb5) by
        rw [show (rsh (Memref.whole cc1_scratch6) (Memref.isWhole_whole _)).view.set = (Memref.whole cc1_scratch6).view.set from View.set_reshape _ _, View.set_whole])) $$ Hb5
  iapply (Transfers.wp_dmaLocal countersEmb 𝒱₀ (V d (cV L) (jV L)) none (default : HIx 1) (NO L) rfl (View.dmaCredit_pos _ (show 0 < S4x3328.numel by decide)) (Finset.Subset.refl _)) $$ [Hsrc Hoc Hs22]
  · isplitl [Hsrc]; · iexact Hsrc
    isplitl [Hoc]; · iexact Hoc
    iexact Hs22
  iintro Hofl
  ihave Hofl5 := (Transfers.Flight_mono countersEmb (V d (cV L) (jV L)) (sm := SemLoc.dma cc1_scratch22.sem) (ι := (default : HIx 1)) (N := NO L) (out_deliver d L X Tb hX O0 (Memref.whole cc1_scratch6) (Memref.isWhole_whole _) (5) (by decide) (k1_off4 L 20#32) (k1_off4_inb L 5) (show (k1_off4 L 20#32) = ![1024 * (L 1).val + 512 * (L 0).val + 4 * (5), 0] from (k1_off4_eq L 5)) fb5 hg5)) $$ Hofl
  -- wait for gather 6
  sl_exec
  iapply (Transfers.wp_waitLocalO countersEmb 𝒱₀ (V d (cV L) (jV L)) none (default : HIx 1) (rfl : (Memref.whole cc1_scratch7).view.dmaCredit = _)) $$ [Hfl6 HO]
  · isplitl [Hfl6]; · iexact Hfl6
    isplitl [HO]; · iexact HO
    iapply (Transfers.MayWaits.elim (SemLoc.dma cc1_scratch15.sem)) $$ Hmw
  iintro ⟨⟨⟨%fb6, Hb6, %hg6⟩, Htt6, Hlist6⟩, Hs15, HO⟩
  sl_exec
  sl_step
  iapply HΦ
  isplitl [HO]
  · iexists _
    isplitr
    swap
    · iexact HO
    ipureintro; repeat (first | exact hW' | apply waits_ok)
  isplitl [Horem]
  · iexact Horem
  isplitl [Hofl2]
  · iexact Hofl2
  isplitl [Hofl3]
  · iexact Hofl3
  isplitl [Hofl4]
  · iexact Hofl4
  isplitl [Hofl5]
  · iexact Hofl5
  isplitl [Hb6]
  · iexists fb6
    isplitl [Hb6]
    · iexact Hb6
    · ipureintro; exact hg6
  isplitl [Htt3]
  · iexact Htt3
  isplitl [Htt4]
  · iexact Htt4
  isplitl [Htt5]
  · iexact Htt5
  isplitl [Htt6]
  · iexact Htt6
  isplitl [Hlist3]
  · iexact Hlist3
  isplitl [Hlist4]
  · iexact Hlist4
  isplitl [Hlist5]
  · iexact Hlist5
  isplitl [Hlist6]
  · iexact Hlist6
  isplitl [Hs12]
  · iexact Hs12
  isplitl [Hs13]
  · iexact Hs13
  isplitl [Hs14]
  · iexact Hs14
  iexact Hs15

end Tile
end Cert.Proof.KB
end
-- ==== Proof.TileB4.lean ====
import proofs.«207321_g10943576670982_fold_wed_m_632_36_alg».proof.Proof.TileB2

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
variable {U : Type} [URA U]

local notation "𝕄" => MT nD τ sig (HIx 1) (Elt F) ℕ U ℕ

variable [CountersIn U] [FloatOps F]

section Tile
variable (d : Dev nD) (L : grid1.Coords)

/-- Between trips of the ring: the rows of the chunks before `m` are written, the copies of the eight buffers out to chunks
    `m … m + 7` are in flight, the rest of the rows is untouched; the list is whole (held as eight read tokens), every
    gather has been waited for. -/
def ringInv (X : Buf (Elt F) (xLoc d)) (Tb : Buf (Elt F) (tLoc d)) (O0 : Buf (Elt F) (oLoc d))
    (O : CellTallies nD τ sig (HIx 1)) (W : Waits sig (HIx 1)) (m : ℕ) : sProp 𝕄 :=
  iprop(Transfers.MayWaits (V d (cV L) (jV L)) (default : HIx 1) O
        ∗ (∃ W', ⌜∀ p ∈ W', p ∈ W ∨ p.2 = none⌝ ∗ owes (V d (cV L) (jV L)) O W')
        ∗ (oLoc d ↦[oDone L (m)]{fullShare} (gatherOut (F := F) X Tb : Buf (Elt F) (oLoc d)))
        ∗ (oLoc d ↦[oRem L (m + 8)]{fullShare} O0)
        ∗ OFl d L X Tb (Memref.whole cc1_scratch1) cc1_scratch17 (m + 0)
        ∗ OFl d L X Tb (Memref.whole cc1_scratch2) cc1_scratch18 (m + 1)
        ∗ OFl d L X Tb (Memref.whole cc1_scratch3) cc1_scratch19 (m + 2)
        ∗ OFl d L X Tb (Memref.whole cc1_scratch4) cc1_scratch20 (m + 3)
        ∗ OFl d L X Tb (Memref.whole cc1_scratch5) cc1_scratch21 (m + 4)
        ∗ OFl d L X Tb (Memref.whole cc1_scratch6) cc1_scratch22 (m + 5)
        ∗ OFl d L X Tb (Memref.whole cc1_scratch7) cc1_scratch23 (m + 6)
        ∗ OFl d L X Tb (Memref.whole cc1_scratch8) cc1_scratch24 (m + 7)
        ∗ ((tSl).view.loc (V d (cV L) (jV L)) ↦[(tSl).view.set]{((tileShare L).right)} Tb)
        ∗ ((tSl).view.loc (V d (cV L) (jV L)) ↦[(tSl).view.set]{((tileShare L).left.right)} Tb)
        ∗ ((tSl).view.loc (V d (cV L) (jV L)) ↦[(tSl).view.set]{((tileShare L).left.left.right)} Tb)
        ∗ ((tSl).view.loc (V d (cV L) (jV L)) ↦[(tSl).view.set]{((tileShare L).left.left.left.right)} Tb)
        ∗ ((tSl).view.loc (V d (cV L) (jV L)) ↦[(tSl).view.set]{((tileShare L).left.left.left.left.right)} Tb)
        ∗ ((tSl).view.loc (V d (cV L) (jV L)) ↦[(tSl).view.set]{((tileShare L).left.left.left.left.left.right)} Tb)
        ∗ ((tSl).view.loc (V d (cV L) (jV L)) ↦[(tSl).view.set]{((tileShare L).left.left.left.left.left.left.right)} Tb)
        ∗ ((tSl).view.loc (V d (cV L) (jV L)) ↦[(tSl).view.set]{((tileShare L).left.left.left.left.left.left.left.right)} Tb)
        ∗ ((V d (cV L) (jV L)).loc cc1_scratch0 ↦[Finset.univ]{(fullShare.right)} idxF d L X)
        ∗ ((V d (cV L) (jV L)).loc cc1_scratch0 ↦[Finset.univ]{(fullShare.left.right)} idxF d L X)
        ∗ ((V d (cV L) (jV L)).loc cc1_scratch0 ↦[Finset.univ]{(fullShare.left.left.right)} idxF d L X)
        ∗ ((V d (cV L) (jV L)).loc cc1_scratch0 ↦[Finset.univ]{(fullShare.left.left.left.right)} idxF d L X)
        ∗ ((V d (cV L) (jV L)).loc cc1_scratch0 ↦[Finset.univ]{(fullShare.left.left.left.left.right)} idxF d L X)
        ∗ ((V d (cV L) (jV L)).loc cc1_scratch0 ↦[Finset.univ]{(fullShare.left.left.left.left.left.right)} idxF d L X)
        ∗ ((V d (cV L) (jV L)).loc cc1_scratch0 ↦[Finset.univ]{(fullShare.left.left.left.left.left.left.right)} idxF d L X)
        ∗ ((V d (cV L) (jV L)).loc cc1_scratch0 ↦[Finset.univ]{(fullShare.left.left.left.left.left.left.left.right)} idxF d L X)
        ∗ semVal (cellOf d L cc1_scratch9) 0
        ∗ semVal (cellOf d L cc1_scratch10) 0
        ∗ semVal (cellOf d L cc1_scratch11) 0
        ∗ semVal (cellOf d L cc1_scratch12) 0
        ∗ semVal (cellOf d L cc1_scratch13) 0
        ∗ semVal (cellOf d L cc1_scratch14) 0
        ∗ semVal (cellOf d L cc1_scratch15) 0
        ∗ semVal (cellOf d L cc1_scratch16) 0)

def inv3 (X : Buf (Elt F) (xLoc d)) (Tb : Buf (Elt F) (tLoc d)) (O0 : Buf (Elt F) (oLoc d))
    (O : CellTallies nD τ sig (HIx 1)) (W : Waits sig (HIx 1)) (k : ℕ) (_ : PUnit) : sProp 𝕄 := ringInv d L X Tb O0 O W (8 * k)

theorem off6_zero (k : Fin k1_t3_loop.trips) (r : Fin 8) : (k1_off6 k (BitVec.ofNat 32 r.val)) 0 = 104 * (8 * k.val + (8 + r.val)) := by
  rw [k1_off6_eq k r]
  show 832 * k.val + 104 * r.val + 832 = _
  omega

theorem off7_eq (L : grid1.Coords) (k : Fin k1_t3_loop.trips) (r : Fin 8) :
    k1_off7 L k (BitVec.ofNat 32 r.val) = ![1024 * (L 1).val + 512 * (L 0).val + 4 * (8 * k.val + (8 + r.val)), 0] := by
  rw [k1_off7_eq L k r]
  congr 1
  omega

set_option maxHeartbeats 8000000 in
theorem trip3 (X : Buf (Elt F) (xLoc d)) (Tb : Buf (Elt F) (tLoc d)) (O0 : Buf (Elt F) (oLoc d)) (hX : ∀ j, (X j : BitVec 32).toNat < 128)
    (O : CellTallies nD τ sig (HIx 1)) (W : Waits sig (HIx 1)) (v3 : BitVec 32) (k : Fin k1_t3_loop.trips) :
    inv3 (U := U) d L X Tb O0 O W k.val ⟨⟩
      ⊢ wp frame (wpE (defs₀ (F := F)) 𝒱₀ (V d (cV L) (jV L)) none) Set.univ (k1_t3_body L (Memref.whole main_v1_scv) (Memref.isWhole_whole _) (Memref.whole main_v0_scv) (Memref.isWhole_whole _) (Memref.whole main_v2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) cc1_scratch9 cc1_scratch10 cc1_scratch11 cc1_scratch12 cc1_scratch13 cc1_scratch14 cc1_scratch15 cc1_scratch16 cc1_scratch17 cc1_scratch18 cc1_scratch19 cc1_scratch20 cc1_scratch21 cc1_scratch22 cc1_scratch23 cc1_scratch24 cc1_scoped0 v3 k ⟨⟩)
          (inv3 (U := U) d L X Tb O0 O W (k.val + 1)) := by
  have hN : ∀ (B : Memref sig .scVector .vmem S104x128 .f32) (a' : Fin S104x128.rank),
      ∑ j, (B.slice (S104x128.rowRect a' j) (S104x128.stride_rowRect a' j)).view.dmaCredit = B.view.dmaCredit :=
    fun B a' => SparseCore.sum_rowCredit_eq_dmaCredit B a' (fun _ => rfl)
  unfold inv3 ringInv k1_t3_body
  iintro ⟨#Hmw, ⟨%W', %hW', HO⟩, Hodone, Horem, Hofl0, Hofl1, Hofl2, Hofl3, Hofl4, Hofl5, Hofl6, Hofl7, Htt0, Htt1, Htt2, Htt3, Htt4, Htt5, Htt6, Htt7, Hl0, Hl1, Hl2, Hl3, Hl4, Hl5, Hl6, Hl7, Hs9, Hs10, Hs11, Hs12, Hs13, Hs14, Hs15, Hs16⟩
  -- wait for the copy of buffer 0 out to chunk 8 * k.val + 0
  sl_exec
  iapply (Transfers.wp_waitLocalO countersEmb 𝒱₀ (V d (cV L) (jV L)) none (default : HIx 1) (rfl : _ = NO L)) $$ [Hofl0 HO]
  · isplitl [Hofl0]; · iexact Hofl0
    isplitl [HO]; · iexact HO
    iapply (Transfers.MayWaits.elim (SemLoc.dma cc1_scratch17.sem)) $$ Hmw
  iintro ⟨⟨Hoc, ⟨%fb0, Hb0⟩⟩, Hs17, HO⟩
  ihave Hodone := (oDone_put d L (gatherOut (F := F) X Tb : Buf (Elt F) (oLoc d)) (8 * k.val + 0) (by have := k.isLt; have : k1_t3_loop.trips = 15 := rfl; omega)) $$ [Hoc Hodone]
  · isplitl [Hoc]; · iexact Hoc
    iexact Hodone
  -- gather chunk 8 * k.val + 8 into buffer 0
  sl_exec
  ihave Hls := (pointsTo_split_subset (q := (fullShare.right)) (f := idxF d L X) (S := Finset.univ) (Finset.subset_univ (oSl (k1_off6 k 0#32) (k1_off6_inb k 0)).view.set)).1 $$ Hl0
  icases Hls with ⟨Hlist0, Hlrest0⟩
  ihave Hbb := (Entails.of_eq (show ((Memref.whole cc1_scratch1).view.loc (V d (cV L) (jV L)) ↦{fullShare} fb0 : sProp 𝕄)
      = ((Memref.whole cc1_scratch1).view.loc (V d (cV L) (jV L)) ↦[(Memref.whole cc1_scratch1).view.set]{fullShare} fb0) by rw [View.set_whole])) $$ Hb0
  iapply (SparseCore.wp_indirectGatherLocal countersEmb 𝒱₀ (V d (cV L) (jV L)) none (hg := gathers_S3328x128_S104x128) (default : HIx 1)
      (Memref.whole cc1_scratch1).view.dmaCredit (hN (Memref.whole cc1_scratch1) _) (by decide) (read_oSl_lt d L X hX 13312 (k1_off6 k 0#32) (k1_off6_inb k 0))) $$ [Htt0 Hbb Hlist0 Hs9]
  · isplitl [Htt0]; · iexact Htt0
    isplitl [Hbb]; · iexact Hbb
    isplitl [Hlist0]; · iexact Hlist0
    iexact Hs9
  iintro Hfl
  ihave Hfl0 := (Transfers.Flight_mono countersEmb (V d (cV L) (jV L)) (sm := SemLoc.dma cc1_scratch9.sem) (ι := (default : HIx 1)) (N := (Memref.whole cc1_scratch1).view.dmaCredit) (gather_deliver d L X Tb (Memref.whole cc1_scratch1) (Memref.isWhole_whole _) (8 * k.val + 8) (k1_off6 k 0#32) (k1_off6_inb k 0) (off6_zero k 0) rfl
      (read_oSl_lt d L X hX 13312 (k1_off6 k 0#32) (k1_off6_inb k 0)) fb0 ((tileShare L).right) (fullShare.right))) $$ Hfl
  -- wait for the copy of buffer 1 out to chunk 8 * k.val + 1
  sl_exec
  iapply (Transfers.wp_waitLocalO countersEmb 𝒱₀ (V d (cV L) (jV L)) none (default : HIx 1) (rfl : _ = NO L)) $$ [Hofl1 HO]
  · isplitl [Hofl1]; · iexact Hofl1
    isplitl [HO]; · iexact HO
    iapply (Transfers.MayWaits.elim (SemLoc.dma cc1_scratch18.sem)) $$ Hmw
  iintro ⟨⟨Hoc, ⟨%fb1, Hb1⟩⟩, Hs18, HO⟩
  ihave Hodone := (oDone_put d L (gatherOut (F := F) X Tb : Buf (Elt F) (oLoc d)) (8 * k.val + 1) (by have := k.isLt; have : k1_t3_loop.trips = 15 := rfl; omega)) $$ [Hoc Hodone]
  · isplitl [Hoc]; · iexact Hoc
    iexact Hodone
  -- gather chunk 8 * k.val + 9 into buffer 1
  sl_exec
  ihave Hls := (pointsTo_split_subset (q := (fullShare.left.right)) (f := idxF d L X) (S := Finset.univ) (Finset.subset_univ (oSl (k1_off6 k 1#32) (k1_off6_inb k 1)).view.set)).1 $$ Hl1
  icases Hls with ⟨Hlist1, Hlrest1⟩
  ihave Hbb := (Entails.of_eq (show ((Memref.whole cc1_scratch2).view.loc (V d (cV L) (jV L)) ↦{fullShare} fb1 : sProp 𝕄)
      = ((Memref.whole cc1_scratch2).view.loc (V d (cV L) (jV L)) ↦[(Memref.whole cc1_scratch2).view.set]{fullShare} fb1) by rw [View.set_whole])) $$ Hb1
  iapply (SparseCore.wp_indirectGatherLocal countersEmb 𝒱₀ (V d (cV L) (jV L)) none (hg := gathers_S3328x128_S104x128) (default : HIx 1)
      (Memref.whole cc1_scratch2).view.dmaCredit (hN (Memref.whole cc1_scratch2) _) (by decide) (read_oSl_lt d L X hX 13312 (k1_off6 k 1#32) (k1_off6_inb k 1))) $$ [Htt1 Hbb Hlist1 Hs10]
  · isplitl [Htt1]; · iexact Htt1
    isplitl [Hbb]; · iexact Hbb
    isplitl [Hlist1]; · iexact Hlist1
    iexact Hs10
  iintro Hfl
  ihave Hfl1 := (Transfers.Flight_mono countersEmb (V d (cV L) (jV L)) (sm := SemLoc.dma cc1_scratch10.sem) (ι := (default : HIx 1)) (N := (Memref.whole cc1_scratch2).view.dmaCredit) (gather_deliver d L X Tb (Memref.whole cc1_scratch2) (Memref.isWhole_whole _) (8 * k.val + 9) (k1_off6 k 1#32) (k1_off6_inb k 1) (off6_zero k 1) rfl
      (read_oSl_lt d L X hX 13312 (k1_off6 k 1#32) (k1_off6_inb k 1)) fb1 ((tileShare L).left.right) (fullShare.left.right))) $$ Hfl
  -- wait for the copy of buffer 2 out to chunk 8 * k.val + 2
  sl_exec
  iapply (Transfers.wp_waitLocalO countersEmb 𝒱₀ (V d (cV L) (jV L)) none (default : HIx 1) (rfl : _ = NO L)) $$ [Hofl2 HO]
  · isplitl [Hofl2]; · iexact Hofl2
    isplitl [HO]; · iexact HO
    iapply (Transfers.MayWaits.elim (SemLoc.dma cc1_scratch19.sem)) $$ Hmw
  iintro ⟨⟨Hoc, ⟨%fb2, Hb2⟩⟩, Hs19, HO⟩
  ihave Hodone := (oDone_put d L (gatherOut (F := F) X Tb : Buf (Elt F) (oLoc d)) (8 * k.val + 2) (by have := k.isLt; have : k1_t3_loop.trips = 15 := rfl; omega)) $$ [Hoc Hodone]
  · isplitl [Hoc]; · iexact Hoc
    iexact Hodone
  -- gather chunk 8 * k.val + 10 into buffer 2
  sl_exec
  ihave Hls := (pointsTo_split_subset (q := (fullShare.left.left.right)) (f := idxF d L X) (S := Finset.univ) (Finset.subset_univ (oSl (k1_off6 k 2#32) (k1_off6_inb k 2)).view.set)).1 $$ Hl2
  icases Hls with ⟨Hlist2, Hlrest2⟩
  ihave Hbb := (Entails.of_eq (show ((Memref.whole cc1_scratch3).view.loc (V d (cV L) (jV L)) ↦{fullShare} fb2 : sProp 𝕄)
      = ((Memref.whole cc1_scratch3).view.loc (V d (cV L) (jV L)) ↦[(Memref.whole cc1_scratch3).view.set]{fullShare} fb2) by rw [View.set_whole])) $$ Hb2
  iapply (SparseCore.wp_indirectGatherLocal countersEmb 𝒱₀ (V d (cV L) (jV L)) none (hg := gathers_S3328x128_S104x128) (default : HIx 1)
      (Memref.whole cc1_scratch3).view.dmaCredit (hN (Memref.whole cc1_scratch3) _) (by decide) (read_oSl_lt d L X hX 13312 (k1_off6 k 2#32) (k1_off6_inb k 2))) $$ [Htt2 Hbb Hlist2 Hs11]
  · isplitl [Htt2]; · iexact Htt2
    isplitl [Hbb]; · iexact Hbb
    isplitl [Hlist2]; · iexact Hlist2
    iexact Hs11
  iintro Hfl
  ihave Hfl2 := (Transfers.Flight_mono countersEmb (V d (cV L) (jV L)) (sm := SemLoc.dma cc1_scratch11.sem) (ι := (default : HIx 1)) (N := (Memref.whole cc1_scratch3).view.dmaCredit) (gather_deliver d L X Tb (Memref.whole cc1_scratch3) (Memref.isWhole_whole _) (8 * k.val + 10) (k1_off6 k 2#32) (k1_off6_inb k 2) (off6_zero k 2) rfl
      (read_oSl_lt d L X hX 13312 (k1_off6 k 2#32) (k1_off6_inb k 2)) fb2 ((tileShare L).left.left.right) (fullShare.left.left.right))) $$ Hfl
  -- wait for the copy of buffer 3 out to chunk 8 * k.val + 3
  sl_exec
  iapply (Transfers.wp_waitLocalO countersEmb 𝒱₀ (V d (cV L) (jV L)) none (default : HIx 1) (rfl : _ = NO L)) $$ [Hofl3 HO]
  · isplitl [Hofl3]; · iexact Hofl3
    isplitl [HO]; · iexact HO
    iapply (Transfers.MayWaits.elim (SemLoc.dma cc1_scratch20.sem)) $$ Hmw
  iintro ⟨⟨Hoc, ⟨%fb3, Hb3⟩⟩, Hs20, HO⟩
  ihave Hodone := (oDone_put d L (gatherOut (F := F) X Tb : Buf (Elt F) (oLoc d)) (8 * k.val + 3) (by have := k.isLt; have : k1_t3_loop.trips = 15 := rfl; omega)) $$ [Hoc Hodone]
  · isplitl [Hoc]; · iexact Hoc
    iexact Hodone
  -- gather chunk 8 * k.val + 11 into buffer 3
  sl_exec
  ihave Hls := (pointsTo_split_subset (q := (fullShare.left.left.left.right)) (f := idxF d L X) (S := Finset.univ) (Finset.subset_univ (oSl (k1_off6 k 3#32) (k1_off6_inb k 3)).view.set)).1 $$ Hl3
  icases Hls with ⟨Hlist3, Hlrest3⟩
  ihave Hbb := (Entails.of_eq (show ((Memref.whole cc1_scratch4).view.loc (V d (cV L) (jV L)) ↦{fullShare} fb3 : sProp 𝕄)
      = ((Memref.whole cc1_scratch4).view.loc (V d (cV L) (jV L)) ↦[(Memref.whole cc1_scratch4).view.set]{fullShare} fb3) by rw [View.set_whole])) $$ Hb3
  iapply (SparseCore.wp_indirectGatherLocal countersEmb 𝒱₀ (V d (cV L) (jV L)) none (hg := gathers_S3328x128_S104x128) (default : HIx 1)
      (Memref.whole cc1_scratch4).view.dmaCredit (hN (Memref.whole cc1_scratch4) _) (by decide) (read_oSl_lt d L X hX 13312 (k1_off6 k 3#32) (k1_off6_inb k 3))) $$ [Htt3 Hbb Hlist3 Hs12]
  · isplitl [Htt3]; · iexact Htt3
    isplitl [Hbb]; · iexact Hbb
    isplitl [Hlist3]; · iexact Hlist3
    iexact Hs12
  iintro Hfl
  ihave Hfl3 := (Transfers.Flight_mono countersEmb (V d (cV L) (jV L)) (sm := SemLoc.dma cc1_scratch12.sem) (ι := (default : HIx 1)) (N := (Memref.whole cc1_scratch4).view.dmaCredit) (gather_deliver d L X Tb (Memref.whole cc1_scratch4) (Memref.isWhole_whole _) (8 * k.val + 11) (k1_off6 k 3#32) (k1_off6_inb k 3) (off6_zero k 3) rfl
      (read_oSl_lt d L X hX 13312 (k1_off6 k 3#32) (k1_off6_inb k 3)) fb3 ((tileShare L).left.left.left.right) (fullShare.left.left.left.right))) $$ Hfl
  -- wait for the copy of buffer 4 out to chunk 8 * k.val + 4
  sl_exec
  iapply (Transfers.wp_waitLocalO countersEmb 𝒱₀ (V d (cV L) (jV L)) none (default : HIx 1) (rfl : _ = NO L)) $$ [Hofl4 HO]
  · isplitl [Hofl4]; · iexact Hofl4
    isplitl [HO]; · iexact HO
    iapply (Transfers.MayWaits.elim (SemLoc.dma cc1_scratch21.sem)) $$ Hmw
  iintro ⟨⟨Hoc, ⟨%fb4, Hb4⟩⟩, Hs21, HO⟩
  ihave Hodone := (oDone_put d L (gatherOut (F := F) X Tb : Buf (Elt F) (oLoc d)) (8 * k.val + 4) (by have := k.isLt; have : k1_t3_loop.trips = 15 := rfl; omega)) $$ [Hoc Hodone]
  · isplitl [Hoc]; · iexact Hoc
    iexact Hodone
  -- gather chunk 8 * k.val + 12 into buffer 4
  sl_exec
  ihave Hls := (pointsTo_split_subset (q := (fullShare.left.left.left.left.right)) (f := idxF d L X) (S := Finset.univ) (Finset.subset_univ (oSl (k1_off6 k 4#32) (k1_off6_inb k 4)).view.set)).1 $$ Hl4
  icases Hls with ⟨Hlist4, Hlrest4⟩
  ihave Hbb := (Entails.of_eq (show ((Memref.whole cc1_scratch5).view.loc (V d (cV L) (jV L)) ↦{fullShare} fb4 : sProp 𝕄)
      = ((Memref.whole cc1_scratch5).view.loc (V d (cV L) (jV L)) ↦[(Memref.whole cc1_scratch5).view.set]{fullShare} fb4) by rw [View.set_whole])) $$ Hb4
  iapply (SparseCore.wp_indirectGatherLocal countersEmb 𝒱₀ (V d (cV L) (jV L)) none (hg := gathers_S3328x128_S104x128) (default : HIx 1)
      (Memref.whole cc1_scratch5).view.dmaCredit (hN (Memref.whole cc1_scratch5) _) (by decide) (read_oSl_lt d L X hX 13312 (k1_off6 k 4#32) (k1_off6_inb k 4))) $$ [Htt4 Hbb Hlist4 Hs13]
  · isplitl [Htt4]; · iexact Htt4
    isplitl [Hbb]; · iexact Hbb
    isplitl [Hlist4]; · iexact Hlist4
    iexact Hs13
  iintro Hfl
  ihave Hfl4 := (Transfers.Flight_mono countersEmb (V d (cV L) (jV L)) (sm := SemLoc.dma cc1_scratch13.sem) (ι := (default : HIx 1)) (N := (Memref.whole cc1_scratch5).view.dmaCredit) (gather_deliver d L X Tb (Memref.whole cc1_scratch5) (Memref.isWhole_whole _) (8 * k.val + 12) (k1_off6 k 4#32) (k1_off6_inb k 4) (off6_zero k 4) rfl
      (read_oSl_lt d L X hX 13312 (k1_off6 k 4#32) (k1_off6_inb k 4)) fb4 ((tileShare L).left.left.left.left.right) (fullShare.left.left.left.left.right))) $$ Hfl
  -- wait for the copy of buffer 5 out to chunk 8 * k.val + 5
  sl_exec
  iapply (Transfers.wp_waitLocalO countersEmb 𝒱₀ (V d (cV L) (jV L)) none (default : HIx 1) (rfl : _ = NO L)) $$ [Hofl5 HO]
  · isplitl [Hofl5]; · iexact Hofl5
    isplitl [HO]; · iexact HO
    iapply (Transfers.MayWaits.elim (SemLoc.dma cc1_scratch22.sem)) $$ Hmw
  iintro ⟨⟨Hoc, ⟨%fb5, Hb5⟩⟩, Hs22, HO⟩
  ihave Hodone := (oDone_put d L (gatherOut (F := F) X Tb : Buf (Elt F) (oLoc d)) (8 * k.val + 5) (by have := k.isLt; have : k1_t3_loop.trips = 15 := rfl; omega)) $$ [Hoc Hodone]
  · isplitl [Hoc]; · iexact Hoc
    iexact Hodone
  -- gather chunk 8 * k.val + 13 into buffer 5
  sl_exec
  ihave Hls := (pointsTo_split_subset (q := (fullShare.left.left.left.left.left.right)) (f := idxF d L X) (S := Finset.univ) (Finset.subset_univ (oSl (k1_off6 k 5#32) (k1_off6_inb k 5)).view.set)).1 $$ Hl5
  icases Hls with ⟨Hlist5, Hlrest5⟩
  ihave Hbb := (Entails.of_eq (show ((Memref.whole cc1_scratch6).view.loc (V d (cV L) (jV L)) ↦{fullShare} fb5 : sProp 𝕄)
      = ((Memref.whole cc1_scratch6).view.loc (V d (cV L) (jV L)) ↦[(Memref.whole cc1_scratch6).view.set]{fullShare} fb5) by rw [View.set_whole])) $$ Hb5
  iapply (SparseCore.wp_indirectGatherLocal countersEmb 𝒱₀ (V d (cV L) (jV L)) none (hg := gathers_S3328x128_S104x128) (default : HIx 1)
      (Memref.whole cc1_scratch6).view.dmaCredit (hN (Memref.whole cc1_scratch6) _) (by decide) (read_oSl_lt d L X hX 13312 (k1_off6 k 5#32) (k1_off6_inb k 5))) $$ [Htt5 Hbb Hlist5 Hs14]
  · isplitl [Htt5]; · iexact Htt5
    isplitl [Hbb]; · iexact Hbb
    isplitl [Hlist5]; · iexact Hlist5
    iexact Hs14
  iintro Hfl
  ihave Hfl5 := (Transfers.Flight_mono countersEmb (V d (cV L) (jV L)) (sm := SemLoc.dma cc1_scratch14.sem) (ι := (default : HIx 1)) (N := (Memref.whole cc1_scratch6).view.dmaCredit) (gather_deliver d L X Tb (Memref.whole cc1_scratch6) (Memref.isWhole_whole _) (8 * k.val + 13) (k1_off6 k 5#32) (k1_off6_inb k 5) (off6_zero k 5) rfl
      (read_oSl_lt d L X hX 13312 (k1_off6 k 5#32) (k1_off6_inb k 5)) fb5 ((tileShare L).left.left.left.left.left.right) (fullShare.left.left.left.left.left.right))) $$ Hfl
  -- wait for the copy of buffer 6 out to chunk 8 * k.val + 6
  sl_exec
  iapply (Transfers.wp_waitLocalO countersEmb 𝒱₀ (V d (cV L) (jV L)) none (default : HIx 1) (rfl : _ = NO L)) $$ [Hofl6 HO]
  · isplitl [Hofl6]; · iexact Hofl6
    isplitl [HO]; · iexact HO
    iapply (Transfers.MayWaits.elim (SemLoc.dma cc1_scratch23.sem)) $$ Hmw
  iintro ⟨⟨Hoc, ⟨%fb6, Hb6⟩⟩, Hs23, HO⟩
  ihave Hodone := (oDone_put d L (gatherOut (F := F) X Tb : Buf (Elt F) (oLoc d)) (8 * k.val + 6) (by have := k.isLt; have : k1_t3_loop.trips = 15 := rfl; omega)) $$ [Hoc Hodone]
  · isplitl [Hoc]; · iexact Hoc
    iexact Hodone
  -- gather chunk 8 * k.val + 14 into buffer 6
  sl_exec
  ihave Hls := (pointsTo_split_subset (q := (fullShare.left.left.left.left.left.left.right)) (f := idxF d L X) (S := Finset.univ) (Finset.subset_univ (oSl (k1_off6 k 6#32) (k1_off6_inb k 6)).view.set)).1 $$ Hl6
  icases Hls with ⟨Hlist6, Hlrest6⟩
  ihave Hbb := (Entails.of_eq (show ((Memref.whole cc1_scratch7).view.loc (V d (cV L) (jV L)) ↦{fullShare} fb6 : sProp 𝕄)
      = ((Memref.whole cc1_scratch7).view.loc (V d (cV L) (jV L)) ↦[(Memref.whole cc1_scratch7).view.set]{fullShare} fb6) by rw [View.set_whole])) $$ Hb6
  iapply (SparseCore.wp_indirectGatherLocal countersEmb 𝒱₀ (V d (cV L) (jV L)) none (hg := gathers_S3328x128_S104x128) (default : HIx 1)
      (Memref.whole cc1_scratch7).view.dmaCredit (hN (Memref.whole cc1_scratch7) _) (by decide) (read_oSl_lt d L X hX 13312 (k1_off6 k 6#32) (k1_off6_inb k 6))) $$ [Htt6 Hbb Hlist6 Hs15]
  · isplitl [Htt6]; · iexact Htt6
    isplitl [Hbb]; · iexact Hbb
    isplitl [Hlist6]; · iexact Hlist6
    iexact Hs15
  iintro Hfl
  ihave Hfl6 := (Transfers.Flight_mono countersEmb (V d (cV L) (jV L)) (sm := SemLoc.dma cc1_scratch15.sem) (ι := (default : HIx 1)) (N := (Memref.whole cc1_scratch7).view.dmaCredit) (gather_deliver d L X Tb (Memref.whole cc1_scratch7) (Memref.isWhole_whole _) (8 * k.val + 14) (k1_off6 k 6#32) (k1_off6_inb k 6) (off6_zero k 6) rfl
      (read_oSl_lt d L X hX 13312 (k1_off6 k 6#32) (k1_off6_inb k 6)) fb6 ((tileShare L).left.left.left.left.left.left.right) (fullShare.left.left.left.left.left.left.right))) $$ Hfl
  -- wait for the copy of buffer 7 out to chunk 8 * k.val + 7
  sl_exec
  iapply (Transfers.wp_waitLocalO countersEmb 𝒱₀ (V d (cV L) (jV L)) none (default : HIx 1) (rfl : _ = NO L)) $$ [Hofl7 HO]
  · isplitl [Hofl7]; · iexact Hofl7
    isplitl [HO]; · iexact HO
    iapply (Transfers.MayWaits.elim (SemLoc.dma cc1_scratch24.sem)) $$ Hmw
  iintro ⟨⟨Hoc, ⟨%fb7, Hb7⟩⟩, Hs24, HO⟩
  ihave Hodone := (oDone_put d L (gatherOut (F := F) X Tb : Buf (Elt F) (oLoc d)) (8 * k.val + 7) (by have := k.isLt; have : k1_t3_loop.trips = 15 := rfl; omega)) $$ [Hoc Hodone]
  · isplitl [Hoc]; · iexact Hoc
    iexact Hodone
  -- gather chunk 8 * k.val + 15 into buffer 7
  sl_exec
  ihave Hls := (pointsTo_split_subset (q := (fullShare.left.left.left.left.left.left.left.right)) (f := idxF d L X) (S := Finset.univ) (Finset.subset_univ (oSl (k1_off6 k 7#32) (k1_off6_inb k 7)).view.set)).1 $$ Hl7
  icases Hls with ⟨Hlist7, Hlrest7⟩
  ihave Hbb := (Entails.of_eq (show ((Memref.whole cc1_scratch8).view.loc (V d (cV L) (jV L)) ↦{fullShare} fb7 : sProp 𝕄)
      = ((Memref.whole cc1_scratch8).view.loc (V d (cV L) (jV L)) ↦[(Memref.whole cc1_scratch8).view.set]{fullShare} fb7) by rw [View.set_whole])) $$ Hb7
  iapply (SparseCore.wp_indirectGatherLocal countersEmb 𝒱₀ (V d (cV L) (jV L)) none (hg := gathers_S3328x128_S104x128) (default : HIx 1)
      (Memref.whole cc1_scratch8).view.dmaCredit (hN (Memref.whole cc1_scratch8) _) (by decide) (read_oSl_lt d L X hX 13312 (k1_off6 k 7#32) (k1_off6_inb k 7))) $$ [Htt7 Hbb Hlist7 Hs16]
  · isplitl [Htt7]; · iexact Htt7
    isplitl [Hbb]; · iexact Hbb
    isplitl [Hlist7]; · iexact Hlist7
    iexact Hs16
  iintro Hfl
  ihave Hfl7 := (Transfers.Flight_mono countersEmb (V d (cV L) (jV L)) (sm := SemLoc.dma cc1_scratch16.sem) (ι := (default : HIx 1)) (N := (Memref.whole cc1_scratch8).view.dmaCredit) (gather_deliver d L X Tb (Memref.whole cc1_scratch8) (Memref.isWhole_whole _) (8 * k.val + 15) (k1_off6 k 7#32) (k1_off6_inb k 7) (off6_zero k 7) rfl
      (read_oSl_lt d L X hX 13312 (k1_off6 k 7#32) (k1_off6_inb k 7)) fb7 ((tileShare L).left.left.left.left.left.left.left.right) (fullShare.left.left.left.left.left.left.left.right))) $$ Hfl
  -- wait for gather 0
  sl_exec
  iapply (Transfers.wp_waitLocalO countersEmb 𝒱₀ (V d (cV L) (jV L)) none (default : HIx 1) (rfl : (Memref.whole cc1_scratch1).view.dmaCredit = _)) $$ [Hfl0 HO]
  · isplitl [Hfl0]; · iexact Hfl0
    isplitl [HO]; · iexact HO
    iapply (Transfers.MayWaits.elim (SemLoc.dma cc1_scratch9.sem)) $$ Hmw
  iintro ⟨⟨⟨%fb0, Hb0, %hg0⟩, Htt0, Hlist0⟩, Hs9, HO⟩
  ihave Hl0 := (pointsTo_split_subset (q := (fullShare.right)) (f := idxF d L X) (S := Finset.univ) (Finset.subset_univ (oSl (k1_off6 k 0#32) (k1_off6_inb k 0)).view.set)).2 $$ [Hlist0 Hlrest0]
  · isplitl [Hlist0]; · iexact Hlist0
    iexact Hlrest0
  -- copy buffer 0 out to chunk 8 * k.val + 8
  sl_exec
  ihave Hsp := (oRem_take d L O0 (8 * k.val + 8) (by have := k.isLt; have : k1_t3_loop.trips = 15 := rfl; omega)) $$ Horem
  icases Hsp with ⟨Hoc, Horem⟩
  ihave Hoc := (Entails.of_eq (show (oLoc d ↦[oChunk L (8 * k.val + 8)]{fullShare} O0 : sProp 𝕄)
      = ((oSlc (k1_off7 L k 0#32) (k1_off7_inb L k 0)).view.loc (V d (cV L) (jV L)) ↦[(oSlc (k1_off7 L k 0#32) (k1_off7_inb L k 0)).view.set]{fullShare} O0) by rw [set_oSlc L (8 * k.val + 8) (k1_off7 L k 0#32) (k1_off7_inb L k 0) (show (k1_off7 L k 0#32) = ![1024 * (L 1).val + 512 * (L 0).val + 4 * (8 * k.val + 8), 0] from (off7_eq L k 0))])) $$ Hoc
  ihave Hsrc := (Entails.of_eq (show ((Memref.whole cc1_scratch1).view.loc (V d (cV L) (jV L)) ↦{fullShare} fb0 : sProp 𝕄)
      = ((rsh (Memref.whole cc1_scratch1) (Memref.isWhole_whole _)).view.loc (V d (cV L) (jV L)) ↦[(rsh (Memref.whole cc1_scratch1) (Memref.isWhole_whole _)).view.set]{fullShare} fb0) by
        rw [show (rsh (Memref.whole cc1_scratch1) (Memref.isWhole_whole _)).view.set = (Memref.whole cc1_scratch1).view.set from View.set_reshape _ _, View.set_whole])) $$ Hb0
  iapply (Transfers.wp_dmaLocal countersEmb 𝒱₀ (V d (cV L) (jV L)) none (default : HIx 1) (NO L) rfl (View.dmaCredit_pos _ (show 0 < S4x3328.numel by decide)) (Finset.Subset.refl _)) $$ [Hsrc Hoc Hs17]
  · isplitl [Hsrc]; · iexact Hsrc
    isplitl [Hoc]; · iexact Hoc
    iexact Hs17
  iintro Hofl
  ihave Hofl0 := (Transfers.Flight_mono countersEmb (V d (cV L) (jV L)) (sm := SemLoc.dma cc1_scratch17.sem) (ι := (default : HIx 1)) (N := NO L) (out_deliver d L X Tb hX O0 (Memref.whole cc1_scratch1) (Memref.isWhole_whole _) (8 * k.val + 8) (by have := k.isLt; have : k1_t3_loop.trips = 15 := rfl; omega) (k1_off7 L k 0#32) (k1_off7_inb L k 0) (show (k1_off7 L k 0#32) = ![1024 * (L 1).val + 512 * (L 0).val + 4 * (8 * k.val + 8), 0] from (off7_eq L k 0)) fb0 hg0)) $$ Hofl
  -- wait for gather 1
  sl_exec
  iapply (Transfers.wp_waitLocalO countersEmb 𝒱₀ (V d (cV L) (jV L)) none (default : HIx 1) (rfl : (Memref.whole cc1_scratch2).view.dmaCredit = _)) $$ [Hfl1 HO]
  · isplitl [Hfl1]; · iexact Hfl1
    isplitl [HO]; · iexact HO
    iapply (Transfers.MayWaits.elim (SemLoc.dma cc1_scratch10.sem)) $$ Hmw
  iintro ⟨⟨⟨%fb1, Hb1, %hg1⟩, Htt1, Hlist1⟩, Hs10, HO⟩
  ihave Hl1 := (pointsTo_split_subset (q := (fullShare.left.right)) (f := idxF d L X) (S := Finset.univ) (Finset.subset_univ (oSl (k1_off6 k 1#32) (k1_off6_inb k 1)).view.set)).2 $$ [Hlist1 Hlrest1]
  · isplitl [Hlist1]; · iexact Hlist1
    iexact Hlrest1
  -- copy buffer 1 out to chunk 8 * k.val + 9
  sl_exec
  ihave Hsp := (oRem_take d L O0 (8 * k.val + 9) (by have := k.isLt; have : k1_t3_loop.trips = 15 := rfl; omega)) $$ Horem
  icases Hsp with ⟨Hoc, Horem⟩
  ihave Hoc := (Entails.of_eq (show (oLoc d ↦[oChunk L (8 * k.val + 9)]{fullShare} O0 : sProp 𝕄)
      = ((oSlc (k1_off7 L k 1#32) (k1_off7_inb L k 1)).view.loc (V d (cV L) (jV L)) ↦[(oSlc (k1_off7 L k 1#32) (k1_off7_inb L k 1)).view.set]{fullShare} O0) by rw [set_oSlc L (8 * k.val + 9) (k1_off7 L k 1#32) (k1_off7_inb L k 1) (show (k1_off7 L k 1#32) = ![1024 * (L 1).val + 512 * (L 0).val + 4 * (8 * k.val + 9), 0] from (off7_eq L k 1))])) $$ Hoc
  ihave Hsrc := (Entails.of_eq (show ((Memref.whole cc1_scratch2).view.loc (V d (cV L) (jV L)) ↦{fullShare} fb1 : sProp 𝕄)
      = ((rsh (Memref.whole cc1_scratch2) (Memref.isWhole_whole _)).view.loc (V d (cV L) (jV L)) ↦[(rsh (Memref.whole cc1_scratch2) (Memref.isWhole_whole _)).view.set]{fullShare} fb1) by
        rw [show (rsh (Memref.whole cc1_scratch2) (Memref.isWhole_whole _)).view.set = (Memref.whole cc1_scratch2).view.set from View.set_reshape _ _, View.set_whole])) $$ Hb1
  iapply (Transfers.wp_dmaLocal countersEmb 𝒱₀ (V d (cV L) (jV L)) none (default : HIx 1) (NO L) rfl (View.dmaCredit_pos _ (show 0 < S4x3328.numel by decide)) (Finset.Subset.refl _)) $$ [Hsrc Hoc Hs18]
  · isplitl [Hsrc]; · iexact Hsrc
    isplitl [Hoc]; · iexact Hoc
    iexact Hs18
  iintro Hofl
  ihave Hofl1 := (Transfers.Flight_mono countersEmb (V d (cV L) (jV L)) (sm := SemLoc.dma cc1_scratch18.sem) (ι := (default : HIx 1)) (N := NO L) (out_deliver d L X Tb hX O0 (Memref.whole cc1_scratch2) (Memref.isWhole_whole _) (8 * k.val + 9) (by have := k.isLt; have : k1_t3_loop.trips = 15 := rfl; omega) (k1_off7 L k 1#32) (k1_off7_inb L k 1) (show (k1_off7 L k 1#32) = ![1024 * (L 1).val + 512 * (L 0).val + 4 * (8 * k.val + 9), 0] from (off7_eq L k 1)) fb1 hg1)) $$ Hofl
  -- wait for gather 2
  sl_exec
  iapply (Transfers.wp_waitLocalO countersEmb 𝒱₀ (V d (cV L) (jV L)) none (default : HIx 1) (rfl : (Memref.whole cc1_scratch3).view.dmaCredit = _)) $$ [Hfl2 HO]
  · isplitl [Hfl2]; · iexact Hfl2
    isplitl [HO]; · iexact HO
    iapply (Transfers.MayWaits.elim (SemLoc.dma cc1_scratch11.sem)) $$ Hmw
  iintro ⟨⟨⟨%fb2, Hb2, %hg2⟩, Htt2, Hlist2⟩, Hs11, HO⟩
  ihave Hl2 := (pointsTo_split_subset (q := (fullShare.left.left.right)) (f := idxF d L X) (S := Finset.univ) (Finset.subset_univ (oSl (k1_off6 k 2#32) (k1_off6_inb k 2)).view.set)).2 $$ [Hlist2 Hlrest2]
  · isplitl [Hlist2]; · iexact Hlist2
    iexact Hlrest2
  -- copy buffer 2 out to chunk 8 * k.val + 10
  sl_exec
  ihave Hsp := (oRem_take d L O0 (8 * k.val + 10) (by have := k.isLt; have : k1_t3_loop.trips = 15 := rfl; omega)) $$ Horem
  icases Hsp with ⟨Hoc, Horem⟩
  ihave Hoc := (Entails.of_eq (show (oLoc d ↦[oChunk L (8 * k.val + 10)]{fullShare} O0 : sProp 𝕄)
      = ((oSlc (k1_off7 L k 2#32) (k1_off7_inb L k 2)).view.loc (V d (cV L) (jV L)) ↦[(oSlc (k1_off7 L k 2#32) (k1_off7_inb L k 2)).view.set]{fullShare} O0) by rw [set_oSlc L (8 * k.val + 10) (k1_off7 L k 2#32) (k1_off7_inb L k 2) (show (k1_off7 L k 2#32) = ![1024 * (L 1).val + 512 * (L 0).val + 4 * (8 * k.val + 10), 0] from (off7_eq L k 2))])) $$ Hoc
  ihave Hsrc := (Entails.of_eq (show ((Memref.whole cc1_scratch3).view.loc (V d (cV L) (jV L)) ↦{fullShare} fb2 : sProp 𝕄)
      = ((rsh (Memref.whole cc1_scratch3) (Memref.isWhole_whole _)).view.loc (V d (cV L) (jV L)) ↦[(rsh (Memref.whole cc1_scratch3) (Memref.isWhole_whole _)).view.set]{fullShare} fb2) by
        rw [show (rsh (Memref.whole cc1_scratch3) (Memref.isWhole_whole _)).view.set = (Memref.whole cc1_scratch3).view.set from View.set_reshape _ _, View.set_whole])) $$ Hb2
  iapply (Transfers.wp_dmaLocal countersEmb 𝒱₀ (V d (cV L) (jV L)) none (default : HIx 1) (NO L) rfl (View.dmaCredit_pos _ (show 0 < S4x3328.numel by decide)) (Finset.Subset.refl _)) $$ [Hsrc Hoc Hs19]
  · isplitl [Hsrc]; · iexact Hsrc
    isplitl [Hoc]; · iexact Hoc
    iexact Hs19
  iintro Hofl
  ihave Hofl2 := (Transfers.Flight_mono countersEmb (V d (cV L) (jV L)) (sm := SemLoc.dma cc1_scratch19.sem) (ι := (default : HIx 1)) (N := NO L) (out_deliver d L X Tb hX O0 (Memref.whole cc1_scratch3) (Memref.isWhole_whole _) (8 * k.val + 10) (by have := k.isLt; have : k1_t3_loop.trips = 15 := rfl; omega) (k1_off7 L k 2#32) (k1_off7_inb L k 2) (show (k1_off7 L k 2#32) = ![1024 * (L 1).val + 512 * (L 0).val + 4 * (8 * k.val + 10), 0] from (off7_eq L k 2)) fb2 hg2)) $$ Hofl
  -- wait for gather 3
  sl_exec
  iapply (Transfers.wp_waitLocalO countersEmb 𝒱₀ (V d (cV L) (jV L)) none (default : HIx 1) (rfl : (Memref.whole cc1_scratch4).view.dmaCredit = _)) $$ [Hfl3 HO]
  · isplitl [Hfl3]; · iexact Hfl3
    isplitl [HO]; · iexact HO
    iapply (Transfers.MayWaits.elim (SemLoc.dma cc1_scratch12.sem)) $$ Hmw
  iintro ⟨⟨⟨%fb3, Hb3, %hg3⟩, Htt3, Hlist3⟩, Hs12, HO⟩
  ihave Hl3 := (pointsTo_split_subset (q := (fullShare.left.left.left.right)) (f := idxF d L X) (S := Finset.univ) (Finset.subset_univ (oSl (k1_off6 k 3#32) (k1_off6_inb k 3)).view.set)).2 $$ [Hlist3 Hlrest3]
  · isplitl [Hlist3]; · iexact Hlist3
    iexact Hlrest3
  -- copy buffer 3 out to chunk 8 * k.val + 11
  sl_exec
  ihave Hsp := (oRem_take d L O0 (8 * k.val + 11) (by have := k.isLt; have : k1_t3_loop.trips = 15 := rfl; omega)) $$ Horem
  icases Hsp with ⟨Hoc, Horem⟩
  ihave Hoc := (Entails.of_eq (show (oLoc d ↦[oChunk L (8 * k.val + 11)]{fullShare} O0 : sProp 𝕄)
      = ((oSlc (k1_off7 L k 3#32) (k1_off7_inb L k 3)).view.loc (V d (cV L) (jV L)) ↦[(oSlc (k1_off7 L k 3#32) (k1_off7_inb L k 3)).view.set]{fullShare} O0) by rw [set_oSlc L (8 * k.val + 11) (k1_off7 L k 3#32) (k1_off7_inb L k 3) (show (k1_off7 L k 3#32) = ![1024 * (L 1).val + 512 * (L 0).val + 4 * (8 * k.val + 11), 0] from (off7_eq L k 3))])) $$ Hoc
  ihave Hsrc := (Entails.of_eq (show ((Memref.whole cc1_scratch4).view.loc (V d (cV L) (jV L)) ↦{fullShare} fb3 : sProp 𝕄)
      = ((rsh (Memref.whole cc1_scratch4) (Memref.isWhole_whole _)).view.loc (V d (cV L) (jV L)) ↦[(rsh (Memref.whole cc1_scratch4) (Memref.isWhole_whole _)).view.set]{fullShare} fb3) by
        rw [show (rsh (Memref.whole cc1_scratch4) (Memref.isWhole_whole _)).view.set = (Memref.whole cc1_scratch4).view.set from View.set_reshape _ _, View.set_whole])) $$ Hb3
  iapply (Transfers.wp_dmaLocal countersEmb 𝒱₀ (V d (cV L) (jV L)) none (default : HIx 1) (NO L) rfl (View.dmaCredit_pos _ (show 0 < S4x3328.numel by decide)) (Finset.Subset.refl _)) $$ [Hsrc Hoc Hs20]
  · isplitl [Hsrc]; · iexact Hsrc
    isplitl [Hoc]; · iexact Hoc
    iexact Hs20
  iintro Hofl
  ihave Hofl3 := (Transfers.Flight_mono countersEmb (V d (cV L) (jV L)) (sm := SemLoc.dma cc1_scratch20.sem) (ι := (default : HIx 1)) (N := NO L) (out_deliver d L X Tb hX O0 (Memref.whole cc1_scratch4) (Memref.isWhole_whole _) (8 * k.val + 11) (by have := k.isLt; have : k1_t3_loop.trips = 15 := rfl; omega) (k1_off7 L k 3#32) (k1_off7_inb L k 3) (show (k1_off7 L k 3#32) = ![1024 * (L 1).val + 512 * (L 0).val + 4 * (8 * k.val + 11), 0] from (off7_eq L k 3)) fb3 hg3)) $$ Hofl
  -- wait for gather 4
  sl_exec
  iapply (Transfers.wp_waitLocalO countersEmb 𝒱₀ (V d (cV L) (jV L)) none (default : HIx 1) (rfl : (Memref.whole cc1_scratch5).view.dmaCredit = _)) $$ [Hfl4 HO]
  · isplitl [Hfl4]; · iexact Hfl4
    isplitl [HO]; · iexact HO
    iapply (Transfers.MayWaits.elim (SemLoc.dma cc1_scratch13.sem)) $$ Hmw
  iintro ⟨⟨⟨%fb4, Hb4, %hg4⟩, Htt4, Hlist4⟩, Hs13, HO⟩
  ihave Hl4 := (pointsTo_split_subset (q := (fullShare.left.left.left.left.right)) (f := idxF d L X) (S := Finset.univ) (Finset.subset_univ (oSl (k1_off6 k 4#32) (k1_off6_inb k 4)).view.set)).2 $$ [Hlist4 Hlrest4]
  · isplitl [Hlist4]; · iexact Hlist4
    iexact Hlrest4
  -- copy buffer 4 out to chunk 8 * k.val + 12
  sl_exec
  ihave Hsp := (oRem_take d L O0 (8 * k.val + 12) (by have := k.isLt; have : k1_t3_loop.trips = 15 := rfl; omega)) $$ Horem
  icases Hsp with ⟨Hoc, Horem⟩
  ihave Hoc := (Entails.of_eq (show (oLoc d ↦[oChunk L (8 * k.val + 12)]{fullShare} O0 : sProp 𝕄)
      = ((oSlc (k1_off7 L k 4#32) (k1_off7_inb L k 4)).view.loc (V d (cV L) (jV L)) ↦[(oSlc (k1_off7 L k 4#32) (k1_off7_inb L k 4)).view.set]{fullShare} O0) by rw [set_oSlc L (8 * k.val + 12) (k1_off7 L k 4#32) (k1_off7_inb L k 4) (show (k1_off7 L k 4#32) = ![1024 * (L 1).val + 512 * (L 0).val + 4 * (8 * k.val + 12), 0] from (off7_eq L k 4))])) $$ Hoc
  ihave Hsrc := (Entails.of_eq (show ((Memref.whole cc1_scratch5).view.loc (V d (cV L) (jV L)) ↦{fullShare} fb4 : sProp 𝕄)
      = ((rsh (Memref.whole cc1_scratch5) (Memref.isWhole_whole _)).view.loc (V d (cV L) (jV L)) ↦[(rsh (Memref.whole cc1_scratch5) (Memref.isWhole_whole _)).view.set]{fullShare} fb4) by
        rw [show (rsh (Memref.whole cc1_scratch5) (Memref.isWhole_whole _)).view.set = (Memref.whole cc1_scratch5).view.set from View.set_reshape _ _, View.set_whole])) $$ Hb4
  iapply (Transfers.wp_dmaLocal countersEmb 𝒱₀ (V d (cV L) (jV L)) none (default : HIx 1) (NO L) rfl (View.dmaCredit_pos _ (show 0 < S4x3328.numel by decide)) (Finset.Subset.refl _)) $$ [Hsrc Hoc Hs21]
  · isplitl [Hsrc]; · iexact Hsrc
    isplitl [Hoc]; · iexact Hoc
    iexact Hs21
  iintro Hofl
  ihave Hofl4 := (Transfers.Flight_mono countersEmb (V d (cV L) (jV L)) (sm := SemLoc.dma cc1_scratch21.sem) (ι := (default : HIx 1)) (N := NO L) (out_deliver d L X Tb hX O0 (Memref.whole cc1_scratch5) (Memref.isWhole_whole _) (8 * k.val + 12) (by have := k.isLt; have : k1_t3_loop.trips = 15 := rfl; omega) (k1_off7 L k 4#32) (k1_off7_inb L k 4) (show (k1_off7 L k 4#32) = ![1024 * (L 1).val + 512 * (L 0).val + 4 * (8 * k.val + 12), 0] from (off7_eq L k 4)) fb4 hg4)) $$ Hofl
  -- wait for gather 5
  sl_exec
  iapply (Transfers.wp_waitLocalO countersEmb 𝒱₀ (V d (cV L) (jV L)) none (default : HIx 1) (rfl : (Memref.whole cc1_scratch6).view.dmaCredit = _)) $$ [Hfl5 HO]
  · isplitl [Hfl5]; · iexact Hfl5
    isplitl [HO]; · iexact HO
    iapply (Transfers.MayWaits.elim (SemLoc.dma cc1_scratch14.sem)) $$ Hmw
  iintro ⟨⟨⟨%fb5, Hb5, %hg5⟩, Htt5, Hlist5⟩, Hs14, HO⟩
  ihave Hl5 := (pointsTo_split_subset (q := (fullShare.left.left.left.left.left.right)) (f := idxF d L X) (S := Finset.univ) (Finset.subset_univ (oSl (k1_off6 k 5#32) (k1_off6_inb k 5)).view.set)).2 $$ [Hlist5 Hlrest5]
  · isplitl [Hlist5]; · iexact Hlist5
    iexact Hlrest5
  -- copy buffer 5 out to chunk 8 * k.val + 13
  sl_exec
  ihave Hsp := (oRem_take d L O0 (8 * k.val + 13) (by have := k.isLt; have : k1_t3_loop.trips = 15 := rfl; omega)) $$ Horem
  icases Hsp with ⟨Hoc, Horem⟩
  ihave Hoc := (Entails.of_eq (show (oLoc d ↦[oChunk L (8 * k.val + 13)]{fullShare} O0 : sProp 𝕄)
      = ((oSlc (k1_off7 L k 5#32) (k1_off7_inb L k 5)).view.loc (V d (cV L) (jV L)) ↦[(oSlc (k1_off7 L k 5#32) (k1_off7_inb L k 5)).view.set]{fullShare} O0) by rw [set_oSlc L (8 * k.val + 13) (k1_off7 L k 5#32) (k1_off7_inb L k 5) (show (k1_off7 L k 5#32) = ![1024 * (L 1).val + 512 * (L 0).val + 4 * (8 * k.val + 13), 0] from (off7_eq L k 5))])) $$ Hoc
  ihave Hsrc := (Entails.of_eq (show ((Memref.whole cc1_scratch6).view.loc (V d (cV L) (jV L)) ↦{fullShare} fb5 : sProp 𝕄)
      = ((rsh (Memref.whole cc1_scratch6) (Memref.isWhole_whole _)).view.loc (V d (cV L) (jV L)) ↦[(rsh (Memref.whole cc1_scratch6) (Memref.isWhole_whole _)).view.set]{fullShare} fb5) by
        rw [show (rsh (Memref.whole cc1_scratch6) (Memref.isWhole_whole _)).view.set = (Memref.whole cc1_scratch6).view.set from View.set_reshape _ _, View.set_whole])) $$ Hb5
  iapply (Transfers.wp_dmaLocal countersEmb 𝒱₀ (V d (cV L) (jV L)) none (default : HIx 1) (NO L) rfl (View.dmaCredit_pos _ (show 0 < S4x3328.numel by decide)) (Finset.Subset.refl _)) $$ [Hsrc Hoc Hs22]
  · isplitl [Hsrc]; · iexact Hsrc
    isplitl [Hoc]; · iexact Hoc
    iexact Hs22
  iintro Hofl
  ihave Hofl5 := (Transfers.Flight_mono countersEmb (V d (cV L) (jV L)) (sm := SemLoc.dma cc1_scratch22.sem) (ι := (default : HIx 1)) (N := NO L) (out_deliver d L X Tb hX O0 (Memref.whole cc1_scratch6) (Memref.isWhole_whole _) (8 * k.val + 13) (by have := k.isLt; have : k1_t3_loop.trips = 15 := rfl; omega) (k1_off7 L k 5#32) (k1_off7_inb L k 5) (show (k1_off7 L k 5#32) = ![1024 * (L 1).val + 512 * (L 0).val + 4 * (8 * k.val + 13), 0] from (off7_eq L k 5)) fb5 hg5)) $$ Hofl
  -- wait for gather 6
  sl_exec
  iapply (Transfers.wp_waitLocalO countersEmb 𝒱₀ (V d (cV L) (jV L)) none (default : HIx 1) (rfl : (Memref.whole cc1_scratch7).view.dmaCredit = _)) $$ [Hfl6 HO]
  · isplitl [Hfl6]; · iexact Hfl6
    isplitl [HO]; · iexact HO
    iapply (Transfers.MayWaits.elim (SemLoc.dma cc1_scratch15.sem)) $$ Hmw
  iintro ⟨⟨⟨%fb6, Hb6, %hg6⟩, Htt6, Hlist6⟩, Hs15, HO⟩
  ihave Hl6 := (pointsTo_split_subset (q := (fullShare.left.left.left.left.left.left.right)) (f := idxF d L X) (S := Finset.univ) (Finset.subset_univ (oSl (k1_off6 k 6#32) (k1_off6_inb k 6)).view.set)).2 $$ [Hlist6 Hlrest6]
  · isplitl [Hlist6]; · iexact Hlist6
    iexact Hlrest6
  -- copy buffer 6 out to chunk 8 * k.val + 14
  sl_exec
  ihave Hsp := (oRem_take d L O0 (8 * k.val + 14) (by have := k.isLt; have : k1_t3_loop.trips = 15 := rfl; omega)) $$ Horem
  icases Hsp with ⟨Hoc, Horem⟩
  ihave Hoc := (Entails.of_eq (show (oLoc d ↦[oChunk L (8 * k.val + 14)]{fullShare} O0 : sProp 𝕄)
      = ((oSlc (k1_off7 L k 6#32) (k1_off7_inb L k 6)).view.loc (V d (cV L) (jV L)) ↦[(oSlc (k1_off7 L k 6#32) (k1_off7_inb L k 6)).view.set]{fullShare} O0) by rw [set_oSlc L (8 * k.val + 14) (k1_off7 L k 6#32) (k1_off7_inb L k 6) (show (k1_off7 L k 6#32) = ![1024 * (L 1).val + 512 * (L 0).val + 4 * (8 * k.val + 14), 0] from (off7_eq L k 6))])) $$ Hoc
  ihave Hsrc := (Entails.of_eq (show ((Memref.whole cc1_scratch7).view.loc (V d (cV L) (jV L)) ↦{fullShare} fb6 : sProp 𝕄)
      = ((rsh (Memref.whole cc1_scratch7) (Memref.isWhole_whole _)).view.loc (V d (cV L) (jV L)) ↦[(rsh (Memref.whole cc1_scratch7) (Memref.isWhole_whole _)).view.set]{fullShare} fb6) by
        rw [show (rsh (Memref.whole cc1_scratch7) (Memref.isWhole_whole _)).view.set = (Memref.whole cc1_scratch7).view.set from View.set_reshape _ _, View.set_whole])) $$ Hb6
  iapply (Transfers.wp_dmaLocal countersEmb 𝒱₀ (V d (cV L) (jV L)) none (default : HIx 1) (NO L) rfl (View.dmaCredit_pos _ (show 0 < S4x3328.numel by decide)) (Finset.Subset.refl _)) $$ [Hsrc Hoc Hs23]
  · isplitl [Hsrc]; · iexact Hsrc
    isplitl [Hoc]; · iexact Hoc
    iexact Hs23
  iintro Hofl
  ihave Hofl6 := (Transfers.Flight_mono countersEmb (V d (cV L) (jV L)) (sm := SemLoc.dma cc1_scratch23.sem) (ι := (default : HIx 1)) (N := NO L) (out_deliver d L X Tb hX O0 (Memref.whole cc1_scratch7) (Memref.isWhole_whole _) (8 * k.val + 14) (by have := k.isLt; have : k1_t3_loop.trips = 15 := rfl; omega) (k1_off7 L k 6#32) (k1_off7_inb L k 6) (show (k1_off7 L k 6#32) = ![1024 * (L 1).val + 512 * (L 0).val + 4 * (8 * k.val + 14), 0] from (off7_eq L k 6)) fb6 hg6)) $$ Hofl
  -- wait for gather 7
  sl_exec
  iapply (Transfers.wp_waitLocalO countersEmb 𝒱₀ (V d (cV L) (jV L)) none (default : HIx 1) (rfl : (Memref.whole cc1_scratch8).view.dmaCredit = _)) $$ [Hfl7 HO]
  · isplitl [Hfl7]; · iexact Hfl7
    isplitl [HO]; · iexact HO
    iapply (Transfers.MayWaits.elim (SemLoc.dma cc1_scratch16.sem)) $$ Hmw
  iintro ⟨⟨⟨%fb7, Hb7, %hg7⟩, Htt7, Hlist7⟩, Hs16, HO⟩
  ihave Hl7 := (pointsTo_split_subset (q := (fullShare.left.left.left.left.left.left.left.right)) (f := idxF d L X) (S := Finset.univ) (Finset.subset_univ (oSl (k1_off6 k 7#32) (k1_off6_inb k 7)).view.set)).2 $$ [Hlist7 Hlrest7]
  · isplitl [Hlist7]; · iexact Hlist7
    iexact Hlrest7
  -- copy buffer 7 out to chunk 8 * k.val + 15
  sl_exec
  ihave Hsp := (oRem_take d L O0 (8 * k.val + 15) (by have := k.isLt; have : k1_t3_loop.trips = 15 := rfl; omega)) $$ Horem
  icases Hsp with ⟨Hoc, Horem⟩
  ihave Hoc := (Entails.of_eq (show (oLoc d ↦[oChunk L (8 * k.val + 15)]{fullShare} O0 : sProp 𝕄)
      = ((oSlc (k1_off7 L k 7#32) (k1_off7_inb L k 7)).view.loc (V d (cV L) (jV L)) ↦[(oSlc (k1_off7 L k 7#32) (k1_off7_inb L k 7)).view.set]{fullShare} O0) by rw [set_oSlc L (8 * k.val + 15) (k1_off7 L k 7#32) (k1_off7_inb L k 7) (show (k1_off7 L k 7#32) = ![1024 * (L 1).val + 512 * (L 0).val + 4 * (8 * k.val + 15), 0] from (off7_eq L k 7))])) $$ Hoc
  ihave Hsrc := (Entails.of_eq (show ((Memref.whole cc1_scratch8).view.loc (V d (cV L) (jV L)) ↦{fullShare} fb7 : sProp 𝕄)
      = ((rsh (Memref.whole cc1_scratch8) (Memref.isWhole_whole _)).view.loc (V d (cV L) (jV L)) ↦[(rsh (Memref.whole cc1_scratch8) (Memref.isWhole_whole _)).view.set]{fullShare} fb7) by
        rw [show (rsh (Memref.whole cc1_scratch8) (Memref.isWhole_whole _)).view.set = (Memref.whole cc1_scratch8).view.set from View.set_reshape _ _, View.set_whole])) $$ Hb7
  iapply (Transfers.wp_dmaLocal countersEmb 𝒱₀ (V d (cV L) (jV L)) none (default : HIx 1) (NO L) rfl (View.dmaCredit_pos _ (show 0 < S4x3328.numel by decide)) (Finset.Subset.refl _)) $$ [Hsrc Hoc Hs24]
  · isplitl [Hsrc]; · iexact Hsrc
    isplitl [Hoc]; · iexact Hoc
    iexact Hs24
  iintro Hofl
  ihave Hofl7 := (Transfers.Flight_mono countersEmb (V d (cV L) (jV L)) (sm := SemLoc.dma cc1_scratch24.sem) (ι := (default : HIx 1)) (N := NO L) (out_deliver d L X Tb hX O0 (Memref.whole cc1_scratch8) (Memref.isWhole_whole _) (8 * k.val + 15) (by have := k.isLt; have : k1_t3_loop.trips = 15 := rfl; omega) (k1_off7 L k 7#32) (k1_off7_inb L k 7) (show (k1_off7 L k 7#32) = ![1024 * (L 1).val + 512 * (L 0).val + 4 * (8 * k.val + 15), 0] from (off7_eq L k 7)) fb7 hg7)) $$ Hofl
  sl_exec
  sl_step
  ihave Hodone := (Entails.of_eq (congrArg (fun n : ℕ => ((oLoc d ↦[oDone L n]{fullShare} (gatherOut (F := F) X Tb : Buf (Elt F) (oLoc d))) : sProp 𝕄)) (show 8 * k.val + 7 + 1 = 8 * (k.val + 1) by omega))) $$ Hodone
  ihave Horem := (Entails.of_eq (congrArg (fun n : ℕ => ((oLoc d ↦[oRem L n]{fullShare} O0) : sProp 𝕄)) (show 8 * k.val + (8 + 7) + 1 = 8 * (k.val + 1) + 8 by omega))) $$ Horem
  ihave Hofl0 := (Entails.of_eq (congrArg (fun n : ℕ => (OFl d L X Tb (Memref.whole cc1_scratch1) cc1_scratch17 n : sProp 𝕄)) (show 8 * k.val + (8 + 0) = 8 * (k.val + 1) + 0 by omega))) $$ Hofl0
  ihave Hofl1 := (Entails.of_eq (congrArg (fun n : ℕ => (OFl d L X Tb (Memref.whole cc1_scratch2) cc1_scratch18 n : sProp 𝕄)) (show 8 * k.val + (8 + 1) = 8 * (k.val + 1) + 1 by omega))) $$ Hofl1
  ihave Hofl2 := (Entails.of_eq (congrArg (fun n : ℕ => (OFl d L X Tb (Memref.whole cc1_scratch3) cc1_scratch19 n : sProp 𝕄)) (show 8 * k.val + (8 + 2) = 8 * (k.val + 1) + 2 by omega))) $$ Hofl2
  ihave Hofl3 := (Entails.of_eq (congrArg (fun n : ℕ => (OFl d L X Tb (Memref.whole cc1_scratch4) cc1_scratch20 n : sProp 𝕄)) (show 8 * k.val + (8 + 3) = 8 * (k.val + 1) + 3 by omega))) $$ Hofl3
  ihave Hofl4 := (Entails.of_eq (congrArg (fun n : ℕ => (OFl d L X Tb (Memref.whole cc1_scratch5) cc1_scratch21 n : sProp 𝕄)) (show 8 * k.val + (8 + 4) = 8 * (k.val + 1) + 4 by omega))) $$ Hofl4
  ihave Hofl5 := (Entails.of_eq (congrArg (fun n : ℕ => (OFl d L X Tb (Memref.whole cc1_scratch6) cc1_scratch22 n : sProp 𝕄)) (show 8 * k.val + (8 + 5) = 8 * (k.val + 1) + 5 by omega))) $$ Hofl5
  ihave Hofl6 := (Entails.of_eq (congrArg (fun n : ℕ => (OFl d L X Tb (Memref.whole cc1_scratch7) cc1_scratch23 n : sProp 𝕄)) (show 8 * k.val + (8 + 6) = 8 * (k.val + 1) + 6 by omega))) $$ Hofl6
  ihave Hofl7 := (Entails.of_eq (congrArg (fun n : ℕ => (OFl d L X Tb (Memref.whole cc1_scratch8) cc1_scratch24 n : sProp 𝕄)) (show 8 * k.val + (8 + 7) = 8 * (k.val + 1) + 7 by omega))) $$ Hofl7
  isplitr; · iexact Hmw
  isplitl [HO]
  · iexists _
    isplitr
    swap
    · iexact HO
    ipureintro; repeat (first | exact hW' | apply waits_ok)
  isplitl [Hodone]
  · iexact Hodone
  isplitl [Horem]
  · iexact Horem
  isplitl [Hofl0]
  · iexact Hofl0
  isplitl [Hofl1]
  · iexact Hofl1
  isplitl [Hofl2]
  · iexact Hofl2
  isplitl [Hofl3]
  · iexact Hofl3
  isplitl [Hofl4]
  · iexact Hofl4
  isplitl [Hofl5]
  · iexact Hofl5
  isplitl [Hofl6]
  · iexact Hofl6
  isplitl [Hofl7]
  · iexact Hofl7
  isplitl [Htt0]
  · iexact Htt0
  isplitl [Htt1]
  · iexact Htt1
  isplitl [Htt2]
  · iexact Htt2
  isplitl [Htt3]
  · iexact Htt3
  isplitl [Htt4]
  · iexact Htt4
  isplitl [Htt5]
  · iexact Htt5
  isplitl [Htt6]
  · iexact Htt6
  isplitl [Htt7]
  · iexact Htt7
  isplitl [Hl0]
  · iexact Hl0
  isplitl [Hl1]
  · iexact Hl1
  isplitl [Hl2]
  · iexact Hl2
  isplitl [Hl3]
  · iexact Hl3
  isplitl [Hl4]
  · iexact Hl4
  isplitl [Hl5]
  · iexact Hl5
  isplitl [Hl6]
  · iexact Hl6
  isplitl [Hl7]
  · iexact Hl7
  isplitl [Hs9]
  · iexact Hs9
  isplitl [Hs10]
  · iexact Hs10
  isplitl [Hs11]
  · iexact Hs11
  isplitl [Hs12]
  · iexact Hs12
  isplitl [Hs13]
  · iexact Hs13
  isplitl [Hs14]
  · iexact Hs14
  isplitl [Hs15]
  · iexact Hs15
  iexact Hs16

end Tile
end Cert.Proof.KB
end
-- ==== Proof.TileB5.lean ====
import proofs.«207321_g10943576670982_fold_wed_m_632_36_alg».proof.Proof.TileB4

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
variable {U : Type} [URA U]

local notation "𝕄" => MT nD τ sig (HIx 1) (Elt F) ℕ U ℕ

variable [CountersIn U] [FloatOps F]

section Tile
variable (d : Dev nD) (L : grid1.Coords)

theorem oDone_zero (L : grid1.Coords) : oDone L (8 * 0) = ∅ := by
  ext j; simp only [oDone, Finset.mem_filter, Finset.mem_univ, true_and, Finset.notMem_empty, iff_false]; omega

/-- Before the ring's first trip no chunk is finished. -/
theorem oDone_init (G : Buf (Elt F) (oLoc d)) : (emp : sProp 𝕄) ⊢ (oLoc d ↦[oDone L (8 * 0)]{fullShare} G) := by
  rw [oDone_zero, pointsTo_empty]

set_option maxHeartbeats 8000000 in
theorem part9_spec (X : Buf (Elt F) (xLoc d)) (Tb : Buf (Elt F) (tLoc d)) (O0 : Buf (Elt F) (oLoc d)) (hX : ∀ j, (X j : BitVec 32).toNat < 128)
    (O : CellTallies nD τ sig (HIx 1)) (W : Waits sig (HIx 1)) (v3 : BitVec 32) (Φ : PUnit → sProp 𝕄) :
    iprop((Transfers.MayWaits (V d (cV L) (jV L)) (default : HIx 1) O
        ∗ (∃ W', ⌜∀ p ∈ W', p ∈ W ∨ p.2 = none⌝ ∗ owes (V d (cV L) (jV L)) O W')
        ∗ (oLoc d ↦[oRem L 6]{fullShare} O0)
        ∗ (∃ f, ((Memref.whole cc1_scratch7).view.loc (V d (cV L) (jV L)) ↦{fullShare} f) ∗ ⌜goodBuf d L X Tb 6 ((Memref.whole cc1_scratch7).view.read (Elt F) f)⌝)
        ∗ semVal (cellOf d L cc1_scratch23) 0
        ∗ semVal (cellOf d L cc1_scratch24) 0
        ∗ GFl d L X Tb (Memref.whole cc1_scratch8) cc1_scratch16 7 ((tileShare L).left.left.left.left.left.left.left.right) ((oSl ![728] inb_S13312_S104_728).view.set) (fullShare.left.left.left.left.left.left.left.right)
        ∗ OFl d L X Tb (Memref.whole cc1_scratch1) cc1_scratch17 0
        ∗ OFl d L X Tb (Memref.whole cc1_scratch2) cc1_scratch18 1
        ∗ OFl d L X Tb (Memref.whole cc1_scratch3) cc1_scratch19 2
        ∗ OFl d L X Tb (Memref.whole cc1_scratch4) cc1_scratch20 3
        ∗ OFl d L X Tb (Memref.whole cc1_scratch5) cc1_scratch21 4
        ∗ OFl d L X Tb (Memref.whole cc1_scratch6) cc1_scratch22 5
        ∗ ((V d (cV L) (jV L)).loc cc1_scratch0 ↦[hiSet]{fullShare} idxF d L X)
        ∗ ((V d (cV L) (jV L)).loc cc1_scratch0 ↦[loSet]{(fullShare.left.left.left.left.left.left.left.left)} idxF d L X)
        ∗ ((V d (cV L) (jV L)).loc cc1_scratch0 ↦[loSet \ (oSl ![0] inb_S13312_S104_0).view.set]{(fullShare.right)} idxF d L X)
        ∗ ((V d (cV L) (jV L)).loc cc1_scratch0 ↦[loSet \ (oSl ![104] inb_S13312_S104_104).view.set]{(fullShare.left.right)} idxF d L X)
        ∗ ((V d (cV L) (jV L)).loc cc1_scratch0 ↦[loSet \ (oSl ![208] inb_S13312_S104_208).view.set]{(fullShare.left.left.right)} idxF d L X)
        ∗ ((V d (cV L) (jV L)).loc cc1_scratch0 ↦[loSet \ (oSl ![312] inb_S13312_S104_312).view.set]{(fullShare.left.left.left.right)} idxF d L X)
        ∗ ((V d (cV L) (jV L)).loc cc1_scratch0 ↦[loSet \ (oSl ![416] inb_S13312_S104_416).view.set]{(fullShare.left.left.left.left.right)} idxF d L X)
        ∗ ((V d (cV L) (jV L)).loc cc1_scratch0 ↦[loSet \ (oSl ![520] inb_S13312_S104_520).view.set]{(fullShare.left.left.left.left.left.right)} idxF d L X)
        ∗ ((V d (cV L) (jV L)).loc cc1_scratch0 ↦[loSet \ (oSl ![624] inb_S13312_S104_624).view.set]{(fullShare.left.left.left.left.left.left.right)} idxF d L X)
        ∗ ((V d (cV L) (jV L)).loc cc1_scratch0 ↦[loSet \ (oSl ![728] inb_S13312_S104_728).view.set]{(fullShare.left.left.left.left.left.left.left.right)} idxF d L X)
        ∗ ((V d (cV L) (jV L)).loc cc1_scratch0 ↦[(oSl ![0] inb_S13312_S104_0).view.set]{(fullShare.right)} idxF d L X)
        ∗ ((V d (cV L) (jV L)).loc cc1_scratch0 ↦[(oSl ![104] inb_S13312_S104_104).view.set]{(fullShare.left.right)} idxF d L X)
        ∗ ((V d (cV L) (jV L)).loc cc1_scratch0 ↦[(oSl ![208] inb_S13312_S104_208).view.set]{(fullShare.left.left.right)} idxF d L X)
        ∗ ((V d (cV L) (jV L)).loc cc1_scratch0 ↦[(oSl ![312] inb_S13312_S104_312).view.set]{(fullShare.left.left.left.right)} idxF d L X)
        ∗ ((V d (cV L) (jV L)).loc cc1_scratch0 ↦[(oSl ![416] inb_S13312_S104_416).view.set]{(fullShare.left.left.left.left.right)} idxF d L X)
        ∗ ((V d (cV L) (jV L)).loc cc1_scratch0 ↦[(oSl ![520] inb_S13312_S104_520).view.set]{(fullShare.left.left.left.left.left.right)} idxF d L X)
        ∗ ((V d (cV L) (jV L)).loc cc1_scratch0 ↦[(oSl ![624] inb_S13312_S104_624).view.set]{(fullShare.left.left.left.left.left.left.right)} idxF d L X)
        ∗ ((tSl).view.loc (V d (cV L) (jV L)) ↦[(tSl).view.set]{((tileShare L).right)} Tb)
        ∗ ((tSl).view.loc (V d (cV L) (jV L)) ↦[(tSl).view.set]{((tileShare L).left.right)} Tb)
        ∗ ((tSl).view.loc (V d (cV L) (jV L)) ↦[(tSl).view.set]{((tileShare L).left.left.right)} Tb)
        ∗ ((tSl).view.loc (V d (cV L) (jV L)) ↦[(tSl).view.set]{((tileShare L).left.left.left.right)} Tb)
        ∗ ((tSl).view.loc (V d (cV L) (jV L)) ↦[(tSl).view.set]{((tileShare L).left.left.left.left.right)} Tb)
        ∗ ((tSl).view.loc (V d (cV L) (jV L)) ↦[(tSl).view.set]{((tileShare L).left.left.left.left.left.right)} Tb)
        ∗ ((tSl).view.loc (V d (cV L) (jV L)) ↦[(tSl).view.set]{((tileShare L).left.left.left.left.left.left.right)} Tb)
        ∗ semVal (cellOf d L cc1_scratch9) 0
        ∗ semVal (cellOf d L cc1_scratch10) 0
        ∗ semVal (cellOf d L cc1_scratch11) 0
        ∗ semVal (cellOf d L cc1_scratch12) 0
        ∗ semVal (cellOf d L cc1_scratch13) 0
        ∗ semVal (cellOf d L cc1_scratch14) 0
        ∗ semVal (cellOf d L cc1_scratch15) 0
        ∗ (oLoc d ↦[oDone L (8 * 0)]{fullShare} (gatherOut (F := F) X Tb : Buf (Elt F) (oLoc d))))
        ∗ (((∃ W', ⌜∀ p ∈ W', p ∈ W ∨ p.2 = none⌝ ∗ owes (V d (cV L) (jV L)) O W')
        ∗ (oLoc d ↦[oDone L 125]{fullShare} (gatherOut (F := F) X Tb : Buf (Elt F) (oLoc d)))
        ∗ (oLoc d ↦[oRem L 128]{fullShare} O0)
        ∗ OFl d L X Tb (Memref.whole cc1_scratch6) cc1_scratch22 125
        ∗ OFl d L X Tb (Memref.whole cc1_scratch7) cc1_scratch23 126
        ∗ OFl d L X Tb (Memref.whole cc1_scratch8) cc1_scratch24 127
        ∗ (∃ f, (Memref.whole cc1_scratch1).view.loc (V d (cV L) (jV L)) ↦{fullShare} f)
        ∗ (∃ f, (Memref.whole cc1_scratch2).view.loc (V d (cV L) (jV L)) ↦{fullShare} f)
        ∗ (∃ f, (Memref.whole cc1_scratch3).view.loc (V d (cV L) (jV L)) ↦{fullShare} f)
        ∗ (∃ f, (Memref.whole cc1_scratch4).view.loc (V d (cV L) (jV L)) ↦{fullShare} f)
        ∗ (∃ f, (Memref.whole cc1_scratch5).view.loc (V d (cV L) (jV L)) ↦{fullShare} f)
        ∗ semVal (cellOf d L cc1_scratch17) 0
        ∗ semVal (cellOf d L cc1_scratch18) 0
        ∗ semVal (cellOf d L cc1_scratch19) 0
        ∗ semVal (cellOf d L cc1_scratch20) 0
        ∗ semVal (cellOf d L cc1_scratch21) 0
        ∗ ((tSl).view.loc (V d (cV L) (jV L)) ↦[(tSl).view.set]{((tileShare L).right)} Tb)
        ∗ ((tSl).view.loc (V d (cV L) (jV L)) ↦[(tSl).view.set]{((tileShare L).left.right)} Tb)
        ∗ ((tSl).view.loc (V d (cV L) (jV L)) ↦[(tSl).view.set]{((tileShare L).left.left.right)} Tb)
        ∗ ((tSl).view.loc (V d (cV L) (jV L)) ↦[(tSl).view.set]{((tileShare L).left.left.left.right)} Tb)
        ∗ ((tSl).view.loc (V d (cV L) (jV L)) ↦[(tSl).view.set]{((tileShare L).left.left.left.left.right)} Tb)
        ∗ ((tSl).view.loc (V d (cV L) (jV L)) ↦[(tSl).view.set]{((tileShare L).left.left.left.left.left.right)} Tb)
        ∗ ((tSl).view.loc (V d (cV L) (jV L)) ↦[(tSl).view.set]{((tileShare L).left.left.left.left.left.left.right)} Tb)
        ∗ ((tSl).view.loc (V d (cV L) (jV L)) ↦[(tSl).view.set]{((tileShare L).left.left.left.left.left.left.left.right)} Tb)
        ∗ ((V d (cV L) (jV L)).loc cc1_scratch0 ↦[Finset.univ]{(fullShare.right)} idxF d L X)
        ∗ ((V d (cV L) (jV L)).loc cc1_scratch0 ↦[Finset.univ]{(fullShare.left.right)} idxF d L X)
        ∗ ((V d (cV L) (jV L)).loc cc1_scratch0 ↦[Finset.univ]{(fullShare.left.left.right)} idxF d L X)
        ∗ ((V d (cV L) (jV L)).loc cc1_scratch0 ↦[Finset.univ]{(fullShare.left.left.left.right)} idxF d L X)
        ∗ ((V d (cV L) (jV L)).loc cc1_scratch0 ↦[Finset.univ]{(fullShare.left.left.left.left.right)} idxF d L X)
        ∗ ((V d (cV L) (jV L)).loc cc1_scratch0 ↦[Finset.univ]{(fullShare.left.left.left.left.left.right)} idxF d L X)
        ∗ ((V d (cV L) (jV L)).loc cc1_scratch0 ↦[Finset.univ]{(fullShare.left.left.left.left.left.left.right)} idxF d L X)
        ∗ ((V d (cV L) (jV L)).loc cc1_scratch0 ↦[Finset.univ]{(fullShare.left.left.left.left.left.left.left.right)} idxF d L X)
        ∗ ((V d (cV L) (jV L)).loc cc1_scratch0 ↦{(fullShare.left.left.left.left.left.left.left.left)} idxF d L X)
        ∗ semVal (cellOf d L cc1_scratch9) 0
        ∗ semVal (cellOf d L cc1_scratch10) 0
        ∗ semVal (cellOf d L cc1_scratch11) 0
        ∗ semVal (cellOf d L cc1_scratch12) 0
        ∗ semVal (cellOf d L cc1_scratch13) 0
        ∗ semVal (cellOf d L cc1_scratch14) 0
        ∗ semVal (cellOf d L cc1_scratch15) 0
        ∗ semVal (cellOf d L cc1_scratch16) 0) -∗ Φ ⟨⟩))
      ⊢ wp frame (wpE (defs₀ (F := F)) 𝒱₀ (V d (cV L) (jV L)) none) Set.univ (k1_part9 L (Memref.whole main_v1_scv) (Memref.isWhole_whole _) (Memref.whole main_v0_scv) (Memref.isWhole_whole _) (Memref.whole main_v2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) cc1_scratch9 cc1_scratch10 cc1_scratch11 cc1_scratch12 cc1_scratch13 cc1_scratch14 cc1_scratch15 cc1_scratch16 cc1_scratch17 cc1_scratch18 cc1_scratch19 cc1_scratch20 cc1_scratch21 cc1_scratch22 cc1_scratch23 cc1_scratch24 cc1_scoped0 v3) Φ := by
  have hN : ∀ (B : Memref sig .scVector .vmem S104x128 .f32) (a' : Fin S104x128.rank),
      ∑ j, (B.slice (S104x128.rowRect a' j) (S104x128.stride_rowRect a' j)).view.dmaCredit = B.view.dmaCredit :=
    fun B a' => SparseCore.sum_rowCredit_eq_dmaCredit B a' (fun _ => rfl)
  rw [k1_part9_eq_skeleton]; unfold k1_part9_skel
  iintro ⟨⟨#Hmw, ⟨%W', %hW', HO⟩, Horem, ⟨%fb6, Hb6, %hg6⟩, Hs23, Hs24, Hfl7, Hofl0, Hofl1, Hofl2, Hofl3, Hofl4, Hofl5, Hhi, Hlr7, Hlrest0, Hlrest1, Hlrest2, Hlrest3, Hlrest4, Hlrest5, Hlrest6, Hlrest7, Hlist0, Hlist1, Hlist2, Hlist3, Hlist4, Hlist5, Hlist6, Htt0, Htt1, Htt2, Htt3, Htt4, Htt5, Htt6, Hs9, Hs10, Hs11, Hs12, Hs13, Hs14, Hs15, Hodone⟩, HΦ⟩
  -- copy buffer 6 out to chunk 6
  sl_exec
  ihave Hsp := (oRem_take d L O0 (6) (by decide)) $$ Horem
  icases Hsp with ⟨Hoc, Horem⟩
  ihave Hoc := (Entails.of_eq (show (oLoc d ↦[oChunk L (6)]{fullShare} O0 : sProp 𝕄)
      = ((oSlc (k1_off4 L 24#32) (k1_off4_inb L 6)).view.loc (V d (cV L) (jV L)) ↦[(oSlc (k1_off4 L 24#32) (k1_off4_inb L 6)).view.set]{fullShare} O0) by rw [set_oSlc L (6) (k1_off4 L 24#32) (k1_off4_inb L 6) (show (k1_off4 L 24#32) = ![1024 * (L 1).val + 512 * (L 0).val + 4 * (6), 0] from (k1_off4_eq L 6))])) $$ Hoc
  ihave Hsrc := (Entails.of_eq (show ((Memref.whole cc1_scratch7).view.loc (V d (cV L) (jV L)) ↦{fullShare} fb6 : sProp 𝕄)
      = ((rsh (Memref.whole cc1_scratch7) (Memref.isWhole_whole _)).view.loc (V d (cV L) (jV L)) ↦[(rsh (Memref.whole cc1_scratch7) (Memref.isWhole_whole _)).view.set]{fullShare} fb6) by
        rw [show (rsh (Memref.whole cc1_scratch7) (Memref.isWhole_whole _)).view.set = (Memref.whole cc1_scratch7).view.set from View.set_reshape _ _, View.set_whole])) $$ Hb6
  iapply (Transfers.wp_dmaLocal countersEmb 𝒱₀ (V d (cV L) (jV L)) none (default : HIx 1) (NO L) rfl (View.dmaCredit_pos _ (show 0 < S4x3328.numel by decide)) (Finset.Subset.refl _)) $$ [Hsrc Hoc Hs23]
  · isplitl [Hsrc]; · iexact Hsrc
    isplitl [Hoc]; · iexact Hoc
    iexact Hs23
  iintro Hofl
  ihave Hofl6 := (Transfers.Flight_mono countersEmb (V d (cV L) (jV L)) (sm := SemLoc.dma cc1_scratch23.sem) (ι := (default : HIx 1)) (N := NO L) (out_deliver d L X Tb hX O0 (Memref.whole cc1_scratch7) (Memref.isWhole_whole _) (6) (by decide) (k1_off4 L 24#32) (k1_off4_inb L 6) (show (k1_off4 L 24#32) = ![1024 * (L 1).val + 512 * (L 0).val + 4 * (6), 0] from (k1_off4_eq L 6)) fb6 hg6)) $$ Hofl
  -- wait for gather 7
  sl_exec
  iapply (Transfers.wp_waitLocalO countersEmb 𝒱₀ (V d (cV L) (jV L)) none (default : HIx 1) (rfl : (Memref.whole cc1_scratch8).view.dmaCredit = _)) $$ [Hfl7 HO]
  · isplitl [Hfl7]; · iexact Hfl7
    isplitl [HO]; · iexact HO
    iapply (Transfers.MayWaits.elim (SemLoc.dma cc1_scratch16.sem)) $$ Hmw
  iintro ⟨⟨⟨%fb7, Hb7, %hg7⟩, Htt7, Hlist7⟩, Hs16, HO⟩
  -- copy buffer 7 out to chunk 7
  sl_exec
  ihave Hsp := (oRem_take d L O0 (7) (by decide)) $$ Horem
  icases Hsp with ⟨Hoc, Horem⟩
  ihave Hoc := (Entails.of_eq (show (oLoc d ↦[oChunk L (7)]{fullShare} O0 : sProp 𝕄)
      = ((oSlc (k1_off4 L 28#32) (k1_off4_inb L 7)).view.loc (V d (cV L) (jV L)) ↦[(oSlc (k1_off4 L 28#32) (k1_off4_inb L 7)).view.set]{fullShare} O0) by rw [set_oSlc L (7) (k1_off4 L 28#32) (k1_off4_inb L 7) (show (k1_off4 L 28#32) = ![1024 * (L 1).val + 512 * (L 0).val + 4 * (7), 0] from (k1_off4_eq L 7))])) $$ Hoc
  ihave Hsrc := (Entails.of_eq (show ((Memref.whole cc1_scratch8).view.loc (V d (cV L) (jV L)) ↦{fullShare} fb7 : sProp 𝕄)
      = ((rsh (Memref.whole cc1_scratch8) (Memref.isWhole_whole _)).view.loc (V d (cV L) (jV L)) ↦[(rsh (Memref.whole cc1_scratch8) (Memref.isWhole_whole _)).view.set]{fullShare} fb7) by
        rw [show (rsh (Memref.whole cc1_scratch8) (Memref.isWhole_whole _)).view.set = (Memref.whole cc1_scratch8).view.set from View.set_reshape _ _, View.set_whole])) $$ Hb7
  iapply (Transfers.wp_dmaLocal countersEmb 𝒱₀ (V d (cV L) (jV L)) none (default : HIx 1) (NO L) rfl (View.dmaCredit_pos _ (show 0 < S4x3328.numel by decide)) (Finset.Subset.refl _)) $$ [Hsrc Hoc Hs24]
  · isplitl [Hsrc]; · iexact Hsrc
    isplitl [Hoc]; · iexact Hoc
    iexact Hs24
  iintro Hofl
  ihave Hofl7 := (Transfers.Flight_mono countersEmb (V d (cV L) (jV L)) (sm := SemLoc.dma cc1_scratch24.sem) (ι := (default : HIx 1)) (N := NO L) (out_deliver d L X Tb hX O0 (Memref.whole cc1_scratch8) (Memref.isWhole_whole _) (7) (by decide) (k1_off4 L 28#32) (k1_off4_inb L 7) (show (k1_off4 L 28#32) = ![1024 * (L 1).val + 512 * (L 0).val + 4 * (7), 0] from (k1_off4_eq L 7)) fb7 hg7)) $$ Hofl
  -- the list is whole again: its pieces joined, then held as eight read tokens
  ihave Hl0 := (pointsTo_split_subset (q := (fullShare.right)) (f := idxF d L X) (S := loSet) (oSl_sub_lo ![0] inb_S13312_S104_0 (by decide))).2 $$ [Hlist0 Hlrest0]
  · isplitl [Hlist0]; · iexact Hlist0
    iexact Hlrest0
  ihave Hl1 := (pointsTo_split_subset (q := (fullShare.left.right)) (f := idxF d L X) (S := loSet) (oSl_sub_lo ![104] inb_S13312_S104_104 (by decide))).2 $$ [Hlist1 Hlrest1]
  · isplitl [Hlist1]; · iexact Hlist1
    iexact Hlrest1
  ihave Hl2 := (pointsTo_split_subset (q := (fullShare.left.left.right)) (f := idxF d L X) (S := loSet) (oSl_sub_lo ![208] inb_S13312_S104_208 (by decide))).2 $$ [Hlist2 Hlrest2]
  · isplitl [Hlist2]; · iexact Hlist2
    iexact Hlrest2
  ihave Hl3 := (pointsTo_split_subset (q := (fullShare.left.left.left.right)) (f := idxF d L X) (S := loSet) (oSl_sub_lo ![312] inb_S13312_S104_312 (by decide))).2 $$ [Hlist3 Hlrest3]
  · isplitl [Hlist3]; · iexact Hlist3
    iexact Hlrest3
  ihave Hl4 := (pointsTo_split_subset (q := (fullShare.left.left.left.left.right)) (f := idxF d L X) (S := loSet) (oSl_sub_lo ![416] inb_S13312_S104_416 (by decide))).2 $$ [Hlist4 Hlrest4]
  · isplitl [Hlist4]; · iexact Hlist4
    iexact Hlrest4
  ihave Hl5 := (pointsTo_split_subset (q := (fullShare.left.left.left.left.left.right)) (f := idxF d L X) (S := loSet) (oSl_sub_lo ![520] inb_S13312_S104_520 (by decide))).2 $$ [Hlist5 Hlrest5]
  · isplitl [Hlist5]; · iexact Hlist5
    iexact Hlrest5
  ihave Hl6 := (pointsTo_split_subset (q := (fullShare.left.left.left.left.left.left.right)) (f := idxF d L X) (S := loSet) (oSl_sub_lo ![624] inb_S13312_S104_624 (by decide))).2 $$ [Hlist6 Hlrest6]
  · isplitl [Hlist6]; · iexact Hlist6
    iexact Hlrest6
  ihave Hl7 := (pointsTo_split_subset (q := (fullShare.left.left.left.left.left.left.left.right)) (f := idxF d L X) (S := loSet) (oSl_sub_lo ![728] inb_S13312_S104_728 (by decide))).2 $$ [Hlist7 Hlrest7]
  · isplitl [Hlist7]; · iexact Hlist7
    iexact Hlrest7
  ihave Hlr6 := (pointsTo_share (PosShare.mem_left_op_right (fullShare.left.left.left.left.left.left.left))).2 $$ [Hlr7 Hl7]
  · isplitl [Hlr7]; · iexact Hlr7
    iexact Hl7
  ihave Hlr5 := (pointsTo_share (PosShare.mem_left_op_right (fullShare.left.left.left.left.left.left))).2 $$ [Hlr6 Hl6]
  · isplitl [Hlr6]; · iexact Hlr6
    iexact Hl6
  ihave Hlr4 := (pointsTo_share (PosShare.mem_left_op_right (fullShare.left.left.left.left.left))).2 $$ [Hlr5 Hl5]
  · isplitl [Hlr5]; · iexact Hlr5
    iexact Hl5
  ihave Hlr3 := (pointsTo_share (PosShare.mem_left_op_right (fullShare.left.left.left.left))).2 $$ [Hlr4 Hl4]
  · isplitl [Hlr4]; · iexact Hlr4
    iexact Hl4
  ihave Hlr2 := (pointsTo_share (PosShare.mem_left_op_right (fullShare.left.left.left))).2 $$ [Hlr3 Hl3]
  · isplitl [Hlr3]; · iexact Hlr3
    iexact Hl3
  ihave Hlr1 := (pointsTo_share (PosShare.mem_left_op_right (fullShare.left.left))).2 $$ [Hlr2 Hl2]
  · isplitl [Hlr2]; · iexact Hlr2
    iexact Hl2
  ihave Hlr0 := (pointsTo_share (PosShare.mem_left_op_right (fullShare.left))).2 $$ [Hlr1 Hl1]
  · isplitl [Hlr1]; · iexact Hlr1
    iexact Hl1
  ihave Hlo := (pointsTo_share (PosShare.mem_left_op_right (fullShare))).2 $$ [Hlr0 Hl0]
  · isplitl [Hlr0]; · iexact Hlr0
    iexact Hl0
  ihave Hall := (pointsTo_split_subset (q := fullShare) (f := idxF d L X) (S := Finset.univ) (Finset.subset_univ hiSet)).2 $$ [Hhi Hlo]
  · isplitl [Hhi]; · iexact Hhi
    iexact Hlo
  ihave Hsp_Hl0 := (pointsTo_share (PosShare.mem_left_op_right (fullShare))).1 $$ Hall
  icases Hsp_Hl0 with ⟨Hur0, Hl0⟩
  ihave Hsp_Hl1 := (pointsTo_share (PosShare.mem_left_op_right (fullShare.left))).1 $$ Hur0
  icases Hsp_Hl1 with ⟨Hur1, Hl1⟩
  ihave Hsp_Hl2 := (pointsTo_share (PosShare.mem_left_op_right (fullShare.left.left))).1 $$ Hur1
  icases Hsp_Hl2 with ⟨Hur2, Hl2⟩
  ihave Hsp_Hl3 := (pointsTo_share (PosShare.mem_left_op_right (fullShare.left.left.left))).1 $$ Hur2
  icases Hsp_Hl3 with ⟨Hur3, Hl3⟩
  ihave Hsp_Hl4 := (pointsTo_share (PosShare.mem_left_op_right (fullShare.left.left.left.left))).1 $$ Hur3
  icases Hsp_Hl4 with ⟨Hur4, Hl4⟩
  ihave Hsp_Hl5 := (pointsTo_share (PosShare.mem_left_op_right (fullShare.left.left.left.left.left))).1 $$ Hur4
  icases Hsp_Hl5 with ⟨Hur5, Hl5⟩
  ihave Hsp_Hl6 := (pointsTo_share (PosShare.mem_left_op_right (fullShare.left.left.left.left.left.left))).1 $$ Hur5
  icases Hsp_Hl6 with ⟨Hur6, Hl6⟩
  ihave Hsp_Hl7 := (pointsTo_share (PosShare.mem_left_op_right (fullShare.left.left.left.left.left.left.left))).1 $$ Hur6
  icases Hsp_Hl7 with ⟨Hur7, Hl7⟩
  -- the ring
  sl_exec
  sl_for (inv3 (U := U) d L X Tb O0 O W) $$ [HO Hodone Horem Hofl0 Hofl1 Hofl2 Hofl3 Hofl4 Hofl5 Hofl6 Hofl7 Htt0 Htt1 Htt2 Htt3 Htt4 Htt5 Htt6 Htt7 Hl0 Hl1 Hl2 Hl3 Hl4 Hl5 Hl6 Hl7 Hs9 Hs10 Hs11 Hs12 Hs13 Hs14 Hs15 Hs16]
  case region =>
    intro k _
    exact trip3 d L X Tb O0 hX O W v3 k
  · unfold inv3 ringInv
    isplitr; · iexact Hmw
    isplitl [HO]
    · iexists _
      isplitr
      swap
      · iexact HO
      ipureintro; repeat (first | exact hW' | apply waits_ok)
    isplitl [Hodone]
    · iexact Hodone
    isplitl [Horem]
    · iexact Horem
    isplitl [Hofl0]
    · iexact Hofl0
    isplitl [Hofl1]
    · iexact Hofl1
    isplitl [Hofl2]
    · iexact Hofl2
    isplitl [Hofl3]
    · iexact Hofl3
    isplitl [Hofl4]
    · iexact Hofl4
    isplitl [Hofl5]
    · iexact Hofl5
    isplitl [Hofl6]
    · iexact Hofl6
    isplitl [Hofl7]
    · iexact Hofl7
    isplitl [Htt0]
    · iexact Htt0
    isplitl [Htt1]
    · iexact Htt1
    isplitl [Htt2]
    · iexact Htt2
    isplitl [Htt3]
    · iexact Htt3
    isplitl [Htt4]
    · iexact Htt4
    isplitl [Htt5]
    · iexact Htt5
    isplitl [Htt6]
    · iexact Htt6
    isplitl [Htt7]
    · iexact Htt7
    isplitl [Hl0]
    · iexact Hl0
    isplitl [Hl1]
    · iexact Hl1
    isplitl [Hl2]
    · iexact Hl2
    isplitl [Hl3]
    · iexact Hl3
    isplitl [Hl4]
    · iexact Hl4
    isplitl [Hl5]
    · iexact Hl5
    isplitl [Hl6]
    · iexact Hl6
    isplitl [Hl7]
    · iexact Hl7
    isplitl [Hs9]
    · iexact Hs9
    isplitl [Hs10]
    · iexact Hs10
    isplitl [Hs11]
    · iexact Hs11
    isplitl [Hs12]
    · iexact Hs12
    isplitl [Hs13]
    · iexact Hs13
    isplitl [Hs14]
    · iexact Hs14
    isplitl [Hs15]
    · iexact Hs15
    iexact Hs16
  iintro %_ HI
  unfold inv3 ringInv
  icases HI with ⟨-, ⟨%W'', %hW'', HO⟩, Hodone, Horem, Hofl0, Hofl1, Hofl2, Hofl3, Hofl4, Hofl5, Hofl6, Hofl7, Htt0, Htt1, Htt2, Htt3, Htt4, Htt5, Htt6, Htt7, Hl0, Hl1, Hl2, Hl3, Hl4, Hl5, Hl6, Hl7, Hs9, Hs10, Hs11, Hs12, Hs13, Hs14, Hs15, Hs16⟩
  have hW' := hW''
  ihave Hodone := (Entails.of_eq (congrArg (fun n : ℕ => ((oLoc d ↦[oDone L n]{fullShare} (gatherOut (F := F) X Tb : Buf (Elt F) (oLoc d))) : sProp 𝕄)) (show 8 * Scf.trips k1_t3_loop.lb k1_t3_loop.ub k1_t3_loop.st = 120 from rfl))) $$ Hodone
  ihave Horem := (Entails.of_eq (congrArg (fun n : ℕ => ((oLoc d ↦[oRem L n]{fullShare} O0) : sProp 𝕄)) (show 8 * Scf.trips k1_t3_loop.lb k1_t3_loop.ub k1_t3_loop.st + 8 = 128 from rfl))) $$ Horem
  ihave Hofl0 := (Entails.of_eq (congrArg (fun n : ℕ => (OFl d L X Tb (Memref.whole cc1_scratch1) cc1_scratch17 n : sProp 𝕄)) (show 8 * Scf.trips k1_t3_loop.lb k1_t3_loop.ub k1_t3_loop.st + 0 = 120 from rfl))) $$ Hofl0
  ihave Hofl1 := (Entails.of_eq (congrArg (fun n : ℕ => (OFl d L X Tb (Memref.whole cc1_scratch2) cc1_scratch18 n : sProp 𝕄)) (show 8 * Scf.trips k1_t3_loop.lb k1_t3_loop.ub k1_t3_loop.st + 1 = 121 from rfl))) $$ Hofl1
  ihave Hofl2 := (Entails.of_eq (congrArg (fun n : ℕ => (OFl d L X Tb (Memref.whole cc1_scratch3) cc1_scratch19 n : sProp 𝕄)) (show 8 * Scf.trips k1_t3_loop.lb k1_t3_loop.ub k1_t3_loop.st + 2 = 122 from rfl))) $$ Hofl2
  ihave Hofl3 := (Entails.of_eq (congrArg (fun n : ℕ => (OFl d L X Tb (Memref.whole cc1_scratch4) cc1_scratch20 n : sProp 𝕄)) (show 8 * Scf.trips k1_t3_loop.lb k1_t3_loop.ub k1_t3_loop.st + 3 = 123 from rfl))) $$ Hofl3
  ihave Hofl4 := (Entails.of_eq (congrArg (fun n : ℕ => (OFl d L X Tb (Memref.whole cc1_scratch5) cc1_scratch21 n : sProp 𝕄)) (show 8 * Scf.trips k1_t3_loop.lb k1_t3_loop.ub k1_t3_loop.st + 4 = 124 from rfl))) $$ Hofl4
  ihave Hofl5 := (Entails.of_eq (congrArg (fun n : ℕ => (OFl d L X Tb (Memref.whole cc1_scratch6) cc1_scratch22 n : sProp 𝕄)) (show 8 * Scf.trips k1_t3_loop.lb k1_t3_loop.ub k1_t3_loop.st + 5 = 125 from rfl))) $$ Hofl5
  ihave Hofl6 := (Entails.of_eq (congrArg (fun n : ℕ => (OFl d L X Tb (Memref.whole cc1_scratch7) cc1_scratch23 n : sProp 𝕄)) (show 8 * Scf.trips k1_t3_loop.lb k1_t3_loop.ub k1_t3_loop.st + 6 = 126 from rfl))) $$ Hofl6
  ihave Hofl7 := (Entails.of_eq (congrArg (fun n : ℕ => (OFl d L X Tb (Memref.whole cc1_scratch8) cc1_scratch24 n : sProp 𝕄)) (show 8 * Scf.trips k1_t3_loop.lb k1_t3_loop.ub k1_t3_loop.st + 7 = 127 from rfl))) $$ Hofl7
  -- wait for the copy of buffer 0 out to chunk 120
  sl_exec
  iapply (Transfers.wp_waitLocalO countersEmb 𝒱₀ (V d (cV L) (jV L)) none (default : HIx 1) (rfl : _ = NO L)) $$ [Hofl0 HO]
  · isplitl [Hofl0]; · iexact Hofl0
    isplitl [HO]; · iexact HO
    iapply (Transfers.MayWaits.elim (SemLoc.dma cc1_scratch17.sem)) $$ Hmw
  iintro ⟨⟨Hoc, ⟨%fb0, Hb0⟩⟩, Hs17, HO⟩
  ihave Hodone := (oDone_put d L (gatherOut (F := F) X Tb : Buf (Elt F) (oLoc d)) (120) (by decide)) $$ [Hoc Hodone]
  · isplitl [Hoc]; · iexact Hoc
    iexact Hodone
  -- wait for the copy of buffer 1 out to chunk 121
  sl_exec
  iapply (Transfers.wp_waitLocalO countersEmb 𝒱₀ (V d (cV L) (jV L)) none (default : HIx 1) (rfl : _ = NO L)) $$ [Hofl1 HO]
  · isplitl [Hofl1]; · iexact Hofl1
    isplitl [HO]; · iexact HO
    iapply (Transfers.MayWaits.elim (SemLoc.dma cc1_scratch18.sem)) $$ Hmw
  iintro ⟨⟨Hoc, ⟨%fb1, Hb1⟩⟩, Hs18, HO⟩
  ihave Hodone := (oDone_put d L (gatherOut (F := F) X Tb : Buf (Elt F) (oLoc d)) (121) (by decide)) $$ [Hoc Hodone]
  · isplitl [Hoc]; · iexact Hoc
    iexact Hodone
  -- wait for the copy of buffer 2 out to chunk 122
  sl_exec
  iapply (Transfers.wp_waitLocalO countersEmb 𝒱₀ (V d (cV L) (jV L)) none (default : HIx 1) (rfl : _ = NO L)) $$ [Hofl2 HO]
  · isplitl [Hofl2]; · iexact Hofl2
    isplitl [HO]; · iexact HO
    iapply (Transfers.MayWaits.elim (SemLoc.dma cc1_scratch19.sem)) $$ Hmw
  iintro ⟨⟨Hoc, ⟨%fb2, Hb2⟩⟩, Hs19, HO⟩
  ihave Hodone := (oDone_put d L (gatherOut (F := F) X Tb : Buf (Elt F) (oLoc d)) (122) (by decide)) $$ [Hoc Hodone]
  · isplitl [Hoc]; · iexact Hoc
    iexact Hodone
  -- wait for the copy of buffer 3 out to chunk 123
  sl_exec
  iapply (Transfers.wp_waitLocalO countersEmb 𝒱₀ (V d (cV L) (jV L)) none (default : HIx 1) (rfl : _ = NO L)) $$ [Hofl3 HO]
  · isplitl [Hofl3]; · iexact Hofl3
    isplitl [HO]; · iexact HO
    iapply (Transfers.MayWaits.elim (SemLoc.dma cc1_scratch20.sem)) $$ Hmw
  iintro ⟨⟨Hoc, ⟨%fb3, Hb3⟩⟩, Hs20, HO⟩
  ihave Hodone := (oDone_put d L (gatherOut (F := F) X Tb : Buf (Elt F) (oLoc d)) (123) (by decide)) $$ [Hoc Hodone]
  · isplitl [Hoc]; · iexact Hoc
    iexact Hodone
  -- wait for the copy of buffer 4 out to chunk 124
  sl_exec
  iapply (Transfers.wp_waitLocalO countersEmb 𝒱₀ (V d (cV L) (jV L)) none (default : HIx 1) (rfl : _ = NO L)) $$ [Hofl4 HO]
  · isplitl [Hofl4]; · iexact Hofl4
    isplitl [HO]; · iexact HO
    iapply (Transfers.MayWaits.elim (SemLoc.dma cc1_scratch21.sem)) $$ Hmw
  iintro ⟨⟨Hoc, ⟨%fb4, Hb4⟩⟩, Hs21, HO⟩
  ihave Hodone := (oDone_put d L (gatherOut (F := F) X Tb : Buf (Elt F) (oLoc d)) (124) (by decide)) $$ [Hoc Hodone]
  · isplitl [Hoc]; · iexact Hoc
    iexact Hodone
  sl_exec
  sl_step
  iapply HΦ
  isplitl [HO]
  · iexists _
    isplitr
    swap
    · iexact HO
    ipureintro; repeat (first | exact hW' | apply waits_ok)
  isplitl [Hodone]
  · iexact Hodone
  isplitl [Horem]
  · iexact Horem
  isplitl [Hofl5]
  · iexact Hofl5
  isplitl [Hofl6]
  · iexact Hofl6
  isplitl [Hofl7]
  · iexact Hofl7
  isplitl [Hb0]
  · iexists fb0
    iexact Hb0
  isplitl [Hb1]
  · iexists fb1
    iexact Hb1
  isplitl [Hb2]
  · iexists fb2
    iexact Hb2
  isplitl [Hb3]
  · iexists fb3
    iexact Hb3
  isplitl [Hb4]
  · iexists fb4
    iexact Hb4
  isplitl [Hs17]
  · iexact Hs17
  isplitl [Hs18]
  · iexact Hs18
  isplitl [Hs19]
  · iexact Hs19
  isplitl [Hs20]
  · iexact Hs20
  isplitl [Hs21]
  · iexact Hs21
  isplitl [Htt0]
  · iexact Htt0
  isplitl [Htt1]
  · iexact Htt1
  isplitl [Htt2]
  · iexact Htt2
  isplitl [Htt3]
  · iexact Htt3
  isplitl [Htt4]
  · iexact Htt4
  isplitl [Htt5]
  · iexact Htt5
  isplitl [Htt6]
  · iexact Htt6
  isplitl [Htt7]
  · iexact Htt7
  isplitl [Hl0]
  · iexact Hl0
  isplitl [Hl1]
  · iexact Hl1
  isplitl [Hl2]
  · iexact Hl2
  isplitl [Hl3]
  · iexact Hl3
  isplitl [Hl4]
  · iexact Hl4
  isplitl [Hl5]
  · iexact Hl5
  isplitl [Hl6]
  · iexact Hl6
  isplitl [Hl7]
  · iexact Hl7
  isplitl [Hur7]
  · iexact Hur7
  isplitl [Hs9]
  · iexact Hs9
  isplitl [Hs10]
  · iexact Hs10
  isplitl [Hs11]
  · iexact Hs11
  isplitl [Hs12]
  · iexact Hs12
  isplitl [Hs13]
  · iexact Hs13
  isplitl [Hs14]
  · iexact Hs14
  isplitl [Hs15]
  · iexact Hs15
  iexact Hs16

end Tile
end Cert.Proof.KB
end
-- ==== Proof.TileB6.lean ====
import proofs.«207321_g10943576670982_fold_wed_m_632_36_alg».proof.Proof.TileB3
import proofs.«207321_g10943576670982_fold_wed_m_632_36_alg».proof.Proof.TileB5

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx

variable {F : FTy → Type}
variable {U : Type} [URA U]

local notation "𝕄" => MT nD τ sig (HIx 1) (Elt F) ℕ U ℕ

variable [CountersIn U] [FloatOps F]

section Tile
variable (d : Dev nD) (L : grid1.Coords)

theorem part8_bind (X : Buf (Elt F) (xLoc d)) (Tb : Buf (Elt F) (tLoc d)) (O0 : Buf (Elt F) (oLoc d)) (hX : ∀ j, (X j : BitVec 32).toNat < 128)
    (O : CellTallies nD τ sig (HIx 1)) (W : Waits sig (HIx 1)) (v3 : BitVec 32) (k : PUnit → Prog (TpuEff nD τ sig (Elt F) Λ₀ (.scVector (cV L) (jV L))) PUnit) (Q : PUnit → sProp 𝕄) :
    (iprop((Transfers.MayWaits (V d (cV L) (jV L)) (default : HIx 1) O
        ∗ (∃ W', ⌜∀ p ∈ W', p ∈ W ∨ p.2 = none⌝ ∗ owes (V d (cV L) (jV L)) O W')
        ∗ (oLoc d ↦[oRem L 2]{fullShare} O0)
        ∗ (∃ f, ((Memref.whole cc1_scratch3).view.loc (V d (cV L) (jV L)) ↦{fullShare} f) ∗ ⌜goodBuf d L X Tb 2 ((Memref.whole cc1_scratch3).view.read (Elt F) f)⌝)
        ∗ semVal (cellOf d L cc1_scratch19) 0
        ∗ semVal (cellOf d L cc1_scratch20) 0
        ∗ semVal (cellOf d L cc1_scratch21) 0
        ∗ semVal (cellOf d L cc1_scratch22) 0
        ∗ GFl d L X Tb (Memref.whole cc1_scratch4) cc1_scratch12 3 ((tileShare L).left.left.left.right) ((oSl ![312] inb_S13312_S104_312).view.set) (fullShare.left.left.left.right)
        ∗ GFl d L X Tb (Memref.whole cc1_scratch5) cc1_scratch13 4 ((tileShare L).left.left.left.left.right) ((oSl ![416] inb_S13312_S104_416).view.set) (fullShare.left.left.left.left.right)
        ∗ GFl d L X Tb (Memref.whole cc1_scratch6) cc1_scratch14 5 ((tileShare L).left.left.left.left.left.right) ((oSl ![520] inb_S13312_S104_520).view.set) (fullShare.left.left.left.left.left.right)
        ∗ GFl d L X Tb (Memref.whole cc1_scratch7) cc1_scratch15 6 ((tileShare L).left.left.left.left.left.left.right) ((oSl ![624] inb_S13312_S104_624).view.set) (fullShare.left.left.left.left.left.left.right))
        ∗ (((∃ W', ⌜∀ p ∈ W', p ∈ W ∨ p.2 = none⌝ ∗ owes (V d (cV L) (jV L)) O W')
        ∗ (oLoc d ↦[oRem L 6]{fullShare} O0)
        ∗ OFl d L X Tb (Memref.whole cc1_scratch3) cc1_scratch19 2
        ∗ OFl d L X Tb (Memref.whole cc1_scratch4) cc1_scratch20 3
        ∗ OFl d L X Tb (Memref.whole cc1_scratch5) cc1_scratch21 4
        ∗ OFl d L X Tb (Memref.whole cc1_scratch6) cc1_scratch22 5
        ∗ (∃ f, ((Memref.whole cc1_scratch7).view.loc (V d (cV L) (jV L)) ↦{fullShare} f) ∗ ⌜goodBuf d L X Tb 6 ((Memref.whole cc1_scratch7).view.read (Elt F) f)⌝)
        ∗ ((tSl).view.loc (V d (cV L) (jV L)) ↦[(tSl).view.set]{((tileShare L).left.left.left.right)} Tb)
        ∗ ((tSl).view.loc (V d (cV L) (jV L)) ↦[(tSl).view.set]{((tileShare L).left.left.left.left.right)} Tb)
        ∗ ((tSl).view.loc (V d (cV L) (jV L)) ↦[(tSl).view.set]{((tileShare L).left.left.left.left.left.right)} Tb)
        ∗ ((tSl).view.loc (V d (cV L) (jV L)) ↦[(tSl).view.set]{((tileShare L).left.left.left.left.left.left.right)} Tb)
        ∗ ((V d (cV L) (jV L)).loc cc1_scratch0 ↦[(oSl ![312] inb_S13312_S104_312).view.set]{(fullShare.left.left.left.right)} idxF d L X)
        ∗ ((V d (cV L) (jV L)).loc cc1_scratch0 ↦[(oSl ![416] inb_S13312_S104_416).view.set]{(fullShare.left.left.left.left.right)} idxF d L X)
        ∗ ((V d (cV L) (jV L)).loc cc1_scratch0 ↦[(oSl ![520] inb_S13312_S104_520).view.set]{(fullShare.left.left.left.left.left.right)} idxF d L X)
        ∗ ((V d (cV L) (jV L)).loc cc1_scratch0 ↦[(oSl ![624] inb_S13312_S104_624).view.set]{(fullShare.left.left.left.left.left.left.right)} idxF d L X)
        ∗ semVal (cellOf d L cc1_scratch12) 0
        ∗ semVal (cellOf d L cc1_scratch13) 0
        ∗ semVal (cellOf d L cc1_scratch14) 0
        ∗ semVal (cellOf d L cc1_scratch15) 0) -∗ wp frame (wpE (defs₀ (F := F)) 𝒱₀ (V d (cV L) (jV L)) none) Set.univ (k ⟨⟩) Q)) : sProp 𝕄)
      ⊢ wp frame (wpE (defs₀ (F := F)) 𝒱₀ (V d (cV L) (jV L)) none) Set.univ (k1_part8 L (Memref.whole main_v1_scv) (Memref.isWhole_whole _) (Memref.whole main_v0_scv) (Memref.isWhole_whole _) (Memref.whole main_v2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) cc1_scratch9 cc1_scratch10 cc1_scratch11 cc1_scratch12 cc1_scratch13 cc1_scratch14 cc1_scratch15 cc1_scratch16 cc1_scratch17 cc1_scratch18 cc1_scratch19 cc1_scratch20 cc1_scratch21 cc1_scratch22 cc1_scratch23 cc1_scratch24 cc1_scoped0 v3 >>= k) Q := by
  rw [wp_bind]
  exact part8_spec (U := U) d L X Tb O0 hX O W v3 (fun a => wp frame (wpE (defs₀ (F := F)) 𝒱₀ (V d (cV L) (jV L)) none) Set.univ (k a) Q)

theorem part9_bind (X : Buf (Elt F) (xLoc d)) (Tb : Buf (Elt F) (tLoc d)) (O0 : Buf (Elt F) (oLoc d)) (hX : ∀ j, (X j : BitVec 32).toNat < 128)
    (O : CellTallies nD τ sig (HIx 1)) (W : Waits sig (HIx 1)) (v3 : BitVec 32) (k : PUnit → Prog (TpuEff nD τ sig (Elt F) Λ₀ (.scVector (cV L) (jV L))) PUnit) (Q : PUnit → sProp 𝕄) :
    (iprop((Transfers.MayWaits (V d (cV L) (jV L)) (default : HIx 1) O
        ∗ (∃ W', ⌜∀ p ∈ W', p ∈ W ∨ p.2 = none⌝ ∗ owes (V d (cV L) (jV L)) O W')
        ∗ (oLoc d ↦[oRem L 6]{fullShare} O0)
        ∗ (∃ f, ((Memref.whole cc1_scratch7).view.loc (V d (cV L) (jV L)) ↦{fullShare} f) ∗ ⌜goodBuf d L X Tb 6 ((Memref.whole cc1_scratch7).view.read (Elt F) f)⌝)
        ∗ semVal (cellOf d L cc1_scratch23) 0
        ∗ semVal (cellOf d L cc1_scratch24) 0
        ∗ GFl d L X Tb (Memref.whole cc1_scratch8) cc1_scratch16 7 ((tileShare L).left.left.left.left.left.left.left.right) ((oSl ![728] inb_S13312_S104_728).view.set) (fullShare.left.left.left.left.left.left.left.right)
        ∗ OFl d L X Tb (Memref.whole cc1_scratch1) cc1_scratch17 0
        ∗ OFl d L X Tb (Memref.whole cc1_scratch2) cc1_scratch18 1
        ∗ OFl d L X Tb (Memref.whole cc1_scratch3) cc1_scratch19 2
        ∗ OFl d L X Tb (Memref.whole cc1_scratch4) cc1_scratch20 3
        ∗ OFl d L X Tb (Memref.whole cc1_scratch5) cc1_scratch21 4
        ∗ OFl d L X Tb (Memref.whole cc1_scratch6) cc1_scratch22 5
        ∗ ((V d (cV L) (jV L)).loc cc1_scratch0 ↦[hiSet]{fullShare} idxF d L X)
        ∗ ((V d (cV L) (jV L)).loc cc1_scratch0 ↦[loSet]{(fullShare.left.left.left.left.left.left.left.left)} idxF d L X)
        ∗ ((V d (cV L) (jV L)).loc cc1_scratch0 ↦[loSet \ (oSl ![0] inb_S13312_S104_0).view.set]{(fullShare.right)} idxF d L X)
        ∗ ((V d (cV L) (jV L)).loc cc1_scratch0 ↦[loSet \ (oSl ![104] inb_S13312_S104_104).view.set]{(fullShare.left.right)} idxF d L X)
        ∗ ((V d (cV L) (jV L)).loc cc1_scratch0 ↦[loSet \ (oSl ![208] inb_S13312_S104_208).view.set]{(fullShare.left.left.right)} idxF d L X)
        ∗ ((V d (cV L) (jV L)).loc cc1_scratch0 ↦[loSet \ (oSl ![312] inb_S13312_S104_312).view.set]{(fullShare.left.left.left.right)} idxF d L X)
        ∗ ((V d (cV L) (jV L)).loc cc1_scratch0 ↦[loSet \ (oSl ![416] inb_S13312_S104_416).view.set]{(fullShare.left.left.left.left.right)} idxF d L X)
        ∗ ((V d (cV L) (jV L)).loc cc1_scratch0 ↦[loSet \ (oSl ![520] inb_S13312_S104_520).view.set]{(fullShare.left.left.left.left.left.right)} idxF d L X)
        ∗ ((V d (cV L) (jV L)).loc cc1_scratch0 ↦[loSet \ (oSl ![624] inb_S13312_S104_624).view.set]{(fullShare.left.left.left.left.left.left.right)} idxF d L X)
        ∗ ((V d (cV L) (jV L)).loc cc1_scratch0 ↦[loSet \ (oSl ![728] inb_S13312_S104_728).view.set]{(fullShare.left.left.left.left.left.left.left.right)} idxF d L X)
        ∗ ((V d (cV L) (jV L)).loc cc1_scratch0 ↦[(oSl ![0] inb_S13312_S104_0).view.set]{(fullShare.right)} idxF d L X)
        ∗ ((V d (cV L) (jV L)).loc cc1_scratch0 ↦[(oSl ![104] inb_S13312_S104_104).view.set]{(fullShare.left.right)} idxF d L X)
        ∗ ((V d (cV L) (jV L)).loc cc1_scratch0 ↦[(oSl ![208] inb_S13312_S104_208).view.set]{(fullShare.left.left.right)} idxF d L X)
        ∗ ((V d (cV L) (jV L)).loc cc1_scratch0 ↦[(oSl ![312] inb_S13312_S104_312).view.set]{(fullShare.left.left.left.right)} idxF d L X)
        ∗ ((V d (cV L) (jV L)).loc cc1_scratch0 ↦[(oSl ![416] inb_S13312_S104_416).view.set]{(fullShare.left.left.left.left.right)} idxF d L X)
        ∗ ((V d (cV L) (jV L)).loc cc1_scratch0 ↦[(oSl ![520] inb_S13312_S104_520).view.set]{(fullShare.left.left.left.left.left.right)} idxF d L X)
        ∗ ((V d (cV L) (jV L)).loc cc1_scratch0 ↦[(oSl ![624] inb_S13312_S104_624).view.set]{(fullShare.left.left.left.left.left.left.right)} idxF d L X)
        ∗ ((tSl).view.loc (V d (cV L) (jV L)) ↦[(tSl).view.set]{((tileShare L).right)} Tb)
        ∗ ((tSl).view.loc (V d (cV L) (jV L)) ↦[(tSl).view.set]{((tileShare L).left.right)} Tb)
        ∗ ((tSl).view.loc (V d (cV L) (jV L)) ↦[(tSl).view.set]{((tileShare L).left.left.right)} Tb)
        ∗ ((tSl).view.loc (V d (cV L) (jV L)) ↦[(tSl).view.set]{((tileShare L).left.left.left.right)} Tb)
        ∗ ((tSl).view.loc (V d (cV L) (jV L)) ↦[(tSl).view.set]{((tileShare L).left.left.left.left.right)} Tb)
        ∗ ((tSl).view.loc (V d (cV L) (jV L)) ↦[(tSl).view.set]{((tileShare L).left.left.left.left.left.right)} Tb)
        ∗ ((tSl).view.loc (V d (cV L) (jV L)) ↦[(tSl).view.set]{((tileShare L).left.left.left.left.left.left.right)} Tb)
        ∗ semVal (cellOf d L cc1_scratch9) 0
        ∗ semVal (cellOf d L cc1_scratch10) 0
        ∗ semVal (cellOf d L cc1_scratch11) 0
        ∗ semVal (cellOf d L cc1_scratch12) 0
        ∗ semVal (cellOf d L cc1_scratch13) 0
        ∗ semVal (cellOf d L cc1_scratch14) 0
        ∗ semVal (cellOf d L cc1_scratch15) 0
        ∗ (oLoc d ↦[oDone L (8 * 0)]{fullShare} (gatherOut (F := F) X Tb : Buf (Elt F) (oLoc d))))
        ∗ (((∃ W', ⌜∀ p ∈ W', p ∈ W ∨ p.2 = none⌝ ∗ owes (V d (cV L) (jV L)) O W')
        ∗ (oLoc d ↦[oDone L 125]{fullShare} (gatherOut (F := F) X Tb : Buf (Elt F) (oLoc d)))
        ∗ (oLoc d ↦[oRem L 128]{fullShare} O0)
        ∗ OFl d L X Tb (Memref.whole cc1_scratch6) cc1_scratch22 125
        ∗ OFl d L X Tb (Memref.whole cc1_scratch7) cc1_scratch23 126
        ∗ OFl d L X Tb (Memref.whole cc1_scratch8) cc1_scratch24 127
        ∗ (∃ f, (Memref.whole cc1_scratch1).view.loc (V d (cV L) (jV L)) ↦{fullShare} f)
        ∗ (∃ f, (Memref.whole cc1_scratch2).view.loc (V d (cV L) (jV L)) ↦{fullShare} f)
        ∗ (∃ f, (Memref.whole cc1_scratch3).view.loc (V d (cV L) (jV L)) ↦{fullShare} f)
        ∗ (∃ f, (Memref.whole cc1_scratch4).view.loc (V d (cV L) (jV L)) ↦{fullShare} f)
        ∗ (∃ f, (Memref.whole cc1_scratch5).view.loc (V d (cV L) (jV L)) ↦{fullShare} f)
        ∗ semVal (cellOf d L cc1_scratch17) 0
        ∗ semVal (cellOf d L cc1_scratch18) 0
        ∗ semVal (cellOf d L cc1_scratch19) 0
        ∗ semVal (cellOf d L cc1_scratch20) 0
        ∗ semVal (cellOf d L cc1_scratch21) 0
        ∗ ((tSl).view.loc (V d (cV L) (jV L)) ↦[(tSl).view.set]{((tileShare L).right)} Tb)
        ∗ ((tSl).view.loc (V d (cV L) (jV L)) ↦[(tSl).view.set]{((tileShare L).left.right)} Tb)
        ∗ ((tSl).view.loc (V d (cV L) (jV L)) ↦[(tSl).view.set]{((tileShare L).left.left.right)} Tb)
        ∗ ((tSl).view.loc (V d (cV L) (jV L)) ↦[(tSl).view.set]{((tileShare L).left.left.left.right)} Tb)
        ∗ ((tSl).view.loc (V d (cV L) (jV L)) ↦[(tSl).view.set]{((tileShare L).left.left.left.left.right)} Tb)
        ∗ ((tSl).view.loc (V d (cV L) (jV L)) ↦[(tSl).view.set]{((tileShare L).left.left.left.left.left.right)} Tb)
        ∗ ((tSl).view.loc (V d (cV L) (jV L)) ↦[(tSl).view.set]{((tileShare L).left.left.left.left.left.left.right)} Tb)
        ∗ ((tSl).view.loc (V d (cV L) (jV L)) ↦[(tSl).view.set]{((tileShare L).left.left.left.left.left.left.left.right)} Tb)
        ∗ ((V d (cV L) (jV L)).loc cc1_scratch0 ↦[Finset.univ]{(fullShare.right)} idxF d L X)
        ∗ ((V d (cV L) (jV L)).loc cc1_scratch0 ↦[Finset.univ]{(fullShare.left.right)} idxF d L X)
        ∗ ((V d (cV L) (jV L)).loc cc1_scratch0 ↦[Finset.univ]{(fullShare.left.left.right)} idxF d L X)
        ∗ ((V d (cV L) (jV L)).loc cc1_scratch0 ↦[Finset.univ]{(fullShare.left.left.left.right)} idxF d L X)
        ∗ ((V d (cV L) (jV L)).loc cc1_scratch0 ↦[Finset.univ]{(fullShare.left.left.left.left.right)} idxF d L X)
        ∗ ((V d (cV L) (jV L)).loc cc1_scratch0 ↦[Finset.univ]{(fullShare.left.left.left.left.left.right)} idxF d L X)
        ∗ ((V d (cV L) (jV L)).loc cc1_scratch0 ↦[Finset.univ]{(fullShare.left.left.left.left.left.left.right)} idxF d L X)
        ∗ ((V d (cV L) (jV L)).loc cc1_scratch0 ↦[Finset.univ]{(fullShare.left.left.left.left.left.left.left.right)} idxF d L X)
        ∗ ((V d (cV L) (jV L)).loc cc1_scratch0 ↦{(fullShare.left.left.left.left.left.left.left.left)} idxF d L X)
        ∗ semVal (cellOf d L cc1_scratch9) 0
        ∗ semVal (cellOf d L cc1_scratch10) 0
        ∗ semVal (cellOf d L cc1_scratch11) 0
        ∗ semVal (cellOf d L cc1_scratch12) 0
        ∗ semVal (cellOf d L cc1_scratch13) 0
        ∗ semVal (cellOf d L cc1_scratch14) 0
        ∗ semVal (cellOf d L cc1_scratch15) 0
        ∗ semVal (cellOf d L cc1_scratch16) 0) -∗ wp frame (wpE (defs₀ (F := F)) 𝒱₀ (V d (cV L) (jV L)) none) Set.univ (k ⟨⟩) Q)) : sProp 𝕄)
      ⊢ wp frame (wpE (defs₀ (F := F)) 𝒱₀ (V d (cV L) (jV L)) none) Set.univ (k1_part9 L (Memref.whole main_v1_scv) (Memref.isWhole_whole _) (Memref.whole main_v0_scv) (Memref.isWhole_whole _) (Memref.whole main_v2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) cc1_scratch9 cc1_scratch10 cc1_scratch11 cc1_scratch12 cc1_scratch13 cc1_scratch14 cc1_scratch15 cc1_scratch16 cc1_scratch17 cc1_scratch18 cc1_scratch19 cc1_scratch20 cc1_scratch21 cc1_scratch22 cc1_scratch23 cc1_scratch24 cc1_scoped0 v3 >>= k) Q := by
  rw [wp_bind]
  exact part9_spec (U := U) d L X Tb O0 hX O W v3 (fun a => wp frame (wpE (defs₀ (F := F)) 𝒱₀ (V d (cV L) (jV L)) none) Set.univ (k a) Q)

set_option maxHeartbeats 8000000 in
/-- The gather kernel's body at one vector subcore: from its words of the row numbers, its share of the rescaled table and its
    rows of the result, it leaves in those rows, for every row `r` and column `q`, lane `q mod 128` of the table's row
    `X[26 r + q / 128] + 128 (q / 128)`. -/
theorem tile_body (hF : (K (F := F)).Facts)
    (X : Buf (Elt F) (xLoc d)) (Tb : Buf (Elt F) (tLoc d)) (O0 : Buf (Elt F) (oLoc d)) (hX : ∀ j, (X j : BitVec 32).toNat < 128)
    (O : CellTallies nD τ sig (HIx 1)) (W : Waits sig (HIx 1)) (hO : ∀ g, O g none = 0) :
    iprop(levAts (K (F := F)).L (K (F := F)).lev ∗ emp ∗ tileGo (U := U) d L X Tb O0
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_gather_body L (Memref.whole main_v1_scv) (Memref.isWhole_whole _) (Memref.whole main_v0_scv) (Memref.isWhole_whole _) (Memref.whole main_v2_scv) (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) (Memref.whole cc1_scratch6) (Memref.isWhole_whole _) (Memref.whole cc1_scratch7) (Memref.isWhole_whole _) (Memref.whole cc1_scratch8) (Memref.isWhole_whole _) cc1_scratch9 cc1_scratch10 cc1_scratch11 cc1_scratch12 cc1_scratch13 cc1_scratch14 cc1_scratch15 cc1_scratch16 cc1_scratch17 cc1_scratch18 cc1_scratch19 cc1_scratch20 cc1_scratch21 cc1_scratch22 cc1_scratch23 cc1_scratch24 cc1_scoped0)
          fun _ => iprop(tileTd (U := U) d L X Tb ∗ scopedBufs (V d (cV L) (jV L)) ∗ scopedSems0 (V d (cV L) (jV L))
            ∗ ∃ W', ⌜∀ p ∈ W', p ∈ W ∨ p.2 = none⌝ ∗ owes (V d (cV L) (jV L)) O W') := by
  rw [cc1__sc_gather_body_eq_skeleton]; unfold cc1__sc_gather_body_skel
  rw [(K (F := F)).scopedBufs_V hF d (cV L) (jV L), SparseCore.Cfg.scopedSems0_V (Val := Elt F) d (cV L) (jV L), ownSems0_V, ownBufs_V]
  unfold tileGo tileTd
  iintro ⟨#Hlv, Hemp, ⟨Hx, Ht, Ho⟩, ⟨⟨%fi, Hi⟩, ⟨%fb0, Hb0⟩, ⟨%fb1, Hb1⟩, ⟨%fb2, Hb2⟩, ⟨%fb3, Hb3⟩, ⟨%fb4, Hb4⟩, ⟨%fb5, Hb5⟩, ⟨%fb6, Hb6⟩, ⟨%fb7, Hb7⟩, Hbufs⟩, ⟨Hs9, Hs10, Hs11, Hs12, Hs13, Hs14, Hs15, Hs16, Hs17, Hs18, Hs19, Hs20, Hs21, Hs22, Hs23, Hs24, Hs0, Hsems⟩, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hodone := (oDone_init (U := U) d L (gatherOut (F := F) X Tb : Buf (Elt F) (oLoc d))) $$ Hemp
  have hW' : ∀ p ∈ W, p ∈ W ∨ p.2 = none := fun p hp => .inl hp
  have hN : ∀ (B : Memref sig .scVector .vmem S104x128 .f32) (a' : Fin S104x128.rank),
      ∑ j, (B.slice (S104x128.rowRect a' j) (S104x128.stride_rowRect a' j)).view.dmaCredit = B.view.dmaCredit :=
    fun B a' => SparseCore.sum_rowCredit_eq_dmaCredit B a' (fun _ => rfl)
  ihave Hx' := (Entails.of_eq (show (xLoc d ↦[xSet L]{fullShare} X : sProp 𝕄) = ((xSl L).view.loc (V d (cV L) (jV L)) ↦[(xSl L).view.set]{fullShare} X) by rw [set_xSl])) $$ Hx
  ihave Hi' := (Entails.of_eq (show ((V d (cV L) (jV L)).loc cc1_scratch0 ↦{fullShare} fi : sProp 𝕄) = ((Memref.whole cc1_scratch0).view.loc (V d (cV L) (jV L)) ↦{fullShare} fi) from rfl)) $$ Hi
  ihave Horem := (Entails.of_eq (show (oLoc d ↦[oSet L]{fullShare} O0 : sProp 𝕄) = (oLoc d ↦[oRem L 0]{fullShare} O0) by rw [oRem_zero])) $$ Ho
  -- phase 0: the worker's words of the row numbers into the list
  sl_exec
  have hdma : View.write (Elt F) (Memref.whole cc1_scratch0).view fi (tile_body.sl.dma0 d L X) Finset.univ = idxG d L X (16 * 0) := by
    exact (View.write_whole_univ cc1_scratch0 fi _).trans (dma0_val d L X)
  ihave Hi2 := (Entails.of_eq (congrArg (fun f => ((Memref.whole cc1_scratch0).view.loc (V d (cV L) (jV L)) ↦{fullShare} f : sProp 𝕄)) hdma)) $$ Hi'
  -- phase 1: the first 832 words get their field's offset
  sl_for (inv1 d L X) $$ [Hi2]
  case region =>
    intro k _
    unfold inv1
    iintro Hi
    sl_exec
    sl_step
    iapply (Entails.of_eq (congrArg (fun f => ((Memref.whole cc1_scratch0).view.loc (V d (cV L) (jV L)) ↦{fullShare} f : sProp 𝕄))
      (trip_val d L X (16 * k.val) (k1_off2 k) (k1_off2_inb k) (by rw [k1_off2_eq]; rfl) (k1_pay1 L k (View.readAt (Elt F) (Memref.whole cc1_scratch0).view (Rect.unit (s := S13312) (k1_off2 k) S16.size (k1_off2_inb k)).toLoadRect (idxG d L X (16 * k.val)))) (fun x => pay1_apply L k (View.readAt (Elt F) (Memref.whole cc1_scratch0).view (Rect.unit (s := S13312) (k1_off2 k) S16.size (k1_off2_inb k)).toLoadRect (idxG d L X (16 * k.val))) x))))
    iexact Hi
  · unfold inv1; iexact Hi2
  iintro %_ HI
  unfold inv1
  ihave HI2 := (Entails.of_eq (show ((Memref.whole cc1_scratch0).view.loc (V d (cV L) (jV L)) ↦{fullShare} idxG d L X (16 * Scf.trips k1_t1_loop.lb k1_t1_loop.ub k1_t1_loop.st) : sProp 𝕄)
      = ((V d (cV L) (jV L)).loc cc1_scratch0 ↦{fullShare} idxG d L X 832) from rfl)) $$ HI
  ihave Hsp := (pointsTo_split_subset (q := fullShare) (f := idxG d L X 832) (S := Finset.univ) (Finset.subset_univ hiSet)).1 $$ HI2
  icases Hsp with ⟨Hhi, Hlo⟩
  ihave Hlo2 := (Entails.of_eq (pointsTo_congr (q := fullShare) (lo_congr d L X))) $$ Hlo
  ihave Hsp_Hl0 := (pointsTo_share (PosShare.mem_left_op_right (fullShare))).1 $$ Hlo2
  icases Hsp_Hl0 with ⟨Hlr0, Hl0⟩
  ihave Hsp_Hl1 := (pointsTo_share (PosShare.mem_left_op_right (fullShare.left))).1 $$ Hlr0
  icases Hsp_Hl1 with ⟨Hlr1, Hl1⟩
  ihave Hsp_Hl2 := (pointsTo_share (PosShare.mem_left_op_right (fullShare.left.left))).1 $$ Hlr1
  icases Hsp_Hl2 with ⟨Hlr2, Hl2⟩
  ihave Hsp_Hl3 := (pointsTo_share (PosShare.mem_left_op_right (fullShare.left.left.left))).1 $$ Hlr2
  icases Hsp_Hl3 with ⟨Hlr3, Hl3⟩
  ihave Hsp_Hl4 := (pointsTo_share (PosShare.mem_left_op_right (fullShare.left.left.left.left))).1 $$ Hlr3
  icases Hsp_Hl4 with ⟨Hlr4, Hl4⟩
  ihave Hsp_Hl5 := (pointsTo_share (PosShare.mem_left_op_right (fullShare.left.left.left.left.left))).1 $$ Hlr4
  icases Hsp_Hl5 with ⟨Hlr5, Hl5⟩
  ihave Hsp_Hl6 := (pointsTo_share (PosShare.mem_left_op_right (fullShare.left.left.left.left.left.left))).1 $$ Hlr5
  icases Hsp_Hl6 with ⟨Hlr6, Hl6⟩
  ihave Hsp_Hl7 := (pointsTo_share (PosShare.mem_left_op_right (fullShare.left.left.left.left.left.left.left))).1 $$ Hlr6
  icases Hsp_Hl7 with ⟨Hlr7, Hl7⟩
  ihave Hsp_Htk0 := (pointsTo_share (PosShare.mem_left_op_right ((tileShare L)))).1 $$ Ht
  icases Hsp_Htk0 with ⟨Htr0, Htk0⟩
  ihave Hsp_Htk1 := (pointsTo_share (PosShare.mem_left_op_right ((tileShare L).left))).1 $$ Htr0
  icases Hsp_Htk1 with ⟨Htr1, Htk1⟩
  ihave Hsp_Htk2 := (pointsTo_share (PosShare.mem_left_op_right ((tileShare L).left.left))).1 $$ Htr1
  icases Hsp_Htk2 with ⟨Htr2, Htk2⟩
  ihave Hsp_Htk3 := (pointsTo_share (PosShare.mem_left_op_right ((tileShare L).left.left.left))).1 $$ Htr2
  icases Hsp_Htk3 with ⟨Htr3, Htk3⟩
  ihave Hsp_Htk4 := (pointsTo_share (PosShare.mem_left_op_right ((tileShare L).left.left.left.left))).1 $$ Htr3
  icases Hsp_Htk4 with ⟨Htr4, Htk4⟩
  ihave Hsp_Htk5 := (pointsTo_share (PosShare.mem_left_op_right ((tileShare L).left.left.left.left.left))).1 $$ Htr4
  icases Hsp_Htk5 with ⟨Htr5, Htk5⟩
  ihave Hsp_Htk6 := (pointsTo_share (PosShare.mem_left_op_right ((tileShare L).left.left.left.left.left.left))).1 $$ Htr5
  icases Hsp_Htk6 with ⟨Htr6, Htk6⟩
  ihave Hsp_Htk7 := (pointsTo_share (PosShare.mem_left_op_right ((tileShare L).left.left.left.left.left.left.left))).1 $$ Htr6
  icases Hsp_Htk7 with ⟨Htr7, Htk7⟩
  ihave Htt0 := (Entails.of_eq (show (tLoc d ↦{((tileShare L).right)} Tb : sProp 𝕄) = ((tSl).view.loc (V d (cV L) (jV L)) ↦[(tSl).view.set]{((tileShare L).right)} Tb) by rw [set_tSl])) $$ Htk0
  ihave Htt1 := (Entails.of_eq (show (tLoc d ↦{((tileShare L).left.right)} Tb : sProp 𝕄) = ((tSl).view.loc (V d (cV L) (jV L)) ↦[(tSl).view.set]{((tileShare L).left.right)} Tb) by rw [set_tSl])) $$ Htk1
  ihave Htt2 := (Entails.of_eq (show (tLoc d ↦{((tileShare L).left.left.right)} Tb : sProp 𝕄) = ((tSl).view.loc (V d (cV L) (jV L)) ↦[(tSl).view.set]{((tileShare L).left.left.right)} Tb) by rw [set_tSl])) $$ Htk2
  ihave Htt3 := (Entails.of_eq (show (tLoc d ↦{((tileShare L).left.left.left.right)} Tb : sProp 𝕄) = ((tSl).view.loc (V d (cV L) (jV L)) ↦[(tSl).view.set]{((tileShare L).left.left.left.right)} Tb) by rw [set_tSl])) $$ Htk3
  ihave Htt4 := (Entails.of_eq (show (tLoc d ↦{((tileShare L).left.left.left.left.right)} Tb : sProp 𝕄) = ((tSl).view.loc (V d (cV L) (jV L)) ↦[(tSl).view.set]{((tileShare L).left.left.left.left.right)} Tb) by rw [set_tSl])) $$ Htk4
  ihave Htt5 := (Entails.of_eq (show (tLoc d ↦{((tileShare L).left.left.left.left.left.right)} Tb : sProp 𝕄) = ((tSl).view.loc (V d (cV L) (jV L)) ↦[(tSl).view.set]{((tileShare L).left.left.left.left.left.right)} Tb) by rw [set_tSl])) $$ Htk5
  ihave Htt6 := (Entails.of_eq (show (tLoc d ↦{((tileShare L).left.left.left.left.left.left.right)} Tb : sProp 𝕄) = ((tSl).view.loc (V d (cV L) (jV L)) ↦[(tSl).view.set]{((tileShare L).left.left.left.left.left.left.right)} Tb) by rw [set_tSl])) $$ Htk6
  ihave Htt7 := (Entails.of_eq (show (tLoc d ↦{((tileShare L).left.left.left.left.left.left.left.right)} Tb : sProp 𝕄) = ((tSl).view.loc (V d (cV L) (jV L)) ↦[(tSl).view.set]{((tileShare L).left.left.left.left.left.left.left.right)} Tb) by rw [set_tSl])) $$ Htk7
  -- phase 2: the eight gathers
  -- gather chunk 0 into buffer 0
  sl_exec
  ihave Hls := (pointsTo_split_subset (q := (fullShare.right)) (f := idxF d L X) (S := loSet) (oSl_sub_lo ![0] inb_S13312_S104_0 (by decide))).1 $$ Hl0
  icases Hls with ⟨Hlist0, Hlrest0⟩
  ihave Hbb := (Entails.of_eq (show ((Memref.whole cc1_scratch1).view.loc (V d (cV L) (jV L)) ↦{fullShare} fb0 : sProp 𝕄)
      = ((Memref.whole cc1_scratch1).view.loc (V d (cV L) (jV L)) ↦[(Memref.whole cc1_scratch1).view.set]{fullShare} fb0) by rw [View.set_whole])) $$ Hb0
  iapply (SparseCore.wp_indirectGatherLocal countersEmb 𝒱₀ (V d (cV L) (jV L)) none (hg := gathers_S3328x128_S104x128) (default : HIx 1)
      (Memref.whole cc1_scratch1).view.dmaCredit (hN (Memref.whole cc1_scratch1) _) (by decide) (read_oSl_lt d L X hX 13312 ![0] inb_S13312_S104_0)) $$ [Htt0 Hbb Hlist0 Hs9]
  · isplitl [Htt0]; · iexact Htt0
    isplitl [Hbb]; · iexact Hbb
    isplitl [Hlist0]; · iexact Hlist0
    iexact Hs9
  iintro Hfl
  ihave Hfl0 := (Transfers.Flight_mono countersEmb (V d (cV L) (jV L)) (sm := SemLoc.dma cc1_scratch9.sem) (ι := (default : HIx 1)) (N := (Memref.whole cc1_scratch1).view.dmaCredit) (gather_deliver d L X Tb (Memref.whole cc1_scratch1) (Memref.isWhole_whole _) (0) ![0] inb_S13312_S104_0 (show (![0] : Fin 1 → ℕ) 0 = 104 * 0 from rfl) rfl
      (read_oSl_lt d L X hX 13312 ![0] inb_S13312_S104_0) fb0 ((tileShare L).right) (fullShare.right))) $$ Hfl
  -- gather chunk 1 into buffer 1
  sl_exec
  ihave Hls := (pointsTo_split_subset (q := (fullShare.left.right)) (f := idxF d L X) (S := loSet) (oSl_sub_lo ![104] inb_S13312_S104_104 (by decide))).1 $$ Hl1
  icases Hls with ⟨Hlist1, Hlrest1⟩
  ihave Hbb := (Entails.of_eq (show ((Memref.whole cc1_scratch2).view.loc (V d (cV L) (jV L)) ↦{fullShare} fb1 : sProp 𝕄)
      = ((Memref.whole cc1_scratch2).view.loc (V d (cV L) (jV L)) ↦[(Memref.whole cc1_scratch2).view.set]{fullShare} fb1) by rw [View.set_whole])) $$ Hb1
  iapply (SparseCore.wp_indirectGatherLocal countersEmb 𝒱₀ (V d (cV L) (jV L)) none (hg := gathers_S3328x128_S104x128) (default : HIx 1)
      (Memref.whole cc1_scratch2).view.dmaCredit (hN (Memref.whole cc1_scratch2) _) (by decide) (read_oSl_lt d L X hX 13312 ![104] inb_S13312_S104_104)) $$ [Htt1 Hbb Hlist1 Hs10]
  · isplitl [Htt1]; · iexact Htt1
    isplitl [Hbb]; · iexact Hbb
    isplitl [Hlist1]; · iexact Hlist1
    iexact Hs10
  iintro Hfl
  ihave Hfl1 := (Transfers.Flight_mono countersEmb (V d (cV L) (jV L)) (sm := SemLoc.dma cc1_scratch10.sem) (ι := (default : HIx 1)) (N := (Memref.whole cc1_scratch2).view.dmaCredit) (gather_deliver d L X Tb (Memref.whole cc1_scratch2) (Memref.isWhole_whole _) (1) ![104] inb_S13312_S104_104 (show (![104] : Fin 1 → ℕ) 0 = 104 * 1 from rfl) rfl
      (read_oSl_lt d L X hX 13312 ![104] inb_S13312_S104_104) fb1 ((tileShare L).left.right) (fullShare.left.right))) $$ Hfl
  -- gather chunk 2 into buffer 2
  sl_exec
  ihave Hls := (pointsTo_split_subset (q := (fullShare.left.left.right)) (f := idxF d L X) (S := loSet) (oSl_sub_lo ![208] inb_S13312_S104_208 (by decide))).1 $$ Hl2
  icases Hls with ⟨Hlist2, Hlrest2⟩
  ihave Hbb := (Entails.of_eq (show ((Memref.whole cc1_scratch3).view.loc (V d (cV L) (jV L)) ↦{fullShare} fb2 : sProp 𝕄)
      = ((Memref.whole cc1_scratch3).view.loc (V d (cV L) (jV L)) ↦[(Memref.whole cc1_scratch3).view.set]{fullShare} fb2) by rw [View.set_whole])) $$ Hb2
  iapply (SparseCore.wp_indirectGatherLocal countersEmb 𝒱₀ (V d (cV L) (jV L)) none (hg := gathers_S3328x128_S104x128) (default : HIx 1)
      (Memref.whole cc1_scratch3).view.dmaCredit (hN (Memref.whole cc1_scratch3) _) (by decide) (read_oSl_lt d L X hX 13312 ![208] inb_S13312_S104_208)) $$ [Htt2 Hbb Hlist2 Hs11]
  · isplitl [Htt2]; · iexact Htt2
    isplitl [Hbb]; · iexact Hbb
    isplitl [Hlist2]; · iexact Hlist2
    iexact Hs11
  iintro Hfl
  ihave Hfl2 := (Transfers.Flight_mono countersEmb (V d (cV L) (jV L)) (sm := SemLoc.dma cc1_scratch11.sem) (ι := (default : HIx 1)) (N := (Memref.whole cc1_scratch3).view.dmaCredit) (gather_deliver d L X Tb (Memref.whole cc1_scratch3) (Memref.isWhole_whole _) (2) ![208] inb_S13312_S104_208 (show (![208] : Fin 1 → ℕ) 0 = 104 * 2 from rfl) rfl
      (read_oSl_lt d L X hX 13312 ![208] inb_S13312_S104_208) fb2 ((tileShare L).left.left.right) (fullShare.left.left.right))) $$ Hfl
  -- gather chunk 3 into buffer 3
  sl_exec
  ihave Hls := (pointsTo_split_subset (q := (fullShare.left.left.left.right)) (f := idxF d L X) (S := loSet) (oSl_sub_lo ![312] inb_S13312_S104_312 (by decide))).1 $$ Hl3
  icases Hls with ⟨Hlist3, Hlrest3⟩
  ihave Hbb := (Entails.of_eq (show ((Memref.whole cc1_scratch4).view.loc (V d (cV L) (jV L)) ↦{fullShare} fb3 : sProp 𝕄)
      = ((Memref.whole cc1_scratch4).view.loc (V d (cV L) (jV L)) ↦[(Memref.whole cc1_scratch4).view.set]{fullShare} fb3) by rw [View.set_whole])) $$ Hb3
  iapply (SparseCore.wp_indirectGatherLocal countersEmb 𝒱₀ (V d (cV L) (jV L)) none (hg := gathers_S3328x128_S104x128) (default : HIx 1)
      (Memref.whole cc1_scratch4).view.dmaCredit (hN (Memref.whole cc1_scratch4) _) (by decide) (read_oSl_lt d L X hX 13312 ![312] inb_S13312_S104_312)) $$ [Htt3 Hbb Hlist3 Hs12]
  · isplitl [Htt3]; · iexact Htt3
    isplitl [Hbb]; · iexact Hbb
    isplitl [Hlist3]; · iexact Hlist3
    iexact Hs12
  iintro Hfl
  ihave Hfl3 := (Transfers.Flight_mono countersEmb (V d (cV L) (jV L)) (sm := SemLoc.dma cc1_scratch12.sem) (ι := (default : HIx 1)) (N := (Memref.whole cc1_scratch4).view.dmaCredit) (gather_deliver d L X Tb (Memref.whole cc1_scratch4) (Memref.isWhole_whole _) (3) ![312] inb_S13312_S104_312 (show (![312] : Fin 1 → ℕ) 0 = 104 * 3 from rfl) rfl
      (read_oSl_lt d L X hX 13312 ![312] inb_S13312_S104_312) fb3 ((tileShare L).left.left.left.right) (fullShare.left.left.left.right))) $$ Hfl
  -- gather chunk 4 into buffer 4
  sl_exec
  ihave Hls := (pointsTo_split_subset (q := (fullShare.left.left.left.left.right)) (f := idxF d L X) (S := loSet) (oSl_sub_lo ![416] inb_S13312_S104_416 (by decide))).1 $$ Hl4
  icases Hls with ⟨Hlist4, Hlrest4⟩
  ihave Hbb := (Entails.of_eq (show ((Memref.whole cc1_scratch5).view.loc (V d (cV L) (jV L)) ↦{fullShare} fb4 : sProp 𝕄)
      = ((Memref.whole cc1_scratch5).view.loc (V d (cV L) (jV L)) ↦[(Memref.whole cc1_scratch5).view.set]{fullShare} fb4) by rw [View.set_whole])) $$ Hb4
  iapply (SparseCore.wp_indirectGatherLocal countersEmb 𝒱₀ (V d (cV L) (jV L)) none (hg := gathers_S3328x128_S104x128) (default : HIx 1)
      (Memref.whole cc1_scratch5).view.dmaCredit (hN (Memref.whole cc1_scratch5) _) (by decide) (read_oSl_lt d L X hX 13312 ![416] inb_S13312_S104_416)) $$ [Htt4 Hbb Hlist4 Hs13]
  · isplitl [Htt4]; · iexact Htt4
    isplitl [Hbb]; · iexact Hbb
    isplitl [Hlist4]; · iexact Hlist4
    iexact Hs13
  iintro Hfl
  ihave Hfl4 := (Transfers.Flight_mono countersEmb (V d (cV L) (jV L)) (sm := SemLoc.dma cc1_scratch13.sem) (ι := (default : HIx 1)) (N := (Memref.whole cc1_scratch5).view.dmaCredit) (gather_deliver d L X Tb (Memref.whole cc1_scratch5) (Memref.isWhole_whole _) (4) ![416] inb_S13312_S104_416 (show (![416] : Fin 1 → ℕ) 0 = 104 * 4 from rfl) rfl
      (read_oSl_lt d L X hX 13312 ![416] inb_S13312_S104_416) fb4 ((tileShare L).left.left.left.left.right) (fullShare.left.left.left.left.right))) $$ Hfl
  -- gather chunk 5 into buffer 5
  sl_exec
  ihave Hls := (pointsTo_split_subset (q := (fullShare.left.left.left.left.left.right)) (f := idxF d L X) (S := loSet) (oSl_sub_lo ![520] inb_S13312_S104_520 (by decide))).1 $$ Hl5
  icases Hls with ⟨Hlist5, Hlrest5⟩
  ihave Hbb := (Entails.of_eq (show ((Memref.whole cc1_scratch6).view.loc (V d (cV L) (jV L)) ↦{fullShare} fb5 : sProp 𝕄)
      = ((Memref.whole cc1_scratch6).view.loc (V d (cV L) (jV L)) ↦[(Memref.whole cc1_scratch6).view.set]{fullShare} fb5) by rw [View.set_whole])) $$ Hb5
  iapply (SparseCore.wp_indirectGatherLocal countersEmb 𝒱₀ (V d (cV L) (jV L)) none (hg := gathers_S3328x128_S104x128) (default : HIx 1)
      (Memref.whole cc1_scratch6).view.dmaCredit (hN (Memref.whole cc1_scratch6) _) (by decide) (read_oSl_lt d L X hX 13312 ![520] inb_S13312_S104_520)) $$ [Htt5 Hbb Hlist5 Hs14]
  · isplitl [Htt5]; · iexact Htt5
    isplitl [Hbb]; · iexact Hbb
    isplitl [Hlist5]; · iexact Hlist5
    iexact Hs14
  iintro Hfl
  ihave Hfl5 := (Transfers.Flight_mono countersEmb (V d (cV L) (jV L)) (sm := SemLoc.dma cc1_scratch14.sem) (ι := (default : HIx 1)) (N := (Memref.whole cc1_scratch6).view.dmaCredit) (gather_deliver d L X Tb (Memref.whole cc1_scratch6) (Memref.isWhole_whole _) (5) ![520] inb_S13312_S104_520 (show (![520] : Fin 1 → ℕ) 0 = 104 * 5 from rfl) rfl
      (read_oSl_lt d L X hX 13312 ![520] inb_S13312_S104_520) fb5 ((tileShare L).left.left.left.left.left.right) (fullShare.left.left.left.left.left.right))) $$ Hfl
  -- gather chunk 6 into buffer 6
  sl_exec
  ihave Hls := (pointsTo_split_subset (q := (fullShare.left.left.left.left.left.left.right)) (f := idxF d L X) (S := loSet) (oSl_sub_lo ![624] inb_S13312_S104_624 (by decide))).1 $$ Hl6
  icases Hls with ⟨Hlist6, Hlrest6⟩
  ihave Hbb := (Entails.of_eq (show ((Memref.whole cc1_scratch7).view.loc (V d (cV L) (jV L)) ↦{fullShare} fb6 : sProp 𝕄)
      = ((Memref.whole cc1_scratch7).view.loc (V d (cV L) (jV L)) ↦[(Memref.whole cc1_scratch7).view.set]{fullShare} fb6) by rw [View.set_whole])) $$ Hb6
  iapply (SparseCore.wp_indirectGatherLocal countersEmb 𝒱₀ (V d (cV L) (jV L)) none (hg := gathers_S3328x128_S104x128) (default : HIx 1)
      (Memref.whole cc1_scratch7).view.dmaCredit (hN (Memref.whole cc1_scratch7) _) (by decide) (read_oSl_lt d L X hX 13312 ![624] inb_S13312_S104_624)) $$ [Htt6 Hbb Hlist6 Hs15]
  · isplitl [Htt6]; · iexact Htt6
    isplitl [Hbb]; · iexact Hbb
    isplitl [Hlist6]; · iexact Hlist6
    iexact Hs15
  iintro Hfl
  ihave Hfl6 := (Transfers.Flight_mono countersEmb (V d (cV L) (jV L)) (sm := SemLoc.dma cc1_scratch15.sem) (ι := (default : HIx 1)) (N := (Memref.whole cc1_scratch7).view.dmaCredit) (gather_deliver d L X Tb (Memref.whole cc1_scratch7) (Memref.isWhole_whole _) (6) ![624] inb_S13312_S104_624 (show (![624] : Fin 1 → ℕ) 0 = 104 * 6 from rfl) rfl
      (read_oSl_lt d L X hX 13312 ![624] inb_S13312_S104_624) fb6 ((tileShare L).left.left.left.left.left.left.right) (fullShare.left.left.left.left.left.left.right))) $$ Hfl
  -- gather chunk 7 into buffer 7
  sl_exec
  ihave Hls := (pointsTo_split_subset (q := (fullShare.left.left.left.left.left.left.left.right)) (f := idxF d L X) (S := loSet) (oSl_sub_lo ![728] inb_S13312_S104_728 (by decide))).1 $$ Hl7
  icases Hls with ⟨Hlist7, Hlrest7⟩
  ihave Hbb := (Entails.of_eq (show ((Memref.whole cc1_scratch8).view.loc (V d (cV L) (jV L)) ↦{fullShare} fb7 : sProp 𝕄)
      = ((Memref.whole cc1_scratch8).view.loc (V d (cV L) (jV L)) ↦[(Memref.whole cc1_scratch8).view.set]{fullShare} fb7) by rw [View.set_whole])) $$ Hb7
  iapply (SparseCore.wp_indirectGatherLocal countersEmb 𝒱₀ (V d (cV L) (jV L)) none (hg := gathers_S3328x128_S104x128) (default : HIx 1)
      (Memref.whole cc1_scratch8).view.dmaCredit (hN (Memref.whole cc1_scratch8) _) (by decide) (read_oSl_lt d L X hX 13312 ![728] inb_S13312_S104_728)) $$ [Htt7 Hbb Hlist7 Hs16]
  · isplitl [Htt7]; · iexact Htt7
    isplitl [Hbb]; · iexact Hbb
    isplitl [Hlist7]; · iexact Hlist7
    iexact Hs16
  iintro Hfl
  ihave Hfl7 := (Transfers.Flight_mono countersEmb (V d (cV L) (jV L)) (sm := SemLoc.dma cc1_scratch16.sem) (ι := (default : HIx 1)) (N := (Memref.whole cc1_scratch8).view.dmaCredit) (gather_deliver d L X Tb (Memref.whole cc1_scratch8) (Memref.isWhole_whole _) (7) ![728] inb_S13312_S104_728 (show (![728] : Fin 1 → ℕ) 0 = 104 * 7 from rfl) rfl
      (read_oSl_lt d L X hX 13312 ![728] inb_S13312_S104_728) fb7 ((tileShare L).left.left.left.left.left.left.left.right) (fullShare.left.left.left.left.left.left.left.right))) $$ Hfl
  -- phase 3: the other words get their field's offset while the gathers fly
  sl_exec
  sl_for (inv2 d L X) $$ [Hhi]
  case region =>
    intro k _
    unfold inv2
    iintro Hi
    sl_exec
    iapply (wp_load_rect 𝒱₀ (V d (cV L) (jV L)) none Set.univ (m := (Memref.whole cc1_scratch0)) (r := Rect.unit (s := S13312) (k1_off3 k) S16.size (k1_off3_inb k)) (hsub3 k)) $$ Hi
    iintro Hi
    sl_exec
    iapply (wp_load_rect 𝒱₀ (V d (cV L) (jV L)) none Set.univ (m := (Memref.whole cc1_scratch0)) (r := Rect.unit (s := S13312) (k1_off3 k) S16.size (k1_off3_inb k)) (hsub3 k)) $$ Hi
    iintro Hi
    sl_exec
    iapply (wp_store 𝒱₀ (V d (cV L) (jV L)) none Set.univ (m := (Memref.whole cc1_scratch0)) (r := Rect.unit (s := S13312) (k1_off3 k) S16.size (k1_off3_inb k)) (hsub3 k)) $$ Hi
    iintro Hi
    sl_exec
    sl_step
    iapply (Entails.of_eq (congrArg (fun f => ((V d (cV L) (jV L)).loc cc1_scratch0 ↦[hiSet]{fullShare} f : sProp 𝕄))
      (trip_val d L X (832 + 16 * k.val) (k1_off3 k) (k1_off3_inb k) (by rw [k1_off3_eq]; show 16 * k.val + 832 = _; omega) (k1_pay2 (Scalar.muli (Scalar.addi (Scalar.muli (BitVec.ofNat 32 (L 1).val) 2#32) (BitVec.ofNat 32 (L 0).val)) 13312#32) (iota .scVector S16 32 [0] iota_S16_d0_w32_scVector) k (((Memref.whole cc1_scratch0).access (Rect.unit (s := S13312) (k1_off3 k) S16.size (k1_off3_inb k))).read (Elt F) (idxG d L X (832 + 16 * k.val)))) (fun x => pay2_apply L k (((Memref.whole cc1_scratch0).access (Rect.unit (s := S13312) (k1_off3 k) S16.size (k1_off3_inb k))).read (Elt F) (idxG d L X (832 + 16 * k.val))) x))))
    iexact Hi
  · unfold inv2; iexact Hhi
  iintro %_ HI
  unfold inv2
  ihave Hhi := (Entails.of_eq (show ((V d (cV L) (jV L)).loc cc1_scratch0 ↦[hiSet]{fullShare} idxG d L X (832 + 16 * Scf.trips k1_t2_loop.lb k1_t2_loop.ub k1_t2_loop.st) : sProp 𝕄)
      = ((V d (cV L) (jV L)).loc cc1_scratch0 ↦[hiSet]{fullShare} idxF d L X) from rfl)) $$ HI
  -- phase 4: each gather waited for, its buffer copied out
  -- wait for gather 0
  sl_exec
  iapply (Transfers.wp_waitLocalO countersEmb 𝒱₀ (V d (cV L) (jV L)) none (default : HIx 1) (rfl : (Memref.whole cc1_scratch1).view.dmaCredit = _)) $$ [Hfl0 HO]
  · isplitl [Hfl0]; · iexact Hfl0
    isplitl [HO]; · iexact HO
    iapply (Transfers.MayWaits.elim (SemLoc.dma cc1_scratch9.sem)) $$ Hmw
  iintro ⟨⟨⟨%fb0, Hb0, %hg0⟩, Htt0, Hlist0⟩, Hs9, HO⟩
  -- copy buffer 0 out to chunk 0
  sl_exec
  ihave Hsp := (oRem_take d L O0 (0) (by decide)) $$ Horem
  icases Hsp with ⟨Hoc, Horem⟩
  ihave Hoc := (Entails.of_eq (show (oLoc d ↦[oChunk L (0)]{fullShare} O0 : sProp 𝕄)
      = ((oSlc (k1_off4 L 0#32) (k1_off4_inb L 0)).view.loc (V d (cV L) (jV L)) ↦[(oSlc (k1_off4 L 0#32) (k1_off4_inb L 0)).view.set]{fullShare} O0) by rw [set_oSlc L (0) (k1_off4 L 0#32) (k1_off4_inb L 0) (show (k1_off4 L 0#32) = ![1024 * (L 1).val + 512 * (L 0).val + 4 * (0), 0] from (k1_off4_eq L 0))])) $$ Hoc
  ihave Hsrc := (Entails.of_eq (show ((Memref.whole cc1_scratch1).view.loc (V d (cV L) (jV L)) ↦{fullShare} fb0 : sProp 𝕄)
      = ((rsh (Memref.whole cc1_scratch1) (Memref.isWhole_whole _)).view.loc (V d (cV L) (jV L)) ↦[(rsh (Memref.whole cc1_scratch1) (Memref.isWhole_whole _)).view.set]{fullShare} fb0) by
        rw [show (rsh (Memref.whole cc1_scratch1) (Memref.isWhole_whole _)).view.set = (Memref.whole cc1_scratch1).view.set from View.set_reshape _ _, View.set_whole])) $$ Hb0
  iapply (Transfers.wp_dmaLocal countersEmb 𝒱₀ (V d (cV L) (jV L)) none (default : HIx 1) (NO L) rfl (View.dmaCredit_pos _ (show 0 < S4x3328.numel by decide)) (Finset.Subset.refl _)) $$ [Hsrc Hoc Hs17]
  · isplitl [Hsrc]; · iexact Hsrc
    isplitl [Hoc]; · iexact Hoc
    iexact Hs17
  iintro Hofl
  ihave Hofl0 := (Transfers.Flight_mono countersEmb (V d (cV L) (jV L)) (sm := SemLoc.dma cc1_scratch17.sem) (ι := (default : HIx 1)) (N := NO L) (out_deliver d L X Tb hX O0 (Memref.whole cc1_scratch1) (Memref.isWhole_whole _) (0) (by decide) (k1_off4 L 0#32) (k1_off4_inb L 0) (show (k1_off4 L 0#32) = ![1024 * (L 1).val + 512 * (L 0).val + 4 * (0), 0] from (k1_off4_eq L 0)) fb0 hg0)) $$ Hofl
  -- wait for gather 1
  sl_exec
  iapply (Transfers.wp_waitLocalO countersEmb 𝒱₀ (V d (cV L) (jV L)) none (default : HIx 1) (rfl : (Memref.whole cc1_scratch2).view.dmaCredit = _)) $$ [Hfl1 HO]
  · isplitl [Hfl1]; · iexact Hfl1
    isplitl [HO]; · iexact HO
    iapply (Transfers.MayWaits.elim (SemLoc.dma cc1_scratch10.sem)) $$ Hmw
  iintro ⟨⟨⟨%fb1, Hb1, %hg1⟩, Htt1, Hlist1⟩, Hs10, HO⟩
  -- copy buffer 1 out to chunk 1
  sl_exec
  ihave Hsp := (oRem_take d L O0 (1) (by decide)) $$ Horem
  icases Hsp with ⟨Hoc, Horem⟩
  ihave Hoc := (Entails.of_eq (show (oLoc d ↦[oChunk L (1)]{fullShare} O0 : sProp 𝕄)
      = ((oSlc (k1_off4 L 4#32) (k1_off4_inb L 1)).view.loc (V d (cV L) (jV L)) ↦[(oSlc (k1_off4 L 4#32) (k1_off4_inb L 1)).view.set]{fullShare} O0) by rw [set_oSlc L (1) (k1_off4 L 4#32) (k1_off4_inb L 1) (show (k1_off4 L 4#32) = ![1024 * (L 1).val + 512 * (L 0).val + 4 * (1), 0] from (k1_off4_eq L 1))])) $$ Hoc
  ihave Hsrc := (Entails.of_eq (show ((Memref.whole cc1_scratch2).view.loc (V d (cV L) (jV L)) ↦{fullShare} fb1 : sProp 𝕄)
      = ((rsh (Memref.whole cc1_scratch2) (Memref.isWhole_whole _)).view.loc (V d (cV L) (jV L)) ↦[(rsh (Memref.whole cc1_scratch2) (Memref.isWhole_whole _)).view.set]{fullShare} fb1) by
        rw [show (rsh (Memref.whole cc1_scratch2) (Memref.isWhole_whole _)).view.set = (Memref.whole cc1_scratch2).view.set from View.set_reshape _ _, View.set_whole])) $$ Hb1
  iapply (Transfers.wp_dmaLocal countersEmb 𝒱₀ (V d (cV L) (jV L)) none (default : HIx 1) (NO L) rfl (View.dmaCredit_pos _ (show 0 < S4x3328.numel by decide)) (Finset.Subset.refl _)) $$ [Hsrc Hoc Hs18]
  · isplitl [Hsrc]; · iexact Hsrc
    isplitl [Hoc]; · iexact Hoc
    iexact Hs18
  iintro Hofl
  ihave Hofl1 := (Transfers.Flight_mono countersEmb (V d (cV L) (jV L)) (sm := SemLoc.dma cc1_scratch18.sem) (ι := (default : HIx 1)) (N := NO L) (out_deliver d L X Tb hX O0 (Memref.whole cc1_scratch2) (Memref.isWhole_whole _) (1) (by decide) (k1_off4 L 4#32) (k1_off4_inb L 1) (show (k1_off4 L 4#32) = ![1024 * (L 1).val + 512 * (L 0).val + 4 * (1), 0] from (k1_off4_eq L 1)) fb1 hg1)) $$ Hofl
  -- wait for gather 2
  sl_exec
  iapply (Transfers.wp_waitLocalO countersEmb 𝒱₀ (V d (cV L) (jV L)) none (default : HIx 1) (rfl : (Memref.whole cc1_scratch3).view.dmaCredit = _)) $$ [Hfl2 HO]
  · isplitl [Hfl2]; · iexact Hfl2
    isplitl [HO]; · iexact HO
    iapply (Transfers.MayWaits.elim (SemLoc.dma cc1_scratch11.sem)) $$ Hmw
  iintro ⟨⟨⟨%fb2, Hb2, %hg2⟩, Htt2, Hlist2⟩, Hs11, HO⟩
  -- the rest of phase 4 and the ring, part by part
  sl_step
  iapply (le_wp_ret _ _ _ PUnit.unit _)
  iapply (part8_bind d L X Tb O0 hX O W _ _ _)
  isplitl [HO Horem Hb2 Hs19 Hs20 Hs21 Hs22 Hfl3 Hfl4 Hfl5 Hfl6]
  · isplitr; · iexact Hmw
    isplitl [HO]
    · iexists _
      isplitr
      swap
      · iexact HO
      ipureintro; repeat (first | exact hW' | apply waits_ok)
    isplitl [Horem]
    · iexact Horem
    isplitl [Hb2]
    · iexists fb2
      isplitl [Hb2]
      · iexact Hb2
      · ipureintro; exact hg2
    isplitl [Hs19]
    · iexact Hs19
    isplitl [Hs20]
    · iexact Hs20
    isplitl [Hs21]
    · iexact Hs21
    isplitl [Hs22]
    · iexact Hs22
    isplitl [Hfl3]
    · iexact Hfl3
    isplitl [Hfl4]
    · iexact Hfl4
    isplitl [Hfl5]
    · iexact Hfl5
    iexact Hfl6
  iintro ⟨⟨%W', %hW', HO⟩, Horem, Hofl2, Hofl3, Hofl4, Hofl5, ⟨%fb6, Hb6, %hg6⟩, Htt3, Htt4, Htt5, Htt6, Hlist3, Hlist4, Hlist5, Hlist6, Hs12, Hs13, Hs14, Hs15⟩
  iapply (part9_bind d L X Tb O0 hX O W _ _ _)
  isplitl [HO Horem Hb6 Hs23 Hs24 Hfl7 Hofl0 Hofl1 Hofl2 Hofl3 Hofl4 Hofl5 Hhi Hlr7 Hlrest0 Hlrest1 Hlrest2 Hlrest3 Hlrest4 Hlrest5 Hlrest6 Hlrest7 Hlist0 Hlist1 Hlist2 Hlist3 Hlist4 Hlist5 Hlist6 Htt0 Htt1 Htt2 Htt3 Htt4 Htt5 Htt6 Hs9 Hs10 Hs11 Hs12 Hs13 Hs14 Hs15 Hodone]
  · isplitr; · iexact Hmw
    isplitl [HO]
    · iexists _
      isplitr
      swap
      · iexact HO
      ipureintro; repeat (first | exact hW' | apply waits_ok)
    isplitl [Horem]
    · iexact Horem
    isplitl [Hb6]
    · iexists fb6
      isplitl [Hb6]
      · iexact Hb6
      · ipureintro; exact hg6
    isplitl [Hs23]
    · iexact Hs23
    isplitl [Hs24]
    · iexact Hs24
    isplitl [Hfl7]
    · iexact Hfl7
    isplitl [Hofl0]
    · iexact Hofl0
    isplitl [Hofl1]
    · iexact Hofl1
    isplitl [Hofl2]
    · iexact Hofl2
    isplitl [Hofl3]
    · iexact Hofl3
    isplitl [Hofl4]
    · iexact Hofl4
    isplitl [Hofl5]
    · iexact Hofl5
    isplitl [Hhi]
    · iexact Hhi
    isplitl [Hlr7]
    · iexact Hlr7
    isplitl [Hlrest0]
    · iexact Hlrest0
    isplitl [Hlrest1]
    · iexact Hlrest1
    isplitl [Hlrest2]
    · iexact Hlrest2
    isplitl [Hlrest3]
    · iexact Hlrest3
    isplitl [Hlrest4]
    · iexact Hlrest4
    isplitl [Hlrest5]
    · iexact Hlrest5
    isplitl [Hlrest6]
    · iexact Hlrest6
    isplitl [Hlrest7]
    · iexact Hlrest7
    isplitl [Hlist0]
    · iexact Hlist0
    isplitl [Hlist1]
    · iexact Hlist1
    isplitl [Hlist2]
    · iexact Hlist2
    isplitl [Hlist3]
    · iexact Hlist3
    isplitl [Hlist4]
    · iexact Hlist4
    isplitl [Hlist5]
    · iexact Hlist5
    isplitl [Hlist6]
    · iexact Hlist6
    isplitl [Htt0]
    · iexact Htt0
    isplitl [Htt1]
    · iexact Htt1
    isplitl [Htt2]
    · iexact Htt2
    isplitl [Htt3]
    · iexact Htt3
    isplitl [Htt4]
    · iexact Htt4
    isplitl [Htt5]
    · iexact Htt5
    isplitl [Htt6]
    · iexact Htt6
    isplitl [Hs9]
    · iexact Hs9
    isplitl [Hs10]
    · iexact Hs10
    isplitl [Hs11]
    · iexact Hs11
    isplitl [Hs12]
    · iexact Hs12
    isplitl [Hs13]
    · iexact Hs13
    isplitl [Hs14]
    · iexact Hs14
    isplitl [Hs15]
    · iexact Hs15
    iexact Hodone
  iintro ⟨⟨%W', %hW', HO⟩, Hodone, Horem, Hofl5, Hofl6, Hofl7, ⟨%fb0, Hb0⟩, ⟨%fb1, Hb1⟩, ⟨%fb2, Hb2⟩, ⟨%fb3, Hb3⟩, ⟨%fb4, Hb4⟩, Hs17, Hs18, Hs19, Hs20, Hs21, Htt0, Htt1, Htt2, Htt3, Htt4, Htt5, Htt6, Htt7, Hl0, Hl1, Hl2, Hl3, Hl4, Hl5, Hl6, Hl7, Hur7, Hs9, Hs10, Hs11, Hs12, Hs13, Hs14, Hs15, Hs16⟩
  -- phase 6: the last three copies out
  -- wait for the copy of buffer 5 out to chunk 125
  sl_exec
  iapply (Transfers.wp_waitLocalO countersEmb 𝒱₀ (V d (cV L) (jV L)) none (default : HIx 1) (rfl : _ = NO L)) $$ [Hofl5 HO]
  · isplitl [Hofl5]; · iexact Hofl5
    isplitl [HO]; · iexact HO
    iapply (Transfers.MayWaits.elim (SemLoc.dma cc1_scratch22.sem)) $$ Hmw
  iintro ⟨⟨Hoc, ⟨%fb5, Hb5⟩⟩, Hs22, HO⟩
  ihave Hodone := (oDone_put d L (gatherOut (F := F) X Tb : Buf (Elt F) (oLoc d)) (125) (by decide)) $$ [Hoc Hodone]
  · isplitl [Hoc]; · iexact Hoc
    iexact Hodone
  -- wait for the copy of buffer 6 out to chunk 126
  sl_exec
  iapply (Transfers.wp_waitLocalO countersEmb 𝒱₀ (V d (cV L) (jV L)) none (default : HIx 1) (rfl : _ = NO L)) $$ [Hofl6 HO]
  · isplitl [Hofl6]; · iexact Hofl6
    isplitl [HO]; · iexact HO
    iapply (Transfers.MayWaits.elim (SemLoc.dma cc1_scratch23.sem)) $$ Hmw
  iintro ⟨⟨Hoc, ⟨%fb6, Hb6⟩⟩, Hs23, HO⟩
  ihave Hodone := (oDone_put d L (gatherOut (F := F) X Tb : Buf (Elt F) (oLoc d)) (126) (by decide)) $$ [Hoc Hodone]
  · isplitl [Hoc]; · iexact Hoc
    iexact Hodone
  -- wait for the copy of buffer 7 out to chunk 127
  sl_exec
  iapply (Transfers.wp_waitLocalO countersEmb 𝒱₀ (V d (cV L) (jV L)) none (default : HIx 1) (rfl : _ = NO L)) $$ [Hofl7 HO]
  · isplitl [Hofl7]; · iexact Hofl7
    isplitl [HO]; · iexact HO
    iapply (Transfers.MayWaits.elim (SemLoc.dma cc1_scratch24.sem)) $$ Hmw
  iintro ⟨⟨Hoc, ⟨%fb7, Hb7⟩⟩, Hs24, HO⟩
  ihave Hodone := (oDone_put d L (gatherOut (F := F) X Tb : Buf (Elt F) (oLoc d)) (127) (by decide)) $$ [Hoc Hodone]
  · isplitl [Hoc]; · iexact Hoc
    iexact Hodone
  sl_exec
  sl_step
  -- what is handed back
  isplitl [Hodone]
  · iapply (Entails.of_eq (show ((oLoc d ↦[oDone L 128]{fullShare} (gatherOut (F := F) X Tb : Buf (Elt F) (oLoc d))) : sProp 𝕄) = (oLoc d ↦[oSet L]{fullShare} (gatherOut (F := F) X Tb : Buf (Elt F) (oLoc d))) by rw [oDone_all]))
    iexact Hodone
  ihave Hur6 := (pointsTo_share (PosShare.mem_left_op_right (fullShare.left.left.left.left.left.left.left))).2 $$ [Hur7 Hl7]
  · isplitl [Hur7]; · iexact Hur7
    iexact Hl7
  ihave Hur5 := (pointsTo_share (PosShare.mem_left_op_right (fullShare.left.left.left.left.left.left))).2 $$ [Hur6 Hl6]
  · isplitl [Hur6]; · iexact Hur6
    iexact Hl6
  ihave Hur4 := (pointsTo_share (PosShare.mem_left_op_right (fullShare.left.left.left.left.left))).2 $$ [Hur5 Hl5]
  · isplitl [Hur5]; · iexact Hur5
    iexact Hl5
  ihave Hur3 := (pointsTo_share (PosShare.mem_left_op_right (fullShare.left.left.left.left))).2 $$ [Hur4 Hl4]
  · isplitl [Hur4]; · iexact Hur4
    iexact Hl4
  ihave Hur2 := (pointsTo_share (PosShare.mem_left_op_right (fullShare.left.left.left))).2 $$ [Hur3 Hl3]
  · isplitl [Hur3]; · iexact Hur3
    iexact Hl3
  ihave Hur1 := (pointsTo_share (PosShare.mem_left_op_right (fullShare.left.left))).2 $$ [Hur2 Hl2]
  · isplitl [Hur2]; · iexact Hur2
    iexact Hl2
  ihave Hur0 := (pointsTo_share (PosShare.mem_left_op_right (fullShare.left))).2 $$ [Hur1 Hl1]
  · isplitl [Hur1]; · iexact Hur1
    iexact Hl1
  ihave Hlall := (pointsTo_share (PosShare.mem_left_op_right (fullShare))).2 $$ [Hur0 Hl0]
  · isplitl [Hur0]; · iexact Hur0
    iexact Hl0
  isplitl [Hlall Hb0 Hb1 Hb2 Hb3 Hb4 Hb5 Hb6 Hb7 Hbufs]
  · isplitl [Hlall]; · iexists _; iexact Hlall
    isplitl [Hb0]; · iexists _; iexact Hb0
    isplitl [Hb1]; · iexists _; iexact Hb1
    isplitl [Hb2]; · iexists _; iexact Hb2
    isplitl [Hb3]; · iexists _; iexact Hb3
    isplitl [Hb4]; · iexists _; iexact Hb4
    isplitl [Hb5]; · iexists _; iexact Hb5
    isplitl [Hb6]; · iexists _; iexact Hb6
    isplitl [Hb7]; · iexists _; iexact Hb7
    iexact Hbufs
  isplitl [Hs9 Hs10 Hs11 Hs12 Hs13 Hs14 Hs15 Hs16 Hs17 Hs18 Hs19 Hs20 Hs21 Hs22 Hs23 Hs24 Hs0 Hsems]
  · isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs17]; · iexact Hs17
    isplitl [Hs18]; · iexact Hs18
    isplitl [Hs19]; · iexact Hs19
    isplitl [Hs20]; · iexact Hs20
    isplitl [Hs21]; · iexact Hs21
    isplitl [Hs22]; · iexact Hs22
    isplitl [Hs23]; · iexact Hs23
    isplitl [Hs24]; · iexact Hs24
    isplitl [Hs0]; · iexact Hs0
    iexact Hsems
  iexists _; isplitr
  swap; · iexact HO
  ipureintro; repeat (first | exact hW' | apply waits_ok)

end Tile
end Cert.Proof.KB
end
-- ==== Proof.lean ====
/-
  The certificate's claim.

  The kernel rescales 26 square tables row by row — a row of Euclidean norm above one is brought back to norm one —
  into one table of 3328 rows on the TensorCore, lays the 16384 x 26 row numbers out flat, and has the 32 vector
  subcores of the two SparseCores gather, for batch row b and field f, row x[b, f] + 128 f of the rescaled table into
  columns [128 f, 128 f + 128) of result row b.  The reference takes row x[b, f] of table f first and rescales it after.
  Rescaling is one function of a row, so the two results agree at every index over the extended reals; no finiteness
  is needed, only that every row number lies in [0, 127], which the precondition states.

  The three frames are the three runs with the values dropped; the ideal pass changed nothing, so the preservation
  claim is trivial; the value claim pairs the idealized kernel's run with the reference's at the one result function.
-/
import proofs.«207321_g10943576670982_fold_wed_m_632_36_alg».proof.Proof.Claims
import proofs.«207321_g10943576670982_fold_wed_m_632_36_alg».proof.Proof.TileI6
import proofs.«207321_g10943576670982_fold_wed_m_632_36_alg».proof.Proof.TileB6
import proofs.«207321_g10943576670982_fold_wed_m_632_36_alg».proof.Proof.Gen.Kernel
import proofs.«207321_g10943576670982_fold_wed_m_632_36_alg».proof.Proof.Gen.KernelIdeal
import proofs.«207321_g10943576670982_fold_wed_m_632_36_alg».proof.Proof.Gen.ReferenceIdeal
import proofs.«207321_g10943576670982_fold_wed_m_632_36_alg».proof.Proof.Gen.Pre_input_domain

noncomputable section

namespace Cert.Proof

open Idealize.ShloMosaic Idealize.SL.Sem

/-- A vector subcore's task, for the idealized kernel and for the word-level one. -/
theorem bodyI : KI.TileBody (F := Ideal) KI.UU :=
  fun hF d L X Tb O0 hX O W hO => KI.tile_body d L hF X Tb O0 hX O W hO
theorem bodyB : KB.TileBody (F := Bits) KB.UU :=
  fun hF d L X Tb O0 hX O W hO => KB.tile_body d L hF X Tb O0 hX O W hO

theorem claim : Cert.Claim :=
  ⟨Cert.Kernel.Gen.facts, Cert.KernelIdeal.Gen.facts, Cert.ReferenceIdeal.Gen.facts, Cert.Pre_input_domain.Gen.facts,
    Claims.frame_KB bodyB, Claims.frame_KI bodyI, Claims.frame_RI, trivial, Claims.algebraic bodyI⟩

end Cert.Proof

end
